-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x32 : Shape := ⟨2, ![16384, 32]⟩
abbrev S100001x128 : Shape := ⟨2, ![100001, 128]⟩
abbrev S_ : Shape := ⟨0, ![]⟩

class Facts : Prop where
  bcast_S_S100001x128 : S_.BroadcastsInDim S100001x128 (![] : Fin 0 → Fin S100001x128.rank)
  reducesTo_S100001x128_S_d0_1 : S100001x128.ReducesTo [0, 1] S_
  h_S_ : 0 < S_.numel
  bcast_S_S16384x32 : S_.BroadcastsInDim S16384x32 (![] : Fin 0 → Fin S16384x32.rank)
  reducesTo_S16384x32_S_d0_1 : S16384x32.ReducesTo [0, 1] S_

variable [Facts]

def fn {F : FTy → Type} [FloatOps F] (main_arg0 : IVec S16384x32 32) (main_arg1 : FVec F S100001x128 .f32) (main_arg2 : FVec F S16384x32 .f32) : IVec S_ 1 :=
  let main_v0 : FVec F S100001x128 .f32 := Host.absf main_arg1
  let main_cst : FVec F S_ .f32 := constant S_ .f32 0x7F800000#32
  let main_v1 : FVec F S100001x128 .f32 := broadcastInDim S100001x128 ![] bcast_S_S100001x128 main_cst
  let main_v2 : IVec S100001x128 1 := cmpf .olt main_v0 main_v1
  let main_c : IVec S_ 1 := constantI S_ 1 1#1
  let main_v3 : IVec S_ 1 := (fun x v => Host.reduce IntOp.andi x v reducesTo_S100001x128_S_d0_1 h_S_) main_v2 main_c
  let main_v4 : FVec F S16384x32 .f32 := Host.absf main_arg2
  let main_cst_0 : FVec F S_ .f32 := constant S_ .f32 0x7F800000#32
  let main_v5 : FVec F S16384x32 .f32 := broadcastInDim S16384x32 ![] bcast_S_S16384x32 main_cst_0
  let main_v6 : IVec S16384x32 1 := cmpf .olt main_v4 main_v5
  let main_c_1 : IVec S_ 1 := constantI S_ 1 1#1
  let main_v7 : IVec S_ 1 := (fun x v => Host.reduce IntOp.andi x v reducesTo_S16384x32_S_d0_1 h_S_) main_v6 main_c_1
  let main_v8 : IVec S_ 1 := andi main_v3 main_v7
  let main_c_2 : IVec S_ 32 := constantI S_ 32 0#32
  let main_v9 : IVec S16384x32 32 := broadcastInDim S16384x32 ![] bcast_S_S16384x32 main_c_2
  let main_v10 : IVec S16384x32 1 := cmpi .sge main_arg0 main_v9
  let main_c_3 : IVec S_ 32 := constantI S_ 32 100000#32
  let main_v11 : IVec S16384x32 32 := broadcastInDim S16384x32 ![] bcast_S_S16384x32 main_c_3
  let main_v12 : IVec S16384x32 1 := cmpi .sle main_arg0 main_v11
  let main_v13 : IVec S16384x32 1 := andi main_v10 main_v12
  let main_c_4 : IVec S_ 1 := constantI S_ 1 1#1
  let main_v14 : IVec S_ 1 := (fun x v => Host.reduce IntOp.andi x v reducesTo_S16384x32_S_d0_1 h_S_) main_v13 main_c_4
  let main_v15 : IVec S_ 1 := andi main_v8 main_v14
  main_v15
-- ==== Kernel.lean ====
abbrev S16384x32 : Shape := ⟨2, ![16384, 32]⟩
abbrev S100001x128 : Shape := ⟨2, ![100001, 128]⟩
abbrev S64x64x128 : Shape := ⟨3, ![64, 64, 128]⟩
abbrev S2048x32 : Shape := ⟨2, ![2048, 32]⟩
abbrev S2048 : Shape := ⟨1, ![2048]⟩
abbrev S2048x1 : Shape := ⟨2, ![2048, 1]⟩
abbrev S64x8192 : Shape := ⟨2, ![64, 8192]⟩
abbrev S16384x128 : Shape := ⟨2, ![16384, 128]⟩
abbrev S64x128 : Shape := ⟨2, ![64, 128]⟩
abbrev S8192 : Shape := ⟨1, ![8192]⟩
abbrev S128x128 : Shape := ⟨2, ![128, 128]⟩
abbrev S256x128 : Shape := ⟨2, ![256, 128]⟩
abbrev S_ : Shape := ⟨0, ![]⟩
abbrev S1x64x128 : Shape := ⟨3, ![1, 64, 128]⟩
abbrev S1x8192 : Shape := ⟨2, ![1, 8192]⟩
abbrev S1x128 : Shape := ⟨2, ![1, 128]⟩
abbrev S128 : Shape := ⟨1, ![128]⟩
abbrev S16 : Shape := ⟨1, ![16]⟩
abbrev S1x16 : Shape := ⟨2, ![1, 16]⟩
abbrev S1 : Shape := ⟨1, ![1]⟩

abbrev nBuf : Table → Nat
  | .hbm => 7
  | .local .tc .vmem => 4
  | .local .scVector .vmem => 5
  | _ => 0

abbrev bufTy : (tb : Table) → Fin (nBuf tb) → BufTy
  | .hbm, ⟨0, _⟩ => ⟨S16384x32, .i32⟩
  | .hbm, ⟨1, _⟩ => ⟨S100001x128, .f32⟩
  | .hbm, ⟨2, _⟩ => ⟨S16384x32, .f32⟩
  | .hbm, ⟨3, _⟩ => ⟨S64x64x128, .i32⟩
  | .hbm, ⟨4, _⟩ => ⟨S16384x32, .f32⟩
  | .hbm, ⟨5, _⟩ => ⟨S64x8192, .f32⟩
  | .hbm, ⟨6, _⟩ => ⟨S16384x128, .f32⟩
  | .local .tc .vmem, ⟨0, _⟩ => ⟨S2048x32, .f32⟩
  | .local .tc .vmem, ⟨1, _⟩ => ⟨S2048x32, .f32⟩
  | .local .tc .vmem, ⟨2, _⟩ => ⟨S2048x32, .f32⟩
  | .local .tc .vmem, ⟨3, _⟩ => ⟨S2048x32, .f32⟩
  | .local .scVector .vmem, ⟨0, _⟩ => ⟨S64x128, .i32⟩
  | .local .scVector .vmem, ⟨1, _⟩ => ⟨S8192, .f32⟩
  | .local .scVector .vmem, ⟨2, _⟩ => ⟨S128x128, .f32⟩
  | .local .scVector .vmem, ⟨3, _⟩ => ⟨S128x128, .f32⟩
  | .local .scVector .vmem, ⟨4, _⟩ => ⟨S256x128, .f32⟩
  | _, _ => ⟨S16384x32, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v0_scv : Ref sig .scVector := ⟨.hbm, 3, rfl⟩
abbrev main_v2_scv : Ref sig .scVector := ⟨.hbm, 5, rfl⟩
abbrev main_arg1_scv : Ref sig .scVector := ⟨.hbm, 1, rfl⟩
abbrev main_v3_scv : Ref sig .scVector := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

@[reducible] def k1_t1_loop : Scf.Loop 32 :=
  let c0_i32_0 : BitVec 32 := 0#32
  let c2_i32_1 : BitVec 32 := 2#32
  let v2 : BitVec 32 := Scalar.addi c0_i32_0 c2_i32_1
  let c1_i32 : BitVec 32 := 1#32
  ⟨c0_i32_0, v2, c1_i32⟩
def k1_off1 (i : grid1.Coords) (k1_t1 : Fin k1_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_3 : BitVec 32 := 2#32
  let v3 : BitVec 32 := Scalar.muli v1 c2_i32_3
  let c0_i32_0 : BitVec 32 := 0#32
  let c1_i32 : BitVec 32 := 1#32
  let arg13 : BitVec 32 := Scf.iv c0_i32_0 c1_i32 k1_t1
  let v4 : BitVec 32 := Scalar.addi v3 arg13
  let c0_i32_12_r0 : BitVec 32 := 0#32
  let c0_i32_13_r0 : BitVec 32 := 0#32
  ![v4.toNat, 0, 0]
def k1_off2 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_3 : BitVec 32 := 2#32
  let v3 : BitVec 32 := Scalar.muli v1 c2_i32_3
  let c0_i32_0 : BitVec 32 := 0#32
  let c1_i32 : BitVec 32 := 1#32
  let arg13 : BitVec 32 := Scf.iv c0_i32_0 c1_i32 k1_t1
  let v4 : BitVec 32 := Scalar.addi v3 arg13
  let c0_i32_12_r1 : BitVec 32 := 0#32
  ![v4.toNat, 0]
def k1_off3 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v5 : BitVec 32 := Scalar.muli v1 c512_i32
  let c0_i32_0 : BitVec 32 := 0#32
  let c1_i32 : BitVec 32 := 1#32
  let arg13 : BitVec 32 := Scf.iv c0_i32_0 c1_i32 k1_t1
  let c256_i32 : BitVec 32 := 256#32
  let v6 : BitVec 32 := Scalar.muli arg13 c256_i32
  let v7 : BitVec 32 := Scalar.addi v5 v6
  let c0_i32_12_r2 : BitVec 32 := 0#32
  ![v7.toNat, 0]
@[reducible] def k1_t2_loop : Scf.Loop 32 :=
  let c0_i32_9 : BitVec 32 := 0#32
  let c32_i32 : BitVec 32 := 32#32
  let v11 : BitVec 32 := Scalar.addi c0_i32_9 c32_i32
  let c1_i32_10 : BitVec 32 := 1#32
  ⟨c0_i32_9, v11, c1_i32_10⟩
def k1_off4 (k1_t2 : Fin k1_t2_loop.trips) : Fin 2 → Nat :=
  let c0_i32_9 : BitVec 32 := 0#32
  let c1_i32_10 : BitVec 32 := 1#32
  let arg14 : BitVec 32 := Scf.iv c0_i32_9 c1_i32_10 k1_t2
  let c2_i32_12 : BitVec 32 := 2#32
  let v12 : BitVec 32 := Scalar.muli arg14 c2_i32_12
  let c1_i32_13 : BitVec 32 := 1#32
  let v13 : BitVec 32 := Scalar.addi v12 c1_i32_13
  let c0_i32_14 : BitVec 32 := 0#32
  ![v13.toNat, 0]
@[reducible] def k1_t3_loop : Scf.Loop 32 :=
  let c0_i32_22 : BitVec 32 := 0#32
  let c4_i32 : BitVec 32 := 4#32
  let v20 : BitVec 32 := Scalar.addi c0_i32_22 c4_i32
  let c1_i32_23 : BitVec 32 := 1#32
  ⟨c0_i32_22, v20, c1_i32_23⟩
def k1_off5 (k1_t2 : Fin k1_t2_loop.trips) (k1_t3 : Fin k1_t3_loop.trips) : Fin 1 → Nat :=
  let c0_i32_9 : BitVec 32 := 0#32
  let c1_i32_10 : BitVec 32 := 1#32
  let arg14 : BitVec 32 := Scf.iv c0_i32_9 c1_i32_10 k1_t2
  let c2_i32_12 : BitVec 32 := 2#32
  let v12 : BitVec 32 := Scalar.muli arg14 c2_i32_12
  let c4_i32_37 : BitVec 32 := 4#32
  let v30 : BitVec 32 := Scalar.muli v12 c4_i32_37
  let c0_i32_22 : BitVec 32 := 0#32
  let c1_i32_23 : BitVec 32 := 1#32
  let arg15 : BitVec 32 := Scf.iv c0_i32_22 c1_i32_23 k1_t3
  let v31 : BitVec 32 := Scalar.addi v30 arg15
  let c32_i32_39 : BitVec 32 := 32#32
  let v33 : BitVec 32 := Scalar.muli v31 c32_i32_39
  let v34 : Index := Scalar.indexCast v33
  ![v34.toNat]
def k1_off6 (k1_t2 : Fin k1_t2_loop.trips) (k1_t3 : Fin k1_t3_loop.trips) : Fin 1 → Nat :=
  let c0_i32_9 : BitVec 32 := 0#32
  let c1_i32_10 : BitVec 32 := 1#32
  let arg14 : BitVec 32 := Scf.iv c0_i32_9 c1_i32_10 k1_t2
  let c2_i32_12 : BitVec 32 := 2#32
  let v12 : BitVec 32 := Scalar.muli arg14 c2_i32_12
  let c4_i32_37 : BitVec 32 := 4#32
  let v30 : BitVec 32 := Scalar.muli v12 c4_i32_37
  let c0_i32_22 : BitVec 32 := 0#32
  let c1_i32_23 : BitVec 32 := 1#32
  let arg15 : BitVec 32 := Scf.iv c0_i32_22 c1_i32_23 k1_t3
  let v31 : BitVec 32 := Scalar.addi v30 arg15
  let c32_i32_40 : BitVec 32 := 32#32
  let v37 : BitVec 32 := Scalar.muli v31 c32_i32_40
  let c16_i32 : BitVec 32 := 16#32
  let v38 : BitVec 32 := Scalar.addi v37 c16_i32
  let v39 : Index := Scalar.indexCast v38
  ![v39.toNat]
def k1_off7 (k1_t2 : Fin k1_t2_loop.trips) (k1_t3 : Fin k1_t3_loop.trips) : Fin 2 → Nat :=
  let c0_i32_9 : BitVec 32 := 0#32
  let c1_i32_10 : BitVec 32 := 1#32
  let arg14 : BitVec 32 := Scf.iv c0_i32_9 c1_i32_10 k1_t2
  let c2_i32_12 : BitVec 32 := 2#32
  let v12 : BitVec 32 := Scalar.muli arg14 c2_i32_12
  let c4_i32_37 : BitVec 32 := 4#32
  let v30 : BitVec 32 := Scalar.muli v12 c4_i32_37
  let c0_i32_22 : BitVec 32 := 0#32
  let c1_i32_23 : BitVec 32 := 1#32
  let arg15 : BitVec 32 := Scf.iv c0_i32_22 c1_i32_23 k1_t3
  let v31 : BitVec 32 := Scalar.addi v30 arg15
  let v42 : Index := Scalar.indexCast v31
  let c0 : Index := 0#32
  ![v42.toNat, 0]
def k1_off8 (k1_t2 : Fin k1_t2_loop.trips) (k1_t3 : Fin k1_t3_loop.trips) : Fin 2 → Nat :=
  let c0_i32_9 : BitVec 32 := 0#32
  let c1_i32_10 : BitVec 32 := 1#32
  let arg14 : BitVec 32 := Scf.iv c0_i32_9 c1_i32_10 k1_t2
  let c2_i32_12 : BitVec 32 := 2#32
  let v12 : BitVec 32 := Scalar.muli arg14 c2_i32_12
  let c4_i32_37 : BitVec 32 := 4#32
  let v30 : BitVec 32 := Scalar.muli v12 c4_i32_37
  let c0_i32_22 : BitVec 32 := 0#32
  let c1_i32_23 : BitVec 32 := 1#32
  let arg15 : BitVec 32 := Scf.iv c0_i32_22 c1_i32_23 k1_t3
  let v31 : BitVec 32 := Scalar.addi v30 arg15
  let v45 : Index := Scalar.indexCast v31
  let c16 : Index := 16#32
  ![v45.toNat, 16]
def k1_off9 (k1_t2 : Fin k1_t2_loop.trips) (k1_t3 : Fin k1_t3_loop.trips) : Fin 2 → Nat :=
  let c0_i32_9 : BitVec 32 := 0#32
  let c1_i32_10 : BitVec 32 := 1#32
  let arg14 : BitVec 32 := Scf.iv c0_i32_9 c1_i32_10 k1_t2
  let c2_i32_12 : BitVec 32 := 2#32
  let v12 : BitVec 32 := Scalar.muli arg14 c2_i32_12
  let c4_i32_37 : BitVec 32 := 4#32
  let v30 : BitVec 32 := Scalar.muli v12 c4_i32_37
  let c0_i32_22 : BitVec 32 := 0#32
  let c1_i32_23 : BitVec 32 := 1#32
  let arg15 : BitVec 32 := Scf.iv c0_i32_22 c1_i32_23 k1_t3
  let v31 : BitVec 32 := Scalar.addi v30 arg15
  let v48 : Index := Scalar.indexCast v31
  let c32 : Index := 32#32
  ![v48.toNat, 32]
def k1_off10 (k1_t2 : Fin k1_t2_loop.trips) (k1_t3 : Fin k1_t3_loop.trips) : Fin 2 → Nat :=
  let c0_i32_9 : BitVec 32 := 0#32
  let c1_i32_10 : BitVec 32 := 1#32
  let arg14 : BitVec 32 := Scf.iv c0_i32_9 c1_i32_10 k1_t2
  let c2_i32_12 : BitVec 32 := 2#32
  let v12 : BitVec 32 := Scalar.muli arg14 c2_i32_12
  let c4_i32_37 : BitVec 32 := 4#32
  let v30 : BitVec 32 := Scalar.muli v12 c4_i32_37
  let c0_i32_22 : BitVec 32 := 0#32
  let c1_i32_23 : BitVec 32 := 1#32
  let arg15 : BitVec 32 := Scf.iv c0_i32_22 c1_i32_23 k1_t3
  let v31 : BitVec 32 := Scalar.addi v30 arg15
  let v51 : Index := Scalar.indexCast v31
  let c48 : Index := 48#32
  ![v51.toNat, 48]
def k1_off11 (k1_t2 : Fin k1_t2_loop.trips) (k1_t3 : Fin k1_t3_loop.trips) : Fin 2 → Nat :=
  let c0_i32_9 : BitVec 32 := 0#32
  let c1_i32_10 : BitVec 32 := 1#32
  let arg14 : BitVec 32 := Scf.iv c0_i32_9 c1_i32_10 k1_t2
  let c2_i32_12 : BitVec 32 := 2#32
  let v12 : BitVec 32 := Scalar.muli arg14 c2_i32_12
  let c4_i32_37 : BitVec 32 := 4#32
  let v30 : BitVec 32 := Scalar.muli v12 c4_i32_37
  let c0_i32_22 : BitVec 32 := 0#32
  let c1_i32_23 : BitVec 32 := 1#32
  let arg15 : BitVec 32 := Scf.iv c0_i32_22 c1_i32_23 k1_t3
  let v31 : BitVec 32 := Scalar.addi v30 arg15
  let v54 : Index := Scalar.indexCast v31
  let c64 : Index := 64#32
  ![v54.toNat, 64]
def k1_off12 (k1_t2 : Fin k1_t2_loop.trips) (k1_t3 : Fin k1_t3_loop.trips) : Fin 2 → Nat :=
  let c0_i32_9 : BitVec 32 := 0#32
  let c1_i32_10 : BitVec 32 := 1#32
  let arg14 : BitVec 32 := Scf.iv c0_i32_9 c1_i32_10 k1_t2
  let c2_i32_12 : BitVec 32 := 2#32
  let v12 : BitVec 32 := Scalar.muli arg14 c2_i32_12
  let c4_i32_37 : BitVec 32 := 4#32
  let v30 : BitVec 32 := Scalar.muli v12 c4_i32_37
  let c0_i32_22 : BitVec 32 := 0#32
  let c1_i32_23 : BitVec 32 := 1#32
  let arg15 : BitVec 32 := Scf.iv c0_i32_22 c1_i32_23 k1_t3
  let v31 : BitVec 32 := Scalar.addi v30 arg15
  let v57 : Index := Scalar.indexCast v31
  let c80 : Index := 80#32
  ![v57.toNat, 80]
def k1_off13 (k1_t2 : Fin k1_t2_loop.trips) (k1_t3 : Fin k1_t3_loop.trips) : Fin 2 → Nat :=
  let c0_i32_9 : BitVec 32 := 0#32
  let c1_i32_10 : BitVec 32 := 1#32
  let arg14 : BitVec 32 := Scf.iv c0_i32_9 c1_i32_10 k1_t2
  let c2_i32_12 : BitVec 32 := 2#32
  let v12 : BitVec 32 := Scalar.muli arg14 c2_i32_12
  let c4_i32_37 : BitVec 32 := 4#32
  let v30 : BitVec 32 := Scalar.muli v12 c4_i32_37
  let c0_i32_22 : BitVec 32 := 0#32
  let c1_i32_23 : BitVec 32 := 1#32
  let arg15 : BitVec 32 := Scf.iv c0_i32_22 c1_i32_23 k1_t3
  let v31 : BitVec 32 := Scalar.addi v30 arg15
  let v60 : Index := Scalar.indexCast v31
  let c96 : Index := 96#32
  ![v60.toNat, 96]
def k1_off14 (k1_t2 : Fin k1_t2_loop.trips) (k1_t3 : Fin k1_t3_loop.trips) : Fin 2 → Nat :=
  let c0_i32_9 : BitVec 32 := 0#32
  let c1_i32_10 : BitVec 32 := 1#32
  let arg14 : BitVec 32 := Scf.iv c0_i32_9 c1_i32_10 k1_t2
  let c2_i32_12 : BitVec 32 := 2#32
  let v12 : BitVec 32 := Scalar.muli arg14 c2_i32_12
  let c4_i32_37 : BitVec 32 := 4#32
  let v30 : BitVec 32 := Scalar.muli v12 c4_i32_37
  let c0_i32_22 : BitVec 32 := 0#32
  let c1_i32_23 : BitVec 32 := 1#32
  let arg15 : BitVec 32 := Scf.iv c0_i32_22 c1_i32_23 k1_t3
  let v31 : BitVec 32 := Scalar.addi v30 arg15
  let v63 : Index := Scalar.indexCast v31
  let c112 : Index := 112#32
  ![v63.toNat, 112]
def k1_off15 (k1_t3 : Fin k1_t3_loop.trips) (c0_i32_41 : BitVec 32) : Fin 2 → Nat :=
  let c0_i32_22 : BitVec 32 := 0#32
  let c1_i32_23 : BitVec 32 := 1#32
  let arg15 : BitVec 32 := Scf.iv c0_i32_22 c1_i32_23 k1_t3
  let c32_i32_38 : BitVec 32 := 32#32
  let v32 : BitVec 32 := Scalar.muli arg15 c32_i32_38
  let v68 : BitVec 32 := Scalar.addi v32 c0_i32_41
  let v69 : Index := Scalar.indexCast v68
  let c0_42 : Index := 0#32
  ![v69.toNat, 0]
def k1_off16 (k1_t3 : Fin k1_t3_loop.trips) (c0_i32_43 : BitVec 32) : Fin 2 → Nat :=
  let c0_i32_22 : BitVec 32 := 0#32
  let c1_i32_23 : BitVec 32 := 1#32
  let arg15 : BitVec 32 := Scf.iv c0_i32_22 c1_i32_23 k1_t3
  let c32_i32_38 : BitVec 32 := 32#32
  let v32 : BitVec 32 := Scalar.muli arg15 c32_i32_38
  let v75 : BitVec 32 := Scalar.addi v32 c0_i32_43
  let v76 : Index := Scalar.indexCast v75
  let c16_44 : Index := 16#32
  ![v76.toNat, 16]
def k1_off17 (k1_t3 : Fin k1_t3_loop.trips) (c0_i32_45 : BitVec 32) : Fin 2 → Nat :=
  let c0_i32_22 : BitVec 32 := 0#32
  let c1_i32_23 : BitVec 32 := 1#32
  let arg15 : BitVec 32 := Scf.iv c0_i32_22 c1_i32_23 k1_t3
  let c32_i32_38 : BitVec 32 := 32#32
  let v32 : BitVec 32 := Scalar.muli arg15 c32_i32_38
  let v82 : BitVec 32 := Scalar.addi v32 c0_i32_45
  let v83 : Index := Scalar.indexCast v82
  let c32_46 : Index := 32#32
  ![v83.toNat, 32]
def k1_off18 (k1_t3 : Fin k1_t3_loop.trips) (c0_i32_47 : BitVec 32) : Fin 2 → Nat :=
  let c0_i32_22 : BitVec 32 := 0#32
  let c1_i32_23 : BitVec 32 := 1#32
  let arg15 : BitVec 32 := Scf.iv c0_i32_22 c1_i32_23 k1_t3
  let c32_i32_38 : BitVec 32 := 32#32
  let v32 : BitVec 32 := Scalar.muli arg15 c32_i32_38
  let v89 : BitVec 32 := Scalar.addi v32 c0_i32_47
  let v90 : Index := Scalar.indexCast v89
  let c48_48 : Index := 48#32
  ![v90.toNat, 48]
def k1_off19 (k1_t3 : Fin k1_t3_loop.trips) (c0_i32_49 : BitVec 32) : Fin 2 → Nat :=
  let c0_i32_22 : BitVec 32 := 0#32
  let c1_i32_23 : BitVec 32 := 1#32
  let arg15 : BitVec 32 := Scf.iv c0_i32_22 c1_i32_23 k1_t3
  let c32_i32_38 : BitVec 32 := 32#32
  let v32 : BitVec 32 := Scalar.muli arg15 c32_i32_38
  let v96 : BitVec 32 := Scalar.addi v32 c0_i32_49
  let v97 : Index := Scalar.indexCast v96
  let c64_50 : Index := 64#32
  ![v97.toNat, 64]
def k1_off20 (k1_t3 : Fin k1_t3_loop.trips) (c0_i32_51 : BitVec 32) : Fin 2 → Nat :=
  let c0_i32_22 : BitVec 32 := 0#32
  let c1_i32_23 : BitVec 32 := 1#32
  let arg15 : BitVec 32 := Scf.iv c0_i32_22 c1_i32_23 k1_t3
  let c32_i32_38 : BitVec 32 := 32#32
  let v32 : BitVec 32 := Scalar.muli arg15 c32_i32_38
  let v103 : BitVec 32 := Scalar.addi v32 c0_i32_51
  let v104 : Index := Scalar.indexCast v103
  let c80_52 : Index := 80#32
  ![v104.toNat, 80]
def k1_off21 (k1_t3 : Fin k1_t3_loop.trips) (c0_i32_53 : BitVec 32) : Fin 2 → Nat :=
  let c0_i32_22 : BitVec 32 := 0#32
  let c1_i32_23 : BitVec 32 := 1#32
  let arg15 : BitVec 32 := Scf.iv c0_i32_22 c1_i32_23 k1_t3
  let c32_i32_38 : BitVec 32 := 32#32
  let v32 : BitVec 32 := Scalar.muli arg15 c32_i32_38
  let v110 : BitVec 32 := Scalar.addi v32 c0_i32_53
  let v111 : Index := Scalar.indexCast v110
  let c96_54 : Index := 96#32
  ![v111.toNat, 96]
def k1_off22 (k1_t3 : Fin k1_t3_loop.trips) (c0_i32_55 : BitVec 32) : Fin 2 → Nat :=
  let c0_i32_22 : BitVec 32 := 0#32
  let c1_i32_23 : BitVec 32 := 1#32
  let arg15 : BitVec 32 := Scf.iv c0_i32_22 c1_i32_23 k1_t3
  let c32_i32_38 : BitVec 32 := 32#32
  let v32 : BitVec 32 := Scalar.muli arg15 c32_i32_38
  let v117 : BitVec 32 := Scalar.addi v32 c0_i32_55
  let v118 : Index := Scalar.indexCast v117
  let c112_56 : Index := 112#32
  ![v118.toNat, 112]
def k1_cond1 (k1_t2 : Fin k1_t2_loop.trips) : BitVec 1 :=
  let c0_i32_9 : BitVec 32 := 0#32
  let c1_i32_10 : BitVec 32 := 1#32
  let arg14 : BitVec 32 := Scf.iv c0_i32_9 c1_i32_10 k1_t2
  let c2_i32_12 : BitVec 32 := 2#32
  let v12 : BitVec 32 := Scalar.muli arg14 c2_i32_12
  let c2_i32_25 : BitVec 32 := 2#32
  let v21 : BitVec 32 := Scalar.addi v12 c2_i32_25
  let c64_i32 : BitVec 32 := 64#32
  let v22 : BitVec 1 := Scalar.cmpi .slt v21 c64_i32
  let v23 : BitVec 32 := Scalar.extui v22
  let c0_i32_26 : BitVec 32 := 0#32
  let v24 : BitVec 1 := Scalar.cmpi .ne v23 c0_i32_26
  v24

def k1_off23 (k1_t2 : Fin k1_t2_loop.trips) : Fin 2 → Nat :=
  let c0_i32_9 : BitVec 32 := 0#32
  let c1_i32_10 : BitVec 32 := 1#32
  let arg14 : BitVec 32 := Scf.iv c0_i32_9 c1_i32_10 k1_t2
  let c2_i32_12 : BitVec 32 := 2#32
  let v12 : BitVec 32 := Scalar.muli arg14 c2_i32_12
  let c2_i32_37 : BitVec 32 := 2#32
  let v30 : BitVec 32 := Scalar.addi v12 c2_i32_37
  let c0_i32_38 : BitVec 32 := 0#32
  ![v30.toNat, 0]
@[reducible] def k1_t4_loop : Scf.Loop 32 :=
  let c0_i32_33 : BitVec 32 := 0#32
  let c4_i32_34 : BitVec 32 := 4#32
  let v29 : BitVec 32 := Scalar.addi c0_i32_33 c4_i32_34
  let c1_i32_35 : BitVec 32 := 1#32
  ⟨c0_i32_33, v29, c1_i32_35⟩
def k1_off24 (k1_t2 : Fin k1_t2_loop.trips) (k1_t4 : Fin k1_t4_loop.trips) : Fin 1 → Nat :=
  let c0_i32_9 : BitVec 32 := 0#32
  let c1_i32_10 : BitVec 32 := 1#32
  let arg14 : BitVec 32 := Scf.iv c0_i32_9 c1_i32_10 k1_t2
  let c2_i32_12 : BitVec 32 := 2#32
  let v12 : BitVec 32 := Scalar.muli arg14 c2_i32_12
  let c1_i32_31 : BitVec 32 := 1#32
  let v28 : BitVec 32 := Scalar.addi v12 c1_i32_31
  let c4_i32_37 : BitVec 32 := 4#32
  let v30 : BitVec 32 := Scalar.muli v28 c4_i32_37
  let c0_i32_33 : BitVec 32 := 0#32
  let c1_i32_35 : BitVec 32 := 1#32
  let arg15 : BitVec 32 := Scf.iv c0_i32_33 c1_i32_35 k1_t4
  let v31 : BitVec 32 := Scalar.addi v30 arg15
  let c32_i32_39 : BitVec 32 := 32#32
  let v33 : BitVec 32 := Scalar.muli v31 c32_i32_39
  let v34 : Index := Scalar.indexCast v33
  ![v34.toNat]
def k1_off25 (k1_t2 : Fin k1_t2_loop.trips) (k1_t4 : Fin k1_t4_loop.trips) : Fin 1 → Nat :=
  let c0_i32_9 : BitVec 32 := 0#32
  let c1_i32_10 : BitVec 32 := 1#32
  let arg14 : BitVec 32 := Scf.iv c0_i32_9 c1_i32_10 k1_t2
  let c2_i32_12 : BitVec 32 := 2#32
  let v12 : BitVec 32 := Scalar.muli arg14 c2_i32_12
  let c1_i32_31 : BitVec 32 := 1#32
  let v28 : BitVec 32 := Scalar.addi v12 c1_i32_31
  let c4_i32_37 : BitVec 32 := 4#32
  let v30 : BitVec 32 := Scalar.muli v28 c4_i32_37
  let c0_i32_33 : BitVec 32 := 0#32
  let c1_i32_35 : BitVec 32 := 1#32
  let arg15 : BitVec 32 := Scf.iv c0_i32_33 c1_i32_35 k1_t4
  let v31 : BitVec 32 := Scalar.addi v30 arg15
  let c32_i32_40 : BitVec 32 := 32#32
  let v37 : BitVec 32 := Scalar.muli v31 c32_i32_40
  let c16_i32 : BitVec 32 := 16#32
  let v38 : BitVec 32 := Scalar.addi v37 c16_i32
  let v39 : Index := Scalar.indexCast v38
  ![v39.toNat]
def k1_off26 (k1_t2 : Fin k1_t2_loop.trips) (k1_t4 : Fin k1_t4_loop.trips) : Fin 2 → Nat :=
  let c0_i32_9 : BitVec 32 := 0#32
  let c1_i32_10 : BitVec 32 := 1#32
  let arg14 : BitVec 32 := Scf.iv c0_i32_9 c1_i32_10 k1_t2
  let c2_i32_12 : BitVec 32 := 2#32
  let v12 : BitVec 32 := Scalar.muli arg14 c2_i32_12
  let c1_i32_31 : BitVec 32 := 1#32
  let v28 : BitVec 32 := Scalar.addi v12 c1_i32_31
  let c4_i32_37 : BitVec 32 := 4#32
  let v30 : BitVec 32 := Scalar.muli v28 c4_i32_37
  let c0_i32_33 : BitVec 32 := 0#32
  let c1_i32_35 : BitVec 32 := 1#32
  let arg15 : BitVec 32 := Scf.iv c0_i32_33 c1_i32_35 k1_t4
  let v31 : BitVec 32 := Scalar.addi v30 arg15
  let v42 : Index := Scalar.indexCast v31
  let c0 : Index := 0#32
  ![v42.toNat, 0]
def k1_off27 (k1_t2 : Fin k1_t2_loop.trips) (k1_t4 : Fin k1_t4_loop.trips) : Fin 2 → Nat :=
  let c0_i32_9 : BitVec 32 := 0#32
  let c1_i32_10 : BitVec 32 := 1#32
  let arg14 : BitVec 32 := Scf.iv c0_i32_9 c1_i32_10 k1_t2
  let c2_i32_12 : BitVec 32 := 2#32
  let v12 : BitVec 32 := Scalar.muli arg14 c2_i32_12
  let c1_i32_31 : BitVec 32 := 1#32
  let v28 : BitVec 32 := Scalar.addi v12 c1_i32_31
  let c4_i32_37 : BitVec 32 := 4#32
  let v30 : BitVec 32 := Scalar.muli v28 c4_i32_37
  let c0_i32_33 : BitVec 32 := 0#32
  let c1_i32_35 : BitVec 32 := 1#32
  let arg15 : BitVec 32 := Scf.iv c0_i32_33 c1_i32_35 k1_t4
  let v31 : BitVec 32 := Scalar.addi v30 arg15
  let v45 : Index := Scalar.indexCast v31
  let c16 : Index := 16#32
  ![v45.toNat, 16]
def k1_off28 (k1_t2 : Fin k1_t2_loop.trips) (k1_t4 : Fin k1_t4_loop.trips) : Fin 2 → Nat :=
  let c0_i32_9 : BitVec 32 := 0#32
  let c1_i32_10 : BitVec 32 := 1#32
  let arg14 : BitVec 32 := Scf.iv c0_i32_9 c1_i32_10 k1_t2
  let c2_i32_12 : BitVec 32 := 2#32
  let v12 : BitVec 32 := Scalar.muli arg14 c2_i32_12
  let c1_i32_31 : BitVec 32 := 1#32
  let v28 : BitVec 32 := Scalar.addi v12 c1_i32_31
  let c4_i32_37 : BitVec 32 := 4#32
  let v30 : BitVec 32 := Scalar.muli v28 c4_i32_37
  let c0_i32_33 : BitVec 32 := 0#32
  let c1_i32_35 : BitVec 32 := 1#32
  let arg15 : BitVec 32 := Scf.iv c0_i32_33 c1_i32_35 k1_t4
  let v31 : BitVec 32 := Scalar.addi v30 arg15
  let v48 : Index := Scalar.indexCast v31
  let c32 : Index := 32#32
  ![v48.toNat, 32]
def k1_off29 (k1_t2 : Fin k1_t2_loop.trips) (k1_t4 : Fin k1_t4_loop.trips) : Fin 2 → Nat :=
  let c0_i32_9 : BitVec 32 := 0#32
  let c1_i32_10 : BitVec 32 := 1#32
  let arg14 : BitVec 32 := Scf.iv c0_i32_9 c1_i32_10 k1_t2
  let c2_i32_12 : BitVec 32 := 2#32
  let v12 : BitVec 32 := Scalar.muli arg14 c2_i32_12
  let c1_i32_31 : BitVec 32 := 1#32
  let v28 : BitVec 32 := Scalar.addi v12 c1_i32_31
  let c4_i32_37 : BitVec 32 := 4#32
  let v30 : BitVec 32 := Scalar.muli v28 c4_i32_37
  let c0_i32_33 : BitVec 32 := 0#32
  let c1_i32_35 : BitVec 32 := 1#32
  let arg15 : BitVec 32 := Scf.iv c0_i32_33 c1_i32_35 k1_t4
  let v31 : BitVec 32 := Scalar.addi v30 arg15
  let v51 : Index := Scalar.indexCast v31
  let c48 : Index := 48#32
  ![v51.toNat, 48]
def k1_off30 (k1_t2 : Fin k1_t2_loop.trips) (k1_t4 : Fin k1_t4_loop.trips) : Fin 2 → Nat :=
  let c0_i32_9 : BitVec 32 := 0#32
  let c1_i32_10 : BitVec 32 := 1#32
  let arg14 : BitVec 32 := Scf.iv c0_i32_9 c1_i32_10 k1_t2
  let c2_i32_12 : BitVec 32 := 2#32
  let v12 : BitVec 32 := Scalar.muli arg14 c2_i32_12
  let c1_i32_31 : BitVec 32 := 1#32
  let v28 : BitVec 32 := Scalar.addi v12 c1_i32_31
  let c4_i32_37 : BitVec 32 := 4#32
  let v30 : BitVec 32 := Scalar.muli v28 c4_i32_37
  let c0_i32_33 : BitVec 32 := 0#32
  let c1_i32_35 : BitVec 32 := 1#32
  let arg15 : BitVec 32 := Scf.iv c0_i32_33 c1_i32_35 k1_t4
  let v31 : BitVec 32 := Scalar.addi v30 arg15
  let v54 : Index := Scalar.indexCast v31
  let c64 : Index := 64#32
  ![v54.toNat, 64]
def k1_off31 (k1_t2 : Fin k1_t2_loop.trips) (k1_t4 : Fin k1_t4_loop.trips) : Fin 2 → Nat :=
  let c0_i32_9 : BitVec 32 := 0#32
  let c1_i32_10 : BitVec 32 := 1#32
  let arg14 : BitVec 32 := Scf.iv c0_i32_9 c1_i32_10 k1_t2
  let c2_i32_12 : BitVec 32 := 2#32
  let v12 : BitVec 32 := Scalar.muli arg14 c2_i32_12
  let c1_i32_31 : BitVec 32 := 1#32
  let v28 : BitVec 32 := Scalar.addi v12 c1_i32_31
  let c4_i32_37 : BitVec 32 := 4#32
  let v30 : BitVec 32 := Scalar.muli v28 c4_i32_37
  let c0_i32_33 : BitVec 32 := 0#32
  let c1_i32_35 : BitVec 32 := 1#32
  let arg15 : BitVec 32 := Scf.iv c0_i32_33 c1_i32_35 k1_t4
  let v31 : BitVec 32 := Scalar.addi v30 arg15
  let v57 : Index := Scalar.indexCast v31
  let c80 : Index := 80#32
  ![v57.toNat, 80]
def k1_off32 (k1_t2 : Fin k1_t2_loop.trips) (k1_t4 : Fin k1_t4_loop.trips) : Fin 2 → Nat :=
  let c0_i32_9 : BitVec 32 := 0#32
  let c1_i32_10 : BitVec 32 := 1#32
  let arg14 : BitVec 32 := Scf.iv c0_i32_9 c1_i32_10 k1_t2
  let c2_i32_12 : BitVec 32 := 2#32
  let v12 : BitVec 32 := Scalar.muli arg14 c2_i32_12
  let c1_i32_31 : BitVec 32 := 1#32
  let v28 : BitVec 32 := Scalar.addi v12 c1_i32_31
  let c4_i32_37 : BitVec 32 := 4#32
  let v30 : BitVec 32 := Scalar.muli v28 c4_i32_37
  let c0_i32_33 : BitVec 32 := 0#32
  let c1_i32_35 : BitVec 32 := 1#32
  let arg15 : BitVec 32 := Scf.iv c0_i32_33 c1_i32_35 k1_t4
  let v31 : BitVec 32 := Scalar.addi v30 arg15
  let v60 : Index := Scalar.indexCast v31
  let c96 : Index := 96#32
  ![v60.toNat, 96]
def k1_off33 (k1_t2 : Fin k1_t2_loop.trips) (k1_t4 : Fin k1_t4_loop.trips) : Fin 2 → Nat :=
  let c0_i32_9 : BitVec 32 := 0#32
  let c1_i32_10 : BitVec 32 := 1#32
  let arg14 : BitVec 32 := Scf.iv c0_i32_9 c1_i32_10 k1_t2
  let c2_i32_12 : BitVec 32 := 2#32
  let v12 : BitVec 32 := Scalar.muli arg14 c2_i32_12
  let c1_i32_31 : BitVec 32 := 1#32
  let v28 : BitVec 32 := Scalar.addi v12 c1_i32_31
  let c4_i32_37 : BitVec 32 := 4#32
  let v30 : BitVec 32 := Scalar.muli v28 c4_i32_37
  let c0_i32_33 : BitVec 32 := 0#32
  let c1_i32_35 : BitVec 32 := 1#32
  let arg15 : BitVec 32 := Scf.iv c0_i32_33 c1_i32_35 k1_t4
  let v31 : BitVec 32 := Scalar.addi v30 arg15
  let v63 : Index := Scalar.indexCast v31
  let c112 : Index := 112#32
  ![v63.toNat, 112]
def k1_off34 (k1_t4 : Fin k1_t4_loop.trips) (c0_i32_41 : BitVec 32) : Fin 2 → Nat :=
  let c0_i32_33 : BitVec 32 := 0#32
  let c1_i32_35 : BitVec 32 := 1#32
  let arg15 : BitVec 32 := Scf.iv c0_i32_33 c1_i32_35 k1_t4
  let c32_i32_38 : BitVec 32 := 32#32
  let v32 : BitVec 32 := Scalar.muli arg15 c32_i32_38
  let v68 : BitVec 32 := Scalar.addi v32 c0_i32_41
  let v69 : Index := Scalar.indexCast v68
  let c0_42 : Index := 0#32
  ![v69.toNat, 0]
def k1_off35 (k1_t4 : Fin k1_t4_loop.trips) (c0_i32_43 : BitVec 32) : Fin 2 → Nat :=
  let c0_i32_33 : BitVec 32 := 0#32
  let c1_i32_35 : BitVec 32 := 1#32
  let arg15 : BitVec 32 := Scf.iv c0_i32_33 c1_i32_35 k1_t4
  let c32_i32_38 : BitVec 32 := 32#32
  let v32 : BitVec 32 := Scalar.muli arg15 c32_i32_38
  let v75 : BitVec 32 := Scalar.addi v32 c0_i32_43
  let v76 : Index := Scalar.indexCast v75
  let c16_44 : Index := 16#32
  ![v76.toNat, 16]
def k1_off36 (k1_t4 : Fin k1_t4_loop.trips) (c0_i32_45 : BitVec 32) : Fin 2 → Nat :=
  let c0_i32_33 : BitVec 32 := 0#32
  let c1_i32_35 : BitVec 32 := 1#32
  let arg15 : BitVec 32 := Scf.iv c0_i32_33 c1_i32_35 k1_t4
  let c32_i32_38 : BitVec 32 := 32#32
  let v32 : BitVec 32 := Scalar.muli arg15 c32_i32_38
  let v82 : BitVec 32 := Scalar.addi v32 c0_i32_45
  let v83 : Index := Scalar.indexCast v82
  let c32_46 : Index := 32#32
  ![v83.toNat, 32]
def k1_off37 (k1_t4 : Fin k1_t4_loop.trips) (c0_i32_47 : BitVec 32) : Fin 2 → Nat :=
  let c0_i32_33 : BitVec 32 := 0#32
  let c1_i32_35 : BitVec 32 := 1#32
  let arg15 : BitVec 32 := Scf.iv c0_i32_33 c1_i32_35 k1_t4
  let c32_i32_38 : BitVec 32 := 32#32
  let v32 : BitVec 32 := Scalar.muli arg15 c32_i32_38
  let v89 : BitVec 32 := Scalar.addi v32 c0_i32_47
  let v90 : Index := Scalar.indexCast v89
  let c48_48 : Index := 48#32
  ![v90.toNat, 48]
def k1_off38 (k1_t4 : Fin k1_t4_loop.trips) (c0_i32_49 : BitVec 32) : Fin 2 → Nat :=
  let c0_i32_33 : BitVec 32 := 0#32
  let c1_i32_35 : BitVec 32 := 1#32
  let arg15 : BitVec 32 := Scf.iv c0_i32_33 c1_i32_35 k1_t4
  let c32_i32_38 : BitVec 32 := 32#32
  let v32 : BitVec 32 := Scalar.muli arg15 c32_i32_38
  let v96 : BitVec 32 := Scalar.addi v32 c0_i32_49
  let v97 : Index := Scalar.indexCast v96
  let c64_50 : Index := 64#32
  ![v97.toNat, 64]
def k1_off39 (k1_t4 : Fin k1_t4_loop.trips) (c0_i32_51 : BitVec 32) : Fin 2 → Nat :=
  let c0_i32_33 : BitVec 32 := 0#32
  let c1_i32_35 : BitVec 32 := 1#32
  let arg15 : BitVec 32 := Scf.iv c0_i32_33 c1_i32_35 k1_t4
  let c32_i32_38 : BitVec 32 := 32#32
  let v32 : BitVec 32 := Scalar.muli arg15 c32_i32_38
  let v103 : BitVec 32 := Scalar.addi v32 c0_i32_51
  let v104 : Index := Scalar.indexCast v103
  let c80_52 : Index := 80#32
  ![v104.toNat, 80]
def k1_off40 (k1_t4 : Fin k1_t4_loop.trips) (c0_i32_53 : BitVec 32) : Fin 2 → Nat :=
  let c0_i32_33 : BitVec 32 := 0#32
  let c1_i32_35 : BitVec 32 := 1#32
  let arg15 : BitVec 32 := Scf.iv c0_i32_33 c1_i32_35 k1_t4
  let c32_i32_38 : BitVec 32 := 32#32
  let v32 : BitVec 32 := Scalar.muli arg15 c32_i32_38
  let v110 : BitVec 32 := Scalar.addi v32 c0_i32_53
  let v111 : Index := Scalar.indexCast v110
  let c96_54 : Index := 96#32
  ![v111.toNat, 96]
def k1_off41 (k1_t4 : Fin k1_t4_loop.trips) (c0_i32_55 : BitVec 32) : Fin 2 → Nat :=
  let c0_i32_33 : BitVec 32 := 0#32
  let c1_i32_35 : BitVec 32 := 1#32
  let arg15 : BitVec 32 := Scf.iv c0_i32_33 c1_i32_35 k1_t4
  let c32_i32_38 : BitVec 32 := 32#32
  let v32 : BitVec 32 := Scalar.muli arg15 c32_i32_38
  let v117 : BitVec 32 := Scalar.addi v32 c0_i32_55
  let v118 : Index := Scalar.indexCast v117
  let c112_56 : Index := 112#32
  ![v118.toNat, 112]
def k1_off42 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v5 : BitVec 32 := Scalar.muli v1 c512_i32
  let c0_i32_0 : BitVec 32 := 0#32
  let c1_i32 : BitVec 32 := 1#32
  let arg13 : BitVec 32 := Scf.iv c0_i32_0 c1_i32 k1_t1
  let c256_i32 : BitVec 32 := 256#32
  let v6 : BitVec 32 := Scalar.muli arg13 c256_i32
  let v7 : BitVec 32 := Scalar.addi v5 v6
  let c0_i32_12_r3 : BitVec 32 := 0#32
  ![v7.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S16384x32_S64x64x128 : S16384x32.ShapeCasts S64x64x128
  inb_S2048x32_S2048x32_0_0 : ∀ a, (![0, 0] : Fin 2 → Nat) a + S2048x32.size a ≤ S2048x32.size a
  h_S2048x32 : 0 < S2048x32.numel
  reduces_S2048x32_S2048 : S2048x32.Reduces [1] S2048
  shapeCasts_S2048_S2048x1 : S2048.ShapeCasts S2048x1
  broadcasts_S2048x1_S2048x32 : S2048x1.Broadcasts S2048x32
  shapeCasts_S16384x32_S64x8192 : S16384x32.ShapeCasts S64x8192
  squeezes_S1x64x128_S64x128 : S1x64x128.Squeezes S64x128
  squeezes_S1x8192_S8192 : S1x8192.Squeezes S8192
  inb_S64x128_S1x128_0_0 : ∀ a, (![0, 0] : Fin 2 → Nat) a + S1x128.size a ≤ S64x128.size a
  squeezes_S1x128_S128 : S1x128.Squeezes S128
  inb_S100001x128_S100001x128_0_0 : ∀ a, (![0, 0] : Fin 2 → Nat) a + S100001x128.size a ≤ S100001x128.size a
  gathers_S100001x128_S128x128 : S100001x128.Gathers 0 S128x128
  h_S16 : 0 < S16.numel
  shapeCasts_S16_S16 : S16.ShapeCasts S16
  h_S1x16 : 0 < S1x16.numel
  shapeCasts_S1x16_S16 : S1x16.ShapeCasts S16
  slices_S16_o0_S1 : S16.Slices ![0] S1
  inpos_S1_p0 : ∀ a, (![0] : Fin 1 → Nat) a < S1.size a
  slices_S16_o1_S1 : S16.Slices ![1] S1
  slices_S16_o2_S1 : S16.Slices ![2] S1
  slices_S16_o3_S1 : S16.Slices ![3] S1
  slices_S16_o4_S1 : S16.Slices ![4] S1
  slices_S16_o5_S1 : S16.Slices ![5] S1
  slices_S16_o6_S1 : S16.Slices ![6] S1
  slices_S16_o7_S1 : S16.Slices ![7] S1
  slices_S16_o8_S1 : S16.Slices ![8] S1
  slices_S16_o9_S1 : S16.Slices ![9] S1
  slices_S16_o10_S1 : S16.Slices ![10] S1
  slices_S16_o11_S1 : S16.Slices ![11] S1
  slices_S16_o12_S1 : S16.Slices ![12] S1
  slices_S16_o13_S1 : S16.Slices ![13] S1
  slices_S16_o14_S1 : S16.Slices ![14] S1
  slices_S16_o15_S1 : S16.Slices ![15] S1
  shapeCasts_S16_S1x16 : S16.ShapeCasts S1x16
  hcc1_scratch5 : 4 + S_.numel ≤ 10
  hcc1_scratch6 : 5 + S_.numel ≤ 10
  hcc1_scoped0 : 6 + S_.numel ≤ 10
  hcc1_scoped1 : 7 + S_.numel ≤ 10
  hcc1_scoped2 : 8 + S_.numel ≤ 10
  hcc1_scoped3 : 9 + S_.numel ≤ 10
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x32.size a ≤ S16384x32.size a
  hwx0_0 : ∀ i : grid0.Coords, EltTy.bits .f32 = 32 ∨ (Rect.block (s := S16384x32) S2048x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x32.size a ≤ S16384x32.size a
  hwx0_1 : ∀ i : grid0.Coords, EltTy.bits .f32 = 32 ∨ (Rect.block (s := S16384x32) S2048x32.size (cc0_transform_1 i) (hinb0_1 i)).WholeWords (EltTy.packing .f32)
  hcore1 : grid1.bound 0 ≤ τ.nSC
  hsub1 : grid1.bound 1 ≤ τ.nSub
  k1_t1_ok : k1_t1_loop.OK
  k1_off1_inb : ∀ (i : grid1.Coords) (k1_t1 : Fin k1_t1_loop.trips), ∀ a, (k1_off1 i k1_t1) a + S1x64x128.size a ≤ S64x64x128.size a
  k1_off2_inb : ∀ (i : grid1.Coords) (k1_t1 : Fin k1_t1_loop.trips), ∀ a, (k1_off2 i k1_t1) a + S1x8192.size a ≤ S64x8192.size a
  k1_off3_inb : ∀ (i : grid1.Coords) (k1_t1 : Fin k1_t1_loop.trips), ∀ a, (k1_off3 i k1_t1) a + S256x128.size a ≤ S100001x128.size a
  k1_t2_ok : k1_t2_loop.OK
  k1_off4_inb : ∀ k1_t2 : Fin k1_t2_loop.trips, ∀ a, (k1_off4 k1_t2) a + S1x128.size a ≤ S64x128.size a
  k1_t3_ok : k1_t3_loop.OK
  k1_off5_inb : ∀ (k1_t2 : Fin k1_t2_loop.trips) (k1_t3 : Fin k1_t3_loop.trips), ∀ a, (k1_off5 k1_t2 k1_t3) a + S16.size a ≤ S8192.size a
  k1_off6_inb : ∀ (k1_t2 : Fin k1_t2_loop.trips) (k1_t3 : Fin k1_t3_loop.trips), ∀ a, (k1_off6 k1_t2 k1_t3) a + S16.size a ≤ S8192.size a
  k1_off7_inb : ∀ (k1_t2 : Fin k1_t2_loop.trips) (k1_t3 : Fin k1_t3_loop.trips), ∀ a, (k1_off7 k1_t2 k1_t3) a + S1x16.size a ≤ S256x128.size a
  k1_off8_inb : ∀ (k1_t2 : Fin k1_t2_loop.trips) (k1_t3 : Fin k1_t3_loop.trips), ∀ a, (k1_off8 k1_t2 k1_t3) a + S1x16.size a ≤ S256x128.size a
  k1_off9_inb : ∀ (k1_t2 : Fin k1_t2_loop.trips) (k1_t3 : Fin k1_t3_loop.trips), ∀ a, (k1_off9 k1_t2 k1_t3) a + S1x16.size a ≤ S256x128.size a
  k1_off10_inb : ∀ (k1_t2 : Fin k1_t2_loop.trips) (k1_t3 : Fin k1_t3_loop.trips), ∀ a, (k1_off10 k1_t2 k1_t3) a + S1x16.size a ≤ S256x128.size a
  k1_off11_inb : ∀ (k1_t2 : Fin k1_t2_loop.trips) (k1_t3 : Fin k1_t3_loop.trips), ∀ a, (k1_off11 k1_t2 k1_t3) a + S1x16.size a ≤ S256x128.size a
  k1_off12_inb : ∀ (k1_t2 : Fin k1_t2_loop.trips) (k1_t3 : Fin k1_t3_loop.trips), ∀ a, (k1_off12 k1_t2 k1_t3) a + S1x16.size a ≤ S256x128.size a
  k1_off13_inb : ∀ (k1_t2 : Fin k1_t2_loop.trips) (k1_t3 : Fin k1_t3_loop.trips), ∀ a, (k1_off13 k1_t2 k1_t3) a + S1x16.size a ≤ S256x128.size a
  k1_off14_inb : ∀ (k1_t2 : Fin k1_t2_loop.trips) (k1_t3 : Fin k1_t3_loop.trips), ∀ a, (k1_off14 k1_t2 k1_t3) a + S1x16.size a ≤ S256x128.size a
  k1_off15_inb : ∀ k1_t3 : Fin k1_t3_loop.trips, ∀ (r : Fin 32), ∀ a, (k1_off15 k1_t3 (BitVec.ofNat 32 r.val)) a + S1x16.size a ≤ S128x128.size a
  k1_off16_inb : ∀ k1_t3 : Fin k1_t3_loop.trips, ∀ (r : Fin 32), ∀ a, (k1_off16 k1_t3 (BitVec.ofNat 32 r.val)) a + S1x16.size a ≤ S128x128.size a
  k1_off17_inb : ∀ k1_t3 : Fin k1_t3_loop.trips, ∀ (r : Fin 32), ∀ a, (k1_off17 k1_t3 (BitVec.ofNat 32 r.val)) a + S1x16.size a ≤ S128x128.size a
  k1_off18_inb : ∀ k1_t3 : Fin k1_t3_loop.trips, ∀ (r : Fin 32), ∀ a, (k1_off18 k1_t3 (BitVec.ofNat 32 r.val)) a + S1x16.size a ≤ S128x128.size a
  k1_off19_inb : ∀ k1_t3 : Fin k1_t3_loop.trips, ∀ (r : Fin 32), ∀ a, (k1_off19 k1_t3 (BitVec.ofNat 32 r.val)) a + S1x16.size a ≤ S128x128.size a
  k1_off20_inb : ∀ k1_t3 : Fin k1_t3_loop.trips, ∀ (r : Fin 32), ∀ a, (k1_off20 k1_t3 (BitVec.ofNat 32 r.val)) a + S1x16.size a ≤ S128x128.size a
  k1_off21_inb : ∀ k1_t3 : Fin k1_t3_loop.trips, ∀ (r : Fin 32), ∀ a, (k1_off21 k1_t3 (BitVec.ofNat 32 r.val)) a + S1x16.size a ≤ S128x128.size a
  k1_off22_inb : ∀ k1_t3 : Fin k1_t3_loop.trips, ∀ (r : Fin 32), ∀ a, (k1_off22 k1_t3 (BitVec.ofNat 32 r.val)) a + S1x16.size a ≤ S128x128.size a
  k1_off23_inb : ∀ k1_t2 : Fin k1_t2_loop.trips, ∀ (k1_h1 : k1_cond1 k1_t2 = 1#1), ∀ a, (k1_off23 k1_t2) a + S1x128.size a ≤ S64x128.size a
  k1_t4_ok : k1_t4_loop.OK
  k1_off24_inb : ∀ (k1_t2 : Fin k1_t2_loop.trips) (k1_t4 : Fin k1_t4_loop.trips), ∀ a, (k1_off24 k1_t2 k1_t4) a + S16.size a ≤ S8192.size a
  k1_off25_inb : ∀ (k1_t2 : Fin k1_t2_loop.trips) (k1_t4 : Fin k1_t4_loop.trips), ∀ a, (k1_off25 k1_t2 k1_t4) a + S16.size a ≤ S8192.size a
  k1_off26_inb : ∀ (k1_t2 : Fin k1_t2_loop.trips) (k1_t4 : Fin k1_t4_loop.trips), ∀ a, (k1_off26 k1_t2 k1_t4) a + S1x16.size a ≤ S256x128.size a
  k1_off27_inb : ∀ (k1_t2 : Fin k1_t2_loop.trips) (k1_t4 : Fin k1_t4_loop.trips), ∀ a, (k1_off27 k1_t2 k1_t4) a + S1x16.size a ≤ S256x128.size a
  k1_off28_inb : ∀ (k1_t2 : Fin k1_t2_loop.trips) (k1_t4 : Fin k1_t4_loop.trips), ∀ a, (k1_off28 k1_t2 k1_t4) a + S1x16.size a ≤ S256x128.size a
  k1_off29_inb : ∀ (k1_t2 : Fin k1_t2_loop.trips) (k1_t4 : Fin k1_t4_loop.trips), ∀ a, (k1_off29 k1_t2 k1_t4) a + S1x16.size a ≤ S256x128.size a
  k1_off30_inb : ∀ (k1_t2 : Fin k1_t2_loop.trips) (k1_t4 : Fin k1_t4_loop.trips), ∀ a, (k1_off30 k1_t2 k1_t4) a + S1x16.size a ≤ S256x128.size a
  k1_off31_inb : ∀ (k1_t2 : Fin k1_t2_loop.trips) (k1_t4 : Fin k1_t4_loop.trips), ∀ a, (k1_off31 k1_t2 k1_t4) a + S1x16.size a ≤ S256x128.size a
  k1_off32_inb : ∀ (k1_t2 : Fin k1_t2_loop.trips) (k1_t4 : Fin k1_t4_loop.trips), ∀ a, (k1_off32 k1_t2 k1_t4) a + S1x16.size a ≤ S256x128.size a
  k1_off33_inb : ∀ (k1_t2 : Fin k1_t2_loop.trips) (k1_t4 : Fin k1_t4_loop.trips), ∀ a, (k1_off33 k1_t2 k1_t4) a + S1x16.size a ≤ S256x128.size a
  k1_off34_inb : ∀ k1_t4 : Fin k1_t4_loop.trips, ∀ (r : Fin 32), ∀ a, (k1_off34 k1_t4 (BitVec.ofNat 32 r.val)) a + S1x16.size a ≤ S128x128.size a
  k1_off35_inb : ∀ k1_t4 : Fin k1_t4_loop.trips, ∀ (r : Fin 32), ∀ a, (k1_off35 k1_t4 (BitVec.ofNat 32 r.val)) a + S1x16.size a ≤ S128x128.size a
  k1_off36_inb : ∀ k1_t4 : Fin k1_t4_loop.trips, ∀ (r : Fin 32), ∀ a, (k1_off36 k1_t4 (BitVec.ofNat 32 r.val)) a + S1x16.size a ≤ S128x128.size a
  k1_off37_inb : ∀ k1_t4 : Fin k1_t4_loop.trips, ∀ (r : Fin 32), ∀ a, (k1_off37 k1_t4 (BitVec.ofNat 32 r.val)) a + S1x16.size a ≤ S128x128.size a
  k1_off38_inb : ∀ k1_t4 : Fin k1_t4_loop.trips, ∀ (r : Fin 32), ∀ a, (k1_off38 k1_t4 (BitVec.ofNat 32 r.val)) a + S1x16.size a ≤ S128x128.size a
  k1_off39_inb : ∀ k1_t4 : Fin k1_t4_loop.trips, ∀ (r : Fin 32), ∀ a, (k1_off39 k1_t4 (BitVec.ofNat 32 r.val)) a + S1x16.size a ≤ S128x128.size a
  k1_off40_inb : ∀ k1_t4 : Fin k1_t4_loop.trips, ∀ (r : Fin 32), ∀ a, (k1_off40 k1_t4 (BitVec.ofNat 32 r.val)) a + S1x16.size a ≤ S128x128.size a
  k1_off41_inb : ∀ k1_t4 : Fin k1_t4_loop.trips, ∀ (r : Fin 32), ∀ a, (k1_off41 k1_t4 (BitVec.ofNat 32 r.val)) a + S1x16.size a ≤ S128x128.size a
  k1_off42_inb : ∀ (i : grid1.Coords) (k1_t1 : Fin k1_t1_loop.trips), ∀ a, (k1_off42 i k1_t1) a + S256x128.size a ≤ S16384x128.size a

variable [Facts₀]

abbrev cc1_scratch5 : DmaSems sig S_ := SemArray.consecutive 4 S_ hcc1_scratch5
abbrev cc1_scratch6 : DmaSems sig S_ := SemArray.consecutive 5 S_ hcc1_scratch6
abbrev cc1_scoped0 : DmaSems sig S_ := SemArray.consecutive 6 S_ hcc1_scoped0
abbrev cc1_scoped1 : DmaSems sig S_ := SemArray.consecutive 7 S_ hcc1_scoped1
abbrev cc1_scoped2 : DmaSems sig S_ := SemArray.consecutive 8 S_ hcc1_scoped2
abbrev cc1_scoped3 : DmaSems sig S_ := SemArray.consecutive 9 S_ hcc1_scoped3

abbrev win0_0 : Pipeline.Window sig grid0 :=
  Pipeline.Window.ofSpec (Memref.whole main_arg2) S2048x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x32.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16384x32 : Shape := ⟨2, ![16384, 32]⟩
abbrev S100001x128 : Shape := ⟨2, ![100001, 128]⟩
abbrev S_ : Shape := ⟨0, ![]⟩
abbrev S16384x32x1 : Shape := ⟨3, ![16384, 32, 1]⟩
abbrev S1 : Shape := ⟨1, ![1]⟩
abbrev S1x1x1 : Shape := ⟨3, ![1, 1, 1]⟩
abbrev S16384x32x128 : Shape := ⟨3, ![16384, 32, 128]⟩
abbrev S16384 : Shape := ⟨1, ![16384]⟩
abbrev S16384x1 : Shape := ⟨2, ![16384, 1]⟩
abbrev S16384x128 : Shape := ⟨2, ![16384, 128]⟩

abbrev nBuf : Space → Nat
  | .hbm => 43
  | .vmem => 0
  | .smem => 0
  | _ => 0

abbrev bufTy : (tb : Table) → Fin (tcTables nBuf tb) → BufTy
  | .hbm, ⟨0, _⟩ => ⟨S16384x32, .i32⟩
  | .hbm, ⟨1, _⟩ => ⟨S100001x128, .f32⟩
  | .hbm, ⟨2, _⟩ => ⟨S16384x32, .f32⟩
  | .hbm, ⟨3, _⟩ => ⟨S_, .i32⟩
  | .hbm, ⟨4, _⟩ => ⟨S16384x32, .i32⟩
  | .hbm, ⟨5, _⟩ => ⟨S16384x32, .i1⟩
  | .hbm, ⟨6, _⟩ => ⟨S_, .i32⟩
  | .hbm, ⟨7, _⟩ => ⟨S16384x32, .i32⟩
  | .hbm, ⟨8, _⟩ => ⟨S16384x32, .i32⟩
  | .hbm, ⟨9, _⟩ => ⟨S16384x32, .i32⟩
  | .hbm, ⟨10, _⟩ => ⟨S16384x32x1, .i32⟩
  | .hbm, ⟨11, _⟩ => ⟨S1, .i32⟩
  | .hbm, ⟨12, _⟩ => ⟨S_, .i32⟩
  | .hbm, ⟨13, _⟩ => ⟨S16384x32x1, .i32⟩
  | .hbm, ⟨14, _⟩ => ⟨S16384x32x1, .i1⟩
  | .hbm, ⟨15, _⟩ => ⟨S1x1x1, .i32⟩
  | .hbm, ⟨16, _⟩ => ⟨S16384x32x1, .i32⟩
  | .hbm, ⟨17, _⟩ => ⟨S16384x32x1, .i1⟩
  | .hbm, ⟨18, _⟩ => ⟨S16384x32x1, .i1⟩
  | .hbm, ⟨19, _⟩ => ⟨S_, .i1⟩
  | .hbm, ⟨20, _⟩ => ⟨S16384x32, .i1⟩
  | .hbm, ⟨21, _⟩ => ⟨S16384x32x128, .f32⟩
  | .hbm, ⟨22, _⟩ => ⟨S16384x32x128, .i1⟩
  | .hbm, ⟨23, _⟩ => ⟨S_, .f32⟩
  | .hbm, ⟨24, _⟩ => ⟨S16384x32x128, .f32⟩
  | .hbm, ⟨25, _⟩ => ⟨S16384x32x128, .f32⟩
  | .hbm, ⟨26, _⟩ => ⟨S_, .f32⟩
  | .hbm, ⟨27, _⟩ => ⟨S16384, .f32⟩
  | .hbm, ⟨28, _⟩ => ⟨S_, .f32⟩
  | .hbm, ⟨29, _⟩ => ⟨S16384, .f32⟩
  | .hbm, ⟨30, _⟩ => ⟨S16384, .f32⟩
  | .hbm, ⟨31, _⟩ => ⟨S16384x1, .f32⟩
  | .hbm, ⟨32, _⟩ => ⟨S16384x32, .f32⟩
  | .hbm, ⟨33, _⟩ => ⟨S16384x32, .f32⟩
  | .hbm, ⟨34, _⟩ => ⟨S16384x32, .f32⟩
  | .hbm, ⟨35, _⟩ => ⟨S_, .f32⟩
  | .hbm, ⟨36, _⟩ => ⟨S16384, .f32⟩
  | .hbm, ⟨37, _⟩ => ⟨S16384x1, .f32⟩
  | .hbm, ⟨38, _⟩ => ⟨S16384x32, .f32⟩
  | .hbm, ⟨39, _⟩ => ⟨S16384x32, .f32⟩
  | .hbm, ⟨40, _⟩ => ⟨S16384x128, .f32⟩
  | .hbm, ⟨41, _⟩ => ⟨S16384x128, .f32⟩
  | .hbm, ⟨42, _⟩ => ⟨S16384x128, .f32⟩
  | _, _ => ⟨S16384x32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_cst : Ref sig .tc := ⟨.hbm, 26, rfl⟩
abbrev main_v1 : Ref sig .tc := ⟨.hbm, 27, rfl⟩
abbrev main_cst_0 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst_1 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩

abbrev nD : Nat := 1
abbrev τ : Topo := Topo.v7x

variable {F : FTy → Type} [FloatOps F]

class Facts₀ : Prop where
  bcast_S_S16384x32 : S_.BroadcastsInDim S16384x32 (![] : Fin 0 → Fin S16384x32.rank)
  bcast_S16384x32_S16384x32x1_0_1 : S16384x32.BroadcastsInDim S16384x32x1 (![0, 1] : Fin 2 → Fin S16384x32x1.rank)
  bcast_S_S16384x32x1 : S_.BroadcastsInDim S16384x32x1 (![] : Fin 0 → Fin S16384x32x1.rank)
  bcast_S1_S1x1x1_2 : S1.BroadcastsInDim S1x1x1 (![2] : Fin 1 → Fin S1x1x1.rank)
  bcast_S1x1x1_S16384x32x1_0_1_2 : S1x1x1.BroadcastsInDim S16384x32x1 (![0, 1, 2] : Fin 3 → Fin S16384x32x1.rank)
  reducesTo_S16384x32x1_S16384x32_d2 : S16384x32x1.ReducesTo [2] S16384x32
  h_S_ : 0 < S_.numel
  bcast_S16384x32_S16384x32x128_0_1 : S16384x32.BroadcastsInDim S16384x32x128 (![0, 1] : Fin 2 → Fin S16384x32x128.rank)
  bcast_S_S16384x32x128 : S_.BroadcastsInDim S16384x32x128 (![] : Fin 0 → Fin S16384x32x128.rank)
  reducesTo_S16384x32_S16384_d1 : S16384x32.ReducesTo [1] S16384
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x32_0_1 : S16384x1.BroadcastsInDim S16384x32 (![0, 1] : Fin 2 → Fin S16384x32.rank)
  slices_S100001x128_S16384x128_0_0 : S100001x128.Slices ![0, 0] S16384x128
  gather_S100001x128_S16384x32x1_S16384x32x128_2_0_n_n_0_2_1128_wf : GatherDims.WF S100001x128 S16384x32x1 S16384x32x128 [2] [0] [] [0] [] 2 ![1, 128]
  dot_S16384x32_S16384x32x128_S16384x128_1_1_n_2_0_0_wf : DotDims.WF S16384x32 S16384x32x128 S16384x128 [1] [1] [] [2] [0] [0]

variable [Facts₀]

def gather_S100001x128_S16384x32x1_S16384x32x128_2_0_n_n_0_2_1128 : GatherDims S100001x128 S16384x32x1 S16384x32x128 where
  offsetDims := [2]
  collapsedSliceDims := [0]
  operandBatchingDims := []
  startIndicesBatchingDims := []
  startIndexMap := [0]
  indexVectorDim := 2
  sliceSizes := ![1, 128]
  wf := gather_S100001x128_S16384x32x1_S16384x32x128_2_0_n_n_0_2_1128_wf
def dot_S16384x32_S16384x32x128_S16384x128_1_1_n_2_0_0 : DotDims S16384x32 S16384x32x128 S16384x128 where
  lhsContracting := [1]
  rhsContracting := [1]
  lhsNonContracting := []
  rhsNonContracting := [2]
  lhsBatch := [0]
  rhsBatch := [0]
  wf := dot_S16384x32_S16384x32x128_S16384x128_1_1_n_2_0_0_wf

class Facts : Prop extends Facts₀ where

variable [Facts]
-- ==== Proof.PreFacts.lean ====
/-
  The input-domain predicate, decoded: where it holds, every entry of the index array,
  read as a natural number, is at most 100000 (the table's last row).

  The predicate is a conjunction of three "all" reductions; the third is over the pointwise conjunction of the
  signed comparisons `0 ≤ idx` and `idx ≤ 100000`.  A signed word in `[0, 100000]` has that same value unsigned.
-/
import proofs.«203743_g50225347559739_cont_8to1c4_743_14_alg».proof.Pre_input_domain
import proofs.«203743_g50225347559739_cont_8to1c4_743_14_alg».proof.Proof.Gen.Pre_input_domain
import Idealize.ShloMosaic.Lib.ReduceAll
import Idealize.ShloMosaic.Lib.Affine

noncomputable section

namespace Cert.PreFacts

open Idealize.ShloMosaic

/-- The rank-0 shape has one index. -/
instance subsingleton_scalar_idx : Subsingleton Cert.Pre_input_domain.S_.Idx :=
  ⟨fun a b => funext fun x => x.elim0⟩

/-- A signed 32-bit word between 0 and 100000 is at most 100000 as a natural number. -/
theorem toNat_le_of_signed (w : BitVec 32) (h0 : (0#32 : BitVec 32).toInt ≤ w.toInt)
    (h1 : w.toInt ≤ (100000#32 : BitVec 32).toInt) : w.toNat ≤ 100000 := by
  have e0 : (0#32 : BitVec 32).toInt = 0 := by decide
  have e1 : (100000#32 : BitVec 32).toInt = 100000 := by decide
  rw [e0] at h0
  rw [e1] at h1
  have h32 := w.isLt
  unfold BitVec.toInt at h0 h1
  split at h1 <;> omega

/-- Where the input-domain predicate holds, every index is at most 100000. -/
theorem idx_le {F : FTy → Type} [FloatOps F] [Cert.Pre_input_domain.Facts]
    (a0 : IVec Cert.Pre_input_domain.S16384x32 32) (a1 : FVec F Cert.Pre_input_domain.S100001x128 .f32)
    (a2 : FVec F Cert.Pre_input_domain.S16384x32 .f32)
    (h : Cert.Pre_input_domain.fn (F := F) a0 a1 a2 = fun _ => 1#1) : ∀ i, (a0 i).toNat ≤ 100000 := by
  intro i
  have e := congrFun h (fun a => a.elim0)
  unfold Cert.Pre_input_domain.fn at e
  simp only [andi] at e
  obtain ⟨-, e3⟩ := IntOp.andi_eq_one.1 e
  have e4 := Host.reduce_andi_all _ _ _ _ _ e3 i
  simp only [andi, cmpi, broadcastInDim, constantI] at e4
  obtain ⟨hge, hle⟩ := IntOp.andi_eq_one.1 e4
  exact toNat_le_of_signed _ (IntOp.cmpi_sge.1 hge) (IntOp.cmpi_sle.1 hle)

end Cert.PreFacts

end
-- ==== Proof.KBCommon.lean ====
/-
  The names the launch of this program is written over: the SparseCore configuration and the body table as the
  launch theorem reads them, and the ghost state — the rounds of the launch handshakes, the rounds of the
  TensorCore pipeline's staging cells, and the counters of the subcores' own copies.
-/
import proofs.«203743_g50225347559739_cont_8to1c4_743_14_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«203743_g50225347559739_cont_8to1c4_743_14_alg».proof.Proof.Gen.Kernel

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the pipeline cells' rounds, the copies' counters -/

abbrev UH : Type := URounds (GSem nD τ sig) ℕ
abbrev UR : Type := URounds (GSem nD τ sig) Unit
abbrev UU : Type := UH × (UR × Counters)

abbrev EH : Emb UH (MT nD τ sig (HIx 1) (Elt F) ℕ UU ℕ) := embL
/-- The pipeline cells' rounds: the left half of the right factor. -/
def ER : Emb UR (MT nD τ sig (HIx 1) (Elt F) ℕ UU ℕ) :=
  ((Emb.inl : Emb UR (UR × Counters)).trans (Emb.inr : Emb (UR × Counters) UU)).trans
    (uEmb (nD := nD) (sig := sig) (Ix := HIx 1) (Val := Elt F) (Name := ℕ) (U := UU) (Lvl := ℕ)).toEmb
instance ER_landsIn : (ER : Emb UR (MT nD τ sig (HIx 1) (Elt F) ℕ UU ℕ)).LandsIn (upEmb : UEmb _ (MT nD τ sig (HIx 1) (Elt F) ℕ UU ℕ)) := by unfold ER; infer_instance

end Cert.Proof.KB

end
-- ==== Proof.KIPure.lean ====
/-
  The arithmetic of one item, free of any program: thirty-two multiply-adds taken left to right from a start
  value, and the whole result array as one function of the three arrays the subcores read — the indices laid out
  as 64 slabs of 64 chunks of 128, the weights as 64 slabs of 8192, and the table.

  Item `n` lies in slab `n / 256` at row `r = n % 256`; its 32 indices are entries `(r % 4) * 32 + p` of chunk
  `r / 4`, its 32 weights entries `r * 32 + p` of the slab's weights.  Over the extended reals the left-to-right
  accumulation from `a₀` is `(∑ p, w p * e p) + a₀`: addition there is commutative and associative.
-/
import Idealize.ShloMosaic.PureOps.Ideal
import Idealize.ShloMosaic.Lib.ValueIdx

noncomputable section

open scoped BigOperators

namespace Cert.Proof.Pure

open Idealize.ShloMosaic Idealize.ShloMosaic.ValueIdx

variable {F : FTy → Type} [FloatOps F]

abbrev SIe : Shape := ⟨3, ![64, 64, 128]⟩
abbrev SAw : Shape := ⟨2, ![64, 8192]⟩
abbrev STab : Shape := ⟨2, ![100001, 128]⟩
abbrev SRes : Shape := ⟨2, ![16384, 128]⟩

/-- Thirty-two multiply-adds from the start value `a₀`, in the order `p = 0, 1, …, 31`. -/
def acc32 (w e : Fin 32 → F .f32) (a₀ : F .f32) : F .f32 :=
  (List.finRange 32).foldl (fun a p => FloatOps.addf a (FloatOps.mulf (w p) (e p))) a₀

/-- The table row named by an index word: the word read as a natural number, clamped to the last row. -/
def rowOf (w : BitVec 32) : Fin 100001 := ⟨min w.toNat 100000, by omega⟩

/-- The weight `p` of item `n`. -/
def wOf (aw : SAw.Idx → F .f32) (n : Fin 16384) (p : Fin 32) : F .f32 :=
  aw (ix2 (⟨n.val / 256, by omega⟩ : Fin 64) (⟨(n.val % 256) * 32 + p.val, by omega⟩ : Fin 8192))

/-- The index word `p` of item `n`. -/
def iOf (ie : SIe.Idx → BitVec 32) (n : Fin 16384) (p : Fin 32) : BitVec 32 :=
  ie (ix3 (⟨n.val / 256, by omega⟩ : Fin 64) (⟨(n.val % 256) / 4, by omega⟩ : Fin 64) (⟨(n.val % 4) * 32 + p.val, by omega⟩ : Fin 128))

/-- Item `n`'s own row of the table. -/
def ownRow (n : Fin 16384) : Fin 100001 := ⟨n.val, by omega⟩

/-- The result array: item `n`'s own table row plus its thirty-two weighted rows, accumulated left to right. -/
def Gk (ie : SIe.Idx → BitVec 32) (aw : SAw.Idx → F .f32) (emb : STab.Idx → F .f32) : SRes.Idx → F .f32 :=
  fun j => acc32 (wOf aw (j 0)) (fun p => emb (ix2 (rowOf (iOf ie (j 0) p)) (j 1)))
    (emb (ix2 (ownRow (j 0)) (j 1)))

theorem foldl_add_eq {α : Type} (f : α → EReal) (l : List α) (a₀ : EReal) :
    l.foldl (fun a p => a + f p) a₀ = a₀ + (l.map f).sum := by
  induction l generalizing a₀ with
  | nil => simp
  | cons x xs ih => simp [List.foldl_cons, ih, add_assoc]

/-- Over the extended reals the accumulation is the sum of the products plus the start value. -/
theorem acc32_ideal (w e : Fin 32 → EReal) (a₀ : EReal) :
    acc32 (F := Ideal) w e a₀ = (∑ p : Fin 32, w p * e p) + a₀ := by
  unfold acc32
  show (List.finRange 32).foldl (fun a p => a + w p * e p) a₀ = _
  rw [foldl_add_eq, add_comm, Fin.sum_univ_def]

end Cert.Proof.Pure

end
-- ==== Proof.KBTileDefs.lean ====
/-
  One vector subcore's task, as the two item loops and the task's outer structure are written against it: the
  thread, the operands and scratch buffers as the body table passes them, the parts of the three arrays a subcore
  owns, and what the subcore takes and gives back.

  Subcore `(c, s)` is worker `w = 2 s + c`.  It owns slabs `2 w` and `2 w + 1` of the index array and of the
  weights, rows `[512 w, 512 w + 512)` of the result, and reads the table through a thirty-second share.  Half
  `h` of its task works on slab `2 w + h` and result rows `[512 w + 256 h, +256)`.
-/
import proofs.«203743_g50225347559739_cont_8to1c4_743_14_alg».proof.Proof.KBCommon
import proofs.«203743_g50225347559739_cont_8to1c4_743_14_alg».proof.Proof.KIPure

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The thread -/

abbrev cV (L : grid1.Coords) : Fin τ.nSC := (L 0).castLE hcore1
abbrev jV (L : grid1.Coords) : Fin τ.nSub := (L 1).castLE hsub1
/-- The vector subcore at grid coordinates `L` of device `d`. -/
abbrev thrV (d : Dev nD) (L : grid1.Coords) : Thread nD τ := V d (cV L) (jV L)
def coordsV (c : Fin (grid1.bound 0)) (s : Fin (grid1.bound 1)) : grid1.Coords :=
  fun | 0 => c | 1 => s | ⟨_ + 2, h⟩ => absurd h (Nat.not_lt.2 (Nat.le_add_left _ _))

theorem bound_zero : grid1.bound 0 = 2 := rfl
theorem bound_one : grid1.bound 1 = 16 := rfl
theorem trips1 : k1_t1_loop.trips = 2 := by decide
theorem trips2 : k1_t2_loop.trips = 32 := by decide
theorem trips3 : k1_t3_loop.trips = 4 := by decide
theorem trips4 : k1_t4_loop.trips = 4 := by decide

/-- The worker number `2 s + c` of subcore `(c, s)`: below 32. -/
def wid (L : grid1.Coords) : ℕ := 2 * (L 1).val + (L 0).val
theorem wid_lt (L : grid1.Coords) : wid L < 32 := by
  have h0 : (L 0).val < 2 := (L 0).isLt
  have h1 : (L 1).val < 16 := (L 1).isLt
  unfold wid; omega

/-! ## The operands and the scratch, as the body table passes them -/

abbrev ieV : Memref sig .scVector .hbm S64x64x128 .i32 := Memref.whole main_v0_scv
abbrev awV : Memref sig .scVector .hbm S64x8192 .f32 := Memref.whole main_v2_scv
abbrev embV : Memref sig .scVector .hbm S100001x128 .f32 := Memref.whole main_arg1_scv
abbrev resV : Memref sig .scVector .hbm S16384x128 .f32 := Memref.whole main_v3_scv
abbrev idxV : Memref sig .scVector .vmem S64x128 .i32 := Memref.whole cc1_scratch0
abbrev awvV : Memref sig .scVector .vmem S8192 .f32 := Memref.whole cc1_scratch1
abbrev buf0V : Memref sig .scVector .vmem S128x128 .f32 := Memref.whole cc1_scratch2
abbrev buf1V : Memref sig .scVector .vmem S128x128 .f32 := Memref.whole cc1_scratch3
abbrev outV : Memref sig .scVector .vmem S256x128 .f32 := Memref.whole cc1_scratch4

/-- The task at coordinates `L`, on the operands the body table passes. -/
abbrev tileProg [FloatOps F] (L : grid1.Coords) :
    Prog (TpuEff nD τ sig (Elt F) Λ₀ (.scVector ((L 0).castLE hcore1) ((L 1).castLE hsub1))) PUnit :=
  cc1__sc_body L ieV (Memref.isWhole_whole _) awV (Memref.isWhole_whole _) embV (Memref.isWhole_whole _)
    resV (Memref.isWhole_whole _) idxV (Memref.isWhole_whole _) awvV (Memref.isWhole_whole _)
    buf0V (Memref.isWhole_whole _) buf1V (Memref.isWhole_whole _) outV (Memref.isWhole_whole _)
    cc1_scratch5 cc1_scratch6 cc1_scoped0 cc1_scoped1 cc1_scoped2 cc1_scoped3

abbrev ieLoc (d : Dev nD) : Loc nD τ sig := (SparseCore.T d).loc main_v0
abbrev awLoc (d : Dev nD) : Loc nD τ sig := (SparseCore.T d).loc main_v2
abbrev embLoc (d : Dev nD) : Loc nD τ sig := (SparseCore.T d).loc main_arg1
abbrev resLoc (d : Dev nD) : Loc nD τ sig := (SparseCore.T d).loc main_v3
abbrev idxLoc (d : Dev nD) (L : grid1.Coords) : Loc nD τ sig := (thrV d L).loc cc1_scratch0
abbrev awvLoc (d : Dev nD) (L : grid1.Coords) : Loc nD τ sig := (thrV d L).loc cc1_scratch1
abbrev buf0Loc (d : Dev nD) (L : grid1.Coords) : Loc nD τ sig := (thrV d L).loc cc1_scratch2
abbrev buf1Loc (d : Dev nD) (L : grid1.Coords) : Loc nD τ sig := (thrV d L).loc cc1_scratch3
abbrev outLoc (d : Dev nD) (L : grid1.Coords) : Loc nD τ sig := (thrV d L).loc cc1_scratch4

/-- The scratch buffers as the run holds them: the whole buffer, at the full share. -/
abbrev idxPts (d : Dev nD) (L : grid1.Coords) (f : Buf (Elt F) (idxLoc d L)) : sProp 𝕄 := (idxV).view.loc (thrV d L) ↦{fullShare} f
abbrev awvPts (d : Dev nD) (L : grid1.Coords) (f : Buf (Elt F) (awvLoc d L)) : sProp 𝕄 := (awvV).view.loc (thrV d L) ↦{fullShare} f
abbrev buf0Pts (d : Dev nD) (L : grid1.Coords) (f : Buf (Elt F) (buf0Loc d L)) : sProp 𝕄 := (buf0V).view.loc (thrV d L) ↦{fullShare} f
abbrev buf1Pts (d : Dev nD) (L : grid1.Coords) (f : Buf (Elt F) (buf1Loc d L)) : sProp 𝕄 := (buf1V).view.loc (thrV d L) ↦{fullShare} f
abbrev outPts (d : Dev nD) (L : grid1.Coords) (f : Buf (Elt F) (outLoc d L)) : sProp 𝕄 := (outV).view.loc (thrV d L) ↦{fullShare} f

/-! ## The halves: the slices the task makes of the four arrays -/

abbrev ieRect (L : grid1.Coords) (h : Fin k1_t1_loop.trips) : Rect S64x64x128 :=
  Rect.unit (s := S64x64x128) (k1_off1 L h) S1x64x128.size (k1_off1_inb L h)
abbrev awRect (L : grid1.Coords) (h : Fin k1_t1_loop.trips) : Rect S64x8192 :=
  Rect.unit (s := S64x8192) (k1_off2 L h) S1x8192.size (k1_off2_inb L h)
abbrev ownRect (L : grid1.Coords) (h : Fin k1_t1_loop.trips) : Rect S100001x128 :=
  Rect.unit (s := S100001x128) (k1_off3 L h) S256x128.size (k1_off3_inb L h)
abbrev resRect (L : grid1.Coords) (h : Fin k1_t1_loop.trips) : Rect S16384x128 :=
  Rect.unit (s := S16384x128) (k1_off42 L h) S256x128.size (k1_off42_inb L h)
/-- Slab `2 w + h` of the indices, squeezed, as the task addresses it. -/
abbrev ieK (L : grid1.Coords) (h : Fin k1_t1_loop.trips) : Memref sig .scVector .hbm S64x128 .i32 :=
  ((ieV).slice (ieRect L h) (fun _ => rfl)).squeeze S64x128 squeezes_S1x64x128_S64x128
/-- Slab `2 w + h` of the weights, squeezed. -/
abbrev awK (L : grid1.Coords) (h : Fin k1_t1_loop.trips) : Memref sig .scVector .hbm S8192 .f32 :=
  ((awV).slice (awRect L h) (fun _ => rfl)).squeeze S8192 squeezes_S1x8192_S8192
/-- The items' own rows of the table: rows `[512 w + 256 h, +256)`. -/
abbrev ownK (L : grid1.Coords) (h : Fin k1_t1_loop.trips) : Memref sig .scVector .hbm S256x128 .f32 :=
  (embV).slice (ownRect L h) (fun _ => rfl)
/-- Rows `[512 w + 256 h, +256)` of the result. -/
abbrev resK (L : grid1.Coords) (h : Fin k1_t1_loop.trips) : Memref sig .scVector .hbm S256x128 .f32 :=
  (resV).slice (resRect L h) (fun _ => rfl)
/-- All of the table, as the gathers address it. -/
abbrev embAllK : Memref sig .scVector .hbm S100001x128 .f32 :=
  (embV).slice (Rect.unit (s := S100001x128) ![0, 0] S100001x128.size inb_S100001x128_S100001x128_0_0) (fun _ => rfl)

/-! ## What a subcore owns -/

/-- Slabs `2 w` and `2 w + 1` of the indices. -/
def ieSet (L : grid1.Coords) : Finset S64x64x128.Idx := Finset.univ.filter fun j => (j 0).val / 2 = wid L
/-- Slabs `2 w` and `2 w + 1` of the weights. -/
def awSet (L : grid1.Coords) : Finset S64x8192.Idx := Finset.univ.filter fun j => (j 0).val / 2 = wid L
/-- Rows `[512 w, 512 w + 512)` of the result. -/
def resSet (L : grid1.Coords) : Finset S16384x128.Idx := Finset.univ.filter fun j => (j 0).val / 512 = wid L

theorem mem_ieSet {L : grid1.Coords} {j : S64x64x128.Idx} : j ∈ ieSet L ↔ (j 0).val / 2 = wid L := by simp [ieSet]
theorem mem_awSet {L : grid1.Coords} {j : S64x8192.Idx} : j ∈ awSet L ↔ (j 0).val / 2 = wid L := by simp [awSet]
theorem mem_resSet {L : grid1.Coords} {j : S16384x128.Idx} : j ∈ resSet L ↔ (j 0).val / 512 = wid L := by simp [resSet]

/-- Leaf `i` of the depth-`n` halving of share `q`. -/
def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by omega⟩

/-- Subcore `(c, s)`'s share of the table: leaf `16 c + s` of the full share halved five times — the sixteen
    subcores of SparseCore 0 hold the leaves of the left half, those of SparseCore 1 the leaves of the right half. -/
def embq (L : grid1.Coords) : PosShare TreeShare :=
  leaf 5 fullShare ⟨16 * (L 0).val + (L 1).val, by
    have h0 : (L 0).val < 2 := (L 0).isLt
    have h1 : (L 1).val < 16 := (L 1).isLt
    omega⟩

variable [FloatOps F]

/-! ## What the subcore takes and gives back -/

/-- The indices of every item name a row of the table. -/
def IdxOK (ie : Pure.SIe.Idx → BitVec 32) : Prop := ∀ j, (ie j).toNat ≤ 100000

/-- What the task takes: its slabs of the indices and of the weights, a share of the table, its rows of the result. -/
def tilePre (d : Dev nD) (L : grid1.Coords) (ie : Buf (Elt F) (ieLoc d)) (aw : Buf (Elt F) (awLoc d))
    (emb : Buf (Elt F) (embLoc d)) (fo : Buf (Elt F) (resLoc d)) : sProp 𝕄 :=
  iprop((ieLoc d ↦[ieSet L]{fullShare} ie) ∗ (awLoc d ↦[awSet L]{fullShare} aw) ∗ (embLoc d ↦{embq L} emb)
    ∗ (resLoc d ↦[resSet L]{fullShare} fo))

/-- What it gives back: the same, its rows of the result at the items' accumulations. -/
def tilePost (d : Dev nD) (L : grid1.Coords) (ie : Buf (Elt F) (ieLoc d)) (aw : Buf (Elt F) (awLoc d))
    (emb : Buf (Elt F) (embLoc d)) : sProp 𝕄 :=
  iprop((ieLoc d ↦[ieSet L]{fullShare} ie) ∗ (awLoc d ↦[awSet L]{fullShare} aw) ∗ (embLoc d ↦{embq L} emb)
    ∗ (resLoc d ↦[resSet L]{fullShare} (Pure.Gk (F := F) ie aw emb : Buf (Elt F) (resLoc d))))

/-! ## One item's arithmetic on the scratch buffers -/

/-- Row `j 0` of the output scratch after its item: the thirty-two multiply-adds of the item's weights
    `fw[32 r + p]` with rows `32 (r % 4) + p` of the gathered buffer, from the row's own value. -/
def itemVal (fw : S8192.Idx → F .f32) (fb : S128x128.Idx → F .f32) (fo : S256x128.Idx → F .f32) (j : S256x128.Idx) : F .f32 :=
  Pure.acc32 (fun p => fw (ValueIdx.ix1 (⟨(j 0).val * 32 + p.val, by have h : (j 0).val < 256 := (j 0).isLt; have := p.isLt; show _ < 8192; omega⟩ : Fin 8192)))
    (fun p => fb (ValueIdx.ix2 (⟨((j 0).val % 4) * 32 + p.val, by have := p.isLt; show _ < 128; omega⟩ : Fin 128) (j 1)))
    (fo j)

/-- The output scratch after the first `k` items of chunk `c` (rows `4 c, …, 4 c + k - 1`). -/
def outAfter (fw : S8192.Idx → F .f32) (fb : S128x128.Idx → F .f32) (fo : S256x128.Idx → F .f32) (c k : ℕ) : S256x128.Idx → F .f32 :=
  fun j => if (j 0).val / 4 = c ∧ (j 0).val % 4 < k then itemVal fw fb fo j else fo j

theorem outAfter_zero (fw : S8192.Idx → F .f32) (fb : S128x128.Idx → F .f32) (fo : S256x128.Idx → F .f32) (c : ℕ) :
    outAfter fw fb fo c 0 = fo := by
  funext j; simp [outAfter]

end Cert.Proof.KB

end
-- ==== Proof.KBSplit.lean ====
/-
  The four arrays the SparseCores work on, dealt among the thirty-two vector subcores and collected again.
  Subcore `(c, s)` is worker `2 s + c`; the workers' slabs of the indices and of the weights, and their rows of
  the result, are pairwise disjoint and cover the arrays, and the table is read through thirty-two equal shares.
  Since every subcore leaves its rows of the result at one and the same whole-array function, the rows join at that
  function.
-/
import proofs.«203743_g50225347559739_cont_8to1c4_743_14_alg».proof.Proof.KBTileDefs

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The subcores -/

/-- The grid coordinates of subcore `s` of SparseCore `c`. -/
abbrev LL (c : Fin 2) (s : Fin 16) : grid1.Coords := coordsV (Fin.cast bound_zero.symm c) (Fin.cast bound_one.symm s)

theorem wid_LL (c : Fin 2) (s : Fin 16) : wid (LL c s) = 2 * s.val + c.val := rfl

theorem LL_inj {t t' : Fin 2 × Fin 16} (h : wid (LL t.1 t.2) = wid (LL t'.1 t'.2)) : t = t' := by
  rw [wid_LL, wid_LL] at h
  have h1 := t.1.isLt; have h2 := t'.1.isLt
  exact Prod.ext (Fin.ext (by omega)) (Fin.ext (by omega))

/-! ## Slabs and rows: disjoint, covering -/

theorem ie_disjoint : ∀ t ∈ (Finset.univ : Finset (Fin 2 × Fin 16)), ∀ t' ∈ (Finset.univ : Finset (Fin 2 × Fin 16)), t ≠ t' →
    Disjoint (ieSet (LL t.1 t.2)) (ieSet (LL t'.1 t'.2)) :=
  fun _ _ _ _ hne => Finset.disjoint_left.mpr fun _ hj hj' => hne (LL_inj ((mem_ieSet.mp hj).symm.trans (mem_ieSet.mp hj')))
theorem aw_disjoint : ∀ t ∈ (Finset.univ : Finset (Fin 2 × Fin 16)), ∀ t' ∈ (Finset.univ : Finset (Fin 2 × Fin 16)), t ≠ t' →
    Disjoint (awSet (LL t.1 t.2)) (awSet (LL t'.1 t'.2)) :=
  fun _ _ _ _ hne => Finset.disjoint_left.mpr fun _ hj hj' => hne (LL_inj ((mem_awSet.mp hj).symm.trans (mem_awSet.mp hj')))
theorem res_disjoint : ∀ t ∈ (Finset.univ : Finset (Fin 2 × Fin 16)), ∀ t' ∈ (Finset.univ : Finset (Fin 2 × Fin 16)), t ≠ t' →
    Disjoint (resSet (LL t.1 t.2)) (resSet (LL t'.1 t'.2)) :=
  fun _ _ _ _ hne => Finset.disjoint_left.mpr fun _ hj hj' => hne (LL_inj ((mem_resSet.mp hj).symm.trans (mem_resSet.mp hj')))

theorem ie_cover : (Finset.univ : Finset (Fin 2 × Fin 16)).biUnion (fun t => ieSet (LL t.1 t.2)) = Finset.univ := by
  ext j
  simp only [Finset.mem_biUnion, Finset.mem_univ, true_and, iff_true]
  have hj : (j 0).val < 64 := (j 0).isLt
  refine ⟨(⟨((j 0).val / 2) % 2, by omega⟩, ⟨((j 0).val / 2) / 2, by omega⟩), mem_ieSet.mpr ?_⟩
  rw [wid_LL]; show (j 0).val / 2 = 2 * (((j 0).val / 2) / 2) + ((j 0).val / 2) % 2; omega
theorem aw_cover : (Finset.univ : Finset (Fin 2 × Fin 16)).biUnion (fun t => awSet (LL t.1 t.2)) = Finset.univ := by
  ext j
  simp only [Finset.mem_biUnion, Finset.mem_univ, true_and, iff_true]
  have hj : (j 0).val < 64 := (j 0).isLt
  refine ⟨(⟨((j 0).val / 2) % 2, by omega⟩, ⟨((j 0).val / 2) / 2, by omega⟩), mem_awSet.mpr ?_⟩
  rw [wid_LL]; show (j 0).val / 2 = 2 * (((j 0).val / 2) / 2) + ((j 0).val / 2) % 2; omega
theorem res_cover : (Finset.univ : Finset (Fin 2 × Fin 16)).biUnion (fun t => resSet (LL t.1 t.2)) = Finset.univ := by
  ext j
  simp only [Finset.mem_biUnion, Finset.mem_univ, true_and, iff_true]
  have hj : (j 0).val < 16384 := (j 0).isLt
  refine ⟨(⟨((j 0).val / 512) % 2, by omega⟩, ⟨((j 0).val / 512) / 2, by omega⟩), mem_resSet.mpr ?_⟩
  rw [wid_LL]; show (j 0).val / 512 = 2 * (((j 0).val / 512) / 2) + ((j 0).val / 512) % 2; omega

theorem ie_rows (d : Dev nD) (f : Buf (Elt F) (ieLoc d)) :
    (ieLoc d ↦{fullShare} f : sProp 𝕄) = bigSep Finset.univ fun t : Fin 2 × Fin 16 => ieLoc d ↦[ieSet (LL t.1 t.2)]{fullShare} f := by
  rw [← pointsTo_biUnion Finset.univ (ℓ := ieLoc d) (fun t : Fin 2 × Fin 16 => ieSet (LL t.1 t.2)) ie_disjoint, ie_cover]
theorem aw_rows (d : Dev nD) (f : Buf (Elt F) (awLoc d)) :
    (awLoc d ↦{fullShare} f : sProp 𝕄) = bigSep Finset.univ fun t : Fin 2 × Fin 16 => awLoc d ↦[awSet (LL t.1 t.2)]{fullShare} f := by
  rw [← pointsTo_biUnion Finset.univ (ℓ := awLoc d) (fun t : Fin 2 × Fin 16 => awSet (LL t.1 t.2)) aw_disjoint, aw_cover]
theorem res_rows (d : Dev nD) (f : Buf (Elt F) (resLoc d)) :
    (resLoc d ↦{fullShare} f : sProp 𝕄) = bigSep Finset.univ fun t : Fin 2 × Fin 16 => resLoc d ↦[resSet (LL t.1 t.2)]{fullShare} f := by
  rw [← pointsTo_biUnion Finset.univ (ℓ := resLoc d) (fun t : Fin 2 × Fin 16 => resSet (LL t.1 t.2)) res_disjoint, res_cover]

/-! ## The table's shares -/

/-- The two halves of the leaves of depth `n + 1`. -/
def sumEquiv (n : ℕ) : Fin (2 ^ n) ⊕ Fin (2 ^ n) ≃ Fin (2 ^ (n + 1)) := finSumFinEquiv.trans (finCongr (by omega))

theorem sumEquiv_inl (n : ℕ) (i : Fin (2 ^ n)) : (sumEquiv n (Sum.inl i)).val = i.val := by simp [sumEquiv]
theorem sumEquiv_inr (n : ℕ) (i : Fin (2 ^ n)) : (sumEquiv n (Sum.inr i)).val = 2 ^ n + i.val := by simp [sumEquiv]; omega

theorem leaf_inl (n : ℕ) (q : PosShare TreeShare) (i : Fin (2 ^ n)) : leaf (n + 1) q (sumEquiv n (Sum.inl i)) = leaf n q.left i := by
  have h : (sumEquiv n (Sum.inl i)).val < 2 ^ n := by rw [sumEquiv_inl]; exact i.isLt
  have e : (⟨(sumEquiv n (Sum.inl i)).val, h⟩ : Fin (2 ^ n)) = i := Fin.ext (sumEquiv_inl n i)
  rw [leaf, dif_pos h, e]
theorem leaf_inr (n : ℕ) (q : PosShare TreeShare) (i : Fin (2 ^ n)) : leaf (n + 1) q (sumEquiv n (Sum.inr i)) = leaf n q.right i := by
  have h : ¬(sumEquiv n (Sum.inr i)).val < 2 ^ n := by rw [sumEquiv_inr]; omega
  have e : (⟨(sumEquiv n (Sum.inr i)).val - 2 ^ n, by have := (sumEquiv n (Sum.inr i)).isLt; omega⟩ : Fin (2 ^ n)) = i :=
    Fin.ext (by simp only [sumEquiv_inr]; omega)
  rw [leaf, dif_neg h, e]

/-- A points-to at a share is its leaves' at once. -/
theorem pointsTo_leaves {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (sumEquiv n) (fun i : Fin (2 ^ (n + 1)) => (ℓ ↦[I]{leaf (n + 1) q i} f : sProp 𝕄)), bigSep_univ_sum]
    congr 1 <;> refine bigSep_congr fun i _ => ?_
    · rw [leaf_inl]
    · rw [leaf_inr]

/-- Subcore `(c, s)` holds leaf `16 c + s`. -/
def tileEquiv : Fin 2 × Fin 16 ≃ Fin (2 ^ 5) := finProdFinEquiv.trans (finCongr (by norm_num))

theorem tileEquiv_val (t : Fin 2 × Fin 16) : (tileEquiv t).val = 16 * t.1.val + t.2.val := by
  simp [tileEquiv, finProdFinEquiv]; omega

theorem embq_LL (t : Fin 2 × Fin 16) : embq (LL t.1 t.2) = leaf 5 fullShare (tileEquiv t) := by
  unfold embq
  exact congrArg (leaf 5 fullShare) (Fin.ext (tileEquiv_val t).symm)

theorem emb_shares (d : Dev nD) (f : Buf (Elt F) (embLoc d)) :
    (embLoc d ↦{fullShare} f : sProp 𝕄) = bigSep Finset.univ fun t : Fin 2 × Fin 16 => embLoc d ↦{embq (LL t.1 t.2)} f := by
  rw [pointsTo_leaves Finset.univ f 5 fullShare,
    bigSep_univ_equiv tileEquiv (fun i : Fin (2 ^ 5) => (embLoc d ↦{leaf 5 fullShare i} f : sProp 𝕄))]
  exact bigSep_congr fun t _ => by rw [embq_LL]

variable [FloatOps F]

/-! ## The deal -/

/-- The four arrays whole are what the thirty-two subcores take. -/
theorem arrays_split (d : Dev nD) (ie : Buf (Elt F) (ieLoc d)) (aw : Buf (Elt F) (awLoc d)) (emb : Buf (Elt F) (embLoc d)) (fo : Buf (Elt F) (resLoc d)) :
    (iprop((ieLoc d ↦{fullShare} ie) ∗ (awLoc d ↦{fullShare} aw) ∗ (embLoc d ↦{fullShare} emb) ∗ (resLoc d ↦{fullShare} fo)) : sProp 𝕄)
      = bigSep Finset.univ fun c : Fin 2 => bigSep Finset.univ fun s : Fin 16 => tilePre d (LL c s) ie aw emb fo := by
  rw [← bigSep_univ_prod (fun t : Fin 2 × Fin 16 => tilePre d (LL t.1 t.2) ie aw emb fo)]
  unfold tilePre
  rw [bigSep_sep', bigSep_sep', bigSep_sep', ← ie_rows, ← aw_rows, ← emb_shares, ← res_rows]

/-- What a subcore gives back is what it would take with its rows of the result at the accumulations. -/
theorem tilePost_eq (d : Dev nD) (L : grid1.Coords) (ie : Buf (Elt F) (ieLoc d)) (aw : Buf (Elt F) (awLoc d)) (emb : Buf (Elt F) (embLoc d)) :
    tilePost d L ie aw emb = tilePre d L ie aw emb (Pure.Gk (F := F) ie aw emb : Buf (Elt F) (resLoc d)) := rfl

/-- What the thirty-two subcores give back is the four arrays whole, the result at the accumulations. -/
theorem arrays_join (d : Dev nD) (ie : Buf (Elt F) (ieLoc d)) (aw : Buf (Elt F) (awLoc d)) (emb : Buf (Elt F) (embLoc d)) :
    (bigSep Finset.univ fun c : Fin 2 => bigSep Finset.univ fun s : Fin 16 => tilePost d (LL c s) ie aw emb)
      = (iprop((ieLoc d ↦{fullShare} ie) ∗ (awLoc d ↦{fullShare} aw) ∗ (embLoc d ↦{fullShare} emb)
          ∗ (resLoc d ↦{fullShare} (Pure.Gk (F := F) ie aw emb : Buf (Elt F) (resLoc d)))) : sProp 𝕄) := by
  simp only [tilePost_eq]
  exact (arrays_split d ie aw emb _).symm

end Cert.Proof.KB

end
-- ==== Proof.KBSoft.lean ====
/-
  The row-wise softmax that the first kernel region computes, as one function of the whole logits array.

  The region walks the 16384 rows in 8 blocks of 2048 rows.  On one block it takes, row by row, the maximum,
  subtracts it, exponentiates, sums the row and divides: `smPay`.  Row `n` of the array lies in block `n / 2048`
  at row `n % 2048`, so the whole result is `smF x n p = smPay (block (n / 2048) of x) (n % 2048) p`.
  Everything here is generic in the float operations.
-/
import Idealize.ShloMosaic.PureOps.Ideal
import Idealize.ShloMosaic.Lib.ValueIdx

noncomputable section

namespace Cert.Proof.KB

open Idealize.ShloMosaic Idealize.ShloMosaic.ValueIdx

/-- The shapes: the whole array, one block, a block's rows, and the rows as a column. -/
abbrev SmAll : Shape := ⟨2, ![16384, 32]⟩
abbrev SmBlk : Shape := ⟨2, ![2048, 32]⟩
abbrev SmRow : Shape := ⟨1, ![2048]⟩
abbrev SmCol : Shape := ⟨2, ![2048, 1]⟩

theorem smReduces : SmBlk.Reduces [1] SmRow := by decide
theorem smCasts : SmRow.ShapeCasts SmCol := by decide
theorem smBroadcasts : SmCol.Broadcasts SmBlk := by decide

variable {F : FTy → Type} [FloatOps F]

/-- The softmax of one block of 2048 rows: each row's maximum (from the bit pattern of `-∞`) is subtracted, the
    differences exponentiated, and each exponential divided by its row's sum (from the bit pattern of `0`). -/
def smPay (v0 : Vec F SmBlk .f32) : FVec F SmBlk .f32 :=
  have v1 : FVec F SmRow .f32 := multiReduction .maximumf [1] SmRow v0 0xFF800000#32 smReduces (.inl rfl) rfl
  have v2 : FVec F SmCol .f32 := shapeCast SmCol v1 smCasts
  have v3 : FVec F SmBlk .f32 := broadcastTo SmBlk v2 smBroadcasts
  have v4 : FVec F SmBlk .f32 := subf v0 v3
  have v5 : FVec F SmBlk .f32 := exp v4
  have v6 : FVec F SmRow .f32 := multiReduction .add [1] SmRow v5 0x00000000#32 smReduces (.inl rfl) rfl
  have v7 : FVec F SmCol .f32 := shapeCast SmCol v6 smCasts
  have v8 : FVec F SmBlk .f32 := broadcastTo SmBlk v7 smBroadcasts
  have v9 : FVec F SmBlk .f32 := divf v5 v8
  v9

/-- Block `b` of the array: rows `2048 * b` to `2048 * b + 2047`. -/
def smBlock (x : FVec F SmAll .f32) (b : Fin 8) : Vec F SmBlk .f32 :=
  fun j => x (ix2 (n0 := 16384) (n1 := 32) ⟨2048 * b.val + (j 0).val, by have h : (j 0).val < 2048 := (j 0).isLt; have := b.isLt; show _ < 16384; omega⟩ (j 1))

/-- The whole result: row `n` is row `n % 2048` of the softmax of block `n / 2048`. -/
def smF (x : FVec F SmAll .f32) : FVec F SmAll .f32 :=
  fun i => smPay (smBlock x ⟨(i 0).val / 2048, by have h : (i 0).val < 16384 := (i 0).isLt; show _ < 8; omega⟩)
    (ix2 (n0 := 2048) (n1 := 32) ⟨(i 0).val % 2048, Nat.mod_lt _ (by decide)⟩ (i 1))

end Cert.Proof.KB

end
-- ==== Proof.KBPay.lean ====
/-
  What the launch handshakes carry.  When the TensorCore starts the SparseCores the indices lie reshaped in
  64 slabs, the softmax weights reshaped likewise, the table is as the program found it and the result array holds
  anything.  Each SparseCore is handed what its sixteen subcores take; each subcore brings back its part with its
  rows of the result at the items' accumulations.
-/
import proofs.«203743_g50225347559739_cont_8to1c4_743_14_alg».proof.Proof.KBSplit
import proofs.«203743_g50225347559739_cont_8to1c4_743_14_alg».proof.Proof.KBSoft

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (m : (ℓ : Loc nD τ sig) → Buf (Elt F) ℓ)

/-! ## The arrays' contents at the SparseCore call -/

/-- The indices, reshaped into 64 slabs of 64 chunks of 128. -/
abbrev ieC (d : Dev nD) : Buf (Elt F) (ieLoc d) :=
  (shapeCast S64x64x128 (m ((T d : Thread nD τ).loc main_arg0)) shapeCasts_S16384x32_S64x64x128 : Vec F S64x64x128 .i32)
/-- The softmax weights, reshaped into 64 slabs of 8192. -/
abbrev awC (d : Dev nD) : Buf (Elt F) (awLoc d) :=
  (shapeCast S64x8192 (smF (m ((T d : Thread nD τ).loc main_arg2))) shapeCasts_S16384x32_S64x8192 : Vec F S64x8192 .f32)
/-- The table. -/
abbrev embC (d : Dev nD) : Buf (Elt F) (embLoc d) := m (embLoc d)

/-- What the proof asks of the launch memory: every index word names a row of the table. -/
def PreOK : Prop := ∀ (d : Dev nD) i, (m ((T d : Thread nD τ).loc main_arg0) i).toNat ≤ 100000

theorem idxOK_of_pre (hpre : PreOK m) (d : Dev nD) : IdxOK (ieC m d) := by
  intro j
  show (shapeCast S64x64x128 (m ((T d : Thread nD τ).loc main_arg0)) shapeCasts_S16384x32_S64x64x128 j).toNat ≤ 100000
  unfold shapeCast
  exact hpre d _

/-! ## The record -/

instance tilePre_storable (d : Dev nD) (L : grid1.Coords) (ie : Buf (Elt F) (ieLoc d)) (aw : Buf (Elt F) (awLoc d)) (emb : Buf (Elt F) (embLoc d)) (fo : Buf (Elt F) (resLoc d)) :
    BI.Storable (upEmb : UEmb _ 𝕄) (tilePre d L ie aw emb fo) := by unfold tilePre; infer_instance
instance tilePost_storable (d : Dev nD) (L : grid1.Coords) (ie : Buf (Elt F) (ieLoc d)) (aw : Buf (Elt F) (awLoc d)) (emb : Buf (Elt F) (embLoc d)) :
    BI.Storable (upEmb : UEmb _ 𝕄) (tilePost d L ie aw emb) := by unfold tilePost; infer_instance

/-- The subcore `i` of SparseCore `c` of the call, as grid coordinates. -/
abbrev Lci (c : Fin ((K (F := F)).nCore 0)) (i : Fin ((K (F := F)).nSub 0)) : grid1.Coords := LL (Fin.cast nCore_zero c) (Fin.cast nSub_zero i)

def P : (K (F := F)).Pay (nD := nD) (Val := Elt F) (Name := ℕ) (U := UU) where
  st := fun q d c => match q with
    | 0 => iprop(∃ fo, bigSep Finset.univ fun i : Fin ((K (F := F)).nSub 0) => tilePre d (Lci c i) (ieC m d) (awC m d) (embC m d) fo)
  dn := fun q d c => match q with
    | 0 => bigSep Finset.univ fun i : Fin ((K (F := F)).nSub 0) => tilePost d (Lci c i) (ieC m d) (awC m d) (embC m d)
  go := fun q d c i => match q with
    | 0 => iprop(∃ fo, tilePre d (Lci c i) (ieC m d) (awC m d) (embC m d) fo)
  td := fun q d c i => match q with
    | 0 => tilePost d (Lci c i) (ieC m d) (awC m d) (embC m d)
  x := fun _ _ => iprop(emp)

instance P_storable : (P (F := F) m).IsStorable where
  st q d c := match q with
    | 0 => (inferInstance : BI.Storable (upEmb : UEmb _ 𝕄)
      iprop(∃ fo, bigSep Finset.univ fun i : Fin ((K (F := F)).nSub 0) => tilePre d (Lci c i) (ieC m d) (awC m d) (embC m d) fo))
  dn q d c := match q with
    | 0 => (inferInstance : BI.Storable (upEmb : UEmb _ 𝕄)
      (bigSep Finset.univ fun i : Fin ((K (F := F)).nSub 0) => tilePost d (Lci c i) (ieC m d) (awC m d) (embC m d)))
  go q d c i := match q with
    | 0 => (inferInstance : BI.Storable (upEmb : UEmb _ 𝕄) iprop(∃ fo, tilePre d (Lci c i) (ieC m d) (awC m d) (embC m d) fo))
  td q d c i := match q with
    | 0 => (inferInstance : BI.Storable (upEmb : UEmb _ 𝕄) (tilePost d (Lci c i) (ieC m d) (awC m d) (embC m d)))

/-! ## A SparseCore's operands among its subcores -/

theorem pre_to_go (d : Dev nD) (c : Fin ((K (F := F)).nCore 0)) (fo : Buf (Elt F) (resLoc d)) :
    (bigSep Finset.univ fun i : Fin ((K (F := F)).nSub 0) => tilePre d (Lci c i) (ieC m d) (awC m d) (embC m d) fo)
      ⊢ bigSep Finset.univ fun i : Fin ((K (F := F)).nSub 0) => iprop(∃ fo, tilePre d (Lci c i) (ieC m d) (awC m d) (embC m d) fo) :=
  bigSep_mono fun i _ => by
    show tilePre d (Lci c i) (ieC m d) (awC m d) (embC m d) fo ⊢ iprop(∃ fo, tilePre d (Lci c i) (ieC m d) (awC m d) (embC m d) fo)
    iintro H; iexists fo; iexact H

theorem vecSplit : (K (F := F)).VecSplit' (P m) 0 := by
  intro d c
  show iprop(∃ fo, bigSep Finset.univ fun i : Fin ((K (F := F)).nSub 0) => tilePre d (Lci c i) (ieC m d) (awC m d) (embC m d) fo)
    ⊢ |={Set.univ}=> iprop((bigSep Finset.univ fun i : Fin ((K (F := F)).nSub 0) => iprop(∃ fo, tilePre d (Lci c i) (ieC m d) (awC m d) (embC m d) fo))
      ∗ ((bigSep Finset.univ fun i : Fin ((K (F := F)).nSub 0) => tilePost d (Lci c i) (ieC m d) (awC m d) (embC m d))
          -∗ bigSep Finset.univ fun i : Fin ((K (F := F)).nSub 0) => tilePost d (Lci c i) (ieC m d) (awC m d) (embC m d)))
  iintro ⟨%fo, H⟩
  imodintro
  isplitl [H]
  · iapply (pre_to_go m d c fo); iexact H
  · iintro H; iexact H

end Cert.Proof.KB

end
-- ==== Proof.KBSoftDat.lean ====
/-
  The proof data of the softmax region's pipeline on one TensorCore, and its body obligation.

  The pipeline walks 8 grid points; at point `t` the input window holds block `t` of the logits (rows
  `2048 t … 2048 t + 2047`), the body loads it, computes the block softmax `smPay`, and stores it over the whole
  output buffer, which the pipeline writes back as block `t` of the result.  While the region runs the core owes
  what it owed at its entry: the start signals of the call that follows.
-/
import proofs.«203743_g50225347559739_cont_8to1c4_743_14_alg».proof.Proof.KBCommon
import proofs.«203743_g50225347559739_cont_8to1c4_743_14_alg».proof.Proof.KBSoft
import proofs.«203743_g50225347559739_cont_8to1c4_743_14_alg».proof.Proof.Gen.Kernel.Launch
import proofs.«203743_g50225347559739_cont_8to1c4_743_14_alg».proof.Proof.Gen.Kernel.Points
import Idealize.ShloMosaic.Lib.Pipeline.FrameBody
import Idealize.ShloMosaic.Lib.Ring

set_option maxRecDepth 16384

noncomputable section

namespace Cert.Proof.KB.Soft

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F]

local notation "𝕄" => MT nD τ sig (HIx 1) (Elt F) ℕ UU ℕ

variable (m : (ℓ : Loc nD τ sig) → Buf (Elt F) ℓ)

/-! ## The input window's block, and what the body leaves in the output window's buffer -/

/-- The input window's block at point `t`, read off the logits as launched. -/
def iblk (c : Dev nD) (t : Fin cfg0.N) : ((cfg0.win 0).xblock (cfg0.grid.coords t)).Idx → Elt F (cfg0.win 0).elt :=
  ((cfg0.win 0).blk t).view.read (Elt F) (m ((c : Thread nD τ).loc main_arg2))

/-- The one rectangle the body loads and stores through: the whole buffer. -/
abbrev r0 : Rect S2048x32 := Rect.unit (s := S2048x32) ![0, 0] S2048x32.size inb_S2048x32_S2048x32_0_0

/-- The output buffer after the body: its one store, of the block softmax of what was loaded. -/
def out1 (x0 : Vec F S2048x32 .f32) : Vec F S2048x32 .f32 :=
  View.canon [⟨r0, smPay (View.ld x0 r0)⟩]

theorem cover1 (p0 : Vec F S2048x32 .f32) (y : S2048x32.Idx) :
    ∃ pc ∈ ([⟨r0, p0⟩] : List (View.Piece (Elt F) S2048x32 .f32)), y ∈ pc.1.set :=
  View.cover_of_tiled [⟨r0, p0⟩] S2048x32.size (by rfl) y

/-! ## The body's triple -/

/-- The printed body is two loads and a store of the block softmax of the first. -/
theorem body_eq (i : grid0.Coords) (arg1 : Memref sig .tc .vmem S2048x32 .f32) (harg1 : arg1.IsWhole) (arg2 : Memref sig .tc .vmem S2048x32 .f32) (harg2 : arg2.IsWhole) :
    cc0__softmax_body (F := F) i arg1 harg1 arg2 harg2 = (do
      let v0 : Vec F S2048x32 .f32 ← Prog.lift (.load arg1 (Rect.unit (s := S2048x32) ![0, 0] S2048x32.size inb_S2048x32_S2048x32_0_0).toLoadRect (View.loadsAt_vmem h_S2048x32))
      let v10 : Vec F S2048x32 .f32 ← Prog.lift (.load arg2 (Rect.unit (s := S2048x32) ![0, 0] S2048x32.size inb_S2048x32_S2048x32_0_0).toLoadRect (View.loadsAt_vmem h_S2048x32))
      Prog.lift (.store arg2 (Rect.unit (s := S2048x32) ![0, 0] S2048x32.size inb_S2048x32_S2048x32_0_0) (smPay v0) Finset.univ (View.stores_vmem_bits_univ h_S2048x32 rfl) (.inl rfl))
      pure ⟨⟩) := rfl

set_option maxHeartbeats 1000000 in
/-- The body on whole staging memrefs, the input's at contents `x0` and the output's at anything, runs to the
    continuation holding the input's as it was and the output's at `out1 x0`. -/
theorem sound_kernel (c : Dev nD) (E : Set ℕ) (i : grid0.Coords) (arg1 : Memref sig .tc .vmem S2048x32 .f32) (harg1 : arg1.IsWhole) (arg2 : Memref sig .tc .vmem S2048x32 .f32) (harg2 : arg2.IsWhole)
    (x0 : Vec F S2048x32 .f32) (Kk : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1 x0)) -∗ Kk ⟨⟩))
      ⊢ wp frame (wpE (defs₀ (F := F)) Variants.none c none) E (cc0__softmax_body i arg1 harg1 arg2 harg2) Kk := by
  rw [body_eq]
  unfold owns
  iintro ⟨⟨%f0, %hf0, H0⟩, ⟨%d2, %f2, -, H2⟩, Hk⟩
  subst hf0
  sl_exec
  sl_step
  iapply Hk
  isplitl [H0]
  · iexists f0; isplitr; · ipureintro; rfl
    iexact H0
  iexists _; isplitr
  swap; · iexact H2
  ipureintro
  exact View.read_writes_eq_canon _ _ _ (cover1 _)

/-! ## The proof data -/

/-- The proof data of the pipeline on core `c`: the arrays as launched; after the body at point `t` the input's
    buffer at its block and the output's at `out1` of it; the invariant the scoped buffers no window stages; full
    shares; the core owes throughout what it owes before the first call, and every wait it has recorded sits at
    level zero. -/
def dats (_ : Fin 1) (c : Dev nD) : Dat τ (Elt F) (HIx 1) ℕ UU ℕ cfg0 c where
  A w := m ((c : Thread nD τ).loc (Pipeline.arrRef spec0 w))
  after w t := match w with
    | ⟨0, _⟩ => iblk m c t
    | ⟨1, _⟩ => out1 (iblk m c t)
  Φ _ := Pipeline.scopedRest spec0 c
  q _ := fullShare
  owed _ := (K (F := F)).Otc c 0
  recorded _ := {p | (K (F := F)).lev ((c : Thread nD τ), p.1) p.2 ≤ 0}

theorem A_eq (c : Dev nD) (w : Fin cfg0.W) : (dats m 0 c).A w = m ((c : Thread nD τ).loc (Pipeline.arrRef spec0 w)) := by
  dsimp only [dats]

theorem after0_0 (c : Dev nD) (t : Fin cfg0.N) : (dats m 0 c).after 0 t = iblk m c t := by dsimp only [dats]
theorem after0_1 (c : Dev nD) (t : Fin cfg0.N) : (dats m 0 c).after 1 t = out1 (iblk m c t) := by dsimp only [dats]

/-- The input's current staging buffer holds its block at every point. -/
theorem before0_0 (c : Dev nD) (t : Fin cfg0.N) (d) : (dats m 0 c).before 0 t d = iblk m c t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt none t.castSucc
    ∗ (∃ d, owns (c : Thread nD τ) (st0_0 t) fullShare ((dats m 0 c).before 0 t d))
    ∗ (∃ d, owns (c : Thread nD τ) (st0_1 t) fullShare ((dats m 0 c).before 1 t d)))

def bodyPost (c : Dev nD) (t : Fin cfg0.N) : sProp 𝕄 :=
  iprop((dats m 0 c).Φ t.succ ∗ (dats m 0 c).owesAt none t.succ
    ∗ owns (c : Thread nD τ) (st0_0 t) fullShare ((dats m 0 c).after 0 t)
    ∗ owns (c : Thread nD τ) (st0_1 t) fullShare ((dats m 0 c).after 1 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt none t.succ = (dats m 0 c).owesAt none t.castSucc from rfl,
    after0_0, after0_1]
  iintro ⟨HΦ, Ho, ⟨%d0, H0⟩, ⟨%d1, H1⟩⟩
  iapply (sound_kernel c Set.univ (grid0.coords t) _ _ _ _ (iblk m c t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation (c : Dev nD) : BodyObligation (dats (F := F) m 0 c) (defs₀ (F := F)) Variants.none none Set.univ := fun t => by
  rw [bigSep_W0, bigSep_W0]
  exact sound_body m c t

end Cert.Proof.KB.Soft

end
-- ==== Proof.KBSoftFinal.lean ====
/-
  What the softmax region leaves in its two arrays: the logits untouched, and the result array at the row-wise
  softmax `smF` of the logits.

  Point `t` writes back the block softmax of block `t` of the logits as block `t` of the result; that is block
  `t` of `smF` (row `2048 t + r` lies in block `t` at row `r`); the eight blocks cover the array.
-/
import proofs.«203743_g50225347559739_cont_8to1c4_743_14_alg».proof.Proof.KBSoftDat
import Idealize.ShloMosaic.Lib.Pipeline.Value

set_option maxRecDepth 16384

noncomputable section

namespace Cert.Proof.KB.Soft

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F]

local notation "𝕄" => MT nD τ sig (HIx 1) (Elt F) ℕ UU ℕ

variable (m : (ℓ : Loc nD τ sig) → Buf (Elt F) ℓ)

theorem hz : (![0, 0] : Fin 2 → Nat) = fun _ => 0 := funext fun a => by fin_cases a <;> rfl

/-- The body's store, the one piece covering the buffer, leaves the block softmax of the loaded block. -/
theorem out1_eq (x0 : Vec F S2048x32 .f32) : out1 x0 = smPay x0 := by
  unfold out1
  rw [View.canon_unit_zero hz]
  simp only [View.ld_unit_zero (S := S2048x32) hz]

/-- The index maps, decided over the grid: both windows are at block `(t, 0)` at point `t`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- The logits' array is never written. -/
theorem final0 (c : Dev nD) : (dats m 0 c).arrAt 0 cfg0.N = m ((c : Thread nD τ).loc main_arg2) :=
  ((dats m 0 c).arrAt_in 0 rfl _).trans (A_eq m c 0)

/-- What point `t` writes back is block `t` of `smF` of the logits. -/
theorem flushed1_eq (c : Dev nD) (t : Fin cfg0.N) :
    (dats m 0 c).flushed 1 t = ((cfg0.win 1).blk t).view.read (Elt F) (smF (m ((c : Thread nD τ).loc main_arg2)) : Vec F S16384x32 .f32) := by
  show (cfg0.win 1).cut (grid0.coords t) ((dats m 0 c).after 1 t) = _
  rw [after0_1, out1_eq]
  obtain ⟨e0, e1, e2, e3⟩ := idx_facts t
  have hN : grid0.N = 8 := N_0
  funext j
  show smPay (iblk m c t) j = smF (m ((c : Thread nD τ).loc main_arg2)) (((cfg0.win 1).blk t).view.emb j)
  have hj0 : (j 0).val < 2048 := (j 0).isLt
  have hj1 : (j 1).val < 32 := (j 1).isLt
  have ht : t.val < 8 := by have h : t.val < grid0.N := t.isLt; omega
  have h0 : ((((cfg0.win 1).blk t).view.emb j) 0).val = 2048 * t.val + (j 0).val := by
    show win0_1.index t (0 : Fin 2) * 2048 + 1 * (j 0).val = _; omega
  have h1 : ((((cfg0.win 1).blk t).view.emb j) 1).val = (j 1).val := by
    show win0_1.index t (1 : Fin 2) * 32 + 1 * (j 1).val = _; omega
  unfold smF
  have hb : (⟨((((cfg0.win 1).blk t).view.emb j) 0).val / 2048, by rw [h0]; show _ < 8; omega⟩ : Fin 8) = ⟨t.val, ht⟩ :=
    Fin.ext (by show ((((cfg0.win 1).blk t).view.emb j) 0).val / 2048 = t.val; rw [h0]; omega)
  have hr : (ValueIdx.ix2 (n0 := 2048) (n1 := 32) ⟨((((cfg0.win 1).blk t).view.emb j) 0).val % 2048, Nat.mod_lt _ (by decide)⟩ ((((cfg0.win 1).blk t).view.emb j) 1)) = j := by
    funext a
    match a with
    | ⟨0, _⟩ => exact Fin.ext (by show ((((cfg0.win 1).blk t).view.emb j) 0).val % 2048 = (j 0).val; rw [h0]; omega)
    | ⟨1, _⟩ => exact Fin.ext h1
  rw [hb, hr]
  congr 1
  funext i
  show m ((c : Thread nD τ).loc main_arg2) (((cfg0.win 0).blk t).view.emb i) = m ((c : Thread nD τ).loc main_arg2) _
  congr 1
  funext a
  have hi0 : (i 0).val < 2048 := (i 0).isLt
  match a with
  | ⟨0, _⟩ => exact Fin.ext (by show win0_0.index t (0 : Fin 2) * 2048 + 1 * (i 0).val = 2048 * t.val + (i 0).val; omega)
  | ⟨1, _⟩ => exact Fin.ext (by show win0_0.index t (1 : Fin 2) * 32 + 1 * (i 1).val = (i 1).val; omega)

/-- An index of the result array is in point `t`'s block iff each coordinate is in the block's range. -/
theorem mem_blk1 (t : Fin cfg0.N) (i : S16384x32.Idx) :
    i ∈ ((cfg0.win 1).blk t).view.set ↔ ∀ a : Fin 2, win0_1.index t a * S2048x32.size a ≤ (i a).val ∧ (i a).val < win0_1.index t a * S2048x32.size a + S2048x32.size a := by
  show i ∈ ((View.whole main_v1).slice (win0_1.rect t)).set ↔ _
  rw [View.set_slice_whole, Rect.mem_set_unit]
  exact Iff.rfl

/-- Every index of the result array is in some point's block. -/
theorem cover_all (i : S16384x32.Idx) : ∃ t : Fin cfg0.N, (cfg0.win 1).flush t = true ∧ i ∈ ((cfg0.win 1).blk t).view.set := by
  have hi0 : (i 0).val < 16384 := (i 0).isLt
  have hi1 : (i 1).val < 32 := (i 1).isLt
  have hN : grid0.N = 8 := N_0
  let t : Fin cfg0.N := ⟨(i 0).val / 2048, by show _ < grid0.N; omega⟩
  obtain ⟨e0, e1, e2, e3⟩ := idx_facts t
  have htv : t.val = (i 0).val / 2048 := rfl
  refine ⟨t, flush0_1 t, ?_⟩
  rw [mem_blk1]
  intro a
  match a with
  | ⟨0, _⟩ => show win0_1.index t (0 : Fin 2) * 2048 ≤ (i 0).val ∧ (i 0).val < win0_1.index t (0 : Fin 2) * 2048 + 2048; omega
  | ⟨1, _⟩ => show win0_1.index t (1 : Fin 2) * 32 ≤ (i 1).val ∧ (i 1).val < win0_1.index t (1 : Fin 2) * 32 + 32; omega

/-- The result array after the region: the row-wise softmax of the logits. -/
theorem final1 (c : Dev nD) : (dats m 0 c).arrAt 1 cfg0.N = (smF (m ((c : Thread nD τ).loc main_arg2)) : Vec F S16384x32 .f32) :=
  (dats m 0 c).arrAt_eq_of_cover 1 _ (fun t _ => flushed1_eq m c t) cover_all

end Cert.Proof.KB.Soft

end
-- ==== Proof.KBSoftHead.lean ====
/-
  The head of @main on a TensorCore: the reshape of the index array, the softmax region, the reshape of its result.

  From what the launch deals the TensorCore — its handshake state before the first call, the region boundary, the seven
  arrays as launched — and the region's share of the ghost state (the staging cells' rounds and duty tokens), the three
  statements run to the same handshake state and the arrays at known contents: the arguments untouched, the
  index array recast, the softmax of the logits, and that recast.
-/
import proofs.«203743_g50225347559739_cont_8to1c4_743_14_alg».proof.Proof.KBCommon
import proofs.«203743_g50225347559739_cont_8to1c4_743_14_alg».proof.Proof.KBSoft
import proofs.«203743_g50225347559739_cont_8to1c4_743_14_alg».proof.Proof.Gen.Kernel.Launch
import proofs.«203743_g50225347559739_cont_8to1c4_743_14_alg».proof.Proof.Gen.Kernel.Points
import Idealize.ShloMosaic.Lib.Pipeline.Regions
import proofs.«203743_g50225347559739_cont_8to1c4_743_14_alg».proof.Proof.KBSoftFinal

set_option maxRecDepth 16384

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F]

local notation "𝕄" => MT nD τ sig (HIx 1) (Elt F) ℕ UU ℕ

variable (m : (ℓ : Loc nD τ sig) → Buf (Elt F) ℓ) (g : Dev nD → PrngReg)
variable (P : (K (F := F)).Pay (nD := nD) (Val := Elt F) (Name := ℕ) (U := UU))
variable (lv : GSem nD τ sig → HIx 1 → ℕ)

open Soft

/-- The admissible prefetched tables: the pipeline has none. -/
abbrev adm : (p : Fin 1) → (pcfgs (F := F) p).Adm := fun p => (cfgs p).toPCfg_adm

namespace Soft

/-- At the one (empty) contents the pipelines are the program's own configurations. -/
theorem pin_eq : Pipeline.pin (pcfgs (F := F)) adm = cfgs := funext fun p => Pipeline.Cfg.toPCfg_at (cfgs p) _

/-! ## The arrays, one by one -/

/-- The TensorCore's unscoped buffers are the seven arrays of @main. -/
theorem unscopedBufs_eq (d : Dev nD) (W : (b : Ref sig .tc) → Buf (Elt F) ((d.tc : Thread nD τ).loc b)) :
    (unscopedBufs d W : sProp 𝕄) = iprop((((T d : Thread nD τ).loc main_arg0) ↦{fullShare} W main_arg0) ∗ (((T d : Thread nD τ).loc main_arg1) ↦{fullShare} W main_arg1)
      ∗ (((T d : Thread nD τ).loc main_arg2) ↦{fullShare} W main_arg2) ∗ (((T d : Thread nD τ).loc main_v0) ↦{fullShare} W main_v0)
      ∗ (((T d : Thread nD τ).loc main_v1) ↦{fullShare} W main_v1) ∗ (((T d : Thread nD τ).loc main_v2) ↦{fullShare} W main_v2)
      ∗ (((T d : Thread nD τ).loc main_v3) ↦{fullShare} W main_v3)) := by
  unfold unscopedBufs
  rw [show (Finset.univ.filter fun b : Ref sig .tc => ¬ b.isScoped) = {main_arg0, main_arg1, main_arg2, main_v0, main_v1, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The buffers a reshape touches, held: its operand and its result. -/
theorem held_reshape (d : Dev nD) (x y : Ref sig .tc) (hxy : x ≠ y) (he hn hx hy) (Vl : Valuation τ sig (Elt F)) :
    (StableHlo.held (T d : Thread nD τ) (StableHlo.reshape (τ := τ) (Val := Elt F) x y he hn hx hy).bufs Vl : sProp 𝕄)
      = iprop(((d, Proc.devRef .tc x) ↦{fullShare} Vl (Proc.devRef .tc x)) ∗ ((d, Proc.devRef .tc y) ↦{fullShare} Vl (Proc.devRef .tc y))) := by
  unfold StableHlo.held
  rw [StableHlo.reshape_bufs, SparseCore.bigSep_insert' (by rw [Finset.mem_singleton]; exact StableHlo.devRef_ne_of_ne hxy), bigSep_singleton]

/-! ## What the core owes through the head -/

/-- The TensorCore owes nothing at the index of a kernel's own waits. -/
theorem Otc_none (d : Dev nD) (n : ℕ) (gs : GSem nD τ sig) : (K (F := F)).Otc d n gs none = 0 := by
  by_contra h
  have := SparseCore.Cfg.lev_of_Otc_pos (K := K (F := F)) (Nat.pos_of_ne_zero h)
  rw [SparseCore.Cfg.lev_none] at this; omega

/-- What the TensorCore owes before the first call, its recorded waits at level zero. -/
def owesTc (d : Dev nD) : sProp 𝕄 :=
  iprop(∃ W, ⌜(K (F := F)).WBelow (T d) W (8 * 0)⌝ ∗ owes (T d) ((K (F := F)).Otc d 0) W)

/-! ## The region -/

theorem share_full (c : Dev nD) (w : Fin cfg0.W) : (dats m 0 c).share w = fullShare :=
  (dats m 0 c).share_full (fun _ => rfl) w

/-- What the region is entered holding: the logits' and the result's arrays as launched, and what the core owes; -/
def regPre (c : Dev nD) : sProp 𝕄 :=
  iprop((((T c : Thread nD τ).loc main_arg2) ↦{fullShare} m ((T c : Thread nD τ).loc main_arg2))
    ∗ (((T c : Thread nD τ).loc main_v1) ↦{fullShare} m ((T c : Thread nD τ).loc main_v1)) ∗ owesTc c)
/-- and left holding: the result at the softmax of the logits. -/
def regPost (c : Dev nD) : sProp 𝕄 :=
  iprop((((T c : Thread nD τ).loc main_arg2) ↦{fullShare} m ((T c : Thread nD τ).loc main_arg2))
    ∗ (((T c : Thread nD τ).loc main_v1) ↦{fullShare} (smF (m ((T c : Thread nD τ).loc main_arg2)) : Vec F S16384x32 .f32)) ∗ owesTc c)

/-- The region of the softmax pipeline as the library's region rule takes it: no semaphore of the kernel's own, the
    body obligation, the waits on the staging cells at level zero below everything the core owes; entered holding the
    logits' and the result's arrays as launched, left with the result at the softmax. -/
def reg (hlv : (K (F := F)).Refines lv) :
    Pipeline.RegionSeg (pcfgs (F := F)) adm (dats m) none defs₀ 𝒱₀ (K (F := F)).L lv 0 where
  win := launch0.win.to₀
  block_pos := launch0.block_pos
  stage_whole := launch0.stage_whole
  K := Fin 0
  osem := fun k => k.elim0
  ho := ⟨fun k => k.elim0, fun k => k.elim0, fun k => k.elim0⟩
  hbody c := (body_obligation m c).loose
  hwaits c := Pipeline.cellsWaits_intro (Pipeline.pin (pcfgs (F := F)) adm) (dats m) none 0 c fun w s t =>
    (K (F := F)).mayWait_none (thr := (c : Thread nD τ)) _ (fun gs => Otc_none c 0 gs) lv hlv
  pre := regPre m
  post := regPost m
  X _ := iprop(emp)
  Y _ := iprop(emp)
  Z _ := iprop(emp)
  hentry c := by
    rw [Pipeline.arrays_eq (Pipeline.pin (pcfgs (F := F)) adm) (dats m) 0 c launch0.arr_whole (share_full m c), bigSep_W0]
    unfold regPre owesTc
    iintro ⟨⟨H2, Hv1, %W, %hW, HO⟩, -, -⟩
    imodintro
    isplitl [H2 Hv1]
    · isplitl [H2]; · iexact H2
      iexact Hv1
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitl <;> iempintro
  hin c := by
    rw [show (dats m 0 c).Φ 0 = Pipeline.scopedRest (Pipeline.pin (pcfgs (F := F)) adm 0).spec c from rfl]
    iintro ⟨-, -, Hr⟩
    iexact Hr
  hout c := by
    rw [show (dats m 0 c).Φ (Fin.last (Pipeline.pin (pcfgs (F := F)) adm 0).N) = Pipeline.scopedRest (Pipeline.pin (pcfgs (F := F)) adm 0).spec c from rfl]
    unfold Pipeline.ownSems0
    rw [show (Finset.univ : Finset (Fin 0)) = ∅ from rfl, BI.bigSep_empty]
    iintro Hr
    isplitr; · iempintro
    isplitr; · iempintro
    iexact Hr
  hexit c := by
    rw [Pipeline.arrays_eq (Pipeline.pin (pcfgs (F := F)) adm) (dats m) 0 c launch0.arr_whole (share_full m c), bigSep_W0]
    rw [show (dats m 0 c).arrAt 0 (Pipeline.pin (pcfgs (F := F)) adm 0).N = m ((c : Thread nD τ).loc main_arg2) from final0 m c,
      show (dats m 0 c).arrAt 1 (Pipeline.pin (pcfgs (F := F)) adm 0).N = (smF (m ((c : Thread nD τ).loc main_arg2)) : Vec F S16384x32 .f32) from final1 m c]
    unfold regPost owesTc Pipeline.Dat.owesAt Pipeline.owesWithin
    iintro ⟨⟨H2, Hv1⟩, ⟨%W, %hW, HO⟩, -, -⟩
    imodintro
    isplitl [H2]; · iexact H2
    isplitl [Hv1]; · iexact Hv1
    iexists W; isplitr
    · ipureintro
      intro p hp
      rcases hW hp with h | ⟨w, s, rfl⟩
      · exact h
      · exact le_of_eq rfl
    iexact HO

end Soft

/-! ## The region's share of the ghost state -/

/-- The region's share of the ghost state on device `d`: its staging cells' launch state and its duty tokens. -/
def GS (d : Dev nD) : sProp 𝕄 :=
  iprop(Pipeline.cellsGhost (Pipeline.pin (pcfgs (F := F)) adm) ER 0 d ∗ Pipeline.toksInit (Pipeline.pin (pcfgs (F := F)) adm) ER 0 d)

/-- The launch element's rounds component for the staging cells funds every device's share. -/
theorem fundGS :
    (BI.own ((ER : Emb UR 𝕄) (initOf (Pipeline.cells cfgs cellOf_inj) (Pipeline.launchToks cfgs cellOf_inj))) : sProp 𝕄)
      ⊢ iprop(|==> bigSep Finset.univ fun d : Dev nD => GS (F := F) d) := by
  refine (Pipeline.fund_ghost cfgs ER cellOf_inj).trans (BI.bupd_mono ?_)
  rw [← bigSep_sep']
  refine Entails.of_eq (bigSep_congr fun d _ => ?_)
  unfold GS
  rw [pin_eq, show (Finset.univ : Finset (Fin 1)) = {0} from rfl, bigSep_singleton, bigSep_singleton]

namespace Soft

/-! ## The region, entered from the TensorCore's program -/

/-- The operands of the two reshapes, as the host operations see them: every buffer as launched, -/
def V₀ (d : Dev nD) : Valuation τ sig (Elt F) := fun b => m (d, b)
/-- and the result array at the softmax. -/
def V₁ (d : Dev nD) : Valuation τ sig (Elt F) :=
  Function.update (V₀ m d) (Proc.devRef .tc main_v1) (smF (m ((T d : Thread nD τ).loc main_arg2)) : Vec F S16384x32 .f32)

/-- The region's call in the pipeline's own signature, -/
def callP : Prog (TpuEff nD τ sig (Elt F) (ΛP (F := F)) .tc) PUnit :=
  .op (.customCall (Pipeline.entry (0 : Fin 1)) ()) fun _ => .ret ⟨⟩
/-- and the TensorCore's statement as that call lifted. -/
theorem lift_callP : (Prog.lift (.customCall (SparseCore.inner (Pipeline.entry 0)) ()) : Prog (TpuEff nD τ sig (Elt F) (SparseCore.Sig (ΛP (F := F)) 1) .tc) PUnit)
    = SparseCore.liftProg (callP (F := F)) := rfl

theorem reg_pre (hlv : (K (F := F)).Refines lv) : (reg m lv hlv).pre = regPre m := rfl
theorem reg_post (hlv : (K (F := F)).Refines lv) : (reg m lv hlv).post = regPost m := rfl

set_option maxHeartbeats 1000000 in
set_option backward.isDefEq.respectTransparency.types false in
/-- The region's call under the pipeline's own body table: the library's region rule at our region. -/
theorem wp_callP (hlv : (K (F := F)).Refines lv) (d : Dev nD) (Q : PUnit → sProp 𝕄) :
    iprop(boundary (T d) ∗ regPre m d ∗ levAts (K (F := F)).L lv ∗ GS d
        ∗ (iprop(boundary (T d) ∗ regPost m d) -∗ Q ⟨⟩))
      ⊢ wp frame (wpE (D (F := F)) 𝒱 (T d) none) Set.univ (callP (F := F)) Q := by
  have h := Pipeline.RegionSeg.wp (pcfgs (F := F)) adm (dats m) none cellOf_inj ER defs₀ 𝒱₀ (K (F := F)).L lv (reg m lv hlv) d none
    (fun _ h => nomatch h) (fun _ => .ret ⟨⟩) Q
  rw [reg_pre, reg_post] at h
  unfold callP GS
  iintro ⟨Hb, Hpre, #Hlev, ⟨Hcg, Htk⟩, Hk⟩
  iapply h
  isplitl [Hk]
  · iintro H; rw [wp_ret]; imodintro; iapply Hk; iexact H
  isplitl [Hb]; · iexact Hb
  isplitl [Hpre]; · iexact Hpre
  isplitr; · iexact Hlev
  isplitl [Hcg]; · iexact Hcg
  iexact Htk

/-- The region's call in the TensorCore's program: from the boundary, the two arrays, what the core owes, the level
    facts and the region's ghost share, to the boundary and the arrays after the region. -/
theorem wp_region (hlv : (K (F := F)).Refines lv) (d : Dev nD) (Q : PUnit → sProp 𝕄) :
    iprop(boundary (T d) ∗ regPre m d ∗ levAts (K (F := F)).L lv ∗ GS d
        ∗ (iprop(boundary (T d) ∗ regPost m d) -∗ Q ⟨⟩))
      ⊢ wp frame (wpE ((K (F := F)).defs (D (F := F))) 𝒱 (T d) none) Set.univ
          (Prog.lift (.customCall (SparseCore.inner (Pipeline.entry 0)) ())) Q := by
  rw [lift_callP]
  exact (wp_callP m lv hlv d Q).trans ((K (F := F)).wp_liftProg (D (F := F)) 𝒱 (T d) Set.univ none (callP (F := F)) Q)

end Soft

/-! ## The head of @main -/

/-- What remains of the launch resources beside the seven arrays: the region boundary, the TensorCore's own
    semaphores at zero, the generator register. -/
def HeadRest (d : Dev nD) : sProp 𝕄 := iprop(boundary (T d) ∗ (K (F := F)).tcSems0 d ∗ prngReg d (g d))

/-- The arrays after the head: the arguments as launched, the index array recast, the softmax of the logits, and
    that recast; the result array at anything. -/
def HeadPost (d : Dev nD) : sProp 𝕄 :=
  iprop((((T d : Thread nD τ).loc main_arg0) ↦{fullShare} m ((T d : Thread nD τ).loc main_arg0))
    ∗ (((T d : Thread nD τ).loc main_arg1) ↦{fullShare} m ((T d : Thread nD τ).loc main_arg1))
    ∗ (((T d : Thread nD τ).loc main_arg2) ↦{fullShare} m ((T d : Thread nD τ).loc main_arg2))
    ∗ (((T d : Thread nD τ).loc main_v0) ↦{fullShare} (shapeCast S64x64x128 (m ((T d : Thread nD τ).loc main_arg0)) shapeCasts_S16384x32_S64x64x128 : Vec F S64x64x128 .i32))
    ∗ (((T d : Thread nD τ).loc main_v1) ↦{fullShare} (smF (m ((T d : Thread nD τ).loc main_arg2)) : Vec F S16384x32 .f32))
    ∗ (((T d : Thread nD τ).loc main_v2) ↦{fullShare} (shapeCast S64x8192 (smF (m ((T d : Thread nD τ).loc main_arg2)) : Vec F S16384x32 .f32) shapeCasts_S16384x32_S64x8192 : Vec F S64x8192 .f32))
    ∗ (∃ f, ((T d : Thread nD τ).loc main_v3) ↦{fullShare} f)
    ∗ HeadRest g d)

/-- The first three statements of @main. -/
def head : Prog (TpuEff nD τ sig (Elt F) (SparseCore.Sig (ΛP (F := F)) 1) .tc) PUnit := do
  hlo rfl (StableHlo.reshape main_arg0 main_v0 rfl shapeCasts_S16384x32_S64x64x128) (fun _ => .ret ⟨⟩)
  Prog.lift (.customCall (SparseCore.inner (Pipeline.entry 0)) ())
  hlo rfl (StableHlo.reshape main_v1 main_v2 rfl shapeCasts_S16384x32_S64x8192) (fun _ => .ret ⟨⟩)

/-- @main is its head, the call, and the return. -/
theorem main_eq (d : Dev nD) : main (F := F) d = (head (F := F) >>= fun _ => ((K (F := F)).run d 0 >>= fun _ => pure ⟨⟩)) := rfl

namespace Soft

/-- The two reshapes. -/
abbrev op1 : HloOp τ sig (Elt F) := StableHlo.reshape main_arg0 main_v0 rfl shapeCasts_S16384x32_S64x64x128
abbrev op2 : HloOp τ sig (Elt F) := StableHlo.reshape main_v1 main_v2 rfl shapeCasts_S16384x32_S64x8192

/-- What the first reshape holds before it runs, and after. -/
theorem held1_pre (d : Dev nD) : (StableHlo.held (T d : Thread nD τ) (op1 (F := F)).bufs (V₀ m d) : sProp 𝕄)
    = iprop((((T d : Thread nD τ).loc main_arg0) ↦{fullShare} m ((T d : Thread nD τ).loc main_arg0))
      ∗ (((T d : Thread nD τ).loc main_v0) ↦{fullShare} m ((T d : Thread nD τ).loc main_v0))) := by
  rw [held_reshape d main_arg0 main_v0 (by decide)]; rfl
theorem held1_post (d : Dev nD) : (StableHlo.held (T d : Thread nD τ) (op1 (F := F)).bufs ((op1 (F := F)).result (V₀ m d)) : sProp 𝕄)
    = iprop((((T d : Thread nD τ).loc main_arg0) ↦{fullShare} m ((T d : Thread nD τ).loc main_arg0))
      ∗ (((T d : Thread nD τ).loc main_v0) ↦{fullShare} (shapeCast S64x64x128 (m ((T d : Thread nD τ).loc main_arg0)) shapeCasts_S16384x32_S64x64x128 : Vec F S64x64x128 .i32))) := by
  rw [held_reshape d main_arg0 main_v0 (by decide), StableHlo.reshape_result_ne main_arg0 main_v0 _ _ _ _ _ (by decide), StableHlo.reshape_result]; rfl

/-- What the second holds before it runs, and after. -/
theorem held2_pre (d : Dev nD) : (StableHlo.held (T d : Thread nD τ) (op2 (F := F)).bufs (V₁ m d) : sProp 𝕄)
    = iprop((((T d : Thread nD τ).loc main_v1) ↦{fullShare} (smF (m ((T d : Thread nD τ).loc main_arg2)) : Vec F S16384x32 .f32))
      ∗ (((T d : Thread nD τ).loc main_v2) ↦{fullShare} m ((T d : Thread nD τ).loc main_v2))) := by
  rw [held_reshape d main_v1 main_v2 (by decide)]
  unfold V₁
  rw [Function.update_self, Function.update_of_ne (by decide)]; rfl
theorem held2_post (d : Dev nD) : (StableHlo.held (T d : Thread nD τ) (op2 (F := F)).bufs ((op2 (F := F)).result (V₁ m d)) : sProp 𝕄)
    = iprop((((T d : Thread nD τ).loc main_v1) ↦{fullShare} (smF (m ((T d : Thread nD τ).loc main_arg2)) : Vec F S16384x32 .f32))
      ∗ (((T d : Thread nD τ).loc main_v2) ↦{fullShare} (shapeCast S64x8192 (smF (m ((T d : Thread nD τ).loc main_arg2)) : Vec F S16384x32 .f32) shapeCasts_S16384x32_S64x8192 : Vec F S64x8192 .f32))) := by
  rw [held_reshape d main_v1 main_v2 (by decide), StableHlo.reshape_result_ne main_v1 main_v2 _ _ _ _ _ (by decide), StableHlo.reshape_result]
  unfold V₁
  rw [Function.update_self]; rfl

end Soft

set_option maxHeartbeats 1000000 in
/-- The head of @main, continuation-passing. -/
theorem wp_head (hlv : (K (F := F)).Refines lv) (κ : GSem nD τ sig → ℕ) (d : Dev nD) {α : Type}
    (k : PUnit → Prog (TpuEff nD τ sig (Elt F) (SparseCore.Sig (ΛP (F := F)) 1) .tc) α) (Φ : α → sProp 𝕄) :
    iprop((K (F := F)).ctx EH P κ lv ∗ (K (F := F)).tcSt EH d 0 ∗ (K (F := F)).tcRes m g d ∗ GS d
        ∗ (iprop((K (F := F)).tcSt EH d 0 ∗ HeadPost m g d) -∗ wp frame (wpE ((K (F := F)).defs (D (F := F))) 𝒱 (T d) none) Set.univ (k ⟨⟩) Φ))
      ⊢ wp frame (wpE ((K (F := F)).defs (D (F := F))) 𝒱 (T d) none) Set.univ (head (F := F) >>= k) Φ := by
  unfold SparseCore.Cfg.tcRes SparseCore.Cfg.tcSt
  rw [unscopedBufs_eq]
  iintro ⟨#Hctx, ⟨HO, Hrest⟩, ⟨Hb, ⟨H0, H1, H2, Hv0, Hv1, Hv2, Hv3⟩, Hsems, Hprng⟩, HG, Hk⟩
  ihave Hlev := (SparseCore.Cfg.ctx_levAts κ) $$ Hctx
  unfold head
  simp only [wp_bind]
  -- the index array recast
  iapply (StableHlo.wp_hlo_within 𝒱 (T d) none Set.univ (S := (op1 (F := F)).bufs) (V := V₀ m d) (Finset.Subset.refl _)) $$ [Hb H0 Hv0]
  · isplitl [Hb]; · iexact Hb
    rw [held1_pre]
    isplitl [H0]; · iexact H0
    iexact Hv0
  iintro ⟨Hb, Hh⟩
  rw [wp_ret]; imodintro
  ihave Hh' := (Entails.of_eq (held1_post m d)) $$ Hh
  icases Hh' with ⟨H0, Hv0⟩
  -- the region
  iapply (wp_region m lv hlv d _)
  isplitl [Hb]; · iexact Hb
  isplitl [H2 Hv1 HO]
  · unfold regPre
    isplitl [H2]; · iexact H2
    isplitl [Hv1]; · iexact Hv1
    unfold owesTc; iexact HO
  isplitr; · iexact Hlev
  isplitl [HG]; · iexact HG
  unfold regPost
  iintro ⟨Hb, H2, Hv1, HO⟩
  -- the result recast
  iapply (StableHlo.wp_hlo_within 𝒱 (T d) none Set.univ (S := (op2 (F := F)).bufs) (V := V₁ m d) (Finset.Subset.refl _)) $$ [Hb Hv1 Hv2]
  · isplitl [Hb]; · iexact Hb
    rw [held2_pre]
    isplitl [Hv1]; · iexact Hv1
    iexact Hv2
  iintro ⟨Hb, Hh⟩
  rw [wp_ret]; imodintro
  ihave Hh' := (Entails.of_eq (held2_post m d)) $$ Hh
  icases Hh' with ⟨Hv1, Hv2⟩
  iapply Hk
  isplitl [HO Hrest]
  · isplitl [HO]; · unfold owesTc; iexact HO
    iexact Hrest
  unfold HeadPost HeadRest
  isplitl [H0]; · iexact H0
  isplitl [H1]; · iexact H1
  isplitl [H2]; · iexact H2
  isplitl [Hv0]; · iexact Hv0
  isplitl [Hv1]; · iexact Hv1
  isplitl [Hv2]; · iexact Hv2
  isplitl [Hv3]; · iexists _; iexact Hv3
  isplitl [Hb]; · iexact Hb
  isplitl [Hsems]; · iexact Hsems
  iexact Hprng

end Cert.Proof.KB

end
-- ==== Proof.KBTileInv.lean ====
/-
  The chunk loop of one half of a subcore's task: what the scratch buffers hold before trip `k`, with the gather
  of chunk `2 k` in flight on the first semaphore.

  Chunk `c` of the half is row `c` of the index scratch: 128 index words, four items of 32.  Gathering it
  writes table row `idx[c, i]` to buffer row `i`.  Before trip `k` the output scratch holds the finished rows
  `r < 8 k` — the row's own value plus its thirty-two weighted gathered rows — and the own values above.
-/
import proofs.«203743_g50225347559739_cont_8to1c4_743_14_alg».proof.Proof.KBTileDefs

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx

/-! ## The chunks' index rows -/

theorem rowK_inb (c : ℕ) : ∀ a, (![c % 64, 0] : Fin 2 → ℕ) a + S1x128.size a ≤ S64x128.size a := by
  intro a
  match a with
  | 0 => show c % 64 + 1 ≤ 64; omega
  | 1 => show 0 + 128 ≤ 128; omega

/-- Row `c` of the index scratch, squeezed: the offset list of chunk `c`'s gather. -/
abbrev rowK (c : ℕ) : Memref sig .scVector .vmem S128 .i32 :=
  ((idxV).slice (Rect.unit (s := S64x128) ![c % 64, 0] S1x128.size (rowK_inb c)) (fun _ => rfl)).squeeze S128 squeezes_S1x128_S128

theorem rowK_of_off {off : Fin 2 → ℕ} (inb : ∀ a, off a + S1x128.size a ≤ S64x128.size a) (c : ℕ) (h : off = ![c % 64, 0]) :
    ((idxV).slice (Rect.unit (s := S64x128) off S1x128.size inb) (fun _ => rfl)).squeeze S128 squeezes_S1x128_S128 = rowK c := by
  subst h; rfl

/-- A row of the index scratch, squeezed, at the offsets the program computes. -/
abbrev rowO (off : Fin 2 → ℕ) (inb : ∀ a, off a + S1x128.size a ≤ S64x128.size a) : Memref sig .scVector .vmem S128 .i32 :=
  ((idxV).slice (Rect.unit (s := S64x128) off S1x128.size inb) (fun _ => rfl)).squeeze S128 squeezes_S1x128_S128

variable [FloatOps F]

/-! ## The buffers' contents -/

/-- The gathered buffer of chunk `c`: row `i` is the table row named by index word `i` of the chunk. -/
def gath (fidx : S64x128.Idx → BitVec 32) (emb : S100001x128.Idx → F .f32) (c : ℕ) : S128x128.Idx → F .f32 :=
  fun j => emb (ix2 (Pure.rowOf (fidx (ix2 (⟨c % 64, Nat.mod_lt _ (by decide)⟩ : Fin 64) (j 0)))) (j 1))

/-- A finished row of the output scratch. -/
def doneVal (fw : S8192.Idx → F .f32) (fidx : S64x128.Idx → BitVec 32) (emb : S100001x128.Idx → F .f32)
    (fown : S256x128.Idx → F .f32) (j : S256x128.Idx) : F .f32 :=
  Pure.acc32 (fun p => fw (ix1 (⟨(j 0).val * 32 + p.val, by have h : (j 0).val < 256 := (j 0).isLt; have := p.isLt; show _ < 8192; omega⟩ : Fin 8192)))
    (fun p => emb (ix2 (Pure.rowOf (fidx (ix2 (⟨(j 0).val / 4, by have h : (j 0).val < 256 := (j 0).isLt; omega⟩ : Fin 64)
      (⟨((j 0).val % 4) * 32 + p.val, by have := p.isLt; omega⟩ : Fin 128)))) (j 1)))
    (fown j)

/-- The output scratch with rows below `n` finished. -/
def outDone (fw : S8192.Idx → F .f32) (fidx : S64x128.Idx → BitVec 32) (emb : S100001x128.Idx → F .f32)
    (fown : S256x128.Idx → F .f32) (n : ℕ) : S256x128.Idx → F .f32 :=
  fun j => if (j 0).val < n then doneVal fw fidx emb fown j else fown j

theorem outDone_zero (fw : S8192.Idx → F .f32) (fidx : S64x128.Idx → BitVec 32) (emb : S100001x128.Idx → F .f32)
    (fown : S256x128.Idx → F .f32) : outDone fw fidx emb fown 0 = fown := by
  funext j; simp [outDone]

/-- The four items of chunk `c`, from the gathered buffer, finish rows `4 c … 4 c + 3`. -/
theorem outAfter_gath (fw : S8192.Idx → F .f32) (fidx : S64x128.Idx → BitVec 32) (emb : S100001x128.Idx → F .f32)
    (fown : S256x128.Idx → F .f32) (c : ℕ) (hc : c < 64) :
    outAfter fw (gath fidx emb c) (outDone fw fidx emb fown (4 * c)) c 4 = outDone fw fidx emb fown (4 * c + 4) := by
  funext j
  have hj : (j 0).val < 256 := (j 0).isLt
  show (if (j 0).val / 4 = c ∧ (j 0).val % 4 < 4 then itemVal fw (gath fidx emb c) (outDone fw fidx emb fown (4 * c)) j
      else outDone fw fidx emb fown (4 * c) j) = (if (j 0).val < 4 * c + 4 then doneVal fw fidx emb fown j else fown j)
  by_cases h1 : (j 0).val / 4 = c
  · have h2 : (j 0).val % 4 < 4 := Nat.mod_lt _ (by decide)
    have hfo : outDone fw fidx emb fown (4 * c) j = fown j := if_neg (show ¬ (j 0).val < 4 * c by omega)
    rw [if_pos ⟨h1, h2⟩, if_pos (show (j 0).val < 4 * c + 4 by omega)]
    unfold itemVal doneVal
    rw [hfo]
    congr 1
    funext p
    have e : (⟨c % 64, Nat.mod_lt _ (by decide)⟩ : Fin 64) = ⟨(j 0).val / 4, by omega⟩ := Fin.ext (by show c % 64 = (j 0).val / 4; omega)
    show emb (ix2 (Pure.rowOf (fidx (ix2 (⟨c % 64, Nat.mod_lt _ (by decide)⟩ : Fin 64) _))) _) = _
    rw [e]
  · rw [if_neg (fun h => h1 h.1)]
    show (if (j 0).val < 4 * c then doneVal fw fidx emb fown j else fown j) = _
    by_cases h3 : (j 0).val < 4 * c
    · rw [if_pos h3, if_pos (show (j 0).val < 4 * c + 4 by omega)]
    · rw [if_neg h3, if_neg (show ¬ (j 0).val < 4 * c + 4 by omega)]

/-! ## The loop's invariant -/

/-- The cell of the subcore's first and second gather semaphore. -/
abbrev cellA (d : Dev nD) (L : grid1.Coords) : GSem nD τ sig := (thrV d L, .dma cc1_scratch5.sem)
abbrev cellB (d : Dev nD) (L : grid1.Coords) : GSem nD τ sig := (thrV d L, .dma cc1_scratch6.sem)

/-- The credit of a whole gathered buffer. -/
abbrev gN : ℕ := (buf0V).view.dmaCredit

/-- The gather of chunk `c` into the first buffer, issued and not yet waited for: its flight, and what is left
    of the halves of the index scratch and of the table's share that it holds. -/
def flightA (d : Dev nD) (L : grid1.Coords) (fidx : Buf (Elt F) (idxLoc d L)) (emb : Buf (Elt F) (embLoc d)) (c : ℕ) : sProp 𝕄 :=
  iprop(Transfers.Flight countersEmb (thrV d L) (.dma cc1_scratch5.sem) (default : HIx 1) gN
      iprop(((buf0V).view.loc (thrV d L) ↦[(buf0V).view.set]{fullShare} (gath fidx emb c : Buf (Elt F) (buf0Loc d L)))
        ∗ ((embAllK).view.loc (thrV d L) ↦[(embAllK).view.set]{(embq L).left} emb)
        ∗ ((rowK c).view.loc (thrV d L) ↦[(rowK c).view.set]{(fullShare : PosShare TreeShare).left} fidx))
    ∗ ((embAllK).view.loc (thrV d L) ↦[Finset.univ \ (embAllK).view.set]{(embq L).left} emb)
    ∗ ((rowK c).view.loc (thrV d L) ↦[Finset.univ \ (rowK c).view.set]{(fullShare : PosShare TreeShare).left} fidx))

/-- No gather in flight on the first semaphore: the buffer at anything, the halves back, the cell at zero. -/
def idleA (d : Dev nD) (L : grid1.Coords) (fidx : Buf (Elt F) (idxLoc d L)) (emb : Buf (Elt F) (embLoc d)) : sProp 𝕄 :=
  iprop((∃ fb, buf0Pts d L fb) ∗ ((embV).view.loc (thrV d L) ↦{(embq L).left} emb)
    ∗ ((idxV).view.loc (thrV d L) ↦{(fullShare : PosShare TreeShare).left} fidx) ∗ semVal (cellA d L) 0)

/-- Before trip `k` of the chunk loop. -/
def I2 (d : Dev nD) (L : grid1.Coords) (O : CellTallies nD τ sig (HIx 1)) (W : Waits sig (HIx 1))
    (fw : Buf (Elt F) (awvLoc d L)) (fidx : Buf (Elt F) (idxLoc d L)) (emb : Buf (Elt F) (embLoc d)) (fown : Buf (Elt F) (outLoc d L))
    (k : ℕ) (_ : Unit) : sProp 𝕄 :=
  iprop(Transfers.MayWaits (thrV d L) (none : HIx 1) O
    ∗ awvPts d L fw
    ∗ outPts d L (outDone fw fidx emb fown (8 * k))
    ∗ (∃ fb, buf1Pts d L fb)
    ∗ ((embV).view.loc (thrV d L) ↦{(embq L).right} emb)
    ∗ ((idxV).view.loc (thrV d L) ↦{(fullShare : PosShare TreeShare).right} fidx)
    ∗ semVal (cellB d L) 0
    ∗ (if k < 32 then flightA d L fidx emb (2 * k) else idleA d L fidx emb)
    ∗ ∃ W', ⌜∀ p ∈ W', p ∈ W ∨ p.2 = none⌝ ∗ owes (thrV d L) O W')

end Cert.Proof.KB

end
-- ==== Proof.KBTileOwn.lean ====
/-
  A vector subcore's own semaphores and scratch buffers, with the six cells and the five buffers the task uses
  taken out by name.
-/
import proofs.«203743_g50225347559739_cont_8to1c4_743_14_alg».proof.Proof.KBTileInv

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Own

variable (d : Dev nD) (L : grid1.Coords)

abbrev cellS0 (d : Dev nD) (L : grid1.Coords) : GSem nD τ sig := (thrV d L, .dma cc1_scoped0.sem)
abbrev cellS1 (d : Dev nD) (L : grid1.Coords) : GSem nD τ sig := (thrV d L, .dma cc1_scoped1.sem)
abbrev cellS2 (d : Dev nD) (L : grid1.Coords) : GSem nD τ sig := (thrV d L, .dma cc1_scoped2.sem)
abbrev cellS3 (d : Dev nD) (L : grid1.Coords) : GSem nD τ sig := (thrV d L, .dma cc1_scoped3.sem)

theorem cell_ne {a b : SemLoc sig} (h : a ≠ b) : ((thrV d L, a) : GSem nD τ sig) ≠ (thrV d L, b) :=
  fun e => h (congrArg Prod.snd e)

theorem mem_own (sm : SemLoc sig) (hs : sm.isScoped .scVector = true) : ((thrV d L, sm) : GSem nD τ sig) ∈ ownCells (thrV d L) :=
  (mem_ownCells (g := ((thrV d L, sm) : GSem nD τ sig))).mpr ⟨rfl, hs⟩

/-- The rest of the subcore's own cells. -/
abbrev restCells (d : Dev nD) (L : grid1.Coords) : Finset (GSem nD τ sig) :=
  ((((((ownCells (thrV d L)).erase (cellA d L)).erase (cellB d L)).erase (cellS0 d L)).erase (cellS1 d L)).erase (cellS2 d L)).erase (cellS3 d L)

theorem ownSems0_V :
    (ownSems0 (thrV d L) : sProp 𝕄)
      = iprop(semVal (cellA d L) 0 ∗ semVal (cellB d L) 0 ∗ semVal (cellS0 d L) 0 ∗ semVal (cellS1 d L) 0
          ∗ semVal (cellS2 d L) 0 ∗ semVal (cellS3 d L) 0 ∗ bigSep (restCells d L) fun g => semVal g 0) := by
  unfold SparseCore.Cfg.ownSems0
  have mA := mem_own d L (.dma cc1_scratch5.sem) (by decide)
  have mB := mem_own d L (.dma cc1_scratch6.sem) (by decide)
  have m0 := mem_own d L (.dma cc1_scoped0.sem) (by decide)
  have m1 := mem_own d L (.dma cc1_scoped1.sem) (by decide)
  have m2 := mem_own d L (.dma cc1_scoped2.sem) (by decide)
  have m3 := mem_own d L (.dma cc1_scoped3.sem) (by decide)
  rw [SparseCore.bigSep_erase' mA,
    SparseCore.bigSep_erase' (Finset.mem_erase.mpr ⟨cell_ne d L (by decide), mB⟩),
    SparseCore.bigSep_erase' (Finset.mem_erase.mpr ⟨cell_ne d L (by decide), Finset.mem_erase.mpr ⟨cell_ne d L (by decide), m0⟩⟩),
    SparseCore.bigSep_erase' (Finset.mem_erase.mpr ⟨cell_ne d L (by decide), Finset.mem_erase.mpr ⟨cell_ne d L (by decide),
      Finset.mem_erase.mpr ⟨cell_ne d L (by decide), m1⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide), m2⟩⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide),
        Finset.mem_erase.mpr ⟨cell_ne d L (by decide), m3⟩⟩⟩⟩⟩)]

abbrev pV (L : grid1.Coords) : Proc τ := Proc.scVector (cV L) (jV L)

/-- The rest of the subcore's own buffers. -/
abbrev restRefs (L : grid1.Coords) : Finset (DevRef τ sig) :=
  (((((ownRefs (τ := τ) (pV L)).erase ((pV L).devRef cc1_scratch0)).erase ((pV L).devRef cc1_scratch1)).erase
    ((pV L).devRef cc1_scratch2)).erase ((pV L).devRef cc1_scratch3)).erase ((pV L).devRef cc1_scratch4)

theorem ref_ne {a b : Ref sig .scVector} (h : a ≠ b) : (pV L).devRef a ≠ (pV L).devRef b :=
  fun e => h (Proc.devRef_injective _ e)

theorem ownBufs_V :
    (ownBufs (thrV d L) : sProp 𝕄)
      = iprop((∃ f, idxLoc d L ↦{fullShare} f) ∗ (∃ f, awvLoc d L ↦{fullShare} f) ∗ (∃ f, buf0Loc d L ↦{fullShare} f)
          ∗ (∃ f, buf1Loc d L ↦{fullShare} f) ∗ (∃ f, outLoc d L ↦{fullShare} f)
          ∗ bigSep (restRefs L) fun b => iprop(∃ f, ((d, b) : Loc nD τ sig) ↦{fullShare} f)) := by
  unfold SparseCore.Cfg.ownBufs
  refine (SparseCore.bigSep_erase' (SparseCore.Cfg.mem_ownRefs_of_owner (p := pV L) (b := (pV L).devRef cc1_scratch0) rfl)).trans ?_
  rw [SparseCore.bigSep_erase' (Finset.mem_erase.mpr ⟨ref_ne L (by decide), SparseCore.Cfg.mem_ownRefs_of_owner (p := pV L) (b := (pV L).devRef cc1_scratch1) rfl⟩),
    SparseCore.bigSep_erase' (Finset.mem_erase.mpr ⟨ref_ne L (by decide), Finset.mem_erase.mpr ⟨ref_ne L (by decide), SparseCore.Cfg.mem_ownRefs_of_owner (p := pV L) (b := (pV L).devRef cc1_scratch2) rfl⟩⟩),
    SparseCore.bigSep_erase' (Finset.mem_erase.mpr ⟨ref_ne L (by decide), Finset.mem_erase.mpr ⟨ref_ne L (by decide),
      Finset.mem_erase.mpr ⟨ref_ne L (by decide), SparseCore.Cfg.mem_ownRefs_of_owner (p := pV L) (b := (pV L).devRef cc1_scratch3) rfl⟩⟩⟩),
    SparseCore.bigSep_erase' (Finset.mem_erase.mpr ⟨ref_ne L (by decide), Finset.mem_erase.mpr ⟨ref_ne L (by decide),
      Finset.mem_erase.mpr ⟨ref_ne L (by decide), Finset.mem_erase.mpr ⟨ref_ne L (by decide), SparseCore.Cfg.mem_ownRefs_of_owner (p := pV L) (b := (pV L).devRef cc1_scratch4) rfl⟩⟩⟩⟩)]

/-- The worker number as the program computes it. -/
abbrev widW (L : grid1.Coords) : BitVec 32 := Scalar.addi (Scalar.muli (BitVec.ofNat 32 (L 1).val) 2#32) (BitVec.ofNat 32 (L 0).val)

/-- What half `h` of the task works on, its block of the result at `fr`. -/
def halfRes (O : CellTallies nD τ sig (HIx 1)) (W : Waits sig (HIx 1))
    (ie : Buf (Elt F) (ieLoc d)) (aw : Buf (Elt F) (awLoc d)) (emb : Buf (Elt F) (embLoc d))
    (h : Fin k1_t1_loop.trips) (fr : Buf (Elt F) (resLoc d)) : sProp 𝕄 :=
  iprop(Transfers.MayWaits (thrV d L) (none : HIx 1) O
    ∗ ((ieK L h).view.loc (thrV d L) ↦[(ieK L h).view.set]{fullShare} ie)
    ∗ ((awK L h).view.loc (thrV d L) ↦[(awK L h).view.set]{fullShare} aw)
    ∗ ((embV).view.loc (thrV d L) ↦{(embq L).left} emb)
    ∗ ((embV).view.loc (thrV d L) ↦{(embq L).right} emb)
    ∗ ((resK L h).view.loc (thrV d L) ↦[(resK L h).view.set]{fullShare} fr)
    ∗ (∃ f, idxPts d L f) ∗ (∃ f, awvPts d L f) ∗ (∃ f, buf0Pts d L f) ∗ (∃ f, buf1Pts d L f) ∗ (∃ f, outPts d L f)
    ∗ semVal (cellA d L) 0 ∗ semVal (cellB d L) 0
    ∗ semVal (cellS0 d L) 0 ∗ semVal (cellS1 d L) 0 ∗ semVal (cellS2 d L) 0 ∗ semVal (cellS3 d L) 0
    ∗ ∃ W', ⌜∀ p ∈ W', p ∈ W ∨ p.2 = none⌝ ∗ owes (thrV d L) O W')

end Own

end Cert.Proof.KB

end
-- ==== Proof.KBTileSets.lean ====
/-
  The parts of the three arrays a subcore owns are the two halves' slices: slabs `2 w` and `2 w + 1` of the
  indices and of the weights, and the two blocks of 256 rows of the result.
-/
import proofs.«203743_g50225347559739_cont_8to1c4_743_14_alg».proof.Proof.KBTileDefs

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The two halves of a task. -/
abbrev hh0 : Fin k1_t1_loop.trips := ⟨0, by decide⟩
abbrev hh1 : Fin k1_t1_loop.trips := ⟨1, by decide⟩

theorem fin_t1 (h : Fin k1_t1_loop.trips) : h = hh0 ∨ h = hh1 := by
  rcases h with ⟨v, hv⟩
  have hv2 : v < 2 := lt_of_lt_of_eq hv trips1
  have : v = 0 ∨ v = 1 := by omega
  rcases this with rfl | rfl
  · exact .inl rfl
  · exact .inr rfl

theorem set_ieK (L : grid1.Coords) (h : Fin k1_t1_loop.trips) : (ieK L h).view.set = (ieRect L h).set := by
  show (((View.whole main_v0_scv).slice (ieRect L h)).reshape S64x128 _).set = _
  rw [View.set_reshape, View.set_slice_whole]
theorem set_awK (L : grid1.Coords) (h : Fin k1_t1_loop.trips) : (awK L h).view.set = (awRect L h).set := by
  show (((View.whole main_v2_scv).slice (awRect L h)).reshape S8192 _).set = _
  rw [View.set_reshape, View.set_slice_whole]
theorem set_resK (L : grid1.Coords) (h : Fin k1_t1_loop.trips) : (resK L h).view.set = (resRect L h).set := by
  show ((View.whole main_v3_scv).slice (resRect L h)).set = _
  rw [View.set_slice_whole]
theorem set_ownK (L : grid1.Coords) (h : Fin k1_t1_loop.trips) : (ownK L h).view.set = (ownRect L h).set := by
  show ((View.whole main_arg1_scv).slice (ownRect L h)).set = _
  rw [View.set_slice_whole]

theorem mem_ieK (L : grid1.Coords) (h : Fin k1_t1_loop.trips) (j : S64x64x128.Idx) :
    j ∈ (ieK L h).view.set ↔ (j 0).val = 2 * wid L + h.val := by
  have h1 : (j 1).val < 64 := (j 1).isLt
  have h2 : (j 2).val < 128 := (j 2).isLt
  rw [set_ieK, Rect.mem_set_unit, k1_off1_eq]
  unfold wid
  constructor
  · intro H
    have := H 0
    simp at this
    omega
  · intro H a
    match a with
    | 0 => simp; omega
    | 1 => simp; exact h1
    | 2 => simp; exact h2

theorem mem_awK (L : grid1.Coords) (h : Fin k1_t1_loop.trips) (j : S64x8192.Idx) :
    j ∈ (awK L h).view.set ↔ (j 0).val = 2 * wid L + h.val := by
  have h1 : (j 1).val < 8192 := (j 1).isLt
  rw [set_awK, Rect.mem_set_unit, k1_off2_eq]
  unfold wid
  constructor
  · intro H
    have := H 0
    simp at this
    omega
  · intro H a
    match a with
    | 0 => simp; omega
    | 1 => simp; exact h1

theorem mem_resK (L : grid1.Coords) (h : Fin k1_t1_loop.trips) (j : S16384x128.Idx) :
    j ∈ (resK L h).view.set ↔ (j 0).val / 256 = 2 * wid L + h.val := by
  have h1 : (j 1).val < 128 := (j 1).isLt
  rw [set_resK, Rect.mem_set_unit, k1_off42_eq]
  unfold wid
  constructor
  · intro H
    have := H 0
    simp at this
    omega
  · intro H a
    match a with
    | 0 => simp; omega
    | 1 => simp; exact h1

theorem mem_ownK (L : grid1.Coords) (h : Fin k1_t1_loop.trips) (j : S100001x128.Idx) :
    j ∈ (ownK L h).view.set ↔ 256 * (2 * wid L + h.val) ≤ (j 0).val ∧ (j 0).val < 256 * (2 * wid L + h.val) + 256 := by
  have h1 : (j 1).val < 128 := (j 1).isLt
  rw [set_ownK, Rect.mem_set_unit, k1_off3_eq]
  unfold wid
  constructor
  · intro H
    have := H 0
    simp at this
    omega
  · intro H a
    match a with
    | 0 => simp; omega
    | 1 => simp; exact h1

theorem ieSet_eq (L : grid1.Coords) : ieSet L = (ieK L hh0).view.set ∪ (ieK L hh1).view.set := by
  ext j
  rw [mem_ieSet, Finset.mem_union, mem_ieK, mem_ieK]
  show _ ↔ (j 0).val = 2 * wid L + 0 ∨ (j 0).val = 2 * wid L + 1
  omega
theorem ie_disj (L : grid1.Coords) : Disjoint (ieK L hh0).view.set (ieK L hh1).view.set := by
  rw [Finset.disjoint_left]
  intro j h0 h1
  rw [mem_ieK] at h0 h1
  have e0 : (j 0).val = 2 * wid L + 0 := h0
  have e1 : (j 0).val = 2 * wid L + 1 := h1
  omega

theorem awSet_eq (L : grid1.Coords) : awSet L = (awK L hh0).view.set ∪ (awK L hh1).view.set := by
  ext j
  rw [mem_awSet, Finset.mem_union, mem_awK, mem_awK]
  show _ ↔ (j 0).val = 2 * wid L + 0 ∨ (j 0).val = 2 * wid L + 1
  omega
theorem aw_disj (L : grid1.Coords) : Disjoint (awK L hh0).view.set (awK L hh1).view.set := by
  rw [Finset.disjoint_left]
  intro j h0 h1
  rw [mem_awK] at h0 h1
  have e0 : (j 0).val = 2 * wid L + 0 := h0
  have e1 : (j 0).val = 2 * wid L + 1 := h1
  omega

theorem resSet_eq (L : grid1.Coords) : resSet L = (resK L hh0).view.set ∪ (resK L hh1).view.set := by
  ext j
  rw [mem_resSet, Finset.mem_union, mem_resK, mem_resK]
  show _ ↔ (j 0).val / 256 = 2 * wid L + 0 ∨ (j 0).val / 256 = 2 * wid L + 1
  omega
theorem res_disj (L : grid1.Coords) : Disjoint (resK L hh0).view.set (resK L hh1).view.set := by
  rw [Finset.disjoint_left]
  intro j h0 h1
  rw [mem_resK] at h0 h1
  have e0 : (j 0).val / 256 = 2 * wid L + 0 := h0
  have e1 : (j 0).val / 256 = 2 * wid L + 1 := h1
  omega

end Cert.Proof.KB

end
-- ==== Proof.KBTileSpec.lean ====
/-
  The two item loops of a chunk trip, as the chunk loop uses them: each runs the four items of its chunk on the
  output scratch, from the gathered buffer and the weights, and leaves both of those as they were.
-/
import proofs.«203743_g50225347559739_cont_8to1c4_743_14_alg».proof.Proof.KBTileDefs
import proofs.«203743_g50225347559739_cont_8to1c4_743_14_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- The item loop on the first buffer at chunk trip `t2`: the four items of chunk `2 t2`. -/
def T3Spec (d : Dev nD) (L : grid1.Coords) : Prop :=
  ∀ (t2 : Fin k1_t2_loop.trips) (fw : Buf (Elt F) (awvLoc d L)) (fb : Buf (Elt F) (buf0Loc d L)) (fo : Buf (Elt F) (outLoc d L)),
    iprop(outPts d L fo ∗ buf0Pts d L fb ∗ awvPts d L fw)
      ⊢ wp frame (wpE (defs₀ (F := F)) 𝒱₀ (thrV d L) none) Set.univ
        (Scf.Loop.for k1_t3_loop k1_t3_ok ⟨⟩ (Gen.k1_t3_body L ieV (Memref.isWhole_whole _) awV (Memref.isWhole_whole _) embV (Memref.isWhole_whole _) resV (Memref.isWhole_whole _)
        idxV (Memref.isWhole_whole _) awvV (Memref.isWhole_whole _) buf0V (Memref.isWhole_whole _) buf1V (Memref.isWhole_whole _) outV (Memref.isWhole_whole _)
        cc1_scratch5 cc1_scratch6 cc1_scoped0 cc1_scoped1 cc1_scoped2 cc1_scoped3
          t2 (Scalar.muli (Scf.iv 0#32 1#32 t2) 2#32)))
        fun _ => iprop(outPts d L (outAfter fw fb fo (2 * t2.val) 4) ∗ buf0Pts d L fb ∗ awvPts d L fw)

/-- The item loop on the second buffer at chunk trip `t2`: the four items of chunk `2 t2 + 1`. -/
def T4Spec (d : Dev nD) (L : grid1.Coords) : Prop :=
  ∀ (t2 : Fin k1_t2_loop.trips) (fw : Buf (Elt F) (awvLoc d L)) (fb : Buf (Elt F) (buf1Loc d L)) (fo : Buf (Elt F) (outLoc d L)),
    iprop(outPts d L fo ∗ buf1Pts d L fb ∗ awvPts d L fw)
      ⊢ wp frame (wpE (defs₀ (F := F)) 𝒱₀ (thrV d L) none) Set.univ
        (Scf.Loop.for k1_t4_loop k1_t4_ok ⟨⟩ (Gen.k1_t4_body L ieV (Memref.isWhole_whole _) awV (Memref.isWhole_whole _) embV (Memref.isWhole_whole _) resV (Memref.isWhole_whole _)
        idxV (Memref.isWhole_whole _) awvV (Memref.isWhole_whole _) buf0V (Memref.isWhole_whole _) buf1V (Memref.isWhole_whole _) outV (Memref.isWhole_whole _)
        cc1_scratch5 cc1_scratch6 cc1_scoped0 cc1_scoped1 cc1_scoped2 cc1_scoped3
          t2 (Scalar.addi (Scalar.muli (Scf.iv 0#32 1#32 t2) 2#32) 1#32)))
        fun _ => iprop(outPts d L (outAfter fw fb fo (2 * t2.val + 1) 4) ∗ buf1Pts d L fb ∗ awvPts d L fw)

end Cert.Proof.KB

end
-- ==== Proof.KBTile.lean ====
/-
  The task of one vector subcore: the two halves one after the other.  The subcore's slabs of the indices and of the
  weights and its rows of the result are split into the halves' slices, its share of the table into two; each half
  leaves its block of the result at the items' accumulations; the pieces are joined again at the end.
-/
import proofs.«203743_g50225347559739_cont_8to1c4_743_14_alg».proof.Proof.KBTileOwn
import proofs.«203743_g50225347559739_cont_8to1c4_743_14_alg».proof.Proof.KBTileSets
import proofs.«203743_g50225347559739_cont_8to1c4_743_14_alg».proof.Proof.KBTileSpec

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid1.Coords)

/-! ## The arrays as the subcore's memrefs address them -/

theorem pts_ieK (h : Fin k1_t1_loop.trips) (S : Finset S64x64x128.Idx) (f : Buf (Elt F) (ieLoc d)) :
    ((ieK L h).view.loc (thrV d L) ↦[S]{fullShare} f : sProp 𝕄) = (ieLoc d ↦[S]{fullShare} f) := rfl
theorem pts_awK (h : Fin k1_t1_loop.trips) (S : Finset S64x8192.Idx) (f : Buf (Elt F) (awLoc d)) :
    ((awK L h).view.loc (thrV d L) ↦[S]{fullShare} f : sProp 𝕄) = (awLoc d ↦[S]{fullShare} f) := rfl
theorem pts_resK (h : Fin k1_t1_loop.trips) (S : Finset S16384x128.Idx) (f : Buf (Elt F) (resLoc d)) :
    ((resK L h).view.loc (thrV d L) ↦[S]{fullShare} f : sProp 𝕄) = (resLoc d ↦[S]{fullShare} f) := rfl
theorem pts_embV (q : PosShare TreeShare) (f : Buf (Elt F) (embLoc d)) :
    ((embV).view.loc (thrV d L) ↦{q} f : sProp 𝕄) = (embLoc d ↦{q} f) := rfl
theorem pts_idx (f : Buf (Elt F) (idxLoc d L)) : (idxPts d L f : sProp 𝕄) = (idxLoc d L ↦{fullShare} f) := rfl
theorem pts_awv (f : Buf (Elt F) (awvLoc d L)) : (awvPts d L f : sProp 𝕄) = (awvLoc d L ↦{fullShare} f) := rfl
theorem pts_buf0 (f : Buf (Elt F) (buf0Loc d L)) : (buf0Pts d L f : sProp 𝕄) = (buf0Loc d L ↦{fullShare} f) := rfl
theorem pts_buf1 (f : Buf (Elt F) (buf1Loc d L)) : (buf1Pts d L f : sProp 𝕄) = (buf1Loc d L ↦{fullShare} f) := rfl
theorem pts_out (f : Buf (Elt F) (outLoc d L)) : (outPts d L f : sProp 𝕄) = (outLoc d L ↦{fullShare} f) := rfl

variable [FloatOps F]

/-! ## The half, as the task uses it -/

/-- One half of the task from what it works on to the same with its block of the result done. -/
def HalfSpec (ie : Buf (Elt F) (ieLoc d)) (aw : Buf (Elt F) (awLoc d)) (emb : Buf (Elt F) (embLoc d)) : Prop :=
  ∀ (O : CellTallies nD τ sig (HIx 1)) (W : Waits sig (HIx 1)) (fo : Buf (Elt F) (resLoc d)) (h : Fin k1_t1_loop.trips),
    halfRes d L O W ie aw emb h fo ⊢ wp frame (wpE (defs₀ (F := F)) 𝒱₀ (thrV d L) none) Set.univ
      (Gen.k1_t1_body L ieV (Memref.isWhole_whole _) awV (Memref.isWhole_whole _) embV (Memref.isWhole_whole _) resV (Memref.isWhole_whole _)
        idxV (Memref.isWhole_whole _) awvV (Memref.isWhole_whole _) buf0V (Memref.isWhole_whole _) buf1V (Memref.isWhole_whole _) outV (Memref.isWhole_whole _)
        cc1_scratch5 cc1_scratch6 cc1_scoped0 cc1_scoped1 cc1_scoped2 cc1_scoped3 (widW L) h ⟨⟩)
      (fun _ => halfRes d L O W ie aw emb h (Pure.Gk (F := F) ie aw emb : Buf (Elt F) (resLoc d)))

/-- Before half `k`: everything both halves work on, the blocks of the result of the halves already run at the items'
    accumulations and the others as they came. -/
def I1 (O : CellTallies nD τ sig (HIx 1)) (W : Waits sig (HIx 1))
    (ie : Buf (Elt F) (ieLoc d)) (aw : Buf (Elt F) (awLoc d)) (emb : Buf (Elt F) (embLoc d)) (fo : Buf (Elt F) (resLoc d))
    (k : ℕ) (_ : Unit) : sProp 𝕄 :=
  iprop(Transfers.MayWaits (thrV d L) (none : HIx 1) O
    ∗ ((ieK L hh0).view.loc (thrV d L) ↦[(ieK L hh0).view.set]{fullShare} ie)
    ∗ ((ieK L hh1).view.loc (thrV d L) ↦[(ieK L hh1).view.set]{fullShare} ie)
    ∗ ((awK L hh0).view.loc (thrV d L) ↦[(awK L hh0).view.set]{fullShare} aw)
    ∗ ((awK L hh1).view.loc (thrV d L) ↦[(awK L hh1).view.set]{fullShare} aw)
    ∗ ((embV).view.loc (thrV d L) ↦{(embq L).left} emb)
    ∗ ((embV).view.loc (thrV d L) ↦{(embq L).right} emb)
    ∗ ((resK L hh0).view.loc (thrV d L) ↦[(resK L hh0).view.set]{fullShare}
        (if 0 < k then (Pure.Gk (F := F) ie aw emb : Buf (Elt F) (resLoc d)) else fo))
    ∗ ((resK L hh1).view.loc (thrV d L) ↦[(resK L hh1).view.set]{fullShare}
        (if 1 < k then (Pure.Gk (F := F) ie aw emb : Buf (Elt F) (resLoc d)) else fo))
    ∗ (∃ f, idxPts d L f) ∗ (∃ f, awvPts d L f) ∗ (∃ f, buf0Pts d L f) ∗ (∃ f, buf1Pts d L f) ∗ (∃ f, outPts d L f)
    ∗ semVal (cellA d L) 0 ∗ semVal (cellB d L) 0
    ∗ semVal (cellS0 d L) 0 ∗ semVal (cellS1 d L) 0 ∗ semVal (cellS2 d L) 0 ∗ semVal (cellS3 d L) 0
    ∗ ∃ W', ⌜∀ p ∈ W', p ∈ W ∨ p.2 = none⌝ ∗ owes (thrV d L) O W')

set_option maxHeartbeats 2000000 in
/-- The task of the vector subcore at `L`. -/
theorem tile_body_of (ie : Buf (Elt F) (ieLoc d)) (aw : Buf (Elt F) (awLoc d)) (emb : Buf (Elt F) (embLoc d)) (fo : Buf (Elt F) (resLoc d))
    (hF : (K (F := F)).Facts) (hhalf : HalfSpec d L ie aw emb) (O : CellTallies nD τ sig (HIx 1)) (W : Waits sig (HIx 1)) (hO : ∀ g, O g none = 0) :
    iprop(levAts (K (F := F)).L (K (F := F)).lev ∗ emp ∗ tilePre d L ie aw emb fo
        ∗ scopedBufs (thrV d L) ∗ scopedSems0 (thrV d L) ∗ owes (thrV d L) O W)
      ⊢ wp frame (wpE (defs₀ (F := F)) 𝒱₀ (thrV d L) none) Set.univ (tileProg (F := F) L)
          fun _ => iprop(tilePost d L ie aw emb ∗ scopedBufs (thrV d L) ∗ scopedSems0 (thrV d L)
            ∗ ∃ W', ⌜∀ p ∈ W', p ∈ W ∨ p.2 = none⌝ ∗ owes (thrV d L) O W') := by
  have ht0 : 0 < Scf.trips k1_t1_loop.lb k1_t1_loop.ub k1_t1_loop.st := by
    have h := trips1; show 0 < k1_t1_loop.trips; omega
  have ht1 : 1 < Scf.trips k1_t1_loop.lb k1_t1_loop.ub k1_t1_loop.st := by
    have h := trips1; show 1 < k1_t1_loop.trips; omega
  unfold tileProg
  simp only [cc1__sc_body_eq_skeleton]; unfold cc1__sc_body_skel
  rw [(K (F := F)).scopedBufs_V hF d (cV L) (jV L), SparseCore.Cfg.scopedSems0_V (Val := Elt F) d (cV L) (jV L), ownSems0_V, ownBufs_V]
  unfold tilePre tilePost
  rw [ieSet_eq, awSet_eq, resSet_eq]
  iintro ⟨#Hlv, -, ⟨Hie, Haw, Hemb, Hres⟩, ⟨⟨%f0, Hidx⟩, ⟨%f1, Hawv⟩, ⟨%f2, Hb0⟩, ⟨%f3, Hb1⟩, ⟨%f4, Hout⟩, Hbufs⟩, ⟨HsA, HsB, Hs0, Hs1, Hs2, Hs3, Hsems⟩, HO⟩
  ihave Hmw := (show levAts (K (F := F)).L (K (F := F)).lev ⊢ Transfers.MayWaits (thrV d L) (none : HIx 1) O from
    (K (F := F)).mayWaits_none (thr := thrV d L) hO) $$ Hlv
  ihave Hie' := (pointsTo_union (ie_disj L)).1 $$ Hie
  icases Hie' with ⟨Hie0, Hie1⟩
  ihave Haw' := (pointsTo_union (aw_disj L)).1 $$ Haw
  icases Haw' with ⟨Haw0, Haw1⟩
  ihave Hres' := (pointsTo_union (res_disj L)).1 $$ Hres
  icases Hres' with ⟨Hr0, Hr1⟩
  ihave Hemb' := (pointsTo_share (PosShare.mem_left_op_right (embq L))).1 $$ Hemb
  icases Hemb' with ⟨HeL, HeR⟩
  sl_exec
  sl_for (I1 d L O W ie aw emb fo) $$ [Hmw Hie0 Hie1 Haw0 Haw1 HeL HeR Hr0 Hr1 Hidx Hawv Hb0 Hb1 Hout HsA HsB Hs0 Hs1 Hs2 Hs3 HO]
  case region =>
    intro k acc
    rcases fin_t1 k with rfl | rfl
    · -- half 0
      show I1 d L O W ie aw emb fo 0 acc ⊢ wp frame (wpE (defs₀ (F := F)) 𝒱₀ (thrV d L) none) Set.univ _ (I1 d L O W ie aw emb fo (0 + 1))
      unfold I1
      rw [if_neg (show ¬(0 < 0) by omega), if_neg (show ¬(1 < 0) by omega), if_pos (show 0 < 0 + 1 by omega), if_neg (show ¬(1 < 0 + 1) by omega)]
      iintro ⟨Hmw, Hie0, Hie1, Haw0, Haw1, HeL, HeR, Hr0, Hr1, Hidx, Hawv, Hb0, Hb1, Hout, HsA, HsB, Hs0, Hs1, Hs2, Hs3, HW⟩
      iapply (exec_cut_last _ _ _ (hhalf O W fo hh0)) $$ [Hmw Hie0 Haw0 HeL HeR Hr0 Hidx Hawv Hb0 Hb1 Hout HsA HsB Hs0 Hs1 Hs2 Hs3 HW]
      · unfold halfRes
        isplitl [Hmw]
        · iexact Hmw
        isplitl [Hie0]
        · iexact Hie0
        isplitl [Haw0]
        · iexact Haw0
        isplitl [HeL]
        · iexact HeL
        isplitl [HeR]
        · iexact HeR
        isplitl [Hr0]
        · iexact Hr0
        isplitl [Hidx]
        · iexact Hidx
        isplitl [Hawv]
        · iexact Hawv
        isplitl [Hb0]
        · iexact Hb0
        isplitl [Hb1]
        · iexact Hb1
        isplitl [Hout]
        · iexact Hout
        isplitl [HsA]
        · iexact HsA
        isplitl [HsB]
        · iexact HsB
        isplitl [Hs0]
        · iexact Hs0
        isplitl [Hs1]
        · iexact Hs1
        isplitl [Hs2]
        · iexact Hs2
        isplitl [Hs3]
        · iexact Hs3
        iexact HW
      iintro %_ H
      unfold halfRes
      icases H with ⟨Hmw, Hie0, Haw0, HeL, HeR, Hr0, Hidx, Hawv, Hb0, Hb1, Hout, HsA, HsB, Hs0, Hs1, Hs2, Hs3, HW⟩
      isplitl [Hmw]
      · iexact Hmw
      isplitl [Hie0]
      · iexact Hie0
      isplitl [Hie1]
      · iexact Hie1
      isplitl [Haw0]
      · iexact Haw0
      isplitl [Haw1]
      · iexact Haw1
      isplitl [HeL]
      · iexact HeL
      isplitl [HeR]
      · iexact HeR
      isplitl [Hr0]
      · iexact Hr0
      isplitl [Hr1]
      · iexact Hr1
      isplitl [Hidx]
      · iexact Hidx
      isplitl [Hawv]
      · iexact Hawv
      isplitl [Hb0]
      · iexact Hb0
      isplitl [Hb1]
      · iexact Hb1
      isplitl [Hout]
      · iexact Hout
      isplitl [HsA]
      · iexact HsA
      isplitl [HsB]
      · iexact HsB
      isplitl [Hs0]
      · iexact Hs0
      isplitl [Hs1]
      · iexact Hs1
      isplitl [Hs2]
      · iexact Hs2
      isplitl [Hs3]
      · iexact Hs3
      iexact HW
    · -- half 1
      show I1 d L O W ie aw emb fo 1 acc ⊢ wp frame (wpE (defs₀ (F := F)) 𝒱₀ (thrV d L) none) Set.univ _ (I1 d L O W ie aw emb fo (1 + 1))
      unfold I1
      rw [if_pos (show 0 < 1 by omega), if_neg (show ¬(1 < 1) by omega), if_pos (show 0 < 1 + 1 by omega), if_pos (show 1 < 1 + 1 by omega)]
      iintro ⟨Hmw, Hie0, Hie1, Haw0, Haw1, HeL, HeR, Hr0, Hr1, Hidx, Hawv, Hb0, Hb1, Hout, HsA, HsB, Hs0, Hs1, Hs2, Hs3, HW⟩
      iapply (exec_cut_last _ _ _ (hhalf O W fo hh1)) $$ [Hmw Hie1 Haw1 HeL HeR Hr1 Hidx Hawv Hb0 Hb1 Hout HsA HsB Hs0 Hs1 Hs2 Hs3 HW]
      · unfold halfRes
        isplitl [Hmw]
        · iexact Hmw
        isplitl [Hie1]
        · iexact Hie1
        isplitl [Haw1]
        · iexact Haw1
        isplitl [HeL]
        · iexact HeL
        isplitl [HeR]
        · iexact HeR
        isplitl [Hr1]
        · iexact Hr1
        isplitl [Hidx]
        · iexact Hidx
        isplitl [Hawv]
        · iexact Hawv
        isplitl [Hb0]
        · iexact Hb0
        isplitl [Hb1]
        · iexact Hb1
        isplitl [Hout]
        · iexact Hout
        isplitl [HsA]
        · iexact HsA
        isplitl [HsB]
        · iexact HsB
        isplitl [Hs0]
        · iexact Hs0
        isplitl [Hs1]
        · iexact Hs1
        isplitl [Hs2]
        · iexact Hs2
        isplitl [Hs3]
        · iexact Hs3
        iexact HW
      iintro %_ H
      unfold halfRes
      icases H with ⟨Hmw, Hie1, Haw1, HeL, HeR, Hr1, Hidx, Hawv, Hb0, Hb1, Hout, HsA, HsB, Hs0, Hs1, Hs2, Hs3, HW⟩
      isplitl [Hmw]
      · iexact Hmw
      isplitl [Hie0]
      · iexact Hie0
      isplitl [Hie1]
      · iexact Hie1
      isplitl [Haw0]
      · iexact Haw0
      isplitl [Haw1]
      · iexact Haw1
      isplitl [HeL]
      · iexact HeL
      isplitl [HeR]
      · iexact HeR
      isplitl [Hr0]
      · iexact Hr0
      isplitl [Hr1]
      · iexact Hr1
      isplitl [Hidx]
      · iexact Hidx
      isplitl [Hawv]
      · iexact Hawv
      isplitl [Hb0]
      · iexact Hb0
      isplitl [Hb1]
      · iexact Hb1
      isplitl [Hout]
      · iexact Hout
      isplitl [HsA]
      · iexact HsA
      isplitl [HsB]
      · iexact HsB
      isplitl [Hs0]
      · iexact Hs0
      isplitl [Hs1]
      · iexact Hs1
      isplitl [Hs2]
      · iexact Hs2
      isplitl [Hs3]
      · iexact Hs3
      iexact HW
  · -- the invariant before the first half
    unfold I1
    rw [if_neg (show ¬(0 < 0) by omega), if_neg (show ¬(1 < 0) by omega)]
    isplitl [Hmw]
    · iexact Hmw
    isplitl [Hie0]
    · iexact Hie0
    isplitl [Hie1]
    · iexact Hie1
    isplitl [Haw0]
    · iexact Haw0
    isplitl [Haw1]
    · iexact Haw1
    isplitl [HeL]
    · iexact HeL
    isplitl [HeR]
    · iexact HeR
    isplitl [Hr0]
    · iexact Hr0
    isplitl [Hr1]
    · iexact Hr1
    isplitl [Hidx]
    · iexists f0; iexact Hidx
    isplitl [Hawv]
    · iexists f1; iexact Hawv
    isplitl [Hb0]
    · iexists f2; iexact Hb0
    isplitl [Hb1]
    · iexists f3; iexact Hb1
    isplitl [Hout]
    · iexists f4; iexact Hout
    isplitl [HsA]
    · iexact HsA
    isplitl [HsB]
    · iexact HsB
    isplitl [Hs0]
    · iexact Hs0
    isplitl [Hs1]
    · iexact Hs1
    isplitl [Hs2]
    · iexact Hs2
    isplitl [Hs3]
    · iexact Hs3
    iexists W
    isplitr
    · ipureintro; exact fun p hp => .inl hp
    · iexact HO
  iintro %acc
  unfold I1
  rw [if_pos ht0, if_pos ht1]
  iintro ⟨Hmw, Hie0, Hie1, Haw0, Haw1, HeL, HeR, Hr0, Hr1, ⟨%g0, Hidx⟩, ⟨%g1, Hawv⟩, ⟨%g2, Hb0⟩, ⟨%g3, Hb1⟩, ⟨%g4, Hout⟩, HsA, HsB, Hs0, Hs1, Hs2, Hs3, %W', %hW', HO⟩
  sl_exec
  sl_step
  ihave Hie := (pointsTo_union (ℓ := ieLoc d) (q := fullShare) (f := ie) (ie_disj L)).2 $$ [Hie0 Hie1]
  · isplitl [Hie0]
    · iexact Hie0
    iexact Hie1
  ihave Haw := (pointsTo_union (ℓ := awLoc d) (q := fullShare) (f := aw) (aw_disj L)).2 $$ [Haw0 Haw1]
  · isplitl [Haw0]
    · iexact Haw0
    iexact Haw1
  ihave Hres := (pointsTo_union (ℓ := resLoc d) (q := fullShare) (f := (Pure.Gk (F := F) ie aw emb : Buf (Elt F) (resLoc d))) (res_disj L)).2 $$ [Hr0 Hr1]
  · isplitl [Hr0]
    · iexact Hr0
    iexact Hr1
  ihave Hemb := (pointsTo_share (ℓ := embLoc d) (I := Finset.univ) (f := emb) (PosShare.mem_left_op_right (embq L))).2 $$ [HeL HeR]
  · isplitl [HeL]
    · iexact HeL
    iexact HeR
  isplitl [Hie Haw Hemb Hres]
  · isplitl [Hie]
    · iexact Hie
    isplitl [Haw]
    · iexact Haw
    isplitl [Hemb]
    · iexact Hemb
    iexact Hres
  isplitl [Hidx Hawv Hb0 Hb1 Hout Hbufs]
  · isplitl [Hidx]
    · iexists g0; iexact Hidx
    isplitl [Hawv]
    · iexists g1; iexact Hawv
    isplitl [Hb0]
    · iexists g2; iexact Hb0
    isplitl [Hb1]
    · iexists g3; iexact Hb1
    isplitl [Hout]
    · iexists g4; iexact Hout
    iexact Hbufs
  isplitl [HsA HsB Hs0 Hs1 Hs2 Hs3 Hsems]
  · isplitl [HsA]
    · iexact HsA
    isplitl [HsB]
    · iexact HsB
    isplitl [Hs0]
    · iexact Hs0
    isplitl [Hs1]
    · iexact Hs1
    isplitl [Hs2]
    · iexact Hs2
    isplitl [Hs3]
    · iexact Hs3
    iexact Hsems
  iexists W'
  isplitr
  · ipureintro; exact hW'
  · iexact HO

end Cert.Proof.KB

end
-- ==== Proof.KBTileGath.lean ====
/-
  What an indirect gather of chunk `c` leaves in a 128 x 128 buffer, as a closed form: buffer row `i` is the table
  row named by index word `i` of row `c % 64` of the index scratch.

  The gather's payload reads the table at the destination's own column and, on the row axis, at the row the
  offset list names for the destination's row; the list is row `c % 64` of the index scratch squeezed to a vector, so
  its entry `i` is word `(c % 64, i)`; every word names a row of the table, so clamping it to the last row does nothing.
-/
import proofs.«203743_g50225347559739_cont_8to1c4_743_14_alg».proof.Proof.KBTileInv

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx

variable [FloatOps F]

section Gath

variable (d : Dev nD) (L : grid1.Coords)

/-- Entry `y` of the offset list cut at row `c % 64` is word `(c % 64, y)` of the index scratch. -/
theorem rowO_read (fidx : Buf (Elt F) (idxLoc d L)) (c : ℕ)
    (inb : ∀ a, (![c % 64, 0] : Fin 2 → ℕ) a + S1x128.size a ≤ S64x128.size a) (y : S128.Idx) :
    (rowO ![c % 64, 0] inb).view.read (Elt F) fidx y
      = (fidx : S64x128.Idx → BitVec 32) (ix2 (⟨c % 64, Nat.mod_lt _ (by decide)⟩ : Fin 64) (⟨(y 0).val, (y 0).isLt⟩ : Fin 128)) := by
  refine (View.read_apply _ _).trans ((cast_eq _ _).trans ?_)
  refine congrArg (fidx : S64x128.Idx → BitVec 32) (funext fun a => Fin.ext ?_)
  show ((Rect.unit (s := S64x128) ![c % 64, 0] S1x128.size inb).emb (Shape.reshapeEquiv squeezes_S1x128_S128.numel_eq y) a : ℕ) = _
  rw [Rect.emb_apply, Shape.reshapeEquiv_cons_one]
  match a with
  | ⟨0, _⟩ => show c % 64 + 1 * 0 = c % 64; omega
  | ⟨1, _⟩ => show 0 + 1 * (y 0).val = (y 0).val; omega

/-- The table read through the memref the gathers address is the table. -/
theorem embAll_read (emb : Buf (Elt F) (embLoc d)) (z : S100001x128.Idx) :
    (embAllK).view.read (Elt F) emb z = (emb : S100001x128.Idx → F .f32) z := by
  refine (View.read_apply _ _).trans ((cast_eq _ _).trans ?_)
  refine congrArg (emb : S100001x128.Idx → F .f32) (funext fun a => Fin.ext ?_)
  show ((Rect.unit (s := S100001x128) ![0, 0] S100001x128.size inb_S100001x128_S100001x128_0_0).emb z a : ℕ) = _
  rw [Rect.emb_apply]
  match a with
  | ⟨0, _⟩ => show 0 + 1 * (z 0).val = (z 0).val; omega
  | ⟨1, _⟩ => show 0 + 1 * (z 1).val = (z 1).val; omega

/-- The gather's payload for chunk `c` is the closed form. -/
theorem gath_payload (fidx : Buf (Elt F) (idxLoc d L)) (emb : Buf (Elt F) (embLoc d)) (c : ℕ)
    (inb : ∀ a, (![c % 64, 0] : Fin 2 → ℕ) a + S1x128.size a ≤ S64x128.size a)
    (hn : S128.numel = S128x128.size gathers_S100001x128_S128x128.axis')
    (hin : ∀ x, ((rowO ![c % 64, 0] inb).view.read (Elt F) fidx x).toNat < S100001x128.size gathers_S100001x128_S128x128.axis) :
    SparseCore.gatherPayload gathers_S100001x128_S128x128 ((embAllK).view.read (Elt F) emb)
      (SparseCore.rows ((rowO ![c % 64, 0] inb).view.read (Elt F) fidx) hn hin) = gath fidx emb c := by
  funext x
  unfold SparseCore.gatherPayload gath
  refine (embAll_read d emb _).trans ?_
  refine congrArg (emb : S100001x128.Idx → F .f32) (funext fun a => Fin.ext ?_)
  match a with
  | ⟨1, _⟩ => exact Shape.Gathers.idx_of_ne gathers_S100001x128_S128x128 _ x 1 (by decide)
  | ⟨0, _⟩ =>
    refine (congrArg Fin.val (Shape.Gathers.idx_axis gathers_S100001x128_S128x128 _ x)).trans ?_
    -- the word the list holds for the destination's row
    have hy : ((S128.rowMajor.symm ((x gathers_S100001x128_S128x128.axis').cast hn.symm)) 0).val = (x 0).val := by
      have h1 := Shape.rowMajor_val_one (S128.rowMajor.symm ((x gathers_S100001x128_S128x128.axis').cast hn.symm))
      rw [Equiv.apply_symm_apply] at h1
      exact h1.symm
    have hw := rowO_read d L fidx c inb (S128.rowMajor.symm ((x gathers_S100001x128_S128x128.axis').cast hn.symm))
    have hlt := hin (S128.rowMajor.symm ((x gathers_S100001x128_S128x128.axis').cast hn.symm))
    show ((rowO ![c % 64, 0] inb).view.read (Elt F) fidx (S128.rowMajor.symm ((x gathers_S100001x128_S128x128.axis').cast hn.symm))).toNat
        = min ((fidx : S64x128.Idx → BitVec 32) (ix2 (⟨c % 64, Nat.mod_lt _ (by decide)⟩ : Fin 64) (x 0))).toNat 100000
    rw [hw] at hlt ⊢
    have he : (ix2 (⟨c % 64, Nat.mod_lt _ (by decide)⟩ : Fin 64)
        (⟨((S128.rowMajor.symm ((x gathers_S100001x128_S128x128.axis').cast hn.symm)) 0).val, ((S128.rowMajor.symm ((x gathers_S100001x128_S128x128.axis').cast hn.symm)) 0).isLt⟩ : Fin 128)
          : S64x128.Idx) = ix2 (⟨c % 64, Nat.mod_lt _ (by decide)⟩ : Fin 64) (x 0) :=
      congrArg (fun q : Fin 128 => (ix2 (⟨c % 64, Nat.mod_lt _ (by decide)⟩ : Fin 64) q : S64x128.Idx)) (Fin.ext hy)
    rw [he] at hlt ⊢
    exact (Nat.min_eq_left (Nat.le_of_lt_succ hlt)).symm

/-- What a gather of chunk `c` leaves in the first buffer. -/
theorem gath_eq0 (fd : Buf (Elt F) (buf0Loc d L)) (fidx : Buf (Elt F) (idxLoc d L)) (emb : Buf (Elt F) (embLoc d)) (c : ℕ)
    (off : Fin 2 → ℕ) (inb : ∀ a, off a + S1x128.size a ≤ S64x128.size a) (hoff : off = ![c % 64, 0])
    (hn : S128.numel = S128x128.size gathers_S100001x128_S128x128.axis')
    (hin : ∀ x, ((rowO off inb).view.read (Elt F) fidx x).toNat < S100001x128.size gathers_S100001x128_S128x128.axis) :
    (buf0V).view.write (Elt F) fd (SparseCore.gatherPayload gathers_S100001x128_S128x128 ((embAllK).view.read (Elt F) emb)
      (SparseCore.rows ((rowO off inb).view.read (Elt F) fidx) hn hin)) Finset.univ = gath fidx emb c := by
  subst hoff
  exact (View.write_whole_univ cc1_scratch2 fd _).trans (gath_payload d L fidx emb c inb hn hin)

/-- What a gather of chunk `c` leaves in the second buffer. -/
theorem gath_eq1 (fd : Buf (Elt F) (buf1Loc d L)) (fidx : Buf (Elt F) (idxLoc d L)) (emb : Buf (Elt F) (embLoc d)) (c : ℕ)
    (off : Fin 2 → ℕ) (inb : ∀ a, off a + S1x128.size a ≤ S64x128.size a) (hoff : off = ![c % 64, 0])
    (hn : S128.numel = S128x128.size gathers_S100001x128_S128x128.axis')
    (hin : ∀ x, ((rowO off inb).view.read (Elt F) fidx x).toNat < S100001x128.size gathers_S100001x128_S128x128.axis) :
    (buf1V).view.write (Elt F) fd (SparseCore.gatherPayload gathers_S100001x128_S128x128 ((embAllK).view.read (Elt F) emb)
      (SparseCore.rows ((rowO off inb).view.read (Elt F) fidx) hn hin)) Finset.univ = gath fidx emb c := by
  subst hoff
  exact (View.write_whole_univ cc1_scratch3 fd _).trans (gath_payload d L fidx emb c inb hn hin)

end Gath

end Cert.Proof.KB

end
-- ==== Proof.KBTileTrip.lean ====
/-
  One trip of the chunk loop: the gather of chunk `2 k + 1` into the second buffer is issued, the gather of chunk
  `2 k` (in flight since the trip before) is awaited and its four items run; the gather of chunk `2 k + 2` is
  issued into the first buffer if there is one; the second gather is awaited and its four items run.  The two
  gathers in flight read the table through the two halves of the subcore's share, and their offset lists
  through the two halves of the index scratch.
-/
import proofs.«203743_g50225347559739_cont_8to1c4_743_14_alg».proof.Proof.KBTileInv
import proofs.«203743_g50225347559739_cont_8to1c4_743_14_alg».proof.Proof.KBTileSpec
import proofs.«203743_g50225347559739_cont_8to1c4_743_14_alg».proof.Proof.KBTileGath

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx

variable [FloatOps F]

section Trip

variable (d : Dev nD) (L : grid1.Coords)

/-- Every word of an offset list cut from the index scratch names a row of the table. -/
theorem hin_off (fidx : Buf (Elt F) (idxLoc d L)) (hidx : ∀ x, (fidx x).toNat ≤ 100000) (off : Fin 2 → ℕ) (inb) :
    ∀ x, ((rowO off inb).view.read (Elt F) fidx x).toNat < S100001x128.size gathers_S100001x128_S128x128.axis := by
  intro x
  rw [show ∀ j, (rowO off inb).view.read (Elt F) fidx j = fidx ((rowO off inb).view.emb j) from fun j => (View.read_apply _ _).trans (cast_eq _ _)]
  exact Nat.lt_succ_of_le (hidx _)

theorem cond1_iff : ∀ t2 : Fin k1_t2_loop.trips, k1_cond1 t2 = 1#1 ↔ t2.val < 31 := by decide +kernel

/-- A trip finishes eight more rows. -/
theorem outDone_step (fw : S8192.Idx → F .f32) (fidx : S64x128.Idx → BitVec 32) (emb : S100001x128.Idx → F .f32)
    (fown : S256x128.Idx → F .f32) (k : ℕ) (hk : k < 32) :
    outAfter fw (gath fidx emb (2 * k + 1)) (outAfter fw (gath fidx emb (2 * k)) (outDone fw fidx emb fown (8 * k)) (2 * k) 4) (2 * k + 1) 4
      = outDone fw fidx emb fown (8 * (k + 1)) := by
  have e1 : 8 * k = 4 * (2 * k) := by omega
  rw [e1, outAfter_gath fw fidx emb fown (2 * k) (by omega)]
  have e2 : 4 * (2 * k) + 4 = 4 * (2 * k + 1) := by omega
  rw [e2, outAfter_gath fw fidx emb fown (2 * k + 1) (by omega)]
  congr 1; omega

/-- The gather of chunk `c` into the first buffer, issued with nothing in flight on its semaphore. -/
theorem gatherA_cps {α : Type} {k : PUnit → Prog (TpuEff nD τ sig (Elt F) Λ₀ (thrV d L).2) α} {Q : α → sProp 𝕄}
    (fidx : Buf (Elt F) (idxLoc d L)) (emb : Buf (Elt F) (embLoc d)) (hidx : ∀ x, (fidx x).toNat ≤ 100000) (c : ℕ)
    (off : Fin 2 → ℕ) (inb) (hoff : off = ![c % 64, 0]) :
    idleA d L fidx emb ⊢ iprop((flightA d L fidx emb c -∗ wp frame (wpE (defs₀ (F := F)) 𝒱₀ (thrV d L) none) Set.univ (k ⟨⟩) Q)
      -∗ wp frame (wpE (defs₀ (F := F)) 𝒱₀ (thrV d L) none) Set.univ
        (SparseCore.enqueueIndirectGather rfl embAllK buf0V gathers_S100001x128_S128x128 (rowO off inb) rfl cc1_scratch5.sem
          (View.wordExact_bits rfl) rfl (Or.inl rfl) >>= k) Q) := by
  subst hoff
  unfold idleA flightA
  iintro ⟨⟨%fb, Hb0⟩, HembL, HidxL, HsemA⟩ Hk
  ihave Hs := (pointsTo_split_subset (q := (embq L).left) (f := emb) (S := Finset.univ) (Finset.subset_univ (embAllK).view.set)).1 $$ HembL
  icases Hs with ⟨Hsrc, Hembr⟩
  ihave Ho := (pointsTo_split_subset (q := (fullShare : PosShare TreeShare).left) (f := fidx) (S := Finset.univ) (Finset.subset_univ (rowK c).view.set)).1 $$ HidxL
  icases Ho with ⟨Hoff, Hidxr⟩
  have hbs : (buf0V).view.set = Finset.univ := View.set_whole _
  ihave Hb0' := (Entails.of_eq (show ((buf0V).view.loc (thrV d L) ↦{fullShare} fb : sProp 𝕄)
      = (buf0V).view.loc (thrV d L) ↦[(buf0V).view.set]{fullShare} fb by rw [hbs])) $$ Hb0
  iapply (SparseCore.wp_indirectGatherLocal countersEmb 𝒱₀ (thrV d L) none (hg := gathers_S100001x128_S128x128) (default : HIx 1)
      (buf0V).view.dmaCredit (SparseCore.sum_rowCredit_eq_dmaCredit (buf0V) _ (fun _ => rfl)) (by decide) (hin_off d L fidx hidx _ inb)) $$ [Hsrc Hb0' Hoff HsemA]
  · isplitl [Hsrc]; · iexact Hsrc
    isplitl [Hb0']; · iexact Hb0'
    isplitl [Hoff]; · iexact Hoff
    iexact HsemA
  iintro Hfl
  iapply Hk
  isplitl [Hfl]
  · have hE := gath_eq0 d L fb fidx emb c _ inb rfl rfl (hin_off d L fidx hidx _ inb)
    rw [hE]; iexact Hfl
  isplitl [Hembr]; · iexact Hembr
  iexact Hidxr

set_option maxHeartbeats 4000000 in
/-- One trip of the chunk loop. -/
theorem t2_trip (h3 : T3Spec (F := F) d L) (h4 : T4Spec (F := F) d L)
    (O : CellTallies nD τ sig (HIx 1)) (W : Waits sig (HIx 1))
    (fw : Buf (Elt F) (awvLoc d L)) (fidx : Buf (Elt F) (idxLoc d L)) (emb : Buf (Elt F) (embLoc d)) (fown : Buf (Elt F) (outLoc d L))
    (hidx : ∀ x, (fidx x).toNat ≤ 100000) (t2 : Fin k1_t2_loop.trips) :
    I2 d L O W fw fidx emb fown t2.val ⟨⟩ ⊢ wp frame (wpE (defs₀ (F := F)) 𝒱₀ (thrV d L) none) Set.univ
      (Gen.k1_t2_body L ieV (Memref.isWhole_whole _) awV (Memref.isWhole_whole _) embV (Memref.isWhole_whole _) resV (Memref.isWhole_whole _)
        idxV (Memref.isWhole_whole _) awvV (Memref.isWhole_whole _) buf0V (Memref.isWhole_whole _) buf1V (Memref.isWhole_whole _) outV (Memref.isWhole_whole _)
        cc1_scratch5 cc1_scratch6 cc1_scoped0 cc1_scoped1 cc1_scoped2 cc1_scoped3 t2 ⟨⟩)
      (fun r => I2 d L O W fw fidx emb fown (t2.val + 1) r) := by
  have hlt : t2.val < 32 := lt_of_lt_of_eq t2.isLt trips2
  have hoB : k1_off4 t2 = ![(2 * t2.val + 1) % 64, 0] := by rw [k1_off4_eq, Nat.mod_eq_of_lt (by omega)]
  have hb0s : (buf0V).view.set = Finset.univ := View.set_whole _
  have hb1s : (buf1V).view.set = Finset.univ := View.set_whole _
  unfold Gen.k1_t2_body I2
  rw [if_pos hlt]
  unfold flightA
  iintro ⟨#Hmw, Haw, Hout, ⟨%fb1, Hb1⟩, HembR, HidxR, HsemB, ⟨Hfl, HembLr, HidxLr⟩, %W', %hW', HO⟩
  sl_exec
  -- the second gather, of chunk 2 k + 1
  ihave Hs := (pointsTo_split_subset (q := (embq L).right) (f := emb) (S := Finset.univ) (Finset.subset_univ (embAllK).view.set)).1 $$ HembR
  icases Hs with ⟨HsrcB, HembRr⟩
  ihave Ho := (pointsTo_split_subset (q := (fullShare : PosShare TreeShare).right) (f := fidx) (S := Finset.univ)
      (Finset.subset_univ (rowO (k1_off4 t2) (k1_off4_inb t2)).view.set)).1 $$ HidxR
  icases Ho with ⟨HoffB, HidxRr⟩
  ihave Hb1' := (Entails.of_eq (show ((buf1V).view.loc (thrV d L) ↦{fullShare} fb1 : sProp 𝕄)
      = (buf1V).view.loc (thrV d L) ↦[(buf1V).view.set]{fullShare} fb1 by rw [hb1s])) $$ Hb1
  iapply (SparseCore.wp_indirectGatherLocal countersEmb 𝒱₀ (thrV d L) none (hg := gathers_S100001x128_S128x128) (default : HIx 1)
      (buf1V).view.dmaCredit (SparseCore.sum_rowCredit_eq_dmaCredit (buf1V) _ (fun _ => rfl)) (by decide)
      (hin_off d L fidx hidx (k1_off4 t2) (k1_off4_inb t2))) $$ [HsrcB Hb1' HoffB HsemB]
  · isplitl [HsrcB]; · iexact HsrcB
    isplitl [Hb1']; · iexact Hb1'
    isplitl [HoffB]; · iexact HoffB
    iexact HsemB
  iintro HflB
  sl_exec
  -- the first gather's wait
  iapply (Transfers.wp_waitLocalO countersEmb 𝒱₀ (thrV d L) none (default : HIx 1) (rfl : (buf0V).view.dmaCredit = _)) $$ [Hfl HO]
  · isplitl [Hfl]; · iexact Hfl
    isplitl [HO]; · iexact HO
    iapply (Transfers.MayWaits.elim (SemLoc.dma cc1_scratch5.sem)) $$ Hmw
  iintro ⟨⟨Hb0, HsrcA, HoffA⟩, HsemA, HO⟩
  sl_step
  ihave HembL := (pointsTo_split_subset (q := (embq L).left) (f := emb) (S := Finset.univ) (Finset.subset_univ (embAllK).view.set)).2 $$ [HsrcA HembLr]
  · isplitl [HsrcA] <;> iassumption
  ihave HidxL := (pointsTo_split_subset (q := (fullShare : PosShare TreeShare).left) (f := fidx) (S := Finset.univ)
      (Finset.subset_univ (rowK (2 * t2.val)).view.set)).2 $$ [HoffA HidxLr]
  · isplitl [HoffA] <;> iassumption
  ihave Hb0' := (Entails.of_eq (show ((buf0V).view.loc (thrV d L) ↦[(buf0V).view.set]{fullShare} (gath fidx emb (2 * t2.val) : Buf (Elt F) (buf0Loc d L)) : sProp 𝕄)
      = buf0Pts d L (gath fidx emb (2 * t2.val)) by rw [hb0s])) $$ Hb0
  -- its four items
  iapply (exec_cut _ _ _ (h3 t2 fw (gath fidx emb (2 * t2.val)) _)) $$ [Hout Hb0' Haw]
  · isplitl [Hout]; · iexact Hout
    isplitl [Hb0']; · iexact Hb0'
    iexact Haw
  iintro %_ ⟨Hout, Hb0', Haw⟩
  -- the next gather into the first buffer, if there is a next chunk
  by_cases hc : k1_cond1 t2 = 1#1
  · have hlt' : t2.val + 1 < 32 := by have := (cond1_iff t2).1 hc; omega
    have e2 : 2 * (t2.val + 1) = 2 * t2.val + 2 := by omega
    have hoA : k1_off23 t2 = ![(2 * (t2.val + 1)) % 64, 0] := by rw [k1_off23_eq, Nat.mod_eq_of_lt (by omega), e2]
    rw [dif_pos hc]
    sl_exec
    iapply (gatherA_cps d L fidx emb hidx (2 * (t2.val + 1)) (k1_off23 t2) (k1_off23_inb t2 hc) hoA) $$ [Hb0' HembL HidxL HsemA]
    · unfold idleA
      isplitl [Hb0']; · iexists _; iexact Hb0'
      isplitl [HembL]; · iexact HembL
      isplitl [HidxL]; · iexact HidxL
      iexact HsemA
    iintro HA

    -- the second gather's wait
    sl_exec
    iapply (Transfers.wp_waitLocalO countersEmb 𝒱₀ (thrV d L) none (default : HIx 1) (rfl : (buf1V).view.dmaCredit = _)) $$ [HflB HO]
    · isplitl [HflB]; · iexact HflB
      isplitl [HO]; · iexact HO
      iapply (Transfers.MayWaits.elim (SemLoc.dma cc1_scratch6.sem)) $$ Hmw
    iintro ⟨⟨Hb1, HsrcB, HoffB⟩, HsemB, HO⟩
    sl_step
    ihave HembR := (pointsTo_split_subset (q := (embq L).right) (f := emb) (S := Finset.univ) (Finset.subset_univ (embAllK).view.set)).2 $$ [HsrcB HembRr]
    · isplitl [HsrcB] <;> iassumption
    ihave HidxR := (pointsTo_split_subset (q := (fullShare : PosShare TreeShare).right) (f := fidx) (S := Finset.univ)
        (Finset.subset_univ (rowO (k1_off4 t2) (k1_off4_inb t2)).view.set)).2 $$ [HoffB HidxRr]
    · isplitl [HoffB] <;> iassumption
    have hEB := gath_eq1 d L fb1 fidx emb (2 * t2.val + 1) (k1_off4 t2) (k1_off4_inb t2) hoB rfl (hin_off d L fidx hidx _ _)
    rw [hEB]
    ihave Hb1' := (Entails.of_eq (show ((buf1V).view.loc (thrV d L) ↦[(buf1V).view.set]{fullShare} (gath fidx emb (2 * t2.val + 1) : Buf (Elt F) (buf1Loc d L)) : sProp 𝕄)
        = buf1Pts d L (gath fidx emb (2 * t2.val + 1)) by rw [hb1s])) $$ Hb1
    -- its four items
    iapply (exec_cut _ _ _ (h4 t2 fw (gath fidx emb (2 * t2.val + 1)) _)) $$ [Hout Hb1' Haw]
    · isplitl [Hout]; · iexact Hout
      isplitl [Hb1']; · iexact Hb1'
      iexact Haw
    iintro %_ ⟨Hout, Hb1', Haw⟩
    sl_step
    rw [outDone_step fw fidx emb fown t2.val hlt]
    rw [if_pos hlt']
    unfold flightA
    isplitl []; · iexact Hmw
    isplitl [Haw]; · iexact Haw
    isplitl [Hout]; · iexact Hout
    isplitl [Hb1']; · iexists _; iexact Hb1'
    isplitl [HembR]; · iexact HembR
    isplitl [HidxR]; · iexact HidxR
    isplitl [HsemB]; · iexact HsemB
    isplitl [HA]; · iexact HA
    iexists (insert (SemLoc.dma cc1_scratch6.sem, (default : HIx 1)) (insert (SemLoc.dma cc1_scratch5.sem, (default : HIx 1)) W')); isplitr
    · ipureintro; intro p hp
      rcases Finset.mem_insert.mp hp with hp | hp; · exact .inr (hp ▸ rfl)
      rcases Finset.mem_insert.mp hp with hp | hp; · exact .inr (hp ▸ rfl)
      exact hW' p hp
    · iexact HO
  · have hlt' : ¬ t2.val + 1 < 32 := by have := (cond1_iff t2).not.1 hc; omega
    rw [dif_neg hc]
    ihave HA := (show iprop((∃ fb, buf0Pts d L fb) ∗ ((embV).view.loc (thrV d L) ↦{(embq L).left} emb)
        ∗ ((idxV).view.loc (thrV d L) ↦{(fullShare : PosShare TreeShare).left} fidx) ∗ semVal (cellA d L) 0) ⊢ idleA d L fidx emb from by unfold idleA; exact .rfl) $$ [Hb0' HembL HidxL HsemA]
    · isplitl [Hb0']; · iexists _; iexact Hb0'
      isplitl [HembL]; · iexact HembL
      isplitl [HidxL]; · iexact HidxL
      iexact HsemA

    -- the second gather's wait
    sl_exec
    iapply (Transfers.wp_waitLocalO countersEmb 𝒱₀ (thrV d L) none (default : HIx 1) (rfl : (buf1V).view.dmaCredit = _)) $$ [HflB HO]
    · isplitl [HflB]; · iexact HflB
      isplitl [HO]; · iexact HO
      iapply (Transfers.MayWaits.elim (SemLoc.dma cc1_scratch6.sem)) $$ Hmw
    iintro ⟨⟨Hb1, HsrcB, HoffB⟩, HsemB, HO⟩
    sl_step
    ihave HembR := (pointsTo_split_subset (q := (embq L).right) (f := emb) (S := Finset.univ) (Finset.subset_univ (embAllK).view.set)).2 $$ [HsrcB HembRr]
    · isplitl [HsrcB] <;> iassumption
    ihave HidxR := (pointsTo_split_subset (q := (fullShare : PosShare TreeShare).right) (f := fidx) (S := Finset.univ)
        (Finset.subset_univ (rowO (k1_off4 t2) (k1_off4_inb t2)).view.set)).2 $$ [HoffB HidxRr]
    · isplitl [HoffB] <;> iassumption
    have hEB := gath_eq1 d L fb1 fidx emb (2 * t2.val + 1) (k1_off4 t2) (k1_off4_inb t2) hoB rfl (hin_off d L fidx hidx _ _)
    rw [hEB]
    ihave Hb1' := (Entails.of_eq (show ((buf1V).view.loc (thrV d L) ↦[(buf1V).view.set]{fullShare} (gath fidx emb (2 * t2.val + 1) : Buf (Elt F) (buf1Loc d L)) : sProp 𝕄)
        = buf1Pts d L (gath fidx emb (2 * t2.val + 1)) by rw [hb1s])) $$ Hb1
    -- its four items
    iapply (exec_cut _ _ _ (h4 t2 fw (gath fidx emb (2 * t2.val + 1)) _)) $$ [Hout Hb1' Haw]
    · isplitl [Hout]; · iexact Hout
      isplitl [Hb1']; · iexact Hb1'
      iexact Haw
    iintro %_ ⟨Hout, Hb1', Haw⟩
    sl_step
    rw [outDone_step fw fidx emb fown t2.val hlt]
    rw [if_neg hlt']
    isplitl []; · iexact Hmw
    isplitl [Haw]; · iexact Haw
    isplitl [Hout]; · iexact Hout
    isplitl [Hb1']; · iexists _; iexact Hb1'
    isplitl [HembR]; · iexact HembR
    isplitl [HidxR]; · iexact HidxR
    isplitl [HsemB]; · iexact HsemB
    isplitl [HA]; · iexact HA
    iexists (insert (SemLoc.dma cc1_scratch6.sem, (default : HIx 1)) (insert (SemLoc.dma cc1_scratch5.sem, (default : HIx 1)) W')); isplitr
    · ipureintro; intro p hp
      rcases Finset.mem_insert.mp hp with hp | hp; · exact .inr (hp ▸ rfl)
      rcases Finset.mem_insert.mp hp with hp | hp; · exact .inr (hp ▸ rfl)
      exact hW' p hp
    · iexact HO

end Trip

end Cert.Proof.KB

end
-- ==== Proof.KBTileValue.lean ====
/-
  The value of a finished half: once all 256 rows of a half are done, row `x` of the output scratch is the pure
  result `Gk` at the row of the result array that the half's slice places it at.

  Half `h` of subcore `(c, s)` works on slab `4 s + 2 c + h` and on result rows `1024 s + 512 c + 256 h + r`,
  `r < 256`: item `n = 256 * slab + r`, so `n / 256` is the slab and `n % 256 = r`; its weights are entries
  `32 r + p` of the slab, its indices entries `32 (r % 4) + p` of chunk `r / 4`, its own row is row `n` of the table.
-/
import proofs.«203743_g50225347559739_cont_8to1c4_743_14_alg».proof.Proof.KBTileInv
import proofs.«203743_g50225347559739_cont_8to1c4_743_14_alg».proof.Proof.KBTileSets

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx

variable [FloatOps F]

section HalfValue

variable (d : Dev nD) (L : grid1.Coords)

/-- The half's first result row. -/
def rowBase (h : Fin k1_t1_loop.trips) : ℕ := 1024 * (L 1).val + 512 * (L 0).val + 256 * h.val
/-- The half's slab. -/
def slabOf (h : Fin k1_t1_loop.trips) : ℕ := 4 * (L 1).val + 2 * (L 0).val + h.val

theorem rowBase_eq (h : Fin k1_t1_loop.trips) : rowBase L h = 256 * slabOf L h := by unfold rowBase slabOf; omega

theorem slabOf_lt (h : Fin k1_t1_loop.trips) : slabOf L h < 64 := by
  have h0 : (L 0).val < 2 := (L 0).isLt
  have h1 : (L 1).val < 16 := (L 1).isLt
  have h2 : h.val < 2 := lt_of_lt_of_eq h.isLt trips1
  unfold slabOf; omega

/-- Row `x` of the half's result slice is row `rowBase + x` of the result. -/
theorem resK_emb (h : Fin k1_t1_loop.trips) (x : S256x128.Idx) (a : Fin 2) :
    (((resK L h).view.emb x : S16384x128.Idx) a).val = (![rowBase L h, 0] : Fin 2 → ℕ) a + (x a).val := by
  show ((resRect L h).emb x a : ℕ) = _
  rw [Rect.emb_apply]
  show k1_off42 L h a + 1 * (x a).val = _
  rw [k1_off42_eq]
  match a with
  | ⟨0, _⟩ => show rowBase L h + 1 * (x 0).val = rowBase L h + (x 0).val; omega
  | ⟨1, _⟩ => show 0 + 1 * (x 1).val = 0 + (x 1).val; omega

/-- The half's weights, entry `y`: entry `y` of the slab. -/
theorem awK_read (aw : Buf (Elt F) (awLoc d)) (h : Fin k1_t1_loop.trips) (y : Fin 8192) :
    (awK L h).view.read (Elt F) aw (ix1 y)
      = (aw : S64x8192.Idx → F .f32) (ix2 (⟨slabOf L h, slabOf_lt L h⟩ : Fin 64) y) := by
  refine (View.read_apply _ _).trans ((cast_eq _ _).trans ?_)
  refine congrArg (aw : S64x8192.Idx → F .f32) (funext fun a => Fin.ext ?_)
  show ((awRect L h).emb (Shape.reshapeEquiv squeezes_S1x8192_S8192.numel_eq (ix1 y)) a : ℕ) = _
  rw [Rect.emb_apply, Shape.reshapeEquiv_cons_one]
  show k1_off2 L h a + 1 * _ = _
  rw [k1_off2_eq]
  match a with
  | ⟨0, _⟩ => show slabOf L h + 1 * 0 = slabOf L h; omega
  | ⟨1, _⟩ => show 0 + 1 * y.val = y.val; omega

/-- The half's indices, word `(q, z)`: word `(q, z)` of the slab. -/
theorem ieK_read (ie : Buf (Elt F) (ieLoc d)) (h : Fin k1_t1_loop.trips) (q : Fin 64) (z : Fin 128) :
    (ieK L h).view.read (Elt F) ie (ix2 q z)
      = (ie : S64x64x128.Idx → BitVec 32) (ix3 (⟨slabOf L h, slabOf_lt L h⟩ : Fin 64) q z) := by
  refine (View.read_apply _ _).trans ((cast_eq _ _).trans ?_)
  refine congrArg (ie : S64x64x128.Idx → BitVec 32) (funext fun a => Fin.ext ?_)
  show ((ieRect L h).emb (Shape.reshapeEquiv squeezes_S1x64x128_S64x128.numel_eq (ix2 q z)) a : ℕ) = _
  rw [Rect.emb_apply, Shape.reshapeEquiv_cons_one]
  show k1_off1 L h a + 1 * _ = _
  rw [k1_off1_eq]
  match a with
  | ⟨0, _⟩ => show slabOf L h + 1 * 0 = slabOf L h; omega
  | ⟨1, _⟩ => show 0 + 1 * q.val = q.val; omega
  | ⟨2, _⟩ => show 0 + 1 * z.val = z.val; omega

/-- The half's own rows of the table, at `x`: row `rowBase + x`. -/
theorem ownK_read (emb : Buf (Elt F) (embLoc d)) (h : Fin k1_t1_loop.trips) (x : S256x128.Idx)
    (hb : rowBase L h + (x 0).val < 100001) :
    (ownK L h).view.read (Elt F) emb x
      = (emb : S100001x128.Idx → F .f32) (ix2 (⟨rowBase L h + (x 0).val, hb⟩ : Fin 100001) (⟨(x 1).val, (x 1).isLt⟩ : Fin 128)) := by
  refine (View.read_apply _ _).trans ((cast_eq _ _).trans ?_)
  refine congrArg (emb : S100001x128.Idx → F .f32) (funext fun a => Fin.ext ?_)
  show ((ownRect L h).emb x a : ℕ) = _
  rw [Rect.emb_apply]
  show k1_off3 L h a + 1 * (x a).val = _
  rw [k1_off3_eq]
  match a with
  | ⟨0, _⟩ => show rowBase L h + 1 * (x 0).val = rowBase L h + (x 0).val; omega
  | ⟨1, _⟩ => show 0 + 1 * (x 1).val = (x 1).val; omega

/-- THE VALUE OF A FINISHED HALF: with all 256 rows done, row `x` of the output scratch is the pure result at the
    row of the result array the half's slice places it at. -/
theorem half_value_core (ie : Buf (Elt F) (ieLoc d)) (aw : Buf (Elt F) (awLoc d)) (emb : Buf (Elt F) (embLoc d))
    (hidx : IdxOK ie) (h : Fin k1_t1_loop.trips) (x : S256x128.Idx) :
    outDone ((awK L h).view.read (Elt F) aw) ((ieK L h).view.read (Elt F) ie) emb ((ownK L h).view.read (Elt F) emb) 256 x
      = Pure.Gk (F := F) ie aw emb ((resK L h).view.emb x) := by
  have hx0 : (x 0).val < 256 := (x 0).isLt
  have hx1 : (x 1).val < 128 := (x 1).isLt
  have hs := slabOf_lt L h
  have hrb := rowBase_eq L h
  have hb : rowBase L h + (x 0).val < 100001 := by omega
  have hj0 : (((resK L h).view.emb x : S16384x128.Idx) 0).val = rowBase L h + (x 0).val := resK_emb L h x 0
  have hj1 : (((resK L h).view.emb x : S16384x128.Idx) 1).val = (x 1).val := by
    have e := resK_emb L h x 1
    have e0 : (![rowBase L h, 0] : Fin 2 → ℕ) 1 = 0 := rfl
    rw [e0, Nat.zero_add] at e
    exact e
  show (if (x 0).val < 256 then doneVal ((awK L h).view.read (Elt F) aw) ((ieK L h).view.read (Elt F) ie) emb
      ((ownK L h).view.read (Elt F) emb) x else _) = _
  rw [if_pos hx0]
  unfold doneVal Pure.Gk
  congr 1
  · -- the weights
    funext p
    have hp : p.val < 32 := p.isLt
    unfold Pure.wOf
    refine (awK_read d L aw h _).trans ?_
    refine congrArg (aw : S64x8192.Idx → F .f32) (funext fun a => Fin.ext ?_)
    match a with
    | ⟨0, _⟩ =>
      show slabOf L h = (((resK L h).view.emb x : S16384x128.Idx) 0).val / 256
      rw [hj0]; omega
    | ⟨1, _⟩ =>
      show (x 0).val * 32 + p.val = ((((resK L h).view.emb x : S16384x128.Idx) 0).val % 256) * 32 + p.val
      rw [hj0]
      have : (rowBase L h + (x 0).val) % 256 = (x 0).val := by omega
      rw [this]
  · -- the gathered rows
    funext p
    have hp : p.val < 32 := p.isLt
    have hw : (ieK L h).view.read (Elt F) ie (ix2 (⟨(x 0).val / 4, by omega⟩ : Fin 64) (⟨((x 0).val % 4) * 32 + p.val, by omega⟩ : Fin 128))
        = Pure.iOf ie (((resK L h).view.emb x : S16384x128.Idx) 0) p := by
      unfold Pure.iOf
      refine (ieK_read d L ie h _ _).trans ?_
      refine congrArg (ie : S64x64x128.Idx → BitVec 32) (funext fun a => Fin.ext ?_)
      match a with
      | ⟨0, _⟩ =>
        show slabOf L h = (((resK L h).view.emb x : S16384x128.Idx) 0).val / 256
        rw [hj0]; omega
      | ⟨1, _⟩ =>
        show (x 0).val / 4 = ((((resK L h).view.emb x : S16384x128.Idx) 0).val % 256) / 4
        rw [hj0]
        have : (rowBase L h + (x 0).val) % 256 = (x 0).val := by omega
        rw [this]
      | ⟨2, _⟩ =>
        show ((x 0).val % 4) * 32 + p.val = ((((resK L h).view.emb x : S16384x128.Idx) 0).val % 4) * 32 + p.val
        rw [hj0]
        have : (rowBase L h + (x 0).val) % 4 = (x 0).val % 4 := by omega
        rw [this]
    refine congrArg (emb : S100001x128.Idx → F .f32) (funext fun a => Fin.ext ?_)
    match a with
    | ⟨0, _⟩ =>
      show (Pure.rowOf ((ieK L h).view.read (Elt F) ie (ix2 (⟨(x 0).val / 4, by omega⟩ : Fin 64) (⟨((x 0).val % 4) * 32 + p.val, by omega⟩ : Fin 128)))).val
        = (Pure.rowOf (Pure.iOf ie (((resK L h).view.emb x : S16384x128.Idx) 0) p)).val
      rw [hw]
    | ⟨1, _⟩ => exact hj1.symm
  · -- the item's own row
    refine (ownK_read d L emb h x hb).trans ?_
    refine congrArg (emb : S100001x128.Idx → F .f32) (funext fun a => Fin.ext ?_)
    match a with
    | ⟨0, _⟩ => exact hj0.symm
    | ⟨1, _⟩ => exact hj1.symm

/-- The copy-out of a finished half: after the whole output scratch is written over the half's rows of the result,
    every one of those rows holds the pure result. -/
theorem half_value (ie : Buf (Elt F) (ieLoc d)) (aw : Buf (Elt F) (awLoc d)) (emb : Buf (Elt F) (embLoc d))
    (fo : Buf (Elt F) (resLoc d)) (hidx : IdxOK ie) (h : Fin k1_t1_loop.trips)
    (pay : S256x128.Idx → F .f32)
    (hpay : pay = outDone ((awK L h).view.read (Elt F) aw) ((ieK L h).view.read (Elt F) ie) emb ((ownK L h).view.read (Elt F) emb) 256) :
    ∀ i ∈ (resK L h).view.set, ((resK L h).view.writes (Elt F) fo [⟨Rect.whole S256x128, pay⟩] : Buf (Elt F) (resLoc d)) i
      = Pure.Gk (F := F) ie aw emb i := by
  intro i hi
  obtain ⟨x, -, rfl⟩ := Finset.mem_map.mp hi
  subst hpay
  have e : ((resK L h).view.slice (Rect.whole S256x128)).emb x = (resK L h).view.emb x := by
    show (resK L h).view.emb ((Rect.whole S256x128).emb x) = (resK L h).view.emb x
    rw [Rect.emb_whole_apply]
  have hw := View.write_emb_of_mem (v := (resK L h).view.slice (Rect.whole S256x128)) (Val := Elt F) fo
    (outDone ((awK L h).view.read (Elt F) aw) ((ieK L h).view.read (Elt F) ie) emb ((ownK L h).view.read (Elt F) emb) 256)
    (Finset.mem_univ x)
  rw [e, cast_eq] at hw
  rw [View.writes_singleton]
  exact hw.trans (half_value_core d L ie aw emb hidx h x)

end HalfValue

end Cert.Proof.KB

end
-- ==== Proof.KBTileHalf.lean ====
/-
  One half of a subcore's task: its slab of the indices, its slab of the weights and its items' own rows of the
  table are copied into the scratch; the gather of chunk 0 is issued; the chunk loop runs; the finished rows are
  copied out to the half's block of the result.
-/
import proofs.«203743_g50225347559739_cont_8to1c4_743_14_alg».proof.Proof.KBTileTrip
import proofs.«203743_g50225347559739_cont_8to1c4_743_14_alg».proof.Proof.KBTileSets
import proofs.«203743_g50225347559739_cont_8to1c4_743_14_alg».proof.Proof.KBTileOwn
import proofs.«203743_g50225347559739_cont_8to1c4_743_14_alg».proof.Proof.KBTileValue

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx

variable [FloatOps F]

section Half

variable (d : Dev nD) (L : grid1.Coords)

set_option maxHeartbeats 4000000 in
theorem half_body (h3 : T3Spec (F := F) d L) (h4 : T4Spec (F := F) d L)
    (O : CellTallies nD τ sig (HIx 1)) (W : Waits sig (HIx 1))
    (ie : Buf (Elt F) (ieLoc d)) (aw : Buf (Elt F) (awLoc d)) (emb : Buf (Elt F) (embLoc d)) (fo : Buf (Elt F) (resLoc d))
    (hidx : IdxOK ie) (h : Fin k1_t1_loop.trips) :
    halfRes d L O W ie aw emb h fo ⊢ wp frame (wpE (defs₀ (F := F)) 𝒱₀ (thrV d L) none) Set.univ
      (Gen.k1_t1_body L ieV (Memref.isWhole_whole _) awV (Memref.isWhole_whole _) embV (Memref.isWhole_whole _) resV (Memref.isWhole_whole _)
        idxV (Memref.isWhole_whole _) awvV (Memref.isWhole_whole _) buf0V (Memref.isWhole_whole _) buf1V (Memref.isWhole_whole _) outV (Memref.isWhole_whole _)
        cc1_scratch5 cc1_scratch6 cc1_scoped0 cc1_scoped1 cc1_scoped2 cc1_scoped3 (widW L) h ⟨⟩)
      (fun _ => halfRes d L O W ie aw emb h (Pure.Gk (F := F) ie aw emb : Buf (Elt F) (resLoc d))) := by
  unfold Gen.k1_t1_body halfRes
  iintro ⟨#Hmw, Hie, Haw, HembL, HembR, Hres, ⟨%f0, Hidx⟩, ⟨%f1, Hawv⟩, ⟨%f2, Hb0⟩, ⟨%f3, Hb1⟩, ⟨%f4, Hout⟩, HsemA, HsemB, Hs0, Hs1, Hs2, Hs3, %W', %hW', HO⟩
  sl_exec
  -- the scratch buffers now hold the slab of the indices, the slab of the weights, the items' own rows
  have e0 : View.write (Elt F) (idxV).view f0 (half_body.sl.dma0 d L ie h) Finset.univ = (ieK L h).view.read (Elt F) ie := View.write_whole_univ _ _ _
  have e1 : View.write (Elt F) (awvV).view f1 (half_body.sl.dma0_1 d L aw h) Finset.univ = (awK L h).view.read (Elt F) aw := View.write_whole_univ _ _ _
  have e2 : View.write (Elt F) (outV).view f4 (half_body.sl.dma0_2 d L emb h) Finset.univ = (ownK L h).view.read (Elt F) emb := View.write_whole_univ _ _ _
  rw [e0, e1, e2]
  have hidx' : ∀ x, (((ieK L h).view.read (Elt F) ie : Buf (Elt F) (idxLoc d L)) x).toNat ≤ 100000 := by
    intro x
    rw [show ∀ j, (ieK L h).view.read (Elt F) ie j = ie ((ieK L h).view.emb j) from fun j => (View.read_apply _ _).trans (cast_eq _ _)]
    exact hidx _
  -- the gather of chunk 0
  ihave Hi := (pointsTo_share (q := (fullShare : PosShare TreeShare)) (PosShare.mem_left_op_right fullShare)).1 $$ Hidx
  icases Hi with ⟨HidxL, HidxR⟩
  iapply (gatherA_cps d L ((ieK L h).view.read (Elt F) ie) emb hidx' 0 ![0, 0] _ rfl) $$ [Hb0 HembL HidxL HsemA]
  · unfold idleA
    isplitl [Hb0]; · iexists _; iexact Hb0
    isplitl [HembL]; · iexact HembL
    isplitl [HidxL]; · iexact HidxL
    iexact HsemA
  iintro HA
  sl_exec
  -- the chunk loop
  sl_for (I2 d L O W ((awK L h).view.read (Elt F) aw) ((ieK L h).view.read (Elt F) ie) emb ((ownK L h).view.read (Elt F) emb)) $$ [Hawv Hout Hb1 HembR HidxR HsemB HA HO]
  case region =>
    intro k acc
    cases acc
    exact t2_trip d L h3 h4 O W _ _ emb _ hidx' k
  · unfold I2
    rw [if_pos (by decide), Nat.mul_zero, outDone_zero]
    isplitl []; · iexact Hmw
    isplitl [Hawv]; · iexact Hawv
    isplitl [Hout]; · iexact Hout
    isplitl [Hb1]; · iexists _; iexact Hb1
    isplitl [HembR]; · iexact HembR
    isplitl [HidxR]; · iexact HidxR
    isplitl [HsemB]; · iexact HsemB
    isplitl [HA]; · iexact HA
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  iintro %_ HI
  unfold I2
  have hT : Scf.trips k1_t2_loop.lb k1_t2_loop.ub k1_t2_loop.st = 32 := by decide
  rw [hT, if_neg (by decide)]
  unfold idleA
  icases HI with ⟨-, Hawv, Hout, ⟨%fb1, Hb1⟩, HembR, HidxR, HsemB, ⟨⟨%fb0, Hb0⟩, HembL, HidxL, HsemA⟩, %W2, %hW2, HO⟩
  ihave Hidx := (pointsTo_share (q := (fullShare : PosShare TreeShare)) (PosShare.mem_left_op_right fullShare)).2 $$ [HidxL HidxR]
  · isplitl [HidxL] <;> iassumption
  -- the finished rows go out to the half's block of the result
  sl_exec
  sl_step
  isplitl []; · iexact Hmw
  isplitl [Hie]; · iexact Hie
  isplitl [Haw]; · iexact Haw
  isplitl [HembL]; · iexact HembL
  isplitl [HembR]; · iexact HembR
  isplitl [Hres]
  · iapply (Entails.of_eq (pointsTo_congr (half_value d L ie aw emb fo hidx h (half_body.sl.dma0_3 d L ie aw emb h) rfl)))
    iexact Hres
  isplitl [Hidx]; · iexists _; iexact Hidx
  isplitl [Hawv]; · iexists _; iexact Hawv
  isplitl [Hb0]; · iexists _; iexact Hb0
  isplitl [Hb1]; · iexists _; iexact Hb1
  isplitl [Hout]; · iexists _; iexact Hout
  isplitl [HsemA]; · iexact HsemA
  isplitl [HsemB]; · iexact HsemB
  isplitl [Hs0]; · iexact Hs0
  isplitl [Hs1]; · iexact Hs1
  isplitl [Hs2]; · iexact Hs2
  isplitl [Hs3]; · iexact Hs3
  iexists _; isplitr
  swap; · iexact HO
  ipureintro; intro p hp
  rcases Finset.mem_insert.mp hp with hp | hp; · exact .inr (hp ▸ rfl)
  exact hW2 p hp

end Half

end Cert.Proof.KB

end
-- ==== Proof.KIItemPure.lean ====
/-
  One item's accumulation read one lane at a time: the vector operations of a multiply-add step at an index, a lane
  taken out of a vector of sixteen, the two shape casts between sixteen lanes and one row of sixteen, and the
  thirty-two steps written out as one nested term.
-/
import proofs.«203743_g50225347559739_cont_8to1c4_743_14_alg».proof.Proof.KIPure
import Idealize.ShloMosaic.Lib.ValueLayout
import Idealize.ShloMosaic.Lib.Pipeline.Value

noncomputable section

namespace Cert.Proof.Pure

open Idealize.ShloMosaic Idealize.ShloMosaic.ValueIdx

variable {F : FTy → Type} [FloatOps F]

/-- A sum of two vectors at an index is the sum of their entries. -/
theorem addf_at {s : Shape} {φ : FTy} (a b : FVec F s φ) (i : s.Idx) : addf a b i = FloatOps.addf (a i) (b i) := rfl

/-- A product of two vectors at an index is the product of their entries. -/
theorem mulf_at {s : Shape} {φ : FTy} (a b : FVec F s φ) (i : s.Idx) : mulf a b i = FloatOps.mulf (a i) (b i) := rfl

/-- A scalar spread over a shape reads that scalar at every index. -/
theorem broadcast_at {α : Type} (s : Shape) (x : α) (i : s.Idx) : broadcast s x i = x := rfl

/-- Lane `p` of a vector of sixteen, taken as a slice of one element and then its only entry. -/
theorem lane_at {α : Type} (v : (⟨1, ![16]⟩ : Shape).Idx → α) (p : ℕ)
    (h : (⟨1, ![16]⟩ : Shape).Slices ![p] (⟨1, ![1]⟩ : Shape)) (h' : ∀ a, (![0] : Fin 1 → ℕ) a < (⟨1, ![1]⟩ : Shape).size a) :
    extractAt ![0] (extractStridedSlice (⟨1, ![1]⟩ : Shape) ![p] v h) h'
      = v (ix1 (⟨p, by have := h.2 0; simpa using this⟩ : Fin 16)) := by
  unfold extractAt extractStridedSlice
  congr 1
  funext a
  match a with
  | ⟨0, _⟩ => rfl

/-- Sixteen lanes cast to sixteen lanes are themselves. -/
theorem cast16_16 {α : Type} (v : (⟨1, ![16]⟩ : Shape).Idx → α) (h : (⟨1, ![16]⟩ : Shape).ShapeCasts (⟨1, ![16]⟩ : Shape)) :
    shapeCast (⟨1, ![16]⟩ : Shape) v h = v := shapeCast_self v h

/-- One row of sixteen cast to sixteen lanes, at lane `l`. -/
theorem cast1x16_16 {α : Type} (v : (⟨2, ![1, 16]⟩ : Shape).Idx → α) (h : (⟨2, ![1, 16]⟩ : Shape).ShapeCasts (⟨1, ![16]⟩ : Shape))
    (l : Fin 16) : shapeCast (⟨1, ![16]⟩ : Shape) v h (ix1 l) = v (ix2 (0 : Fin 1) l) := shapeCast_1a_a_apply v h l

/-- Sixteen lanes cast to one row of sixteen, at lane `l`. -/
theorem cast16_1x16 {α : Type} (v : (⟨1, ![16]⟩ : Shape).Idx → α) (h : (⟨1, ![16]⟩ : Shape).ShapeCasts (⟨2, ![1, 16]⟩ : Shape))
    (u : Fin 1) (l : Fin 16) : shapeCast (⟨2, ![1, 16]⟩ : Shape) v h (ix2 u l) = v (ix1 l) := shapeCast_a_1a_apply v h u l

/-- The thirty-two multiply-adds written out, first step innermost. -/
theorem acc32_chain (w e : Fin 32 → F .f32) (a₀ : F .f32) :
    FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (a₀) (FloatOps.mulf (w 0) (e 0))) (FloatOps.mulf (w 1) (e 1))) (FloatOps.mulf (w 2) (e 2))) (FloatOps.mulf (w 3) (e 3))) (FloatOps.mulf (w 4) (e 4))) (FloatOps.mulf (w 5) (e 5))) (FloatOps.mulf (w 6) (e 6))) (FloatOps.mulf (w 7) (e 7))) (FloatOps.mulf (w 8) (e 8))) (FloatOps.mulf (w 9) (e 9))) (FloatOps.mulf (w 10) (e 10))) (FloatOps.mulf (w 11) (e 11))) (FloatOps.mulf (w 12) (e 12))) (FloatOps.mulf (w 13) (e 13))) (FloatOps.mulf (w 14) (e 14))) (FloatOps.mulf (w 15) (e 15))) (FloatOps.mulf (w 16) (e 16))) (FloatOps.mulf (w 17) (e 17))) (FloatOps.mulf (w 18) (e 18))) (FloatOps.mulf (w 19) (e 19))) (FloatOps.mulf (w 20) (e 20))) (FloatOps.mulf (w 21) (e 21))) (FloatOps.mulf (w 22) (e 22))) (FloatOps.mulf (w 23) (e 23))) (FloatOps.mulf (w 24) (e 24))) (FloatOps.mulf (w 25) (e 25))) (FloatOps.mulf (w 26) (e 26))) (FloatOps.mulf (w 27) (e 27))) (FloatOps.mulf (w 28) (e 28))) (FloatOps.mulf (w 29) (e 29))) (FloatOps.mulf (w 30) (e 30))) (FloatOps.mulf (w 31) (e 31))
      = acc32 w e a₀ := rfl

/-- The accumulation depends on the weights, the entries and the start value only through their values. -/
theorem acc32_congr {w w' e e' : Fin 32 → F .f32} {a a' : F .f32} (hw : ∀ p, w p = w' p) (he : ∀ p, e p = e' p) (ha : a = a') :
    acc32 w e a = acc32 w' e' a' := by
  rw [funext hw, funext he, ha]

end Cert.Proof.Pure

end
-- ==== Proof.KBItemReads.lean ====
/-
  What one trip of an item loop reads and writes, as functions of the three scratch buffers: loads through the whole
  buffers at unit-stride rectangles read at an index, the update of one row of the accumulator by the thirty-two
  multiply-adds, and that four such updates, rows `4 c` to `4 c + 3`, are the chunk's update.
-/
import proofs.«203743_g50225347559739_cont_8to1c4_743_14_alg».proof.Proof.KBTileDefs
import proofs.«203743_g50225347559739_cont_8to1c4_743_14_alg».proof.Proof.KIItemPure
import Idealize.ShloMosaic.Lib.WritesUnit

noncomputable section

namespace Cert.Proof.KB

open Cert.Kernel Cert.Kernel.Gen

open Idealize.ShloMosaic
open Idealize.ShloMosaic.ValueIdx

variable {F : FTy → Type}

/-! ## Loads through the whole scratch buffers -/

/-- Sixteen weights loaded at offset `off`: lane `i` is entry `off + i`. -/
theorem read_aw (fw : S8192.Idx → F .f32) (off : Fin 1 → ℕ) (inb : ∀ a, off a + S16.size a ≤ S8192.size a) (i : Fin 16) :
    View.readAt (Elt F) (awvV).view (Rect.unit (s := S8192) off S16.size inb).toLoadRect fw (ix1 i)
      = fw (ix1 (⟨off 0 + i.val, by
          have h := inb 0; have := i.isLt
          have h1 : S16.size 0 = 16 := rfl
          have h2 : S8192.size 0 = 8192 := rfl
          omega⟩ : Fin 8192)) := by
  show fw _ = fw _
  congr 1
  funext a
  match a with
  | ⟨0, _⟩ => exact Fin.ext (by show off 0 + 1 * i.val = _; rw [Nat.one_mul])

/-- Sixteen lanes of one row of a 128 x 128 buffer loaded at offsets `off`: lane `l` is entry `(off 0, off 1 + l)`. -/
theorem read_buf0 (fb : S128x128.Idx → F .f32) (off : Fin 2 → ℕ) (inb : ∀ a, off a + S1x16.size a ≤ S128x128.size a) (u : Fin 1) (l : Fin 16) :
    View.readAt (Elt F) (buf0V).view (Rect.unit (s := S128x128) off S1x16.size inb).toLoadRect fb (ix2 u l)
      = fb (ix2 (⟨off 0, by
            have h := inb 0
            have h1 : S1x16.size 0 = 1 := rfl
            have h2 : S128x128.size 0 = 128 := rfl
            omega⟩ : Fin 128)
          (⟨off 1 + l.val, by
            have h := inb 1; have := l.isLt
            have h1 : S1x16.size 1 = 16 := rfl
            have h2 : S128x128.size 1 = 128 := rfl
            omega⟩ : Fin 128)) := by
  show fb _ = fb _
  congr 1
  funext a
  match a with
  | ⟨0, _⟩ => exact Fin.ext (by show off 0 + 1 * u.val = off 0; have := u.isLt; omega)
  | ⟨1, _⟩ => exact Fin.ext (by show off 1 + 1 * l.val = _; rw [Nat.one_mul])

/-- The same through the second gather buffer. -/
theorem read_buf1 (fb : S128x128.Idx → F .f32) (off : Fin 2 → ℕ) (inb : ∀ a, off a + S1x16.size a ≤ S128x128.size a) (u : Fin 1) (l : Fin 16) :
    View.readAt (Elt F) (buf1V).view (Rect.unit (s := S128x128) off S1x16.size inb).toLoadRect fb (ix2 u l)
      = fb (ix2 (⟨off 0, by
            have h := inb 0
            have h1 : S1x16.size 0 = 1 := rfl
            have h2 : S128x128.size 0 = 128 := rfl
            omega⟩ : Fin 128)
          (⟨off 1 + l.val, by
            have h := inb 1; have := l.isLt
            have h1 : S1x16.size 1 = 16 := rfl
            have h2 : S128x128.size 1 = 128 := rfl
            omega⟩ : Fin 128)) := by
  show fb _ = fb _
  congr 1
  funext a
  match a with
  | ⟨0, _⟩ => exact Fin.ext (by show off 0 + 1 * u.val = off 0; have := u.isLt; omega)
  | ⟨1, _⟩ => exact Fin.ext (by show off 1 + 1 * l.val = _; rw [Nat.one_mul])

/-- Sixteen lanes of one row of the accumulator loaded at offsets `off`. -/
theorem read_out (g : S256x128.Idx → F .f32) (off : Fin 2 → ℕ) (inb : ∀ a, off a + S1x16.size a ≤ S256x128.size a) (u : Fin 1) (l : Fin 16) :
    View.readAt (Elt F) (outV).view (Rect.unit (s := S256x128) off S1x16.size inb).toLoadRect g (ix2 u l)
      = g (ix2 (⟨off 0, by
            have h := inb 0
            have h1 : S1x16.size 0 = 1 := rfl
            have h2 : S256x128.size 0 = 256 := rfl
            omega⟩ : Fin 256)
          (⟨off 1 + l.val, by
            have h := inb 1; have := l.isLt
            have h1 : S1x16.size 1 = 16 := rfl
            have h2 : S256x128.size 1 = 128 := rfl
            omega⟩ : Fin 128)) := by
  show g _ = g _
  congr 1
  funext a
  match a with
  | ⟨0, _⟩ => exact Fin.ext (by show off 0 + 1 * u.val = off 0; have := u.isLt; omega)
  | ⟨1, _⟩ => exact Fin.ext (by show off 1 + 1 * l.val = _; rw [Nat.one_mul])

variable [FloatOps F]

/-! ## One row's update -/

/-- The weights of row `r`. -/
def rowW (fw : S8192.Idx → F .f32) (r : Fin 256) : Fin 32 → F .f32 :=
  fun p => fw (ix1 (⟨r.val * 32 + p.val, by have := r.isLt; have := p.isLt; omega⟩ : Fin 8192))

/-- Column `c` of the thirty-two gathered rows of item `sub` of a chunk. -/
def rowE (fb : S128x128.Idx → F .f32) (sub : Fin 4) (c : Fin 128) : Fin 32 → F .f32 :=
  fun p => fb (ix2 (⟨sub.val * 32 + p.val, by have := sub.isLt; have := p.isLt; omega⟩ : Fin 128) c)

/-- Row `r` of the accumulator replaced by its accumulation with item `sub`'s gathered rows; the other rows kept. -/
def rowStep (fw : S8192.Idx → F .f32) (fb : S128x128.Idx → F .f32) (g : S256x128.Idx → F .f32) (r : Fin 256) (sub : Fin 4) :
    S256x128.Idx → F .f32 :=
  fun y => if (y 0).val = r.val then Pure.acc32 (rowW fw r) (rowE fb sub (y 1)) (g y) else g y

/-- The update of row `4 c + k` takes the chunk's first `k` rows done to its first `k + 1`. -/
theorem rowStep_outAfter (fw : S8192.Idx → F .f32) (fb : S128x128.Idx → F .f32) (fo : S256x128.Idx → F .f32) (c : ℕ) (k : Fin 4)
    (r : Fin 256) (hr : r.val = 4 * c + k.val) :
    rowStep fw fb (outAfter fw fb fo c k.val) r k = outAfter fw fb fo c (k.val + 1) := by
  funext y
  have hk := k.isLt
  unfold rowStep outAfter
  by_cases hy : (y 0).val = r.val
  · have h1 : (y 0).val / 4 = c ∧ (y 0).val % 4 < k.val + 1 := by omega
    have h2 : ¬((y 0).val / 4 = c ∧ (y 0).val % 4 < k.val) := by omega
    rw [if_pos hy, if_pos h1, if_neg h2]
    unfold itemVal
    refine Pure.acc32_congr (fun p => ?_) (fun p => ?_) rfl
    · unfold rowW
      congr 2
      exact Fin.ext (by show r.val * 32 + p.val = (y 0).val * 32 + p.val; rw [hy])
    · unfold rowE
      congr 2
      exact Fin.ext (by show k.val * 32 + p.val = (y 0).val % 4 * 32 + p.val; omega)
  · have h : ((y 0).val / 4 = c ∧ (y 0).val % 4 < k.val + 1) ↔ ((y 0).val / 4 = c ∧ (y 0).val % 4 < k.val) := by omega
    rw [if_neg hy]
    by_cases h3 : (y 0).val / 4 = c ∧ (y 0).val % 4 < k.val
    · rw [if_pos h3, if_pos (h.mpr h3)]
    · rw [if_neg h3, if_neg (fun h4 => h3 (h.mp h4))]

/-! ## A row stored as eight pieces of sixteen lanes -/

/-- Two indices of a rank-2 array with equal coordinates read the same entry. -/
theorem idx2_congr {α : Type} {n0 n1 : ℕ} (f : (⟨2, ![n0, n1]⟩ : Shape).Idx → α) {a a' : Fin n0} {b b' : Fin n1}
    (ha : a.val = a'.val) (hb : b.val = b'.val) : f (ix2 a b) = f (ix2 a' b') := by
  rw [Fin.ext ha, Fin.ext hb]

/-- The newest piece, sixteen lanes of row `r` from column `c`: under it the piece's payload, elsewhere the older pieces. -/
theorem read_cons_piece (g : S256x128.Idx → F .f32) (r c : ℕ) (o : Fin 2 → ℕ) (inb : ∀ a, o a + S1x16.size a ≤ S256x128.size a)
    (P : S1x16.Idx → F .f32) (Lst : List (View.Piece (Elt F) S256x128 .f32)) (ho : o = ![r, c]) (y : S256x128.Idx) :
    (outV).view.read (Elt F) ((outV).view.writes (Elt F) g (⟨Rect.unit (s := S256x128) o S1x16.size inb, P⟩ :: Lst)) y
      = if h : (y 0).val = r ∧ c ≤ (y 1).val ∧ (y 1).val < c + 16 then P (ix2 (0 : Fin 1) (⟨(y 1).val - c, by omega⟩ : Fin 16))
        else (outV).view.read (Elt F) ((outV).view.writes (Elt F) g Lst) y := by
  by_cases h : (y 0).val = r ∧ c ≤ (y 1).val ∧ (y 1).val < c + 16
  · rw [dif_pos h]
    refine View.read_writes_cons_unit_of_mem (outV).view g inb P Lst y (ix2 (0 : Fin 1) (⟨(y 1).val - c, by omega⟩ : Fin 16)) ho ?_
    intro a
    match a with
    | ⟨0, _⟩ => show (y 0).val = r + 0; omega
    | ⟨1, _⟩ => show (y 1).val = c + ((y 1).val - c); omega
  · rw [dif_neg h]
    by_cases h0 : (y 0).val = r
    · exact View.read_writes_cons_unit_of_not_mem (outV).view g inb P Lst y ho 1 (by show (y 1).val < c ∨ c + 16 ≤ (y 1).val; omega)
    · exact View.read_writes_cons_unit_of_not_mem (outV).view g inb P Lst y ho 0 (by show (y 0).val < r ∨ r + 1 ≤ (y 0).val; omega)

/-- Eight pieces of sixteen lanes that tile row `r`, each reading `Q` at its lanes: the buffer then holds `Q` on row `r` and
    what it held elsewhere. -/
theorem read_writes8 (g : S256x128.Idx → F .f32) (r : Fin 256)
    (o7 o6 o5 o4 o3 o2 o1 o0 : Fin 2 → ℕ)
    (i7 : ∀ a, o7 a + S1x16.size a ≤ S256x128.size a) (i6 : ∀ a, o6 a + S1x16.size a ≤ S256x128.size a)
    (i5 : ∀ a, o5 a + S1x16.size a ≤ S256x128.size a) (i4 : ∀ a, o4 a + S1x16.size a ≤ S256x128.size a)
    (i3 : ∀ a, o3 a + S1x16.size a ≤ S256x128.size a) (i2 : ∀ a, o2 a + S1x16.size a ≤ S256x128.size a)
    (i1 : ∀ a, o1 a + S1x16.size a ≤ S256x128.size a) (i0 : ∀ a, o0 a + S1x16.size a ≤ S256x128.size a)
    (P7 P6 P5 P4 P3 P2 P1 P0 : S1x16.Idx → F .f32)
    (h7 : o7 = ![r.val, 112]) (h6 : o6 = ![r.val, 96]) (h5 : o5 = ![r.val, 80]) (h4 : o4 = ![r.val, 64])
    (h3 : o3 = ![r.val, 48]) (h2 : o2 = ![r.val, 32]) (h1 : o1 = ![r.val, 16]) (h0 : o0 = ![r.val, 0])
    (Q : S256x128.Idx → F .f32)
    (q0 : ∀ l : Fin 16, P0 (ix2 (0 : Fin 1) l) = Q (ix2 r (⟨0 + l.val, by have := l.isLt; omega⟩ : Fin 128)))
    (q1 : ∀ l : Fin 16, P1 (ix2 (0 : Fin 1) l) = Q (ix2 r (⟨16 + l.val, by have := l.isLt; omega⟩ : Fin 128)))
    (q2 : ∀ l : Fin 16, P2 (ix2 (0 : Fin 1) l) = Q (ix2 r (⟨32 + l.val, by have := l.isLt; omega⟩ : Fin 128)))
    (q3 : ∀ l : Fin 16, P3 (ix2 (0 : Fin 1) l) = Q (ix2 r (⟨48 + l.val, by have := l.isLt; omega⟩ : Fin 128)))
    (q4 : ∀ l : Fin 16, P4 (ix2 (0 : Fin 1) l) = Q (ix2 r (⟨64 + l.val, by have := l.isLt; omega⟩ : Fin 128)))
    (q5 : ∀ l : Fin 16, P5 (ix2 (0 : Fin 1) l) = Q (ix2 r (⟨80 + l.val, by have := l.isLt; omega⟩ : Fin 128)))
    (q6 : ∀ l : Fin 16, P6 (ix2 (0 : Fin 1) l) = Q (ix2 r (⟨96 + l.val, by have := l.isLt; omega⟩ : Fin 128)))
    (q7 : ∀ l : Fin 16, P7 (ix2 (0 : Fin 1) l) = Q (ix2 r (⟨112 + l.val, by have := l.isLt; omega⟩ : Fin 128)))
    (y : S256x128.Idx) :
    (outV).view.writes (Elt F) g
        [⟨Rect.unit (s := S256x128) o7 S1x16.size i7, P7⟩,
         ⟨Rect.unit (s := S256x128) o6 S1x16.size i6, P6⟩,
         ⟨Rect.unit (s := S256x128) o5 S1x16.size i5, P5⟩,
         ⟨Rect.unit (s := S256x128) o4 S1x16.size i4, P4⟩,
         ⟨Rect.unit (s := S256x128) o3 S1x16.size i3, P3⟩,
         ⟨Rect.unit (s := S256x128) o2 S1x16.size i2, P2⟩,
         ⟨Rect.unit (s := S256x128) o1 S1x16.size i1, P1⟩,
         ⟨Rect.unit (s := S256x128) o0 S1x16.size i0, P0⟩] y
      = if (y 0).val = r.val then Q y else g y := by
  have hread : ∀ f : S256x128.Idx → F .f32, f y = (outV).view.read (Elt F) f y := fun _ => rfl
  refine (hread _).trans ?_
  rw [read_cons_piece g r.val 112 o7 i7 P7 _ h7,
    read_cons_piece g r.val 96 o6 i6 P6 _ h6,
    read_cons_piece g r.val 80 o5 i5 P5 _ h5,
    read_cons_piece g r.val 64 o4 i4 P4 _ h4,
    read_cons_piece g r.val 48 o3 i3 P3 _ h3,
    read_cons_piece g r.val 32 o2 i2 P2 _ h2,
    read_cons_piece g r.val 16 o1 i1 P1 _ h1,
    read_cons_piece g r.val 0 o0 i0 P0 _ h0]
  have hy1 : (y 1).val < 128 := (y 1).isLt
  have hyy : y = ix2 (y 0) (y 1) := eq_ix2 y
  by_cases hr : (y 0).val = r.val
  · rw [if_pos hr]
    rw [hyy]
    by_cases c7 : (y 0).val = r.val ∧ 112 ≤ (y 1).val ∧ (y 1).val < 112 + 16
    · rw [dif_pos c7, q7]
      exact idx2_congr Q (by show r.val = (y 0).val; omega) (by show 112 + ((y 1).val - 112) = (y 1).val; omega)
    rw [dif_neg c7]
    by_cases c6 : (y 0).val = r.val ∧ 96 ≤ (y 1).val ∧ (y 1).val < 96 + 16
    · rw [dif_pos c6, q6]
      exact idx2_congr Q (by show r.val = (y 0).val; omega) (by show 96 + ((y 1).val - 96) = (y 1).val; omega)
    rw [dif_neg c6]
    by_cases c5 : (y 0).val = r.val ∧ 80 ≤ (y 1).val ∧ (y 1).val < 80 + 16
    · rw [dif_pos c5, q5]
      exact idx2_congr Q (by show r.val = (y 0).val; omega) (by show 80 + ((y 1).val - 80) = (y 1).val; omega)
    rw [dif_neg c5]
    by_cases c4 : (y 0).val = r.val ∧ 64 ≤ (y 1).val ∧ (y 1).val < 64 + 16
    · rw [dif_pos c4, q4]
      exact idx2_congr Q (by show r.val = (y 0).val; omega) (by show 64 + ((y 1).val - 64) = (y 1).val; omega)
    rw [dif_neg c4]
    by_cases c3 : (y 0).val = r.val ∧ 48 ≤ (y 1).val ∧ (y 1).val < 48 + 16
    · rw [dif_pos c3, q3]
      exact idx2_congr Q (by show r.val = (y 0).val; omega) (by show 48 + ((y 1).val - 48) = (y 1).val; omega)
    rw [dif_neg c3]
    by_cases c2 : (y 0).val = r.val ∧ 32 ≤ (y 1).val ∧ (y 1).val < 32 + 16
    · rw [dif_pos c2, q2]
      exact idx2_congr Q (by show r.val = (y 0).val; omega) (by show 32 + ((y 1).val - 32) = (y 1).val; omega)
    rw [dif_neg c2]
    by_cases c1 : (y 0).val = r.val ∧ 16 ≤ (y 1).val ∧ (y 1).val < 16 + 16
    · rw [dif_pos c1, q1]
      exact idx2_congr Q (by show r.val = (y 0).val; omega) (by show 16 + ((y 1).val - 16) = (y 1).val; omega)
    rw [dif_neg c1]
    by_cases c0 : (y 0).val = r.val ∧ 0 ≤ (y 1).val ∧ (y 1).val < 0 + 16
    · rw [dif_pos c0, q0]
      exact idx2_congr Q (by show r.val = (y 0).val; omega) (by show 0 + ((y 1).val - 0) = (y 1).val; omega)
    rw [dif_neg c0]
    exfalso; omega
  · rw [if_neg hr,
      dif_neg (show ¬((y 0).val = r.val ∧ 112 ≤ (y 1).val ∧ (y 1).val < 112 + 16) from fun h => hr h.1),
      dif_neg (show ¬((y 0).val = r.val ∧ 96 ≤ (y 1).val ∧ (y 1).val < 96 + 16) from fun h => hr h.1),
      dif_neg (show ¬((y 0).val = r.val ∧ 80 ≤ (y 1).val ∧ (y 1).val < 80 + 16) from fun h => hr h.1),
      dif_neg (show ¬((y 0).val = r.val ∧ 64 ≤ (y 1).val ∧ (y 1).val < 64 + 16) from fun h => hr h.1),
      dif_neg (show ¬((y 0).val = r.val ∧ 48 ≤ (y 1).val ∧ (y 1).val < 48 + 16) from fun h => hr h.1),
      dif_neg (show ¬((y 0).val = r.val ∧ 32 ≤ (y 1).val ∧ (y 1).val < 32 + 16) from fun h => hr h.1),
      dif_neg (show ¬((y 0).val = r.val ∧ 16 ≤ (y 1).val ∧ (y 1).val < 16 + 16) from fun h => hr h.1),
      dif_neg (show ¬((y 0).val = r.val ∧ 0 ≤ (y 1).val ∧ (y 1).val < 0 + 16) from fun h => hr h.1)]
    rfl

/-! ## Loop `k1_t3_loop`: the loaded values as the trip reads them, and what they are -/

/-- The thirty-two weights the trip loads: two loads of sixteen. -/
def wraw3 (fw : S8192.Idx → F .f32) (t2 : Fin k1_t2_loop.trips) (t : Fin k1_t3_loop.trips) : Fin 32 → F .f32 := fun p =>
  if h : p.val < 16 then
    View.readAt (Elt F) (awvV).view (Rect.unit (s := S8192) (k1_off5 t2 t) S16.size (k1_off5_inb t2 t)).toLoadRect fw (ix1 (⟨p.val, h⟩ : Fin 16))
  else
    View.readAt (Elt F) (awvV).view (Rect.unit (s := S8192) (k1_off6 t2 t) S16.size (k1_off6_inb t2 t)).toLoadRect fw
      (ix1 (⟨p.val - 16, by have := p.isLt; omega⟩ : Fin 16))

theorem wraw3_eq (fw : S8192.Idx → F .f32) (t2 : Fin k1_t2_loop.trips) (t : Fin k1_t3_loop.trips) (r : Fin 256)
    (hr : r.val = 8 * t2.val + t.val) (p : Fin 32) : wraw3 fw t2 t p = rowW fw r p := by
  unfold wraw3 rowW
  by_cases h : p.val < 16
  · rw [dif_pos h, read_aw]
    refine congrArg (fun n : Fin 8192 => fw (ix1 n)) (Fin.ext ?_)
    show k1_off5 t2 t 0 + p.val = r.val * 32 + p.val
    rw [k1_off5_eq]
    show 256 * t2.val + 32 * t.val + p.val = r.val * 32 + p.val
    omega
  · rw [dif_neg h, read_aw]
    refine congrArg (fun n : Fin 8192 => fw (ix1 n)) (Fin.ext ?_)
    show k1_off6 t2 t 0 + (p.val - 16) = r.val * 32 + p.val
    rw [k1_off6_eq]
    show 256 * t2.val + 32 * t.val + 16 + (p.val - 16) = r.val * 32 + p.val
    omega

/-- Lane `l` of lane group 0 of the thirty-two gathered rows, as loaded. -/
def eraw3_0 (fb : S128x128.Idx → F .f32) (t : Fin k1_t3_loop.trips) (l : Fin 16) : Fin 32 → F .f32 := fun p =>
  View.readAt (Elt F) (buf0V).view (Rect.unit (s := S128x128) (k1_off15 t (BitVec.ofNat 32 p.val)) S1x16.size (k1_off15_inb t p)).toLoadRect fb
    (ix2 (0 : Fin 1) l)

theorem eraw3_0_eq (fb : S128x128.Idx → F .f32) (t : Fin k1_t3_loop.trips) (sub : Fin 4) (hs : sub.val = t.val) (l : Fin 16) (c : Fin 128)
    (hc : c.val = 0 + l.val) (p : Fin 32) : eraw3_0 fb t l p = rowE fb sub c p := by
  unfold eraw3_0 rowE
  rw [read_buf0]
  have e := k1_off15_eq t p
  refine idx2_congr fb ?_ ?_
  · show k1_off15 t (BitVec.ofNat 32 p.val) 0 = sub.val * 32 + p.val
    rw [e]; show 32 * t.val + p.val = sub.val * 32 + p.val; omega
  · show k1_off15 t (BitVec.ofNat 32 p.val) 1 + l.val = c.val
    rw [e]; show 0 + l.val = c.val; omega

/-- Lane `l` of lane group 0 of the accumulator's row, as loaded. -/
def graw3_0 (g : S256x128.Idx → F .f32) (t2 : Fin k1_t2_loop.trips) (t : Fin k1_t3_loop.trips) (l : Fin 16) : F .f32 :=
  View.readAt (Elt F) (outV).view (Rect.unit (s := S256x128) (k1_off7 t2 t) S1x16.size (k1_off7_inb t2 t)).toLoadRect g (ix2 (0 : Fin 1) l)

theorem graw3_0_eq (g : S256x128.Idx → F .f32) (t2 : Fin k1_t2_loop.trips) (t : Fin k1_t3_loop.trips) (r : Fin 256)
    (hr : r.val = 8 * t2.val + t.val) (l : Fin 16) (c : Fin 128) (hc : c.val = 0 + l.val) :
    graw3_0 g t2 t l = g (ix2 r c) := by
  unfold graw3_0
  rw [read_out]
  have e := k1_off7_eq t2 t
  refine idx2_congr g ?_ ?_
  · show k1_off7 t2 t 0 = r.val
    rw [e]; show 8 * t2.val + t.val = r.val; omega
  · show k1_off7 t2 t 1 + l.val = c.val
    rw [e]; show 0 + l.val = c.val; omega

/-- Lane `l` of lane group 1 of the thirty-two gathered rows, as loaded. -/
def eraw3_1 (fb : S128x128.Idx → F .f32) (t : Fin k1_t3_loop.trips) (l : Fin 16) : Fin 32 → F .f32 := fun p =>
  View.readAt (Elt F) (buf0V).view (Rect.unit (s := S128x128) (k1_off16 t (BitVec.ofNat 32 p.val)) S1x16.size (k1_off16_inb t p)).toLoadRect fb
    (ix2 (0 : Fin 1) l)

theorem eraw3_1_eq (fb : S128x128.Idx → F .f32) (t : Fin k1_t3_loop.trips) (sub : Fin 4) (hs : sub.val = t.val) (l : Fin 16) (c : Fin 128)
    (hc : c.val = 16 + l.val) (p : Fin 32) : eraw3_1 fb t l p = rowE fb sub c p := by
  unfold eraw3_1 rowE
  rw [read_buf0]
  have e := k1_off16_eq t p
  refine idx2_congr fb ?_ ?_
  · show k1_off16 t (BitVec.ofNat 32 p.val) 0 = sub.val * 32 + p.val
    rw [e]; show 32 * t.val + p.val = sub.val * 32 + p.val; omega
  · show k1_off16 t (BitVec.ofNat 32 p.val) 1 + l.val = c.val
    rw [e]; show 16 + l.val = c.val; omega

/-- Lane `l` of lane group 1 of the accumulator's row, as loaded. -/
def graw3_1 (g : S256x128.Idx → F .f32) (t2 : Fin k1_t2_loop.trips) (t : Fin k1_t3_loop.trips) (l : Fin 16) : F .f32 :=
  View.readAt (Elt F) (outV).view (Rect.unit (s := S256x128) (k1_off8 t2 t) S1x16.size (k1_off8_inb t2 t)).toLoadRect g (ix2 (0 : Fin 1) l)

theorem graw3_1_eq (g : S256x128.Idx → F .f32) (t2 : Fin k1_t2_loop.trips) (t : Fin k1_t3_loop.trips) (r : Fin 256)
    (hr : r.val = 8 * t2.val + t.val) (l : Fin 16) (c : Fin 128) (hc : c.val = 16 + l.val) :
    graw3_1 g t2 t l = g (ix2 r c) := by
  unfold graw3_1
  rw [read_out]
  have e := k1_off8_eq t2 t
  refine idx2_congr g ?_ ?_
  · show k1_off8 t2 t 0 = r.val
    rw [e]; show 8 * t2.val + t.val = r.val; omega
  · show k1_off8 t2 t 1 + l.val = c.val
    rw [e]; show 16 + l.val = c.val; omega

/-- Lane `l` of lane group 2 of the thirty-two gathered rows, as loaded. -/
def eraw3_2 (fb : S128x128.Idx → F .f32) (t : Fin k1_t3_loop.trips) (l : Fin 16) : Fin 32 → F .f32 := fun p =>
  View.readAt (Elt F) (buf0V).view (Rect.unit (s := S128x128) (k1_off17 t (BitVec.ofNat 32 p.val)) S1x16.size (k1_off17_inb t p)).toLoadRect fb
    (ix2 (0 : Fin 1) l)

theorem eraw3_2_eq (fb : S128x128.Idx → F .f32) (t : Fin k1_t3_loop.trips) (sub : Fin 4) (hs : sub.val = t.val) (l : Fin 16) (c : Fin 128)
    (hc : c.val = 32 + l.val) (p : Fin 32) : eraw3_2 fb t l p = rowE fb sub c p := by
  unfold eraw3_2 rowE
  rw [read_buf0]
  have e := k1_off17_eq t p
  refine idx2_congr fb ?_ ?_
  · show k1_off17 t (BitVec.ofNat 32 p.val) 0 = sub.val * 32 + p.val
    rw [e]; show 32 * t.val + p.val = sub.val * 32 + p.val; omega
  · show k1_off17 t (BitVec.ofNat 32 p.val) 1 + l.val = c.val
    rw [e]; show 32 + l.val = c.val; omega

/-- Lane `l` of lane group 2 of the accumulator's row, as loaded. -/
def graw3_2 (g : S256x128.Idx → F .f32) (t2 : Fin k1_t2_loop.trips) (t : Fin k1_t3_loop.trips) (l : Fin 16) : F .f32 :=
  View.readAt (Elt F) (outV).view (Rect.unit (s := S256x128) (k1_off9 t2 t) S1x16.size (k1_off9_inb t2 t)).toLoadRect g (ix2 (0 : Fin 1) l)

theorem graw3_2_eq (g : S256x128.Idx → F .f32) (t2 : Fin k1_t2_loop.trips) (t : Fin k1_t3_loop.trips) (r : Fin 256)
    (hr : r.val = 8 * t2.val + t.val) (l : Fin 16) (c : Fin 128) (hc : c.val = 32 + l.val) :
    graw3_2 g t2 t l = g (ix2 r c) := by
  unfold graw3_2
  rw [read_out]
  have e := k1_off9_eq t2 t
  refine idx2_congr g ?_ ?_
  · show k1_off9 t2 t 0 = r.val
    rw [e]; show 8 * t2.val + t.val = r.val; omega
  · show k1_off9 t2 t 1 + l.val = c.val
    rw [e]; show 32 + l.val = c.val; omega

/-- Lane `l` of lane group 3 of the thirty-two gathered rows, as loaded. -/
def eraw3_3 (fb : S128x128.Idx → F .f32) (t : Fin k1_t3_loop.trips) (l : Fin 16) : Fin 32 → F .f32 := fun p =>
  View.readAt (Elt F) (buf0V).view (Rect.unit (s := S128x128) (k1_off18 t (BitVec.ofNat 32 p.val)) S1x16.size (k1_off18_inb t p)).toLoadRect fb
    (ix2 (0 : Fin 1) l)

theorem eraw3_3_eq (fb : S128x128.Idx → F .f32) (t : Fin k1_t3_loop.trips) (sub : Fin 4) (hs : sub.val = t.val) (l : Fin 16) (c : Fin 128)
    (hc : c.val = 48 + l.val) (p : Fin 32) : eraw3_3 fb t l p = rowE fb sub c p := by
  unfold eraw3_3 rowE
  rw [read_buf0]
  have e := k1_off18_eq t p
  refine idx2_congr fb ?_ ?_
  · show k1_off18 t (BitVec.ofNat 32 p.val) 0 = sub.val * 32 + p.val
    rw [e]; show 32 * t.val + p.val = sub.val * 32 + p.val; omega
  · show k1_off18 t (BitVec.ofNat 32 p.val) 1 + l.val = c.val
    rw [e]; show 48 + l.val = c.val; omega

/-- Lane `l` of lane group 3 of the accumulator's row, as loaded. -/
def graw3_3 (g : S256x128.Idx → F .f32) (t2 : Fin k1_t2_loop.trips) (t : Fin k1_t3_loop.trips) (l : Fin 16) : F .f32 :=
  View.readAt (Elt F) (outV).view (Rect.unit (s := S256x128) (k1_off10 t2 t) S1x16.size (k1_off10_inb t2 t)).toLoadRect g (ix2 (0 : Fin 1) l)

theorem graw3_3_eq (g : S256x128.Idx → F .f32) (t2 : Fin k1_t2_loop.trips) (t : Fin k1_t3_loop.trips) (r : Fin 256)
    (hr : r.val = 8 * t2.val + t.val) (l : Fin 16) (c : Fin 128) (hc : c.val = 48 + l.val) :
    graw3_3 g t2 t l = g (ix2 r c) := by
  unfold graw3_3
  rw [read_out]
  have e := k1_off10_eq t2 t
  refine idx2_congr g ?_ ?_
  · show k1_off10 t2 t 0 = r.val
    rw [e]; show 8 * t2.val + t.val = r.val; omega
  · show k1_off10 t2 t 1 + l.val = c.val
    rw [e]; show 48 + l.val = c.val; omega

/-- Lane `l` of lane group 4 of the thirty-two gathered rows, as loaded. -/
def eraw3_4 (fb : S128x128.Idx → F .f32) (t : Fin k1_t3_loop.trips) (l : Fin 16) : Fin 32 → F .f32 := fun p =>
  View.readAt (Elt F) (buf0V).view (Rect.unit (s := S128x128) (k1_off19 t (BitVec.ofNat 32 p.val)) S1x16.size (k1_off19_inb t p)).toLoadRect fb
    (ix2 (0 : Fin 1) l)

theorem eraw3_4_eq (fb : S128x128.Idx → F .f32) (t : Fin k1_t3_loop.trips) (sub : Fin 4) (hs : sub.val = t.val) (l : Fin 16) (c : Fin 128)
    (hc : c.val = 64 + l.val) (p : Fin 32) : eraw3_4 fb t l p = rowE fb sub c p := by
  unfold eraw3_4 rowE
  rw [read_buf0]
  have e := k1_off19_eq t p
  refine idx2_congr fb ?_ ?_
  · show k1_off19 t (BitVec.ofNat 32 p.val) 0 = sub.val * 32 + p.val
    rw [e]; show 32 * t.val + p.val = sub.val * 32 + p.val; omega
  · show k1_off19 t (BitVec.ofNat 32 p.val) 1 + l.val = c.val
    rw [e]; show 64 + l.val = c.val; omega

/-- Lane `l` of lane group 4 of the accumulator's row, as loaded. -/
def graw3_4 (g : S256x128.Idx → F .f32) (t2 : Fin k1_t2_loop.trips) (t : Fin k1_t3_loop.trips) (l : Fin 16) : F .f32 :=
  View.readAt (Elt F) (outV).view (Rect.unit (s := S256x128) (k1_off11 t2 t) S1x16.size (k1_off11_inb t2 t)).toLoadRect g (ix2 (0 : Fin 1) l)

theorem graw3_4_eq (g : S256x128.Idx → F .f32) (t2 : Fin k1_t2_loop.trips) (t : Fin k1_t3_loop.trips) (r : Fin 256)
    (hr : r.val = 8 * t2.val + t.val) (l : Fin 16) (c : Fin 128) (hc : c.val = 64 + l.val) :
    graw3_4 g t2 t l = g (ix2 r c) := by
  unfold graw3_4
  rw [read_out]
  have e := k1_off11_eq t2 t
  refine idx2_congr g ?_ ?_
  · show k1_off11 t2 t 0 = r.val
    rw [e]; show 8 * t2.val + t.val = r.val; omega
  · show k1_off11 t2 t 1 + l.val = c.val
    rw [e]; show 64 + l.val = c.val; omega

/-- Lane `l` of lane group 5 of the thirty-two gathered rows, as loaded. -/
def eraw3_5 (fb : S128x128.Idx → F .f32) (t : Fin k1_t3_loop.trips) (l : Fin 16) : Fin 32 → F .f32 := fun p =>
  View.readAt (Elt F) (buf0V).view (Rect.unit (s := S128x128) (k1_off20 t (BitVec.ofNat 32 p.val)) S1x16.size (k1_off20_inb t p)).toLoadRect fb
    (ix2 (0 : Fin 1) l)

theorem eraw3_5_eq (fb : S128x128.Idx → F .f32) (t : Fin k1_t3_loop.trips) (sub : Fin 4) (hs : sub.val = t.val) (l : Fin 16) (c : Fin 128)
    (hc : c.val = 80 + l.val) (p : Fin 32) : eraw3_5 fb t l p = rowE fb sub c p := by
  unfold eraw3_5 rowE
  rw [read_buf0]
  have e := k1_off20_eq t p
  refine idx2_congr fb ?_ ?_
  · show k1_off20 t (BitVec.ofNat 32 p.val) 0 = sub.val * 32 + p.val
    rw [e]; show 32 * t.val + p.val = sub.val * 32 + p.val; omega
  · show k1_off20 t (BitVec.ofNat 32 p.val) 1 + l.val = c.val
    rw [e]; show 80 + l.val = c.val; omega

/-- Lane `l` of lane group 5 of the accumulator's row, as loaded. -/
def graw3_5 (g : S256x128.Idx → F .f32) (t2 : Fin k1_t2_loop.trips) (t : Fin k1_t3_loop.trips) (l : Fin 16) : F .f32 :=
  View.readAt (Elt F) (outV).view (Rect.unit (s := S256x128) (k1_off12 t2 t) S1x16.size (k1_off12_inb t2 t)).toLoadRect g (ix2 (0 : Fin 1) l)

theorem graw3_5_eq (g : S256x128.Idx → F .f32) (t2 : Fin k1_t2_loop.trips) (t : Fin k1_t3_loop.trips) (r : Fin 256)
    (hr : r.val = 8 * t2.val + t.val) (l : Fin 16) (c : Fin 128) (hc : c.val = 80 + l.val) :
    graw3_5 g t2 t l = g (ix2 r c) := by
  unfold graw3_5
  rw [read_out]
  have e := k1_off12_eq t2 t
  refine idx2_congr g ?_ ?_
  · show k1_off12 t2 t 0 = r.val
    rw [e]; show 8 * t2.val + t.val = r.val; omega
  · show k1_off12 t2 t 1 + l.val = c.val
    rw [e]; show 80 + l.val = c.val; omega

/-- Lane `l` of lane group 6 of the thirty-two gathered rows, as loaded. -/
def eraw3_6 (fb : S128x128.Idx → F .f32) (t : Fin k1_t3_loop.trips) (l : Fin 16) : Fin 32 → F .f32 := fun p =>
  View.readAt (Elt F) (buf0V).view (Rect.unit (s := S128x128) (k1_off21 t (BitVec.ofNat 32 p.val)) S1x16.size (k1_off21_inb t p)).toLoadRect fb
    (ix2 (0 : Fin 1) l)

theorem eraw3_6_eq (fb : S128x128.Idx → F .f32) (t : Fin k1_t3_loop.trips) (sub : Fin 4) (hs : sub.val = t.val) (l : Fin 16) (c : Fin 128)
    (hc : c.val = 96 + l.val) (p : Fin 32) : eraw3_6 fb t l p = rowE fb sub c p := by
  unfold eraw3_6 rowE
  rw [read_buf0]
  have e := k1_off21_eq t p
  refine idx2_congr fb ?_ ?_
  · show k1_off21 t (BitVec.ofNat 32 p.val) 0 = sub.val * 32 + p.val
    rw [e]; show 32 * t.val + p.val = sub.val * 32 + p.val; omega
  · show k1_off21 t (BitVec.ofNat 32 p.val) 1 + l.val = c.val
    rw [e]; show 96 + l.val = c.val; omega

/-- Lane `l` of lane group 6 of the accumulator's row, as loaded. -/
def graw3_6 (g : S256x128.Idx → F .f32) (t2 : Fin k1_t2_loop.trips) (t : Fin k1_t3_loop.trips) (l : Fin 16) : F .f32 :=
  View.readAt (Elt F) (outV).view (Rect.unit (s := S256x128) (k1_off13 t2 t) S1x16.size (k1_off13_inb t2 t)).toLoadRect g (ix2 (0 : Fin 1) l)

theorem graw3_6_eq (g : S256x128.Idx → F .f32) (t2 : Fin k1_t2_loop.trips) (t : Fin k1_t3_loop.trips) (r : Fin 256)
    (hr : r.val = 8 * t2.val + t.val) (l : Fin 16) (c : Fin 128) (hc : c.val = 96 + l.val) :
    graw3_6 g t2 t l = g (ix2 r c) := by
  unfold graw3_6
  rw [read_out]
  have e := k1_off13_eq t2 t
  refine idx2_congr g ?_ ?_
  · show k1_off13 t2 t 0 = r.val
    rw [e]; show 8 * t2.val + t.val = r.val; omega
  · show k1_off13 t2 t 1 + l.val = c.val
    rw [e]; show 96 + l.val = c.val; omega

/-- Lane `l` of lane group 7 of the thirty-two gathered rows, as loaded. -/
def eraw3_7 (fb : S128x128.Idx → F .f32) (t : Fin k1_t3_loop.trips) (l : Fin 16) : Fin 32 → F .f32 := fun p =>
  View.readAt (Elt F) (buf0V).view (Rect.unit (s := S128x128) (k1_off22 t (BitVec.ofNat 32 p.val)) S1x16.size (k1_off22_inb t p)).toLoadRect fb
    (ix2 (0 : Fin 1) l)

theorem eraw3_7_eq (fb : S128x128.Idx → F .f32) (t : Fin k1_t3_loop.trips) (sub : Fin 4) (hs : sub.val = t.val) (l : Fin 16) (c : Fin 128)
    (hc : c.val = 112 + l.val) (p : Fin 32) : eraw3_7 fb t l p = rowE fb sub c p := by
  unfold eraw3_7 rowE
  rw [read_buf0]
  have e := k1_off22_eq t p
  refine idx2_congr fb ?_ ?_
  · show k1_off22 t (BitVec.ofNat 32 p.val) 0 = sub.val * 32 + p.val
    rw [e]; show 32 * t.val + p.val = sub.val * 32 + p.val; omega
  · show k1_off22 t (BitVec.ofNat 32 p.val) 1 + l.val = c.val
    rw [e]; show 112 + l.val = c.val; omega

/-- Lane `l` of lane group 7 of the accumulator's row, as loaded. -/
def graw3_7 (g : S256x128.Idx → F .f32) (t2 : Fin k1_t2_loop.trips) (t : Fin k1_t3_loop.trips) (l : Fin 16) : F .f32 :=
  View.readAt (Elt F) (outV).view (Rect.unit (s := S256x128) (k1_off14 t2 t) S1x16.size (k1_off14_inb t2 t)).toLoadRect g (ix2 (0 : Fin 1) l)

theorem graw3_7_eq (g : S256x128.Idx → F .f32) (t2 : Fin k1_t2_loop.trips) (t : Fin k1_t3_loop.trips) (r : Fin 256)
    (hr : r.val = 8 * t2.val + t.val) (l : Fin 16) (c : Fin 128) (hc : c.val = 112 + l.val) :
    graw3_7 g t2 t l = g (ix2 r c) := by
  unfold graw3_7
  rw [read_out]
  have e := k1_off14_eq t2 t
  refine idx2_congr g ?_ ?_
  · show k1_off14 t2 t 0 = r.val
    rw [e]; show 8 * t2.val + t.val = r.val; omega
  · show k1_off14 t2 t 1 + l.val = c.val
    rw [e]; show 112 + l.val = c.val; omega

/-! ## Loop `k1_t4_loop`: the loaded values as the trip reads them, and what they are -/

/-- The thirty-two weights the trip loads: two loads of sixteen. -/
def wraw4 (fw : S8192.Idx → F .f32) (t2 : Fin k1_t2_loop.trips) (t : Fin k1_t4_loop.trips) : Fin 32 → F .f32 := fun p =>
  if h : p.val < 16 then
    View.readAt (Elt F) (awvV).view (Rect.unit (s := S8192) (k1_off24 t2 t) S16.size (k1_off24_inb t2 t)).toLoadRect fw (ix1 (⟨p.val, h⟩ : Fin 16))
  else
    View.readAt (Elt F) (awvV).view (Rect.unit (s := S8192) (k1_off25 t2 t) S16.size (k1_off25_inb t2 t)).toLoadRect fw
      (ix1 (⟨p.val - 16, by have := p.isLt; omega⟩ : Fin 16))

theorem wraw4_eq (fw : S8192.Idx → F .f32) (t2 : Fin k1_t2_loop.trips) (t : Fin k1_t4_loop.trips) (r : Fin 256)
    (hr : r.val = 8 * t2.val + t.val + 4) (p : Fin 32) : wraw4 fw t2 t p = rowW fw r p := by
  unfold wraw4 rowW
  by_cases h : p.val < 16
  · rw [dif_pos h, read_aw]
    refine congrArg (fun n : Fin 8192 => fw (ix1 n)) (Fin.ext ?_)
    show k1_off24 t2 t 0 + p.val = r.val * 32 + p.val
    rw [k1_off24_eq]
    show 256 * t2.val + 32 * t.val + 128 + p.val = r.val * 32 + p.val
    omega
  · rw [dif_neg h, read_aw]
    refine congrArg (fun n : Fin 8192 => fw (ix1 n)) (Fin.ext ?_)
    show k1_off25 t2 t 0 + (p.val - 16) = r.val * 32 + p.val
    rw [k1_off25_eq]
    show 256 * t2.val + 32 * t.val + 144 + (p.val - 16) = r.val * 32 + p.val
    omega

/-- Lane `l` of lane group 0 of the thirty-two gathered rows, as loaded. -/
def eraw4_0 (fb : S128x128.Idx → F .f32) (t : Fin k1_t4_loop.trips) (l : Fin 16) : Fin 32 → F .f32 := fun p =>
  View.readAt (Elt F) (buf1V).view (Rect.unit (s := S128x128) (k1_off34 t (BitVec.ofNat 32 p.val)) S1x16.size (k1_off34_inb t p)).toLoadRect fb
    (ix2 (0 : Fin 1) l)

theorem eraw4_0_eq (fb : S128x128.Idx → F .f32) (t : Fin k1_t4_loop.trips) (sub : Fin 4) (hs : sub.val = t.val) (l : Fin 16) (c : Fin 128)
    (hc : c.val = 0 + l.val) (p : Fin 32) : eraw4_0 fb t l p = rowE fb sub c p := by
  unfold eraw4_0 rowE
  rw [read_buf1]
  have e := k1_off34_eq t p
  refine idx2_congr fb ?_ ?_
  · show k1_off34 t (BitVec.ofNat 32 p.val) 0 = sub.val * 32 + p.val
    rw [e]; show 32 * t.val + p.val = sub.val * 32 + p.val; omega
  · show k1_off34 t (BitVec.ofNat 32 p.val) 1 + l.val = c.val
    rw [e]; show 0 + l.val = c.val; omega

/-- Lane `l` of lane group 0 of the accumulator's row, as loaded. -/
def graw4_0 (g : S256x128.Idx → F .f32) (t2 : Fin k1_t2_loop.trips) (t : Fin k1_t4_loop.trips) (l : Fin 16) : F .f32 :=
  View.readAt (Elt F) (outV).view (Rect.unit (s := S256x128) (k1_off26 t2 t) S1x16.size (k1_off26_inb t2 t)).toLoadRect g (ix2 (0 : Fin 1) l)

theorem graw4_0_eq (g : S256x128.Idx → F .f32) (t2 : Fin k1_t2_loop.trips) (t : Fin k1_t4_loop.trips) (r : Fin 256)
    (hr : r.val = 8 * t2.val + t.val + 4) (l : Fin 16) (c : Fin 128) (hc : c.val = 0 + l.val) :
    graw4_0 g t2 t l = g (ix2 r c) := by
  unfold graw4_0
  rw [read_out]
  have e := k1_off26_eq t2 t
  refine idx2_congr g ?_ ?_
  · show k1_off26 t2 t 0 = r.val
    rw [e]; show 8 * t2.val + t.val + 4 = r.val; omega
  · show k1_off26 t2 t 1 + l.val = c.val
    rw [e]; show 0 + l.val = c.val; omega

/-- Lane `l` of lane group 1 of the thirty-two gathered rows, as loaded. -/
def eraw4_1 (fb : S128x128.Idx → F .f32) (t : Fin k1_t4_loop.trips) (l : Fin 16) : Fin 32 → F .f32 := fun p =>
  View.readAt (Elt F) (buf1V).view (Rect.unit (s := S128x128) (k1_off35 t (BitVec.ofNat 32 p.val)) S1x16.size (k1_off35_inb t p)).toLoadRect fb
    (ix2 (0 : Fin 1) l)

theorem eraw4_1_eq (fb : S128x128.Idx → F .f32) (t : Fin k1_t4_loop.trips) (sub : Fin 4) (hs : sub.val = t.val) (l : Fin 16) (c : Fin 128)
    (hc : c.val = 16 + l.val) (p : Fin 32) : eraw4_1 fb t l p = rowE fb sub c p := by
  unfold eraw4_1 rowE
  rw [read_buf1]
  have e := k1_off35_eq t p
  refine idx2_congr fb ?_ ?_
  · show k1_off35 t (BitVec.ofNat 32 p.val) 0 = sub.val * 32 + p.val
    rw [e]; show 32 * t.val + p.val = sub.val * 32 + p.val; omega
  · show k1_off35 t (BitVec.ofNat 32 p.val) 1 + l.val = c.val
    rw [e]; show 16 + l.val = c.val; omega

/-- Lane `l` of lane group 1 of the accumulator's row, as loaded. -/
def graw4_1 (g : S256x128.Idx → F .f32) (t2 : Fin k1_t2_loop.trips) (t : Fin k1_t4_loop.trips) (l : Fin 16) : F .f32 :=
  View.readAt (Elt F) (outV).view (Rect.unit (s := S256x128) (k1_off27 t2 t) S1x16.size (k1_off27_inb t2 t)).toLoadRect g (ix2 (0 : Fin 1) l)

theorem graw4_1_eq (g : S256x128.Idx → F .f32) (t2 : Fin k1_t2_loop.trips) (t : Fin k1_t4_loop.trips) (r : Fin 256)
    (hr : r.val = 8 * t2.val + t.val + 4) (l : Fin 16) (c : Fin 128) (hc : c.val = 16 + l.val) :
    graw4_1 g t2 t l = g (ix2 r c) := by
  unfold graw4_1
  rw [read_out]
  have e := k1_off27_eq t2 t
  refine idx2_congr g ?_ ?_
  · show k1_off27 t2 t 0 = r.val
    rw [e]; show 8 * t2.val + t.val + 4 = r.val; omega
  · show k1_off27 t2 t 1 + l.val = c.val
    rw [e]; show 16 + l.val = c.val; omega

/-- Lane `l` of lane group 2 of the thirty-two gathered rows, as loaded. -/
def eraw4_2 (fb : S128x128.Idx → F .f32) (t : Fin k1_t4_loop.trips) (l : Fin 16) : Fin 32 → F .f32 := fun p =>
  View.readAt (Elt F) (buf1V).view (Rect.unit (s := S128x128) (k1_off36 t (BitVec.ofNat 32 p.val)) S1x16.size (k1_off36_inb t p)).toLoadRect fb
    (ix2 (0 : Fin 1) l)

theorem eraw4_2_eq (fb : S128x128.Idx → F .f32) (t : Fin k1_t4_loop.trips) (sub : Fin 4) (hs : sub.val = t.val) (l : Fin 16) (c : Fin 128)
    (hc : c.val = 32 + l.val) (p : Fin 32) : eraw4_2 fb t l p = rowE fb sub c p := by
  unfold eraw4_2 rowE
  rw [read_buf1]
  have e := k1_off36_eq t p
  refine idx2_congr fb ?_ ?_
  · show k1_off36 t (BitVec.ofNat 32 p.val) 0 = sub.val * 32 + p.val
    rw [e]; show 32 * t.val + p.val = sub.val * 32 + p.val; omega
  · show k1_off36 t (BitVec.ofNat 32 p.val) 1 + l.val = c.val
    rw [e]; show 32 + l.val = c.val; omega

/-- Lane `l` of lane group 2 of the accumulator's row, as loaded. -/
def graw4_2 (g : S256x128.Idx → F .f32) (t2 : Fin k1_t2_loop.trips) (t : Fin k1_t4_loop.trips) (l : Fin 16) : F .f32 :=
  View.readAt (Elt F) (outV).view (Rect.unit (s := S256x128) (k1_off28 t2 t) S1x16.size (k1_off28_inb t2 t)).toLoadRect g (ix2 (0 : Fin 1) l)

theorem graw4_2_eq (g : S256x128.Idx → F .f32) (t2 : Fin k1_t2_loop.trips) (t : Fin k1_t4_loop.trips) (r : Fin 256)
    (hr : r.val = 8 * t2.val + t.val + 4) (l : Fin 16) (c : Fin 128) (hc : c.val = 32 + l.val) :
    graw4_2 g t2 t l = g (ix2 r c) := by
  unfold graw4_2
  rw [read_out]
  have e := k1_off28_eq t2 t
  refine idx2_congr g ?_ ?_
  · show k1_off28 t2 t 0 = r.val
    rw [e]; show 8 * t2.val + t.val + 4 = r.val; omega
  · show k1_off28 t2 t 1 + l.val = c.val
    rw [e]; show 32 + l.val = c.val; omega

/-- Lane `l` of lane group 3 of the thirty-two gathered rows, as loaded. -/
def eraw4_3 (fb : S128x128.Idx → F .f32) (t : Fin k1_t4_loop.trips) (l : Fin 16) : Fin 32 → F .f32 := fun p =>
  View.readAt (Elt F) (buf1V).view (Rect.unit (s := S128x128) (k1_off37 t (BitVec.ofNat 32 p.val)) S1x16.size (k1_off37_inb t p)).toLoadRect fb
    (ix2 (0 : Fin 1) l)

theorem eraw4_3_eq (fb : S128x128.Idx → F .f32) (t : Fin k1_t4_loop.trips) (sub : Fin 4) (hs : sub.val = t.val) (l : Fin 16) (c : Fin 128)
    (hc : c.val = 48 + l.val) (p : Fin 32) : eraw4_3 fb t l p = rowE fb sub c p := by
  unfold eraw4_3 rowE
  rw [read_buf1]
  have e := k1_off37_eq t p
  refine idx2_congr fb ?_ ?_
  · show k1_off37 t (BitVec.ofNat 32 p.val) 0 = sub.val * 32 + p.val
    rw [e]; show 32 * t.val + p.val = sub.val * 32 + p.val; omega
  · show k1_off37 t (BitVec.ofNat 32 p.val) 1 + l.val = c.val
    rw [e]; show 48 + l.val = c.val; omega

/-- Lane `l` of lane group 3 of the accumulator's row, as loaded. -/
def graw4_3 (g : S256x128.Idx → F .f32) (t2 : Fin k1_t2_loop.trips) (t : Fin k1_t4_loop.trips) (l : Fin 16) : F .f32 :=
  View.readAt (Elt F) (outV).view (Rect.unit (s := S256x128) (k1_off29 t2 t) S1x16.size (k1_off29_inb t2 t)).toLoadRect g (ix2 (0 : Fin 1) l)

theorem graw4_3_eq (g : S256x128.Idx → F .f32) (t2 : Fin k1_t2_loop.trips) (t : Fin k1_t4_loop.trips) (r : Fin 256)
    (hr : r.val = 8 * t2.val + t.val + 4) (l : Fin 16) (c : Fin 128) (hc : c.val = 48 + l.val) :
    graw4_3 g t2 t l = g (ix2 r c) := by
  unfold graw4_3
  rw [read_out]
  have e := k1_off29_eq t2 t
  refine idx2_congr g ?_ ?_
  · show k1_off29 t2 t 0 = r.val
    rw [e]; show 8 * t2.val + t.val + 4 = r.val; omega
  · show k1_off29 t2 t 1 + l.val = c.val
    rw [e]; show 48 + l.val = c.val; omega

/-- Lane `l` of lane group 4 of the thirty-two gathered rows, as loaded. -/
def eraw4_4 (fb : S128x128.Idx → F .f32) (t : Fin k1_t4_loop.trips) (l : Fin 16) : Fin 32 → F .f32 := fun p =>
  View.readAt (Elt F) (buf1V).view (Rect.unit (s := S128x128) (k1_off38 t (BitVec.ofNat 32 p.val)) S1x16.size (k1_off38_inb t p)).toLoadRect fb
    (ix2 (0 : Fin 1) l)

theorem eraw4_4_eq (fb : S128x128.Idx → F .f32) (t : Fin k1_t4_loop.trips) (sub : Fin 4) (hs : sub.val = t.val) (l : Fin 16) (c : Fin 128)
    (hc : c.val = 64 + l.val) (p : Fin 32) : eraw4_4 fb t l p = rowE fb sub c p := by
  unfold eraw4_4 rowE
  rw [read_buf1]
  have e := k1_off38_eq t p
  refine idx2_congr fb ?_ ?_
  · show k1_off38 t (BitVec.ofNat 32 p.val) 0 = sub.val * 32 + p.val
    rw [e]; show 32 * t.val + p.val = sub.val * 32 + p.val; omega
  · show k1_off38 t (BitVec.ofNat 32 p.val) 1 + l.val = c.val
    rw [e]; show 64 + l.val = c.val; omega

/-- Lane `l` of lane group 4 of the accumulator's row, as loaded. -/
def graw4_4 (g : S256x128.Idx → F .f32) (t2 : Fin k1_t2_loop.trips) (t : Fin k1_t4_loop.trips) (l : Fin 16) : F .f32 :=
  View.readAt (Elt F) (outV).view (Rect.unit (s := S256x128) (k1_off30 t2 t) S1x16.size (k1_off30_inb t2 t)).toLoadRect g (ix2 (0 : Fin 1) l)

theorem graw4_4_eq (g : S256x128.Idx → F .f32) (t2 : Fin k1_t2_loop.trips) (t : Fin k1_t4_loop.trips) (r : Fin 256)
    (hr : r.val = 8 * t2.val + t.val + 4) (l : Fin 16) (c : Fin 128) (hc : c.val = 64 + l.val) :
    graw4_4 g t2 t l = g (ix2 r c) := by
  unfold graw4_4
  rw [read_out]
  have e := k1_off30_eq t2 t
  refine idx2_congr g ?_ ?_
  · show k1_off30 t2 t 0 = r.val
    rw [e]; show 8 * t2.val + t.val + 4 = r.val; omega
  · show k1_off30 t2 t 1 + l.val = c.val
    rw [e]; show 64 + l.val = c.val; omega

/-- Lane `l` of lane group 5 of the thirty-two gathered rows, as loaded. -/
def eraw4_5 (fb : S128x128.Idx → F .f32) (t : Fin k1_t4_loop.trips) (l : Fin 16) : Fin 32 → F .f32 := fun p =>
  View.readAt (Elt F) (buf1V).view (Rect.unit (s := S128x128) (k1_off39 t (BitVec.ofNat 32 p.val)) S1x16.size (k1_off39_inb t p)).toLoadRect fb
    (ix2 (0 : Fin 1) l)

theorem eraw4_5_eq (fb : S128x128.Idx → F .f32) (t : Fin k1_t4_loop.trips) (sub : Fin 4) (hs : sub.val = t.val) (l : Fin 16) (c : Fin 128)
    (hc : c.val = 80 + l.val) (p : Fin 32) : eraw4_5 fb t l p = rowE fb sub c p := by
  unfold eraw4_5 rowE
  rw [read_buf1]
  have e := k1_off39_eq t p
  refine idx2_congr fb ?_ ?_
  · show k1_off39 t (BitVec.ofNat 32 p.val) 0 = sub.val * 32 + p.val
    rw [e]; show 32 * t.val + p.val = sub.val * 32 + p.val; omega
  · show k1_off39 t (BitVec.ofNat 32 p.val) 1 + l.val = c.val
    rw [e]; show 80 + l.val = c.val; omega

/-- Lane `l` of lane group 5 of the accumulator's row, as loaded. -/
def graw4_5 (g : S256x128.Idx → F .f32) (t2 : Fin k1_t2_loop.trips) (t : Fin k1_t4_loop.trips) (l : Fin 16) : F .f32 :=
  View.readAt (Elt F) (outV).view (Rect.unit (s := S256x128) (k1_off31 t2 t) S1x16.size (k1_off31_inb t2 t)).toLoadRect g (ix2 (0 : Fin 1) l)

theorem graw4_5_eq (g : S256x128.Idx → F .f32) (t2 : Fin k1_t2_loop.trips) (t : Fin k1_t4_loop.trips) (r : Fin 256)
    (hr : r.val = 8 * t2.val + t.val + 4) (l : Fin 16) (c : Fin 128) (hc : c.val = 80 + l.val) :
    graw4_5 g t2 t l = g (ix2 r c) := by
  unfold graw4_5
  rw [read_out]
  have e := k1_off31_eq t2 t
  refine idx2_congr g ?_ ?_
  · show k1_off31 t2 t 0 = r.val
    rw [e]; show 8 * t2.val + t.val + 4 = r.val; omega
  · show k1_off31 t2 t 1 + l.val = c.val
    rw [e]; show 80 + l.val = c.val; omega

/-- Lane `l` of lane group 6 of the thirty-two gathered rows, as loaded. -/
def eraw4_6 (fb : S128x128.Idx → F .f32) (t : Fin k1_t4_loop.trips) (l : Fin 16) : Fin 32 → F .f32 := fun p =>
  View.readAt (Elt F) (buf1V).view (Rect.unit (s := S128x128) (k1_off40 t (BitVec.ofNat 32 p.val)) S1x16.size (k1_off40_inb t p)).toLoadRect fb
    (ix2 (0 : Fin 1) l)

theorem eraw4_6_eq (fb : S128x128.Idx → F .f32) (t : Fin k1_t4_loop.trips) (sub : Fin 4) (hs : sub.val = t.val) (l : Fin 16) (c : Fin 128)
    (hc : c.val = 96 + l.val) (p : Fin 32) : eraw4_6 fb t l p = rowE fb sub c p := by
  unfold eraw4_6 rowE
  rw [read_buf1]
  have e := k1_off40_eq t p
  refine idx2_congr fb ?_ ?_
  · show k1_off40 t (BitVec.ofNat 32 p.val) 0 = sub.val * 32 + p.val
    rw [e]; show 32 * t.val + p.val = sub.val * 32 + p.val; omega
  · show k1_off40 t (BitVec.ofNat 32 p.val) 1 + l.val = c.val
    rw [e]; show 96 + l.val = c.val; omega

/-- Lane `l` of lane group 6 of the accumulator's row, as loaded. -/
def graw4_6 (g : S256x128.Idx → F .f32) (t2 : Fin k1_t2_loop.trips) (t : Fin k1_t4_loop.trips) (l : Fin 16) : F .f32 :=
  View.readAt (Elt F) (outV).view (Rect.unit (s := S256x128) (k1_off32 t2 t) S1x16.size (k1_off32_inb t2 t)).toLoadRect g (ix2 (0 : Fin 1) l)

theorem graw4_6_eq (g : S256x128.Idx → F .f32) (t2 : Fin k1_t2_loop.trips) (t : Fin k1_t4_loop.trips) (r : Fin 256)
    (hr : r.val = 8 * t2.val + t.val + 4) (l : Fin 16) (c : Fin 128) (hc : c.val = 96 + l.val) :
    graw4_6 g t2 t l = g (ix2 r c) := by
  unfold graw4_6
  rw [read_out]
  have e := k1_off32_eq t2 t
  refine idx2_congr g ?_ ?_
  · show k1_off32 t2 t 0 = r.val
    rw [e]; show 8 * t2.val + t.val + 4 = r.val; omega
  · show k1_off32 t2 t 1 + l.val = c.val
    rw [e]; show 96 + l.val = c.val; omega

/-- Lane `l` of lane group 7 of the thirty-two gathered rows, as loaded. -/
def eraw4_7 (fb : S128x128.Idx → F .f32) (t : Fin k1_t4_loop.trips) (l : Fin 16) : Fin 32 → F .f32 := fun p =>
  View.readAt (Elt F) (buf1V).view (Rect.unit (s := S128x128) (k1_off41 t (BitVec.ofNat 32 p.val)) S1x16.size (k1_off41_inb t p)).toLoadRect fb
    (ix2 (0 : Fin 1) l)

theorem eraw4_7_eq (fb : S128x128.Idx → F .f32) (t : Fin k1_t4_loop.trips) (sub : Fin 4) (hs : sub.val = t.val) (l : Fin 16) (c : Fin 128)
    (hc : c.val = 112 + l.val) (p : Fin 32) : eraw4_7 fb t l p = rowE fb sub c p := by
  unfold eraw4_7 rowE
  rw [read_buf1]
  have e := k1_off41_eq t p
  refine idx2_congr fb ?_ ?_
  · show k1_off41 t (BitVec.ofNat 32 p.val) 0 = sub.val * 32 + p.val
    rw [e]; show 32 * t.val + p.val = sub.val * 32 + p.val; omega
  · show k1_off41 t (BitVec.ofNat 32 p.val) 1 + l.val = c.val
    rw [e]; show 112 + l.val = c.val; omega

/-- Lane `l` of lane group 7 of the accumulator's row, as loaded. -/
def graw4_7 (g : S256x128.Idx → F .f32) (t2 : Fin k1_t2_loop.trips) (t : Fin k1_t4_loop.trips) (l : Fin 16) : F .f32 :=
  View.readAt (Elt F) (outV).view (Rect.unit (s := S256x128) (k1_off33 t2 t) S1x16.size (k1_off33_inb t2 t)).toLoadRect g (ix2 (0 : Fin 1) l)

theorem graw4_7_eq (g : S256x128.Idx → F .f32) (t2 : Fin k1_t2_loop.trips) (t : Fin k1_t4_loop.trips) (r : Fin 256)
    (hr : r.val = 8 * t2.val + t.val + 4) (l : Fin 16) (c : Fin 128) (hc : c.val = 112 + l.val) :
    graw4_7 g t2 t l = g (ix2 r c) := by
  unfold graw4_7
  rw [read_out]
  have e := k1_off33_eq t2 t
  refine idx2_congr g ?_ ?_
  · show k1_off33 t2 t 0 = r.val
    rw [e]; show 8 * t2.val + t.val + 4 = r.val; omega
  · show k1_off33 t2 t 1 + l.val = c.val
    rw [e]; show 112 + l.val = c.val; omega

end Cert.Proof.KB

end
-- ==== Proof.KBItem3.lean ====
/-
  The first item loop of a chunk pair: each of its four trips loads one item's thirty-two weights and the eight lane
  groups of the item's row of the accumulator, multiplies and adds the thirty-two gathered rows of the first gather
  buffer lane group by lane group, and stores the row back.  One trip is run once at a symbolic trip; what it stores
  is read lane by lane as the left-to-right accumulation; the loop is the four rows of the chunk.
-/
import proofs.«203743_g50225347559739_cont_8to1c4_743_14_alg».proof.Proof.KBCommon
import proofs.«203743_g50225347559739_cont_8to1c4_743_14_alg».proof.Proof.Gen.Kernel.Skeleton
import proofs.«203743_g50225347559739_cont_8to1c4_743_14_alg».proof.Proof.KBTileDefs
import proofs.«203743_g50225347559739_cont_8to1c4_743_14_alg».proof.Proof.KBItemReads

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx

variable (d : Dev nD) (L : grid1.Coords)
variable [FloatOps F]

set_option maxHeartbeats 4000000 in
/-- One trip of the item loop: row `r` of the accumulator becomes its accumulation with the item's thirty-two gathered
    rows, every other entry and the two buffers read are kept. -/
theorem k1_t3_trip (t2 : Fin k1_t2_loop.trips) (v12 : BitVec 32) (t : Fin k1_t3_loop.trips)
    (fw : S8192.Idx → F .f32) (fb : S128x128.Idx → F .f32) (g : S256x128.Idx → F .f32)
    (r : Fin 256) (hr : r.val = 8 * t2.val + t.val) (sub : Fin 4) (hs : sub.val = t.val) :
    iprop(outPts d L g ∗ buf0Pts d L fb ∗ awvPts d L fw)
      ⊢ wp frame (wpE (defs₀ (F := F)) 𝒱₀ (thrV d L) none) Set.univ
          (k1_t3_body L ieV (Memref.isWhole_whole _) awV (Memref.isWhole_whole _) embV (Memref.isWhole_whole _) resV (Memref.isWhole_whole _) idxV (Memref.isWhole_whole _) awvV (Memref.isWhole_whole _) buf0V (Memref.isWhole_whole _) buf1V (Memref.isWhole_whole _) outV (Memref.isWhole_whole _) cc1_scratch5 cc1_scratch6 cc1_scoped0 cc1_scoped1 cc1_scoped2 cc1_scoped3 t2 v12 t ())
          fun _ => iprop(outPts d L (rowStep fw fb g r sub) ∗ buf0Pts d L fb ∗ awvPts d L fw) := by
  unfold k1_t3_body
  iintro ⟨Ho, Hb, Hw⟩
  sl_exec_parts
  sl_step
  isplitl [Ho]
  · iapply (Entails.of_eq (pointsTo_congr fun i hi => ?_)) $$ Ho
    refine read_writes8 g r _ _ _ _ _ _ _ _ _ _ _ _ _ _ _ _ _ _ _ _ _ _ _ _
      (by rw [hr]; exact k1_off14_eq t2 t) (by rw [hr]; exact k1_off13_eq t2 t) (by rw [hr]; exact k1_off12_eq t2 t) (by rw [hr]; exact k1_off11_eq t2 t) (by rw [hr]; exact k1_off10_eq t2 t) (by rw [hr]; exact k1_off9_eq t2 t) (by rw [hr]; exact k1_off8_eq t2 t) (by rw [hr]; exact k1_off7_eq t2 t)
      (fun y => Pure.acc32 (rowW fw r) (rowE fb sub (y 1)) (g y)) ?_ ?_ ?_ ?_ ?_ ?_ ?_ ?_ i
    · intro l
      show _ = Pure.acc32 (rowW fw r) (rowE fb sub (⟨0 + l.val, by have := l.isLt; omega⟩ : Fin 128))
        (g (ix2 r (⟨0 + l.val, by have := l.isLt; omega⟩ : Fin 128)))
      refine ((?_ : _ = _).trans (Pure.acc32_chain (wraw3 fw t2 t) (eraw3_0 fb t l) (graw3_0 g t2 t l))).trans
        (Pure.acc32_congr (wraw3_eq fw t2 t r hr) (eraw3_0_eq fb t sub hs l _ rfl) (graw3_0_eq g t2 t r hr l _ rfl))
      delta Cert.Proof.KB.k1_t3_trip.sl.r Cert.Proof.KB.k1_t3_trip.sl.r_1 Cert.Proof.KB.k1_t3_trip.sl.r_2 Cert.Proof.KB.k1_t3_trip.sl.r_3 Cert.Proof.KB.k1_t3_trip.sl.r_4
        Cert.Proof.KB.k1_t3_trip.sl.r_5 Cert.Proof.KB.k1_t3_trip.sl.r_6 Cert.Proof.KB.k1_t3_trip.sl.r_7 Cert.Proof.KB.k1_t3_trip.sl.r_8 Cert.Proof.KB.k1_t3_trip.sl.r_9
        Cert.Proof.KB.k1_t3_trip.sl.r_10 Cert.Proof.KB.k1_t3_trip.sl.r_11 Cert.Proof.KB.k1_t3_trip.sl.r_12 Cert.Proof.KB.k1_t3_trip.sl.r_13 Cert.Proof.KB.k1_t3_trip.sl.r_14
        Cert.Proof.KB.k1_t3_trip.sl.r_15 Cert.Proof.KB.k1_t3_trip.sl.r_16 Cert.Proof.KB.k1_t3_trip.sl.r_17 Cert.Proof.KB.k1_t3_trip.sl.r_18 Cert.Proof.KB.k1_t3_trip.sl.r_19
        Cert.Proof.KB.k1_t3_trip.sl.r_20 Cert.Proof.KB.k1_t3_trip.sl.r_21 Cert.Proof.KB.k1_t3_trip.sl.r_22 Cert.Proof.KB.k1_t3_trip.sl.r_23 Cert.Proof.KB.k1_t3_trip.sl.r_24
        Cert.Proof.KB.k1_t3_trip.sl.r_25 Cert.Proof.KB.k1_t3_trip.sl.r_26 Cert.Proof.KB.k1_t3_trip.sl.r_27 Cert.Proof.KB.k1_t3_trip.sl.r_28 Cert.Proof.KB.k1_t3_trip.sl.r_29
        Cert.Proof.KB.k1_t3_trip.sl.r_30 Cert.Proof.KB.k1_t3_trip.sl.r_31 Cert.Proof.KB.k1_t3_trip.sl.r_32 Cert.Proof.KB.k1_t3_trip.sl.r_33 Cert.Proof.KB.k1_t3_trip.sl.r_34
        Cert.Proof.KB.k1_t3_trip.sl.r_35 Cert.Proof.KB.k1_t3_trip.sl.r_36 Cert.Proof.KB.k1_t3_trip.sl.r_37 Cert.Proof.KB.k1_t3_trip.sl.r_38 Cert.Proof.KB.k1_t3_trip.sl.r_39
        Cert.Proof.KB.k1_t3_trip.sl.r_40 Cert.Proof.KB.k1_t3_trip.sl.r_41 Cert.Proof.KB.k1_t3_trip.sl.r_42 Cert.Proof.KB.k1_t3_trip.sl.r_43 Cert.Proof.KB.k1_t3_trip.sl.r_44
        Cert.Proof.KB.k1_t3_trip.sl.r_45 Cert.Proof.KB.k1_t3_trip.sl.r_46 Cert.Proof.KB.k1_t3_trip.sl.r_47 Cert.Proof.KB.k1_t3_trip.sl.r_48 Cert.Proof.KB.k1_t3_trip.sl.r_49
        Cert.Proof.KB.k1_t3_trip.sl.r_50 Cert.Proof.KB.k1_t3_trip.sl.r_51 Cert.Proof.KB.k1_t3_trip.sl.r_52 Cert.Proof.KB.k1_t3_trip.sl.r_53 Cert.Proof.KB.k1_t3_trip.sl.r_54
        Cert.Proof.KB.k1_t3_trip.sl.r_55 Cert.Proof.KB.k1_t3_trip.sl.r_56 Cert.Proof.KB.k1_t3_trip.sl.r_57 Cert.Proof.KB.k1_t3_trip.sl.r_58 Cert.Proof.KB.k1_t3_trip.sl.r_59
        Cert.Proof.KB.k1_t3_trip.sl.r_60 Cert.Proof.KB.k1_t3_trip.sl.r_61 Cert.Proof.KB.k1_t3_trip.sl.r_62 Cert.Proof.KB.k1_t3_trip.sl.r_63 Cert.Proof.KB.k1_t3_trip.sl.r_64
        Cert.Proof.KB.k1_t3_trip.sl.r_65 Cert.Proof.KB.k1_t3_trip.sl.r_66 Cert.Proof.KB.k1_t3_trip.sl.r_67 Cert.Proof.KB.k1_t3_trip.sl.r_68 Cert.Proof.KB.k1_t3_trip.sl.r_69
        Cert.Proof.KB.k1_t3_trip.sl.r_70 Cert.Proof.KB.k1_t3_trip.sl.r_71 Cert.Proof.KB.k1_t3_trip.sl.r_72 Cert.Proof.KB.k1_t3_trip.sl.r_73 Cert.Proof.KB.k1_t3_trip.sl.r_74
        Cert.Proof.KB.k1_t3_trip.sl.r_75 Cert.Proof.KB.k1_t3_trip.sl.r_76 Cert.Proof.KB.k1_t3_trip.sl.r_77 Cert.Proof.KB.k1_t3_trip.sl.r_78 Cert.Proof.KB.k1_t3_trip.sl.r_79
        Cert.Proof.KB.k1_t3_trip.sl.r_80 Cert.Proof.KB.k1_t3_trip.sl.r_81 Cert.Proof.KB.k1_t3_trip.sl.r_82 Cert.Proof.KB.k1_t3_trip.sl.r_83 Cert.Proof.KB.k1_t3_trip.sl.r_84
        Cert.Proof.KB.k1_t3_trip.sl.r_85 Cert.Proof.KB.k1_t3_trip.sl.r_86 Cert.Proof.KB.k1_t3_trip.sl.r_87 Cert.Proof.KB.k1_t3_trip.sl.r_88 Cert.Proof.KB.k1_t3_trip.sl.r_89
        Cert.Proof.KB.k1_t3_trip.sl.r_90 Cert.Proof.KB.k1_t3_trip.sl.r_91 Cert.Proof.KB.k1_t3_trip.sl.r_92 Cert.Proof.KB.k1_t3_trip.sl.r_93 Cert.Proof.KB.k1_t3_trip.sl.r_94
        Cert.Proof.KB.k1_t3_trip.sl.r_95 Cert.Proof.KB.k1_t3_trip.sl.r_96 Cert.Proof.KB.k1_t3_trip.sl.r_97 Cert.Proof.KB.k1_t3_trip.sl.r_98 Cert.Proof.KB.k1_t3_trip.sl.r_99
        Cert.Proof.KB.k1_t3_trip.sl.r_100 Cert.Proof.KB.k1_t3_trip.sl.r_101 Cert.Proof.KB.k1_t3_trip.sl.r_102 Cert.Proof.KB.k1_t3_trip.sl.r_103 Cert.Proof.KB.k1_t3_trip.sl.r_104
        Cert.Proof.KB.k1_t3_trip.sl.r_105 Cert.Proof.KB.k1_t3_trip.sl.r_106 Cert.Proof.KB.k1_t3_trip.sl.r_107 Cert.Proof.KB.k1_t3_trip.sl.r_108 Cert.Proof.KB.k1_t3_trip.sl.r_109
        Cert.Proof.KB.k1_t3_trip.sl.r_110 Cert.Proof.KB.k1_t3_trip.sl.r_111 Cert.Proof.KB.k1_t3_trip.sl.r_112 Cert.Proof.KB.k1_t3_trip.sl.r_113 Cert.Proof.KB.k1_t3_trip.sl.r_114
        Cert.Proof.KB.k1_t3_trip.sl.r_115 Cert.Proof.KB.k1_t3_trip.sl.r_116 Cert.Proof.KB.k1_t3_trip.sl.r_117 Cert.Proof.KB.k1_t3_trip.sl.r_118 Cert.Proof.KB.k1_t3_trip.sl.r_119
        Cert.Proof.KB.k1_t3_trip.sl.r_120 Cert.Proof.KB.k1_t3_trip.sl.r_121 Cert.Proof.KB.k1_t3_trip.sl.r_122 Cert.Proof.KB.k1_t3_trip.sl.r_123 Cert.Proof.KB.k1_t3_trip.sl.r_124
        Cert.Proof.KB.k1_t3_trip.sl.r_125 Cert.Proof.KB.k1_t3_trip.sl.r_126 Cert.Proof.KB.k1_t3_trip.sl.r_127 Cert.Proof.KB.k1_t3_trip.sl.r_128 Cert.Proof.KB.k1_t3_trip.sl.r_129
        Cert.Proof.KB.k1_t3_trip.sl.r_130 Cert.Proof.KB.k1_t3_trip.sl.r_131 Cert.Proof.KB.k1_t3_trip.sl.r_132 Cert.Proof.KB.k1_t3_trip.sl.r_133 Cert.Proof.KB.k1_t3_trip.sl.r_134
        Cert.Proof.KB.k1_t3_trip.sl.r_135 Cert.Proof.KB.k1_t3_trip.sl.r_136 Cert.Proof.KB.k1_t3_trip.sl.r_137 Cert.Proof.KB.k1_t3_trip.sl.r_138 Cert.Proof.KB.k1_t3_trip.sl.r_139
        Cert.Proof.KB.k1_t3_trip.sl.r_140 Cert.Proof.KB.k1_t3_trip.sl.r_141 Cert.Proof.KB.k1_t3_trip.sl.r_142 Cert.Proof.KB.k1_t3_trip.sl.r_143 Cert.Proof.KB.k1_t3_trip.sl.r_144
        Cert.Proof.KB.k1_t3_trip.sl.r_145 Cert.Proof.KB.k1_t3_trip.sl.r_146 Cert.Proof.KB.k1_t3_trip.sl.r_147 Cert.Proof.KB.k1_t3_trip.sl.r_148 Cert.Proof.KB.k1_t3_trip.sl.r_149
        Cert.Proof.KB.k1_t3_trip.sl.r_150 Cert.Proof.KB.k1_t3_trip.sl.r_151 Cert.Proof.KB.k1_t3_trip.sl.r_152 Cert.Proof.KB.k1_t3_trip.sl.r_153 Cert.Proof.KB.k1_t3_trip.sl.r_154
        Cert.Proof.KB.k1_t3_trip.sl.r_155 Cert.Proof.KB.k1_t3_trip.sl.r_156 Cert.Proof.KB.k1_t3_trip.sl.r_157 Cert.Proof.KB.k1_t3_trip.sl.r_158 Cert.Proof.KB.k1_t3_trip.sl.r_159
        Cert.Proof.KB.k1_t3_trip.sl.r_160 Cert.Proof.KB.k1_t3_trip.sl.r_161 Cert.Proof.KB.k1_t3_trip.sl.r_162 Cert.Proof.KB.k1_t3_trip.sl.r_163 Cert.Proof.KB.k1_t3_trip.sl.r_164
        Cert.Proof.KB.k1_t3_trip.sl.r_165 Cert.Proof.KB.k1_t3_trip.sl.r_166 Cert.Proof.KB.k1_t3_trip.sl.r_167 Cert.Proof.KB.k1_t3_trip.sl.r_168 Cert.Proof.KB.k1_t3_trip.sl.r_169
        Cert.Proof.KB.k1_t3_trip.sl.r_170 Cert.Proof.KB.k1_t3_trip.sl.r_171 Cert.Proof.KB.k1_t3_trip.sl.r_172 Cert.Proof.KB.k1_t3_trip.sl.r_173 Cert.Proof.KB.k1_t3_trip.sl.r_174
        Cert.Proof.KB.k1_t3_trip.sl.r_175 Cert.Proof.KB.k1_t3_trip.sl.r_176 Cert.Proof.KB.k1_t3_trip.sl.r_177 Cert.Proof.KB.k1_t3_trip.sl.r_178 Cert.Proof.KB.k1_t3_trip.sl.r_179
        Cert.Proof.KB.k1_t3_trip.sl.r_180 Cert.Proof.KB.k1_t3_trip.sl.r_181 Cert.Proof.KB.k1_t3_trip.sl.r_182 Cert.Proof.KB.k1_t3_trip.sl.r_183 Cert.Proof.KB.k1_t3_trip.sl.r_184
        Cert.Proof.KB.k1_t3_trip.sl.r_185 Cert.Proof.KB.k1_t3_trip.sl.r_186 Cert.Proof.KB.k1_t3_trip.sl.r_187 Cert.Proof.KB.k1_t3_trip.sl.r_188 Cert.Proof.KB.k1_t3_trip.sl.r_189
        Cert.Proof.KB.k1_t3_trip.sl.r_190 Cert.Proof.KB.k1_t3_trip.sl.r_191 Cert.Proof.KB.k1_t3_trip.sl.r_192 Cert.Proof.KB.k1_t3_trip.sl.r_193 Cert.Proof.KB.k1_t3_trip.sl.r_194
        Cert.Proof.KB.k1_t3_trip.sl.r_195 Cert.Proof.KB.k1_t3_trip.sl.r_196 Cert.Proof.KB.k1_t3_trip.sl.r_197 Cert.Proof.KB.k1_t3_trip.sl.r_198 Cert.Proof.KB.k1_t3_trip.sl.r_199
        Cert.Proof.KB.k1_t3_trip.sl.r_200 Cert.Proof.KB.k1_t3_trip.sl.r_201 Cert.Proof.KB.k1_t3_trip.sl.r_202 Cert.Proof.KB.k1_t3_trip.sl.r_203 Cert.Proof.KB.k1_t3_trip.sl.r_204
        Cert.Proof.KB.k1_t3_trip.sl.r_205 Cert.Proof.KB.k1_t3_trip.sl.r_206 Cert.Proof.KB.k1_t3_trip.sl.r_207 Cert.Proof.KB.k1_t3_trip.sl.r_208 Cert.Proof.KB.k1_t3_trip.sl.r_209
        Cert.Proof.KB.k1_t3_trip.sl.r_210 Cert.Proof.KB.k1_t3_trip.sl.r_211 Cert.Proof.KB.k1_t3_trip.sl.r_212 Cert.Proof.KB.k1_t3_trip.sl.r_213 Cert.Proof.KB.k1_t3_trip.sl.r_214
        Cert.Proof.KB.k1_t3_trip.sl.r_215 Cert.Proof.KB.k1_t3_trip.sl.r_216 Cert.Proof.KB.k1_t3_trip.sl.r_217 Cert.Proof.KB.k1_t3_trip.sl.r_218 Cert.Proof.KB.k1_t3_trip.sl.r_219
        Cert.Proof.KB.k1_t3_trip.sl.r_220 Cert.Proof.KB.k1_t3_trip.sl.r_221 Cert.Proof.KB.k1_t3_trip.sl.r_222 Cert.Proof.KB.k1_t3_trip.sl.r_223 Cert.Proof.KB.k1_t3_trip.sl.r_224
        Cert.Proof.KB.k1_t3_trip.sl.r_225 Cert.Proof.KB.k1_t3_trip.sl.r_226 Cert.Proof.KB.k1_t3_trip.sl.r_227 Cert.Proof.KB.k1_t3_trip.sl.r_228 Cert.Proof.KB.k1_t3_trip.sl.r_229
        Cert.Proof.KB.k1_t3_trip.sl.r_230 Cert.Proof.KB.k1_t3_trip.sl.r_231 Cert.Proof.KB.k1_t3_trip.sl.r_232 Cert.Proof.KB.k1_t3_trip.sl.r_233 Cert.Proof.KB.k1_t3_trip.sl.r_234
        Cert.Proof.KB.k1_t3_trip.sl.r_235 Cert.Proof.KB.k1_t3_trip.sl.r_236 Cert.Proof.KB.k1_t3_trip.sl.r_237 Cert.Proof.KB.k1_t3_trip.sl.r_238 Cert.Proof.KB.k1_t3_trip.sl.r_239
        Cert.Proof.KB.k1_t3_trip.sl.r_240 Cert.Proof.KB.k1_t3_trip.sl.r_241 Cert.Proof.KB.k1_t3_trip.sl.r_242 Cert.Proof.KB.k1_t3_trip.sl.r_243 Cert.Proof.KB.k1_t3_trip.sl.r_244
        Cert.Proof.KB.k1_t3_trip.sl.r_245 Cert.Proof.KB.k1_t3_trip.sl.r_246 Cert.Proof.KB.k1_t3_trip.sl.r_247 Cert.Proof.KB.k1_t3_trip.sl.r_248 Cert.Proof.KB.k1_t3_trip.sl.r_249
        Cert.Proof.KB.k1_t3_trip.sl.r_250 Cert.Proof.KB.k1_t3_trip.sl.r_251 Cert.Proof.KB.k1_t3_trip.sl.r_252 Cert.Proof.KB.k1_t3_trip.sl.r_253 Cert.Proof.KB.k1_t3_trip.sl.r_254
        Cert.Proof.KB.k1_t3_trip.sl.r_255 Cert.Proof.KB.k1_t3_trip.sl.r_256 Cert.Proof.KB.k1_t3_trip.sl.r_257 Cert.Proof.KB.k1_t3_trip.sl.r_258 Cert.Proof.KB.k1_t3_trip.sl.r_259
        Cert.Proof.KB.k1_t3_trip.sl.r_260 Cert.Proof.KB.k1_t3_trip.sl.r_261 Cert.Proof.KB.k1_t3_trip.sl.r_262 Cert.Proof.KB.k1_t3_trip.sl.r_263 Cert.Proof.KB.k1_t3_trip.sl.r_264
        Cert.Proof.KB.k1_t3_trip.sl.r_265 Cert.Proof.KB.k1_t3_trip.sl.r_266 Cert.Proof.KB.k1_t3_trip.sl.r_267 Cert.Proof.KB.k1_t3_trip.sl.r_268 Cert.Proof.KB.k1_t3_trip.sl.r_269
        Cert.Proof.KB.k1_t3_trip.sl.r_270 Cert.Proof.KB.k1_t3_trip.sl.r_271 Cert.Proof.KB.k1_t3_trip.sl.r_272 Cert.Proof.KB.k1_t3_trip.sl.r_273 Cert.Proof.KB.k1_t3_trip.sl.r_274
        Cert.Proof.KB.k1_t3_trip.sl.r_275 Cert.Proof.KB.k1_t3_trip.sl.r_276 Cert.Proof.KB.k1_t3_trip.sl.r_277 Cert.Proof.KB.k1_t3_trip.sl.r_278 Cert.Proof.KB.k1_t3_trip.sl.r_279
        Cert.Proof.KB.k1_t3_trip.sl.r_280 Cert.Proof.KB.k1_t3_trip.sl.r_281 Cert.Proof.KB.k1_t3_trip.sl.r_282 Cert.Proof.KB.k1_t3_trip.sl.r_283 Cert.Proof.KB.k1_t3_trip.sl.r_284
        Cert.Proof.KB.k1_t3_trip.sl.r_285 Cert.Proof.KB.k1_t3_trip.sl.r_286 Cert.Proof.KB.k1_t3_trip.sl.r_287 Cert.Proof.KB.k1_t3_trip.sl.r_288 Cert.Proof.KB.k1_t3_trip.sl.r_289
        Cert.Proof.KB.k1_t3_trip.sl.r_290 Cert.Proof.KB.k1_t3_trip.sl.r_291 Cert.Proof.KB.k1_t3_trip.sl.r_292 Cert.Proof.KB.k1_t3_trip.sl.r_293 Cert.Proof.KB.k1_t3_trip.sl.r_294
        Cert.Proof.KB.k1_t3_trip.sl.r_295 Cert.Proof.KB.k1_t3_trip.sl.r_296 Cert.Proof.KB.k1_t3_trip.sl.r_297 Cert.Proof.KB.k1_t3_trip.sl.r_298 Cert.Proof.KB.k1_t3_trip.sl.r_299
        Cert.Proof.KB.k1_t3_trip.sl.r_300 Cert.Proof.KB.k1_t3_trip.sl.r_301 Cert.Proof.KB.k1_t3_trip.sl.r_302 Cert.Proof.KB.k1_t3_trip.sl.r_303 Cert.Proof.KB.k1_t3_trip.sl.r_304
        Cert.Proof.KB.k1_t3_trip.sl.r_305 Cert.Proof.KB.k1_t3_trip.sl.r_306 Cert.Proof.KB.k1_t3_trip.sl.r_307 Cert.Proof.KB.k1_t3_trip.sl.r_308 Cert.Proof.KB.k1_t3_trip.sl.r_309
        Cert.Proof.KB.k1_t3_trip.sl.r_310 Cert.Proof.KB.k1_t3_trip.sl.r_311 Cert.Proof.KB.k1_t3_trip.sl.r_312 Cert.Proof.KB.k1_t3_trip.sl.r_313 Cert.Proof.KB.k1_t3_trip.sl.r_314
        Cert.Proof.KB.k1_t3_trip.sl.r_315 Cert.Proof.KB.k1_t3_trip.sl.r_316 Cert.Proof.KB.k1_t3_trip.sl.r_317 Cert.Proof.KB.k1_t3_trip.sl.r_318
      conv_lhs => simp only [k1_pay1, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20,
        k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38,
        k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56,
        k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74,
        k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92,
        k1_pay93, k1_pay94, k1_pay95, k1_pay96, k1_pay97, k1_pay98, k1_pay99, k1_pay100, k1_pay101, k1_pay102, k1_pay103, k1_pay104, k1_pay105, k1_pay106, k1_pay107, k1_pay108, k1_pay109,
        k1_pay110, k1_pay111, k1_pay112, k1_pay113, k1_pay114, k1_pay115, k1_pay116, k1_pay117, k1_pay118, k1_pay119, k1_pay120, k1_pay121, k1_pay122, k1_pay123, k1_pay124, k1_pay125,
        k1_pay126, k1_pay127, k1_pay128, k1_pay129, k1_pay130, k1_pay131, k1_pay132, k1_pay133, k1_pay134, k1_pay135, k1_pay136, k1_pay137, k1_pay138, k1_pay139, k1_pay140, k1_pay141,
        k1_pay142, k1_pay143, k1_pay144, k1_pay145, k1_pay146, k1_pay147, k1_pay148, k1_pay149, k1_pay150, k1_pay151, k1_pay152, k1_pay153, k1_pay154, k1_pay155, k1_pay156, k1_pay157,
        k1_pay158, k1_pay159, k1_pay160, k1_pay161, k1_pay162, k1_pay163, k1_pay164, k1_pay165, k1_pay166, k1_pay167, k1_pay168, k1_pay169, k1_pay170, k1_pay171, k1_pay172, k1_pay173,
        k1_pay174, k1_pay175, k1_pay176, k1_pay177, k1_pay178, k1_pay179, k1_pay180, k1_pay181, k1_pay182, k1_pay183, k1_pay184, k1_pay185, k1_pay186, k1_pay187, k1_pay188, k1_pay189,
        k1_pay190, k1_pay191, k1_pay192, k1_pay193, k1_pay194, k1_pay195, k1_pay196, k1_pay197, k1_pay198, k1_pay199, k1_pay200, k1_pay201, k1_pay202, k1_pay203, k1_pay204, k1_pay205,
        k1_pay206, k1_pay207, k1_pay208, k1_pay209, k1_pay210, k1_pay211, k1_pay212, k1_pay213, k1_pay214, k1_pay215, k1_pay216, k1_pay217, k1_pay218, k1_pay219, k1_pay220, k1_pay221,
        k1_pay222, k1_pay223, k1_pay224, k1_pay225, k1_pay226, k1_pay227, k1_pay228, k1_pay229, k1_pay230, k1_pay231, k1_pay232, k1_pay233, k1_pay234, k1_pay235, k1_pay236, k1_pay237,
        k1_pay238, k1_pay239, k1_pay240, k1_pay241, k1_pay242, k1_pay243, k1_pay244, k1_pay245, k1_pay246, k1_pay247, k1_pay248, k1_pay249, k1_pay250, k1_pay251, k1_pay252, k1_pay253,
        k1_pay254, k1_pay255, k1_pay256, k1_pay257, k1_pay258, k1_pay259, k1_pay260, k1_pay261, k1_pay262, k1_pay263, k1_pay264, k1_pay265, k1_pay266, k1_pay267, k1_pay268, k1_pay269,
        k1_pay270, k1_pay271, k1_pay272, k1_pay273, k1_pay274, k1_pay275, k1_pay276, k1_pay277, k1_pay278, k1_pay279, k1_pay280, k1_pay281, k1_pay282, k1_pay283, k1_pay284, k1_pay285,
        k1_pay286, k1_pay287, k1_pay288, k1_pay289, k1_pay290, k1_pay291, k1_pay292, k1_pay293, k1_pay294, k1_pay295, k1_pay296, k1_pay297, k1_pay298, k1_pay299, k1_pay300, k1_pay301,
        k1_pay302, k1_pay303, k1_pay304, k1_pay305, k1_pay306, k1_pay307, k1_pay308, k1_pay309, k1_pay310, k1_pay311, k1_pay312, k1_pay313, k1_pay314, k1_pay315, k1_pay316, k1_pay317,
        k1_pay318, k1_pay319, k1_pay320, k1_pay321, k1_pay322, k1_pay323, Pure.addf_at, Pure.mulf_at, Pure.broadcast_at, Pure.lane_at, Pure.cast16_16, Pure.cast1x16_16, Pure.cast16_1x16]
      rfl
    · intro l
      show _ = Pure.acc32 (rowW fw r) (rowE fb sub (⟨16 + l.val, by have := l.isLt; omega⟩ : Fin 128))
        (g (ix2 r (⟨16 + l.val, by have := l.isLt; omega⟩ : Fin 128)))
      refine ((?_ : _ = _).trans (Pure.acc32_chain (wraw3 fw t2 t) (eraw3_1 fb t l) (graw3_1 g t2 t l))).trans
        (Pure.acc32_congr (wraw3_eq fw t2 t r hr) (eraw3_1_eq fb t sub hs l _ rfl) (graw3_1_eq g t2 t r hr l _ rfl))
      delta Cert.Proof.KB.k1_t3_trip.sl.r Cert.Proof.KB.k1_t3_trip.sl.r_1 Cert.Proof.KB.k1_t3_trip.sl.r_2 Cert.Proof.KB.k1_t3_trip.sl.r_3 Cert.Proof.KB.k1_t3_trip.sl.r_4
        Cert.Proof.KB.k1_t3_trip.sl.r_5 Cert.Proof.KB.k1_t3_trip.sl.r_6 Cert.Proof.KB.k1_t3_trip.sl.r_7 Cert.Proof.KB.k1_t3_trip.sl.r_8 Cert.Proof.KB.k1_t3_trip.sl.r_9
        Cert.Proof.KB.k1_t3_trip.sl.r_10 Cert.Proof.KB.k1_t3_trip.sl.r_11 Cert.Proof.KB.k1_t3_trip.sl.r_12 Cert.Proof.KB.k1_t3_trip.sl.r_13 Cert.Proof.KB.k1_t3_trip.sl.r_14
        Cert.Proof.KB.k1_t3_trip.sl.r_15 Cert.Proof.KB.k1_t3_trip.sl.r_16 Cert.Proof.KB.k1_t3_trip.sl.r_17 Cert.Proof.KB.k1_t3_trip.sl.r_18 Cert.Proof.KB.k1_t3_trip.sl.r_19
        Cert.Proof.KB.k1_t3_trip.sl.r_20 Cert.Proof.KB.k1_t3_trip.sl.r_21 Cert.Proof.KB.k1_t3_trip.sl.r_22 Cert.Proof.KB.k1_t3_trip.sl.r_23 Cert.Proof.KB.k1_t3_trip.sl.r_24
        Cert.Proof.KB.k1_t3_trip.sl.r_25 Cert.Proof.KB.k1_t3_trip.sl.r_26 Cert.Proof.KB.k1_t3_trip.sl.r_27 Cert.Proof.KB.k1_t3_trip.sl.r_28 Cert.Proof.KB.k1_t3_trip.sl.r_29
        Cert.Proof.KB.k1_t3_trip.sl.r_30 Cert.Proof.KB.k1_t3_trip.sl.r_31 Cert.Proof.KB.k1_t3_trip.sl.r_32 Cert.Proof.KB.k1_t3_trip.sl.r_33 Cert.Proof.KB.k1_t3_trip.sl.r_34
        Cert.Proof.KB.k1_t3_trip.sl.r_35 Cert.Proof.KB.k1_t3_trip.sl.r_36 Cert.Proof.KB.k1_t3_trip.sl.r_37 Cert.Proof.KB.k1_t3_trip.sl.r_38 Cert.Proof.KB.k1_t3_trip.sl.r_39
        Cert.Proof.KB.k1_t3_trip.sl.r_40 Cert.Proof.KB.k1_t3_trip.sl.r_41 Cert.Proof.KB.k1_t3_trip.sl.r_42 Cert.Proof.KB.k1_t3_trip.sl.r_43 Cert.Proof.KB.k1_t3_trip.sl.r_44
        Cert.Proof.KB.k1_t3_trip.sl.r_45 Cert.Proof.KB.k1_t3_trip.sl.r_46 Cert.Proof.KB.k1_t3_trip.sl.r_47 Cert.Proof.KB.k1_t3_trip.sl.r_48 Cert.Proof.KB.k1_t3_trip.sl.r_49
        Cert.Proof.KB.k1_t3_trip.sl.r_50 Cert.Proof.KB.k1_t3_trip.sl.r_51 Cert.Proof.KB.k1_t3_trip.sl.r_52 Cert.Proof.KB.k1_t3_trip.sl.r_53 Cert.Proof.KB.k1_t3_trip.sl.r_54
        Cert.Proof.KB.k1_t3_trip.sl.r_55 Cert.Proof.KB.k1_t3_trip.sl.r_56 Cert.Proof.KB.k1_t3_trip.sl.r_57 Cert.Proof.KB.k1_t3_trip.sl.r_58 Cert.Proof.KB.k1_t3_trip.sl.r_59
        Cert.Proof.KB.k1_t3_trip.sl.r_60 Cert.Proof.KB.k1_t3_trip.sl.r_61 Cert.Proof.KB.k1_t3_trip.sl.r_62 Cert.Proof.KB.k1_t3_trip.sl.r_63 Cert.Proof.KB.k1_t3_trip.sl.r_64
        Cert.Proof.KB.k1_t3_trip.sl.r_65 Cert.Proof.KB.k1_t3_trip.sl.r_66 Cert.Proof.KB.k1_t3_trip.sl.r_67 Cert.Proof.KB.k1_t3_trip.sl.r_68 Cert.Proof.KB.k1_t3_trip.sl.r_69
        Cert.Proof.KB.k1_t3_trip.sl.r_70 Cert.Proof.KB.k1_t3_trip.sl.r_71 Cert.Proof.KB.k1_t3_trip.sl.r_72 Cert.Proof.KB.k1_t3_trip.sl.r_73 Cert.Proof.KB.k1_t3_trip.sl.r_74
        Cert.Proof.KB.k1_t3_trip.sl.r_75 Cert.Proof.KB.k1_t3_trip.sl.r_76 Cert.Proof.KB.k1_t3_trip.sl.r_77 Cert.Proof.KB.k1_t3_trip.sl.r_78 Cert.Proof.KB.k1_t3_trip.sl.r_79
        Cert.Proof.KB.k1_t3_trip.sl.r_80 Cert.Proof.KB.k1_t3_trip.sl.r_81 Cert.Proof.KB.k1_t3_trip.sl.r_82 Cert.Proof.KB.k1_t3_trip.sl.r_83 Cert.Proof.KB.k1_t3_trip.sl.r_84
        Cert.Proof.KB.k1_t3_trip.sl.r_85 Cert.Proof.KB.k1_t3_trip.sl.r_86 Cert.Proof.KB.k1_t3_trip.sl.r_87 Cert.Proof.KB.k1_t3_trip.sl.r_88 Cert.Proof.KB.k1_t3_trip.sl.r_89
        Cert.Proof.KB.k1_t3_trip.sl.r_90 Cert.Proof.KB.k1_t3_trip.sl.r_91 Cert.Proof.KB.k1_t3_trip.sl.r_92 Cert.Proof.KB.k1_t3_trip.sl.r_93 Cert.Proof.KB.k1_t3_trip.sl.r_94
        Cert.Proof.KB.k1_t3_trip.sl.r_95 Cert.Proof.KB.k1_t3_trip.sl.r_96 Cert.Proof.KB.k1_t3_trip.sl.r_97 Cert.Proof.KB.k1_t3_trip.sl.r_98 Cert.Proof.KB.k1_t3_trip.sl.r_99
        Cert.Proof.KB.k1_t3_trip.sl.r_100 Cert.Proof.KB.k1_t3_trip.sl.r_101 Cert.Proof.KB.k1_t3_trip.sl.r_102 Cert.Proof.KB.k1_t3_trip.sl.r_103 Cert.Proof.KB.k1_t3_trip.sl.r_104
        Cert.Proof.KB.k1_t3_trip.sl.r_105 Cert.Proof.KB.k1_t3_trip.sl.r_106 Cert.Proof.KB.k1_t3_trip.sl.r_107 Cert.Proof.KB.k1_t3_trip.sl.r_108 Cert.Proof.KB.k1_t3_trip.sl.r_109
        Cert.Proof.KB.k1_t3_trip.sl.r_110 Cert.Proof.KB.k1_t3_trip.sl.r_111 Cert.Proof.KB.k1_t3_trip.sl.r_112 Cert.Proof.KB.k1_t3_trip.sl.r_113 Cert.Proof.KB.k1_t3_trip.sl.r_114
        Cert.Proof.KB.k1_t3_trip.sl.r_115 Cert.Proof.KB.k1_t3_trip.sl.r_116 Cert.Proof.KB.k1_t3_trip.sl.r_117 Cert.Proof.KB.k1_t3_trip.sl.r_118 Cert.Proof.KB.k1_t3_trip.sl.r_119
        Cert.Proof.KB.k1_t3_trip.sl.r_120 Cert.Proof.KB.k1_t3_trip.sl.r_121 Cert.Proof.KB.k1_t3_trip.sl.r_122 Cert.Proof.KB.k1_t3_trip.sl.r_123 Cert.Proof.KB.k1_t3_trip.sl.r_124
        Cert.Proof.KB.k1_t3_trip.sl.r_125 Cert.Proof.KB.k1_t3_trip.sl.r_126 Cert.Proof.KB.k1_t3_trip.sl.r_127 Cert.Proof.KB.k1_t3_trip.sl.r_128 Cert.Proof.KB.k1_t3_trip.sl.r_129
        Cert.Proof.KB.k1_t3_trip.sl.r_130 Cert.Proof.KB.k1_t3_trip.sl.r_131 Cert.Proof.KB.k1_t3_trip.sl.r_132 Cert.Proof.KB.k1_t3_trip.sl.r_133 Cert.Proof.KB.k1_t3_trip.sl.r_134
        Cert.Proof.KB.k1_t3_trip.sl.r_135 Cert.Proof.KB.k1_t3_trip.sl.r_136 Cert.Proof.KB.k1_t3_trip.sl.r_137 Cert.Proof.KB.k1_t3_trip.sl.r_138 Cert.Proof.KB.k1_t3_trip.sl.r_139
        Cert.Proof.KB.k1_t3_trip.sl.r_140 Cert.Proof.KB.k1_t3_trip.sl.r_141 Cert.Proof.KB.k1_t3_trip.sl.r_142 Cert.Proof.KB.k1_t3_trip.sl.r_143 Cert.Proof.KB.k1_t3_trip.sl.r_144
        Cert.Proof.KB.k1_t3_trip.sl.r_145 Cert.Proof.KB.k1_t3_trip.sl.r_146 Cert.Proof.KB.k1_t3_trip.sl.r_147 Cert.Proof.KB.k1_t3_trip.sl.r_148 Cert.Proof.KB.k1_t3_trip.sl.r_149
        Cert.Proof.KB.k1_t3_trip.sl.r_150 Cert.Proof.KB.k1_t3_trip.sl.r_151 Cert.Proof.KB.k1_t3_trip.sl.r_152 Cert.Proof.KB.k1_t3_trip.sl.r_153 Cert.Proof.KB.k1_t3_trip.sl.r_154
        Cert.Proof.KB.k1_t3_trip.sl.r_155 Cert.Proof.KB.k1_t3_trip.sl.r_156 Cert.Proof.KB.k1_t3_trip.sl.r_157 Cert.Proof.KB.k1_t3_trip.sl.r_158 Cert.Proof.KB.k1_t3_trip.sl.r_159
        Cert.Proof.KB.k1_t3_trip.sl.r_160 Cert.Proof.KB.k1_t3_trip.sl.r_161 Cert.Proof.KB.k1_t3_trip.sl.r_162 Cert.Proof.KB.k1_t3_trip.sl.r_163 Cert.Proof.KB.k1_t3_trip.sl.r_164
        Cert.Proof.KB.k1_t3_trip.sl.r_165 Cert.Proof.KB.k1_t3_trip.sl.r_166 Cert.Proof.KB.k1_t3_trip.sl.r_167 Cert.Proof.KB.k1_t3_trip.sl.r_168 Cert.Proof.KB.k1_t3_trip.sl.r_169
        Cert.Proof.KB.k1_t3_trip.sl.r_170 Cert.Proof.KB.k1_t3_trip.sl.r_171 Cert.Proof.KB.k1_t3_trip.sl.r_172 Cert.Proof.KB.k1_t3_trip.sl.r_173 Cert.Proof.KB.k1_t3_trip.sl.r_174
        Cert.Proof.KB.k1_t3_trip.sl.r_175 Cert.Proof.KB.k1_t3_trip.sl.r_176 Cert.Proof.KB.k1_t3_trip.sl.r_177 Cert.Proof.KB.k1_t3_trip.sl.r_178 Cert.Proof.KB.k1_t3_trip.sl.r_179
        Cert.Proof.KB.k1_t3_trip.sl.r_180 Cert.Proof.KB.k1_t3_trip.sl.r_181 Cert.Proof.KB.k1_t3_trip.sl.r_182 Cert.Proof.KB.k1_t3_trip.sl.r_183 Cert.Proof.KB.k1_t3_trip.sl.r_184
        Cert.Proof.KB.k1_t3_trip.sl.r_185 Cert.Proof.KB.k1_t3_trip.sl.r_186 Cert.Proof.KB.k1_t3_trip.sl.r_187 Cert.Proof.KB.k1_t3_trip.sl.r_188 Cert.Proof.KB.k1_t3_trip.sl.r_189
        Cert.Proof.KB.k1_t3_trip.sl.r_190 Cert.Proof.KB.k1_t3_trip.sl.r_191 Cert.Proof.KB.k1_t3_trip.sl.r_192 Cert.Proof.KB.k1_t3_trip.sl.r_193 Cert.Proof.KB.k1_t3_trip.sl.r_194
        Cert.Proof.KB.k1_t3_trip.sl.r_195 Cert.Proof.KB.k1_t3_trip.sl.r_196 Cert.Proof.KB.k1_t3_trip.sl.r_197 Cert.Proof.KB.k1_t3_trip.sl.r_198 Cert.Proof.KB.k1_t3_trip.sl.r_199
        Cert.Proof.KB.k1_t3_trip.sl.r_200 Cert.Proof.KB.k1_t3_trip.sl.r_201 Cert.Proof.KB.k1_t3_trip.sl.r_202 Cert.Proof.KB.k1_t3_trip.sl.r_203 Cert.Proof.KB.k1_t3_trip.sl.r_204
        Cert.Proof.KB.k1_t3_trip.sl.r_205 Cert.Proof.KB.k1_t3_trip.sl.r_206 Cert.Proof.KB.k1_t3_trip.sl.r_207 Cert.Proof.KB.k1_t3_trip.sl.r_208 Cert.Proof.KB.k1_t3_trip.sl.r_209
        Cert.Proof.KB.k1_t3_trip.sl.r_210 Cert.Proof.KB.k1_t3_trip.sl.r_211 Cert.Proof.KB.k1_t3_trip.sl.r_212 Cert.Proof.KB.k1_t3_trip.sl.r_213 Cert.Proof.KB.k1_t3_trip.sl.r_214
        Cert.Proof.KB.k1_t3_trip.sl.r_215 Cert.Proof.KB.k1_t3_trip.sl.r_216 Cert.Proof.KB.k1_t3_trip.sl.r_217 Cert.Proof.KB.k1_t3_trip.sl.r_218 Cert.Proof.KB.k1_t3_trip.sl.r_219
        Cert.Proof.KB.k1_t3_trip.sl.r_220 Cert.Proof.KB.k1_t3_trip.sl.r_221 Cert.Proof.KB.k1_t3_trip.sl.r_222 Cert.Proof.KB.k1_t3_trip.sl.r_223 Cert.Proof.KB.k1_t3_trip.sl.r_224
        Cert.Proof.KB.k1_t3_trip.sl.r_225 Cert.Proof.KB.k1_t3_trip.sl.r_226 Cert.Proof.KB.k1_t3_trip.sl.r_227 Cert.Proof.KB.k1_t3_trip.sl.r_228 Cert.Proof.KB.k1_t3_trip.sl.r_229
        Cert.Proof.KB.k1_t3_trip.sl.r_230 Cert.Proof.KB.k1_t3_trip.sl.r_231 Cert.Proof.KB.k1_t3_trip.sl.r_232 Cert.Proof.KB.k1_t3_trip.sl.r_233 Cert.Proof.KB.k1_t3_trip.sl.r_234
        Cert.Proof.KB.k1_t3_trip.sl.r_235 Cert.Proof.KB.k1_t3_trip.sl.r_236 Cert.Proof.KB.k1_t3_trip.sl.r_237 Cert.Proof.KB.k1_t3_trip.sl.r_238 Cert.Proof.KB.k1_t3_trip.sl.r_239
        Cert.Proof.KB.k1_t3_trip.sl.r_240 Cert.Proof.KB.k1_t3_trip.sl.r_241 Cert.Proof.KB.k1_t3_trip.sl.r_242 Cert.Proof.KB.k1_t3_trip.sl.r_243 Cert.Proof.KB.k1_t3_trip.sl.r_244
        Cert.Proof.KB.k1_t3_trip.sl.r_245 Cert.Proof.KB.k1_t3_trip.sl.r_246 Cert.Proof.KB.k1_t3_trip.sl.r_247 Cert.Proof.KB.k1_t3_trip.sl.r_248 Cert.Proof.KB.k1_t3_trip.sl.r_249
        Cert.Proof.KB.k1_t3_trip.sl.r_250 Cert.Proof.KB.k1_t3_trip.sl.r_251 Cert.Proof.KB.k1_t3_trip.sl.r_252 Cert.Proof.KB.k1_t3_trip.sl.r_253 Cert.Proof.KB.k1_t3_trip.sl.r_254
        Cert.Proof.KB.k1_t3_trip.sl.r_255 Cert.Proof.KB.k1_t3_trip.sl.r_256 Cert.Proof.KB.k1_t3_trip.sl.r_257 Cert.Proof.KB.k1_t3_trip.sl.r_258 Cert.Proof.KB.k1_t3_trip.sl.r_259
        Cert.Proof.KB.k1_t3_trip.sl.r_260 Cert.Proof.KB.k1_t3_trip.sl.r_261 Cert.Proof.KB.k1_t3_trip.sl.r_262 Cert.Proof.KB.k1_t3_trip.sl.r_263 Cert.Proof.KB.k1_t3_trip.sl.r_264
        Cert.Proof.KB.k1_t3_trip.sl.r_265 Cert.Proof.KB.k1_t3_trip.sl.r_266 Cert.Proof.KB.k1_t3_trip.sl.r_267 Cert.Proof.KB.k1_t3_trip.sl.r_268 Cert.Proof.KB.k1_t3_trip.sl.r_269
        Cert.Proof.KB.k1_t3_trip.sl.r_270 Cert.Proof.KB.k1_t3_trip.sl.r_271 Cert.Proof.KB.k1_t3_trip.sl.r_272 Cert.Proof.KB.k1_t3_trip.sl.r_273 Cert.Proof.KB.k1_t3_trip.sl.r_274
        Cert.Proof.KB.k1_t3_trip.sl.r_275 Cert.Proof.KB.k1_t3_trip.sl.r_276 Cert.Proof.KB.k1_t3_trip.sl.r_277 Cert.Proof.KB.k1_t3_trip.sl.r_278 Cert.Proof.KB.k1_t3_trip.sl.r_279
        Cert.Proof.KB.k1_t3_trip.sl.r_280 Cert.Proof.KB.k1_t3_trip.sl.r_281 Cert.Proof.KB.k1_t3_trip.sl.r_282 Cert.Proof.KB.k1_t3_trip.sl.r_283 Cert.Proof.KB.k1_t3_trip.sl.r_284
        Cert.Proof.KB.k1_t3_trip.sl.r_285 Cert.Proof.KB.k1_t3_trip.sl.r_286 Cert.Proof.KB.k1_t3_trip.sl.r_287 Cert.Proof.KB.k1_t3_trip.sl.r_288 Cert.Proof.KB.k1_t3_trip.sl.r_289
        Cert.Proof.KB.k1_t3_trip.sl.r_290 Cert.Proof.KB.k1_t3_trip.sl.r_291 Cert.Proof.KB.k1_t3_trip.sl.r_292 Cert.Proof.KB.k1_t3_trip.sl.r_293 Cert.Proof.KB.k1_t3_trip.sl.r_294
        Cert.Proof.KB.k1_t3_trip.sl.r_295 Cert.Proof.KB.k1_t3_trip.sl.r_296 Cert.Proof.KB.k1_t3_trip.sl.r_297 Cert.Proof.KB.k1_t3_trip.sl.r_298 Cert.Proof.KB.k1_t3_trip.sl.r_299
        Cert.Proof.KB.k1_t3_trip.sl.r_300 Cert.Proof.KB.k1_t3_trip.sl.r_301 Cert.Proof.KB.k1_t3_trip.sl.r_302 Cert.Proof.KB.k1_t3_trip.sl.r_303 Cert.Proof.KB.k1_t3_trip.sl.r_304
        Cert.Proof.KB.k1_t3_trip.sl.r_305 Cert.Proof.KB.k1_t3_trip.sl.r_306 Cert.Proof.KB.k1_t3_trip.sl.r_307 Cert.Proof.KB.k1_t3_trip.sl.r_308 Cert.Proof.KB.k1_t3_trip.sl.r_309
        Cert.Proof.KB.k1_t3_trip.sl.r_310 Cert.Proof.KB.k1_t3_trip.sl.r_311 Cert.Proof.KB.k1_t3_trip.sl.r_312 Cert.Proof.KB.k1_t3_trip.sl.r_313 Cert.Proof.KB.k1_t3_trip.sl.r_314
        Cert.Proof.KB.k1_t3_trip.sl.r_315 Cert.Proof.KB.k1_t3_trip.sl.r_316 Cert.Proof.KB.k1_t3_trip.sl.r_317 Cert.Proof.KB.k1_t3_trip.sl.r_318
      conv_lhs => simp only [k1_pay1, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20,
        k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38,
        k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56,
        k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74,
        k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92,
        k1_pay93, k1_pay94, k1_pay95, k1_pay96, k1_pay97, k1_pay98, k1_pay99, k1_pay100, k1_pay101, k1_pay102, k1_pay103, k1_pay104, k1_pay105, k1_pay106, k1_pay107, k1_pay108, k1_pay109,
        k1_pay110, k1_pay111, k1_pay112, k1_pay113, k1_pay114, k1_pay115, k1_pay116, k1_pay117, k1_pay118, k1_pay119, k1_pay120, k1_pay121, k1_pay122, k1_pay123, k1_pay124, k1_pay125,
        k1_pay126, k1_pay127, k1_pay128, k1_pay129, k1_pay130, k1_pay131, k1_pay132, k1_pay133, k1_pay134, k1_pay135, k1_pay136, k1_pay137, k1_pay138, k1_pay139, k1_pay140, k1_pay141,
        k1_pay142, k1_pay143, k1_pay144, k1_pay145, k1_pay146, k1_pay147, k1_pay148, k1_pay149, k1_pay150, k1_pay151, k1_pay152, k1_pay153, k1_pay154, k1_pay155, k1_pay156, k1_pay157,
        k1_pay158, k1_pay159, k1_pay160, k1_pay161, k1_pay162, k1_pay163, k1_pay164, k1_pay165, k1_pay166, k1_pay167, k1_pay168, k1_pay169, k1_pay170, k1_pay171, k1_pay172, k1_pay173,
        k1_pay174, k1_pay175, k1_pay176, k1_pay177, k1_pay178, k1_pay179, k1_pay180, k1_pay181, k1_pay182, k1_pay183, k1_pay184, k1_pay185, k1_pay186, k1_pay187, k1_pay188, k1_pay189,
        k1_pay190, k1_pay191, k1_pay192, k1_pay193, k1_pay194, k1_pay195, k1_pay196, k1_pay197, k1_pay198, k1_pay199, k1_pay200, k1_pay201, k1_pay202, k1_pay203, k1_pay204, k1_pay205,
        k1_pay206, k1_pay207, k1_pay208, k1_pay209, k1_pay210, k1_pay211, k1_pay212, k1_pay213, k1_pay214, k1_pay215, k1_pay216, k1_pay217, k1_pay218, k1_pay219, k1_pay220, k1_pay221,
        k1_pay222, k1_pay223, k1_pay224, k1_pay225, k1_pay226, k1_pay227, k1_pay228, k1_pay229, k1_pay230, k1_pay231, k1_pay232, k1_pay233, k1_pay234, k1_pay235, k1_pay236, k1_pay237,
        k1_pay238, k1_pay239, k1_pay240, k1_pay241, k1_pay242, k1_pay243, k1_pay244, k1_pay245, k1_pay246, k1_pay247, k1_pay248, k1_pay249, k1_pay250, k1_pay251, k1_pay252, k1_pay253,
        k1_pay254, k1_pay255, k1_pay256, k1_pay257, k1_pay258, k1_pay259, k1_pay260, k1_pay261, k1_pay262, k1_pay263, k1_pay264, k1_pay265, k1_pay266, k1_pay267, k1_pay268, k1_pay269,
        k1_pay270, k1_pay271, k1_pay272, k1_pay273, k1_pay274, k1_pay275, k1_pay276, k1_pay277, k1_pay278, k1_pay279, k1_pay280, k1_pay281, k1_pay282, k1_pay283, k1_pay284, k1_pay285,
        k1_pay286, k1_pay287, k1_pay288, k1_pay289, k1_pay290, k1_pay291, k1_pay292, k1_pay293, k1_pay294, k1_pay295, k1_pay296, k1_pay297, k1_pay298, k1_pay299, k1_pay300, k1_pay301,
        k1_pay302, k1_pay303, k1_pay304, k1_pay305, k1_pay306, k1_pay307, k1_pay308, k1_pay309, k1_pay310, k1_pay311, k1_pay312, k1_pay313, k1_pay314, k1_pay315, k1_pay316, k1_pay317,
        k1_pay318, k1_pay319, k1_pay320, k1_pay321, k1_pay322, k1_pay323, Pure.addf_at, Pure.mulf_at, Pure.broadcast_at, Pure.lane_at, Pure.cast16_16, Pure.cast1x16_16, Pure.cast16_1x16]
      rfl
    · intro l
      show _ = Pure.acc32 (rowW fw r) (rowE fb sub (⟨32 + l.val, by have := l.isLt; omega⟩ : Fin 128))
        (g (ix2 r (⟨32 + l.val, by have := l.isLt; omega⟩ : Fin 128)))
      refine ((?_ : _ = _).trans (Pure.acc32_chain (wraw3 fw t2 t) (eraw3_2 fb t l) (graw3_2 g t2 t l))).trans
        (Pure.acc32_congr (wraw3_eq fw t2 t r hr) (eraw3_2_eq fb t sub hs l _ rfl) (graw3_2_eq g t2 t r hr l _ rfl))
      delta Cert.Proof.KB.k1_t3_trip.sl.r Cert.Proof.KB.k1_t3_trip.sl.r_1 Cert.Proof.KB.k1_t3_trip.sl.r_2 Cert.Proof.KB.k1_t3_trip.sl.r_3 Cert.Proof.KB.k1_t3_trip.sl.r_4
        Cert.Proof.KB.k1_t3_trip.sl.r_5 Cert.Proof.KB.k1_t3_trip.sl.r_6 Cert.Proof.KB.k1_t3_trip.sl.r_7 Cert.Proof.KB.k1_t3_trip.sl.r_8 Cert.Proof.KB.k1_t3_trip.sl.r_9
        Cert.Proof.KB.k1_t3_trip.sl.r_10 Cert.Proof.KB.k1_t3_trip.sl.r_11 Cert.Proof.KB.k1_t3_trip.sl.r_12 Cert.Proof.KB.k1_t3_trip.sl.r_13 Cert.Proof.KB.k1_t3_trip.sl.r_14
        Cert.Proof.KB.k1_t3_trip.sl.r_15 Cert.Proof.KB.k1_t3_trip.sl.r_16 Cert.Proof.KB.k1_t3_trip.sl.r_17 Cert.Proof.KB.k1_t3_trip.sl.r_18 Cert.Proof.KB.k1_t3_trip.sl.r_19
        Cert.Proof.KB.k1_t3_trip.sl.r_20 Cert.Proof.KB.k1_t3_trip.sl.r_21 Cert.Proof.KB.k1_t3_trip.sl.r_22 Cert.Proof.KB.k1_t3_trip.sl.r_23 Cert.Proof.KB.k1_t3_trip.sl.r_24
        Cert.Proof.KB.k1_t3_trip.sl.r_25 Cert.Proof.KB.k1_t3_trip.sl.r_26 Cert.Proof.KB.k1_t3_trip.sl.r_27 Cert.Proof.KB.k1_t3_trip.sl.r_28 Cert.Proof.KB.k1_t3_trip.sl.r_29
        Cert.Proof.KB.k1_t3_trip.sl.r_30 Cert.Proof.KB.k1_t3_trip.sl.r_31 Cert.Proof.KB.k1_t3_trip.sl.r_32 Cert.Proof.KB.k1_t3_trip.sl.r_33 Cert.Proof.KB.k1_t3_trip.sl.r_34
        Cert.Proof.KB.k1_t3_trip.sl.r_35 Cert.Proof.KB.k1_t3_trip.sl.r_36 Cert.Proof.KB.k1_t3_trip.sl.r_37 Cert.Proof.KB.k1_t3_trip.sl.r_38 Cert.Proof.KB.k1_t3_trip.sl.r_39
        Cert.Proof.KB.k1_t3_trip.sl.r_40 Cert.Proof.KB.k1_t3_trip.sl.r_41 Cert.Proof.KB.k1_t3_trip.sl.r_42 Cert.Proof.KB.k1_t3_trip.sl.r_43 Cert.Proof.KB.k1_t3_trip.sl.r_44
        Cert.Proof.KB.k1_t3_trip.sl.r_45 Cert.Proof.KB.k1_t3_trip.sl.r_46 Cert.Proof.KB.k1_t3_trip.sl.r_47 Cert.Proof.KB.k1_t3_trip.sl.r_48 Cert.Proof.KB.k1_t3_trip.sl.r_49
        Cert.Proof.KB.k1_t3_trip.sl.r_50 Cert.Proof.KB.k1_t3_trip.sl.r_51 Cert.Proof.KB.k1_t3_trip.sl.r_52 Cert.Proof.KB.k1_t3_trip.sl.r_53 Cert.Proof.KB.k1_t3_trip.sl.r_54
        Cert.Proof.KB.k1_t3_trip.sl.r_55 Cert.Proof.KB.k1_t3_trip.sl.r_56 Cert.Proof.KB.k1_t3_trip.sl.r_57 Cert.Proof.KB.k1_t3_trip.sl.r_58 Cert.Proof.KB.k1_t3_trip.sl.r_59
        Cert.Proof.KB.k1_t3_trip.sl.r_60 Cert.Proof.KB.k1_t3_trip.sl.r_61 Cert.Proof.KB.k1_t3_trip.sl.r_62 Cert.Proof.KB.k1_t3_trip.sl.r_63 Cert.Proof.KB.k1_t3_trip.sl.r_64
        Cert.Proof.KB.k1_t3_trip.sl.r_65 Cert.Proof.KB.k1_t3_trip.sl.r_66 Cert.Proof.KB.k1_t3_trip.sl.r_67 Cert.Proof.KB.k1_t3_trip.sl.r_68 Cert.Proof.KB.k1_t3_trip.sl.r_69
        Cert.Proof.KB.k1_t3_trip.sl.r_70 Cert.Proof.KB.k1_t3_trip.sl.r_71 Cert.Proof.KB.k1_t3_trip.sl.r_72 Cert.Proof.KB.k1_t3_trip.sl.r_73 Cert.Proof.KB.k1_t3_trip.sl.r_74
        Cert.Proof.KB.k1_t3_trip.sl.r_75 Cert.Proof.KB.k1_t3_trip.sl.r_76 Cert.Proof.KB.k1_t3_trip.sl.r_77 Cert.Proof.KB.k1_t3_trip.sl.r_78 Cert.Proof.KB.k1_t3_trip.sl.r_79
        Cert.Proof.KB.k1_t3_trip.sl.r_80 Cert.Proof.KB.k1_t3_trip.sl.r_81 Cert.Proof.KB.k1_t3_trip.sl.r_82 Cert.Proof.KB.k1_t3_trip.sl.r_83 Cert.Proof.KB.k1_t3_trip.sl.r_84
        Cert.Proof.KB.k1_t3_trip.sl.r_85 Cert.Proof.KB.k1_t3_trip.sl.r_86 Cert.Proof.KB.k1_t3_trip.sl.r_87 Cert.Proof.KB.k1_t3_trip.sl.r_88 Cert.Proof.KB.k1_t3_trip.sl.r_89
        Cert.Proof.KB.k1_t3_trip.sl.r_90 Cert.Proof.KB.k1_t3_trip.sl.r_91 Cert.Proof.KB.k1_t3_trip.sl.r_92 Cert.Proof.KB.k1_t3_trip.sl.r_93 Cert.Proof.KB.k1_t3_trip.sl.r_94
        Cert.Proof.KB.k1_t3_trip.sl.r_95 Cert.Proof.KB.k1_t3_trip.sl.r_96 Cert.Proof.KB.k1_t3_trip.sl.r_97 Cert.Proof.KB.k1_t3_trip.sl.r_98 Cert.Proof.KB.k1_t3_trip.sl.r_99
        Cert.Proof.KB.k1_t3_trip.sl.r_100 Cert.Proof.KB.k1_t3_trip.sl.r_101 Cert.Proof.KB.k1_t3_trip.sl.r_102 Cert.Proof.KB.k1_t3_trip.sl.r_103 Cert.Proof.KB.k1_t3_trip.sl.r_104
        Cert.Proof.KB.k1_t3_trip.sl.r_105 Cert.Proof.KB.k1_t3_trip.sl.r_106 Cert.Proof.KB.k1_t3_trip.sl.r_107 Cert.Proof.KB.k1_t3_trip.sl.r_108 Cert.Proof.KB.k1_t3_trip.sl.r_109
        Cert.Proof.KB.k1_t3_trip.sl.r_110 Cert.Proof.KB.k1_t3_trip.sl.r_111 Cert.Proof.KB.k1_t3_trip.sl.r_112 Cert.Proof.KB.k1_t3_trip.sl.r_113 Cert.Proof.KB.k1_t3_trip.sl.r_114
        Cert.Proof.KB.k1_t3_trip.sl.r_115 Cert.Proof.KB.k1_t3_trip.sl.r_116 Cert.Proof.KB.k1_t3_trip.sl.r_117 Cert.Proof.KB.k1_t3_trip.sl.r_118 Cert.Proof.KB.k1_t3_trip.sl.r_119
        Cert.Proof.KB.k1_t3_trip.sl.r_120 Cert.Proof.KB.k1_t3_trip.sl.r_121 Cert.Proof.KB.k1_t3_trip.sl.r_122 Cert.Proof.KB.k1_t3_trip.sl.r_123 Cert.Proof.KB.k1_t3_trip.sl.r_124
        Cert.Proof.KB.k1_t3_trip.sl.r_125 Cert.Proof.KB.k1_t3_trip.sl.r_126 Cert.Proof.KB.k1_t3_trip.sl.r_127 Cert.Proof.KB.k1_t3_trip.sl.r_128 Cert.Proof.KB.k1_t3_trip.sl.r_129
        Cert.Proof.KB.k1_t3_trip.sl.r_130 Cert.Proof.KB.k1_t3_trip.sl.r_131 Cert.Proof.KB.k1_t3_trip.sl.r_132 Cert.Proof.KB.k1_t3_trip.sl.r_133 Cert.Proof.KB.k1_t3_trip.sl.r_134
        Cert.Proof.KB.k1_t3_trip.sl.r_135 Cert.Proof.KB.k1_t3_trip.sl.r_136 Cert.Proof.KB.k1_t3_trip.sl.r_137 Cert.Proof.KB.k1_t3_trip.sl.r_138 Cert.Proof.KB.k1_t3_trip.sl.r_139
        Cert.Proof.KB.k1_t3_trip.sl.r_140 Cert.Proof.KB.k1_t3_trip.sl.r_141 Cert.Proof.KB.k1_t3_trip.sl.r_142 Cert.Proof.KB.k1_t3_trip.sl.r_143 Cert.Proof.KB.k1_t3_trip.sl.r_144
        Cert.Proof.KB.k1_t3_trip.sl.r_145 Cert.Proof.KB.k1_t3_trip.sl.r_146 Cert.Proof.KB.k1_t3_trip.sl.r_147 Cert.Proof.KB.k1_t3_trip.sl.r_148 Cert.Proof.KB.k1_t3_trip.sl.r_149
        Cert.Proof.KB.k1_t3_trip.sl.r_150 Cert.Proof.KB.k1_t3_trip.sl.r_151 Cert.Proof.KB.k1_t3_trip.sl.r_152 Cert.Proof.KB.k1_t3_trip.sl.r_153 Cert.Proof.KB.k1_t3_trip.sl.r_154
        Cert.Proof.KB.k1_t3_trip.sl.r_155 Cert.Proof.KB.k1_t3_trip.sl.r_156 Cert.Proof.KB.k1_t3_trip.sl.r_157 Cert.Proof.KB.k1_t3_trip.sl.r_158 Cert.Proof.KB.k1_t3_trip.sl.r_159
        Cert.Proof.KB.k1_t3_trip.sl.r_160 Cert.Proof.KB.k1_t3_trip.sl.r_161 Cert.Proof.KB.k1_t3_trip.sl.r_162 Cert.Proof.KB.k1_t3_trip.sl.r_163 Cert.Proof.KB.k1_t3_trip.sl.r_164
        Cert.Proof.KB.k1_t3_trip.sl.r_165 Cert.Proof.KB.k1_t3_trip.sl.r_166 Cert.Proof.KB.k1_t3_trip.sl.r_167 Cert.Proof.KB.k1_t3_trip.sl.r_168 Cert.Proof.KB.k1_t3_trip.sl.r_169
        Cert.Proof.KB.k1_t3_trip.sl.r_170 Cert.Proof.KB.k1_t3_trip.sl.r_171 Cert.Proof.KB.k1_t3_trip.sl.r_172 Cert.Proof.KB.k1_t3_trip.sl.r_173 Cert.Proof.KB.k1_t3_trip.sl.r_174
        Cert.Proof.KB.k1_t3_trip.sl.r_175 Cert.Proof.KB.k1_t3_trip.sl.r_176 Cert.Proof.KB.k1_t3_trip.sl.r_177 Cert.Proof.KB.k1_t3_trip.sl.r_178 Cert.Proof.KB.k1_t3_trip.sl.r_179
        Cert.Proof.KB.k1_t3_trip.sl.r_180 Cert.Proof.KB.k1_t3_trip.sl.r_181 Cert.Proof.KB.k1_t3_trip.sl.r_182 Cert.Proof.KB.k1_t3_trip.sl.r_183 Cert.Proof.KB.k1_t3_trip.sl.r_184
        Cert.Proof.KB.k1_t3_trip.sl.r_185 Cert.Proof.KB.k1_t3_trip.sl.r_186 Cert.Proof.KB.k1_t3_trip.sl.r_187 Cert.Proof.KB.k1_t3_trip.sl.r_188 Cert.Proof.KB.k1_t3_trip.sl.r_189
        Cert.Proof.KB.k1_t3_trip.sl.r_190 Cert.Proof.KB.k1_t3_trip.sl.r_191 Cert.Proof.KB.k1_t3_trip.sl.r_192 Cert.Proof.KB.k1_t3_trip.sl.r_193 Cert.Proof.KB.k1_t3_trip.sl.r_194
        Cert.Proof.KB.k1_t3_trip.sl.r_195 Cert.Proof.KB.k1_t3_trip.sl.r_196 Cert.Proof.KB.k1_t3_trip.sl.r_197 Cert.Proof.KB.k1_t3_trip.sl.r_198 Cert.Proof.KB.k1_t3_trip.sl.r_199
        Cert.Proof.KB.k1_t3_trip.sl.r_200 Cert.Proof.KB.k1_t3_trip.sl.r_201 Cert.Proof.KB.k1_t3_trip.sl.r_202 Cert.Proof.KB.k1_t3_trip.sl.r_203 Cert.Proof.KB.k1_t3_trip.sl.r_204
        Cert.Proof.KB.k1_t3_trip.sl.r_205 Cert.Proof.KB.k1_t3_trip.sl.r_206 Cert.Proof.KB.k1_t3_trip.sl.r_207 Cert.Proof.KB.k1_t3_trip.sl.r_208 Cert.Proof.KB.k1_t3_trip.sl.r_209
        Cert.Proof.KB.k1_t3_trip.sl.r_210 Cert.Proof.KB.k1_t3_trip.sl.r_211 Cert.Proof.KB.k1_t3_trip.sl.r_212 Cert.Proof.KB.k1_t3_trip.sl.r_213 Cert.Proof.KB.k1_t3_trip.sl.r_214
        Cert.Proof.KB.k1_t3_trip.sl.r_215 Cert.Proof.KB.k1_t3_trip.sl.r_216 Cert.Proof.KB.k1_t3_trip.sl.r_217 Cert.Proof.KB.k1_t3_trip.sl.r_218 Cert.Proof.KB.k1_t3_trip.sl.r_219
        Cert.Proof.KB.k1_t3_trip.sl.r_220 Cert.Proof.KB.k1_t3_trip.sl.r_221 Cert.Proof.KB.k1_t3_trip.sl.r_222 Cert.Proof.KB.k1_t3_trip.sl.r_223 Cert.Proof.KB.k1_t3_trip.sl.r_224
        Cert.Proof.KB.k1_t3_trip.sl.r_225 Cert.Proof.KB.k1_t3_trip.sl.r_226 Cert.Proof.KB.k1_t3_trip.sl.r_227 Cert.Proof.KB.k1_t3_trip.sl.r_228 Cert.Proof.KB.k1_t3_trip.sl.r_229
        Cert.Proof.KB.k1_t3_trip.sl.r_230 Cert.Proof.KB.k1_t3_trip.sl.r_231 Cert.Proof.KB.k1_t3_trip.sl.r_232 Cert.Proof.KB.k1_t3_trip.sl.r_233 Cert.Proof.KB.k1_t3_trip.sl.r_234
        Cert.Proof.KB.k1_t3_trip.sl.r_235 Cert.Proof.KB.k1_t3_trip.sl.r_236 Cert.Proof.KB.k1_t3_trip.sl.r_237 Cert.Proof.KB.k1_t3_trip.sl.r_238 Cert.Proof.KB.k1_t3_trip.sl.r_239
        Cert.Proof.KB.k1_t3_trip.sl.r_240 Cert.Proof.KB.k1_t3_trip.sl.r_241 Cert.Proof.KB.k1_t3_trip.sl.r_242 Cert.Proof.KB.k1_t3_trip.sl.r_243 Cert.Proof.KB.k1_t3_trip.sl.r_244
        Cert.Proof.KB.k1_t3_trip.sl.r_245 Cert.Proof.KB.k1_t3_trip.sl.r_246 Cert.Proof.KB.k1_t3_trip.sl.r_247 Cert.Proof.KB.k1_t3_trip.sl.r_248 Cert.Proof.KB.k1_t3_trip.sl.r_249
        Cert.Proof.KB.k1_t3_trip.sl.r_250 Cert.Proof.KB.k1_t3_trip.sl.r_251 Cert.Proof.KB.k1_t3_trip.sl.r_252 Cert.Proof.KB.k1_t3_trip.sl.r_253 Cert.Proof.KB.k1_t3_trip.sl.r_254
        Cert.Proof.KB.k1_t3_trip.sl.r_255 Cert.Proof.KB.k1_t3_trip.sl.r_256 Cert.Proof.KB.k1_t3_trip.sl.r_257 Cert.Proof.KB.k1_t3_trip.sl.r_258 Cert.Proof.KB.k1_t3_trip.sl.r_259
        Cert.Proof.KB.k1_t3_trip.sl.r_260 Cert.Proof.KB.k1_t3_trip.sl.r_261 Cert.Proof.KB.k1_t3_trip.sl.r_262 Cert.Proof.KB.k1_t3_trip.sl.r_263 Cert.Proof.KB.k1_t3_trip.sl.r_264
        Cert.Proof.KB.k1_t3_trip.sl.r_265 Cert.Proof.KB.k1_t3_trip.sl.r_266 Cert.Proof.KB.k1_t3_trip.sl.r_267 Cert.Proof.KB.k1_t3_trip.sl.r_268 Cert.Proof.KB.k1_t3_trip.sl.r_269
        Cert.Proof.KB.k1_t3_trip.sl.r_270 Cert.Proof.KB.k1_t3_trip.sl.r_271 Cert.Proof.KB.k1_t3_trip.sl.r_272 Cert.Proof.KB.k1_t3_trip.sl.r_273 Cert.Proof.KB.k1_t3_trip.sl.r_274
        Cert.Proof.KB.k1_t3_trip.sl.r_275 Cert.Proof.KB.k1_t3_trip.sl.r_276 Cert.Proof.KB.k1_t3_trip.sl.r_277 Cert.Proof.KB.k1_t3_trip.sl.r_278 Cert.Proof.KB.k1_t3_trip.sl.r_279
        Cert.Proof.KB.k1_t3_trip.sl.r_280 Cert.Proof.KB.k1_t3_trip.sl.r_281 Cert.Proof.KB.k1_t3_trip.sl.r_282 Cert.Proof.KB.k1_t3_trip.sl.r_283 Cert.Proof.KB.k1_t3_trip.sl.r_284
        Cert.Proof.KB.k1_t3_trip.sl.r_285 Cert.Proof.KB.k1_t3_trip.sl.r_286 Cert.Proof.KB.k1_t3_trip.sl.r_287 Cert.Proof.KB.k1_t3_trip.sl.r_288 Cert.Proof.KB.k1_t3_trip.sl.r_289
        Cert.Proof.KB.k1_t3_trip.sl.r_290 Cert.Proof.KB.k1_t3_trip.sl.r_291 Cert.Proof.KB.k1_t3_trip.sl.r_292 Cert.Proof.KB.k1_t3_trip.sl.r_293 Cert.Proof.KB.k1_t3_trip.sl.r_294
        Cert.Proof.KB.k1_t3_trip.sl.r_295 Cert.Proof.KB.k1_t3_trip.sl.r_296 Cert.Proof.KB.k1_t3_trip.sl.r_297 Cert.Proof.KB.k1_t3_trip.sl.r_298 Cert.Proof.KB.k1_t3_trip.sl.r_299
        Cert.Proof.KB.k1_t3_trip.sl.r_300 Cert.Proof.KB.k1_t3_trip.sl.r_301 Cert.Proof.KB.k1_t3_trip.sl.r_302 Cert.Proof.KB.k1_t3_trip.sl.r_303 Cert.Proof.KB.k1_t3_trip.sl.r_304
        Cert.Proof.KB.k1_t3_trip.sl.r_305 Cert.Proof.KB.k1_t3_trip.sl.r_306 Cert.Proof.KB.k1_t3_trip.sl.r_307 Cert.Proof.KB.k1_t3_trip.sl.r_308 Cert.Proof.KB.k1_t3_trip.sl.r_309
        Cert.Proof.KB.k1_t3_trip.sl.r_310 Cert.Proof.KB.k1_t3_trip.sl.r_311 Cert.Proof.KB.k1_t3_trip.sl.r_312 Cert.Proof.KB.k1_t3_trip.sl.r_313 Cert.Proof.KB.k1_t3_trip.sl.r_314
        Cert.Proof.KB.k1_t3_trip.sl.r_315 Cert.Proof.KB.k1_t3_trip.sl.r_316 Cert.Proof.KB.k1_t3_trip.sl.r_317 Cert.Proof.KB.k1_t3_trip.sl.r_318
      conv_lhs => simp only [k1_pay1, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20,
        k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38,
        k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56,
        k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74,
        k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92,
        k1_pay93, k1_pay94, k1_pay95, k1_pay96, k1_pay97, k1_pay98, k1_pay99, k1_pay100, k1_pay101, k1_pay102, k1_pay103, k1_pay104, k1_pay105, k1_pay106, k1_pay107, k1_pay108, k1_pay109,
        k1_pay110, k1_pay111, k1_pay112, k1_pay113, k1_pay114, k1_pay115, k1_pay116, k1_pay117, k1_pay118, k1_pay119, k1_pay120, k1_pay121, k1_pay122, k1_pay123, k1_pay124, k1_pay125,
        k1_pay126, k1_pay127, k1_pay128, k1_pay129, k1_pay130, k1_pay131, k1_pay132, k1_pay133, k1_pay134, k1_pay135, k1_pay136, k1_pay137, k1_pay138, k1_pay139, k1_pay140, k1_pay141,
        k1_pay142, k1_pay143, k1_pay144, k1_pay145, k1_pay146, k1_pay147, k1_pay148, k1_pay149, k1_pay150, k1_pay151, k1_pay152, k1_pay153, k1_pay154, k1_pay155, k1_pay156, k1_pay157,
        k1_pay158, k1_pay159, k1_pay160, k1_pay161, k1_pay162, k1_pay163, k1_pay164, k1_pay165, k1_pay166, k1_pay167, k1_pay168, k1_pay169, k1_pay170, k1_pay171, k1_pay172, k1_pay173,
        k1_pay174, k1_pay175, k1_pay176, k1_pay177, k1_pay178, k1_pay179, k1_pay180, k1_pay181, k1_pay182, k1_pay183, k1_pay184, k1_pay185, k1_pay186, k1_pay187, k1_pay188, k1_pay189,
        k1_pay190, k1_pay191, k1_pay192, k1_pay193, k1_pay194, k1_pay195, k1_pay196, k1_pay197, k1_pay198, k1_pay199, k1_pay200, k1_pay201, k1_pay202, k1_pay203, k1_pay204, k1_pay205,
        k1_pay206, k1_pay207, k1_pay208, k1_pay209, k1_pay210, k1_pay211, k1_pay212, k1_pay213, k1_pay214, k1_pay215, k1_pay216, k1_pay217, k1_pay218, k1_pay219, k1_pay220, k1_pay221,
        k1_pay222, k1_pay223, k1_pay224, k1_pay225, k1_pay226, k1_pay227, k1_pay228, k1_pay229, k1_pay230, k1_pay231, k1_pay232, k1_pay233, k1_pay234, k1_pay235, k1_pay236, k1_pay237,
        k1_pay238, k1_pay239, k1_pay240, k1_pay241, k1_pay242, k1_pay243, k1_pay244, k1_pay245, k1_pay246, k1_pay247, k1_pay248, k1_pay249, k1_pay250, k1_pay251, k1_pay252, k1_pay253,
        k1_pay254, k1_pay255, k1_pay256, k1_pay257, k1_pay258, k1_pay259, k1_pay260, k1_pay261, k1_pay262, k1_pay263, k1_pay264, k1_pay265, k1_pay266, k1_pay267, k1_pay268, k1_pay269,
        k1_pay270, k1_pay271, k1_pay272, k1_pay273, k1_pay274, k1_pay275, k1_pay276, k1_pay277, k1_pay278, k1_pay279, k1_pay280, k1_pay281, k1_pay282, k1_pay283, k1_pay284, k1_pay285,
        k1_pay286, k1_pay287, k1_pay288, k1_pay289, k1_pay290, k1_pay291, k1_pay292, k1_pay293, k1_pay294, k1_pay295, k1_pay296, k1_pay297, k1_pay298, k1_pay299, k1_pay300, k1_pay301,
        k1_pay302, k1_pay303, k1_pay304, k1_pay305, k1_pay306, k1_pay307, k1_pay308, k1_pay309, k1_pay310, k1_pay311, k1_pay312, k1_pay313, k1_pay314, k1_pay315, k1_pay316, k1_pay317,
        k1_pay318, k1_pay319, k1_pay320, k1_pay321, k1_pay322, k1_pay323, Pure.addf_at, Pure.mulf_at, Pure.broadcast_at, Pure.lane_at, Pure.cast16_16, Pure.cast1x16_16, Pure.cast16_1x16]
      rfl
    · intro l
      show _ = Pure.acc32 (rowW fw r) (rowE fb sub (⟨48 + l.val, by have := l.isLt; omega⟩ : Fin 128))
        (g (ix2 r (⟨48 + l.val, by have := l.isLt; omega⟩ : Fin 128)))
      refine ((?_ : _ = _).trans (Pure.acc32_chain (wraw3 fw t2 t) (eraw3_3 fb t l) (graw3_3 g t2 t l))).trans
        (Pure.acc32_congr (wraw3_eq fw t2 t r hr) (eraw3_3_eq fb t sub hs l _ rfl) (graw3_3_eq g t2 t r hr l _ rfl))
      delta Cert.Proof.KB.k1_t3_trip.sl.r Cert.Proof.KB.k1_t3_trip.sl.r_1 Cert.Proof.KB.k1_t3_trip.sl.r_2 Cert.Proof.KB.k1_t3_trip.sl.r_3 Cert.Proof.KB.k1_t3_trip.sl.r_4
        Cert.Proof.KB.k1_t3_trip.sl.r_5 Cert.Proof.KB.k1_t3_trip.sl.r_6 Cert.Proof.KB.k1_t3_trip.sl.r_7 Cert.Proof.KB.k1_t3_trip.sl.r_8 Cert.Proof.KB.k1_t3_trip.sl.r_9
        Cert.Proof.KB.k1_t3_trip.sl.r_10 Cert.Proof.KB.k1_t3_trip.sl.r_11 Cert.Proof.KB.k1_t3_trip.sl.r_12 Cert.Proof.KB.k1_t3_trip.sl.r_13 Cert.Proof.KB.k1_t3_trip.sl.r_14
        Cert.Proof.KB.k1_t3_trip.sl.r_15 Cert.Proof.KB.k1_t3_trip.sl.r_16 Cert.Proof.KB.k1_t3_trip.sl.r_17 Cert.Proof.KB.k1_t3_trip.sl.r_18 Cert.Proof.KB.k1_t3_trip.sl.r_19
        Cert.Proof.KB.k1_t3_trip.sl.r_20 Cert.Proof.KB.k1_t3_trip.sl.r_21 Cert.Proof.KB.k1_t3_trip.sl.r_22 Cert.Proof.KB.k1_t3_trip.sl.r_23 Cert.Proof.KB.k1_t3_trip.sl.r_24
        Cert.Proof.KB.k1_t3_trip.sl.r_25 Cert.Proof.KB.k1_t3_trip.sl.r_26 Cert.Proof.KB.k1_t3_trip.sl.r_27 Cert.Proof.KB.k1_t3_trip.sl.r_28 Cert.Proof.KB.k1_t3_trip.sl.r_29
        Cert.Proof.KB.k1_t3_trip.sl.r_30 Cert.Proof.KB.k1_t3_trip.sl.r_31 Cert.Proof.KB.k1_t3_trip.sl.r_32 Cert.Proof.KB.k1_t3_trip.sl.r_33 Cert.Proof.KB.k1_t3_trip.sl.r_34
        Cert.Proof.KB.k1_t3_trip.sl.r_35 Cert.Proof.KB.k1_t3_trip.sl.r_36 Cert.Proof.KB.k1_t3_trip.sl.r_37 Cert.Proof.KB.k1_t3_trip.sl.r_38 Cert.Proof.KB.k1_t3_trip.sl.r_39
        Cert.Proof.KB.k1_t3_trip.sl.r_40 Cert.Proof.KB.k1_t3_trip.sl.r_41 Cert.Proof.KB.k1_t3_trip.sl.r_42 Cert.Proof.KB.k1_t3_trip.sl.r_43 Cert.Proof.KB.k1_t3_trip.sl.r_44
        Cert.Proof.KB.k1_t3_trip.sl.r_45 Cert.Proof.KB.k1_t3_trip.sl.r_46 Cert.Proof.KB.k1_t3_trip.sl.r_47 Cert.Proof.KB.k1_t3_trip.sl.r_48 Cert.Proof.KB.k1_t3_trip.sl.r_49
        Cert.Proof.KB.k1_t3_trip.sl.r_50 Cert.Proof.KB.k1_t3_trip.sl.r_51 Cert.Proof.KB.k1_t3_trip.sl.r_52 Cert.Proof.KB.k1_t3_trip.sl.r_53 Cert.Proof.KB.k1_t3_trip.sl.r_54
        Cert.Proof.KB.k1_t3_trip.sl.r_55 Cert.Proof.KB.k1_t3_trip.sl.r_56 Cert.Proof.KB.k1_t3_trip.sl.r_57 Cert.Proof.KB.k1_t3_trip.sl.r_58 Cert.Proof.KB.k1_t3_trip.sl.r_59
        Cert.Proof.KB.k1_t3_trip.sl.r_60 Cert.Proof.KB.k1_t3_trip.sl.r_61 Cert.Proof.KB.k1_t3_trip.sl.r_62 Cert.Proof.KB.k1_t3_trip.sl.r_63 Cert.Proof.KB.k1_t3_trip.sl.r_64
        Cert.Proof.KB.k1_t3_trip.sl.r_65 Cert.Proof.KB.k1_t3_trip.sl.r_66 Cert.Proof.KB.k1_t3_trip.sl.r_67 Cert.Proof.KB.k1_t3_trip.sl.r_68 Cert.Proof.KB.k1_t3_trip.sl.r_69
        Cert.Proof.KB.k1_t3_trip.sl.r_70 Cert.Proof.KB.k1_t3_trip.sl.r_71 Cert.Proof.KB.k1_t3_trip.sl.r_72 Cert.Proof.KB.k1_t3_trip.sl.r_73 Cert.Proof.KB.k1_t3_trip.sl.r_74
        Cert.Proof.KB.k1_t3_trip.sl.r_75 Cert.Proof.KB.k1_t3_trip.sl.r_76 Cert.Proof.KB.k1_t3_trip.sl.r_77 Cert.Proof.KB.k1_t3_trip.sl.r_78 Cert.Proof.KB.k1_t3_trip.sl.r_79
        Cert.Proof.KB.k1_t3_trip.sl.r_80 Cert.Proof.KB.k1_t3_trip.sl.r_81 Cert.Proof.KB.k1_t3_trip.sl.r_82 Cert.Proof.KB.k1_t3_trip.sl.r_83 Cert.Proof.KB.k1_t3_trip.sl.r_84
        Cert.Proof.KB.k1_t3_trip.sl.r_85 Cert.Proof.KB.k1_t3_trip.sl.r_86 Cert.Proof.KB.k1_t3_trip.sl.r_87 Cert.Proof.KB.k1_t3_trip.sl.r_88 Cert.Proof.KB.k1_t3_trip.sl.r_89
        Cert.Proof.KB.k1_t3_trip.sl.r_90 Cert.Proof.KB.k1_t3_trip.sl.r_91 Cert.Proof.KB.k1_t3_trip.sl.r_92 Cert.Proof.KB.k1_t3_trip.sl.r_93 Cert.Proof.KB.k1_t3_trip.sl.r_94
        Cert.Proof.KB.k1_t3_trip.sl.r_95 Cert.Proof.KB.k1_t3_trip.sl.r_96 Cert.Proof.KB.k1_t3_trip.sl.r_97 Cert.Proof.KB.k1_t3_trip.sl.r_98 Cert.Proof.KB.k1_t3_trip.sl.r_99
        Cert.Proof.KB.k1_t3_trip.sl.r_100 Cert.Proof.KB.k1_t3_trip.sl.r_101 Cert.Proof.KB.k1_t3_trip.sl.r_102 Cert.Proof.KB.k1_t3_trip.sl.r_103 Cert.Proof.KB.k1_t3_trip.sl.r_104
        Cert.Proof.KB.k1_t3_trip.sl.r_105 Cert.Proof.KB.k1_t3_trip.sl.r_106 Cert.Proof.KB.k1_t3_trip.sl.r_107 Cert.Proof.KB.k1_t3_trip.sl.r_108 Cert.Proof.KB.k1_t3_trip.sl.r_109
        Cert.Proof.KB.k1_t3_trip.sl.r_110 Cert.Proof.KB.k1_t3_trip.sl.r_111 Cert.Proof.KB.k1_t3_trip.sl.r_112 Cert.Proof.KB.k1_t3_trip.sl.r_113 Cert.Proof.KB.k1_t3_trip.sl.r_114
        Cert.Proof.KB.k1_t3_trip.sl.r_115 Cert.Proof.KB.k1_t3_trip.sl.r_116 Cert.Proof.KB.k1_t3_trip.sl.r_117 Cert.Proof.KB.k1_t3_trip.sl.r_118 Cert.Proof.KB.k1_t3_trip.sl.r_119
        Cert.Proof.KB.k1_t3_trip.sl.r_120 Cert.Proof.KB.k1_t3_trip.sl.r_121 Cert.Proof.KB.k1_t3_trip.sl.r_122 Cert.Proof.KB.k1_t3_trip.sl.r_123 Cert.Proof.KB.k1_t3_trip.sl.r_124
        Cert.Proof.KB.k1_t3_trip.sl.r_125 Cert.Proof.KB.k1_t3_trip.sl.r_126 Cert.Proof.KB.k1_t3_trip.sl.r_127 Cert.Proof.KB.k1_t3_trip.sl.r_128 Cert.Proof.KB.k1_t3_trip.sl.r_129
        Cert.Proof.KB.k1_t3_trip.sl.r_130 Cert.Proof.KB.k1_t3_trip.sl.r_131 Cert.Proof.KB.k1_t3_trip.sl.r_132 Cert.Proof.KB.k1_t3_trip.sl.r_133 Cert.Proof.KB.k1_t3_trip.sl.r_134
        Cert.Proof.KB.k1_t3_trip.sl.r_135 Cert.Proof.KB.k1_t3_trip.sl.r_136 Cert.Proof.KB.k1_t3_trip.sl.r_137 Cert.Proof.KB.k1_t3_trip.sl.r_138 Cert.Proof.KB.k1_t3_trip.sl.r_139
        Cert.Proof.KB.k1_t3_trip.sl.r_140 Cert.Proof.KB.k1_t3_trip.sl.r_141 Cert.Proof.KB.k1_t3_trip.sl.r_142 Cert.Proof.KB.k1_t3_trip.sl.r_143 Cert.Proof.KB.k1_t3_trip.sl.r_144
        Cert.Proof.KB.k1_t3_trip.sl.r_145 Cert.Proof.KB.k1_t3_trip.sl.r_146 Cert.Proof.KB.k1_t3_trip.sl.r_147 Cert.Proof.KB.k1_t3_trip.sl.r_148 Cert.Proof.KB.k1_t3_trip.sl.r_149
        Cert.Proof.KB.k1_t3_trip.sl.r_150 Cert.Proof.KB.k1_t3_trip.sl.r_151 Cert.Proof.KB.k1_t3_trip.sl.r_152 Cert.Proof.KB.k1_t3_trip.sl.r_153 Cert.Proof.KB.k1_t3_trip.sl.r_154
        Cert.Proof.KB.k1_t3_trip.sl.r_155 Cert.Proof.KB.k1_t3_trip.sl.r_156 Cert.Proof.KB.k1_t3_trip.sl.r_157 Cert.Proof.KB.k1_t3_trip.sl.r_158 Cert.Proof.KB.k1_t3_trip.sl.r_159
        Cert.Proof.KB.k1_t3_trip.sl.r_160 Cert.Proof.KB.k1_t3_trip.sl.r_161 Cert.Proof.KB.k1_t3_trip.sl.r_162 Cert.Proof.KB.k1_t3_trip.sl.r_163 Cert.Proof.KB.k1_t3_trip.sl.r_164
        Cert.Proof.KB.k1_t3_trip.sl.r_165 Cert.Proof.KB.k1_t3_trip.sl.r_166 Cert.Proof.KB.k1_t3_trip.sl.r_167 Cert.Proof.KB.k1_t3_trip.sl.r_168 Cert.Proof.KB.k1_t3_trip.sl.r_169
        Cert.Proof.KB.k1_t3_trip.sl.r_170 Cert.Proof.KB.k1_t3_trip.sl.r_171 Cert.Proof.KB.k1_t3_trip.sl.r_172 Cert.Proof.KB.k1_t3_trip.sl.r_173 Cert.Proof.KB.k1_t3_trip.sl.r_174
        Cert.Proof.KB.k1_t3_trip.sl.r_175 Cert.Proof.KB.k1_t3_trip.sl.r_176 Cert.Proof.KB.k1_t3_trip.sl.r_177 Cert.Proof.KB.k1_t3_trip.sl.r_178 Cert.Proof.KB.k1_t3_trip.sl.r_179
        Cert.Proof.KB.k1_t3_trip.sl.r_180 Cert.Proof.KB.k1_t3_trip.sl.r_181 Cert.Proof.KB.k1_t3_trip.sl.r_182 Cert.Proof.KB.k1_t3_trip.sl.r_183 Cert.Proof.KB.k1_t3_trip.sl.r_184
        Cert.Proof.KB.k1_t3_trip.sl.r_185 Cert.Proof.KB.k1_t3_trip.sl.r_186 Cert.Proof.KB.k1_t3_trip.sl.r_187 Cert.Proof.KB.k1_t3_trip.sl.r_188 Cert.Proof.KB.k1_t3_trip.sl.r_189
        Cert.Proof.KB.k1_t3_trip.sl.r_190 Cert.Proof.KB.k1_t3_trip.sl.r_191 Cert.Proof.KB.k1_t3_trip.sl.r_192 Cert.Proof.KB.k1_t3_trip.sl.r_193 Cert.Proof.KB.k1_t3_trip.sl.r_194
        Cert.Proof.KB.k1_t3_trip.sl.r_195 Cert.Proof.KB.k1_t3_trip.sl.r_196 Cert.Proof.KB.k1_t3_trip.sl.r_197 Cert.Proof.KB.k1_t3_trip.sl.r_198 Cert.Proof.KB.k1_t3_trip.sl.r_199
        Cert.Proof.KB.k1_t3_trip.sl.r_200 Cert.Proof.KB.k1_t3_trip.sl.r_201 Cert.Proof.KB.k1_t3_trip.sl.r_202 Cert.Proof.KB.k1_t3_trip.sl.r_203 Cert.Proof.KB.k1_t3_trip.sl.r_204
        Cert.Proof.KB.k1_t3_trip.sl.r_205 Cert.Proof.KB.k1_t3_trip.sl.r_206 Cert.Proof.KB.k1_t3_trip.sl.r_207 Cert.Proof.KB.k1_t3_trip.sl.r_208 Cert.Proof.KB.k1_t3_trip.sl.r_209
        Cert.Proof.KB.k1_t3_trip.sl.r_210 Cert.Proof.KB.k1_t3_trip.sl.r_211 Cert.Proof.KB.k1_t3_trip.sl.r_212 Cert.Proof.KB.k1_t3_trip.sl.r_213 Cert.Proof.KB.k1_t3_trip.sl.r_214
        Cert.Proof.KB.k1_t3_trip.sl.r_215 Cert.Proof.KB.k1_t3_trip.sl.r_216 Cert.Proof.KB.k1_t3_trip.sl.r_217 Cert.Proof.KB.k1_t3_trip.sl.r_218 Cert.Proof.KB.k1_t3_trip.sl.r_219
        Cert.Proof.KB.k1_t3_trip.sl.r_220 Cert.Proof.KB.k1_t3_trip.sl.r_221 Cert.Proof.KB.k1_t3_trip.sl.r_222 Cert.Proof.KB.k1_t3_trip.sl.r_223 Cert.Proof.KB.k1_t3_trip.sl.r_224
        Cert.Proof.KB.k1_t3_trip.sl.r_225 Cert.Proof.KB.k1_t3_trip.sl.r_226 Cert.Proof.KB.k1_t3_trip.sl.r_227 Cert.Proof.KB.k1_t3_trip.sl.r_228 Cert.Proof.KB.k1_t3_trip.sl.r_229
        Cert.Proof.KB.k1_t3_trip.sl.r_230 Cert.Proof.KB.k1_t3_trip.sl.r_231 Cert.Proof.KB.k1_t3_trip.sl.r_232 Cert.Proof.KB.k1_t3_trip.sl.r_233 Cert.Proof.KB.k1_t3_trip.sl.r_234
        Cert.Proof.KB.k1_t3_trip.sl.r_235 Cert.Proof.KB.k1_t3_trip.sl.r_236 Cert.Proof.KB.k1_t3_trip.sl.r_237 Cert.Proof.KB.k1_t3_trip.sl.r_238 Cert.Proof.KB.k1_t3_trip.sl.r_239
        Cert.Proof.KB.k1_t3_trip.sl.r_240 Cert.Proof.KB.k1_t3_trip.sl.r_241 Cert.Proof.KB.k1_t3_trip.sl.r_242 Cert.Proof.KB.k1_t3_trip.sl.r_243 Cert.Proof.KB.k1_t3_trip.sl.r_244
        Cert.Proof.KB.k1_t3_trip.sl.r_245 Cert.Proof.KB.k1_t3_trip.sl.r_246 Cert.Proof.KB.k1_t3_trip.sl.r_247 Cert.Proof.KB.k1_t3_trip.sl.r_248 Cert.Proof.KB.k1_t3_trip.sl.r_249
        Cert.Proof.KB.k1_t3_trip.sl.r_250 Cert.Proof.KB.k1_t3_trip.sl.r_251 Cert.Proof.KB.k1_t3_trip.sl.r_252 Cert.Proof.KB.k1_t3_trip.sl.r_253 Cert.Proof.KB.k1_t3_trip.sl.r_254
        Cert.Proof.KB.k1_t3_trip.sl.r_255 Cert.Proof.KB.k1_t3_trip.sl.r_256 Cert.Proof.KB.k1_t3_trip.sl.r_257 Cert.Proof.KB.k1_t3_trip.sl.r_258 Cert.Proof.KB.k1_t3_trip.sl.r_259
        Cert.Proof.KB.k1_t3_trip.sl.r_260 Cert.Proof.KB.k1_t3_trip.sl.r_261 Cert.Proof.KB.k1_t3_trip.sl.r_262 Cert.Proof.KB.k1_t3_trip.sl.r_263 Cert.Proof.KB.k1_t3_trip.sl.r_264
        Cert.Proof.KB.k1_t3_trip.sl.r_265 Cert.Proof.KB.k1_t3_trip.sl.r_266 Cert.Proof.KB.k1_t3_trip.sl.r_267 Cert.Proof.KB.k1_t3_trip.sl.r_268 Cert.Proof.KB.k1_t3_trip.sl.r_269
        Cert.Proof.KB.k1_t3_trip.sl.r_270 Cert.Proof.KB.k1_t3_trip.sl.r_271 Cert.Proof.KB.k1_t3_trip.sl.r_272 Cert.Proof.KB.k1_t3_trip.sl.r_273 Cert.Proof.KB.k1_t3_trip.sl.r_274
        Cert.Proof.KB.k1_t3_trip.sl.r_275 Cert.Proof.KB.k1_t3_trip.sl.r_276 Cert.Proof.KB.k1_t3_trip.sl.r_277 Cert.Proof.KB.k1_t3_trip.sl.r_278 Cert.Proof.KB.k1_t3_trip.sl.r_279
        Cert.Proof.KB.k1_t3_trip.sl.r_280 Cert.Proof.KB.k1_t3_trip.sl.r_281 Cert.Proof.KB.k1_t3_trip.sl.r_282 Cert.Proof.KB.k1_t3_trip.sl.r_283 Cert.Proof.KB.k1_t3_trip.sl.r_284
        Cert.Proof.KB.k1_t3_trip.sl.r_285 Cert.Proof.KB.k1_t3_trip.sl.r_286 Cert.Proof.KB.k1_t3_trip.sl.r_287 Cert.Proof.KB.k1_t3_trip.sl.r_288 Cert.Proof.KB.k1_t3_trip.sl.r_289
        Cert.Proof.KB.k1_t3_trip.sl.r_290 Cert.Proof.KB.k1_t3_trip.sl.r_291 Cert.Proof.KB.k1_t3_trip.sl.r_292 Cert.Proof.KB.k1_t3_trip.sl.r_293 Cert.Proof.KB.k1_t3_trip.sl.r_294
        Cert.Proof.KB.k1_t3_trip.sl.r_295 Cert.Proof.KB.k1_t3_trip.sl.r_296 Cert.Proof.KB.k1_t3_trip.sl.r_297 Cert.Proof.KB.k1_t3_trip.sl.r_298 Cert.Proof.KB.k1_t3_trip.sl.r_299
        Cert.Proof.KB.k1_t3_trip.sl.r_300 Cert.Proof.KB.k1_t3_trip.sl.r_301 Cert.Proof.KB.k1_t3_trip.sl.r_302 Cert.Proof.KB.k1_t3_trip.sl.r_303 Cert.Proof.KB.k1_t3_trip.sl.r_304
        Cert.Proof.KB.k1_t3_trip.sl.r_305 Cert.Proof.KB.k1_t3_trip.sl.r_306 Cert.Proof.KB.k1_t3_trip.sl.r_307 Cert.Proof.KB.k1_t3_trip.sl.r_308 Cert.Proof.KB.k1_t3_trip.sl.r_309
        Cert.Proof.KB.k1_t3_trip.sl.r_310 Cert.Proof.KB.k1_t3_trip.sl.r_311 Cert.Proof.KB.k1_t3_trip.sl.r_312 Cert.Proof.KB.k1_t3_trip.sl.r_313 Cert.Proof.KB.k1_t3_trip.sl.r_314
        Cert.Proof.KB.k1_t3_trip.sl.r_315 Cert.Proof.KB.k1_t3_trip.sl.r_316 Cert.Proof.KB.k1_t3_trip.sl.r_317 Cert.Proof.KB.k1_t3_trip.sl.r_318
      conv_lhs => simp only [k1_pay1, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20,
        k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38,
        k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56,
        k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74,
        k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92,
        k1_pay93, k1_pay94, k1_pay95, k1_pay96, k1_pay97, k1_pay98, k1_pay99, k1_pay100, k1_pay101, k1_pay102, k1_pay103, k1_pay104, k1_pay105, k1_pay106, k1_pay107, k1_pay108, k1_pay109,
        k1_pay110, k1_pay111, k1_pay112, k1_pay113, k1_pay114, k1_pay115, k1_pay116, k1_pay117, k1_pay118, k1_pay119, k1_pay120, k1_pay121, k1_pay122, k1_pay123, k1_pay124, k1_pay125,
        k1_pay126, k1_pay127, k1_pay128, k1_pay129, k1_pay130, k1_pay131, k1_pay132, k1_pay133, k1_pay134, k1_pay135, k1_pay136, k1_pay137, k1_pay138, k1_pay139, k1_pay140, k1_pay141,
        k1_pay142, k1_pay143, k1_pay144, k1_pay145, k1_pay146, k1_pay147, k1_pay148, k1_pay149, k1_pay150, k1_pay151, k1_pay152, k1_pay153, k1_pay154, k1_pay155, k1_pay156, k1_pay157,
        k1_pay158, k1_pay159, k1_pay160, k1_pay161, k1_pay162, k1_pay163, k1_pay164, k1_pay165, k1_pay166, k1_pay167, k1_pay168, k1_pay169, k1_pay170, k1_pay171, k1_pay172, k1_pay173,
        k1_pay174, k1_pay175, k1_pay176, k1_pay177, k1_pay178, k1_pay179, k1_pay180, k1_pay181, k1_pay182, k1_pay183, k1_pay184, k1_pay185, k1_pay186, k1_pay187, k1_pay188, k1_pay189,
        k1_pay190, k1_pay191, k1_pay192, k1_pay193, k1_pay194, k1_pay195, k1_pay196, k1_pay197, k1_pay198, k1_pay199, k1_pay200, k1_pay201, k1_pay202, k1_pay203, k1_pay204, k1_pay205,
        k1_pay206, k1_pay207, k1_pay208, k1_pay209, k1_pay210, k1_pay211, k1_pay212, k1_pay213, k1_pay214, k1_pay215, k1_pay216, k1_pay217, k1_pay218, k1_pay219, k1_pay220, k1_pay221,
        k1_pay222, k1_pay223, k1_pay224, k1_pay225, k1_pay226, k1_pay227, k1_pay228, k1_pay229, k1_pay230, k1_pay231, k1_pay232, k1_pay233, k1_pay234, k1_pay235, k1_pay236, k1_pay237,
        k1_pay238, k1_pay239, k1_pay240, k1_pay241, k1_pay242, k1_pay243, k1_pay244, k1_pay245, k1_pay246, k1_pay247, k1_pay248, k1_pay249, k1_pay250, k1_pay251, k1_pay252, k1_pay253,
        k1_pay254, k1_pay255, k1_pay256, k1_pay257, k1_pay258, k1_pay259, k1_pay260, k1_pay261, k1_pay262, k1_pay263, k1_pay264, k1_pay265, k1_pay266, k1_pay267, k1_pay268, k1_pay269,
        k1_pay270, k1_pay271, k1_pay272, k1_pay273, k1_pay274, k1_pay275, k1_pay276, k1_pay277, k1_pay278, k1_pay279, k1_pay280, k1_pay281, k1_pay282, k1_pay283, k1_pay284, k1_pay285,
        k1_pay286, k1_pay287, k1_pay288, k1_pay289, k1_pay290, k1_pay291, k1_pay292, k1_pay293, k1_pay294, k1_pay295, k1_pay296, k1_pay297, k1_pay298, k1_pay299, k1_pay300, k1_pay301,
        k1_pay302, k1_pay303, k1_pay304, k1_pay305, k1_pay306, k1_pay307, k1_pay308, k1_pay309, k1_pay310, k1_pay311, k1_pay312, k1_pay313, k1_pay314, k1_pay315, k1_pay316, k1_pay317,
        k1_pay318, k1_pay319, k1_pay320, k1_pay321, k1_pay322, k1_pay323, Pure.addf_at, Pure.mulf_at, Pure.broadcast_at, Pure.lane_at, Pure.cast16_16, Pure.cast1x16_16, Pure.cast16_1x16]
      rfl
    · intro l
      show _ = Pure.acc32 (rowW fw r) (rowE fb sub (⟨64 + l.val, by have := l.isLt; omega⟩ : Fin 128))
        (g (ix2 r (⟨64 + l.val, by have := l.isLt; omega⟩ : Fin 128)))
      refine ((?_ : _ = _).trans (Pure.acc32_chain (wraw3 fw t2 t) (eraw3_4 fb t l) (graw3_4 g t2 t l))).trans
        (Pure.acc32_congr (wraw3_eq fw t2 t r hr) (eraw3_4_eq fb t sub hs l _ rfl) (graw3_4_eq g t2 t r hr l _ rfl))
      delta Cert.Proof.KB.k1_t3_trip.sl.r Cert.Proof.KB.k1_t3_trip.sl.r_1 Cert.Proof.KB.k1_t3_trip.sl.r_2 Cert.Proof.KB.k1_t3_trip.sl.r_3 Cert.Proof.KB.k1_t3_trip.sl.r_4
        Cert.Proof.KB.k1_t3_trip.sl.r_5 Cert.Proof.KB.k1_t3_trip.sl.r_6 Cert.Proof.KB.k1_t3_trip.sl.r_7 Cert.Proof.KB.k1_t3_trip.sl.r_8 Cert.Proof.KB.k1_t3_trip.sl.r_9
        Cert.Proof.KB.k1_t3_trip.sl.r_10 Cert.Proof.KB.k1_t3_trip.sl.r_11 Cert.Proof.KB.k1_t3_trip.sl.r_12 Cert.Proof.KB.k1_t3_trip.sl.r_13 Cert.Proof.KB.k1_t3_trip.sl.r_14
        Cert.Proof.KB.k1_t3_trip.sl.r_15 Cert.Proof.KB.k1_t3_trip.sl.r_16 Cert.Proof.KB.k1_t3_trip.sl.r_17 Cert.Proof.KB.k1_t3_trip.sl.r_18 Cert.Proof.KB.k1_t3_trip.sl.r_19
        Cert.Proof.KB.k1_t3_trip.sl.r_20 Cert.Proof.KB.k1_t3_trip.sl.r_21 Cert.Proof.KB.k1_t3_trip.sl.r_22 Cert.Proof.KB.k1_t3_trip.sl.r_23 Cert.Proof.KB.k1_t3_trip.sl.r_24
        Cert.Proof.KB.k1_t3_trip.sl.r_25 Cert.Proof.KB.k1_t3_trip.sl.r_26 Cert.Proof.KB.k1_t3_trip.sl.r_27 Cert.Proof.KB.k1_t3_trip.sl.r_28 Cert.Proof.KB.k1_t3_trip.sl.r_29
        Cert.Proof.KB.k1_t3_trip.sl.r_30 Cert.Proof.KB.k1_t3_trip.sl.r_31 Cert.Proof.KB.k1_t3_trip.sl.r_32 Cert.Proof.KB.k1_t3_trip.sl.r_33 Cert.Proof.KB.k1_t3_trip.sl.r_34
        Cert.Proof.KB.k1_t3_trip.sl.r_35 Cert.Proof.KB.k1_t3_trip.sl.r_36 Cert.Proof.KB.k1_t3_trip.sl.r_37 Cert.Proof.KB.k1_t3_trip.sl.r_38 Cert.Proof.KB.k1_t3_trip.sl.r_39
        Cert.Proof.KB.k1_t3_trip.sl.r_40 Cert.Proof.KB.k1_t3_trip.sl.r_41 Cert.Proof.KB.k1_t3_trip.sl.r_42 Cert.Proof.KB.k1_t3_trip.sl.r_43 Cert.Proof.KB.k1_t3_trip.sl.r_44
        Cert.Proof.KB.k1_t3_trip.sl.r_45 Cert.Proof.KB.k1_t3_trip.sl.r_46 Cert.Proof.KB.k1_t3_trip.sl.r_47 Cert.Proof.KB.k1_t3_trip.sl.r_48 Cert.Proof.KB.k1_t3_trip.sl.r_49
        Cert.Proof.KB.k1_t3_trip.sl.r_50 Cert.Proof.KB.k1_t3_trip.sl.r_51 Cert.Proof.KB.k1_t3_trip.sl.r_52 Cert.Proof.KB.k1_t3_trip.sl.r_53 Cert.Proof.KB.k1_t3_trip.sl.r_54
        Cert.Proof.KB.k1_t3_trip.sl.r_55 Cert.Proof.KB.k1_t3_trip.sl.r_56 Cert.Proof.KB.k1_t3_trip.sl.r_57 Cert.Proof.KB.k1_t3_trip.sl.r_58 Cert.Proof.KB.k1_t3_trip.sl.r_59
        Cert.Proof.KB.k1_t3_trip.sl.r_60 Cert.Proof.KB.k1_t3_trip.sl.r_61 Cert.Proof.KB.k1_t3_trip.sl.r_62 Cert.Proof.KB.k1_t3_trip.sl.r_63 Cert.Proof.KB.k1_t3_trip.sl.r_64
        Cert.Proof.KB.k1_t3_trip.sl.r_65 Cert.Proof.KB.k1_t3_trip.sl.r_66 Cert.Proof.KB.k1_t3_trip.sl.r_67 Cert.Proof.KB.k1_t3_trip.sl.r_68 Cert.Proof.KB.k1_t3_trip.sl.r_69
        Cert.Proof.KB.k1_t3_trip.sl.r_70 Cert.Proof.KB.k1_t3_trip.sl.r_71 Cert.Proof.KB.k1_t3_trip.sl.r_72 Cert.Proof.KB.k1_t3_trip.sl.r_73 Cert.Proof.KB.k1_t3_trip.sl.r_74
        Cert.Proof.KB.k1_t3_trip.sl.r_75 Cert.Proof.KB.k1_t3_trip.sl.r_76 Cert.Proof.KB.k1_t3_trip.sl.r_77 Cert.Proof.KB.k1_t3_trip.sl.r_78 Cert.Proof.KB.k1_t3_trip.sl.r_79
        Cert.Proof.KB.k1_t3_trip.sl.r_80 Cert.Proof.KB.k1_t3_trip.sl.r_81 Cert.Proof.KB.k1_t3_trip.sl.r_82 Cert.Proof.KB.k1_t3_trip.sl.r_83 Cert.Proof.KB.k1_t3_trip.sl.r_84
        Cert.Proof.KB.k1_t3_trip.sl.r_85 Cert.Proof.KB.k1_t3_trip.sl.r_86 Cert.Proof.KB.k1_t3_trip.sl.r_87 Cert.Proof.KB.k1_t3_trip.sl.r_88 Cert.Proof.KB.k1_t3_trip.sl.r_89
        Cert.Proof.KB.k1_t3_trip.sl.r_90 Cert.Proof.KB.k1_t3_trip.sl.r_91 Cert.Proof.KB.k1_t3_trip.sl.r_92 Cert.Proof.KB.k1_t3_trip.sl.r_93 Cert.Proof.KB.k1_t3_trip.sl.r_94
        Cert.Proof.KB.k1_t3_trip.sl.r_95 Cert.Proof.KB.k1_t3_trip.sl.r_96 Cert.Proof.KB.k1_t3_trip.sl.r_97 Cert.Proof.KB.k1_t3_trip.sl.r_98 Cert.Proof.KB.k1_t3_trip.sl.r_99
        Cert.Proof.KB.k1_t3_trip.sl.r_100 Cert.Proof.KB.k1_t3_trip.sl.r_101 Cert.Proof.KB.k1_t3_trip.sl.r_102 Cert.Proof.KB.k1_t3_trip.sl.r_103 Cert.Proof.KB.k1_t3_trip.sl.r_104
        Cert.Proof.KB.k1_t3_trip.sl.r_105 Cert.Proof.KB.k1_t3_trip.sl.r_106 Cert.Proof.KB.k1_t3_trip.sl.r_107 Cert.Proof.KB.k1_t3_trip.sl.r_108 Cert.Proof.KB.k1_t3_trip.sl.r_109
        Cert.Proof.KB.k1_t3_trip.sl.r_110 Cert.Proof.KB.k1_t3_trip.sl.r_111 Cert.Proof.KB.k1_t3_trip.sl.r_112 Cert.Proof.KB.k1_t3_trip.sl.r_113 Cert.Proof.KB.k1_t3_trip.sl.r_114
        Cert.Proof.KB.k1_t3_trip.sl.r_115 Cert.Proof.KB.k1_t3_trip.sl.r_116 Cert.Proof.KB.k1_t3_trip.sl.r_117 Cert.Proof.KB.k1_t3_trip.sl.r_118 Cert.Proof.KB.k1_t3_trip.sl.r_119
        Cert.Proof.KB.k1_t3_trip.sl.r_120 Cert.Proof.KB.k1_t3_trip.sl.r_121 Cert.Proof.KB.k1_t3_trip.sl.r_122 Cert.Proof.KB.k1_t3_trip.sl.r_123 Cert.Proof.KB.k1_t3_trip.sl.r_124
        Cert.Proof.KB.k1_t3_trip.sl.r_125 Cert.Proof.KB.k1_t3_trip.sl.r_126 Cert.Proof.KB.k1_t3_trip.sl.r_127 Cert.Proof.KB.k1_t3_trip.sl.r_128 Cert.Proof.KB.k1_t3_trip.sl.r_129
        Cert.Proof.KB.k1_t3_trip.sl.r_130 Cert.Proof.KB.k1_t3_trip.sl.r_131 Cert.Proof.KB.k1_t3_trip.sl.r_132 Cert.Proof.KB.k1_t3_trip.sl.r_133 Cert.Proof.KB.k1_t3_trip.sl.r_134
        Cert.Proof.KB.k1_t3_trip.sl.r_135 Cert.Proof.KB.k1_t3_trip.sl.r_136 Cert.Proof.KB.k1_t3_trip.sl.r_137 Cert.Proof.KB.k1_t3_trip.sl.r_138 Cert.Proof.KB.k1_t3_trip.sl.r_139
        Cert.Proof.KB.k1_t3_trip.sl.r_140 Cert.Proof.KB.k1_t3_trip.sl.r_141 Cert.Proof.KB.k1_t3_trip.sl.r_142 Cert.Proof.KB.k1_t3_trip.sl.r_143 Cert.Proof.KB.k1_t3_trip.sl.r_144
        Cert.Proof.KB.k1_t3_trip.sl.r_145 Cert.Proof.KB.k1_t3_trip.sl.r_146 Cert.Proof.KB.k1_t3_trip.sl.r_147 Cert.Proof.KB.k1_t3_trip.sl.r_148 Cert.Proof.KB.k1_t3_trip.sl.r_149
        Cert.Proof.KB.k1_t3_trip.sl.r_150 Cert.Proof.KB.k1_t3_trip.sl.r_151 Cert.Proof.KB.k1_t3_trip.sl.r_152 Cert.Proof.KB.k1_t3_trip.sl.r_153 Cert.Proof.KB.k1_t3_trip.sl.r_154
        Cert.Proof.KB.k1_t3_trip.sl.r_155 Cert.Proof.KB.k1_t3_trip.sl.r_156 Cert.Proof.KB.k1_t3_trip.sl.r_157 Cert.Proof.KB.k1_t3_trip.sl.r_158 Cert.Proof.KB.k1_t3_trip.sl.r_159
        Cert.Proof.KB.k1_t3_trip.sl.r_160 Cert.Proof.KB.k1_t3_trip.sl.r_161 Cert.Proof.KB.k1_t3_trip.sl.r_162 Cert.Proof.KB.k1_t3_trip.sl.r_163 Cert.Proof.KB.k1_t3_trip.sl.r_164
        Cert.Proof.KB.k1_t3_trip.sl.r_165 Cert.Proof.KB.k1_t3_trip.sl.r_166 Cert.Proof.KB.k1_t3_trip.sl.r_167 Cert.Proof.KB.k1_t3_trip.sl.r_168 Cert.Proof.KB.k1_t3_trip.sl.r_169
        Cert.Proof.KB.k1_t3_trip.sl.r_170 Cert.Proof.KB.k1_t3_trip.sl.r_171 Cert.Proof.KB.k1_t3_trip.sl.r_172 Cert.Proof.KB.k1_t3_trip.sl.r_173 Cert.Proof.KB.k1_t3_trip.sl.r_174
        Cert.Proof.KB.k1_t3_trip.sl.r_175 Cert.Proof.KB.k1_t3_trip.sl.r_176 Cert.Proof.KB.k1_t3_trip.sl.r_177 Cert.Proof.KB.k1_t3_trip.sl.r_178 Cert.Proof.KB.k1_t3_trip.sl.r_179
        Cert.Proof.KB.k1_t3_trip.sl.r_180 Cert.Proof.KB.k1_t3_trip.sl.r_181 Cert.Proof.KB.k1_t3_trip.sl.r_182 Cert.Proof.KB.k1_t3_trip.sl.r_183 Cert.Proof.KB.k1_t3_trip.sl.r_184
        Cert.Proof.KB.k1_t3_trip.sl.r_185 Cert.Proof.KB.k1_t3_trip.sl.r_186 Cert.Proof.KB.k1_t3_trip.sl.r_187 Cert.Proof.KB.k1_t3_trip.sl.r_188 Cert.Proof.KB.k1_t3_trip.sl.r_189
        Cert.Proof.KB.k1_t3_trip.sl.r_190 Cert.Proof.KB.k1_t3_trip.sl.r_191 Cert.Proof.KB.k1_t3_trip.sl.r_192 Cert.Proof.KB.k1_t3_trip.sl.r_193 Cert.Proof.KB.k1_t3_trip.sl.r_194
        Cert.Proof.KB.k1_t3_trip.sl.r_195 Cert.Proof.KB.k1_t3_trip.sl.r_196 Cert.Proof.KB.k1_t3_trip.sl.r_197 Cert.Proof.KB.k1_t3_trip.sl.r_198 Cert.Proof.KB.k1_t3_trip.sl.r_199
        Cert.Proof.KB.k1_t3_trip.sl.r_200 Cert.Proof.KB.k1_t3_trip.sl.r_201 Cert.Proof.KB.k1_t3_trip.sl.r_202 Cert.Proof.KB.k1_t3_trip.sl.r_203 Cert.Proof.KB.k1_t3_trip.sl.r_204
        Cert.Proof.KB.k1_t3_trip.sl.r_205 Cert.Proof.KB.k1_t3_trip.sl.r_206 Cert.Proof.KB.k1_t3_trip.sl.r_207 Cert.Proof.KB.k1_t3_trip.sl.r_208 Cert.Proof.KB.k1_t3_trip.sl.r_209
        Cert.Proof.KB.k1_t3_trip.sl.r_210 Cert.Proof.KB.k1_t3_trip.sl.r_211 Cert.Proof.KB.k1_t3_trip.sl.r_212 Cert.Proof.KB.k1_t3_trip.sl.r_213 Cert.Proof.KB.k1_t3_trip.sl.r_214
        Cert.Proof.KB.k1_t3_trip.sl.r_215 Cert.Proof.KB.k1_t3_trip.sl.r_216 Cert.Proof.KB.k1_t3_trip.sl.r_217 Cert.Proof.KB.k1_t3_trip.sl.r_218 Cert.Proof.KB.k1_t3_trip.sl.r_219
        Cert.Proof.KB.k1_t3_trip.sl.r_220 Cert.Proof.KB.k1_t3_trip.sl.r_221 Cert.Proof.KB.k1_t3_trip.sl.r_222 Cert.Proof.KB.k1_t3_trip.sl.r_223 Cert.Proof.KB.k1_t3_trip.sl.r_224
        Cert.Proof.KB.k1_t3_trip.sl.r_225 Cert.Proof.KB.k1_t3_trip.sl.r_226 Cert.Proof.KB.k1_t3_trip.sl.r_227 Cert.Proof.KB.k1_t3_trip.sl.r_228 Cert.Proof.KB.k1_t3_trip.sl.r_229
        Cert.Proof.KB.k1_t3_trip.sl.r_230 Cert.Proof.KB.k1_t3_trip.sl.r_231 Cert.Proof.KB.k1_t3_trip.sl.r_232 Cert.Proof.KB.k1_t3_trip.sl.r_233 Cert.Proof.KB.k1_t3_trip.sl.r_234
        Cert.Proof.KB.k1_t3_trip.sl.r_235 Cert.Proof.KB.k1_t3_trip.sl.r_236 Cert.Proof.KB.k1_t3_trip.sl.r_237 Cert.Proof.KB.k1_t3_trip.sl.r_238 Cert.Proof.KB.k1_t3_trip.sl.r_239
        Cert.Proof.KB.k1_t3_trip.sl.r_240 Cert.Proof.KB.k1_t3_trip.sl.r_241 Cert.Proof.KB.k1_t3_trip.sl.r_242 Cert.Proof.KB.k1_t3_trip.sl.r_243 Cert.Proof.KB.k1_t3_trip.sl.r_244
        Cert.Proof.KB.k1_t3_trip.sl.r_245 Cert.Proof.KB.k1_t3_trip.sl.r_246 Cert.Proof.KB.k1_t3_trip.sl.r_247 Cert.Proof.KB.k1_t3_trip.sl.r_248 Cert.Proof.KB.k1_t3_trip.sl.r_249
        Cert.Proof.KB.k1_t3_trip.sl.r_250 Cert.Proof.KB.k1_t3_trip.sl.r_251 Cert.Proof.KB.k1_t3_trip.sl.r_252 Cert.Proof.KB.k1_t3_trip.sl.r_253 Cert.Proof.KB.k1_t3_trip.sl.r_254
        Cert.Proof.KB.k1_t3_trip.sl.r_255 Cert.Proof.KB.k1_t3_trip.sl.r_256 Cert.Proof.KB.k1_t3_trip.sl.r_257 Cert.Proof.KB.k1_t3_trip.sl.r_258 Cert.Proof.KB.k1_t3_trip.sl.r_259
        Cert.Proof.KB.k1_t3_trip.sl.r_260 Cert.Proof.KB.k1_t3_trip.sl.r_261 Cert.Proof.KB.k1_t3_trip.sl.r_262 Cert.Proof.KB.k1_t3_trip.sl.r_263 Cert.Proof.KB.k1_t3_trip.sl.r_264
        Cert.Proof.KB.k1_t3_trip.sl.r_265 Cert.Proof.KB.k1_t3_trip.sl.r_266 Cert.Proof.KB.k1_t3_trip.sl.r_267 Cert.Proof.KB.k1_t3_trip.sl.r_268 Cert.Proof.KB.k1_t3_trip.sl.r_269
        Cert.Proof.KB.k1_t3_trip.sl.r_270 Cert.Proof.KB.k1_t3_trip.sl.r_271 Cert.Proof.KB.k1_t3_trip.sl.r_272 Cert.Proof.KB.k1_t3_trip.sl.r_273 Cert.Proof.KB.k1_t3_trip.sl.r_274
        Cert.Proof.KB.k1_t3_trip.sl.r_275 Cert.Proof.KB.k1_t3_trip.sl.r_276 Cert.Proof.KB.k1_t3_trip.sl.r_277 Cert.Proof.KB.k1_t3_trip.sl.r_278 Cert.Proof.KB.k1_t3_trip.sl.r_279
        Cert.Proof.KB.k1_t3_trip.sl.r_280 Cert.Proof.KB.k1_t3_trip.sl.r_281 Cert.Proof.KB.k1_t3_trip.sl.r_282 Cert.Proof.KB.k1_t3_trip.sl.r_283 Cert.Proof.KB.k1_t3_trip.sl.r_284
        Cert.Proof.KB.k1_t3_trip.sl.r_285 Cert.Proof.KB.k1_t3_trip.sl.r_286 Cert.Proof.KB.k1_t3_trip.sl.r_287 Cert.Proof.KB.k1_t3_trip.sl.r_288 Cert.Proof.KB.k1_t3_trip.sl.r_289
        Cert.Proof.KB.k1_t3_trip.sl.r_290 Cert.Proof.KB.k1_t3_trip.sl.r_291 Cert.Proof.KB.k1_t3_trip.sl.r_292 Cert.Proof.KB.k1_t3_trip.sl.r_293 Cert.Proof.KB.k1_t3_trip.sl.r_294
        Cert.Proof.KB.k1_t3_trip.sl.r_295 Cert.Proof.KB.k1_t3_trip.sl.r_296 Cert.Proof.KB.k1_t3_trip.sl.r_297 Cert.Proof.KB.k1_t3_trip.sl.r_298 Cert.Proof.KB.k1_t3_trip.sl.r_299
        Cert.Proof.KB.k1_t3_trip.sl.r_300 Cert.Proof.KB.k1_t3_trip.sl.r_301 Cert.Proof.KB.k1_t3_trip.sl.r_302 Cert.Proof.KB.k1_t3_trip.sl.r_303 Cert.Proof.KB.k1_t3_trip.sl.r_304
        Cert.Proof.KB.k1_t3_trip.sl.r_305 Cert.Proof.KB.k1_t3_trip.sl.r_306 Cert.Proof.KB.k1_t3_trip.sl.r_307 Cert.Proof.KB.k1_t3_trip.sl.r_308 Cert.Proof.KB.k1_t3_trip.sl.r_309
        Cert.Proof.KB.k1_t3_trip.sl.r_310 Cert.Proof.KB.k1_t3_trip.sl.r_311 Cert.Proof.KB.k1_t3_trip.sl.r_312 Cert.Proof.KB.k1_t3_trip.sl.r_313 Cert.Proof.KB.k1_t3_trip.sl.r_314
        Cert.Proof.KB.k1_t3_trip.sl.r_315 Cert.Proof.KB.k1_t3_trip.sl.r_316 Cert.Proof.KB.k1_t3_trip.sl.r_317 Cert.Proof.KB.k1_t3_trip.sl.r_318
      conv_lhs => simp only [k1_pay1, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20,
        k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38,
        k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56,
        k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74,
        k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92,
        k1_pay93, k1_pay94, k1_pay95, k1_pay96, k1_pay97, k1_pay98, k1_pay99, k1_pay100, k1_pay101, k1_pay102, k1_pay103, k1_pay104, k1_pay105, k1_pay106, k1_pay107, k1_pay108, k1_pay109,
        k1_pay110, k1_pay111, k1_pay112, k1_pay113, k1_pay114, k1_pay115, k1_pay116, k1_pay117, k1_pay118, k1_pay119, k1_pay120, k1_pay121, k1_pay122, k1_pay123, k1_pay124, k1_pay125,
        k1_pay126, k1_pay127, k1_pay128, k1_pay129, k1_pay130, k1_pay131, k1_pay132, k1_pay133, k1_pay134, k1_pay135, k1_pay136, k1_pay137, k1_pay138, k1_pay139, k1_pay140, k1_pay141,
        k1_pay142, k1_pay143, k1_pay144, k1_pay145, k1_pay146, k1_pay147, k1_pay148, k1_pay149, k1_pay150, k1_pay151, k1_pay152, k1_pay153, k1_pay154, k1_pay155, k1_pay156, k1_pay157,
        k1_pay158, k1_pay159, k1_pay160, k1_pay161, k1_pay162, k1_pay163, k1_pay164, k1_pay165, k1_pay166, k1_pay167, k1_pay168, k1_pay169, k1_pay170, k1_pay171, k1_pay172, k1_pay173,
        k1_pay174, k1_pay175, k1_pay176, k1_pay177, k1_pay178, k1_pay179, k1_pay180, k1_pay181, k1_pay182, k1_pay183, k1_pay184, k1_pay185, k1_pay186, k1_pay187, k1_pay188, k1_pay189,
        k1_pay190, k1_pay191, k1_pay192, k1_pay193, k1_pay194, k1_pay195, k1_pay196, k1_pay197, k1_pay198, k1_pay199, k1_pay200, k1_pay201, k1_pay202, k1_pay203, k1_pay204, k1_pay205,
        k1_pay206, k1_pay207, k1_pay208, k1_pay209, k1_pay210, k1_pay211, k1_pay212, k1_pay213, k1_pay214, k1_pay215, k1_pay216, k1_pay217, k1_pay218, k1_pay219, k1_pay220, k1_pay221,
        k1_pay222, k1_pay223, k1_pay224, k1_pay225, k1_pay226, k1_pay227, k1_pay228, k1_pay229, k1_pay230, k1_pay231, k1_pay232, k1_pay233, k1_pay234, k1_pay235, k1_pay236, k1_pay237,
        k1_pay238, k1_pay239, k1_pay240, k1_pay241, k1_pay242, k1_pay243, k1_pay244, k1_pay245, k1_pay246, k1_pay247, k1_pay248, k1_pay249, k1_pay250, k1_pay251, k1_pay252, k1_pay253,
        k1_pay254, k1_pay255, k1_pay256, k1_pay257, k1_pay258, k1_pay259, k1_pay260, k1_pay261, k1_pay262, k1_pay263, k1_pay264, k1_pay265, k1_pay266, k1_pay267, k1_pay268, k1_pay269,
        k1_pay270, k1_pay271, k1_pay272, k1_pay273, k1_pay274, k1_pay275, k1_pay276, k1_pay277, k1_pay278, k1_pay279, k1_pay280, k1_pay281, k1_pay282, k1_pay283, k1_pay284, k1_pay285,
        k1_pay286, k1_pay287, k1_pay288, k1_pay289, k1_pay290, k1_pay291, k1_pay292, k1_pay293, k1_pay294, k1_pay295, k1_pay296, k1_pay297, k1_pay298, k1_pay299, k1_pay300, k1_pay301,
        k1_pay302, k1_pay303, k1_pay304, k1_pay305, k1_pay306, k1_pay307, k1_pay308, k1_pay309, k1_pay310, k1_pay311, k1_pay312, k1_pay313, k1_pay314, k1_pay315, k1_pay316, k1_pay317,
        k1_pay318, k1_pay319, k1_pay320, k1_pay321, k1_pay322, k1_pay323, Pure.addf_at, Pure.mulf_at, Pure.broadcast_at, Pure.lane_at, Pure.cast16_16, Pure.cast1x16_16, Pure.cast16_1x16]
      rfl
    · intro l
      show _ = Pure.acc32 (rowW fw r) (rowE fb sub (⟨80 + l.val, by have := l.isLt; omega⟩ : Fin 128))
        (g (ix2 r (⟨80 + l.val, by have := l.isLt; omega⟩ : Fin 128)))
      refine ((?_ : _ = _).trans (Pure.acc32_chain (wraw3 fw t2 t) (eraw3_5 fb t l) (graw3_5 g t2 t l))).trans
        (Pure.acc32_congr (wraw3_eq fw t2 t r hr) (eraw3_5_eq fb t sub hs l _ rfl) (graw3_5_eq g t2 t r hr l _ rfl))
      delta Cert.Proof.KB.k1_t3_trip.sl.r Cert.Proof.KB.k1_t3_trip.sl.r_1 Cert.Proof.KB.k1_t3_trip.sl.r_2 Cert.Proof.KB.k1_t3_trip.sl.r_3 Cert.Proof.KB.k1_t3_trip.sl.r_4
        Cert.Proof.KB.k1_t3_trip.sl.r_5 Cert.Proof.KB.k1_t3_trip.sl.r_6 Cert.Proof.KB.k1_t3_trip.sl.r_7 Cert.Proof.KB.k1_t3_trip.sl.r_8 Cert.Proof.KB.k1_t3_trip.sl.r_9
        Cert.Proof.KB.k1_t3_trip.sl.r_10 Cert.Proof.KB.k1_t3_trip.sl.r_11 Cert.Proof.KB.k1_t3_trip.sl.r_12 Cert.Proof.KB.k1_t3_trip.sl.r_13 Cert.Proof.KB.k1_t3_trip.sl.r_14
        Cert.Proof.KB.k1_t3_trip.sl.r_15 Cert.Proof.KB.k1_t3_trip.sl.r_16 Cert.Proof.KB.k1_t3_trip.sl.r_17 Cert.Proof.KB.k1_t3_trip.sl.r_18 Cert.Proof.KB.k1_t3_trip.sl.r_19
        Cert.Proof.KB.k1_t3_trip.sl.r_20 Cert.Proof.KB.k1_t3_trip.sl.r_21 Cert.Proof.KB.k1_t3_trip.sl.r_22 Cert.Proof.KB.k1_t3_trip.sl.r_23 Cert.Proof.KB.k1_t3_trip.sl.r_24
        Cert.Proof.KB.k1_t3_trip.sl.r_25 Cert.Proof.KB.k1_t3_trip.sl.r_26 Cert.Proof.KB.k1_t3_trip.sl.r_27 Cert.Proof.KB.k1_t3_trip.sl.r_28 Cert.Proof.KB.k1_t3_trip.sl.r_29
        Cert.Proof.KB.k1_t3_trip.sl.r_30 Cert.Proof.KB.k1_t3_trip.sl.r_31 Cert.Proof.KB.k1_t3_trip.sl.r_32 Cert.Proof.KB.k1_t3_trip.sl.r_33 Cert.Proof.KB.k1_t3_trip.sl.r_34
        Cert.Proof.KB.k1_t3_trip.sl.r_35 Cert.Proof.KB.k1_t3_trip.sl.r_36 Cert.Proof.KB.k1_t3_trip.sl.r_37 Cert.Proof.KB.k1_t3_trip.sl.r_38 Cert.Proof.KB.k1_t3_trip.sl.r_39
        Cert.Proof.KB.k1_t3_trip.sl.r_40 Cert.Proof.KB.k1_t3_trip.sl.r_41 Cert.Proof.KB.k1_t3_trip.sl.r_42 Cert.Proof.KB.k1_t3_trip.sl.r_43 Cert.Proof.KB.k1_t3_trip.sl.r_44
        Cert.Proof.KB.k1_t3_trip.sl.r_45 Cert.Proof.KB.k1_t3_trip.sl.r_46 Cert.Proof.KB.k1_t3_trip.sl.r_47 Cert.Proof.KB.k1_t3_trip.sl.r_48 Cert.Proof.KB.k1_t3_trip.sl.r_49
        Cert.Proof.KB.k1_t3_trip.sl.r_50 Cert.Proof.KB.k1_t3_trip.sl.r_51 Cert.Proof.KB.k1_t3_trip.sl.r_52 Cert.Proof.KB.k1_t3_trip.sl.r_53 Cert.Proof.KB.k1_t3_trip.sl.r_54
        Cert.Proof.KB.k1_t3_trip.sl.r_55 Cert.Proof.KB.k1_t3_trip.sl.r_56 Cert.Proof.KB.k1_t3_trip.sl.r_57 Cert.Proof.KB.k1_t3_trip.sl.r_58 Cert.Proof.KB.k1_t3_trip.sl.r_59
        Cert.Proof.KB.k1_t3_trip.sl.r_60 Cert.Proof.KB.k1_t3_trip.sl.r_61 Cert.Proof.KB.k1_t3_trip.sl.r_62 Cert.Proof.KB.k1_t3_trip.sl.r_63 Cert.Proof.KB.k1_t3_trip.sl.r_64
        Cert.Proof.KB.k1_t3_trip.sl.r_65 Cert.Proof.KB.k1_t3_trip.sl.r_66 Cert.Proof.KB.k1_t3_trip.sl.r_67 Cert.Proof.KB.k1_t3_trip.sl.r_68 Cert.Proof.KB.k1_t3_trip.sl.r_69
        Cert.Proof.KB.k1_t3_trip.sl.r_70 Cert.Proof.KB.k1_t3_trip.sl.r_71 Cert.Proof.KB.k1_t3_trip.sl.r_72 Cert.Proof.KB.k1_t3_trip.sl.r_73 Cert.Proof.KB.k1_t3_trip.sl.r_74
        Cert.Proof.KB.k1_t3_trip.sl.r_75 Cert.Proof.KB.k1_t3_trip.sl.r_76 Cert.Proof.KB.k1_t3_trip.sl.r_77 Cert.Proof.KB.k1_t3_trip.sl.r_78 Cert.Proof.KB.k1_t3_trip.sl.r_79
        Cert.Proof.KB.k1_t3_trip.sl.r_80 Cert.Proof.KB.k1_t3_trip.sl.r_81 Cert.Proof.KB.k1_t3_trip.sl.r_82 Cert.Proof.KB.k1_t3_trip.sl.r_83 Cert.Proof.KB.k1_t3_trip.sl.r_84
        Cert.Proof.KB.k1_t3_trip.sl.r_85 Cert.Proof.KB.k1_t3_trip.sl.r_86 Cert.Proof.KB.k1_t3_trip.sl.r_87 Cert.Proof.KB.k1_t3_trip.sl.r_88 Cert.Proof.KB.k1_t3_trip.sl.r_89
        Cert.Proof.KB.k1_t3_trip.sl.r_90 Cert.Proof.KB.k1_t3_trip.sl.r_91 Cert.Proof.KB.k1_t3_trip.sl.r_92 Cert.Proof.KB.k1_t3_trip.sl.r_93 Cert.Proof.KB.k1_t3_trip.sl.r_94
        Cert.Proof.KB.k1_t3_trip.sl.r_95 Cert.Proof.KB.k1_t3_trip.sl.r_96 Cert.Proof.KB.k1_t3_trip.sl.r_97 Cert.Proof.KB.k1_t3_trip.sl.r_98 Cert.Proof.KB.k1_t3_trip.sl.r_99
        Cert.Proof.KB.k1_t3_trip.sl.r_100 Cert.Proof.KB.k1_t3_trip.sl.r_101 Cert.Proof.KB.k1_t3_trip.sl.r_102 Cert.Proof.KB.k1_t3_trip.sl.r_103 Cert.Proof.KB.k1_t3_trip.sl.r_104
        Cert.Proof.KB.k1_t3_trip.sl.r_105 Cert.Proof.KB.k1_t3_trip.sl.r_106 Cert.Proof.KB.k1_t3_trip.sl.r_107 Cert.Proof.KB.k1_t3_trip.sl.r_108 Cert.Proof.KB.k1_t3_trip.sl.r_109
        Cert.Proof.KB.k1_t3_trip.sl.r_110 Cert.Proof.KB.k1_t3_trip.sl.r_111 Cert.Proof.KB.k1_t3_trip.sl.r_112 Cert.Proof.KB.k1_t3_trip.sl.r_113 Cert.Proof.KB.k1_t3_trip.sl.r_114
        Cert.Proof.KB.k1_t3_trip.sl.r_115 Cert.Proof.KB.k1_t3_trip.sl.r_116 Cert.Proof.KB.k1_t3_trip.sl.r_117 Cert.Proof.KB.k1_t3_trip.sl.r_118 Cert.Proof.KB.k1_t3_trip.sl.r_119
        Cert.Proof.KB.k1_t3_trip.sl.r_120 Cert.Proof.KB.k1_t3_trip.sl.r_121 Cert.Proof.KB.k1_t3_trip.sl.r_122 Cert.Proof.KB.k1_t3_trip.sl.r_123 Cert.Proof.KB.k1_t3_trip.sl.r_124
        Cert.Proof.KB.k1_t3_trip.sl.r_125 Cert.Proof.KB.k1_t3_trip.sl.r_126 Cert.Proof.KB.k1_t3_trip.sl.r_127 Cert.Proof.KB.k1_t3_trip.sl.r_128 Cert.Proof.KB.k1_t3_trip.sl.r_129
        Cert.Proof.KB.k1_t3_trip.sl.r_130 Cert.Proof.KB.k1_t3_trip.sl.r_131 Cert.Proof.KB.k1_t3_trip.sl.r_132 Cert.Proof.KB.k1_t3_trip.sl.r_133 Cert.Proof.KB.k1_t3_trip.sl.r_134
        Cert.Proof.KB.k1_t3_trip.sl.r_135 Cert.Proof.KB.k1_t3_trip.sl.r_136 Cert.Proof.KB.k1_t3_trip.sl.r_137 Cert.Proof.KB.k1_t3_trip.sl.r_138 Cert.Proof.KB.k1_t3_trip.sl.r_139
        Cert.Proof.KB.k1_t3_trip.sl.r_140 Cert.Proof.KB.k1_t3_trip.sl.r_141 Cert.Proof.KB.k1_t3_trip.sl.r_142 Cert.Proof.KB.k1_t3_trip.sl.r_143 Cert.Proof.KB.k1_t3_trip.sl.r_144
        Cert.Proof.KB.k1_t3_trip.sl.r_145 Cert.Proof.KB.k1_t3_trip.sl.r_146 Cert.Proof.KB.k1_t3_trip.sl.r_147 Cert.Proof.KB.k1_t3_trip.sl.r_148 Cert.Proof.KB.k1_t3_trip.sl.r_149
        Cert.Proof.KB.k1_t3_trip.sl.r_150 Cert.Proof.KB.k1_t3_trip.sl.r_151 Cert.Proof.KB.k1_t3_trip.sl.r_152 Cert.Proof.KB.k1_t3_trip.sl.r_153 Cert.Proof.KB.k1_t3_trip.sl.r_154
        Cert.Proof.KB.k1_t3_trip.sl.r_155 Cert.Proof.KB.k1_t3_trip.sl.r_156 Cert.Proof.KB.k1_t3_trip.sl.r_157 Cert.Proof.KB.k1_t3_trip.sl.r_158 Cert.Proof.KB.k1_t3_trip.sl.r_159
        Cert.Proof.KB.k1_t3_trip.sl.r_160 Cert.Proof.KB.k1_t3_trip.sl.r_161 Cert.Proof.KB.k1_t3_trip.sl.r_162 Cert.Proof.KB.k1_t3_trip.sl.r_163 Cert.Proof.KB.k1_t3_trip.sl.r_164
        Cert.Proof.KB.k1_t3_trip.sl.r_165 Cert.Proof.KB.k1_t3_trip.sl.r_166 Cert.Proof.KB.k1_t3_trip.sl.r_167 Cert.Proof.KB.k1_t3_trip.sl.r_168 Cert.Proof.KB.k1_t3_trip.sl.r_169
        Cert.Proof.KB.k1_t3_trip.sl.r_170 Cert.Proof.KB.k1_t3_trip.sl.r_171 Cert.Proof.KB.k1_t3_trip.sl.r_172 Cert.Proof.KB.k1_t3_trip.sl.r_173 Cert.Proof.KB.k1_t3_trip.sl.r_174
        Cert.Proof.KB.k1_t3_trip.sl.r_175 Cert.Proof.KB.k1_t3_trip.sl.r_176 Cert.Proof.KB.k1_t3_trip.sl.r_177 Cert.Proof.KB.k1_t3_trip.sl.r_178 Cert.Proof.KB.k1_t3_trip.sl.r_179
        Cert.Proof.KB.k1_t3_trip.sl.r_180 Cert.Proof.KB.k1_t3_trip.sl.r_181 Cert.Proof.KB.k1_t3_trip.sl.r_182 Cert.Proof.KB.k1_t3_trip.sl.r_183 Cert.Proof.KB.k1_t3_trip.sl.r_184
        Cert.Proof.KB.k1_t3_trip.sl.r_185 Cert.Proof.KB.k1_t3_trip.sl.r_186 Cert.Proof.KB.k1_t3_trip.sl.r_187 Cert.Proof.KB.k1_t3_trip.sl.r_188 Cert.Proof.KB.k1_t3_trip.sl.r_189
        Cert.Proof.KB.k1_t3_trip.sl.r_190 Cert.Proof.KB.k1_t3_trip.sl.r_191 Cert.Proof.KB.k1_t3_trip.sl.r_192 Cert.Proof.KB.k1_t3_trip.sl.r_193 Cert.Proof.KB.k1_t3_trip.sl.r_194
        Cert.Proof.KB.k1_t3_trip.sl.r_195 Cert.Proof.KB.k1_t3_trip.sl.r_196 Cert.Proof.KB.k1_t3_trip.sl.r_197 Cert.Proof.KB.k1_t3_trip.sl.r_198 Cert.Proof.KB.k1_t3_trip.sl.r_199
        Cert.Proof.KB.k1_t3_trip.sl.r_200 Cert.Proof.KB.k1_t3_trip.sl.r_201 Cert.Proof.KB.k1_t3_trip.sl.r_202 Cert.Proof.KB.k1_t3_trip.sl.r_203 Cert.Proof.KB.k1_t3_trip.sl.r_204
        Cert.Proof.KB.k1_t3_trip.sl.r_205 Cert.Proof.KB.k1_t3_trip.sl.r_206 Cert.Proof.KB.k1_t3_trip.sl.r_207 Cert.Proof.KB.k1_t3_trip.sl.r_208 Cert.Proof.KB.k1_t3_trip.sl.r_209
        Cert.Proof.KB.k1_t3_trip.sl.r_210 Cert.Proof.KB.k1_t3_trip.sl.r_211 Cert.Proof.KB.k1_t3_trip.sl.r_212 Cert.Proof.KB.k1_t3_trip.sl.r_213 Cert.Proof.KB.k1_t3_trip.sl.r_214
        Cert.Proof.KB.k1_t3_trip.sl.r_215 Cert.Proof.KB.k1_t3_trip.sl.r_216 Cert.Proof.KB.k1_t3_trip.sl.r_217 Cert.Proof.KB.k1_t3_trip.sl.r_218 Cert.Proof.KB.k1_t3_trip.sl.r_219
        Cert.Proof.KB.k1_t3_trip.sl.r_220 Cert.Proof.KB.k1_t3_trip.sl.r_221 Cert.Proof.KB.k1_t3_trip.sl.r_222 Cert.Proof.KB.k1_t3_trip.sl.r_223 Cert.Proof.KB.k1_t3_trip.sl.r_224
        Cert.Proof.KB.k1_t3_trip.sl.r_225 Cert.Proof.KB.k1_t3_trip.sl.r_226 Cert.Proof.KB.k1_t3_trip.sl.r_227 Cert.Proof.KB.k1_t3_trip.sl.r_228 Cert.Proof.KB.k1_t3_trip.sl.r_229
        Cert.Proof.KB.k1_t3_trip.sl.r_230 Cert.Proof.KB.k1_t3_trip.sl.r_231 Cert.Proof.KB.k1_t3_trip.sl.r_232 Cert.Proof.KB.k1_t3_trip.sl.r_233 Cert.Proof.KB.k1_t3_trip.sl.r_234
        Cert.Proof.KB.k1_t3_trip.sl.r_235 Cert.Proof.KB.k1_t3_trip.sl.r_236 Cert.Proof.KB.k1_t3_trip.sl.r_237 Cert.Proof.KB.k1_t3_trip.sl.r_238 Cert.Proof.KB.k1_t3_trip.sl.r_239
        Cert.Proof.KB.k1_t3_trip.sl.r_240 Cert.Proof.KB.k1_t3_trip.sl.r_241 Cert.Proof.KB.k1_t3_trip.sl.r_242 Cert.Proof.KB.k1_t3_trip.sl.r_243 Cert.Proof.KB.k1_t3_trip.sl.r_244
        Cert.Proof.KB.k1_t3_trip.sl.r_245 Cert.Proof.KB.k1_t3_trip.sl.r_246 Cert.Proof.KB.k1_t3_trip.sl.r_247 Cert.Proof.KB.k1_t3_trip.sl.r_248 Cert.Proof.KB.k1_t3_trip.sl.r_249
        Cert.Proof.KB.k1_t3_trip.sl.r_250 Cert.Proof.KB.k1_t3_trip.sl.r_251 Cert.Proof.KB.k1_t3_trip.sl.r_252 Cert.Proof.KB.k1_t3_trip.sl.r_253 Cert.Proof.KB.k1_t3_trip.sl.r_254
        Cert.Proof.KB.k1_t3_trip.sl.r_255 Cert.Proof.KB.k1_t3_trip.sl.r_256 Cert.Proof.KB.k1_t3_trip.sl.r_257 Cert.Proof.KB.k1_t3_trip.sl.r_258 Cert.Proof.KB.k1_t3_trip.sl.r_259
        Cert.Proof.KB.k1_t3_trip.sl.r_260 Cert.Proof.KB.k1_t3_trip.sl.r_261 Cert.Proof.KB.k1_t3_trip.sl.r_262 Cert.Proof.KB.k1_t3_trip.sl.r_263 Cert.Proof.KB.k1_t3_trip.sl.r_264
        Cert.Proof.KB.k1_t3_trip.sl.r_265 Cert.Proof.KB.k1_t3_trip.sl.r_266 Cert.Proof.KB.k1_t3_trip.sl.r_267 Cert.Proof.KB.k1_t3_trip.sl.r_268 Cert.Proof.KB.k1_t3_trip.sl.r_269
        Cert.Proof.KB.k1_t3_trip.sl.r_270 Cert.Proof.KB.k1_t3_trip.sl.r_271 Cert.Proof.KB.k1_t3_trip.sl.r_272 Cert.Proof.KB.k1_t3_trip.sl.r_273 Cert.Proof.KB.k1_t3_trip.sl.r_274
        Cert.Proof.KB.k1_t3_trip.sl.r_275 Cert.Proof.KB.k1_t3_trip.sl.r_276 Cert.Proof.KB.k1_t3_trip.sl.r_277 Cert.Proof.KB.k1_t3_trip.sl.r_278 Cert.Proof.KB.k1_t3_trip.sl.r_279
        Cert.Proof.KB.k1_t3_trip.sl.r_280 Cert.Proof.KB.k1_t3_trip.sl.r_281 Cert.Proof.KB.k1_t3_trip.sl.r_282 Cert.Proof.KB.k1_t3_trip.sl.r_283 Cert.Proof.KB.k1_t3_trip.sl.r_284
        Cert.Proof.KB.k1_t3_trip.sl.r_285 Cert.Proof.KB.k1_t3_trip.sl.r_286 Cert.Proof.KB.k1_t3_trip.sl.r_287 Cert.Proof.KB.k1_t3_trip.sl.r_288 Cert.Proof.KB.k1_t3_trip.sl.r_289
        Cert.Proof.KB.k1_t3_trip.sl.r_290 Cert.Proof.KB.k1_t3_trip.sl.r_291 Cert.Proof.KB.k1_t3_trip.sl.r_292 Cert.Proof.KB.k1_t3_trip.sl.r_293 Cert.Proof.KB.k1_t3_trip.sl.r_294
        Cert.Proof.KB.k1_t3_trip.sl.r_295 Cert.Proof.KB.k1_t3_trip.sl.r_296 Cert.Proof.KB.k1_t3_trip.sl.r_297 Cert.Proof.KB.k1_t3_trip.sl.r_298 Cert.Proof.KB.k1_t3_trip.sl.r_299
        Cert.Proof.KB.k1_t3_trip.sl.r_300 Cert.Proof.KB.k1_t3_trip.sl.r_301 Cert.Proof.KB.k1_t3_trip.sl.r_302 Cert.Proof.KB.k1_t3_trip.sl.r_303 Cert.Proof.KB.k1_t3_trip.sl.r_304
        Cert.Proof.KB.k1_t3_trip.sl.r_305 Cert.Proof.KB.k1_t3_trip.sl.r_306 Cert.Proof.KB.k1_t3_trip.sl.r_307 Cert.Proof.KB.k1_t3_trip.sl.r_308 Cert.Proof.KB.k1_t3_trip.sl.r_309
        Cert.Proof.KB.k1_t3_trip.sl.r_310 Cert.Proof.KB.k1_t3_trip.sl.r_311 Cert.Proof.KB.k1_t3_trip.sl.r_312 Cert.Proof.KB.k1_t3_trip.sl.r_313 Cert.Proof.KB.k1_t3_trip.sl.r_314
        Cert.Proof.KB.k1_t3_trip.sl.r_315 Cert.Proof.KB.k1_t3_trip.sl.r_316 Cert.Proof.KB.k1_t3_trip.sl.r_317 Cert.Proof.KB.k1_t3_trip.sl.r_318
      conv_lhs => simp only [k1_pay1, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20,
        k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38,
        k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56,
        k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74,
        k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92,
        k1_pay93, k1_pay94, k1_pay95, k1_pay96, k1_pay97, k1_pay98, k1_pay99, k1_pay100, k1_pay101, k1_pay102, k1_pay103, k1_pay104, k1_pay105, k1_pay106, k1_pay107, k1_pay108, k1_pay109,
        k1_pay110, k1_pay111, k1_pay112, k1_pay113, k1_pay114, k1_pay115, k1_pay116, k1_pay117, k1_pay118, k1_pay119, k1_pay120, k1_pay121, k1_pay122, k1_pay123, k1_pay124, k1_pay125,
        k1_pay126, k1_pay127, k1_pay128, k1_pay129, k1_pay130, k1_pay131, k1_pay132, k1_pay133, k1_pay134, k1_pay135, k1_pay136, k1_pay137, k1_pay138, k1_pay139, k1_pay140, k1_pay141,
        k1_pay142, k1_pay143, k1_pay144, k1_pay145, k1_pay146, k1_pay147, k1_pay148, k1_pay149, k1_pay150, k1_pay151, k1_pay152, k1_pay153, k1_pay154, k1_pay155, k1_pay156, k1_pay157,
        k1_pay158, k1_pay159, k1_pay160, k1_pay161, k1_pay162, k1_pay163, k1_pay164, k1_pay165, k1_pay166, k1_pay167, k1_pay168, k1_pay169, k1_pay170, k1_pay171, k1_pay172, k1_pay173,
        k1_pay174, k1_pay175, k1_pay176, k1_pay177, k1_pay178, k1_pay179, k1_pay180, k1_pay181, k1_pay182, k1_pay183, k1_pay184, k1_pay185, k1_pay186, k1_pay187, k1_pay188, k1_pay189,
        k1_pay190, k1_pay191, k1_pay192, k1_pay193, k1_pay194, k1_pay195, k1_pay196, k1_pay197, k1_pay198, k1_pay199, k1_pay200, k1_pay201, k1_pay202, k1_pay203, k1_pay204, k1_pay205,
        k1_pay206, k1_pay207, k1_pay208, k1_pay209, k1_pay210, k1_pay211, k1_pay212, k1_pay213, k1_pay214, k1_pay215, k1_pay216, k1_pay217, k1_pay218, k1_pay219, k1_pay220, k1_pay221,
        k1_pay222, k1_pay223, k1_pay224, k1_pay225, k1_pay226, k1_pay227, k1_pay228, k1_pay229, k1_pay230, k1_pay231, k1_pay232, k1_pay233, k1_pay234, k1_pay235, k1_pay236, k1_pay237,
        k1_pay238, k1_pay239, k1_pay240, k1_pay241, k1_pay242, k1_pay243, k1_pay244, k1_pay245, k1_pay246, k1_pay247, k1_pay248, k1_pay249, k1_pay250, k1_pay251, k1_pay252, k1_pay253,
        k1_pay254, k1_pay255, k1_pay256, k1_pay257, k1_pay258, k1_pay259, k1_pay260, k1_pay261, k1_pay262, k1_pay263, k1_pay264, k1_pay265, k1_pay266, k1_pay267, k1_pay268, k1_pay269,
        k1_pay270, k1_pay271, k1_pay272, k1_pay273, k1_pay274, k1_pay275, k1_pay276, k1_pay277, k1_pay278, k1_pay279, k1_pay280, k1_pay281, k1_pay282, k1_pay283, k1_pay284, k1_pay285,
        k1_pay286, k1_pay287, k1_pay288, k1_pay289, k1_pay290, k1_pay291, k1_pay292, k1_pay293, k1_pay294, k1_pay295, k1_pay296, k1_pay297, k1_pay298, k1_pay299, k1_pay300, k1_pay301,
        k1_pay302, k1_pay303, k1_pay304, k1_pay305, k1_pay306, k1_pay307, k1_pay308, k1_pay309, k1_pay310, k1_pay311, k1_pay312, k1_pay313, k1_pay314, k1_pay315, k1_pay316, k1_pay317,
        k1_pay318, k1_pay319, k1_pay320, k1_pay321, k1_pay322, k1_pay323, Pure.addf_at, Pure.mulf_at, Pure.broadcast_at, Pure.lane_at, Pure.cast16_16, Pure.cast1x16_16, Pure.cast16_1x16]
      rfl
    · intro l
      show _ = Pure.acc32 (rowW fw r) (rowE fb sub (⟨96 + l.val, by have := l.isLt; omega⟩ : Fin 128))
        (g (ix2 r (⟨96 + l.val, by have := l.isLt; omega⟩ : Fin 128)))
      refine ((?_ : _ = _).trans (Pure.acc32_chain (wraw3 fw t2 t) (eraw3_6 fb t l) (graw3_6 g t2 t l))).trans
        (Pure.acc32_congr (wraw3_eq fw t2 t r hr) (eraw3_6_eq fb t sub hs l _ rfl) (graw3_6_eq g t2 t r hr l _ rfl))
      delta Cert.Proof.KB.k1_t3_trip.sl.r Cert.Proof.KB.k1_t3_trip.sl.r_1 Cert.Proof.KB.k1_t3_trip.sl.r_2 Cert.Proof.KB.k1_t3_trip.sl.r_3 Cert.Proof.KB.k1_t3_trip.sl.r_4
        Cert.Proof.KB.k1_t3_trip.sl.r_5 Cert.Proof.KB.k1_t3_trip.sl.r_6 Cert.Proof.KB.k1_t3_trip.sl.r_7 Cert.Proof.KB.k1_t3_trip.sl.r_8 Cert.Proof.KB.k1_t3_trip.sl.r_9
        Cert.Proof.KB.k1_t3_trip.sl.r_10 Cert.Proof.KB.k1_t3_trip.sl.r_11 Cert.Proof.KB.k1_t3_trip.sl.r_12 Cert.Proof.KB.k1_t3_trip.sl.r_13 Cert.Proof.KB.k1_t3_trip.sl.r_14
        Cert.Proof.KB.k1_t3_trip.sl.r_15 Cert.Proof.KB.k1_t3_trip.sl.r_16 Cert.Proof.KB.k1_t3_trip.sl.r_17 Cert.Proof.KB.k1_t3_trip.sl.r_18 Cert.Proof.KB.k1_t3_trip.sl.r_19
        Cert.Proof.KB.k1_t3_trip.sl.r_20 Cert.Proof.KB.k1_t3_trip.sl.r_21 Cert.Proof.KB.k1_t3_trip.sl.r_22 Cert.Proof.KB.k1_t3_trip.sl.r_23 Cert.Proof.KB.k1_t3_trip.sl.r_24
        Cert.Proof.KB.k1_t3_trip.sl.r_25 Cert.Proof.KB.k1_t3_trip.sl.r_26 Cert.Proof.KB.k1_t3_trip.sl.r_27 Cert.Proof.KB.k1_t3_trip.sl.r_28 Cert.Proof.KB.k1_t3_trip.sl.r_29
        Cert.Proof.KB.k1_t3_trip.sl.r_30 Cert.Proof.KB.k1_t3_trip.sl.r_31 Cert.Proof.KB.k1_t3_trip.sl.r_32 Cert.Proof.KB.k1_t3_trip.sl.r_33 Cert.Proof.KB.k1_t3_trip.sl.r_34
        Cert.Proof.KB.k1_t3_trip.sl.r_35 Cert.Proof.KB.k1_t3_trip.sl.r_36 Cert.Proof.KB.k1_t3_trip.sl.r_37 Cert.Proof.KB.k1_t3_trip.sl.r_38 Cert.Proof.KB.k1_t3_trip.sl.r_39
        Cert.Proof.KB.k1_t3_trip.sl.r_40 Cert.Proof.KB.k1_t3_trip.sl.r_41 Cert.Proof.KB.k1_t3_trip.sl.r_42 Cert.Proof.KB.k1_t3_trip.sl.r_43 Cert.Proof.KB.k1_t3_trip.sl.r_44
        Cert.Proof.KB.k1_t3_trip.sl.r_45 Cert.Proof.KB.k1_t3_trip.sl.r_46 Cert.Proof.KB.k1_t3_trip.sl.r_47 Cert.Proof.KB.k1_t3_trip.sl.r_48 Cert.Proof.KB.k1_t3_trip.sl.r_49
        Cert.Proof.KB.k1_t3_trip.sl.r_50 Cert.Proof.KB.k1_t3_trip.sl.r_51 Cert.Proof.KB.k1_t3_trip.sl.r_52 Cert.Proof.KB.k1_t3_trip.sl.r_53 Cert.Proof.KB.k1_t3_trip.sl.r_54
        Cert.Proof.KB.k1_t3_trip.sl.r_55 Cert.Proof.KB.k1_t3_trip.sl.r_56 Cert.Proof.KB.k1_t3_trip.sl.r_57 Cert.Proof.KB.k1_t3_trip.sl.r_58 Cert.Proof.KB.k1_t3_trip.sl.r_59
        Cert.Proof.KB.k1_t3_trip.sl.r_60 Cert.Proof.KB.k1_t3_trip.sl.r_61 Cert.Proof.KB.k1_t3_trip.sl.r_62 Cert.Proof.KB.k1_t3_trip.sl.r_63 Cert.Proof.KB.k1_t3_trip.sl.r_64
        Cert.Proof.KB.k1_t3_trip.sl.r_65 Cert.Proof.KB.k1_t3_trip.sl.r_66 Cert.Proof.KB.k1_t3_trip.sl.r_67 Cert.Proof.KB.k1_t3_trip.sl.r_68 Cert.Proof.KB.k1_t3_trip.sl.r_69
        Cert.Proof.KB.k1_t3_trip.sl.r_70 Cert.Proof.KB.k1_t3_trip.sl.r_71 Cert.Proof.KB.k1_t3_trip.sl.r_72 Cert.Proof.KB.k1_t3_trip.sl.r_73 Cert.Proof.KB.k1_t3_trip.sl.r_74
        Cert.Proof.KB.k1_t3_trip.sl.r_75 Cert.Proof.KB.k1_t3_trip.sl.r_76 Cert.Proof.KB.k1_t3_trip.sl.r_77 Cert.Proof.KB.k1_t3_trip.sl.r_78 Cert.Proof.KB.k1_t3_trip.sl.r_79
        Cert.Proof.KB.k1_t3_trip.sl.r_80 Cert.Proof.KB.k1_t3_trip.sl.r_81 Cert.Proof.KB.k1_t3_trip.sl.r_82 Cert.Proof.KB.k1_t3_trip.sl.r_83 Cert.Proof.KB.k1_t3_trip.sl.r_84
        Cert.Proof.KB.k1_t3_trip.sl.r_85 Cert.Proof.KB.k1_t3_trip.sl.r_86 Cert.Proof.KB.k1_t3_trip.sl.r_87 Cert.Proof.KB.k1_t3_trip.sl.r_88 Cert.Proof.KB.k1_t3_trip.sl.r_89
        Cert.Proof.KB.k1_t3_trip.sl.r_90 Cert.Proof.KB.k1_t3_trip.sl.r_91 Cert.Proof.KB.k1_t3_trip.sl.r_92 Cert.Proof.KB.k1_t3_trip.sl.r_93 Cert.Proof.KB.k1_t3_trip.sl.r_94
        Cert.Proof.KB.k1_t3_trip.sl.r_95 Cert.Proof.KB.k1_t3_trip.sl.r_96 Cert.Proof.KB.k1_t3_trip.sl.r_97 Cert.Proof.KB.k1_t3_trip.sl.r_98 Cert.Proof.KB.k1_t3_trip.sl.r_99
        Cert.Proof.KB.k1_t3_trip.sl.r_100 Cert.Proof.KB.k1_t3_trip.sl.r_101 Cert.Proof.KB.k1_t3_trip.sl.r_102 Cert.Proof.KB.k1_t3_trip.sl.r_103 Cert.Proof.KB.k1_t3_trip.sl.r_104
        Cert.Proof.KB.k1_t3_trip.sl.r_105 Cert.Proof.KB.k1_t3_trip.sl.r_106 Cert.Proof.KB.k1_t3_trip.sl.r_107 Cert.Proof.KB.k1_t3_trip.sl.r_108 Cert.Proof.KB.k1_t3_trip.sl.r_109
        Cert.Proof.KB.k1_t3_trip.sl.r_110 Cert.Proof.KB.k1_t3_trip.sl.r_111 Cert.Proof.KB.k1_t3_trip.sl.r_112 Cert.Proof.KB.k1_t3_trip.sl.r_113 Cert.Proof.KB.k1_t3_trip.sl.r_114
        Cert.Proof.KB.k1_t3_trip.sl.r_115 Cert.Proof.KB.k1_t3_trip.sl.r_116 Cert.Proof.KB.k1_t3_trip.sl.r_117 Cert.Proof.KB.k1_t3_trip.sl.r_118 Cert.Proof.KB.k1_t3_trip.sl.r_119
        Cert.Proof.KB.k1_t3_trip.sl.r_120 Cert.Proof.KB.k1_t3_trip.sl.r_121 Cert.Proof.KB.k1_t3_trip.sl.r_122 Cert.Proof.KB.k1_t3_trip.sl.r_123 Cert.Proof.KB.k1_t3_trip.sl.r_124
        Cert.Proof.KB.k1_t3_trip.sl.r_125 Cert.Proof.KB.k1_t3_trip.sl.r_126 Cert.Proof.KB.k1_t3_trip.sl.r_127 Cert.Proof.KB.k1_t3_trip.sl.r_128 Cert.Proof.KB.k1_t3_trip.sl.r_129
        Cert.Proof.KB.k1_t3_trip.sl.r_130 Cert.Proof.KB.k1_t3_trip.sl.r_131 Cert.Proof.KB.k1_t3_trip.sl.r_132 Cert.Proof.KB.k1_t3_trip.sl.r_133 Cert.Proof.KB.k1_t3_trip.sl.r_134
        Cert.Proof.KB.k1_t3_trip.sl.r_135 Cert.Proof.KB.k1_t3_trip.sl.r_136 Cert.Proof.KB.k1_t3_trip.sl.r_137 Cert.Proof.KB.k1_t3_trip.sl.r_138 Cert.Proof.KB.k1_t3_trip.sl.r_139
        Cert.Proof.KB.k1_t3_trip.sl.r_140 Cert.Proof.KB.k1_t3_trip.sl.r_141 Cert.Proof.KB.k1_t3_trip.sl.r_142 Cert.Proof.KB.k1_t3_trip.sl.r_143 Cert.Proof.KB.k1_t3_trip.sl.r_144
        Cert.Proof.KB.k1_t3_trip.sl.r_145 Cert.Proof.KB.k1_t3_trip.sl.r_146 Cert.Proof.KB.k1_t3_trip.sl.r_147 Cert.Proof.KB.k1_t3_trip.sl.r_148 Cert.Proof.KB.k1_t3_trip.sl.r_149
        Cert.Proof.KB.k1_t3_trip.sl.r_150 Cert.Proof.KB.k1_t3_trip.sl.r_151 Cert.Proof.KB.k1_t3_trip.sl.r_152 Cert.Proof.KB.k1_t3_trip.sl.r_153 Cert.Proof.KB.k1_t3_trip.sl.r_154
        Cert.Proof.KB.k1_t3_trip.sl.r_155 Cert.Proof.KB.k1_t3_trip.sl.r_156 Cert.Proof.KB.k1_t3_trip.sl.r_157 Cert.Proof.KB.k1_t3_trip.sl.r_158 Cert.Proof.KB.k1_t3_trip.sl.r_159
        Cert.Proof.KB.k1_t3_trip.sl.r_160 Cert.Proof.KB.k1_t3_trip.sl.r_161 Cert.Proof.KB.k1_t3_trip.sl.r_162 Cert.Proof.KB.k1_t3_trip.sl.r_163 Cert.Proof.KB.k1_t3_trip.sl.r_164
        Cert.Proof.KB.k1_t3_trip.sl.r_165 Cert.Proof.KB.k1_t3_trip.sl.r_166 Cert.Proof.KB.k1_t3_trip.sl.r_167 Cert.Proof.KB.k1_t3_trip.sl.r_168 Cert.Proof.KB.k1_t3_trip.sl.r_169
        Cert.Proof.KB.k1_t3_trip.sl.r_170 Cert.Proof.KB.k1_t3_trip.sl.r_171 Cert.Proof.KB.k1_t3_trip.sl.r_172 Cert.Proof.KB.k1_t3_trip.sl.r_173 Cert.Proof.KB.k1_t3_trip.sl.r_174
        Cert.Proof.KB.k1_t3_trip.sl.r_175 Cert.Proof.KB.k1_t3_trip.sl.r_176 Cert.Proof.KB.k1_t3_trip.sl.r_177 Cert.Proof.KB.k1_t3_trip.sl.r_178 Cert.Proof.KB.k1_t3_trip.sl.r_179
        Cert.Proof.KB.k1_t3_trip.sl.r_180 Cert.Proof.KB.k1_t3_trip.sl.r_181 Cert.Proof.KB.k1_t3_trip.sl.r_182 Cert.Proof.KB.k1_t3_trip.sl.r_183 Cert.Proof.KB.k1_t3_trip.sl.r_184
        Cert.Proof.KB.k1_t3_trip.sl.r_185 Cert.Proof.KB.k1_t3_trip.sl.r_186 Cert.Proof.KB.k1_t3_trip.sl.r_187 Cert.Proof.KB.k1_t3_trip.sl.r_188 Cert.Proof.KB.k1_t3_trip.sl.r_189
        Cert.Proof.KB.k1_t3_trip.sl.r_190 Cert.Proof.KB.k1_t3_trip.sl.r_191 Cert.Proof.KB.k1_t3_trip.sl.r_192 Cert.Proof.KB.k1_t3_trip.sl.r_193 Cert.Proof.KB.k1_t3_trip.sl.r_194
        Cert.Proof.KB.k1_t3_trip.sl.r_195 Cert.Proof.KB.k1_t3_trip.sl.r_196 Cert.Proof.KB.k1_t3_trip.sl.r_197 Cert.Proof.KB.k1_t3_trip.sl.r_198 Cert.Proof.KB.k1_t3_trip.sl.r_199
        Cert.Proof.KB.k1_t3_trip.sl.r_200 Cert.Proof.KB.k1_t3_trip.sl.r_201 Cert.Proof.KB.k1_t3_trip.sl.r_202 Cert.Proof.KB.k1_t3_trip.sl.r_203 Cert.Proof.KB.k1_t3_trip.sl.r_204
        Cert.Proof.KB.k1_t3_trip.sl.r_205 Cert.Proof.KB.k1_t3_trip.sl.r_206 Cert.Proof.KB.k1_t3_trip.sl.r_207 Cert.Proof.KB.k1_t3_trip.sl.r_208 Cert.Proof.KB.k1_t3_trip.sl.r_209
        Cert.Proof.KB.k1_t3_trip.sl.r_210 Cert.Proof.KB.k1_t3_trip.sl.r_211 Cert.Proof.KB.k1_t3_trip.sl.r_212 Cert.Proof.KB.k1_t3_trip.sl.r_213 Cert.Proof.KB.k1_t3_trip.sl.r_214
        Cert.Proof.KB.k1_t3_trip.sl.r_215 Cert.Proof.KB.k1_t3_trip.sl.r_216 Cert.Proof.KB.k1_t3_trip.sl.r_217 Cert.Proof.KB.k1_t3_trip.sl.r_218 Cert.Proof.KB.k1_t3_trip.sl.r_219
        Cert.Proof.KB.k1_t3_trip.sl.r_220 Cert.Proof.KB.k1_t3_trip.sl.r_221 Cert.Proof.KB.k1_t3_trip.sl.r_222 Cert.Proof.KB.k1_t3_trip.sl.r_223 Cert.Proof.KB.k1_t3_trip.sl.r_224
        Cert.Proof.KB.k1_t3_trip.sl.r_225 Cert.Proof.KB.k1_t3_trip.sl.r_226 Cert.Proof.KB.k1_t3_trip.sl.r_227 Cert.Proof.KB.k1_t3_trip.sl.r_228 Cert.Proof.KB.k1_t3_trip.sl.r_229
        Cert.Proof.KB.k1_t3_trip.sl.r_230 Cert.Proof.KB.k1_t3_trip.sl.r_231 Cert.Proof.KB.k1_t3_trip.sl.r_232 Cert.Proof.KB.k1_t3_trip.sl.r_233 Cert.Proof.KB.k1_t3_trip.sl.r_234
        Cert.Proof.KB.k1_t3_trip.sl.r_235 Cert.Proof.KB.k1_t3_trip.sl.r_236 Cert.Proof.KB.k1_t3_trip.sl.r_237 Cert.Proof.KB.k1_t3_trip.sl.r_238 Cert.Proof.KB.k1_t3_trip.sl.r_239
        Cert.Proof.KB.k1_t3_trip.sl.r_240 Cert.Proof.KB.k1_t3_trip.sl.r_241 Cert.Proof.KB.k1_t3_trip.sl.r_242 Cert.Proof.KB.k1_t3_trip.sl.r_243 Cert.Proof.KB.k1_t3_trip.sl.r_244
        Cert.Proof.KB.k1_t3_trip.sl.r_245 Cert.Proof.KB.k1_t3_trip.sl.r_246 Cert.Proof.KB.k1_t3_trip.sl.r_247 Cert.Proof.KB.k1_t3_trip.sl.r_248 Cert.Proof.KB.k1_t3_trip.sl.r_249
        Cert.Proof.KB.k1_t3_trip.sl.r_250 Cert.Proof.KB.k1_t3_trip.sl.r_251 Cert.Proof.KB.k1_t3_trip.sl.r_252 Cert.Proof.KB.k1_t3_trip.sl.r_253 Cert.Proof.KB.k1_t3_trip.sl.r_254
        Cert.Proof.KB.k1_t3_trip.sl.r_255 Cert.Proof.KB.k1_t3_trip.sl.r_256 Cert.Proof.KB.k1_t3_trip.sl.r_257 Cert.Proof.KB.k1_t3_trip.sl.r_258 Cert.Proof.KB.k1_t3_trip.sl.r_259
        Cert.Proof.KB.k1_t3_trip.sl.r_260 Cert.Proof.KB.k1_t3_trip.sl.r_261 Cert.Proof.KB.k1_t3_trip.sl.r_262 Cert.Proof.KB.k1_t3_trip.sl.r_263 Cert.Proof.KB.k1_t3_trip.sl.r_264
        Cert.Proof.KB.k1_t3_trip.sl.r_265 Cert.Proof.KB.k1_t3_trip.sl.r_266 Cert.Proof.KB.k1_t3_trip.sl.r_267 Cert.Proof.KB.k1_t3_trip.sl.r_268 Cert.Proof.KB.k1_t3_trip.sl.r_269
        Cert.Proof.KB.k1_t3_trip.sl.r_270 Cert.Proof.KB.k1_t3_trip.sl.r_271 Cert.Proof.KB.k1_t3_trip.sl.r_272 Cert.Proof.KB.k1_t3_trip.sl.r_273 Cert.Proof.KB.k1_t3_trip.sl.r_274
        Cert.Proof.KB.k1_t3_trip.sl.r_275 Cert.Proof.KB.k1_t3_trip.sl.r_276 Cert.Proof.KB.k1_t3_trip.sl.r_277 Cert.Proof.KB.k1_t3_trip.sl.r_278 Cert.Proof.KB.k1_t3_trip.sl.r_279
        Cert.Proof.KB.k1_t3_trip.sl.r_280 Cert.Proof.KB.k1_t3_trip.sl.r_281 Cert.Proof.KB.k1_t3_trip.sl.r_282 Cert.Proof.KB.k1_t3_trip.sl.r_283 Cert.Proof.KB.k1_t3_trip.sl.r_284
        Cert.Proof.KB.k1_t3_trip.sl.r_285 Cert.Proof.KB.k1_t3_trip.sl.r_286 Cert.Proof.KB.k1_t3_trip.sl.r_287 Cert.Proof.KB.k1_t3_trip.sl.r_288 Cert.Proof.KB.k1_t3_trip.sl.r_289
        Cert.Proof.KB.k1_t3_trip.sl.r_290 Cert.Proof.KB.k1_t3_trip.sl.r_291 Cert.Proof.KB.k1_t3_trip.sl.r_292 Cert.Proof.KB.k1_t3_trip.sl.r_293 Cert.Proof.KB.k1_t3_trip.sl.r_294
        Cert.Proof.KB.k1_t3_trip.sl.r_295 Cert.Proof.KB.k1_t3_trip.sl.r_296 Cert.Proof.KB.k1_t3_trip.sl.r_297 Cert.Proof.KB.k1_t3_trip.sl.r_298 Cert.Proof.KB.k1_t3_trip.sl.r_299
        Cert.Proof.KB.k1_t3_trip.sl.r_300 Cert.Proof.KB.k1_t3_trip.sl.r_301 Cert.Proof.KB.k1_t3_trip.sl.r_302 Cert.Proof.KB.k1_t3_trip.sl.r_303 Cert.Proof.KB.k1_t3_trip.sl.r_304
        Cert.Proof.KB.k1_t3_trip.sl.r_305 Cert.Proof.KB.k1_t3_trip.sl.r_306 Cert.Proof.KB.k1_t3_trip.sl.r_307 Cert.Proof.KB.k1_t3_trip.sl.r_308 Cert.Proof.KB.k1_t3_trip.sl.r_309
        Cert.Proof.KB.k1_t3_trip.sl.r_310 Cert.Proof.KB.k1_t3_trip.sl.r_311 Cert.Proof.KB.k1_t3_trip.sl.r_312 Cert.Proof.KB.k1_t3_trip.sl.r_313 Cert.Proof.KB.k1_t3_trip.sl.r_314
        Cert.Proof.KB.k1_t3_trip.sl.r_315 Cert.Proof.KB.k1_t3_trip.sl.r_316 Cert.Proof.KB.k1_t3_trip.sl.r_317 Cert.Proof.KB.k1_t3_trip.sl.r_318
      conv_lhs => simp only [k1_pay1, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20,
        k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38,
        k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56,
        k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74,
        k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92,
        k1_pay93, k1_pay94, k1_pay95, k1_pay96, k1_pay97, k1_pay98, k1_pay99, k1_pay100, k1_pay101, k1_pay102, k1_pay103, k1_pay104, k1_pay105, k1_pay106, k1_pay107, k1_pay108, k1_pay109,
        k1_pay110, k1_pay111, k1_pay112, k1_pay113, k1_pay114, k1_pay115, k1_pay116, k1_pay117, k1_pay118, k1_pay119, k1_pay120, k1_pay121, k1_pay122, k1_pay123, k1_pay124, k1_pay125,
        k1_pay126, k1_pay127, k1_pay128, k1_pay129, k1_pay130, k1_pay131, k1_pay132, k1_pay133, k1_pay134, k1_pay135, k1_pay136, k1_pay137, k1_pay138, k1_pay139, k1_pay140, k1_pay141,
        k1_pay142, k1_pay143, k1_pay144, k1_pay145, k1_pay146, k1_pay147, k1_pay148, k1_pay149, k1_pay150, k1_pay151, k1_pay152, k1_pay153, k1_pay154, k1_pay155, k1_pay156, k1_pay157,
        k1_pay158, k1_pay159, k1_pay160, k1_pay161, k1_pay162, k1_pay163, k1_pay164, k1_pay165, k1_pay166, k1_pay167, k1_pay168, k1_pay169, k1_pay170, k1_pay171, k1_pay172, k1_pay173,
        k1_pay174, k1_pay175, k1_pay176, k1_pay177, k1_pay178, k1_pay179, k1_pay180, k1_pay181, k1_pay182, k1_pay183, k1_pay184, k1_pay185, k1_pay186, k1_pay187, k1_pay188, k1_pay189,
        k1_pay190, k1_pay191, k1_pay192, k1_pay193, k1_pay194, k1_pay195, k1_pay196, k1_pay197, k1_pay198, k1_pay199, k1_pay200, k1_pay201, k1_pay202, k1_pay203, k1_pay204, k1_pay205,
        k1_pay206, k1_pay207, k1_pay208, k1_pay209, k1_pay210, k1_pay211, k1_pay212, k1_pay213, k1_pay214, k1_pay215, k1_pay216, k1_pay217, k1_pay218, k1_pay219, k1_pay220, k1_pay221,
        k1_pay222, k1_pay223, k1_pay224, k1_pay225, k1_pay226, k1_pay227, k1_pay228, k1_pay229, k1_pay230, k1_pay231, k1_pay232, k1_pay233, k1_pay234, k1_pay235, k1_pay236, k1_pay237,
        k1_pay238, k1_pay239, k1_pay240, k1_pay241, k1_pay242, k1_pay243, k1_pay244, k1_pay245, k1_pay246, k1_pay247, k1_pay248, k1_pay249, k1_pay250, k1_pay251, k1_pay252, k1_pay253,
        k1_pay254, k1_pay255, k1_pay256, k1_pay257, k1_pay258, k1_pay259, k1_pay260, k1_pay261, k1_pay262, k1_pay263, k1_pay264, k1_pay265, k1_pay266, k1_pay267, k1_pay268, k1_pay269,
        k1_pay270, k1_pay271, k1_pay272, k1_pay273, k1_pay274, k1_pay275, k1_pay276, k1_pay277, k1_pay278, k1_pay279, k1_pay280, k1_pay281, k1_pay282, k1_pay283, k1_pay284, k1_pay285,
        k1_pay286, k1_pay287, k1_pay288, k1_pay289, k1_pay290, k1_pay291, k1_pay292, k1_pay293, k1_pay294, k1_pay295, k1_pay296, k1_pay297, k1_pay298, k1_pay299, k1_pay300, k1_pay301,
        k1_pay302, k1_pay303, k1_pay304, k1_pay305, k1_pay306, k1_pay307, k1_pay308, k1_pay309, k1_pay310, k1_pay311, k1_pay312, k1_pay313, k1_pay314, k1_pay315, k1_pay316, k1_pay317,
        k1_pay318, k1_pay319, k1_pay320, k1_pay321, k1_pay322, k1_pay323, Pure.addf_at, Pure.mulf_at, Pure.broadcast_at, Pure.lane_at, Pure.cast16_16, Pure.cast1x16_16, Pure.cast16_1x16]
      rfl
    · intro l
      show _ = Pure.acc32 (rowW fw r) (rowE fb sub (⟨112 + l.val, by have := l.isLt; omega⟩ : Fin 128))
        (g (ix2 r (⟨112 + l.val, by have := l.isLt; omega⟩ : Fin 128)))
      refine ((?_ : _ = _).trans (Pure.acc32_chain (wraw3 fw t2 t) (eraw3_7 fb t l) (graw3_7 g t2 t l))).trans
        (Pure.acc32_congr (wraw3_eq fw t2 t r hr) (eraw3_7_eq fb t sub hs l _ rfl) (graw3_7_eq g t2 t r hr l _ rfl))
      delta Cert.Proof.KB.k1_t3_trip.sl.r Cert.Proof.KB.k1_t3_trip.sl.r_1 Cert.Proof.KB.k1_t3_trip.sl.r_2 Cert.Proof.KB.k1_t3_trip.sl.r_3 Cert.Proof.KB.k1_t3_trip.sl.r_4
        Cert.Proof.KB.k1_t3_trip.sl.r_5 Cert.Proof.KB.k1_t3_trip.sl.r_6 Cert.Proof.KB.k1_t3_trip.sl.r_7 Cert.Proof.KB.k1_t3_trip.sl.r_8 Cert.Proof.KB.k1_t3_trip.sl.r_9
        Cert.Proof.KB.k1_t3_trip.sl.r_10 Cert.Proof.KB.k1_t3_trip.sl.r_11 Cert.Proof.KB.k1_t3_trip.sl.r_12 Cert.Proof.KB.k1_t3_trip.sl.r_13 Cert.Proof.KB.k1_t3_trip.sl.r_14
        Cert.Proof.KB.k1_t3_trip.sl.r_15 Cert.Proof.KB.k1_t3_trip.sl.r_16 Cert.Proof.KB.k1_t3_trip.sl.r_17 Cert.Proof.KB.k1_t3_trip.sl.r_18 Cert.Proof.KB.k1_t3_trip.sl.r_19
        Cert.Proof.KB.k1_t3_trip.sl.r_20 Cert.Proof.KB.k1_t3_trip.sl.r_21 Cert.Proof.KB.k1_t3_trip.sl.r_22 Cert.Proof.KB.k1_t3_trip.sl.r_23 Cert.Proof.KB.k1_t3_trip.sl.r_24
        Cert.Proof.KB.k1_t3_trip.sl.r_25 Cert.Proof.KB.k1_t3_trip.sl.r_26 Cert.Proof.KB.k1_t3_trip.sl.r_27 Cert.Proof.KB.k1_t3_trip.sl.r_28 Cert.Proof.KB.k1_t3_trip.sl.r_29
        Cert.Proof.KB.k1_t3_trip.sl.r_30 Cert.Proof.KB.k1_t3_trip.sl.r_31 Cert.Proof.KB.k1_t3_trip.sl.r_32 Cert.Proof.KB.k1_t3_trip.sl.r_33 Cert.Proof.KB.k1_t3_trip.sl.r_34
        Cert.Proof.KB.k1_t3_trip.sl.r_35 Cert.Proof.KB.k1_t3_trip.sl.r_36 Cert.Proof.KB.k1_t3_trip.sl.r_37 Cert.Proof.KB.k1_t3_trip.sl.r_38 Cert.Proof.KB.k1_t3_trip.sl.r_39
        Cert.Proof.KB.k1_t3_trip.sl.r_40 Cert.Proof.KB.k1_t3_trip.sl.r_41 Cert.Proof.KB.k1_t3_trip.sl.r_42 Cert.Proof.KB.k1_t3_trip.sl.r_43 Cert.Proof.KB.k1_t3_trip.sl.r_44
        Cert.Proof.KB.k1_t3_trip.sl.r_45 Cert.Proof.KB.k1_t3_trip.sl.r_46 Cert.Proof.KB.k1_t3_trip.sl.r_47 Cert.Proof.KB.k1_t3_trip.sl.r_48 Cert.Proof.KB.k1_t3_trip.sl.r_49
        Cert.Proof.KB.k1_t3_trip.sl.r_50 Cert.Proof.KB.k1_t3_trip.sl.r_51 Cert.Proof.KB.k1_t3_trip.sl.r_52 Cert.Proof.KB.k1_t3_trip.sl.r_53 Cert.Proof.KB.k1_t3_trip.sl.r_54
        Cert.Proof.KB.k1_t3_trip.sl.r_55 Cert.Proof.KB.k1_t3_trip.sl.r_56 Cert.Proof.KB.k1_t3_trip.sl.r_57 Cert.Proof.KB.k1_t3_trip.sl.r_58 Cert.Proof.KB.k1_t3_trip.sl.r_59
        Cert.Proof.KB.k1_t3_trip.sl.r_60 Cert.Proof.KB.k1_t3_trip.sl.r_61 Cert.Proof.KB.k1_t3_trip.sl.r_62 Cert.Proof.KB.k1_t3_trip.sl.r_63 Cert.Proof.KB.k1_t3_trip.sl.r_64
        Cert.Proof.KB.k1_t3_trip.sl.r_65 Cert.Proof.KB.k1_t3_trip.sl.r_66 Cert.Proof.KB.k1_t3_trip.sl.r_67 Cert.Proof.KB.k1_t3_trip.sl.r_68 Cert.Proof.KB.k1_t3_trip.sl.r_69
        Cert.Proof.KB.k1_t3_trip.sl.r_70 Cert.Proof.KB.k1_t3_trip.sl.r_71 Cert.Proof.KB.k1_t3_trip.sl.r_72 Cert.Proof.KB.k1_t3_trip.sl.r_73 Cert.Proof.KB.k1_t3_trip.sl.r_74
        Cert.Proof.KB.k1_t3_trip.sl.r_75 Cert.Proof.KB.k1_t3_trip.sl.r_76 Cert.Proof.KB.k1_t3_trip.sl.r_77 Cert.Proof.KB.k1_t3_trip.sl.r_78 Cert.Proof.KB.k1_t3_trip.sl.r_79
        Cert.Proof.KB.k1_t3_trip.sl.r_80 Cert.Proof.KB.k1_t3_trip.sl.r_81 Cert.Proof.KB.k1_t3_trip.sl.r_82 Cert.Proof.KB.k1_t3_trip.sl.r_83 Cert.Proof.KB.k1_t3_trip.sl.r_84
        Cert.Proof.KB.k1_t3_trip.sl.r_85 Cert.Proof.KB.k1_t3_trip.sl.r_86 Cert.Proof.KB.k1_t3_trip.sl.r_87 Cert.Proof.KB.k1_t3_trip.sl.r_88 Cert.Proof.KB.k1_t3_trip.sl.r_89
        Cert.Proof.KB.k1_t3_trip.sl.r_90 Cert.Proof.KB.k1_t3_trip.sl.r_91 Cert.Proof.KB.k1_t3_trip.sl.r_92 Cert.Proof.KB.k1_t3_trip.sl.r_93 Cert.Proof.KB.k1_t3_trip.sl.r_94
        Cert.Proof.KB.k1_t3_trip.sl.r_95 Cert.Proof.KB.k1_t3_trip.sl.r_96 Cert.Proof.KB.k1_t3_trip.sl.r_97 Cert.Proof.KB.k1_t3_trip.sl.r_98 Cert.Proof.KB.k1_t3_trip.sl.r_99
        Cert.Proof.KB.k1_t3_trip.sl.r_100 Cert.Proof.KB.k1_t3_trip.sl.r_101 Cert.Proof.KB.k1_t3_trip.sl.r_102 Cert.Proof.KB.k1_t3_trip.sl.r_103 Cert.Proof.KB.k1_t3_trip.sl.r_104
        Cert.Proof.KB.k1_t3_trip.sl.r_105 Cert.Proof.KB.k1_t3_trip.sl.r_106 Cert.Proof.KB.k1_t3_trip.sl.r_107 Cert.Proof.KB.k1_t3_trip.sl.r_108 Cert.Proof.KB.k1_t3_trip.sl.r_109
        Cert.Proof.KB.k1_t3_trip.sl.r_110 Cert.Proof.KB.k1_t3_trip.sl.r_111 Cert.Proof.KB.k1_t3_trip.sl.r_112 Cert.Proof.KB.k1_t3_trip.sl.r_113 Cert.Proof.KB.k1_t3_trip.sl.r_114
        Cert.Proof.KB.k1_t3_trip.sl.r_115 Cert.Proof.KB.k1_t3_trip.sl.r_116 Cert.Proof.KB.k1_t3_trip.sl.r_117 Cert.Proof.KB.k1_t3_trip.sl.r_118 Cert.Proof.KB.k1_t3_trip.sl.r_119
        Cert.Proof.KB.k1_t3_trip.sl.r_120 Cert.Proof.KB.k1_t3_trip.sl.r_121 Cert.Proof.KB.k1_t3_trip.sl.r_122 Cert.Proof.KB.k1_t3_trip.sl.r_123 Cert.Proof.KB.k1_t3_trip.sl.r_124
        Cert.Proof.KB.k1_t3_trip.sl.r_125 Cert.Proof.KB.k1_t3_trip.sl.r_126 Cert.Proof.KB.k1_t3_trip.sl.r_127 Cert.Proof.KB.k1_t3_trip.sl.r_128 Cert.Proof.KB.k1_t3_trip.sl.r_129
        Cert.Proof.KB.k1_t3_trip.sl.r_130 Cert.Proof.KB.k1_t3_trip.sl.r_131 Cert.Proof.KB.k1_t3_trip.sl.r_132 Cert.Proof.KB.k1_t3_trip.sl.r_133 Cert.Proof.KB.k1_t3_trip.sl.r_134
        Cert.Proof.KB.k1_t3_trip.sl.r_135 Cert.Proof.KB.k1_t3_trip.sl.r_136 Cert.Proof.KB.k1_t3_trip.sl.r_137 Cert.Proof.KB.k1_t3_trip.sl.r_138 Cert.Proof.KB.k1_t3_trip.sl.r_139
        Cert.Proof.KB.k1_t3_trip.sl.r_140 Cert.Proof.KB.k1_t3_trip.sl.r_141 Cert.Proof.KB.k1_t3_trip.sl.r_142 Cert.Proof.KB.k1_t3_trip.sl.r_143 Cert.Proof.KB.k1_t3_trip.sl.r_144
        Cert.Proof.KB.k1_t3_trip.sl.r_145 Cert.Proof.KB.k1_t3_trip.sl.r_146 Cert.Proof.KB.k1_t3_trip.sl.r_147 Cert.Proof.KB.k1_t3_trip.sl.r_148 Cert.Proof.KB.k1_t3_trip.sl.r_149
        Cert.Proof.KB.k1_t3_trip.sl.r_150 Cert.Proof.KB.k1_t3_trip.sl.r_151 Cert.Proof.KB.k1_t3_trip.sl.r_152 Cert.Proof.KB.k1_t3_trip.sl.r_153 Cert.Proof.KB.k1_t3_trip.sl.r_154
        Cert.Proof.KB.k1_t3_trip.sl.r_155 Cert.Proof.KB.k1_t3_trip.sl.r_156 Cert.Proof.KB.k1_t3_trip.sl.r_157 Cert.Proof.KB.k1_t3_trip.sl.r_158 Cert.Proof.KB.k1_t3_trip.sl.r_159
        Cert.Proof.KB.k1_t3_trip.sl.r_160 Cert.Proof.KB.k1_t3_trip.sl.r_161 Cert.Proof.KB.k1_t3_trip.sl.r_162 Cert.Proof.KB.k1_t3_trip.sl.r_163 Cert.Proof.KB.k1_t3_trip.sl.r_164
        Cert.Proof.KB.k1_t3_trip.sl.r_165 Cert.Proof.KB.k1_t3_trip.sl.r_166 Cert.Proof.KB.k1_t3_trip.sl.r_167 Cert.Proof.KB.k1_t3_trip.sl.r_168 Cert.Proof.KB.k1_t3_trip.sl.r_169
        Cert.Proof.KB.k1_t3_trip.sl.r_170 Cert.Proof.KB.k1_t3_trip.sl.r_171 Cert.Proof.KB.k1_t3_trip.sl.r_172 Cert.Proof.KB.k1_t3_trip.sl.r_173 Cert.Proof.KB.k1_t3_trip.sl.r_174
        Cert.Proof.KB.k1_t3_trip.sl.r_175 Cert.Proof.KB.k1_t3_trip.sl.r_176 Cert.Proof.KB.k1_t3_trip.sl.r_177 Cert.Proof.KB.k1_t3_trip.sl.r_178 Cert.Proof.KB.k1_t3_trip.sl.r_179
        Cert.Proof.KB.k1_t3_trip.sl.r_180 Cert.Proof.KB.k1_t3_trip.sl.r_181 Cert.Proof.KB.k1_t3_trip.sl.r_182 Cert.Proof.KB.k1_t3_trip.sl.r_183 Cert.Proof.KB.k1_t3_trip.sl.r_184
        Cert.Proof.KB.k1_t3_trip.sl.r_185 Cert.Proof.KB.k1_t3_trip.sl.r_186 Cert.Proof.KB.k1_t3_trip.sl.r_187 Cert.Proof.KB.k1_t3_trip.sl.r_188 Cert.Proof.KB.k1_t3_trip.sl.r_189
        Cert.Proof.KB.k1_t3_trip.sl.r_190 Cert.Proof.KB.k1_t3_trip.sl.r_191 Cert.Proof.KB.k1_t3_trip.sl.r_192 Cert.Proof.KB.k1_t3_trip.sl.r_193 Cert.Proof.KB.k1_t3_trip.sl.r_194
        Cert.Proof.KB.k1_t3_trip.sl.r_195 Cert.Proof.KB.k1_t3_trip.sl.r_196 Cert.Proof.KB.k1_t3_trip.sl.r_197 Cert.Proof.KB.k1_t3_trip.sl.r_198 Cert.Proof.KB.k1_t3_trip.sl.r_199
        Cert.Proof.KB.k1_t3_trip.sl.r_200 Cert.Proof.KB.k1_t3_trip.sl.r_201 Cert.Proof.KB.k1_t3_trip.sl.r_202 Cert.Proof.KB.k1_t3_trip.sl.r_203 Cert.Proof.KB.k1_t3_trip.sl.r_204
        Cert.Proof.KB.k1_t3_trip.sl.r_205 Cert.Proof.KB.k1_t3_trip.sl.r_206 Cert.Proof.KB.k1_t3_trip.sl.r_207 Cert.Proof.KB.k1_t3_trip.sl.r_208 Cert.Proof.KB.k1_t3_trip.sl.r_209
        Cert.Proof.KB.k1_t3_trip.sl.r_210 Cert.Proof.KB.k1_t3_trip.sl.r_211 Cert.Proof.KB.k1_t3_trip.sl.r_212 Cert.Proof.KB.k1_t3_trip.sl.r_213 Cert.Proof.KB.k1_t3_trip.sl.r_214
        Cert.Proof.KB.k1_t3_trip.sl.r_215 Cert.Proof.KB.k1_t3_trip.sl.r_216 Cert.Proof.KB.k1_t3_trip.sl.r_217 Cert.Proof.KB.k1_t3_trip.sl.r_218 Cert.Proof.KB.k1_t3_trip.sl.r_219
        Cert.Proof.KB.k1_t3_trip.sl.r_220 Cert.Proof.KB.k1_t3_trip.sl.r_221 Cert.Proof.KB.k1_t3_trip.sl.r_222 Cert.Proof.KB.k1_t3_trip.sl.r_223 Cert.Proof.KB.k1_t3_trip.sl.r_224
        Cert.Proof.KB.k1_t3_trip.sl.r_225 Cert.Proof.KB.k1_t3_trip.sl.r_226 Cert.Proof.KB.k1_t3_trip.sl.r_227 Cert.Proof.KB.k1_t3_trip.sl.r_228 Cert.Proof.KB.k1_t3_trip.sl.r_229
        Cert.Proof.KB.k1_t3_trip.sl.r_230 Cert.Proof.KB.k1_t3_trip.sl.r_231 Cert.Proof.KB.k1_t3_trip.sl.r_232 Cert.Proof.KB.k1_t3_trip.sl.r_233 Cert.Proof.KB.k1_t3_trip.sl.r_234
        Cert.Proof.KB.k1_t3_trip.sl.r_235 Cert.Proof.KB.k1_t3_trip.sl.r_236 Cert.Proof.KB.k1_t3_trip.sl.r_237 Cert.Proof.KB.k1_t3_trip.sl.r_238 Cert.Proof.KB.k1_t3_trip.sl.r_239
        Cert.Proof.KB.k1_t3_trip.sl.r_240 Cert.Proof.KB.k1_t3_trip.sl.r_241 Cert.Proof.KB.k1_t3_trip.sl.r_242 Cert.Proof.KB.k1_t3_trip.sl.r_243 Cert.Proof.KB.k1_t3_trip.sl.r_244
        Cert.Proof.KB.k1_t3_trip.sl.r_245 Cert.Proof.KB.k1_t3_trip.sl.r_246 Cert.Proof.KB.k1_t3_trip.sl.r_247 Cert.Proof.KB.k1_t3_trip.sl.r_248 Cert.Proof.KB.k1_t3_trip.sl.r_249
        Cert.Proof.KB.k1_t3_trip.sl.r_250 Cert.Proof.KB.k1_t3_trip.sl.r_251 Cert.Proof.KB.k1_t3_trip.sl.r_252 Cert.Proof.KB.k1_t3_trip.sl.r_253 Cert.Proof.KB.k1_t3_trip.sl.r_254
        Cert.Proof.KB.k1_t3_trip.sl.r_255 Cert.Proof.KB.k1_t3_trip.sl.r_256 Cert.Proof.KB.k1_t3_trip.sl.r_257 Cert.Proof.KB.k1_t3_trip.sl.r_258 Cert.Proof.KB.k1_t3_trip.sl.r_259
        Cert.Proof.KB.k1_t3_trip.sl.r_260 Cert.Proof.KB.k1_t3_trip.sl.r_261 Cert.Proof.KB.k1_t3_trip.sl.r_262 Cert.Proof.KB.k1_t3_trip.sl.r_263 Cert.Proof.KB.k1_t3_trip.sl.r_264
        Cert.Proof.KB.k1_t3_trip.sl.r_265 Cert.Proof.KB.k1_t3_trip.sl.r_266 Cert.Proof.KB.k1_t3_trip.sl.r_267 Cert.Proof.KB.k1_t3_trip.sl.r_268 Cert.Proof.KB.k1_t3_trip.sl.r_269
        Cert.Proof.KB.k1_t3_trip.sl.r_270 Cert.Proof.KB.k1_t3_trip.sl.r_271 Cert.Proof.KB.k1_t3_trip.sl.r_272 Cert.Proof.KB.k1_t3_trip.sl.r_273 Cert.Proof.KB.k1_t3_trip.sl.r_274
        Cert.Proof.KB.k1_t3_trip.sl.r_275 Cert.Proof.KB.k1_t3_trip.sl.r_276 Cert.Proof.KB.k1_t3_trip.sl.r_277 Cert.Proof.KB.k1_t3_trip.sl.r_278 Cert.Proof.KB.k1_t3_trip.sl.r_279
        Cert.Proof.KB.k1_t3_trip.sl.r_280 Cert.Proof.KB.k1_t3_trip.sl.r_281 Cert.Proof.KB.k1_t3_trip.sl.r_282 Cert.Proof.KB.k1_t3_trip.sl.r_283 Cert.Proof.KB.k1_t3_trip.sl.r_284
        Cert.Proof.KB.k1_t3_trip.sl.r_285 Cert.Proof.KB.k1_t3_trip.sl.r_286 Cert.Proof.KB.k1_t3_trip.sl.r_287 Cert.Proof.KB.k1_t3_trip.sl.r_288 Cert.Proof.KB.k1_t3_trip.sl.r_289
        Cert.Proof.KB.k1_t3_trip.sl.r_290 Cert.Proof.KB.k1_t3_trip.sl.r_291 Cert.Proof.KB.k1_t3_trip.sl.r_292 Cert.Proof.KB.k1_t3_trip.sl.r_293 Cert.Proof.KB.k1_t3_trip.sl.r_294
        Cert.Proof.KB.k1_t3_trip.sl.r_295 Cert.Proof.KB.k1_t3_trip.sl.r_296 Cert.Proof.KB.k1_t3_trip.sl.r_297 Cert.Proof.KB.k1_t3_trip.sl.r_298 Cert.Proof.KB.k1_t3_trip.sl.r_299
        Cert.Proof.KB.k1_t3_trip.sl.r_300 Cert.Proof.KB.k1_t3_trip.sl.r_301 Cert.Proof.KB.k1_t3_trip.sl.r_302 Cert.Proof.KB.k1_t3_trip.sl.r_303 Cert.Proof.KB.k1_t3_trip.sl.r_304
        Cert.Proof.KB.k1_t3_trip.sl.r_305 Cert.Proof.KB.k1_t3_trip.sl.r_306 Cert.Proof.KB.k1_t3_trip.sl.r_307 Cert.Proof.KB.k1_t3_trip.sl.r_308 Cert.Proof.KB.k1_t3_trip.sl.r_309
        Cert.Proof.KB.k1_t3_trip.sl.r_310 Cert.Proof.KB.k1_t3_trip.sl.r_311 Cert.Proof.KB.k1_t3_trip.sl.r_312 Cert.Proof.KB.k1_t3_trip.sl.r_313 Cert.Proof.KB.k1_t3_trip.sl.r_314
        Cert.Proof.KB.k1_t3_trip.sl.r_315 Cert.Proof.KB.k1_t3_trip.sl.r_316 Cert.Proof.KB.k1_t3_trip.sl.r_317 Cert.Proof.KB.k1_t3_trip.sl.r_318
      conv_lhs => simp only [k1_pay1, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20,
        k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38,
        k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56,
        k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74,
        k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92,
        k1_pay93, k1_pay94, k1_pay95, k1_pay96, k1_pay97, k1_pay98, k1_pay99, k1_pay100, k1_pay101, k1_pay102, k1_pay103, k1_pay104, k1_pay105, k1_pay106, k1_pay107, k1_pay108, k1_pay109,
        k1_pay110, k1_pay111, k1_pay112, k1_pay113, k1_pay114, k1_pay115, k1_pay116, k1_pay117, k1_pay118, k1_pay119, k1_pay120, k1_pay121, k1_pay122, k1_pay123, k1_pay124, k1_pay125,
        k1_pay126, k1_pay127, k1_pay128, k1_pay129, k1_pay130, k1_pay131, k1_pay132, k1_pay133, k1_pay134, k1_pay135, k1_pay136, k1_pay137, k1_pay138, k1_pay139, k1_pay140, k1_pay141,
        k1_pay142, k1_pay143, k1_pay144, k1_pay145, k1_pay146, k1_pay147, k1_pay148, k1_pay149, k1_pay150, k1_pay151, k1_pay152, k1_pay153, k1_pay154, k1_pay155, k1_pay156, k1_pay157,
        k1_pay158, k1_pay159, k1_pay160, k1_pay161, k1_pay162, k1_pay163, k1_pay164, k1_pay165, k1_pay166, k1_pay167, k1_pay168, k1_pay169, k1_pay170, k1_pay171, k1_pay172, k1_pay173,
        k1_pay174, k1_pay175, k1_pay176, k1_pay177, k1_pay178, k1_pay179, k1_pay180, k1_pay181, k1_pay182, k1_pay183, k1_pay184, k1_pay185, k1_pay186, k1_pay187, k1_pay188, k1_pay189,
        k1_pay190, k1_pay191, k1_pay192, k1_pay193, k1_pay194, k1_pay195, k1_pay196, k1_pay197, k1_pay198, k1_pay199, k1_pay200, k1_pay201, k1_pay202, k1_pay203, k1_pay204, k1_pay205,
        k1_pay206, k1_pay207, k1_pay208, k1_pay209, k1_pay210, k1_pay211, k1_pay212, k1_pay213, k1_pay214, k1_pay215, k1_pay216, k1_pay217, k1_pay218, k1_pay219, k1_pay220, k1_pay221,
        k1_pay222, k1_pay223, k1_pay224, k1_pay225, k1_pay226, k1_pay227, k1_pay228, k1_pay229, k1_pay230, k1_pay231, k1_pay232, k1_pay233, k1_pay234, k1_pay235, k1_pay236, k1_pay237,
        k1_pay238, k1_pay239, k1_pay240, k1_pay241, k1_pay242, k1_pay243, k1_pay244, k1_pay245, k1_pay246, k1_pay247, k1_pay248, k1_pay249, k1_pay250, k1_pay251, k1_pay252, k1_pay253,
        k1_pay254, k1_pay255, k1_pay256, k1_pay257, k1_pay258, k1_pay259, k1_pay260, k1_pay261, k1_pay262, k1_pay263, k1_pay264, k1_pay265, k1_pay266, k1_pay267, k1_pay268, k1_pay269,
        k1_pay270, k1_pay271, k1_pay272, k1_pay273, k1_pay274, k1_pay275, k1_pay276, k1_pay277, k1_pay278, k1_pay279, k1_pay280, k1_pay281, k1_pay282, k1_pay283, k1_pay284, k1_pay285,
        k1_pay286, k1_pay287, k1_pay288, k1_pay289, k1_pay290, k1_pay291, k1_pay292, k1_pay293, k1_pay294, k1_pay295, k1_pay296, k1_pay297, k1_pay298, k1_pay299, k1_pay300, k1_pay301,
        k1_pay302, k1_pay303, k1_pay304, k1_pay305, k1_pay306, k1_pay307, k1_pay308, k1_pay309, k1_pay310, k1_pay311, k1_pay312, k1_pay313, k1_pay314, k1_pay315, k1_pay316, k1_pay317,
        k1_pay318, k1_pay319, k1_pay320, k1_pay321, k1_pay322, k1_pay323, Pure.addf_at, Pure.mulf_at, Pure.broadcast_at, Pure.lane_at, Pure.cast16_16, Pure.cast1x16_16, Pure.cast16_1x16]
      rfl
  isplitl [Hb]
  · iexact Hb
  · iexact Hw

set_option maxHeartbeats 1000000 in
/-- The item loop over a trip count `n` known to be the loop's: after it the chunk's `n` rows are done. -/
theorem k1_t3_run_n (t2 : Fin k1_t2_loop.trips) (fw : S8192.Idx → F .f32) (fb : S128x128.Idx → F .f32) (fo : S256x128.Idx → F .f32)
    (n : ℕ) (hn : k1_t3_loop.trips = n) :
    iprop(outPts d L fo ∗ buf0Pts d L fb ∗ awvPts d L fw)
      ⊢ wp frame (wpE (defs₀ (F := F)) 𝒱₀ (thrV d L) none) Set.univ
          (Scf.Loop.for k1_t3_loop k1_t3_ok ⟨⟩ (k1_t3_body L ieV (Memref.isWhole_whole _) awV (Memref.isWhole_whole _) embV (Memref.isWhole_whole _) resV (Memref.isWhole_whole _) idxV (Memref.isWhole_whole _) awvV (Memref.isWhole_whole _) buf0V (Memref.isWhole_whole _) buf1V (Memref.isWhole_whole _) outV (Memref.isWhole_whole _) cc1_scratch5 cc1_scratch6 cc1_scoped0 cc1_scoped1 cc1_scoped2 cc1_scoped3 t2 (Scalar.muli (Scf.iv 0#32 1#32 t2) 2#32)))
          fun _ => iprop(outPts d L (outAfter fw fb fo (2 * t2.val) n) ∗ buf0Pts d L fb ∗ awvPts d L fw) := by
  subst hn
  have ht2 : t2.val < 32 := lt_of_lt_of_eq t2.isLt trips2
  iintro ⟨Ho, Hb, Hw⟩
  sl_for (fun (k : ℕ) (_ : Unit) => iprop(outPts d L (outAfter fw fb fo (2 * t2.val) k) ∗ buf0Pts d L fb ∗ awvPts d L fw)) $$ [Ho Hb Hw]
  case region =>
    intro k acc
    have hk : k.val < 4 := lt_of_lt_of_eq k.isLt trips3
    have h := k1_t3_trip d L t2 (Scalar.muli (Scf.iv 0#32 1#32 t2) 2#32) k fw fb (outAfter fw fb fo (2 * t2.val) k.val)
      (⟨8 * t2.val + k.val, by omega⟩ : Fin 256) rfl (⟨k.val, hk⟩ : Fin 4) rfl
    rw [rowStep_outAfter fw fb fo (2 * t2.val) (⟨k.val, hk⟩ : Fin 4) (⟨8 * t2.val + k.val, by omega⟩ : Fin 256)
      (by show 8 * t2.val + k.val = 4 * (2 * t2.val) + k.val; omega)] at h
    exact h
  · isplitl [Ho Hb Hw]
    · rw [outAfter_zero]
      isplitl [Ho]
      · iexact Ho
      isplitl [Hb]
      · iexact Hb
      · iexact Hw
    · iintro %acc HI
      iexact HI

/-- The item loop: the chunk's four rows of the accumulator are updated, the gather buffer and the weights kept. -/
theorem k1_t3_run (t2 : Fin k1_t2_loop.trips) (fw : S8192.Idx → F .f32) (fb : S128x128.Idx → F .f32) (fo : S256x128.Idx → F .f32) :
    iprop(outPts d L fo ∗ buf0Pts d L fb ∗ awvPts d L fw)
      ⊢ wp frame (wpE (defs₀ (F := F)) 𝒱₀ (thrV d L) none) Set.univ
          (Scf.Loop.for k1_t3_loop k1_t3_ok ⟨⟩ (k1_t3_body L ieV (Memref.isWhole_whole _) awV (Memref.isWhole_whole _) embV (Memref.isWhole_whole _) resV (Memref.isWhole_whole _) idxV (Memref.isWhole_whole _) awvV (Memref.isWhole_whole _) buf0V (Memref.isWhole_whole _) buf1V (Memref.isWhole_whole _) outV (Memref.isWhole_whole _) cc1_scratch5 cc1_scratch6 cc1_scoped0 cc1_scoped1 cc1_scoped2 cc1_scoped3 t2 (Scalar.muli (Scf.iv 0#32 1#32 t2) 2#32)))
          fun _ => iprop(outPts d L (outAfter fw fb fo (2 * t2.val) 4) ∗ buf0Pts d L fb ∗ awvPts d L fw) :=
  k1_t3_run_n d L t2 fw fb fo 4 trips3

end Cert.Proof.KB

end
-- ==== Proof.KBItem4.lean ====
/-
  The second item loop of a chunk pair: each of its four trips loads one item's thirty-two weights and the eight lane
  groups of the item's row of the accumulator, multiplies and adds the thirty-two gathered rows of the second gather
  buffer lane group by lane group, and stores the row back.  One trip is run once at a symbolic trip; what it stores
  is read lane by lane as the left-to-right accumulation; the loop is the four rows of the chunk.
-/
import proofs.«203743_g50225347559739_cont_8to1c4_743_14_alg».proof.Proof.KBCommon
import proofs.«203743_g50225347559739_cont_8to1c4_743_14_alg».proof.Proof.Gen.Kernel.Skeleton
import proofs.«203743_g50225347559739_cont_8to1c4_743_14_alg».proof.Proof.KBTileDefs
import proofs.«203743_g50225347559739_cont_8to1c4_743_14_alg».proof.Proof.KBItemReads

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx

variable (d : Dev nD) (L : grid1.Coords)
variable [FloatOps F]

set_option maxHeartbeats 4000000 in
/-- One trip of the item loop: row `r` of the accumulator becomes its accumulation with the item's thirty-two gathered
    rows, every other entry and the two buffers read are kept. -/
theorem k1_t4_trip (t2 : Fin k1_t2_loop.trips) (v12 : BitVec 32) (t : Fin k1_t4_loop.trips)
    (fw : S8192.Idx → F .f32) (fb : S128x128.Idx → F .f32) (g : S256x128.Idx → F .f32)
    (r : Fin 256) (hr : r.val = 8 * t2.val + t.val + 4) (sub : Fin 4) (hs : sub.val = t.val) :
    iprop(outPts d L g ∗ buf1Pts d L fb ∗ awvPts d L fw)
      ⊢ wp frame (wpE (defs₀ (F := F)) 𝒱₀ (thrV d L) none) Set.univ
          (k1_t4_body L ieV (Memref.isWhole_whole _) awV (Memref.isWhole_whole _) embV (Memref.isWhole_whole _) resV (Memref.isWhole_whole _) idxV (Memref.isWhole_whole _) awvV (Memref.isWhole_whole _) buf0V (Memref.isWhole_whole _) buf1V (Memref.isWhole_whole _) outV (Memref.isWhole_whole _) cc1_scratch5 cc1_scratch6 cc1_scoped0 cc1_scoped1 cc1_scoped2 cc1_scoped3 t2 v12 t ())
          fun _ => iprop(outPts d L (rowStep fw fb g r sub) ∗ buf1Pts d L fb ∗ awvPts d L fw) := by
  unfold k1_t4_body
  iintro ⟨Ho, Hb, Hw⟩
  sl_exec_parts
  sl_step
  isplitl [Ho]
  · iapply (Entails.of_eq (pointsTo_congr fun i hi => ?_)) $$ Ho
    refine read_writes8 g r _ _ _ _ _ _ _ _ _ _ _ _ _ _ _ _ _ _ _ _ _ _ _ _
      (by rw [hr]; exact k1_off33_eq t2 t) (by rw [hr]; exact k1_off32_eq t2 t) (by rw [hr]; exact k1_off31_eq t2 t) (by rw [hr]; exact k1_off30_eq t2 t) (by rw [hr]; exact k1_off29_eq t2 t) (by rw [hr]; exact k1_off28_eq t2 t) (by rw [hr]; exact k1_off27_eq t2 t) (by rw [hr]; exact k1_off26_eq t2 t)
      (fun y => Pure.acc32 (rowW fw r) (rowE fb sub (y 1)) (g y)) ?_ ?_ ?_ ?_ ?_ ?_ ?_ ?_ i
    · intro l
      show _ = Pure.acc32 (rowW fw r) (rowE fb sub (⟨0 + l.val, by have := l.isLt; omega⟩ : Fin 128))
        (g (ix2 r (⟨0 + l.val, by have := l.isLt; omega⟩ : Fin 128)))
      refine ((?_ : _ = _).trans (Pure.acc32_chain (wraw4 fw t2 t) (eraw4_0 fb t l) (graw4_0 g t2 t l))).trans
        (Pure.acc32_congr (wraw4_eq fw t2 t r hr) (eraw4_0_eq fb t sub hs l _ rfl) (graw4_0_eq g t2 t r hr l _ rfl))
      delta Cert.Proof.KB.k1_t4_trip.sl.r Cert.Proof.KB.k1_t4_trip.sl.r_1 Cert.Proof.KB.k1_t4_trip.sl.r_2 Cert.Proof.KB.k1_t4_trip.sl.r_3 Cert.Proof.KB.k1_t4_trip.sl.r_4
        Cert.Proof.KB.k1_t4_trip.sl.r_5 Cert.Proof.KB.k1_t4_trip.sl.r_6 Cert.Proof.KB.k1_t4_trip.sl.r_7 Cert.Proof.KB.k1_t4_trip.sl.r_8 Cert.Proof.KB.k1_t4_trip.sl.r_9
        Cert.Proof.KB.k1_t4_trip.sl.r_10 Cert.Proof.KB.k1_t4_trip.sl.r_11 Cert.Proof.KB.k1_t4_trip.sl.r_12 Cert.Proof.KB.k1_t4_trip.sl.r_13 Cert.Proof.KB.k1_t4_trip.sl.r_14
        Cert.Proof.KB.k1_t4_trip.sl.r_15 Cert.Proof.KB.k1_t4_trip.sl.r_16 Cert.Proof.KB.k1_t4_trip.sl.r_17 Cert.Proof.KB.k1_t4_trip.sl.r_18 Cert.Proof.KB.k1_t4_trip.sl.r_19
        Cert.Proof.KB.k1_t4_trip.sl.r_20 Cert.Proof.KB.k1_t4_trip.sl.r_21 Cert.Proof.KB.k1_t4_trip.sl.r_22 Cert.Proof.KB.k1_t4_trip.sl.r_23 Cert.Proof.KB.k1_t4_trip.sl.r_24
        Cert.Proof.KB.k1_t4_trip.sl.r_25 Cert.Proof.KB.k1_t4_trip.sl.r_26 Cert.Proof.KB.k1_t4_trip.sl.r_27 Cert.Proof.KB.k1_t4_trip.sl.r_28 Cert.Proof.KB.k1_t4_trip.sl.r_29
        Cert.Proof.KB.k1_t4_trip.sl.r_30 Cert.Proof.KB.k1_t4_trip.sl.r_31 Cert.Proof.KB.k1_t4_trip.sl.r_32 Cert.Proof.KB.k1_t4_trip.sl.r_33 Cert.Proof.KB.k1_t4_trip.sl.r_34
        Cert.Proof.KB.k1_t4_trip.sl.r_35 Cert.Proof.KB.k1_t4_trip.sl.r_36 Cert.Proof.KB.k1_t4_trip.sl.r_37 Cert.Proof.KB.k1_t4_trip.sl.r_38 Cert.Proof.KB.k1_t4_trip.sl.r_39
        Cert.Proof.KB.k1_t4_trip.sl.r_40 Cert.Proof.KB.k1_t4_trip.sl.r_41 Cert.Proof.KB.k1_t4_trip.sl.r_42 Cert.Proof.KB.k1_t4_trip.sl.r_43 Cert.Proof.KB.k1_t4_trip.sl.r_44
        Cert.Proof.KB.k1_t4_trip.sl.r_45 Cert.Proof.KB.k1_t4_trip.sl.r_46 Cert.Proof.KB.k1_t4_trip.sl.r_47 Cert.Proof.KB.k1_t4_trip.sl.r_48 Cert.Proof.KB.k1_t4_trip.sl.r_49
        Cert.Proof.KB.k1_t4_trip.sl.r_50 Cert.Proof.KB.k1_t4_trip.sl.r_51 Cert.Proof.KB.k1_t4_trip.sl.r_52 Cert.Proof.KB.k1_t4_trip.sl.r_53 Cert.Proof.KB.k1_t4_trip.sl.r_54
        Cert.Proof.KB.k1_t4_trip.sl.r_55 Cert.Proof.KB.k1_t4_trip.sl.r_56 Cert.Proof.KB.k1_t4_trip.sl.r_57 Cert.Proof.KB.k1_t4_trip.sl.r_58 Cert.Proof.KB.k1_t4_trip.sl.r_59
        Cert.Proof.KB.k1_t4_trip.sl.r_60 Cert.Proof.KB.k1_t4_trip.sl.r_61 Cert.Proof.KB.k1_t4_trip.sl.r_62 Cert.Proof.KB.k1_t4_trip.sl.r_63 Cert.Proof.KB.k1_t4_trip.sl.r_64
        Cert.Proof.KB.k1_t4_trip.sl.r_65 Cert.Proof.KB.k1_t4_trip.sl.r_66 Cert.Proof.KB.k1_t4_trip.sl.r_67 Cert.Proof.KB.k1_t4_trip.sl.r_68 Cert.Proof.KB.k1_t4_trip.sl.r_69
        Cert.Proof.KB.k1_t4_trip.sl.r_70 Cert.Proof.KB.k1_t4_trip.sl.r_71 Cert.Proof.KB.k1_t4_trip.sl.r_72 Cert.Proof.KB.k1_t4_trip.sl.r_73 Cert.Proof.KB.k1_t4_trip.sl.r_74
        Cert.Proof.KB.k1_t4_trip.sl.r_75 Cert.Proof.KB.k1_t4_trip.sl.r_76 Cert.Proof.KB.k1_t4_trip.sl.r_77 Cert.Proof.KB.k1_t4_trip.sl.r_78 Cert.Proof.KB.k1_t4_trip.sl.r_79
        Cert.Proof.KB.k1_t4_trip.sl.r_80 Cert.Proof.KB.k1_t4_trip.sl.r_81 Cert.Proof.KB.k1_t4_trip.sl.r_82 Cert.Proof.KB.k1_t4_trip.sl.r_83 Cert.Proof.KB.k1_t4_trip.sl.r_84
        Cert.Proof.KB.k1_t4_trip.sl.r_85 Cert.Proof.KB.k1_t4_trip.sl.r_86 Cert.Proof.KB.k1_t4_trip.sl.r_87 Cert.Proof.KB.k1_t4_trip.sl.r_88 Cert.Proof.KB.k1_t4_trip.sl.r_89
        Cert.Proof.KB.k1_t4_trip.sl.r_90 Cert.Proof.KB.k1_t4_trip.sl.r_91 Cert.Proof.KB.k1_t4_trip.sl.r_92 Cert.Proof.KB.k1_t4_trip.sl.r_93 Cert.Proof.KB.k1_t4_trip.sl.r_94
        Cert.Proof.KB.k1_t4_trip.sl.r_95 Cert.Proof.KB.k1_t4_trip.sl.r_96 Cert.Proof.KB.k1_t4_trip.sl.r_97 Cert.Proof.KB.k1_t4_trip.sl.r_98 Cert.Proof.KB.k1_t4_trip.sl.r_99
        Cert.Proof.KB.k1_t4_trip.sl.r_100 Cert.Proof.KB.k1_t4_trip.sl.r_101 Cert.Proof.KB.k1_t4_trip.sl.r_102 Cert.Proof.KB.k1_t4_trip.sl.r_103 Cert.Proof.KB.k1_t4_trip.sl.r_104
        Cert.Proof.KB.k1_t4_trip.sl.r_105 Cert.Proof.KB.k1_t4_trip.sl.r_106 Cert.Proof.KB.k1_t4_trip.sl.r_107 Cert.Proof.KB.k1_t4_trip.sl.r_108 Cert.Proof.KB.k1_t4_trip.sl.r_109
        Cert.Proof.KB.k1_t4_trip.sl.r_110 Cert.Proof.KB.k1_t4_trip.sl.r_111 Cert.Proof.KB.k1_t4_trip.sl.r_112 Cert.Proof.KB.k1_t4_trip.sl.r_113 Cert.Proof.KB.k1_t4_trip.sl.r_114
        Cert.Proof.KB.k1_t4_trip.sl.r_115 Cert.Proof.KB.k1_t4_trip.sl.r_116 Cert.Proof.KB.k1_t4_trip.sl.r_117 Cert.Proof.KB.k1_t4_trip.sl.r_118 Cert.Proof.KB.k1_t4_trip.sl.r_119
        Cert.Proof.KB.k1_t4_trip.sl.r_120 Cert.Proof.KB.k1_t4_trip.sl.r_121 Cert.Proof.KB.k1_t4_trip.sl.r_122 Cert.Proof.KB.k1_t4_trip.sl.r_123 Cert.Proof.KB.k1_t4_trip.sl.r_124
        Cert.Proof.KB.k1_t4_trip.sl.r_125 Cert.Proof.KB.k1_t4_trip.sl.r_126 Cert.Proof.KB.k1_t4_trip.sl.r_127 Cert.Proof.KB.k1_t4_trip.sl.r_128 Cert.Proof.KB.k1_t4_trip.sl.r_129
        Cert.Proof.KB.k1_t4_trip.sl.r_130 Cert.Proof.KB.k1_t4_trip.sl.r_131 Cert.Proof.KB.k1_t4_trip.sl.r_132 Cert.Proof.KB.k1_t4_trip.sl.r_133 Cert.Proof.KB.k1_t4_trip.sl.r_134
        Cert.Proof.KB.k1_t4_trip.sl.r_135 Cert.Proof.KB.k1_t4_trip.sl.r_136 Cert.Proof.KB.k1_t4_trip.sl.r_137 Cert.Proof.KB.k1_t4_trip.sl.r_138 Cert.Proof.KB.k1_t4_trip.sl.r_139
        Cert.Proof.KB.k1_t4_trip.sl.r_140 Cert.Proof.KB.k1_t4_trip.sl.r_141 Cert.Proof.KB.k1_t4_trip.sl.r_142 Cert.Proof.KB.k1_t4_trip.sl.r_143 Cert.Proof.KB.k1_t4_trip.sl.r_144
        Cert.Proof.KB.k1_t4_trip.sl.r_145 Cert.Proof.KB.k1_t4_trip.sl.r_146 Cert.Proof.KB.k1_t4_trip.sl.r_147 Cert.Proof.KB.k1_t4_trip.sl.r_148 Cert.Proof.KB.k1_t4_trip.sl.r_149
        Cert.Proof.KB.k1_t4_trip.sl.r_150 Cert.Proof.KB.k1_t4_trip.sl.r_151 Cert.Proof.KB.k1_t4_trip.sl.r_152 Cert.Proof.KB.k1_t4_trip.sl.r_153 Cert.Proof.KB.k1_t4_trip.sl.r_154
        Cert.Proof.KB.k1_t4_trip.sl.r_155 Cert.Proof.KB.k1_t4_trip.sl.r_156 Cert.Proof.KB.k1_t4_trip.sl.r_157 Cert.Proof.KB.k1_t4_trip.sl.r_158 Cert.Proof.KB.k1_t4_trip.sl.r_159
        Cert.Proof.KB.k1_t4_trip.sl.r_160 Cert.Proof.KB.k1_t4_trip.sl.r_161 Cert.Proof.KB.k1_t4_trip.sl.r_162 Cert.Proof.KB.k1_t4_trip.sl.r_163 Cert.Proof.KB.k1_t4_trip.sl.r_164
        Cert.Proof.KB.k1_t4_trip.sl.r_165 Cert.Proof.KB.k1_t4_trip.sl.r_166 Cert.Proof.KB.k1_t4_trip.sl.r_167 Cert.Proof.KB.k1_t4_trip.sl.r_168 Cert.Proof.KB.k1_t4_trip.sl.r_169
        Cert.Proof.KB.k1_t4_trip.sl.r_170 Cert.Proof.KB.k1_t4_trip.sl.r_171 Cert.Proof.KB.k1_t4_trip.sl.r_172 Cert.Proof.KB.k1_t4_trip.sl.r_173 Cert.Proof.KB.k1_t4_trip.sl.r_174
        Cert.Proof.KB.k1_t4_trip.sl.r_175 Cert.Proof.KB.k1_t4_trip.sl.r_176 Cert.Proof.KB.k1_t4_trip.sl.r_177 Cert.Proof.KB.k1_t4_trip.sl.r_178 Cert.Proof.KB.k1_t4_trip.sl.r_179
        Cert.Proof.KB.k1_t4_trip.sl.r_180 Cert.Proof.KB.k1_t4_trip.sl.r_181 Cert.Proof.KB.k1_t4_trip.sl.r_182 Cert.Proof.KB.k1_t4_trip.sl.r_183 Cert.Proof.KB.k1_t4_trip.sl.r_184
        Cert.Proof.KB.k1_t4_trip.sl.r_185 Cert.Proof.KB.k1_t4_trip.sl.r_186 Cert.Proof.KB.k1_t4_trip.sl.r_187 Cert.Proof.KB.k1_t4_trip.sl.r_188 Cert.Proof.KB.k1_t4_trip.sl.r_189
        Cert.Proof.KB.k1_t4_trip.sl.r_190 Cert.Proof.KB.k1_t4_trip.sl.r_191 Cert.Proof.KB.k1_t4_trip.sl.r_192 Cert.Proof.KB.k1_t4_trip.sl.r_193 Cert.Proof.KB.k1_t4_trip.sl.r_194
        Cert.Proof.KB.k1_t4_trip.sl.r_195 Cert.Proof.KB.k1_t4_trip.sl.r_196 Cert.Proof.KB.k1_t4_trip.sl.r_197 Cert.Proof.KB.k1_t4_trip.sl.r_198 Cert.Proof.KB.k1_t4_trip.sl.r_199
        Cert.Proof.KB.k1_t4_trip.sl.r_200 Cert.Proof.KB.k1_t4_trip.sl.r_201 Cert.Proof.KB.k1_t4_trip.sl.r_202 Cert.Proof.KB.k1_t4_trip.sl.r_203 Cert.Proof.KB.k1_t4_trip.sl.r_204
        Cert.Proof.KB.k1_t4_trip.sl.r_205 Cert.Proof.KB.k1_t4_trip.sl.r_206 Cert.Proof.KB.k1_t4_trip.sl.r_207 Cert.Proof.KB.k1_t4_trip.sl.r_208 Cert.Proof.KB.k1_t4_trip.sl.r_209
        Cert.Proof.KB.k1_t4_trip.sl.r_210 Cert.Proof.KB.k1_t4_trip.sl.r_211 Cert.Proof.KB.k1_t4_trip.sl.r_212 Cert.Proof.KB.k1_t4_trip.sl.r_213 Cert.Proof.KB.k1_t4_trip.sl.r_214
        Cert.Proof.KB.k1_t4_trip.sl.r_215 Cert.Proof.KB.k1_t4_trip.sl.r_216 Cert.Proof.KB.k1_t4_trip.sl.r_217 Cert.Proof.KB.k1_t4_trip.sl.r_218 Cert.Proof.KB.k1_t4_trip.sl.r_219
        Cert.Proof.KB.k1_t4_trip.sl.r_220 Cert.Proof.KB.k1_t4_trip.sl.r_221 Cert.Proof.KB.k1_t4_trip.sl.r_222 Cert.Proof.KB.k1_t4_trip.sl.r_223 Cert.Proof.KB.k1_t4_trip.sl.r_224
        Cert.Proof.KB.k1_t4_trip.sl.r_225 Cert.Proof.KB.k1_t4_trip.sl.r_226 Cert.Proof.KB.k1_t4_trip.sl.r_227 Cert.Proof.KB.k1_t4_trip.sl.r_228 Cert.Proof.KB.k1_t4_trip.sl.r_229
        Cert.Proof.KB.k1_t4_trip.sl.r_230 Cert.Proof.KB.k1_t4_trip.sl.r_231 Cert.Proof.KB.k1_t4_trip.sl.r_232 Cert.Proof.KB.k1_t4_trip.sl.r_233 Cert.Proof.KB.k1_t4_trip.sl.r_234
        Cert.Proof.KB.k1_t4_trip.sl.r_235 Cert.Proof.KB.k1_t4_trip.sl.r_236 Cert.Proof.KB.k1_t4_trip.sl.r_237 Cert.Proof.KB.k1_t4_trip.sl.r_238 Cert.Proof.KB.k1_t4_trip.sl.r_239
        Cert.Proof.KB.k1_t4_trip.sl.r_240 Cert.Proof.KB.k1_t4_trip.sl.r_241 Cert.Proof.KB.k1_t4_trip.sl.r_242 Cert.Proof.KB.k1_t4_trip.sl.r_243 Cert.Proof.KB.k1_t4_trip.sl.r_244
        Cert.Proof.KB.k1_t4_trip.sl.r_245 Cert.Proof.KB.k1_t4_trip.sl.r_246 Cert.Proof.KB.k1_t4_trip.sl.r_247 Cert.Proof.KB.k1_t4_trip.sl.r_248 Cert.Proof.KB.k1_t4_trip.sl.r_249
        Cert.Proof.KB.k1_t4_trip.sl.r_250 Cert.Proof.KB.k1_t4_trip.sl.r_251 Cert.Proof.KB.k1_t4_trip.sl.r_252 Cert.Proof.KB.k1_t4_trip.sl.r_253 Cert.Proof.KB.k1_t4_trip.sl.r_254
        Cert.Proof.KB.k1_t4_trip.sl.r_255 Cert.Proof.KB.k1_t4_trip.sl.r_256 Cert.Proof.KB.k1_t4_trip.sl.r_257 Cert.Proof.KB.k1_t4_trip.sl.r_258 Cert.Proof.KB.k1_t4_trip.sl.r_259
        Cert.Proof.KB.k1_t4_trip.sl.r_260 Cert.Proof.KB.k1_t4_trip.sl.r_261 Cert.Proof.KB.k1_t4_trip.sl.r_262 Cert.Proof.KB.k1_t4_trip.sl.r_263 Cert.Proof.KB.k1_t4_trip.sl.r_264
        Cert.Proof.KB.k1_t4_trip.sl.r_265 Cert.Proof.KB.k1_t4_trip.sl.r_266 Cert.Proof.KB.k1_t4_trip.sl.r_267 Cert.Proof.KB.k1_t4_trip.sl.r_268 Cert.Proof.KB.k1_t4_trip.sl.r_269
        Cert.Proof.KB.k1_t4_trip.sl.r_270 Cert.Proof.KB.k1_t4_trip.sl.r_271 Cert.Proof.KB.k1_t4_trip.sl.r_272 Cert.Proof.KB.k1_t4_trip.sl.r_273 Cert.Proof.KB.k1_t4_trip.sl.r_274
        Cert.Proof.KB.k1_t4_trip.sl.r_275 Cert.Proof.KB.k1_t4_trip.sl.r_276 Cert.Proof.KB.k1_t4_trip.sl.r_277 Cert.Proof.KB.k1_t4_trip.sl.r_278 Cert.Proof.KB.k1_t4_trip.sl.r_279
        Cert.Proof.KB.k1_t4_trip.sl.r_280 Cert.Proof.KB.k1_t4_trip.sl.r_281 Cert.Proof.KB.k1_t4_trip.sl.r_282 Cert.Proof.KB.k1_t4_trip.sl.r_283 Cert.Proof.KB.k1_t4_trip.sl.r_284
        Cert.Proof.KB.k1_t4_trip.sl.r_285 Cert.Proof.KB.k1_t4_trip.sl.r_286 Cert.Proof.KB.k1_t4_trip.sl.r_287 Cert.Proof.KB.k1_t4_trip.sl.r_288 Cert.Proof.KB.k1_t4_trip.sl.r_289
        Cert.Proof.KB.k1_t4_trip.sl.r_290 Cert.Proof.KB.k1_t4_trip.sl.r_291 Cert.Proof.KB.k1_t4_trip.sl.r_292 Cert.Proof.KB.k1_t4_trip.sl.r_293 Cert.Proof.KB.k1_t4_trip.sl.r_294
        Cert.Proof.KB.k1_t4_trip.sl.r_295 Cert.Proof.KB.k1_t4_trip.sl.r_296 Cert.Proof.KB.k1_t4_trip.sl.r_297 Cert.Proof.KB.k1_t4_trip.sl.r_298 Cert.Proof.KB.k1_t4_trip.sl.r_299
        Cert.Proof.KB.k1_t4_trip.sl.r_300 Cert.Proof.KB.k1_t4_trip.sl.r_301 Cert.Proof.KB.k1_t4_trip.sl.r_302 Cert.Proof.KB.k1_t4_trip.sl.r_303 Cert.Proof.KB.k1_t4_trip.sl.r_304
        Cert.Proof.KB.k1_t4_trip.sl.r_305 Cert.Proof.KB.k1_t4_trip.sl.r_306 Cert.Proof.KB.k1_t4_trip.sl.r_307 Cert.Proof.KB.k1_t4_trip.sl.r_308 Cert.Proof.KB.k1_t4_trip.sl.r_309
        Cert.Proof.KB.k1_t4_trip.sl.r_310 Cert.Proof.KB.k1_t4_trip.sl.r_311 Cert.Proof.KB.k1_t4_trip.sl.r_312 Cert.Proof.KB.k1_t4_trip.sl.r_313 Cert.Proof.KB.k1_t4_trip.sl.r_314
        Cert.Proof.KB.k1_t4_trip.sl.r_315 Cert.Proof.KB.k1_t4_trip.sl.r_316 Cert.Proof.KB.k1_t4_trip.sl.r_317 Cert.Proof.KB.k1_t4_trip.sl.r_318
      conv_lhs => simp only [k1_pay2, k1_pay324, k1_pay325, k1_pay326, k1_pay327, k1_pay328, k1_pay329, k1_pay330, k1_pay331, k1_pay332, k1_pay333, k1_pay334, k1_pay335, k1_pay336, k1_pay337, k1_pay338,
        k1_pay339, k1_pay340, k1_pay341, k1_pay342, k1_pay343, k1_pay344, k1_pay345, k1_pay346, k1_pay347, k1_pay348, k1_pay349, k1_pay350, k1_pay351, k1_pay352, k1_pay353, k1_pay354,
        k1_pay355, k1_pay356, k1_pay357, k1_pay358, k1_pay359, k1_pay360, k1_pay361, k1_pay362, k1_pay363, k1_pay364, k1_pay365, k1_pay366, k1_pay367, k1_pay368, k1_pay369, k1_pay370,
        k1_pay371, k1_pay372, k1_pay373, k1_pay374, k1_pay375, k1_pay376, k1_pay377, k1_pay378, k1_pay379, k1_pay380, k1_pay381, k1_pay382, k1_pay383, k1_pay384, k1_pay385, k1_pay386,
        k1_pay387, k1_pay388, k1_pay389, k1_pay390, k1_pay391, k1_pay392, k1_pay393, k1_pay394, k1_pay395, k1_pay396, k1_pay397, k1_pay398, k1_pay399, k1_pay400, k1_pay401, k1_pay402,
        k1_pay403, k1_pay404, k1_pay405, k1_pay406, k1_pay407, k1_pay408, k1_pay409, k1_pay410, k1_pay411, k1_pay412, k1_pay413, k1_pay414, k1_pay415, k1_pay416, k1_pay417, k1_pay418,
        k1_pay419, k1_pay420, k1_pay421, k1_pay422, k1_pay423, k1_pay424, k1_pay425, k1_pay426, k1_pay427, k1_pay428, k1_pay429, k1_pay430, k1_pay431, k1_pay432, k1_pay433, k1_pay434,
        k1_pay435, k1_pay436, k1_pay437, k1_pay438, k1_pay439, k1_pay440, k1_pay441, k1_pay442, k1_pay443, k1_pay444, k1_pay445, k1_pay446, k1_pay447, k1_pay448, k1_pay449, k1_pay450,
        k1_pay451, k1_pay452, k1_pay453, k1_pay454, k1_pay455, k1_pay456, k1_pay457, k1_pay458, k1_pay459, k1_pay460, k1_pay461, k1_pay462, k1_pay463, k1_pay464, k1_pay465, k1_pay466,
        k1_pay467, k1_pay468, k1_pay469, k1_pay470, k1_pay471, k1_pay472, k1_pay473, k1_pay474, k1_pay475, k1_pay476, k1_pay477, k1_pay478, k1_pay479, k1_pay480, k1_pay481, k1_pay482,
        k1_pay483, k1_pay484, k1_pay485, k1_pay486, k1_pay487, k1_pay488, k1_pay489, k1_pay490, k1_pay491, k1_pay492, k1_pay493, k1_pay494, k1_pay495, k1_pay496, k1_pay497, k1_pay498,
        k1_pay499, k1_pay500, k1_pay501, k1_pay502, k1_pay503, k1_pay504, k1_pay505, k1_pay506, k1_pay507, k1_pay508, k1_pay509, k1_pay510, k1_pay511, k1_pay512, k1_pay513, k1_pay514,
        k1_pay515, k1_pay516, k1_pay517, k1_pay518, k1_pay519, k1_pay520, k1_pay521, k1_pay522, k1_pay523, k1_pay524, k1_pay525, k1_pay526, k1_pay527, k1_pay528, k1_pay529, k1_pay530,
        k1_pay531, k1_pay532, k1_pay533, k1_pay534, k1_pay535, k1_pay536, k1_pay537, k1_pay538, k1_pay539, k1_pay540, k1_pay541, k1_pay542, k1_pay543, k1_pay544, k1_pay545, k1_pay546,
        k1_pay547, k1_pay548, k1_pay549, k1_pay550, k1_pay551, k1_pay552, k1_pay553, k1_pay554, k1_pay555, k1_pay556, k1_pay557, k1_pay558, k1_pay559, k1_pay560, k1_pay561, k1_pay562,
        k1_pay563, k1_pay564, k1_pay565, k1_pay566, k1_pay567, k1_pay568, k1_pay569, k1_pay570, k1_pay571, k1_pay572, k1_pay573, k1_pay574, k1_pay575, k1_pay576, k1_pay577, k1_pay578,
        k1_pay579, k1_pay580, k1_pay581, k1_pay582, k1_pay583, k1_pay584, k1_pay585, k1_pay586, k1_pay587, k1_pay588, k1_pay589, k1_pay590, k1_pay591, k1_pay592, k1_pay593, k1_pay594,
        k1_pay595, k1_pay596, k1_pay597, k1_pay598, k1_pay599, k1_pay600, k1_pay601, k1_pay602, k1_pay603, k1_pay604, k1_pay605, k1_pay606, k1_pay607, k1_pay608, k1_pay609, k1_pay610,
        k1_pay611, k1_pay612, k1_pay613, k1_pay614, k1_pay615, k1_pay616, k1_pay617, k1_pay618, k1_pay619, k1_pay620, k1_pay621, k1_pay622, k1_pay623, k1_pay624, k1_pay625, k1_pay626,
        k1_pay627, k1_pay628, k1_pay629, k1_pay630, k1_pay631, k1_pay632, k1_pay633, k1_pay634, k1_pay635, k1_pay636, k1_pay637, k1_pay638, k1_pay639, k1_pay640, k1_pay641, k1_pay642,
        k1_pay643, k1_pay644, Pure.addf_at, Pure.mulf_at, Pure.broadcast_at, Pure.lane_at, Pure.cast16_16, Pure.cast1x16_16, Pure.cast16_1x16]
      rfl
    · intro l
      show _ = Pure.acc32 (rowW fw r) (rowE fb sub (⟨16 + l.val, by have := l.isLt; omega⟩ : Fin 128))
        (g (ix2 r (⟨16 + l.val, by have := l.isLt; omega⟩ : Fin 128)))
      refine ((?_ : _ = _).trans (Pure.acc32_chain (wraw4 fw t2 t) (eraw4_1 fb t l) (graw4_1 g t2 t l))).trans
        (Pure.acc32_congr (wraw4_eq fw t2 t r hr) (eraw4_1_eq fb t sub hs l _ rfl) (graw4_1_eq g t2 t r hr l _ rfl))
      delta Cert.Proof.KB.k1_t4_trip.sl.r Cert.Proof.KB.k1_t4_trip.sl.r_1 Cert.Proof.KB.k1_t4_trip.sl.r_2 Cert.Proof.KB.k1_t4_trip.sl.r_3 Cert.Proof.KB.k1_t4_trip.sl.r_4
        Cert.Proof.KB.k1_t4_trip.sl.r_5 Cert.Proof.KB.k1_t4_trip.sl.r_6 Cert.Proof.KB.k1_t4_trip.sl.r_7 Cert.Proof.KB.k1_t4_trip.sl.r_8 Cert.Proof.KB.k1_t4_trip.sl.r_9
        Cert.Proof.KB.k1_t4_trip.sl.r_10 Cert.Proof.KB.k1_t4_trip.sl.r_11 Cert.Proof.KB.k1_t4_trip.sl.r_12 Cert.Proof.KB.k1_t4_trip.sl.r_13 Cert.Proof.KB.k1_t4_trip.sl.r_14
        Cert.Proof.KB.k1_t4_trip.sl.r_15 Cert.Proof.KB.k1_t4_trip.sl.r_16 Cert.Proof.KB.k1_t4_trip.sl.r_17 Cert.Proof.KB.k1_t4_trip.sl.r_18 Cert.Proof.KB.k1_t4_trip.sl.r_19
        Cert.Proof.KB.k1_t4_trip.sl.r_20 Cert.Proof.KB.k1_t4_trip.sl.r_21 Cert.Proof.KB.k1_t4_trip.sl.r_22 Cert.Proof.KB.k1_t4_trip.sl.r_23 Cert.Proof.KB.k1_t4_trip.sl.r_24
        Cert.Proof.KB.k1_t4_trip.sl.r_25 Cert.Proof.KB.k1_t4_trip.sl.r_26 Cert.Proof.KB.k1_t4_trip.sl.r_27 Cert.Proof.KB.k1_t4_trip.sl.r_28 Cert.Proof.KB.k1_t4_trip.sl.r_29
        Cert.Proof.KB.k1_t4_trip.sl.r_30 Cert.Proof.KB.k1_t4_trip.sl.r_31 Cert.Proof.KB.k1_t4_trip.sl.r_32 Cert.Proof.KB.k1_t4_trip.sl.r_33 Cert.Proof.KB.k1_t4_trip.sl.r_34
        Cert.Proof.KB.k1_t4_trip.sl.r_35 Cert.Proof.KB.k1_t4_trip.sl.r_36 Cert.Proof.KB.k1_t4_trip.sl.r_37 Cert.Proof.KB.k1_t4_trip.sl.r_38 Cert.Proof.KB.k1_t4_trip.sl.r_39
        Cert.Proof.KB.k1_t4_trip.sl.r_40 Cert.Proof.KB.k1_t4_trip.sl.r_41 Cert.Proof.KB.k1_t4_trip.sl.r_42 Cert.Proof.KB.k1_t4_trip.sl.r_43 Cert.Proof.KB.k1_t4_trip.sl.r_44
        Cert.Proof.KB.k1_t4_trip.sl.r_45 Cert.Proof.KB.k1_t4_trip.sl.r_46 Cert.Proof.KB.k1_t4_trip.sl.r_47 Cert.Proof.KB.k1_t4_trip.sl.r_48 Cert.Proof.KB.k1_t4_trip.sl.r_49
        Cert.Proof.KB.k1_t4_trip.sl.r_50 Cert.Proof.KB.k1_t4_trip.sl.r_51 Cert.Proof.KB.k1_t4_trip.sl.r_52 Cert.Proof.KB.k1_t4_trip.sl.r_53 Cert.Proof.KB.k1_t4_trip.sl.r_54
        Cert.Proof.KB.k1_t4_trip.sl.r_55 Cert.Proof.KB.k1_t4_trip.sl.r_56 Cert.Proof.KB.k1_t4_trip.sl.r_57 Cert.Proof.KB.k1_t4_trip.sl.r_58 Cert.Proof.KB.k1_t4_trip.sl.r_59
        Cert.Proof.KB.k1_t4_trip.sl.r_60 Cert.Proof.KB.k1_t4_trip.sl.r_61 Cert.Proof.KB.k1_t4_trip.sl.r_62 Cert.Proof.KB.k1_t4_trip.sl.r_63 Cert.Proof.KB.k1_t4_trip.sl.r_64
        Cert.Proof.KB.k1_t4_trip.sl.r_65 Cert.Proof.KB.k1_t4_trip.sl.r_66 Cert.Proof.KB.k1_t4_trip.sl.r_67 Cert.Proof.KB.k1_t4_trip.sl.r_68 Cert.Proof.KB.k1_t4_trip.sl.r_69
        Cert.Proof.KB.k1_t4_trip.sl.r_70 Cert.Proof.KB.k1_t4_trip.sl.r_71 Cert.Proof.KB.k1_t4_trip.sl.r_72 Cert.Proof.KB.k1_t4_trip.sl.r_73 Cert.Proof.KB.k1_t4_trip.sl.r_74
        Cert.Proof.KB.k1_t4_trip.sl.r_75 Cert.Proof.KB.k1_t4_trip.sl.r_76 Cert.Proof.KB.k1_t4_trip.sl.r_77 Cert.Proof.KB.k1_t4_trip.sl.r_78 Cert.Proof.KB.k1_t4_trip.sl.r_79
        Cert.Proof.KB.k1_t4_trip.sl.r_80 Cert.Proof.KB.k1_t4_trip.sl.r_81 Cert.Proof.KB.k1_t4_trip.sl.r_82 Cert.Proof.KB.k1_t4_trip.sl.r_83 Cert.Proof.KB.k1_t4_trip.sl.r_84
        Cert.Proof.KB.k1_t4_trip.sl.r_85 Cert.Proof.KB.k1_t4_trip.sl.r_86 Cert.Proof.KB.k1_t4_trip.sl.r_87 Cert.Proof.KB.k1_t4_trip.sl.r_88 Cert.Proof.KB.k1_t4_trip.sl.r_89
        Cert.Proof.KB.k1_t4_trip.sl.r_90 Cert.Proof.KB.k1_t4_trip.sl.r_91 Cert.Proof.KB.k1_t4_trip.sl.r_92 Cert.Proof.KB.k1_t4_trip.sl.r_93 Cert.Proof.KB.k1_t4_trip.sl.r_94
        Cert.Proof.KB.k1_t4_trip.sl.r_95 Cert.Proof.KB.k1_t4_trip.sl.r_96 Cert.Proof.KB.k1_t4_trip.sl.r_97 Cert.Proof.KB.k1_t4_trip.sl.r_98 Cert.Proof.KB.k1_t4_trip.sl.r_99
        Cert.Proof.KB.k1_t4_trip.sl.r_100 Cert.Proof.KB.k1_t4_trip.sl.r_101 Cert.Proof.KB.k1_t4_trip.sl.r_102 Cert.Proof.KB.k1_t4_trip.sl.r_103 Cert.Proof.KB.k1_t4_trip.sl.r_104
        Cert.Proof.KB.k1_t4_trip.sl.r_105 Cert.Proof.KB.k1_t4_trip.sl.r_106 Cert.Proof.KB.k1_t4_trip.sl.r_107 Cert.Proof.KB.k1_t4_trip.sl.r_108 Cert.Proof.KB.k1_t4_trip.sl.r_109
        Cert.Proof.KB.k1_t4_trip.sl.r_110 Cert.Proof.KB.k1_t4_trip.sl.r_111 Cert.Proof.KB.k1_t4_trip.sl.r_112 Cert.Proof.KB.k1_t4_trip.sl.r_113 Cert.Proof.KB.k1_t4_trip.sl.r_114
        Cert.Proof.KB.k1_t4_trip.sl.r_115 Cert.Proof.KB.k1_t4_trip.sl.r_116 Cert.Proof.KB.k1_t4_trip.sl.r_117 Cert.Proof.KB.k1_t4_trip.sl.r_118 Cert.Proof.KB.k1_t4_trip.sl.r_119
        Cert.Proof.KB.k1_t4_trip.sl.r_120 Cert.Proof.KB.k1_t4_trip.sl.r_121 Cert.Proof.KB.k1_t4_trip.sl.r_122 Cert.Proof.KB.k1_t4_trip.sl.r_123 Cert.Proof.KB.k1_t4_trip.sl.r_124
        Cert.Proof.KB.k1_t4_trip.sl.r_125 Cert.Proof.KB.k1_t4_trip.sl.r_126 Cert.Proof.KB.k1_t4_trip.sl.r_127 Cert.Proof.KB.k1_t4_trip.sl.r_128 Cert.Proof.KB.k1_t4_trip.sl.r_129
        Cert.Proof.KB.k1_t4_trip.sl.r_130 Cert.Proof.KB.k1_t4_trip.sl.r_131 Cert.Proof.KB.k1_t4_trip.sl.r_132 Cert.Proof.KB.k1_t4_trip.sl.r_133 Cert.Proof.KB.k1_t4_trip.sl.r_134
        Cert.Proof.KB.k1_t4_trip.sl.r_135 Cert.Proof.KB.k1_t4_trip.sl.r_136 Cert.Proof.KB.k1_t4_trip.sl.r_137 Cert.Proof.KB.k1_t4_trip.sl.r_138 Cert.Proof.KB.k1_t4_trip.sl.r_139
        Cert.Proof.KB.k1_t4_trip.sl.r_140 Cert.Proof.KB.k1_t4_trip.sl.r_141 Cert.Proof.KB.k1_t4_trip.sl.r_142 Cert.Proof.KB.k1_t4_trip.sl.r_143 Cert.Proof.KB.k1_t4_trip.sl.r_144
        Cert.Proof.KB.k1_t4_trip.sl.r_145 Cert.Proof.KB.k1_t4_trip.sl.r_146 Cert.Proof.KB.k1_t4_trip.sl.r_147 Cert.Proof.KB.k1_t4_trip.sl.r_148 Cert.Proof.KB.k1_t4_trip.sl.r_149
        Cert.Proof.KB.k1_t4_trip.sl.r_150 Cert.Proof.KB.k1_t4_trip.sl.r_151 Cert.Proof.KB.k1_t4_trip.sl.r_152 Cert.Proof.KB.k1_t4_trip.sl.r_153 Cert.Proof.KB.k1_t4_trip.sl.r_154
        Cert.Proof.KB.k1_t4_trip.sl.r_155 Cert.Proof.KB.k1_t4_trip.sl.r_156 Cert.Proof.KB.k1_t4_trip.sl.r_157 Cert.Proof.KB.k1_t4_trip.sl.r_158 Cert.Proof.KB.k1_t4_trip.sl.r_159
        Cert.Proof.KB.k1_t4_trip.sl.r_160 Cert.Proof.KB.k1_t4_trip.sl.r_161 Cert.Proof.KB.k1_t4_trip.sl.r_162 Cert.Proof.KB.k1_t4_trip.sl.r_163 Cert.Proof.KB.k1_t4_trip.sl.r_164
        Cert.Proof.KB.k1_t4_trip.sl.r_165 Cert.Proof.KB.k1_t4_trip.sl.r_166 Cert.Proof.KB.k1_t4_trip.sl.r_167 Cert.Proof.KB.k1_t4_trip.sl.r_168 Cert.Proof.KB.k1_t4_trip.sl.r_169
        Cert.Proof.KB.k1_t4_trip.sl.r_170 Cert.Proof.KB.k1_t4_trip.sl.r_171 Cert.Proof.KB.k1_t4_trip.sl.r_172 Cert.Proof.KB.k1_t4_trip.sl.r_173 Cert.Proof.KB.k1_t4_trip.sl.r_174
        Cert.Proof.KB.k1_t4_trip.sl.r_175 Cert.Proof.KB.k1_t4_trip.sl.r_176 Cert.Proof.KB.k1_t4_trip.sl.r_177 Cert.Proof.KB.k1_t4_trip.sl.r_178 Cert.Proof.KB.k1_t4_trip.sl.r_179
        Cert.Proof.KB.k1_t4_trip.sl.r_180 Cert.Proof.KB.k1_t4_trip.sl.r_181 Cert.Proof.KB.k1_t4_trip.sl.r_182 Cert.Proof.KB.k1_t4_trip.sl.r_183 Cert.Proof.KB.k1_t4_trip.sl.r_184
        Cert.Proof.KB.k1_t4_trip.sl.r_185 Cert.Proof.KB.k1_t4_trip.sl.r_186 Cert.Proof.KB.k1_t4_trip.sl.r_187 Cert.Proof.KB.k1_t4_trip.sl.r_188 Cert.Proof.KB.k1_t4_trip.sl.r_189
        Cert.Proof.KB.k1_t4_trip.sl.r_190 Cert.Proof.KB.k1_t4_trip.sl.r_191 Cert.Proof.KB.k1_t4_trip.sl.r_192 Cert.Proof.KB.k1_t4_trip.sl.r_193 Cert.Proof.KB.k1_t4_trip.sl.r_194
        Cert.Proof.KB.k1_t4_trip.sl.r_195 Cert.Proof.KB.k1_t4_trip.sl.r_196 Cert.Proof.KB.k1_t4_trip.sl.r_197 Cert.Proof.KB.k1_t4_trip.sl.r_198 Cert.Proof.KB.k1_t4_trip.sl.r_199
        Cert.Proof.KB.k1_t4_trip.sl.r_200 Cert.Proof.KB.k1_t4_trip.sl.r_201 Cert.Proof.KB.k1_t4_trip.sl.r_202 Cert.Proof.KB.k1_t4_trip.sl.r_203 Cert.Proof.KB.k1_t4_trip.sl.r_204
        Cert.Proof.KB.k1_t4_trip.sl.r_205 Cert.Proof.KB.k1_t4_trip.sl.r_206 Cert.Proof.KB.k1_t4_trip.sl.r_207 Cert.Proof.KB.k1_t4_trip.sl.r_208 Cert.Proof.KB.k1_t4_trip.sl.r_209
        Cert.Proof.KB.k1_t4_trip.sl.r_210 Cert.Proof.KB.k1_t4_trip.sl.r_211 Cert.Proof.KB.k1_t4_trip.sl.r_212 Cert.Proof.KB.k1_t4_trip.sl.r_213 Cert.Proof.KB.k1_t4_trip.sl.r_214
        Cert.Proof.KB.k1_t4_trip.sl.r_215 Cert.Proof.KB.k1_t4_trip.sl.r_216 Cert.Proof.KB.k1_t4_trip.sl.r_217 Cert.Proof.KB.k1_t4_trip.sl.r_218 Cert.Proof.KB.k1_t4_trip.sl.r_219
        Cert.Proof.KB.k1_t4_trip.sl.r_220 Cert.Proof.KB.k1_t4_trip.sl.r_221 Cert.Proof.KB.k1_t4_trip.sl.r_222 Cert.Proof.KB.k1_t4_trip.sl.r_223 Cert.Proof.KB.k1_t4_trip.sl.r_224
        Cert.Proof.KB.k1_t4_trip.sl.r_225 Cert.Proof.KB.k1_t4_trip.sl.r_226 Cert.Proof.KB.k1_t4_trip.sl.r_227 Cert.Proof.KB.k1_t4_trip.sl.r_228 Cert.Proof.KB.k1_t4_trip.sl.r_229
        Cert.Proof.KB.k1_t4_trip.sl.r_230 Cert.Proof.KB.k1_t4_trip.sl.r_231 Cert.Proof.KB.k1_t4_trip.sl.r_232 Cert.Proof.KB.k1_t4_trip.sl.r_233 Cert.Proof.KB.k1_t4_trip.sl.r_234
        Cert.Proof.KB.k1_t4_trip.sl.r_235 Cert.Proof.KB.k1_t4_trip.sl.r_236 Cert.Proof.KB.k1_t4_trip.sl.r_237 Cert.Proof.KB.k1_t4_trip.sl.r_238 Cert.Proof.KB.k1_t4_trip.sl.r_239
        Cert.Proof.KB.k1_t4_trip.sl.r_240 Cert.Proof.KB.k1_t4_trip.sl.r_241 Cert.Proof.KB.k1_t4_trip.sl.r_242 Cert.Proof.KB.k1_t4_trip.sl.r_243 Cert.Proof.KB.k1_t4_trip.sl.r_244
        Cert.Proof.KB.k1_t4_trip.sl.r_245 Cert.Proof.KB.k1_t4_trip.sl.r_246 Cert.Proof.KB.k1_t4_trip.sl.r_247 Cert.Proof.KB.k1_t4_trip.sl.r_248 Cert.Proof.KB.k1_t4_trip.sl.r_249
        Cert.Proof.KB.k1_t4_trip.sl.r_250 Cert.Proof.KB.k1_t4_trip.sl.r_251 Cert.Proof.KB.k1_t4_trip.sl.r_252 Cert.Proof.KB.k1_t4_trip.sl.r_253 Cert.Proof.KB.k1_t4_trip.sl.r_254
        Cert.Proof.KB.k1_t4_trip.sl.r_255 Cert.Proof.KB.k1_t4_trip.sl.r_256 Cert.Proof.KB.k1_t4_trip.sl.r_257 Cert.Proof.KB.k1_t4_trip.sl.r_258 Cert.Proof.KB.k1_t4_trip.sl.r_259
        Cert.Proof.KB.k1_t4_trip.sl.r_260 Cert.Proof.KB.k1_t4_trip.sl.r_261 Cert.Proof.KB.k1_t4_trip.sl.r_262 Cert.Proof.KB.k1_t4_trip.sl.r_263 Cert.Proof.KB.k1_t4_trip.sl.r_264
        Cert.Proof.KB.k1_t4_trip.sl.r_265 Cert.Proof.KB.k1_t4_trip.sl.r_266 Cert.Proof.KB.k1_t4_trip.sl.r_267 Cert.Proof.KB.k1_t4_trip.sl.r_268 Cert.Proof.KB.k1_t4_trip.sl.r_269
        Cert.Proof.KB.k1_t4_trip.sl.r_270 Cert.Proof.KB.k1_t4_trip.sl.r_271 Cert.Proof.KB.k1_t4_trip.sl.r_272 Cert.Proof.KB.k1_t4_trip.sl.r_273 Cert.Proof.KB.k1_t4_trip.sl.r_274
        Cert.Proof.KB.k1_t4_trip.sl.r_275 Cert.Proof.KB.k1_t4_trip.sl.r_276 Cert.Proof.KB.k1_t4_trip.sl.r_277 Cert.Proof.KB.k1_t4_trip.sl.r_278 Cert.Proof.KB.k1_t4_trip.sl.r_279
        Cert.Proof.KB.k1_t4_trip.sl.r_280 Cert.Proof.KB.k1_t4_trip.sl.r_281 Cert.Proof.KB.k1_t4_trip.sl.r_282 Cert.Proof.KB.k1_t4_trip.sl.r_283 Cert.Proof.KB.k1_t4_trip.sl.r_284
        Cert.Proof.KB.k1_t4_trip.sl.r_285 Cert.Proof.KB.k1_t4_trip.sl.r_286 Cert.Proof.KB.k1_t4_trip.sl.r_287 Cert.Proof.KB.k1_t4_trip.sl.r_288 Cert.Proof.KB.k1_t4_trip.sl.r_289
        Cert.Proof.KB.k1_t4_trip.sl.r_290 Cert.Proof.KB.k1_t4_trip.sl.r_291 Cert.Proof.KB.k1_t4_trip.sl.r_292 Cert.Proof.KB.k1_t4_trip.sl.r_293 Cert.Proof.KB.k1_t4_trip.sl.r_294
        Cert.Proof.KB.k1_t4_trip.sl.r_295 Cert.Proof.KB.k1_t4_trip.sl.r_296 Cert.Proof.KB.k1_t4_trip.sl.r_297 Cert.Proof.KB.k1_t4_trip.sl.r_298 Cert.Proof.KB.k1_t4_trip.sl.r_299
        Cert.Proof.KB.k1_t4_trip.sl.r_300 Cert.Proof.KB.k1_t4_trip.sl.r_301 Cert.Proof.KB.k1_t4_trip.sl.r_302 Cert.Proof.KB.k1_t4_trip.sl.r_303 Cert.Proof.KB.k1_t4_trip.sl.r_304
        Cert.Proof.KB.k1_t4_trip.sl.r_305 Cert.Proof.KB.k1_t4_trip.sl.r_306 Cert.Proof.KB.k1_t4_trip.sl.r_307 Cert.Proof.KB.k1_t4_trip.sl.r_308 Cert.Proof.KB.k1_t4_trip.sl.r_309
        Cert.Proof.KB.k1_t4_trip.sl.r_310 Cert.Proof.KB.k1_t4_trip.sl.r_311 Cert.Proof.KB.k1_t4_trip.sl.r_312 Cert.Proof.KB.k1_t4_trip.sl.r_313 Cert.Proof.KB.k1_t4_trip.sl.r_314
        Cert.Proof.KB.k1_t4_trip.sl.r_315 Cert.Proof.KB.k1_t4_trip.sl.r_316 Cert.Proof.KB.k1_t4_trip.sl.r_317 Cert.Proof.KB.k1_t4_trip.sl.r_318
      conv_lhs => simp only [k1_pay2, k1_pay324, k1_pay325, k1_pay326, k1_pay327, k1_pay328, k1_pay329, k1_pay330, k1_pay331, k1_pay332, k1_pay333, k1_pay334, k1_pay335, k1_pay336, k1_pay337, k1_pay338,
        k1_pay339, k1_pay340, k1_pay341, k1_pay342, k1_pay343, k1_pay344, k1_pay345, k1_pay346, k1_pay347, k1_pay348, k1_pay349, k1_pay350, k1_pay351, k1_pay352, k1_pay353, k1_pay354,
        k1_pay355, k1_pay356, k1_pay357, k1_pay358, k1_pay359, k1_pay360, k1_pay361, k1_pay362, k1_pay363, k1_pay364, k1_pay365, k1_pay366, k1_pay367, k1_pay368, k1_pay369, k1_pay370,
        k1_pay371, k1_pay372, k1_pay373, k1_pay374, k1_pay375, k1_pay376, k1_pay377, k1_pay378, k1_pay379, k1_pay380, k1_pay381, k1_pay382, k1_pay383, k1_pay384, k1_pay385, k1_pay386,
        k1_pay387, k1_pay388, k1_pay389, k1_pay390, k1_pay391, k1_pay392, k1_pay393, k1_pay394, k1_pay395, k1_pay396, k1_pay397, k1_pay398, k1_pay399, k1_pay400, k1_pay401, k1_pay402,
        k1_pay403, k1_pay404, k1_pay405, k1_pay406, k1_pay407, k1_pay408, k1_pay409, k1_pay410, k1_pay411, k1_pay412, k1_pay413, k1_pay414, k1_pay415, k1_pay416, k1_pay417, k1_pay418,
        k1_pay419, k1_pay420, k1_pay421, k1_pay422, k1_pay423, k1_pay424, k1_pay425, k1_pay426, k1_pay427, k1_pay428, k1_pay429, k1_pay430, k1_pay431, k1_pay432, k1_pay433, k1_pay434,
        k1_pay435, k1_pay436, k1_pay437, k1_pay438, k1_pay439, k1_pay440, k1_pay441, k1_pay442, k1_pay443, k1_pay444, k1_pay445, k1_pay446, k1_pay447, k1_pay448, k1_pay449, k1_pay450,
        k1_pay451, k1_pay452, k1_pay453, k1_pay454, k1_pay455, k1_pay456, k1_pay457, k1_pay458, k1_pay459, k1_pay460, k1_pay461, k1_pay462, k1_pay463, k1_pay464, k1_pay465, k1_pay466,
        k1_pay467, k1_pay468, k1_pay469, k1_pay470, k1_pay471, k1_pay472, k1_pay473, k1_pay474, k1_pay475, k1_pay476, k1_pay477, k1_pay478, k1_pay479, k1_pay480, k1_pay481, k1_pay482,
        k1_pay483, k1_pay484, k1_pay485, k1_pay486, k1_pay487, k1_pay488, k1_pay489, k1_pay490, k1_pay491, k1_pay492, k1_pay493, k1_pay494, k1_pay495, k1_pay496, k1_pay497, k1_pay498,
        k1_pay499, k1_pay500, k1_pay501, k1_pay502, k1_pay503, k1_pay504, k1_pay505, k1_pay506, k1_pay507, k1_pay508, k1_pay509, k1_pay510, k1_pay511, k1_pay512, k1_pay513, k1_pay514,
        k1_pay515, k1_pay516, k1_pay517, k1_pay518, k1_pay519, k1_pay520, k1_pay521, k1_pay522, k1_pay523, k1_pay524, k1_pay525, k1_pay526, k1_pay527, k1_pay528, k1_pay529, k1_pay530,
        k1_pay531, k1_pay532, k1_pay533, k1_pay534, k1_pay535, k1_pay536, k1_pay537, k1_pay538, k1_pay539, k1_pay540, k1_pay541, k1_pay542, k1_pay543, k1_pay544, k1_pay545, k1_pay546,
        k1_pay547, k1_pay548, k1_pay549, k1_pay550, k1_pay551, k1_pay552, k1_pay553, k1_pay554, k1_pay555, k1_pay556, k1_pay557, k1_pay558, k1_pay559, k1_pay560, k1_pay561, k1_pay562,
        k1_pay563, k1_pay564, k1_pay565, k1_pay566, k1_pay567, k1_pay568, k1_pay569, k1_pay570, k1_pay571, k1_pay572, k1_pay573, k1_pay574, k1_pay575, k1_pay576, k1_pay577, k1_pay578,
        k1_pay579, k1_pay580, k1_pay581, k1_pay582, k1_pay583, k1_pay584, k1_pay585, k1_pay586, k1_pay587, k1_pay588, k1_pay589, k1_pay590, k1_pay591, k1_pay592, k1_pay593, k1_pay594,
        k1_pay595, k1_pay596, k1_pay597, k1_pay598, k1_pay599, k1_pay600, k1_pay601, k1_pay602, k1_pay603, k1_pay604, k1_pay605, k1_pay606, k1_pay607, k1_pay608, k1_pay609, k1_pay610,
        k1_pay611, k1_pay612, k1_pay613, k1_pay614, k1_pay615, k1_pay616, k1_pay617, k1_pay618, k1_pay619, k1_pay620, k1_pay621, k1_pay622, k1_pay623, k1_pay624, k1_pay625, k1_pay626,
        k1_pay627, k1_pay628, k1_pay629, k1_pay630, k1_pay631, k1_pay632, k1_pay633, k1_pay634, k1_pay635, k1_pay636, k1_pay637, k1_pay638, k1_pay639, k1_pay640, k1_pay641, k1_pay642,
        k1_pay643, k1_pay644, Pure.addf_at, Pure.mulf_at, Pure.broadcast_at, Pure.lane_at, Pure.cast16_16, Pure.cast1x16_16, Pure.cast16_1x16]
      rfl
    · intro l
      show _ = Pure.acc32 (rowW fw r) (rowE fb sub (⟨32 + l.val, by have := l.isLt; omega⟩ : Fin 128))
        (g (ix2 r (⟨32 + l.val, by have := l.isLt; omega⟩ : Fin 128)))
      refine ((?_ : _ = _).trans (Pure.acc32_chain (wraw4 fw t2 t) (eraw4_2 fb t l) (graw4_2 g t2 t l))).trans
        (Pure.acc32_congr (wraw4_eq fw t2 t r hr) (eraw4_2_eq fb t sub hs l _ rfl) (graw4_2_eq g t2 t r hr l _ rfl))
      delta Cert.Proof.KB.k1_t4_trip.sl.r Cert.Proof.KB.k1_t4_trip.sl.r_1 Cert.Proof.KB.k1_t4_trip.sl.r_2 Cert.Proof.KB.k1_t4_trip.sl.r_3 Cert.Proof.KB.k1_t4_trip.sl.r_4
        Cert.Proof.KB.k1_t4_trip.sl.r_5 Cert.Proof.KB.k1_t4_trip.sl.r_6 Cert.Proof.KB.k1_t4_trip.sl.r_7 Cert.Proof.KB.k1_t4_trip.sl.r_8 Cert.Proof.KB.k1_t4_trip.sl.r_9
        Cert.Proof.KB.k1_t4_trip.sl.r_10 Cert.Proof.KB.k1_t4_trip.sl.r_11 Cert.Proof.KB.k1_t4_trip.sl.r_12 Cert.Proof.KB.k1_t4_trip.sl.r_13 Cert.Proof.KB.k1_t4_trip.sl.r_14
        Cert.Proof.KB.k1_t4_trip.sl.r_15 Cert.Proof.KB.k1_t4_trip.sl.r_16 Cert.Proof.KB.k1_t4_trip.sl.r_17 Cert.Proof.KB.k1_t4_trip.sl.r_18 Cert.Proof.KB.k1_t4_trip.sl.r_19
        Cert.Proof.KB.k1_t4_trip.sl.r_20 Cert.Proof.KB.k1_t4_trip.sl.r_21 Cert.Proof.KB.k1_t4_trip.sl.r_22 Cert.Proof.KB.k1_t4_trip.sl.r_23 Cert.Proof.KB.k1_t4_trip.sl.r_24
        Cert.Proof.KB.k1_t4_trip.sl.r_25 Cert.Proof.KB.k1_t4_trip.sl.r_26 Cert.Proof.KB.k1_t4_trip.sl.r_27 Cert.Proof.KB.k1_t4_trip.sl.r_28 Cert.Proof.KB.k1_t4_trip.sl.r_29
        Cert.Proof.KB.k1_t4_trip.sl.r_30 Cert.Proof.KB.k1_t4_trip.sl.r_31 Cert.Proof.KB.k1_t4_trip.sl.r_32 Cert.Proof.KB.k1_t4_trip.sl.r_33 Cert.Proof.KB.k1_t4_trip.sl.r_34
        Cert.Proof.KB.k1_t4_trip.sl.r_35 Cert.Proof.KB.k1_t4_trip.sl.r_36 Cert.Proof.KB.k1_t4_trip.sl.r_37 Cert.Proof.KB.k1_t4_trip.sl.r_38 Cert.Proof.KB.k1_t4_trip.sl.r_39
        Cert.Proof.KB.k1_t4_trip.sl.r_40 Cert.Proof.KB.k1_t4_trip.sl.r_41 Cert.Proof.KB.k1_t4_trip.sl.r_42 Cert.Proof.KB.k1_t4_trip.sl.r_43 Cert.Proof.KB.k1_t4_trip.sl.r_44
        Cert.Proof.KB.k1_t4_trip.sl.r_45 Cert.Proof.KB.k1_t4_trip.sl.r_46 Cert.Proof.KB.k1_t4_trip.sl.r_47 Cert.Proof.KB.k1_t4_trip.sl.r_48 Cert.Proof.KB.k1_t4_trip.sl.r_49
        Cert.Proof.KB.k1_t4_trip.sl.r_50 Cert.Proof.KB.k1_t4_trip.sl.r_51 Cert.Proof.KB.k1_t4_trip.sl.r_52 Cert.Proof.KB.k1_t4_trip.sl.r_53 Cert.Proof.KB.k1_t4_trip.sl.r_54
        Cert.Proof.KB.k1_t4_trip.sl.r_55 Cert.Proof.KB.k1_t4_trip.sl.r_56 Cert.Proof.KB.k1_t4_trip.sl.r_57 Cert.Proof.KB.k1_t4_trip.sl.r_58 Cert.Proof.KB.k1_t4_trip.sl.r_59
        Cert.Proof.KB.k1_t4_trip.sl.r_60 Cert.Proof.KB.k1_t4_trip.sl.r_61 Cert.Proof.KB.k1_t4_trip.sl.r_62 Cert.Proof.KB.k1_t4_trip.sl.r_63 Cert.Proof.KB.k1_t4_trip.sl.r_64
        Cert.Proof.KB.k1_t4_trip.sl.r_65 Cert.Proof.KB.k1_t4_trip.sl.r_66 Cert.Proof.KB.k1_t4_trip.sl.r_67 Cert.Proof.KB.k1_t4_trip.sl.r_68 Cert.Proof.KB.k1_t4_trip.sl.r_69
        Cert.Proof.KB.k1_t4_trip.sl.r_70 Cert.Proof.KB.k1_t4_trip.sl.r_71 Cert.Proof.KB.k1_t4_trip.sl.r_72 Cert.Proof.KB.k1_t4_trip.sl.r_73 Cert.Proof.KB.k1_t4_trip.sl.r_74
        Cert.Proof.KB.k1_t4_trip.sl.r_75 Cert.Proof.KB.k1_t4_trip.sl.r_76 Cert.Proof.KB.k1_t4_trip.sl.r_77 Cert.Proof.KB.k1_t4_trip.sl.r_78 Cert.Proof.KB.k1_t4_trip.sl.r_79
        Cert.Proof.KB.k1_t4_trip.sl.r_80 Cert.Proof.KB.k1_t4_trip.sl.r_81 Cert.Proof.KB.k1_t4_trip.sl.r_82 Cert.Proof.KB.k1_t4_trip.sl.r_83 Cert.Proof.KB.k1_t4_trip.sl.r_84
        Cert.Proof.KB.k1_t4_trip.sl.r_85 Cert.Proof.KB.k1_t4_trip.sl.r_86 Cert.Proof.KB.k1_t4_trip.sl.r_87 Cert.Proof.KB.k1_t4_trip.sl.r_88 Cert.Proof.KB.k1_t4_trip.sl.r_89
        Cert.Proof.KB.k1_t4_trip.sl.r_90 Cert.Proof.KB.k1_t4_trip.sl.r_91 Cert.Proof.KB.k1_t4_trip.sl.r_92 Cert.Proof.KB.k1_t4_trip.sl.r_93 Cert.Proof.KB.k1_t4_trip.sl.r_94
        Cert.Proof.KB.k1_t4_trip.sl.r_95 Cert.Proof.KB.k1_t4_trip.sl.r_96 Cert.Proof.KB.k1_t4_trip.sl.r_97 Cert.Proof.KB.k1_t4_trip.sl.r_98 Cert.Proof.KB.k1_t4_trip.sl.r_99
        Cert.Proof.KB.k1_t4_trip.sl.r_100 Cert.Proof.KB.k1_t4_trip.sl.r_101 Cert.Proof.KB.k1_t4_trip.sl.r_102 Cert.Proof.KB.k1_t4_trip.sl.r_103 Cert.Proof.KB.k1_t4_trip.sl.r_104
        Cert.Proof.KB.k1_t4_trip.sl.r_105 Cert.Proof.KB.k1_t4_trip.sl.r_106 Cert.Proof.KB.k1_t4_trip.sl.r_107 Cert.Proof.KB.k1_t4_trip.sl.r_108 Cert.Proof.KB.k1_t4_trip.sl.r_109
        Cert.Proof.KB.k1_t4_trip.sl.r_110 Cert.Proof.KB.k1_t4_trip.sl.r_111 Cert.Proof.KB.k1_t4_trip.sl.r_112 Cert.Proof.KB.k1_t4_trip.sl.r_113 Cert.Proof.KB.k1_t4_trip.sl.r_114
        Cert.Proof.KB.k1_t4_trip.sl.r_115 Cert.Proof.KB.k1_t4_trip.sl.r_116 Cert.Proof.KB.k1_t4_trip.sl.r_117 Cert.Proof.KB.k1_t4_trip.sl.r_118 Cert.Proof.KB.k1_t4_trip.sl.r_119
        Cert.Proof.KB.k1_t4_trip.sl.r_120 Cert.Proof.KB.k1_t4_trip.sl.r_121 Cert.Proof.KB.k1_t4_trip.sl.r_122 Cert.Proof.KB.k1_t4_trip.sl.r_123 Cert.Proof.KB.k1_t4_trip.sl.r_124
        Cert.Proof.KB.k1_t4_trip.sl.r_125 Cert.Proof.KB.k1_t4_trip.sl.r_126 Cert.Proof.KB.k1_t4_trip.sl.r_127 Cert.Proof.KB.k1_t4_trip.sl.r_128 Cert.Proof.KB.k1_t4_trip.sl.r_129
        Cert.Proof.KB.k1_t4_trip.sl.r_130 Cert.Proof.KB.k1_t4_trip.sl.r_131 Cert.Proof.KB.k1_t4_trip.sl.r_132 Cert.Proof.KB.k1_t4_trip.sl.r_133 Cert.Proof.KB.k1_t4_trip.sl.r_134
        Cert.Proof.KB.k1_t4_trip.sl.r_135 Cert.Proof.KB.k1_t4_trip.sl.r_136 Cert.Proof.KB.k1_t4_trip.sl.r_137 Cert.Proof.KB.k1_t4_trip.sl.r_138 Cert.Proof.KB.k1_t4_trip.sl.r_139
        Cert.Proof.KB.k1_t4_trip.sl.r_140 Cert.Proof.KB.k1_t4_trip.sl.r_141 Cert.Proof.KB.k1_t4_trip.sl.r_142 Cert.Proof.KB.k1_t4_trip.sl.r_143 Cert.Proof.KB.k1_t4_trip.sl.r_144
        Cert.Proof.KB.k1_t4_trip.sl.r_145 Cert.Proof.KB.k1_t4_trip.sl.r_146 Cert.Proof.KB.k1_t4_trip.sl.r_147 Cert.Proof.KB.k1_t4_trip.sl.r_148 Cert.Proof.KB.k1_t4_trip.sl.r_149
        Cert.Proof.KB.k1_t4_trip.sl.r_150 Cert.Proof.KB.k1_t4_trip.sl.r_151 Cert.Proof.KB.k1_t4_trip.sl.r_152 Cert.Proof.KB.k1_t4_trip.sl.r_153 Cert.Proof.KB.k1_t4_trip.sl.r_154
        Cert.Proof.KB.k1_t4_trip.sl.r_155 Cert.Proof.KB.k1_t4_trip.sl.r_156 Cert.Proof.KB.k1_t4_trip.sl.r_157 Cert.Proof.KB.k1_t4_trip.sl.r_158 Cert.Proof.KB.k1_t4_trip.sl.r_159
        Cert.Proof.KB.k1_t4_trip.sl.r_160 Cert.Proof.KB.k1_t4_trip.sl.r_161 Cert.Proof.KB.k1_t4_trip.sl.r_162 Cert.Proof.KB.k1_t4_trip.sl.r_163 Cert.Proof.KB.k1_t4_trip.sl.r_164
        Cert.Proof.KB.k1_t4_trip.sl.r_165 Cert.Proof.KB.k1_t4_trip.sl.r_166 Cert.Proof.KB.k1_t4_trip.sl.r_167 Cert.Proof.KB.k1_t4_trip.sl.r_168 Cert.Proof.KB.k1_t4_trip.sl.r_169
        Cert.Proof.KB.k1_t4_trip.sl.r_170 Cert.Proof.KB.k1_t4_trip.sl.r_171 Cert.Proof.KB.k1_t4_trip.sl.r_172 Cert.Proof.KB.k1_t4_trip.sl.r_173 Cert.Proof.KB.k1_t4_trip.sl.r_174
        Cert.Proof.KB.k1_t4_trip.sl.r_175 Cert.Proof.KB.k1_t4_trip.sl.r_176 Cert.Proof.KB.k1_t4_trip.sl.r_177 Cert.Proof.KB.k1_t4_trip.sl.r_178 Cert.Proof.KB.k1_t4_trip.sl.r_179
        Cert.Proof.KB.k1_t4_trip.sl.r_180 Cert.Proof.KB.k1_t4_trip.sl.r_181 Cert.Proof.KB.k1_t4_trip.sl.r_182 Cert.Proof.KB.k1_t4_trip.sl.r_183 Cert.Proof.KB.k1_t4_trip.sl.r_184
        Cert.Proof.KB.k1_t4_trip.sl.r_185 Cert.Proof.KB.k1_t4_trip.sl.r_186 Cert.Proof.KB.k1_t4_trip.sl.r_187 Cert.Proof.KB.k1_t4_trip.sl.r_188 Cert.Proof.KB.k1_t4_trip.sl.r_189
        Cert.Proof.KB.k1_t4_trip.sl.r_190 Cert.Proof.KB.k1_t4_trip.sl.r_191 Cert.Proof.KB.k1_t4_trip.sl.r_192 Cert.Proof.KB.k1_t4_trip.sl.r_193 Cert.Proof.KB.k1_t4_trip.sl.r_194
        Cert.Proof.KB.k1_t4_trip.sl.r_195 Cert.Proof.KB.k1_t4_trip.sl.r_196 Cert.Proof.KB.k1_t4_trip.sl.r_197 Cert.Proof.KB.k1_t4_trip.sl.r_198 Cert.Proof.KB.k1_t4_trip.sl.r_199
        Cert.Proof.KB.k1_t4_trip.sl.r_200 Cert.Proof.KB.k1_t4_trip.sl.r_201 Cert.Proof.KB.k1_t4_trip.sl.r_202 Cert.Proof.KB.k1_t4_trip.sl.r_203 Cert.Proof.KB.k1_t4_trip.sl.r_204
        Cert.Proof.KB.k1_t4_trip.sl.r_205 Cert.Proof.KB.k1_t4_trip.sl.r_206 Cert.Proof.KB.k1_t4_trip.sl.r_207 Cert.Proof.KB.k1_t4_trip.sl.r_208 Cert.Proof.KB.k1_t4_trip.sl.r_209
        Cert.Proof.KB.k1_t4_trip.sl.r_210 Cert.Proof.KB.k1_t4_trip.sl.r_211 Cert.Proof.KB.k1_t4_trip.sl.r_212 Cert.Proof.KB.k1_t4_trip.sl.r_213 Cert.Proof.KB.k1_t4_trip.sl.r_214
        Cert.Proof.KB.k1_t4_trip.sl.r_215 Cert.Proof.KB.k1_t4_trip.sl.r_216 Cert.Proof.KB.k1_t4_trip.sl.r_217 Cert.Proof.KB.k1_t4_trip.sl.r_218 Cert.Proof.KB.k1_t4_trip.sl.r_219
        Cert.Proof.KB.k1_t4_trip.sl.r_220 Cert.Proof.KB.k1_t4_trip.sl.r_221 Cert.Proof.KB.k1_t4_trip.sl.r_222 Cert.Proof.KB.k1_t4_trip.sl.r_223 Cert.Proof.KB.k1_t4_trip.sl.r_224
        Cert.Proof.KB.k1_t4_trip.sl.r_225 Cert.Proof.KB.k1_t4_trip.sl.r_226 Cert.Proof.KB.k1_t4_trip.sl.r_227 Cert.Proof.KB.k1_t4_trip.sl.r_228 Cert.Proof.KB.k1_t4_trip.sl.r_229
        Cert.Proof.KB.k1_t4_trip.sl.r_230 Cert.Proof.KB.k1_t4_trip.sl.r_231 Cert.Proof.KB.k1_t4_trip.sl.r_232 Cert.Proof.KB.k1_t4_trip.sl.r_233 Cert.Proof.KB.k1_t4_trip.sl.r_234
        Cert.Proof.KB.k1_t4_trip.sl.r_235 Cert.Proof.KB.k1_t4_trip.sl.r_236 Cert.Proof.KB.k1_t4_trip.sl.r_237 Cert.Proof.KB.k1_t4_trip.sl.r_238 Cert.Proof.KB.k1_t4_trip.sl.r_239
        Cert.Proof.KB.k1_t4_trip.sl.r_240 Cert.Proof.KB.k1_t4_trip.sl.r_241 Cert.Proof.KB.k1_t4_trip.sl.r_242 Cert.Proof.KB.k1_t4_trip.sl.r_243 Cert.Proof.KB.k1_t4_trip.sl.r_244
        Cert.Proof.KB.k1_t4_trip.sl.r_245 Cert.Proof.KB.k1_t4_trip.sl.r_246 Cert.Proof.KB.k1_t4_trip.sl.r_247 Cert.Proof.KB.k1_t4_trip.sl.r_248 Cert.Proof.KB.k1_t4_trip.sl.r_249
        Cert.Proof.KB.k1_t4_trip.sl.r_250 Cert.Proof.KB.k1_t4_trip.sl.r_251 Cert.Proof.KB.k1_t4_trip.sl.r_252 Cert.Proof.KB.k1_t4_trip.sl.r_253 Cert.Proof.KB.k1_t4_trip.sl.r_254
        Cert.Proof.KB.k1_t4_trip.sl.r_255 Cert.Proof.KB.k1_t4_trip.sl.r_256 Cert.Proof.KB.k1_t4_trip.sl.r_257 Cert.Proof.KB.k1_t4_trip.sl.r_258 Cert.Proof.KB.k1_t4_trip.sl.r_259
        Cert.Proof.KB.k1_t4_trip.sl.r_260 Cert.Proof.KB.k1_t4_trip.sl.r_261 Cert.Proof.KB.k1_t4_trip.sl.r_262 Cert.Proof.KB.k1_t4_trip.sl.r_263 Cert.Proof.KB.k1_t4_trip.sl.r_264
        Cert.Proof.KB.k1_t4_trip.sl.r_265 Cert.Proof.KB.k1_t4_trip.sl.r_266 Cert.Proof.KB.k1_t4_trip.sl.r_267 Cert.Proof.KB.k1_t4_trip.sl.r_268 Cert.Proof.KB.k1_t4_trip.sl.r_269
        Cert.Proof.KB.k1_t4_trip.sl.r_270 Cert.Proof.KB.k1_t4_trip.sl.r_271 Cert.Proof.KB.k1_t4_trip.sl.r_272 Cert.Proof.KB.k1_t4_trip.sl.r_273 Cert.Proof.KB.k1_t4_trip.sl.r_274
        Cert.Proof.KB.k1_t4_trip.sl.r_275 Cert.Proof.KB.k1_t4_trip.sl.r_276 Cert.Proof.KB.k1_t4_trip.sl.r_277 Cert.Proof.KB.k1_t4_trip.sl.r_278 Cert.Proof.KB.k1_t4_trip.sl.r_279
        Cert.Proof.KB.k1_t4_trip.sl.r_280 Cert.Proof.KB.k1_t4_trip.sl.r_281 Cert.Proof.KB.k1_t4_trip.sl.r_282 Cert.Proof.KB.k1_t4_trip.sl.r_283 Cert.Proof.KB.k1_t4_trip.sl.r_284
        Cert.Proof.KB.k1_t4_trip.sl.r_285 Cert.Proof.KB.k1_t4_trip.sl.r_286 Cert.Proof.KB.k1_t4_trip.sl.r_287 Cert.Proof.KB.k1_t4_trip.sl.r_288 Cert.Proof.KB.k1_t4_trip.sl.r_289
        Cert.Proof.KB.k1_t4_trip.sl.r_290 Cert.Proof.KB.k1_t4_trip.sl.r_291 Cert.Proof.KB.k1_t4_trip.sl.r_292 Cert.Proof.KB.k1_t4_trip.sl.r_293 Cert.Proof.KB.k1_t4_trip.sl.r_294
        Cert.Proof.KB.k1_t4_trip.sl.r_295 Cert.Proof.KB.k1_t4_trip.sl.r_296 Cert.Proof.KB.k1_t4_trip.sl.r_297 Cert.Proof.KB.k1_t4_trip.sl.r_298 Cert.Proof.KB.k1_t4_trip.sl.r_299
        Cert.Proof.KB.k1_t4_trip.sl.r_300 Cert.Proof.KB.k1_t4_trip.sl.r_301 Cert.Proof.KB.k1_t4_trip.sl.r_302 Cert.Proof.KB.k1_t4_trip.sl.r_303 Cert.Proof.KB.k1_t4_trip.sl.r_304
        Cert.Proof.KB.k1_t4_trip.sl.r_305 Cert.Proof.KB.k1_t4_trip.sl.r_306 Cert.Proof.KB.k1_t4_trip.sl.r_307 Cert.Proof.KB.k1_t4_trip.sl.r_308 Cert.Proof.KB.k1_t4_trip.sl.r_309
        Cert.Proof.KB.k1_t4_trip.sl.r_310 Cert.Proof.KB.k1_t4_trip.sl.r_311 Cert.Proof.KB.k1_t4_trip.sl.r_312 Cert.Proof.KB.k1_t4_trip.sl.r_313 Cert.Proof.KB.k1_t4_trip.sl.r_314
        Cert.Proof.KB.k1_t4_trip.sl.r_315 Cert.Proof.KB.k1_t4_trip.sl.r_316 Cert.Proof.KB.k1_t4_trip.sl.r_317 Cert.Proof.KB.k1_t4_trip.sl.r_318
      conv_lhs => simp only [k1_pay2, k1_pay324, k1_pay325, k1_pay326, k1_pay327, k1_pay328, k1_pay329, k1_pay330, k1_pay331, k1_pay332, k1_pay333, k1_pay334, k1_pay335, k1_pay336, k1_pay337, k1_pay338,
        k1_pay339, k1_pay340, k1_pay341, k1_pay342, k1_pay343, k1_pay344, k1_pay345, k1_pay346, k1_pay347, k1_pay348, k1_pay349, k1_pay350, k1_pay351, k1_pay352, k1_pay353, k1_pay354,
        k1_pay355, k1_pay356, k1_pay357, k1_pay358, k1_pay359, k1_pay360, k1_pay361, k1_pay362, k1_pay363, k1_pay364, k1_pay365, k1_pay366, k1_pay367, k1_pay368, k1_pay369, k1_pay370,
        k1_pay371, k1_pay372, k1_pay373, k1_pay374, k1_pay375, k1_pay376, k1_pay377, k1_pay378, k1_pay379, k1_pay380, k1_pay381, k1_pay382, k1_pay383, k1_pay384, k1_pay385, k1_pay386,
        k1_pay387, k1_pay388, k1_pay389, k1_pay390, k1_pay391, k1_pay392, k1_pay393, k1_pay394, k1_pay395, k1_pay396, k1_pay397, k1_pay398, k1_pay399, k1_pay400, k1_pay401, k1_pay402,
        k1_pay403, k1_pay404, k1_pay405, k1_pay406, k1_pay407, k1_pay408, k1_pay409, k1_pay410, k1_pay411, k1_pay412, k1_pay413, k1_pay414, k1_pay415, k1_pay416, k1_pay417, k1_pay418,
        k1_pay419, k1_pay420, k1_pay421, k1_pay422, k1_pay423, k1_pay424, k1_pay425, k1_pay426, k1_pay427, k1_pay428, k1_pay429, k1_pay430, k1_pay431, k1_pay432, k1_pay433, k1_pay434,
        k1_pay435, k1_pay436, k1_pay437, k1_pay438, k1_pay439, k1_pay440, k1_pay441, k1_pay442, k1_pay443, k1_pay444, k1_pay445, k1_pay446, k1_pay447, k1_pay448, k1_pay449, k1_pay450,
        k1_pay451, k1_pay452, k1_pay453, k1_pay454, k1_pay455, k1_pay456, k1_pay457, k1_pay458, k1_pay459, k1_pay460, k1_pay461, k1_pay462, k1_pay463, k1_pay464, k1_pay465, k1_pay466,
        k1_pay467, k1_pay468, k1_pay469, k1_pay470, k1_pay471, k1_pay472, k1_pay473, k1_pay474, k1_pay475, k1_pay476, k1_pay477, k1_pay478, k1_pay479, k1_pay480, k1_pay481, k1_pay482,
        k1_pay483, k1_pay484, k1_pay485, k1_pay486, k1_pay487, k1_pay488, k1_pay489, k1_pay490, k1_pay491, k1_pay492, k1_pay493, k1_pay494, k1_pay495, k1_pay496, k1_pay497, k1_pay498,
        k1_pay499, k1_pay500, k1_pay501, k1_pay502, k1_pay503, k1_pay504, k1_pay505, k1_pay506, k1_pay507, k1_pay508, k1_pay509, k1_pay510, k1_pay511, k1_pay512, k1_pay513, k1_pay514,
        k1_pay515, k1_pay516, k1_pay517, k1_pay518, k1_pay519, k1_pay520, k1_pay521, k1_pay522, k1_pay523, k1_pay524, k1_pay525, k1_pay526, k1_pay527, k1_pay528, k1_pay529, k1_pay530,
        k1_pay531, k1_pay532, k1_pay533, k1_pay534, k1_pay535, k1_pay536, k1_pay537, k1_pay538, k1_pay539, k1_pay540, k1_pay541, k1_pay542, k1_pay543, k1_pay544, k1_pay545, k1_pay546,
        k1_pay547, k1_pay548, k1_pay549, k1_pay550, k1_pay551, k1_pay552, k1_pay553, k1_pay554, k1_pay555, k1_pay556, k1_pay557, k1_pay558, k1_pay559, k1_pay560, k1_pay561, k1_pay562,
        k1_pay563, k1_pay564, k1_pay565, k1_pay566, k1_pay567, k1_pay568, k1_pay569, k1_pay570, k1_pay571, k1_pay572, k1_pay573, k1_pay574, k1_pay575, k1_pay576, k1_pay577, k1_pay578,
        k1_pay579, k1_pay580, k1_pay581, k1_pay582, k1_pay583, k1_pay584, k1_pay585, k1_pay586, k1_pay587, k1_pay588, k1_pay589, k1_pay590, k1_pay591, k1_pay592, k1_pay593, k1_pay594,
        k1_pay595, k1_pay596, k1_pay597, k1_pay598, k1_pay599, k1_pay600, k1_pay601, k1_pay602, k1_pay603, k1_pay604, k1_pay605, k1_pay606, k1_pay607, k1_pay608, k1_pay609, k1_pay610,
        k1_pay611, k1_pay612, k1_pay613, k1_pay614, k1_pay615, k1_pay616, k1_pay617, k1_pay618, k1_pay619, k1_pay620, k1_pay621, k1_pay622, k1_pay623, k1_pay624, k1_pay625, k1_pay626,
        k1_pay627, k1_pay628, k1_pay629, k1_pay630, k1_pay631, k1_pay632, k1_pay633, k1_pay634, k1_pay635, k1_pay636, k1_pay637, k1_pay638, k1_pay639, k1_pay640, k1_pay641, k1_pay642,
        k1_pay643, k1_pay644, Pure.addf_at, Pure.mulf_at, Pure.broadcast_at, Pure.lane_at, Pure.cast16_16, Pure.cast1x16_16, Pure.cast16_1x16]
      rfl
    · intro l
      show _ = Pure.acc32 (rowW fw r) (rowE fb sub (⟨48 + l.val, by have := l.isLt; omega⟩ : Fin 128))
        (g (ix2 r (⟨48 + l.val, by have := l.isLt; omega⟩ : Fin 128)))
      refine ((?_ : _ = _).trans (Pure.acc32_chain (wraw4 fw t2 t) (eraw4_3 fb t l) (graw4_3 g t2 t l))).trans
        (Pure.acc32_congr (wraw4_eq fw t2 t r hr) (eraw4_3_eq fb t sub hs l _ rfl) (graw4_3_eq g t2 t r hr l _ rfl))
      delta Cert.Proof.KB.k1_t4_trip.sl.r Cert.Proof.KB.k1_t4_trip.sl.r_1 Cert.Proof.KB.k1_t4_trip.sl.r_2 Cert.Proof.KB.k1_t4_trip.sl.r_3 Cert.Proof.KB.k1_t4_trip.sl.r_4
        Cert.Proof.KB.k1_t4_trip.sl.r_5 Cert.Proof.KB.k1_t4_trip.sl.r_6 Cert.Proof.KB.k1_t4_trip.sl.r_7 Cert.Proof.KB.k1_t4_trip.sl.r_8 Cert.Proof.KB.k1_t4_trip.sl.r_9
        Cert.Proof.KB.k1_t4_trip.sl.r_10 Cert.Proof.KB.k1_t4_trip.sl.r_11 Cert.Proof.KB.k1_t4_trip.sl.r_12 Cert.Proof.KB.k1_t4_trip.sl.r_13 Cert.Proof.KB.k1_t4_trip.sl.r_14
        Cert.Proof.KB.k1_t4_trip.sl.r_15 Cert.Proof.KB.k1_t4_trip.sl.r_16 Cert.Proof.KB.k1_t4_trip.sl.r_17 Cert.Proof.KB.k1_t4_trip.sl.r_18 Cert.Proof.KB.k1_t4_trip.sl.r_19
        Cert.Proof.KB.k1_t4_trip.sl.r_20 Cert.Proof.KB.k1_t4_trip.sl.r_21 Cert.Proof.KB.k1_t4_trip.sl.r_22 Cert.Proof.KB.k1_t4_trip.sl.r_23 Cert.Proof.KB.k1_t4_trip.sl.r_24
        Cert.Proof.KB.k1_t4_trip.sl.r_25 Cert.Proof.KB.k1_t4_trip.sl.r_26 Cert.Proof.KB.k1_t4_trip.sl.r_27 Cert.Proof.KB.k1_t4_trip.sl.r_28 Cert.Proof.KB.k1_t4_trip.sl.r_29
        Cert.Proof.KB.k1_t4_trip.sl.r_30 Cert.Proof.KB.k1_t4_trip.sl.r_31 Cert.Proof.KB.k1_t4_trip.sl.r_32 Cert.Proof.KB.k1_t4_trip.sl.r_33 Cert.Proof.KB.k1_t4_trip.sl.r_34
        Cert.Proof.KB.k1_t4_trip.sl.r_35 Cert.Proof.KB.k1_t4_trip.sl.r_36 Cert.Proof.KB.k1_t4_trip.sl.r_37 Cert.Proof.KB.k1_t4_trip.sl.r_38 Cert.Proof.KB.k1_t4_trip.sl.r_39
        Cert.Proof.KB.k1_t4_trip.sl.r_40 Cert.Proof.KB.k1_t4_trip.sl.r_41 Cert.Proof.KB.k1_t4_trip.sl.r_42 Cert.Proof.KB.k1_t4_trip.sl.r_43 Cert.Proof.KB.k1_t4_trip.sl.r_44
        Cert.Proof.KB.k1_t4_trip.sl.r_45 Cert.Proof.KB.k1_t4_trip.sl.r_46 Cert.Proof.KB.k1_t4_trip.sl.r_47 Cert.Proof.KB.k1_t4_trip.sl.r_48 Cert.Proof.KB.k1_t4_trip.sl.r_49
        Cert.Proof.KB.k1_t4_trip.sl.r_50 Cert.Proof.KB.k1_t4_trip.sl.r_51 Cert.Proof.KB.k1_t4_trip.sl.r_52 Cert.Proof.KB.k1_t4_trip.sl.r_53 Cert.Proof.KB.k1_t4_trip.sl.r_54
        Cert.Proof.KB.k1_t4_trip.sl.r_55 Cert.Proof.KB.k1_t4_trip.sl.r_56 Cert.Proof.KB.k1_t4_trip.sl.r_57 Cert.Proof.KB.k1_t4_trip.sl.r_58 Cert.Proof.KB.k1_t4_trip.sl.r_59
        Cert.Proof.KB.k1_t4_trip.sl.r_60 Cert.Proof.KB.k1_t4_trip.sl.r_61 Cert.Proof.KB.k1_t4_trip.sl.r_62 Cert.Proof.KB.k1_t4_trip.sl.r_63 Cert.Proof.KB.k1_t4_trip.sl.r_64
        Cert.Proof.KB.k1_t4_trip.sl.r_65 Cert.Proof.KB.k1_t4_trip.sl.r_66 Cert.Proof.KB.k1_t4_trip.sl.r_67 Cert.Proof.KB.k1_t4_trip.sl.r_68 Cert.Proof.KB.k1_t4_trip.sl.r_69
        Cert.Proof.KB.k1_t4_trip.sl.r_70 Cert.Proof.KB.k1_t4_trip.sl.r_71 Cert.Proof.KB.k1_t4_trip.sl.r_72 Cert.Proof.KB.k1_t4_trip.sl.r_73 Cert.Proof.KB.k1_t4_trip.sl.r_74
        Cert.Proof.KB.k1_t4_trip.sl.r_75 Cert.Proof.KB.k1_t4_trip.sl.r_76 Cert.Proof.KB.k1_t4_trip.sl.r_77 Cert.Proof.KB.k1_t4_trip.sl.r_78 Cert.Proof.KB.k1_t4_trip.sl.r_79
        Cert.Proof.KB.k1_t4_trip.sl.r_80 Cert.Proof.KB.k1_t4_trip.sl.r_81 Cert.Proof.KB.k1_t4_trip.sl.r_82 Cert.Proof.KB.k1_t4_trip.sl.r_83 Cert.Proof.KB.k1_t4_trip.sl.r_84
        Cert.Proof.KB.k1_t4_trip.sl.r_85 Cert.Proof.KB.k1_t4_trip.sl.r_86 Cert.Proof.KB.k1_t4_trip.sl.r_87 Cert.Proof.KB.k1_t4_trip.sl.r_88 Cert.Proof.KB.k1_t4_trip.sl.r_89
        Cert.Proof.KB.k1_t4_trip.sl.r_90 Cert.Proof.KB.k1_t4_trip.sl.r_91 Cert.Proof.KB.k1_t4_trip.sl.r_92 Cert.Proof.KB.k1_t4_trip.sl.r_93 Cert.Proof.KB.k1_t4_trip.sl.r_94
        Cert.Proof.KB.k1_t4_trip.sl.r_95 Cert.Proof.KB.k1_t4_trip.sl.r_96 Cert.Proof.KB.k1_t4_trip.sl.r_97 Cert.Proof.KB.k1_t4_trip.sl.r_98 Cert.Proof.KB.k1_t4_trip.sl.r_99
        Cert.Proof.KB.k1_t4_trip.sl.r_100 Cert.Proof.KB.k1_t4_trip.sl.r_101 Cert.Proof.KB.k1_t4_trip.sl.r_102 Cert.Proof.KB.k1_t4_trip.sl.r_103 Cert.Proof.KB.k1_t4_trip.sl.r_104
        Cert.Proof.KB.k1_t4_trip.sl.r_105 Cert.Proof.KB.k1_t4_trip.sl.r_106 Cert.Proof.KB.k1_t4_trip.sl.r_107 Cert.Proof.KB.k1_t4_trip.sl.r_108 Cert.Proof.KB.k1_t4_trip.sl.r_109
        Cert.Proof.KB.k1_t4_trip.sl.r_110 Cert.Proof.KB.k1_t4_trip.sl.r_111 Cert.Proof.KB.k1_t4_trip.sl.r_112 Cert.Proof.KB.k1_t4_trip.sl.r_113 Cert.Proof.KB.k1_t4_trip.sl.r_114
        Cert.Proof.KB.k1_t4_trip.sl.r_115 Cert.Proof.KB.k1_t4_trip.sl.r_116 Cert.Proof.KB.k1_t4_trip.sl.r_117 Cert.Proof.KB.k1_t4_trip.sl.r_118 Cert.Proof.KB.k1_t4_trip.sl.r_119
        Cert.Proof.KB.k1_t4_trip.sl.r_120 Cert.Proof.KB.k1_t4_trip.sl.r_121 Cert.Proof.KB.k1_t4_trip.sl.r_122 Cert.Proof.KB.k1_t4_trip.sl.r_123 Cert.Proof.KB.k1_t4_trip.sl.r_124
        Cert.Proof.KB.k1_t4_trip.sl.r_125 Cert.Proof.KB.k1_t4_trip.sl.r_126 Cert.Proof.KB.k1_t4_trip.sl.r_127 Cert.Proof.KB.k1_t4_trip.sl.r_128 Cert.Proof.KB.k1_t4_trip.sl.r_129
        Cert.Proof.KB.k1_t4_trip.sl.r_130 Cert.Proof.KB.k1_t4_trip.sl.r_131 Cert.Proof.KB.k1_t4_trip.sl.r_132 Cert.Proof.KB.k1_t4_trip.sl.r_133 Cert.Proof.KB.k1_t4_trip.sl.r_134
        Cert.Proof.KB.k1_t4_trip.sl.r_135 Cert.Proof.KB.k1_t4_trip.sl.r_136 Cert.Proof.KB.k1_t4_trip.sl.r_137 Cert.Proof.KB.k1_t4_trip.sl.r_138 Cert.Proof.KB.k1_t4_trip.sl.r_139
        Cert.Proof.KB.k1_t4_trip.sl.r_140 Cert.Proof.KB.k1_t4_trip.sl.r_141 Cert.Proof.KB.k1_t4_trip.sl.r_142 Cert.Proof.KB.k1_t4_trip.sl.r_143 Cert.Proof.KB.k1_t4_trip.sl.r_144
        Cert.Proof.KB.k1_t4_trip.sl.r_145 Cert.Proof.KB.k1_t4_trip.sl.r_146 Cert.Proof.KB.k1_t4_trip.sl.r_147 Cert.Proof.KB.k1_t4_trip.sl.r_148 Cert.Proof.KB.k1_t4_trip.sl.r_149
        Cert.Proof.KB.k1_t4_trip.sl.r_150 Cert.Proof.KB.k1_t4_trip.sl.r_151 Cert.Proof.KB.k1_t4_trip.sl.r_152 Cert.Proof.KB.k1_t4_trip.sl.r_153 Cert.Proof.KB.k1_t4_trip.sl.r_154
        Cert.Proof.KB.k1_t4_trip.sl.r_155 Cert.Proof.KB.k1_t4_trip.sl.r_156 Cert.Proof.KB.k1_t4_trip.sl.r_157 Cert.Proof.KB.k1_t4_trip.sl.r_158 Cert.Proof.KB.k1_t4_trip.sl.r_159
        Cert.Proof.KB.k1_t4_trip.sl.r_160 Cert.Proof.KB.k1_t4_trip.sl.r_161 Cert.Proof.KB.k1_t4_trip.sl.r_162 Cert.Proof.KB.k1_t4_trip.sl.r_163 Cert.Proof.KB.k1_t4_trip.sl.r_164
        Cert.Proof.KB.k1_t4_trip.sl.r_165 Cert.Proof.KB.k1_t4_trip.sl.r_166 Cert.Proof.KB.k1_t4_trip.sl.r_167 Cert.Proof.KB.k1_t4_trip.sl.r_168 Cert.Proof.KB.k1_t4_trip.sl.r_169
        Cert.Proof.KB.k1_t4_trip.sl.r_170 Cert.Proof.KB.k1_t4_trip.sl.r_171 Cert.Proof.KB.k1_t4_trip.sl.r_172 Cert.Proof.KB.k1_t4_trip.sl.r_173 Cert.Proof.KB.k1_t4_trip.sl.r_174
        Cert.Proof.KB.k1_t4_trip.sl.r_175 Cert.Proof.KB.k1_t4_trip.sl.r_176 Cert.Proof.KB.k1_t4_trip.sl.r_177 Cert.Proof.KB.k1_t4_trip.sl.r_178 Cert.Proof.KB.k1_t4_trip.sl.r_179
        Cert.Proof.KB.k1_t4_trip.sl.r_180 Cert.Proof.KB.k1_t4_trip.sl.r_181 Cert.Proof.KB.k1_t4_trip.sl.r_182 Cert.Proof.KB.k1_t4_trip.sl.r_183 Cert.Proof.KB.k1_t4_trip.sl.r_184
        Cert.Proof.KB.k1_t4_trip.sl.r_185 Cert.Proof.KB.k1_t4_trip.sl.r_186 Cert.Proof.KB.k1_t4_trip.sl.r_187 Cert.Proof.KB.k1_t4_trip.sl.r_188 Cert.Proof.KB.k1_t4_trip.sl.r_189
        Cert.Proof.KB.k1_t4_trip.sl.r_190 Cert.Proof.KB.k1_t4_trip.sl.r_191 Cert.Proof.KB.k1_t4_trip.sl.r_192 Cert.Proof.KB.k1_t4_trip.sl.r_193 Cert.Proof.KB.k1_t4_trip.sl.r_194
        Cert.Proof.KB.k1_t4_trip.sl.r_195 Cert.Proof.KB.k1_t4_trip.sl.r_196 Cert.Proof.KB.k1_t4_trip.sl.r_197 Cert.Proof.KB.k1_t4_trip.sl.r_198 Cert.Proof.KB.k1_t4_trip.sl.r_199
        Cert.Proof.KB.k1_t4_trip.sl.r_200 Cert.Proof.KB.k1_t4_trip.sl.r_201 Cert.Proof.KB.k1_t4_trip.sl.r_202 Cert.Proof.KB.k1_t4_trip.sl.r_203 Cert.Proof.KB.k1_t4_trip.sl.r_204
        Cert.Proof.KB.k1_t4_trip.sl.r_205 Cert.Proof.KB.k1_t4_trip.sl.r_206 Cert.Proof.KB.k1_t4_trip.sl.r_207 Cert.Proof.KB.k1_t4_trip.sl.r_208 Cert.Proof.KB.k1_t4_trip.sl.r_209
        Cert.Proof.KB.k1_t4_trip.sl.r_210 Cert.Proof.KB.k1_t4_trip.sl.r_211 Cert.Proof.KB.k1_t4_trip.sl.r_212 Cert.Proof.KB.k1_t4_trip.sl.r_213 Cert.Proof.KB.k1_t4_trip.sl.r_214
        Cert.Proof.KB.k1_t4_trip.sl.r_215 Cert.Proof.KB.k1_t4_trip.sl.r_216 Cert.Proof.KB.k1_t4_trip.sl.r_217 Cert.Proof.KB.k1_t4_trip.sl.r_218 Cert.Proof.KB.k1_t4_trip.sl.r_219
        Cert.Proof.KB.k1_t4_trip.sl.r_220 Cert.Proof.KB.k1_t4_trip.sl.r_221 Cert.Proof.KB.k1_t4_trip.sl.r_222 Cert.Proof.KB.k1_t4_trip.sl.r_223 Cert.Proof.KB.k1_t4_trip.sl.r_224
        Cert.Proof.KB.k1_t4_trip.sl.r_225 Cert.Proof.KB.k1_t4_trip.sl.r_226 Cert.Proof.KB.k1_t4_trip.sl.r_227 Cert.Proof.KB.k1_t4_trip.sl.r_228 Cert.Proof.KB.k1_t4_trip.sl.r_229
        Cert.Proof.KB.k1_t4_trip.sl.r_230 Cert.Proof.KB.k1_t4_trip.sl.r_231 Cert.Proof.KB.k1_t4_trip.sl.r_232 Cert.Proof.KB.k1_t4_trip.sl.r_233 Cert.Proof.KB.k1_t4_trip.sl.r_234
        Cert.Proof.KB.k1_t4_trip.sl.r_235 Cert.Proof.KB.k1_t4_trip.sl.r_236 Cert.Proof.KB.k1_t4_trip.sl.r_237 Cert.Proof.KB.k1_t4_trip.sl.r_238 Cert.Proof.KB.k1_t4_trip.sl.r_239
        Cert.Proof.KB.k1_t4_trip.sl.r_240 Cert.Proof.KB.k1_t4_trip.sl.r_241 Cert.Proof.KB.k1_t4_trip.sl.r_242 Cert.Proof.KB.k1_t4_trip.sl.r_243 Cert.Proof.KB.k1_t4_trip.sl.r_244
        Cert.Proof.KB.k1_t4_trip.sl.r_245 Cert.Proof.KB.k1_t4_trip.sl.r_246 Cert.Proof.KB.k1_t4_trip.sl.r_247 Cert.Proof.KB.k1_t4_trip.sl.r_248 Cert.Proof.KB.k1_t4_trip.sl.r_249
        Cert.Proof.KB.k1_t4_trip.sl.r_250 Cert.Proof.KB.k1_t4_trip.sl.r_251 Cert.Proof.KB.k1_t4_trip.sl.r_252 Cert.Proof.KB.k1_t4_trip.sl.r_253 Cert.Proof.KB.k1_t4_trip.sl.r_254
        Cert.Proof.KB.k1_t4_trip.sl.r_255 Cert.Proof.KB.k1_t4_trip.sl.r_256 Cert.Proof.KB.k1_t4_trip.sl.r_257 Cert.Proof.KB.k1_t4_trip.sl.r_258 Cert.Proof.KB.k1_t4_trip.sl.r_259
        Cert.Proof.KB.k1_t4_trip.sl.r_260 Cert.Proof.KB.k1_t4_trip.sl.r_261 Cert.Proof.KB.k1_t4_trip.sl.r_262 Cert.Proof.KB.k1_t4_trip.sl.r_263 Cert.Proof.KB.k1_t4_trip.sl.r_264
        Cert.Proof.KB.k1_t4_trip.sl.r_265 Cert.Proof.KB.k1_t4_trip.sl.r_266 Cert.Proof.KB.k1_t4_trip.sl.r_267 Cert.Proof.KB.k1_t4_trip.sl.r_268 Cert.Proof.KB.k1_t4_trip.sl.r_269
        Cert.Proof.KB.k1_t4_trip.sl.r_270 Cert.Proof.KB.k1_t4_trip.sl.r_271 Cert.Proof.KB.k1_t4_trip.sl.r_272 Cert.Proof.KB.k1_t4_trip.sl.r_273 Cert.Proof.KB.k1_t4_trip.sl.r_274
        Cert.Proof.KB.k1_t4_trip.sl.r_275 Cert.Proof.KB.k1_t4_trip.sl.r_276 Cert.Proof.KB.k1_t4_trip.sl.r_277 Cert.Proof.KB.k1_t4_trip.sl.r_278 Cert.Proof.KB.k1_t4_trip.sl.r_279
        Cert.Proof.KB.k1_t4_trip.sl.r_280 Cert.Proof.KB.k1_t4_trip.sl.r_281 Cert.Proof.KB.k1_t4_trip.sl.r_282 Cert.Proof.KB.k1_t4_trip.sl.r_283 Cert.Proof.KB.k1_t4_trip.sl.r_284
        Cert.Proof.KB.k1_t4_trip.sl.r_285 Cert.Proof.KB.k1_t4_trip.sl.r_286 Cert.Proof.KB.k1_t4_trip.sl.r_287 Cert.Proof.KB.k1_t4_trip.sl.r_288 Cert.Proof.KB.k1_t4_trip.sl.r_289
        Cert.Proof.KB.k1_t4_trip.sl.r_290 Cert.Proof.KB.k1_t4_trip.sl.r_291 Cert.Proof.KB.k1_t4_trip.sl.r_292 Cert.Proof.KB.k1_t4_trip.sl.r_293 Cert.Proof.KB.k1_t4_trip.sl.r_294
        Cert.Proof.KB.k1_t4_trip.sl.r_295 Cert.Proof.KB.k1_t4_trip.sl.r_296 Cert.Proof.KB.k1_t4_trip.sl.r_297 Cert.Proof.KB.k1_t4_trip.sl.r_298 Cert.Proof.KB.k1_t4_trip.sl.r_299
        Cert.Proof.KB.k1_t4_trip.sl.r_300 Cert.Proof.KB.k1_t4_trip.sl.r_301 Cert.Proof.KB.k1_t4_trip.sl.r_302 Cert.Proof.KB.k1_t4_trip.sl.r_303 Cert.Proof.KB.k1_t4_trip.sl.r_304
        Cert.Proof.KB.k1_t4_trip.sl.r_305 Cert.Proof.KB.k1_t4_trip.sl.r_306 Cert.Proof.KB.k1_t4_trip.sl.r_307 Cert.Proof.KB.k1_t4_trip.sl.r_308 Cert.Proof.KB.k1_t4_trip.sl.r_309
        Cert.Proof.KB.k1_t4_trip.sl.r_310 Cert.Proof.KB.k1_t4_trip.sl.r_311 Cert.Proof.KB.k1_t4_trip.sl.r_312 Cert.Proof.KB.k1_t4_trip.sl.r_313 Cert.Proof.KB.k1_t4_trip.sl.r_314
        Cert.Proof.KB.k1_t4_trip.sl.r_315 Cert.Proof.KB.k1_t4_trip.sl.r_316 Cert.Proof.KB.k1_t4_trip.sl.r_317 Cert.Proof.KB.k1_t4_trip.sl.r_318
      conv_lhs => simp only [k1_pay2, k1_pay324, k1_pay325, k1_pay326, k1_pay327, k1_pay328, k1_pay329, k1_pay330, k1_pay331, k1_pay332, k1_pay333, k1_pay334, k1_pay335, k1_pay336, k1_pay337, k1_pay338,
        k1_pay339, k1_pay340, k1_pay341, k1_pay342, k1_pay343, k1_pay344, k1_pay345, k1_pay346, k1_pay347, k1_pay348, k1_pay349, k1_pay350, k1_pay351, k1_pay352, k1_pay353, k1_pay354,
        k1_pay355, k1_pay356, k1_pay357, k1_pay358, k1_pay359, k1_pay360, k1_pay361, k1_pay362, k1_pay363, k1_pay364, k1_pay365, k1_pay366, k1_pay367, k1_pay368, k1_pay369, k1_pay370,
        k1_pay371, k1_pay372, k1_pay373, k1_pay374, k1_pay375, k1_pay376, k1_pay377, k1_pay378, k1_pay379, k1_pay380, k1_pay381, k1_pay382, k1_pay383, k1_pay384, k1_pay385, k1_pay386,
        k1_pay387, k1_pay388, k1_pay389, k1_pay390, k1_pay391, k1_pay392, k1_pay393, k1_pay394, k1_pay395, k1_pay396, k1_pay397, k1_pay398, k1_pay399, k1_pay400, k1_pay401, k1_pay402,
        k1_pay403, k1_pay404, k1_pay405, k1_pay406, k1_pay407, k1_pay408, k1_pay409, k1_pay410, k1_pay411, k1_pay412, k1_pay413, k1_pay414, k1_pay415, k1_pay416, k1_pay417, k1_pay418,
        k1_pay419, k1_pay420, k1_pay421, k1_pay422, k1_pay423, k1_pay424, k1_pay425, k1_pay426, k1_pay427, k1_pay428, k1_pay429, k1_pay430, k1_pay431, k1_pay432, k1_pay433, k1_pay434,
        k1_pay435, k1_pay436, k1_pay437, k1_pay438, k1_pay439, k1_pay440, k1_pay441, k1_pay442, k1_pay443, k1_pay444, k1_pay445, k1_pay446, k1_pay447, k1_pay448, k1_pay449, k1_pay450,
        k1_pay451, k1_pay452, k1_pay453, k1_pay454, k1_pay455, k1_pay456, k1_pay457, k1_pay458, k1_pay459, k1_pay460, k1_pay461, k1_pay462, k1_pay463, k1_pay464, k1_pay465, k1_pay466,
        k1_pay467, k1_pay468, k1_pay469, k1_pay470, k1_pay471, k1_pay472, k1_pay473, k1_pay474, k1_pay475, k1_pay476, k1_pay477, k1_pay478, k1_pay479, k1_pay480, k1_pay481, k1_pay482,
        k1_pay483, k1_pay484, k1_pay485, k1_pay486, k1_pay487, k1_pay488, k1_pay489, k1_pay490, k1_pay491, k1_pay492, k1_pay493, k1_pay494, k1_pay495, k1_pay496, k1_pay497, k1_pay498,
        k1_pay499, k1_pay500, k1_pay501, k1_pay502, k1_pay503, k1_pay504, k1_pay505, k1_pay506, k1_pay507, k1_pay508, k1_pay509, k1_pay510, k1_pay511, k1_pay512, k1_pay513, k1_pay514,
        k1_pay515, k1_pay516, k1_pay517, k1_pay518, k1_pay519, k1_pay520, k1_pay521, k1_pay522, k1_pay523, k1_pay524, k1_pay525, k1_pay526, k1_pay527, k1_pay528, k1_pay529, k1_pay530,
        k1_pay531, k1_pay532, k1_pay533, k1_pay534, k1_pay535, k1_pay536, k1_pay537, k1_pay538, k1_pay539, k1_pay540, k1_pay541, k1_pay542, k1_pay543, k1_pay544, k1_pay545, k1_pay546,
        k1_pay547, k1_pay548, k1_pay549, k1_pay550, k1_pay551, k1_pay552, k1_pay553, k1_pay554, k1_pay555, k1_pay556, k1_pay557, k1_pay558, k1_pay559, k1_pay560, k1_pay561, k1_pay562,
        k1_pay563, k1_pay564, k1_pay565, k1_pay566, k1_pay567, k1_pay568, k1_pay569, k1_pay570, k1_pay571, k1_pay572, k1_pay573, k1_pay574, k1_pay575, k1_pay576, k1_pay577, k1_pay578,
        k1_pay579, k1_pay580, k1_pay581, k1_pay582, k1_pay583, k1_pay584, k1_pay585, k1_pay586, k1_pay587, k1_pay588, k1_pay589, k1_pay590, k1_pay591, k1_pay592, k1_pay593, k1_pay594,
        k1_pay595, k1_pay596, k1_pay597, k1_pay598, k1_pay599, k1_pay600, k1_pay601, k1_pay602, k1_pay603, k1_pay604, k1_pay605, k1_pay606, k1_pay607, k1_pay608, k1_pay609, k1_pay610,
        k1_pay611, k1_pay612, k1_pay613, k1_pay614, k1_pay615, k1_pay616, k1_pay617, k1_pay618, k1_pay619, k1_pay620, k1_pay621, k1_pay622, k1_pay623, k1_pay624, k1_pay625, k1_pay626,
        k1_pay627, k1_pay628, k1_pay629, k1_pay630, k1_pay631, k1_pay632, k1_pay633, k1_pay634, k1_pay635, k1_pay636, k1_pay637, k1_pay638, k1_pay639, k1_pay640, k1_pay641, k1_pay642,
        k1_pay643, k1_pay644, Pure.addf_at, Pure.mulf_at, Pure.broadcast_at, Pure.lane_at, Pure.cast16_16, Pure.cast1x16_16, Pure.cast16_1x16]
      rfl
    · intro l
      show _ = Pure.acc32 (rowW fw r) (rowE fb sub (⟨64 + l.val, by have := l.isLt; omega⟩ : Fin 128))
        (g (ix2 r (⟨64 + l.val, by have := l.isLt; omega⟩ : Fin 128)))
      refine ((?_ : _ = _).trans (Pure.acc32_chain (wraw4 fw t2 t) (eraw4_4 fb t l) (graw4_4 g t2 t l))).trans
        (Pure.acc32_congr (wraw4_eq fw t2 t r hr) (eraw4_4_eq fb t sub hs l _ rfl) (graw4_4_eq g t2 t r hr l _ rfl))
      delta Cert.Proof.KB.k1_t4_trip.sl.r Cert.Proof.KB.k1_t4_trip.sl.r_1 Cert.Proof.KB.k1_t4_trip.sl.r_2 Cert.Proof.KB.k1_t4_trip.sl.r_3 Cert.Proof.KB.k1_t4_trip.sl.r_4
        Cert.Proof.KB.k1_t4_trip.sl.r_5 Cert.Proof.KB.k1_t4_trip.sl.r_6 Cert.Proof.KB.k1_t4_trip.sl.r_7 Cert.Proof.KB.k1_t4_trip.sl.r_8 Cert.Proof.KB.k1_t4_trip.sl.r_9
        Cert.Proof.KB.k1_t4_trip.sl.r_10 Cert.Proof.KB.k1_t4_trip.sl.r_11 Cert.Proof.KB.k1_t4_trip.sl.r_12 Cert.Proof.KB.k1_t4_trip.sl.r_13 Cert.Proof.KB.k1_t4_trip.sl.r_14
        Cert.Proof.KB.k1_t4_trip.sl.r_15 Cert.Proof.KB.k1_t4_trip.sl.r_16 Cert.Proof.KB.k1_t4_trip.sl.r_17 Cert.Proof.KB.k1_t4_trip.sl.r_18 Cert.Proof.KB.k1_t4_trip.sl.r_19
        Cert.Proof.KB.k1_t4_trip.sl.r_20 Cert.Proof.KB.k1_t4_trip.sl.r_21 Cert.Proof.KB.k1_t4_trip.sl.r_22 Cert.Proof.KB.k1_t4_trip.sl.r_23 Cert.Proof.KB.k1_t4_trip.sl.r_24
        Cert.Proof.KB.k1_t4_trip.sl.r_25 Cert.Proof.KB.k1_t4_trip.sl.r_26 Cert.Proof.KB.k1_t4_trip.sl.r_27 Cert.Proof.KB.k1_t4_trip.sl.r_28 Cert.Proof.KB.k1_t4_trip.sl.r_29
        Cert.Proof.KB.k1_t4_trip.sl.r_30 Cert.Proof.KB.k1_t4_trip.sl.r_31 Cert.Proof.KB.k1_t4_trip.sl.r_32 Cert.Proof.KB.k1_t4_trip.sl.r_33 Cert.Proof.KB.k1_t4_trip.sl.r_34
        Cert.Proof.KB.k1_t4_trip.sl.r_35 Cert.Proof.KB.k1_t4_trip.sl.r_36 Cert.Proof.KB.k1_t4_trip.sl.r_37 Cert.Proof.KB.k1_t4_trip.sl.r_38 Cert.Proof.KB.k1_t4_trip.sl.r_39
        Cert.Proof.KB.k1_t4_trip.sl.r_40 Cert.Proof.KB.k1_t4_trip.sl.r_41 Cert.Proof.KB.k1_t4_trip.sl.r_42 Cert.Proof.KB.k1_t4_trip.sl.r_43 Cert.Proof.KB.k1_t4_trip.sl.r_44
        Cert.Proof.KB.k1_t4_trip.sl.r_45 Cert.Proof.KB.k1_t4_trip.sl.r_46 Cert.Proof.KB.k1_t4_trip.sl.r_47 Cert.Proof.KB.k1_t4_trip.sl.r_48 Cert.Proof.KB.k1_t4_trip.sl.r_49
        Cert.Proof.KB.k1_t4_trip.sl.r_50 Cert.Proof.KB.k1_t4_trip.sl.r_51 Cert.Proof.KB.k1_t4_trip.sl.r_52 Cert.Proof.KB.k1_t4_trip.sl.r_53 Cert.Proof.KB.k1_t4_trip.sl.r_54
        Cert.Proof.KB.k1_t4_trip.sl.r_55 Cert.Proof.KB.k1_t4_trip.sl.r_56 Cert.Proof.KB.k1_t4_trip.sl.r_57 Cert.Proof.KB.k1_t4_trip.sl.r_58 Cert.Proof.KB.k1_t4_trip.sl.r_59
        Cert.Proof.KB.k1_t4_trip.sl.r_60 Cert.Proof.KB.k1_t4_trip.sl.r_61 Cert.Proof.KB.k1_t4_trip.sl.r_62 Cert.Proof.KB.k1_t4_trip.sl.r_63 Cert.Proof.KB.k1_t4_trip.sl.r_64
        Cert.Proof.KB.k1_t4_trip.sl.r_65 Cert.Proof.KB.k1_t4_trip.sl.r_66 Cert.Proof.KB.k1_t4_trip.sl.r_67 Cert.Proof.KB.k1_t4_trip.sl.r_68 Cert.Proof.KB.k1_t4_trip.sl.r_69
        Cert.Proof.KB.k1_t4_trip.sl.r_70 Cert.Proof.KB.k1_t4_trip.sl.r_71 Cert.Proof.KB.k1_t4_trip.sl.r_72 Cert.Proof.KB.k1_t4_trip.sl.r_73 Cert.Proof.KB.k1_t4_trip.sl.r_74
        Cert.Proof.KB.k1_t4_trip.sl.r_75 Cert.Proof.KB.k1_t4_trip.sl.r_76 Cert.Proof.KB.k1_t4_trip.sl.r_77 Cert.Proof.KB.k1_t4_trip.sl.r_78 Cert.Proof.KB.k1_t4_trip.sl.r_79
        Cert.Proof.KB.k1_t4_trip.sl.r_80 Cert.Proof.KB.k1_t4_trip.sl.r_81 Cert.Proof.KB.k1_t4_trip.sl.r_82 Cert.Proof.KB.k1_t4_trip.sl.r_83 Cert.Proof.KB.k1_t4_trip.sl.r_84
        Cert.Proof.KB.k1_t4_trip.sl.r_85 Cert.Proof.KB.k1_t4_trip.sl.r_86 Cert.Proof.KB.k1_t4_trip.sl.r_87 Cert.Proof.KB.k1_t4_trip.sl.r_88 Cert.Proof.KB.k1_t4_trip.sl.r_89
        Cert.Proof.KB.k1_t4_trip.sl.r_90 Cert.Proof.KB.k1_t4_trip.sl.r_91 Cert.Proof.KB.k1_t4_trip.sl.r_92 Cert.Proof.KB.k1_t4_trip.sl.r_93 Cert.Proof.KB.k1_t4_trip.sl.r_94
        Cert.Proof.KB.k1_t4_trip.sl.r_95 Cert.Proof.KB.k1_t4_trip.sl.r_96 Cert.Proof.KB.k1_t4_trip.sl.r_97 Cert.Proof.KB.k1_t4_trip.sl.r_98 Cert.Proof.KB.k1_t4_trip.sl.r_99
        Cert.Proof.KB.k1_t4_trip.sl.r_100 Cert.Proof.KB.k1_t4_trip.sl.r_101 Cert.Proof.KB.k1_t4_trip.sl.r_102 Cert.Proof.KB.k1_t4_trip.sl.r_103 Cert.Proof.KB.k1_t4_trip.sl.r_104
        Cert.Proof.KB.k1_t4_trip.sl.r_105 Cert.Proof.KB.k1_t4_trip.sl.r_106 Cert.Proof.KB.k1_t4_trip.sl.r_107 Cert.Proof.KB.k1_t4_trip.sl.r_108 Cert.Proof.KB.k1_t4_trip.sl.r_109
        Cert.Proof.KB.k1_t4_trip.sl.r_110 Cert.Proof.KB.k1_t4_trip.sl.r_111 Cert.Proof.KB.k1_t4_trip.sl.r_112 Cert.Proof.KB.k1_t4_trip.sl.r_113 Cert.Proof.KB.k1_t4_trip.sl.r_114
        Cert.Proof.KB.k1_t4_trip.sl.r_115 Cert.Proof.KB.k1_t4_trip.sl.r_116 Cert.Proof.KB.k1_t4_trip.sl.r_117 Cert.Proof.KB.k1_t4_trip.sl.r_118 Cert.Proof.KB.k1_t4_trip.sl.r_119
        Cert.Proof.KB.k1_t4_trip.sl.r_120 Cert.Proof.KB.k1_t4_trip.sl.r_121 Cert.Proof.KB.k1_t4_trip.sl.r_122 Cert.Proof.KB.k1_t4_trip.sl.r_123 Cert.Proof.KB.k1_t4_trip.sl.r_124
        Cert.Proof.KB.k1_t4_trip.sl.r_125 Cert.Proof.KB.k1_t4_trip.sl.r_126 Cert.Proof.KB.k1_t4_trip.sl.r_127 Cert.Proof.KB.k1_t4_trip.sl.r_128 Cert.Proof.KB.k1_t4_trip.sl.r_129
        Cert.Proof.KB.k1_t4_trip.sl.r_130 Cert.Proof.KB.k1_t4_trip.sl.r_131 Cert.Proof.KB.k1_t4_trip.sl.r_132 Cert.Proof.KB.k1_t4_trip.sl.r_133 Cert.Proof.KB.k1_t4_trip.sl.r_134
        Cert.Proof.KB.k1_t4_trip.sl.r_135 Cert.Proof.KB.k1_t4_trip.sl.r_136 Cert.Proof.KB.k1_t4_trip.sl.r_137 Cert.Proof.KB.k1_t4_trip.sl.r_138 Cert.Proof.KB.k1_t4_trip.sl.r_139
        Cert.Proof.KB.k1_t4_trip.sl.r_140 Cert.Proof.KB.k1_t4_trip.sl.r_141 Cert.Proof.KB.k1_t4_trip.sl.r_142 Cert.Proof.KB.k1_t4_trip.sl.r_143 Cert.Proof.KB.k1_t4_trip.sl.r_144
        Cert.Proof.KB.k1_t4_trip.sl.r_145 Cert.Proof.KB.k1_t4_trip.sl.r_146 Cert.Proof.KB.k1_t4_trip.sl.r_147 Cert.Proof.KB.k1_t4_trip.sl.r_148 Cert.Proof.KB.k1_t4_trip.sl.r_149
        Cert.Proof.KB.k1_t4_trip.sl.r_150 Cert.Proof.KB.k1_t4_trip.sl.r_151 Cert.Proof.KB.k1_t4_trip.sl.r_152 Cert.Proof.KB.k1_t4_trip.sl.r_153 Cert.Proof.KB.k1_t4_trip.sl.r_154
        Cert.Proof.KB.k1_t4_trip.sl.r_155 Cert.Proof.KB.k1_t4_trip.sl.r_156 Cert.Proof.KB.k1_t4_trip.sl.r_157 Cert.Proof.KB.k1_t4_trip.sl.r_158 Cert.Proof.KB.k1_t4_trip.sl.r_159
        Cert.Proof.KB.k1_t4_trip.sl.r_160 Cert.Proof.KB.k1_t4_trip.sl.r_161 Cert.Proof.KB.k1_t4_trip.sl.r_162 Cert.Proof.KB.k1_t4_trip.sl.r_163 Cert.Proof.KB.k1_t4_trip.sl.r_164
        Cert.Proof.KB.k1_t4_trip.sl.r_165 Cert.Proof.KB.k1_t4_trip.sl.r_166 Cert.Proof.KB.k1_t4_trip.sl.r_167 Cert.Proof.KB.k1_t4_trip.sl.r_168 Cert.Proof.KB.k1_t4_trip.sl.r_169
        Cert.Proof.KB.k1_t4_trip.sl.r_170 Cert.Proof.KB.k1_t4_trip.sl.r_171 Cert.Proof.KB.k1_t4_trip.sl.r_172 Cert.Proof.KB.k1_t4_trip.sl.r_173 Cert.Proof.KB.k1_t4_trip.sl.r_174
        Cert.Proof.KB.k1_t4_trip.sl.r_175 Cert.Proof.KB.k1_t4_trip.sl.r_176 Cert.Proof.KB.k1_t4_trip.sl.r_177 Cert.Proof.KB.k1_t4_trip.sl.r_178 Cert.Proof.KB.k1_t4_trip.sl.r_179
        Cert.Proof.KB.k1_t4_trip.sl.r_180 Cert.Proof.KB.k1_t4_trip.sl.r_181 Cert.Proof.KB.k1_t4_trip.sl.r_182 Cert.Proof.KB.k1_t4_trip.sl.r_183 Cert.Proof.KB.k1_t4_trip.sl.r_184
        Cert.Proof.KB.k1_t4_trip.sl.r_185 Cert.Proof.KB.k1_t4_trip.sl.r_186 Cert.Proof.KB.k1_t4_trip.sl.r_187 Cert.Proof.KB.k1_t4_trip.sl.r_188 Cert.Proof.KB.k1_t4_trip.sl.r_189
        Cert.Proof.KB.k1_t4_trip.sl.r_190 Cert.Proof.KB.k1_t4_trip.sl.r_191 Cert.Proof.KB.k1_t4_trip.sl.r_192 Cert.Proof.KB.k1_t4_trip.sl.r_193 Cert.Proof.KB.k1_t4_trip.sl.r_194
        Cert.Proof.KB.k1_t4_trip.sl.r_195 Cert.Proof.KB.k1_t4_trip.sl.r_196 Cert.Proof.KB.k1_t4_trip.sl.r_197 Cert.Proof.KB.k1_t4_trip.sl.r_198 Cert.Proof.KB.k1_t4_trip.sl.r_199
        Cert.Proof.KB.k1_t4_trip.sl.r_200 Cert.Proof.KB.k1_t4_trip.sl.r_201 Cert.Proof.KB.k1_t4_trip.sl.r_202 Cert.Proof.KB.k1_t4_trip.sl.r_203 Cert.Proof.KB.k1_t4_trip.sl.r_204
        Cert.Proof.KB.k1_t4_trip.sl.r_205 Cert.Proof.KB.k1_t4_trip.sl.r_206 Cert.Proof.KB.k1_t4_trip.sl.r_207 Cert.Proof.KB.k1_t4_trip.sl.r_208 Cert.Proof.KB.k1_t4_trip.sl.r_209
        Cert.Proof.KB.k1_t4_trip.sl.r_210 Cert.Proof.KB.k1_t4_trip.sl.r_211 Cert.Proof.KB.k1_t4_trip.sl.r_212 Cert.Proof.KB.k1_t4_trip.sl.r_213 Cert.Proof.KB.k1_t4_trip.sl.r_214
        Cert.Proof.KB.k1_t4_trip.sl.r_215 Cert.Proof.KB.k1_t4_trip.sl.r_216 Cert.Proof.KB.k1_t4_trip.sl.r_217 Cert.Proof.KB.k1_t4_trip.sl.r_218 Cert.Proof.KB.k1_t4_trip.sl.r_219
        Cert.Proof.KB.k1_t4_trip.sl.r_220 Cert.Proof.KB.k1_t4_trip.sl.r_221 Cert.Proof.KB.k1_t4_trip.sl.r_222 Cert.Proof.KB.k1_t4_trip.sl.r_223 Cert.Proof.KB.k1_t4_trip.sl.r_224
        Cert.Proof.KB.k1_t4_trip.sl.r_225 Cert.Proof.KB.k1_t4_trip.sl.r_226 Cert.Proof.KB.k1_t4_trip.sl.r_227 Cert.Proof.KB.k1_t4_trip.sl.r_228 Cert.Proof.KB.k1_t4_trip.sl.r_229
        Cert.Proof.KB.k1_t4_trip.sl.r_230 Cert.Proof.KB.k1_t4_trip.sl.r_231 Cert.Proof.KB.k1_t4_trip.sl.r_232 Cert.Proof.KB.k1_t4_trip.sl.r_233 Cert.Proof.KB.k1_t4_trip.sl.r_234
        Cert.Proof.KB.k1_t4_trip.sl.r_235 Cert.Proof.KB.k1_t4_trip.sl.r_236 Cert.Proof.KB.k1_t4_trip.sl.r_237 Cert.Proof.KB.k1_t4_trip.sl.r_238 Cert.Proof.KB.k1_t4_trip.sl.r_239
        Cert.Proof.KB.k1_t4_trip.sl.r_240 Cert.Proof.KB.k1_t4_trip.sl.r_241 Cert.Proof.KB.k1_t4_trip.sl.r_242 Cert.Proof.KB.k1_t4_trip.sl.r_243 Cert.Proof.KB.k1_t4_trip.sl.r_244
        Cert.Proof.KB.k1_t4_trip.sl.r_245 Cert.Proof.KB.k1_t4_trip.sl.r_246 Cert.Proof.KB.k1_t4_trip.sl.r_247 Cert.Proof.KB.k1_t4_trip.sl.r_248 Cert.Proof.KB.k1_t4_trip.sl.r_249
        Cert.Proof.KB.k1_t4_trip.sl.r_250 Cert.Proof.KB.k1_t4_trip.sl.r_251 Cert.Proof.KB.k1_t4_trip.sl.r_252 Cert.Proof.KB.k1_t4_trip.sl.r_253 Cert.Proof.KB.k1_t4_trip.sl.r_254
        Cert.Proof.KB.k1_t4_trip.sl.r_255 Cert.Proof.KB.k1_t4_trip.sl.r_256 Cert.Proof.KB.k1_t4_trip.sl.r_257 Cert.Proof.KB.k1_t4_trip.sl.r_258 Cert.Proof.KB.k1_t4_trip.sl.r_259
        Cert.Proof.KB.k1_t4_trip.sl.r_260 Cert.Proof.KB.k1_t4_trip.sl.r_261 Cert.Proof.KB.k1_t4_trip.sl.r_262 Cert.Proof.KB.k1_t4_trip.sl.r_263 Cert.Proof.KB.k1_t4_trip.sl.r_264
        Cert.Proof.KB.k1_t4_trip.sl.r_265 Cert.Proof.KB.k1_t4_trip.sl.r_266 Cert.Proof.KB.k1_t4_trip.sl.r_267 Cert.Proof.KB.k1_t4_trip.sl.r_268 Cert.Proof.KB.k1_t4_trip.sl.r_269
        Cert.Proof.KB.k1_t4_trip.sl.r_270 Cert.Proof.KB.k1_t4_trip.sl.r_271 Cert.Proof.KB.k1_t4_trip.sl.r_272 Cert.Proof.KB.k1_t4_trip.sl.r_273 Cert.Proof.KB.k1_t4_trip.sl.r_274
        Cert.Proof.KB.k1_t4_trip.sl.r_275 Cert.Proof.KB.k1_t4_trip.sl.r_276 Cert.Proof.KB.k1_t4_trip.sl.r_277 Cert.Proof.KB.k1_t4_trip.sl.r_278 Cert.Proof.KB.k1_t4_trip.sl.r_279
        Cert.Proof.KB.k1_t4_trip.sl.r_280 Cert.Proof.KB.k1_t4_trip.sl.r_281 Cert.Proof.KB.k1_t4_trip.sl.r_282 Cert.Proof.KB.k1_t4_trip.sl.r_283 Cert.Proof.KB.k1_t4_trip.sl.r_284
        Cert.Proof.KB.k1_t4_trip.sl.r_285 Cert.Proof.KB.k1_t4_trip.sl.r_286 Cert.Proof.KB.k1_t4_trip.sl.r_287 Cert.Proof.KB.k1_t4_trip.sl.r_288 Cert.Proof.KB.k1_t4_trip.sl.r_289
        Cert.Proof.KB.k1_t4_trip.sl.r_290 Cert.Proof.KB.k1_t4_trip.sl.r_291 Cert.Proof.KB.k1_t4_trip.sl.r_292 Cert.Proof.KB.k1_t4_trip.sl.r_293 Cert.Proof.KB.k1_t4_trip.sl.r_294
        Cert.Proof.KB.k1_t4_trip.sl.r_295 Cert.Proof.KB.k1_t4_trip.sl.r_296 Cert.Proof.KB.k1_t4_trip.sl.r_297 Cert.Proof.KB.k1_t4_trip.sl.r_298 Cert.Proof.KB.k1_t4_trip.sl.r_299
        Cert.Proof.KB.k1_t4_trip.sl.r_300 Cert.Proof.KB.k1_t4_trip.sl.r_301 Cert.Proof.KB.k1_t4_trip.sl.r_302 Cert.Proof.KB.k1_t4_trip.sl.r_303 Cert.Proof.KB.k1_t4_trip.sl.r_304
        Cert.Proof.KB.k1_t4_trip.sl.r_305 Cert.Proof.KB.k1_t4_trip.sl.r_306 Cert.Proof.KB.k1_t4_trip.sl.r_307 Cert.Proof.KB.k1_t4_trip.sl.r_308 Cert.Proof.KB.k1_t4_trip.sl.r_309
        Cert.Proof.KB.k1_t4_trip.sl.r_310 Cert.Proof.KB.k1_t4_trip.sl.r_311 Cert.Proof.KB.k1_t4_trip.sl.r_312 Cert.Proof.KB.k1_t4_trip.sl.r_313 Cert.Proof.KB.k1_t4_trip.sl.r_314
        Cert.Proof.KB.k1_t4_trip.sl.r_315 Cert.Proof.KB.k1_t4_trip.sl.r_316 Cert.Proof.KB.k1_t4_trip.sl.r_317 Cert.Proof.KB.k1_t4_trip.sl.r_318
      conv_lhs => simp only [k1_pay2, k1_pay324, k1_pay325, k1_pay326, k1_pay327, k1_pay328, k1_pay329, k1_pay330, k1_pay331, k1_pay332, k1_pay333, k1_pay334, k1_pay335, k1_pay336, k1_pay337, k1_pay338,
        k1_pay339, k1_pay340, k1_pay341, k1_pay342, k1_pay343, k1_pay344, k1_pay345, k1_pay346, k1_pay347, k1_pay348, k1_pay349, k1_pay350, k1_pay351, k1_pay352, k1_pay353, k1_pay354,
        k1_pay355, k1_pay356, k1_pay357, k1_pay358, k1_pay359, k1_pay360, k1_pay361, k1_pay362, k1_pay363, k1_pay364, k1_pay365, k1_pay366, k1_pay367, k1_pay368, k1_pay369, k1_pay370,
        k1_pay371, k1_pay372, k1_pay373, k1_pay374, k1_pay375, k1_pay376, k1_pay377, k1_pay378, k1_pay379, k1_pay380, k1_pay381, k1_pay382, k1_pay383, k1_pay384, k1_pay385, k1_pay386,
        k1_pay387, k1_pay388, k1_pay389, k1_pay390, k1_pay391, k1_pay392, k1_pay393, k1_pay394, k1_pay395, k1_pay396, k1_pay397, k1_pay398, k1_pay399, k1_pay400, k1_pay401, k1_pay402,
        k1_pay403, k1_pay404, k1_pay405, k1_pay406, k1_pay407, k1_pay408, k1_pay409, k1_pay410, k1_pay411, k1_pay412, k1_pay413, k1_pay414, k1_pay415, k1_pay416, k1_pay417, k1_pay418,
        k1_pay419, k1_pay420, k1_pay421, k1_pay422, k1_pay423, k1_pay424, k1_pay425, k1_pay426, k1_pay427, k1_pay428, k1_pay429, k1_pay430, k1_pay431, k1_pay432, k1_pay433, k1_pay434,
        k1_pay435, k1_pay436, k1_pay437, k1_pay438, k1_pay439, k1_pay440, k1_pay441, k1_pay442, k1_pay443, k1_pay444, k1_pay445, k1_pay446, k1_pay447, k1_pay448, k1_pay449, k1_pay450,
        k1_pay451, k1_pay452, k1_pay453, k1_pay454, k1_pay455, k1_pay456, k1_pay457, k1_pay458, k1_pay459, k1_pay460, k1_pay461, k1_pay462, k1_pay463, k1_pay464, k1_pay465, k1_pay466,
        k1_pay467, k1_pay468, k1_pay469, k1_pay470, k1_pay471, k1_pay472, k1_pay473, k1_pay474, k1_pay475, k1_pay476, k1_pay477, k1_pay478, k1_pay479, k1_pay480, k1_pay481, k1_pay482,
        k1_pay483, k1_pay484, k1_pay485, k1_pay486, k1_pay487, k1_pay488, k1_pay489, k1_pay490, k1_pay491, k1_pay492, k1_pay493, k1_pay494, k1_pay495, k1_pay496, k1_pay497, k1_pay498,
        k1_pay499, k1_pay500, k1_pay501, k1_pay502, k1_pay503, k1_pay504, k1_pay505, k1_pay506, k1_pay507, k1_pay508, k1_pay509, k1_pay510, k1_pay511, k1_pay512, k1_pay513, k1_pay514,
        k1_pay515, k1_pay516, k1_pay517, k1_pay518, k1_pay519, k1_pay520, k1_pay521, k1_pay522, k1_pay523, k1_pay524, k1_pay525, k1_pay526, k1_pay527, k1_pay528, k1_pay529, k1_pay530,
        k1_pay531, k1_pay532, k1_pay533, k1_pay534, k1_pay535, k1_pay536, k1_pay537, k1_pay538, k1_pay539, k1_pay540, k1_pay541, k1_pay542, k1_pay543, k1_pay544, k1_pay545, k1_pay546,
        k1_pay547, k1_pay548, k1_pay549, k1_pay550, k1_pay551, k1_pay552, k1_pay553, k1_pay554, k1_pay555, k1_pay556, k1_pay557, k1_pay558, k1_pay559, k1_pay560, k1_pay561, k1_pay562,
        k1_pay563, k1_pay564, k1_pay565, k1_pay566, k1_pay567, k1_pay568, k1_pay569, k1_pay570, k1_pay571, k1_pay572, k1_pay573, k1_pay574, k1_pay575, k1_pay576, k1_pay577, k1_pay578,
        k1_pay579, k1_pay580, k1_pay581, k1_pay582, k1_pay583, k1_pay584, k1_pay585, k1_pay586, k1_pay587, k1_pay588, k1_pay589, k1_pay590, k1_pay591, k1_pay592, k1_pay593, k1_pay594,
        k1_pay595, k1_pay596, k1_pay597, k1_pay598, k1_pay599, k1_pay600, k1_pay601, k1_pay602, k1_pay603, k1_pay604, k1_pay605, k1_pay606, k1_pay607, k1_pay608, k1_pay609, k1_pay610,
        k1_pay611, k1_pay612, k1_pay613, k1_pay614, k1_pay615, k1_pay616, k1_pay617, k1_pay618, k1_pay619, k1_pay620, k1_pay621, k1_pay622, k1_pay623, k1_pay624, k1_pay625, k1_pay626,
        k1_pay627, k1_pay628, k1_pay629, k1_pay630, k1_pay631, k1_pay632, k1_pay633, k1_pay634, k1_pay635, k1_pay636, k1_pay637, k1_pay638, k1_pay639, k1_pay640, k1_pay641, k1_pay642,
        k1_pay643, k1_pay644, Pure.addf_at, Pure.mulf_at, Pure.broadcast_at, Pure.lane_at, Pure.cast16_16, Pure.cast1x16_16, Pure.cast16_1x16]
      rfl
    · intro l
      show _ = Pure.acc32 (rowW fw r) (rowE fb sub (⟨80 + l.val, by have := l.isLt; omega⟩ : Fin 128))
        (g (ix2 r (⟨80 + l.val, by have := l.isLt; omega⟩ : Fin 128)))
      refine ((?_ : _ = _).trans (Pure.acc32_chain (wraw4 fw t2 t) (eraw4_5 fb t l) (graw4_5 g t2 t l))).trans
        (Pure.acc32_congr (wraw4_eq fw t2 t r hr) (eraw4_5_eq fb t sub hs l _ rfl) (graw4_5_eq g t2 t r hr l _ rfl))
      delta Cert.Proof.KB.k1_t4_trip.sl.r Cert.Proof.KB.k1_t4_trip.sl.r_1 Cert.Proof.KB.k1_t4_trip.sl.r_2 Cert.Proof.KB.k1_t4_trip.sl.r_3 Cert.Proof.KB.k1_t4_trip.sl.r_4
        Cert.Proof.KB.k1_t4_trip.sl.r_5 Cert.Proof.KB.k1_t4_trip.sl.r_6 Cert.Proof.KB.k1_t4_trip.sl.r_7 Cert.Proof.KB.k1_t4_trip.sl.r_8 Cert.Proof.KB.k1_t4_trip.sl.r_9
        Cert.Proof.KB.k1_t4_trip.sl.r_10 Cert.Proof.KB.k1_t4_trip.sl.r_11 Cert.Proof.KB.k1_t4_trip.sl.r_12 Cert.Proof.KB.k1_t4_trip.sl.r_13 Cert.Proof.KB.k1_t4_trip.sl.r_14
        Cert.Proof.KB.k1_t4_trip.sl.r_15 Cert.Proof.KB.k1_t4_trip.sl.r_16 Cert.Proof.KB.k1_t4_trip.sl.r_17 Cert.Proof.KB.k1_t4_trip.sl.r_18 Cert.Proof.KB.k1_t4_trip.sl.r_19
        Cert.Proof.KB.k1_t4_trip.sl.r_20 Cert.Proof.KB.k1_t4_trip.sl.r_21 Cert.Proof.KB.k1_t4_trip.sl.r_22 Cert.Proof.KB.k1_t4_trip.sl.r_23 Cert.Proof.KB.k1_t4_trip.sl.r_24
        Cert.Proof.KB.k1_t4_trip.sl.r_25 Cert.Proof.KB.k1_t4_trip.sl.r_26 Cert.Proof.KB.k1_t4_trip.sl.r_27 Cert.Proof.KB.k1_t4_trip.sl.r_28 Cert.Proof.KB.k1_t4_trip.sl.r_29
        Cert.Proof.KB.k1_t4_trip.sl.r_30 Cert.Proof.KB.k1_t4_trip.sl.r_31 Cert.Proof.KB.k1_t4_trip.sl.r_32 Cert.Proof.KB.k1_t4_trip.sl.r_33 Cert.Proof.KB.k1_t4_trip.sl.r_34
        Cert.Proof.KB.k1_t4_trip.sl.r_35 Cert.Proof.KB.k1_t4_trip.sl.r_36 Cert.Proof.KB.k1_t4_trip.sl.r_37 Cert.Proof.KB.k1_t4_trip.sl.r_38 Cert.Proof.KB.k1_t4_trip.sl.r_39
        Cert.Proof.KB.k1_t4_trip.sl.r_40 Cert.Proof.KB.k1_t4_trip.sl.r_41 Cert.Proof.KB.k1_t4_trip.sl.r_42 Cert.Proof.KB.k1_t4_trip.sl.r_43 Cert.Proof.KB.k1_t4_trip.sl.r_44
        Cert.Proof.KB.k1_t4_trip.sl.r_45 Cert.Proof.KB.k1_t4_trip.sl.r_46 Cert.Proof.KB.k1_t4_trip.sl.r_47 Cert.Proof.KB.k1_t4_trip.sl.r_48 Cert.Proof.KB.k1_t4_trip.sl.r_49
        Cert.Proof.KB.k1_t4_trip.sl.r_50 Cert.Proof.KB.k1_t4_trip.sl.r_51 Cert.Proof.KB.k1_t4_trip.sl.r_52 Cert.Proof.KB.k1_t4_trip.sl.r_53 Cert.Proof.KB.k1_t4_trip.sl.r_54
        Cert.Proof.KB.k1_t4_trip.sl.r_55 Cert.Proof.KB.k1_t4_trip.sl.r_56 Cert.Proof.KB.k1_t4_trip.sl.r_57 Cert.Proof.KB.k1_t4_trip.sl.r_58 Cert.Proof.KB.k1_t4_trip.sl.r_59
        Cert.Proof.KB.k1_t4_trip.sl.r_60 Cert.Proof.KB.k1_t4_trip.sl.r_61 Cert.Proof.KB.k1_t4_trip.sl.r_62 Cert.Proof.KB.k1_t4_trip.sl.r_63 Cert.Proof.KB.k1_t4_trip.sl.r_64
        Cert.Proof.KB.k1_t4_trip.sl.r_65 Cert.Proof.KB.k1_t4_trip.sl.r_66 Cert.Proof.KB.k1_t4_trip.sl.r_67 Cert.Proof.KB.k1_t4_trip.sl.r_68 Cert.Proof.KB.k1_t4_trip.sl.r_69
        Cert.Proof.KB.k1_t4_trip.sl.r_70 Cert.Proof.KB.k1_t4_trip.sl.r_71 Cert.Proof.KB.k1_t4_trip.sl.r_72 Cert.Proof.KB.k1_t4_trip.sl.r_73 Cert.Proof.KB.k1_t4_trip.sl.r_74
        Cert.Proof.KB.k1_t4_trip.sl.r_75 Cert.Proof.KB.k1_t4_trip.sl.r_76 Cert.Proof.KB.k1_t4_trip.sl.r_77 Cert.Proof.KB.k1_t4_trip.sl.r_78 Cert.Proof.KB.k1_t4_trip.sl.r_79
        Cert.Proof.KB.k1_t4_trip.sl.r_80 Cert.Proof.KB.k1_t4_trip.sl.r_81 Cert.Proof.KB.k1_t4_trip.sl.r_82 Cert.Proof.KB.k1_t4_trip.sl.r_83 Cert.Proof.KB.k1_t4_trip.sl.r_84
        Cert.Proof.KB.k1_t4_trip.sl.r_85 Cert.Proof.KB.k1_t4_trip.sl.r_86 Cert.Proof.KB.k1_t4_trip.sl.r_87 Cert.Proof.KB.k1_t4_trip.sl.r_88 Cert.Proof.KB.k1_t4_trip.sl.r_89
        Cert.Proof.KB.k1_t4_trip.sl.r_90 Cert.Proof.KB.k1_t4_trip.sl.r_91 Cert.Proof.KB.k1_t4_trip.sl.r_92 Cert.Proof.KB.k1_t4_trip.sl.r_93 Cert.Proof.KB.k1_t4_trip.sl.r_94
        Cert.Proof.KB.k1_t4_trip.sl.r_95 Cert.Proof.KB.k1_t4_trip.sl.r_96 Cert.Proof.KB.k1_t4_trip.sl.r_97 Cert.Proof.KB.k1_t4_trip.sl.r_98 Cert.Proof.KB.k1_t4_trip.sl.r_99
        Cert.Proof.KB.k1_t4_trip.sl.r_100 Cert.Proof.KB.k1_t4_trip.sl.r_101 Cert.Proof.KB.k1_t4_trip.sl.r_102 Cert.Proof.KB.k1_t4_trip.sl.r_103 Cert.Proof.KB.k1_t4_trip.sl.r_104
        Cert.Proof.KB.k1_t4_trip.sl.r_105 Cert.Proof.KB.k1_t4_trip.sl.r_106 Cert.Proof.KB.k1_t4_trip.sl.r_107 Cert.Proof.KB.k1_t4_trip.sl.r_108 Cert.Proof.KB.k1_t4_trip.sl.r_109
        Cert.Proof.KB.k1_t4_trip.sl.r_110 Cert.Proof.KB.k1_t4_trip.sl.r_111 Cert.Proof.KB.k1_t4_trip.sl.r_112 Cert.Proof.KB.k1_t4_trip.sl.r_113 Cert.Proof.KB.k1_t4_trip.sl.r_114
        Cert.Proof.KB.k1_t4_trip.sl.r_115 Cert.Proof.KB.k1_t4_trip.sl.r_116 Cert.Proof.KB.k1_t4_trip.sl.r_117 Cert.Proof.KB.k1_t4_trip.sl.r_118 Cert.Proof.KB.k1_t4_trip.sl.r_119
        Cert.Proof.KB.k1_t4_trip.sl.r_120 Cert.Proof.KB.k1_t4_trip.sl.r_121 Cert.Proof.KB.k1_t4_trip.sl.r_122 Cert.Proof.KB.k1_t4_trip.sl.r_123 Cert.Proof.KB.k1_t4_trip.sl.r_124
        Cert.Proof.KB.k1_t4_trip.sl.r_125 Cert.Proof.KB.k1_t4_trip.sl.r_126 Cert.Proof.KB.k1_t4_trip.sl.r_127 Cert.Proof.KB.k1_t4_trip.sl.r_128 Cert.Proof.KB.k1_t4_trip.sl.r_129
        Cert.Proof.KB.k1_t4_trip.sl.r_130 Cert.Proof.KB.k1_t4_trip.sl.r_131 Cert.Proof.KB.k1_t4_trip.sl.r_132 Cert.Proof.KB.k1_t4_trip.sl.r_133 Cert.Proof.KB.k1_t4_trip.sl.r_134
        Cert.Proof.KB.k1_t4_trip.sl.r_135 Cert.Proof.KB.k1_t4_trip.sl.r_136 Cert.Proof.KB.k1_t4_trip.sl.r_137 Cert.Proof.KB.k1_t4_trip.sl.r_138 Cert.Proof.KB.k1_t4_trip.sl.r_139
        Cert.Proof.KB.k1_t4_trip.sl.r_140 Cert.Proof.KB.k1_t4_trip.sl.r_141 Cert.Proof.KB.k1_t4_trip.sl.r_142 Cert.Proof.KB.k1_t4_trip.sl.r_143 Cert.Proof.KB.k1_t4_trip.sl.r_144
        Cert.Proof.KB.k1_t4_trip.sl.r_145 Cert.Proof.KB.k1_t4_trip.sl.r_146 Cert.Proof.KB.k1_t4_trip.sl.r_147 Cert.Proof.KB.k1_t4_trip.sl.r_148 Cert.Proof.KB.k1_t4_trip.sl.r_149
        Cert.Proof.KB.k1_t4_trip.sl.r_150 Cert.Proof.KB.k1_t4_trip.sl.r_151 Cert.Proof.KB.k1_t4_trip.sl.r_152 Cert.Proof.KB.k1_t4_trip.sl.r_153 Cert.Proof.KB.k1_t4_trip.sl.r_154
        Cert.Proof.KB.k1_t4_trip.sl.r_155 Cert.Proof.KB.k1_t4_trip.sl.r_156 Cert.Proof.KB.k1_t4_trip.sl.r_157 Cert.Proof.KB.k1_t4_trip.sl.r_158 Cert.Proof.KB.k1_t4_trip.sl.r_159
        Cert.Proof.KB.k1_t4_trip.sl.r_160 Cert.Proof.KB.k1_t4_trip.sl.r_161 Cert.Proof.KB.k1_t4_trip.sl.r_162 Cert.Proof.KB.k1_t4_trip.sl.r_163 Cert.Proof.KB.k1_t4_trip.sl.r_164
        Cert.Proof.KB.k1_t4_trip.sl.r_165 Cert.Proof.KB.k1_t4_trip.sl.r_166 Cert.Proof.KB.k1_t4_trip.sl.r_167 Cert.Proof.KB.k1_t4_trip.sl.r_168 Cert.Proof.KB.k1_t4_trip.sl.r_169
        Cert.Proof.KB.k1_t4_trip.sl.r_170 Cert.Proof.KB.k1_t4_trip.sl.r_171 Cert.Proof.KB.k1_t4_trip.sl.r_172 Cert.Proof.KB.k1_t4_trip.sl.r_173 Cert.Proof.KB.k1_t4_trip.sl.r_174
        Cert.Proof.KB.k1_t4_trip.sl.r_175 Cert.Proof.KB.k1_t4_trip.sl.r_176 Cert.Proof.KB.k1_t4_trip.sl.r_177 Cert.Proof.KB.k1_t4_trip.sl.r_178 Cert.Proof.KB.k1_t4_trip.sl.r_179
        Cert.Proof.KB.k1_t4_trip.sl.r_180 Cert.Proof.KB.k1_t4_trip.sl.r_181 Cert.Proof.KB.k1_t4_trip.sl.r_182 Cert.Proof.KB.k1_t4_trip.sl.r_183 Cert.Proof.KB.k1_t4_trip.sl.r_184
        Cert.Proof.KB.k1_t4_trip.sl.r_185 Cert.Proof.KB.k1_t4_trip.sl.r_186 Cert.Proof.KB.k1_t4_trip.sl.r_187 Cert.Proof.KB.k1_t4_trip.sl.r_188 Cert.Proof.KB.k1_t4_trip.sl.r_189
        Cert.Proof.KB.k1_t4_trip.sl.r_190 Cert.Proof.KB.k1_t4_trip.sl.r_191 Cert.Proof.KB.k1_t4_trip.sl.r_192 Cert.Proof.KB.k1_t4_trip.sl.r_193 Cert.Proof.KB.k1_t4_trip.sl.r_194
        Cert.Proof.KB.k1_t4_trip.sl.r_195 Cert.Proof.KB.k1_t4_trip.sl.r_196 Cert.Proof.KB.k1_t4_trip.sl.r_197 Cert.Proof.KB.k1_t4_trip.sl.r_198 Cert.Proof.KB.k1_t4_trip.sl.r_199
        Cert.Proof.KB.k1_t4_trip.sl.r_200 Cert.Proof.KB.k1_t4_trip.sl.r_201 Cert.Proof.KB.k1_t4_trip.sl.r_202 Cert.Proof.KB.k1_t4_trip.sl.r_203 Cert.Proof.KB.k1_t4_trip.sl.r_204
        Cert.Proof.KB.k1_t4_trip.sl.r_205 Cert.Proof.KB.k1_t4_trip.sl.r_206 Cert.Proof.KB.k1_t4_trip.sl.r_207 Cert.Proof.KB.k1_t4_trip.sl.r_208 Cert.Proof.KB.k1_t4_trip.sl.r_209
        Cert.Proof.KB.k1_t4_trip.sl.r_210 Cert.Proof.KB.k1_t4_trip.sl.r_211 Cert.Proof.KB.k1_t4_trip.sl.r_212 Cert.Proof.KB.k1_t4_trip.sl.r_213 Cert.Proof.KB.k1_t4_trip.sl.r_214
        Cert.Proof.KB.k1_t4_trip.sl.r_215 Cert.Proof.KB.k1_t4_trip.sl.r_216 Cert.Proof.KB.k1_t4_trip.sl.r_217 Cert.Proof.KB.k1_t4_trip.sl.r_218 Cert.Proof.KB.k1_t4_trip.sl.r_219
        Cert.Proof.KB.k1_t4_trip.sl.r_220 Cert.Proof.KB.k1_t4_trip.sl.r_221 Cert.Proof.KB.k1_t4_trip.sl.r_222 Cert.Proof.KB.k1_t4_trip.sl.r_223 Cert.Proof.KB.k1_t4_trip.sl.r_224
        Cert.Proof.KB.k1_t4_trip.sl.r_225 Cert.Proof.KB.k1_t4_trip.sl.r_226 Cert.Proof.KB.k1_t4_trip.sl.r_227 Cert.Proof.KB.k1_t4_trip.sl.r_228 Cert.Proof.KB.k1_t4_trip.sl.r_229
        Cert.Proof.KB.k1_t4_trip.sl.r_230 Cert.Proof.KB.k1_t4_trip.sl.r_231 Cert.Proof.KB.k1_t4_trip.sl.r_232 Cert.Proof.KB.k1_t4_trip.sl.r_233 Cert.Proof.KB.k1_t4_trip.sl.r_234
        Cert.Proof.KB.k1_t4_trip.sl.r_235 Cert.Proof.KB.k1_t4_trip.sl.r_236 Cert.Proof.KB.k1_t4_trip.sl.r_237 Cert.Proof.KB.k1_t4_trip.sl.r_238 Cert.Proof.KB.k1_t4_trip.sl.r_239
        Cert.Proof.KB.k1_t4_trip.sl.r_240 Cert.Proof.KB.k1_t4_trip.sl.r_241 Cert.Proof.KB.k1_t4_trip.sl.r_242 Cert.Proof.KB.k1_t4_trip.sl.r_243 Cert.Proof.KB.k1_t4_trip.sl.r_244
        Cert.Proof.KB.k1_t4_trip.sl.r_245 Cert.Proof.KB.k1_t4_trip.sl.r_246 Cert.Proof.KB.k1_t4_trip.sl.r_247 Cert.Proof.KB.k1_t4_trip.sl.r_248 Cert.Proof.KB.k1_t4_trip.sl.r_249
        Cert.Proof.KB.k1_t4_trip.sl.r_250 Cert.Proof.KB.k1_t4_trip.sl.r_251 Cert.Proof.KB.k1_t4_trip.sl.r_252 Cert.Proof.KB.k1_t4_trip.sl.r_253 Cert.Proof.KB.k1_t4_trip.sl.r_254
        Cert.Proof.KB.k1_t4_trip.sl.r_255 Cert.Proof.KB.k1_t4_trip.sl.r_256 Cert.Proof.KB.k1_t4_trip.sl.r_257 Cert.Proof.KB.k1_t4_trip.sl.r_258 Cert.Proof.KB.k1_t4_trip.sl.r_259
        Cert.Proof.KB.k1_t4_trip.sl.r_260 Cert.Proof.KB.k1_t4_trip.sl.r_261 Cert.Proof.KB.k1_t4_trip.sl.r_262 Cert.Proof.KB.k1_t4_trip.sl.r_263 Cert.Proof.KB.k1_t4_trip.sl.r_264
        Cert.Proof.KB.k1_t4_trip.sl.r_265 Cert.Proof.KB.k1_t4_trip.sl.r_266 Cert.Proof.KB.k1_t4_trip.sl.r_267 Cert.Proof.KB.k1_t4_trip.sl.r_268 Cert.Proof.KB.k1_t4_trip.sl.r_269
        Cert.Proof.KB.k1_t4_trip.sl.r_270 Cert.Proof.KB.k1_t4_trip.sl.r_271 Cert.Proof.KB.k1_t4_trip.sl.r_272 Cert.Proof.KB.k1_t4_trip.sl.r_273 Cert.Proof.KB.k1_t4_trip.sl.r_274
        Cert.Proof.KB.k1_t4_trip.sl.r_275 Cert.Proof.KB.k1_t4_trip.sl.r_276 Cert.Proof.KB.k1_t4_trip.sl.r_277 Cert.Proof.KB.k1_t4_trip.sl.r_278 Cert.Proof.KB.k1_t4_trip.sl.r_279
        Cert.Proof.KB.k1_t4_trip.sl.r_280 Cert.Proof.KB.k1_t4_trip.sl.r_281 Cert.Proof.KB.k1_t4_trip.sl.r_282 Cert.Proof.KB.k1_t4_trip.sl.r_283 Cert.Proof.KB.k1_t4_trip.sl.r_284
        Cert.Proof.KB.k1_t4_trip.sl.r_285 Cert.Proof.KB.k1_t4_trip.sl.r_286 Cert.Proof.KB.k1_t4_trip.sl.r_287 Cert.Proof.KB.k1_t4_trip.sl.r_288 Cert.Proof.KB.k1_t4_trip.sl.r_289
        Cert.Proof.KB.k1_t4_trip.sl.r_290 Cert.Proof.KB.k1_t4_trip.sl.r_291 Cert.Proof.KB.k1_t4_trip.sl.r_292 Cert.Proof.KB.k1_t4_trip.sl.r_293 Cert.Proof.KB.k1_t4_trip.sl.r_294
        Cert.Proof.KB.k1_t4_trip.sl.r_295 Cert.Proof.KB.k1_t4_trip.sl.r_296 Cert.Proof.KB.k1_t4_trip.sl.r_297 Cert.Proof.KB.k1_t4_trip.sl.r_298 Cert.Proof.KB.k1_t4_trip.sl.r_299
        Cert.Proof.KB.k1_t4_trip.sl.r_300 Cert.Proof.KB.k1_t4_trip.sl.r_301 Cert.Proof.KB.k1_t4_trip.sl.r_302 Cert.Proof.KB.k1_t4_trip.sl.r_303 Cert.Proof.KB.k1_t4_trip.sl.r_304
        Cert.Proof.KB.k1_t4_trip.sl.r_305 Cert.Proof.KB.k1_t4_trip.sl.r_306 Cert.Proof.KB.k1_t4_trip.sl.r_307 Cert.Proof.KB.k1_t4_trip.sl.r_308 Cert.Proof.KB.k1_t4_trip.sl.r_309
        Cert.Proof.KB.k1_t4_trip.sl.r_310 Cert.Proof.KB.k1_t4_trip.sl.r_311 Cert.Proof.KB.k1_t4_trip.sl.r_312 Cert.Proof.KB.k1_t4_trip.sl.r_313 Cert.Proof.KB.k1_t4_trip.sl.r_314
        Cert.Proof.KB.k1_t4_trip.sl.r_315 Cert.Proof.KB.k1_t4_trip.sl.r_316 Cert.Proof.KB.k1_t4_trip.sl.r_317 Cert.Proof.KB.k1_t4_trip.sl.r_318
      conv_lhs => simp only [k1_pay2, k1_pay324, k1_pay325, k1_pay326, k1_pay327, k1_pay328, k1_pay329, k1_pay330, k1_pay331, k1_pay332, k1_pay333, k1_pay334, k1_pay335, k1_pay336, k1_pay337, k1_pay338,
        k1_pay339, k1_pay340, k1_pay341, k1_pay342, k1_pay343, k1_pay344, k1_pay345, k1_pay346, k1_pay347, k1_pay348, k1_pay349, k1_pay350, k1_pay351, k1_pay352, k1_pay353, k1_pay354,
        k1_pay355, k1_pay356, k1_pay357, k1_pay358, k1_pay359, k1_pay360, k1_pay361, k1_pay362, k1_pay363, k1_pay364, k1_pay365, k1_pay366, k1_pay367, k1_pay368, k1_pay369, k1_pay370,
        k1_pay371, k1_pay372, k1_pay373, k1_pay374, k1_pay375, k1_pay376, k1_pay377, k1_pay378, k1_pay379, k1_pay380, k1_pay381, k1_pay382, k1_pay383, k1_pay384, k1_pay385, k1_pay386,
        k1_pay387, k1_pay388, k1_pay389, k1_pay390, k1_pay391, k1_pay392, k1_pay393, k1_pay394, k1_pay395, k1_pay396, k1_pay397, k1_pay398, k1_pay399, k1_pay400, k1_pay401, k1_pay402,
        k1_pay403, k1_pay404, k1_pay405, k1_pay406, k1_pay407, k1_pay408, k1_pay409, k1_pay410, k1_pay411, k1_pay412, k1_pay413, k1_pay414, k1_pay415, k1_pay416, k1_pay417, k1_pay418,
        k1_pay419, k1_pay420, k1_pay421, k1_pay422, k1_pay423, k1_pay424, k1_pay425, k1_pay426, k1_pay427, k1_pay428, k1_pay429, k1_pay430, k1_pay431, k1_pay432, k1_pay433, k1_pay434,
        k1_pay435, k1_pay436, k1_pay437, k1_pay438, k1_pay439, k1_pay440, k1_pay441, k1_pay442, k1_pay443, k1_pay444, k1_pay445, k1_pay446, k1_pay447, k1_pay448, k1_pay449, k1_pay450,
        k1_pay451, k1_pay452, k1_pay453, k1_pay454, k1_pay455, k1_pay456, k1_pay457, k1_pay458, k1_pay459, k1_pay460, k1_pay461, k1_pay462, k1_pay463, k1_pay464, k1_pay465, k1_pay466,
        k1_pay467, k1_pay468, k1_pay469, k1_pay470, k1_pay471, k1_pay472, k1_pay473, k1_pay474, k1_pay475, k1_pay476, k1_pay477, k1_pay478, k1_pay479, k1_pay480, k1_pay481, k1_pay482,
        k1_pay483, k1_pay484, k1_pay485, k1_pay486, k1_pay487, k1_pay488, k1_pay489, k1_pay490, k1_pay491, k1_pay492, k1_pay493, k1_pay494, k1_pay495, k1_pay496, k1_pay497, k1_pay498,
        k1_pay499, k1_pay500, k1_pay501, k1_pay502, k1_pay503, k1_pay504, k1_pay505, k1_pay506, k1_pay507, k1_pay508, k1_pay509, k1_pay510, k1_pay511, k1_pay512, k1_pay513, k1_pay514,
        k1_pay515, k1_pay516, k1_pay517, k1_pay518, k1_pay519, k1_pay520, k1_pay521, k1_pay522, k1_pay523, k1_pay524, k1_pay525, k1_pay526, k1_pay527, k1_pay528, k1_pay529, k1_pay530,
        k1_pay531, k1_pay532, k1_pay533, k1_pay534, k1_pay535, k1_pay536, k1_pay537, k1_pay538, k1_pay539, k1_pay540, k1_pay541, k1_pay542, k1_pay543, k1_pay544, k1_pay545, k1_pay546,
        k1_pay547, k1_pay548, k1_pay549, k1_pay550, k1_pay551, k1_pay552, k1_pay553, k1_pay554, k1_pay555, k1_pay556, k1_pay557, k1_pay558, k1_pay559, k1_pay560, k1_pay561, k1_pay562,
        k1_pay563, k1_pay564, k1_pay565, k1_pay566, k1_pay567, k1_pay568, k1_pay569, k1_pay570, k1_pay571, k1_pay572, k1_pay573, k1_pay574, k1_pay575, k1_pay576, k1_pay577, k1_pay578,
        k1_pay579, k1_pay580, k1_pay581, k1_pay582, k1_pay583, k1_pay584, k1_pay585, k1_pay586, k1_pay587, k1_pay588, k1_pay589, k1_pay590, k1_pay591, k1_pay592, k1_pay593, k1_pay594,
        k1_pay595, k1_pay596, k1_pay597, k1_pay598, k1_pay599, k1_pay600, k1_pay601, k1_pay602, k1_pay603, k1_pay604, k1_pay605, k1_pay606, k1_pay607, k1_pay608, k1_pay609, k1_pay610,
        k1_pay611, k1_pay612, k1_pay613, k1_pay614, k1_pay615, k1_pay616, k1_pay617, k1_pay618, k1_pay619, k1_pay620, k1_pay621, k1_pay622, k1_pay623, k1_pay624, k1_pay625, k1_pay626,
        k1_pay627, k1_pay628, k1_pay629, k1_pay630, k1_pay631, k1_pay632, k1_pay633, k1_pay634, k1_pay635, k1_pay636, k1_pay637, k1_pay638, k1_pay639, k1_pay640, k1_pay641, k1_pay642,
        k1_pay643, k1_pay644, Pure.addf_at, Pure.mulf_at, Pure.broadcast_at, Pure.lane_at, Pure.cast16_16, Pure.cast1x16_16, Pure.cast16_1x16]
      rfl
    · intro l
      show _ = Pure.acc32 (rowW fw r) (rowE fb sub (⟨96 + l.val, by have := l.isLt; omega⟩ : Fin 128))
        (g (ix2 r (⟨96 + l.val, by have := l.isLt; omega⟩ : Fin 128)))
      refine ((?_ : _ = _).trans (Pure.acc32_chain (wraw4 fw t2 t) (eraw4_6 fb t l) (graw4_6 g t2 t l))).trans
        (Pure.acc32_congr (wraw4_eq fw t2 t r hr) (eraw4_6_eq fb t sub hs l _ rfl) (graw4_6_eq g t2 t r hr l _ rfl))
      delta Cert.Proof.KB.k1_t4_trip.sl.r Cert.Proof.KB.k1_t4_trip.sl.r_1 Cert.Proof.KB.k1_t4_trip.sl.r_2 Cert.Proof.KB.k1_t4_trip.sl.r_3 Cert.Proof.KB.k1_t4_trip.sl.r_4
        Cert.Proof.KB.k1_t4_trip.sl.r_5 Cert.Proof.KB.k1_t4_trip.sl.r_6 Cert.Proof.KB.k1_t4_trip.sl.r_7 Cert.Proof.KB.k1_t4_trip.sl.r_8 Cert.Proof.KB.k1_t4_trip.sl.r_9
        Cert.Proof.KB.k1_t4_trip.sl.r_10 Cert.Proof.KB.k1_t4_trip.sl.r_11 Cert.Proof.KB.k1_t4_trip.sl.r_12 Cert.Proof.KB.k1_t4_trip.sl.r_13 Cert.Proof.KB.k1_t4_trip.sl.r_14
        Cert.Proof.KB.k1_t4_trip.sl.r_15 Cert.Proof.KB.k1_t4_trip.sl.r_16 Cert.Proof.KB.k1_t4_trip.sl.r_17 Cert.Proof.KB.k1_t4_trip.sl.r_18 Cert.Proof.KB.k1_t4_trip.sl.r_19
        Cert.Proof.KB.k1_t4_trip.sl.r_20 Cert.Proof.KB.k1_t4_trip.sl.r_21 Cert.Proof.KB.k1_t4_trip.sl.r_22 Cert.Proof.KB.k1_t4_trip.sl.r_23 Cert.Proof.KB.k1_t4_trip.sl.r_24
        Cert.Proof.KB.k1_t4_trip.sl.r_25 Cert.Proof.KB.k1_t4_trip.sl.r_26 Cert.Proof.KB.k1_t4_trip.sl.r_27 Cert.Proof.KB.k1_t4_trip.sl.r_28 Cert.Proof.KB.k1_t4_trip.sl.r_29
        Cert.Proof.KB.k1_t4_trip.sl.r_30 Cert.Proof.KB.k1_t4_trip.sl.r_31 Cert.Proof.KB.k1_t4_trip.sl.r_32 Cert.Proof.KB.k1_t4_trip.sl.r_33 Cert.Proof.KB.k1_t4_trip.sl.r_34
        Cert.Proof.KB.k1_t4_trip.sl.r_35 Cert.Proof.KB.k1_t4_trip.sl.r_36 Cert.Proof.KB.k1_t4_trip.sl.r_37 Cert.Proof.KB.k1_t4_trip.sl.r_38 Cert.Proof.KB.k1_t4_trip.sl.r_39
        Cert.Proof.KB.k1_t4_trip.sl.r_40 Cert.Proof.KB.k1_t4_trip.sl.r_41 Cert.Proof.KB.k1_t4_trip.sl.r_42 Cert.Proof.KB.k1_t4_trip.sl.r_43 Cert.Proof.KB.k1_t4_trip.sl.r_44
        Cert.Proof.KB.k1_t4_trip.sl.r_45 Cert.Proof.KB.k1_t4_trip.sl.r_46 Cert.Proof.KB.k1_t4_trip.sl.r_47 Cert.Proof.KB.k1_t4_trip.sl.r_48 Cert.Proof.KB.k1_t4_trip.sl.r_49
        Cert.Proof.KB.k1_t4_trip.sl.r_50 Cert.Proof.KB.k1_t4_trip.sl.r_51 Cert.Proof.KB.k1_t4_trip.sl.r_52 Cert.Proof.KB.k1_t4_trip.sl.r_53 Cert.Proof.KB.k1_t4_trip.sl.r_54
        Cert.Proof.KB.k1_t4_trip.sl.r_55 Cert.Proof.KB.k1_t4_trip.sl.r_56 Cert.Proof.KB.k1_t4_trip.sl.r_57 Cert.Proof.KB.k1_t4_trip.sl.r_58 Cert.Proof.KB.k1_t4_trip.sl.r_59
        Cert.Proof.KB.k1_t4_trip.sl.r_60 Cert.Proof.KB.k1_t4_trip.sl.r_61 Cert.Proof.KB.k1_t4_trip.sl.r_62 Cert.Proof.KB.k1_t4_trip.sl.r_63 Cert.Proof.KB.k1_t4_trip.sl.r_64
        Cert.Proof.KB.k1_t4_trip.sl.r_65 Cert.Proof.KB.k1_t4_trip.sl.r_66 Cert.Proof.KB.k1_t4_trip.sl.r_67 Cert.Proof.KB.k1_t4_trip.sl.r_68 Cert.Proof.KB.k1_t4_trip.sl.r_69
        Cert.Proof.KB.k1_t4_trip.sl.r_70 Cert.Proof.KB.k1_t4_trip.sl.r_71 Cert.Proof.KB.k1_t4_trip.sl.r_72 Cert.Proof.KB.k1_t4_trip.sl.r_73 Cert.Proof.KB.k1_t4_trip.sl.r_74
        Cert.Proof.KB.k1_t4_trip.sl.r_75 Cert.Proof.KB.k1_t4_trip.sl.r_76 Cert.Proof.KB.k1_t4_trip.sl.r_77 Cert.Proof.KB.k1_t4_trip.sl.r_78 Cert.Proof.KB.k1_t4_trip.sl.r_79
        Cert.Proof.KB.k1_t4_trip.sl.r_80 Cert.Proof.KB.k1_t4_trip.sl.r_81 Cert.Proof.KB.k1_t4_trip.sl.r_82 Cert.Proof.KB.k1_t4_trip.sl.r_83 Cert.Proof.KB.k1_t4_trip.sl.r_84
        Cert.Proof.KB.k1_t4_trip.sl.r_85 Cert.Proof.KB.k1_t4_trip.sl.r_86 Cert.Proof.KB.k1_t4_trip.sl.r_87 Cert.Proof.KB.k1_t4_trip.sl.r_88 Cert.Proof.KB.k1_t4_trip.sl.r_89
        Cert.Proof.KB.k1_t4_trip.sl.r_90 Cert.Proof.KB.k1_t4_trip.sl.r_91 Cert.Proof.KB.k1_t4_trip.sl.r_92 Cert.Proof.KB.k1_t4_trip.sl.r_93 Cert.Proof.KB.k1_t4_trip.sl.r_94
        Cert.Proof.KB.k1_t4_trip.sl.r_95 Cert.Proof.KB.k1_t4_trip.sl.r_96 Cert.Proof.KB.k1_t4_trip.sl.r_97 Cert.Proof.KB.k1_t4_trip.sl.r_98 Cert.Proof.KB.k1_t4_trip.sl.r_99
        Cert.Proof.KB.k1_t4_trip.sl.r_100 Cert.Proof.KB.k1_t4_trip.sl.r_101 Cert.Proof.KB.k1_t4_trip.sl.r_102 Cert.Proof.KB.k1_t4_trip.sl.r_103 Cert.Proof.KB.k1_t4_trip.sl.r_104
        Cert.Proof.KB.k1_t4_trip.sl.r_105 Cert.Proof.KB.k1_t4_trip.sl.r_106 Cert.Proof.KB.k1_t4_trip.sl.r_107 Cert.Proof.KB.k1_t4_trip.sl.r_108 Cert.Proof.KB.k1_t4_trip.sl.r_109
        Cert.Proof.KB.k1_t4_trip.sl.r_110 Cert.Proof.KB.k1_t4_trip.sl.r_111 Cert.Proof.KB.k1_t4_trip.sl.r_112 Cert.Proof.KB.k1_t4_trip.sl.r_113 Cert.Proof.KB.k1_t4_trip.sl.r_114
        Cert.Proof.KB.k1_t4_trip.sl.r_115 Cert.Proof.KB.k1_t4_trip.sl.r_116 Cert.Proof.KB.k1_t4_trip.sl.r_117 Cert.Proof.KB.k1_t4_trip.sl.r_118 Cert.Proof.KB.k1_t4_trip.sl.r_119
        Cert.Proof.KB.k1_t4_trip.sl.r_120 Cert.Proof.KB.k1_t4_trip.sl.r_121 Cert.Proof.KB.k1_t4_trip.sl.r_122 Cert.Proof.KB.k1_t4_trip.sl.r_123 Cert.Proof.KB.k1_t4_trip.sl.r_124
        Cert.Proof.KB.k1_t4_trip.sl.r_125 Cert.Proof.KB.k1_t4_trip.sl.r_126 Cert.Proof.KB.k1_t4_trip.sl.r_127 Cert.Proof.KB.k1_t4_trip.sl.r_128 Cert.Proof.KB.k1_t4_trip.sl.r_129
        Cert.Proof.KB.k1_t4_trip.sl.r_130 Cert.Proof.KB.k1_t4_trip.sl.r_131 Cert.Proof.KB.k1_t4_trip.sl.r_132 Cert.Proof.KB.k1_t4_trip.sl.r_133 Cert.Proof.KB.k1_t4_trip.sl.r_134
        Cert.Proof.KB.k1_t4_trip.sl.r_135 Cert.Proof.KB.k1_t4_trip.sl.r_136 Cert.Proof.KB.k1_t4_trip.sl.r_137 Cert.Proof.KB.k1_t4_trip.sl.r_138 Cert.Proof.KB.k1_t4_trip.sl.r_139
        Cert.Proof.KB.k1_t4_trip.sl.r_140 Cert.Proof.KB.k1_t4_trip.sl.r_141 Cert.Proof.KB.k1_t4_trip.sl.r_142 Cert.Proof.KB.k1_t4_trip.sl.r_143 Cert.Proof.KB.k1_t4_trip.sl.r_144
        Cert.Proof.KB.k1_t4_trip.sl.r_145 Cert.Proof.KB.k1_t4_trip.sl.r_146 Cert.Proof.KB.k1_t4_trip.sl.r_147 Cert.Proof.KB.k1_t4_trip.sl.r_148 Cert.Proof.KB.k1_t4_trip.sl.r_149
        Cert.Proof.KB.k1_t4_trip.sl.r_150 Cert.Proof.KB.k1_t4_trip.sl.r_151 Cert.Proof.KB.k1_t4_trip.sl.r_152 Cert.Proof.KB.k1_t4_trip.sl.r_153 Cert.Proof.KB.k1_t4_trip.sl.r_154
        Cert.Proof.KB.k1_t4_trip.sl.r_155 Cert.Proof.KB.k1_t4_trip.sl.r_156 Cert.Proof.KB.k1_t4_trip.sl.r_157 Cert.Proof.KB.k1_t4_trip.sl.r_158 Cert.Proof.KB.k1_t4_trip.sl.r_159
        Cert.Proof.KB.k1_t4_trip.sl.r_160 Cert.Proof.KB.k1_t4_trip.sl.r_161 Cert.Proof.KB.k1_t4_trip.sl.r_162 Cert.Proof.KB.k1_t4_trip.sl.r_163 Cert.Proof.KB.k1_t4_trip.sl.r_164
        Cert.Proof.KB.k1_t4_trip.sl.r_165 Cert.Proof.KB.k1_t4_trip.sl.r_166 Cert.Proof.KB.k1_t4_trip.sl.r_167 Cert.Proof.KB.k1_t4_trip.sl.r_168 Cert.Proof.KB.k1_t4_trip.sl.r_169
        Cert.Proof.KB.k1_t4_trip.sl.r_170 Cert.Proof.KB.k1_t4_trip.sl.r_171 Cert.Proof.KB.k1_t4_trip.sl.r_172 Cert.Proof.KB.k1_t4_trip.sl.r_173 Cert.Proof.KB.k1_t4_trip.sl.r_174
        Cert.Proof.KB.k1_t4_trip.sl.r_175 Cert.Proof.KB.k1_t4_trip.sl.r_176 Cert.Proof.KB.k1_t4_trip.sl.r_177 Cert.Proof.KB.k1_t4_trip.sl.r_178 Cert.Proof.KB.k1_t4_trip.sl.r_179
        Cert.Proof.KB.k1_t4_trip.sl.r_180 Cert.Proof.KB.k1_t4_trip.sl.r_181 Cert.Proof.KB.k1_t4_trip.sl.r_182 Cert.Proof.KB.k1_t4_trip.sl.r_183 Cert.Proof.KB.k1_t4_trip.sl.r_184
        Cert.Proof.KB.k1_t4_trip.sl.r_185 Cert.Proof.KB.k1_t4_trip.sl.r_186 Cert.Proof.KB.k1_t4_trip.sl.r_187 Cert.Proof.KB.k1_t4_trip.sl.r_188 Cert.Proof.KB.k1_t4_trip.sl.r_189
        Cert.Proof.KB.k1_t4_trip.sl.r_190 Cert.Proof.KB.k1_t4_trip.sl.r_191 Cert.Proof.KB.k1_t4_trip.sl.r_192 Cert.Proof.KB.k1_t4_trip.sl.r_193 Cert.Proof.KB.k1_t4_trip.sl.r_194
        Cert.Proof.KB.k1_t4_trip.sl.r_195 Cert.Proof.KB.k1_t4_trip.sl.r_196 Cert.Proof.KB.k1_t4_trip.sl.r_197 Cert.Proof.KB.k1_t4_trip.sl.r_198 Cert.Proof.KB.k1_t4_trip.sl.r_199
        Cert.Proof.KB.k1_t4_trip.sl.r_200 Cert.Proof.KB.k1_t4_trip.sl.r_201 Cert.Proof.KB.k1_t4_trip.sl.r_202 Cert.Proof.KB.k1_t4_trip.sl.r_203 Cert.Proof.KB.k1_t4_trip.sl.r_204
        Cert.Proof.KB.k1_t4_trip.sl.r_205 Cert.Proof.KB.k1_t4_trip.sl.r_206 Cert.Proof.KB.k1_t4_trip.sl.r_207 Cert.Proof.KB.k1_t4_trip.sl.r_208 Cert.Proof.KB.k1_t4_trip.sl.r_209
        Cert.Proof.KB.k1_t4_trip.sl.r_210 Cert.Proof.KB.k1_t4_trip.sl.r_211 Cert.Proof.KB.k1_t4_trip.sl.r_212 Cert.Proof.KB.k1_t4_trip.sl.r_213 Cert.Proof.KB.k1_t4_trip.sl.r_214
        Cert.Proof.KB.k1_t4_trip.sl.r_215 Cert.Proof.KB.k1_t4_trip.sl.r_216 Cert.Proof.KB.k1_t4_trip.sl.r_217 Cert.Proof.KB.k1_t4_trip.sl.r_218 Cert.Proof.KB.k1_t4_trip.sl.r_219
        Cert.Proof.KB.k1_t4_trip.sl.r_220 Cert.Proof.KB.k1_t4_trip.sl.r_221 Cert.Proof.KB.k1_t4_trip.sl.r_222 Cert.Proof.KB.k1_t4_trip.sl.r_223 Cert.Proof.KB.k1_t4_trip.sl.r_224
        Cert.Proof.KB.k1_t4_trip.sl.r_225 Cert.Proof.KB.k1_t4_trip.sl.r_226 Cert.Proof.KB.k1_t4_trip.sl.r_227 Cert.Proof.KB.k1_t4_trip.sl.r_228 Cert.Proof.KB.k1_t4_trip.sl.r_229
        Cert.Proof.KB.k1_t4_trip.sl.r_230 Cert.Proof.KB.k1_t4_trip.sl.r_231 Cert.Proof.KB.k1_t4_trip.sl.r_232 Cert.Proof.KB.k1_t4_trip.sl.r_233 Cert.Proof.KB.k1_t4_trip.sl.r_234
        Cert.Proof.KB.k1_t4_trip.sl.r_235 Cert.Proof.KB.k1_t4_trip.sl.r_236 Cert.Proof.KB.k1_t4_trip.sl.r_237 Cert.Proof.KB.k1_t4_trip.sl.r_238 Cert.Proof.KB.k1_t4_trip.sl.r_239
        Cert.Proof.KB.k1_t4_trip.sl.r_240 Cert.Proof.KB.k1_t4_trip.sl.r_241 Cert.Proof.KB.k1_t4_trip.sl.r_242 Cert.Proof.KB.k1_t4_trip.sl.r_243 Cert.Proof.KB.k1_t4_trip.sl.r_244
        Cert.Proof.KB.k1_t4_trip.sl.r_245 Cert.Proof.KB.k1_t4_trip.sl.r_246 Cert.Proof.KB.k1_t4_trip.sl.r_247 Cert.Proof.KB.k1_t4_trip.sl.r_248 Cert.Proof.KB.k1_t4_trip.sl.r_249
        Cert.Proof.KB.k1_t4_trip.sl.r_250 Cert.Proof.KB.k1_t4_trip.sl.r_251 Cert.Proof.KB.k1_t4_trip.sl.r_252 Cert.Proof.KB.k1_t4_trip.sl.r_253 Cert.Proof.KB.k1_t4_trip.sl.r_254
        Cert.Proof.KB.k1_t4_trip.sl.r_255 Cert.Proof.KB.k1_t4_trip.sl.r_256 Cert.Proof.KB.k1_t4_trip.sl.r_257 Cert.Proof.KB.k1_t4_trip.sl.r_258 Cert.Proof.KB.k1_t4_trip.sl.r_259
        Cert.Proof.KB.k1_t4_trip.sl.r_260 Cert.Proof.KB.k1_t4_trip.sl.r_261 Cert.Proof.KB.k1_t4_trip.sl.r_262 Cert.Proof.KB.k1_t4_trip.sl.r_263 Cert.Proof.KB.k1_t4_trip.sl.r_264
        Cert.Proof.KB.k1_t4_trip.sl.r_265 Cert.Proof.KB.k1_t4_trip.sl.r_266 Cert.Proof.KB.k1_t4_trip.sl.r_267 Cert.Proof.KB.k1_t4_trip.sl.r_268 Cert.Proof.KB.k1_t4_trip.sl.r_269
        Cert.Proof.KB.k1_t4_trip.sl.r_270 Cert.Proof.KB.k1_t4_trip.sl.r_271 Cert.Proof.KB.k1_t4_trip.sl.r_272 Cert.Proof.KB.k1_t4_trip.sl.r_273 Cert.Proof.KB.k1_t4_trip.sl.r_274
        Cert.Proof.KB.k1_t4_trip.sl.r_275 Cert.Proof.KB.k1_t4_trip.sl.r_276 Cert.Proof.KB.k1_t4_trip.sl.r_277 Cert.Proof.KB.k1_t4_trip.sl.r_278 Cert.Proof.KB.k1_t4_trip.sl.r_279
        Cert.Proof.KB.k1_t4_trip.sl.r_280 Cert.Proof.KB.k1_t4_trip.sl.r_281 Cert.Proof.KB.k1_t4_trip.sl.r_282 Cert.Proof.KB.k1_t4_trip.sl.r_283 Cert.Proof.KB.k1_t4_trip.sl.r_284
        Cert.Proof.KB.k1_t4_trip.sl.r_285 Cert.Proof.KB.k1_t4_trip.sl.r_286 Cert.Proof.KB.k1_t4_trip.sl.r_287 Cert.Proof.KB.k1_t4_trip.sl.r_288 Cert.Proof.KB.k1_t4_trip.sl.r_289
        Cert.Proof.KB.k1_t4_trip.sl.r_290 Cert.Proof.KB.k1_t4_trip.sl.r_291 Cert.Proof.KB.k1_t4_trip.sl.r_292 Cert.Proof.KB.k1_t4_trip.sl.r_293 Cert.Proof.KB.k1_t4_trip.sl.r_294
        Cert.Proof.KB.k1_t4_trip.sl.r_295 Cert.Proof.KB.k1_t4_trip.sl.r_296 Cert.Proof.KB.k1_t4_trip.sl.r_297 Cert.Proof.KB.k1_t4_trip.sl.r_298 Cert.Proof.KB.k1_t4_trip.sl.r_299
        Cert.Proof.KB.k1_t4_trip.sl.r_300 Cert.Proof.KB.k1_t4_trip.sl.r_301 Cert.Proof.KB.k1_t4_trip.sl.r_302 Cert.Proof.KB.k1_t4_trip.sl.r_303 Cert.Proof.KB.k1_t4_trip.sl.r_304
        Cert.Proof.KB.k1_t4_trip.sl.r_305 Cert.Proof.KB.k1_t4_trip.sl.r_306 Cert.Proof.KB.k1_t4_trip.sl.r_307 Cert.Proof.KB.k1_t4_trip.sl.r_308 Cert.Proof.KB.k1_t4_trip.sl.r_309
        Cert.Proof.KB.k1_t4_trip.sl.r_310 Cert.Proof.KB.k1_t4_trip.sl.r_311 Cert.Proof.KB.k1_t4_trip.sl.r_312 Cert.Proof.KB.k1_t4_trip.sl.r_313 Cert.Proof.KB.k1_t4_trip.sl.r_314
        Cert.Proof.KB.k1_t4_trip.sl.r_315 Cert.Proof.KB.k1_t4_trip.sl.r_316 Cert.Proof.KB.k1_t4_trip.sl.r_317 Cert.Proof.KB.k1_t4_trip.sl.r_318
      conv_lhs => simp only [k1_pay2, k1_pay324, k1_pay325, k1_pay326, k1_pay327, k1_pay328, k1_pay329, k1_pay330, k1_pay331, k1_pay332, k1_pay333, k1_pay334, k1_pay335, k1_pay336, k1_pay337, k1_pay338,
        k1_pay339, k1_pay340, k1_pay341, k1_pay342, k1_pay343, k1_pay344, k1_pay345, k1_pay346, k1_pay347, k1_pay348, k1_pay349, k1_pay350, k1_pay351, k1_pay352, k1_pay353, k1_pay354,
        k1_pay355, k1_pay356, k1_pay357, k1_pay358, k1_pay359, k1_pay360, k1_pay361, k1_pay362, k1_pay363, k1_pay364, k1_pay365, k1_pay366, k1_pay367, k1_pay368, k1_pay369, k1_pay370,
        k1_pay371, k1_pay372, k1_pay373, k1_pay374, k1_pay375, k1_pay376, k1_pay377, k1_pay378, k1_pay379, k1_pay380, k1_pay381, k1_pay382, k1_pay383, k1_pay384, k1_pay385, k1_pay386,
        k1_pay387, k1_pay388, k1_pay389, k1_pay390, k1_pay391, k1_pay392, k1_pay393, k1_pay394, k1_pay395, k1_pay396, k1_pay397, k1_pay398, k1_pay399, k1_pay400, k1_pay401, k1_pay402,
        k1_pay403, k1_pay404, k1_pay405, k1_pay406, k1_pay407, k1_pay408, k1_pay409, k1_pay410, k1_pay411, k1_pay412, k1_pay413, k1_pay414, k1_pay415, k1_pay416, k1_pay417, k1_pay418,
        k1_pay419, k1_pay420, k1_pay421, k1_pay422, k1_pay423, k1_pay424, k1_pay425, k1_pay426, k1_pay427, k1_pay428, k1_pay429, k1_pay430, k1_pay431, k1_pay432, k1_pay433, k1_pay434,
        k1_pay435, k1_pay436, k1_pay437, k1_pay438, k1_pay439, k1_pay440, k1_pay441, k1_pay442, k1_pay443, k1_pay444, k1_pay445, k1_pay446, k1_pay447, k1_pay448, k1_pay449, k1_pay450,
        k1_pay451, k1_pay452, k1_pay453, k1_pay454, k1_pay455, k1_pay456, k1_pay457, k1_pay458, k1_pay459, k1_pay460, k1_pay461, k1_pay462, k1_pay463, k1_pay464, k1_pay465, k1_pay466,
        k1_pay467, k1_pay468, k1_pay469, k1_pay470, k1_pay471, k1_pay472, k1_pay473, k1_pay474, k1_pay475, k1_pay476, k1_pay477, k1_pay478, k1_pay479, k1_pay480, k1_pay481, k1_pay482,
        k1_pay483, k1_pay484, k1_pay485, k1_pay486, k1_pay487, k1_pay488, k1_pay489, k1_pay490, k1_pay491, k1_pay492, k1_pay493, k1_pay494, k1_pay495, k1_pay496, k1_pay497, k1_pay498,
        k1_pay499, k1_pay500, k1_pay501, k1_pay502, k1_pay503, k1_pay504, k1_pay505, k1_pay506, k1_pay507, k1_pay508, k1_pay509, k1_pay510, k1_pay511, k1_pay512, k1_pay513, k1_pay514,
        k1_pay515, k1_pay516, k1_pay517, k1_pay518, k1_pay519, k1_pay520, k1_pay521, k1_pay522, k1_pay523, k1_pay524, k1_pay525, k1_pay526, k1_pay527, k1_pay528, k1_pay529, k1_pay530,
        k1_pay531, k1_pay532, k1_pay533, k1_pay534, k1_pay535, k1_pay536, k1_pay537, k1_pay538, k1_pay539, k1_pay540, k1_pay541, k1_pay542, k1_pay543, k1_pay544, k1_pay545, k1_pay546,
        k1_pay547, k1_pay548, k1_pay549, k1_pay550, k1_pay551, k1_pay552, k1_pay553, k1_pay554, k1_pay555, k1_pay556, k1_pay557, k1_pay558, k1_pay559, k1_pay560, k1_pay561, k1_pay562,
        k1_pay563, k1_pay564, k1_pay565, k1_pay566, k1_pay567, k1_pay568, k1_pay569, k1_pay570, k1_pay571, k1_pay572, k1_pay573, k1_pay574, k1_pay575, k1_pay576, k1_pay577, k1_pay578,
        k1_pay579, k1_pay580, k1_pay581, k1_pay582, k1_pay583, k1_pay584, k1_pay585, k1_pay586, k1_pay587, k1_pay588, k1_pay589, k1_pay590, k1_pay591, k1_pay592, k1_pay593, k1_pay594,
        k1_pay595, k1_pay596, k1_pay597, k1_pay598, k1_pay599, k1_pay600, k1_pay601, k1_pay602, k1_pay603, k1_pay604, k1_pay605, k1_pay606, k1_pay607, k1_pay608, k1_pay609, k1_pay610,
        k1_pay611, k1_pay612, k1_pay613, k1_pay614, k1_pay615, k1_pay616, k1_pay617, k1_pay618, k1_pay619, k1_pay620, k1_pay621, k1_pay622, k1_pay623, k1_pay624, k1_pay625, k1_pay626,
        k1_pay627, k1_pay628, k1_pay629, k1_pay630, k1_pay631, k1_pay632, k1_pay633, k1_pay634, k1_pay635, k1_pay636, k1_pay637, k1_pay638, k1_pay639, k1_pay640, k1_pay641, k1_pay642,
        k1_pay643, k1_pay644, Pure.addf_at, Pure.mulf_at, Pure.broadcast_at, Pure.lane_at, Pure.cast16_16, Pure.cast1x16_16, Pure.cast16_1x16]
      rfl
    · intro l
      show _ = Pure.acc32 (rowW fw r) (rowE fb sub (⟨112 + l.val, by have := l.isLt; omega⟩ : Fin 128))
        (g (ix2 r (⟨112 + l.val, by have := l.isLt; omega⟩ : Fin 128)))
      refine ((?_ : _ = _).trans (Pure.acc32_chain (wraw4 fw t2 t) (eraw4_7 fb t l) (graw4_7 g t2 t l))).trans
        (Pure.acc32_congr (wraw4_eq fw t2 t r hr) (eraw4_7_eq fb t sub hs l _ rfl) (graw4_7_eq g t2 t r hr l _ rfl))
      delta Cert.Proof.KB.k1_t4_trip.sl.r Cert.Proof.KB.k1_t4_trip.sl.r_1 Cert.Proof.KB.k1_t4_trip.sl.r_2 Cert.Proof.KB.k1_t4_trip.sl.r_3 Cert.Proof.KB.k1_t4_trip.sl.r_4
        Cert.Proof.KB.k1_t4_trip.sl.r_5 Cert.Proof.KB.k1_t4_trip.sl.r_6 Cert.Proof.KB.k1_t4_trip.sl.r_7 Cert.Proof.KB.k1_t4_trip.sl.r_8 Cert.Proof.KB.k1_t4_trip.sl.r_9
        Cert.Proof.KB.k1_t4_trip.sl.r_10 Cert.Proof.KB.k1_t4_trip.sl.r_11 Cert.Proof.KB.k1_t4_trip.sl.r_12 Cert.Proof.KB.k1_t4_trip.sl.r_13 Cert.Proof.KB.k1_t4_trip.sl.r_14
        Cert.Proof.KB.k1_t4_trip.sl.r_15 Cert.Proof.KB.k1_t4_trip.sl.r_16 Cert.Proof.KB.k1_t4_trip.sl.r_17 Cert.Proof.KB.k1_t4_trip.sl.r_18 Cert.Proof.KB.k1_t4_trip.sl.r_19
        Cert.Proof.KB.k1_t4_trip.sl.r_20 Cert.Proof.KB.k1_t4_trip.sl.r_21 Cert.Proof.KB.k1_t4_trip.sl.r_22 Cert.Proof.KB.k1_t4_trip.sl.r_23 Cert.Proof.KB.k1_t4_trip.sl.r_24
        Cert.Proof.KB.k1_t4_trip.sl.r_25 Cert.Proof.KB.k1_t4_trip.sl.r_26 Cert.Proof.KB.k1_t4_trip.sl.r_27 Cert.Proof.KB.k1_t4_trip.sl.r_28 Cert.Proof.KB.k1_t4_trip.sl.r_29
        Cert.Proof.KB.k1_t4_trip.sl.r_30 Cert.Proof.KB.k1_t4_trip.sl.r_31 Cert.Proof.KB.k1_t4_trip.sl.r_32 Cert.Proof.KB.k1_t4_trip.sl.r_33 Cert.Proof.KB.k1_t4_trip.sl.r_34
        Cert.Proof.KB.k1_t4_trip.sl.r_35 Cert.Proof.KB.k1_t4_trip.sl.r_36 Cert.Proof.KB.k1_t4_trip.sl.r_37 Cert.Proof.KB.k1_t4_trip.sl.r_38 Cert.Proof.KB.k1_t4_trip.sl.r_39
        Cert.Proof.KB.k1_t4_trip.sl.r_40 Cert.Proof.KB.k1_t4_trip.sl.r_41 Cert.Proof.KB.k1_t4_trip.sl.r_42 Cert.Proof.KB.k1_t4_trip.sl.r_43 Cert.Proof.KB.k1_t4_trip.sl.r_44
        Cert.Proof.KB.k1_t4_trip.sl.r_45 Cert.Proof.KB.k1_t4_trip.sl.r_46 Cert.Proof.KB.k1_t4_trip.sl.r_47 Cert.Proof.KB.k1_t4_trip.sl.r_48 Cert.Proof.KB.k1_t4_trip.sl.r_49
        Cert.Proof.KB.k1_t4_trip.sl.r_50 Cert.Proof.KB.k1_t4_trip.sl.r_51 Cert.Proof.KB.k1_t4_trip.sl.r_52 Cert.Proof.KB.k1_t4_trip.sl.r_53 Cert.Proof.KB.k1_t4_trip.sl.r_54
        Cert.Proof.KB.k1_t4_trip.sl.r_55 Cert.Proof.KB.k1_t4_trip.sl.r_56 Cert.Proof.KB.k1_t4_trip.sl.r_57 Cert.Proof.KB.k1_t4_trip.sl.r_58 Cert.Proof.KB.k1_t4_trip.sl.r_59
        Cert.Proof.KB.k1_t4_trip.sl.r_60 Cert.Proof.KB.k1_t4_trip.sl.r_61 Cert.Proof.KB.k1_t4_trip.sl.r_62 Cert.Proof.KB.k1_t4_trip.sl.r_63 Cert.Proof.KB.k1_t4_trip.sl.r_64
        Cert.Proof.KB.k1_t4_trip.sl.r_65 Cert.Proof.KB.k1_t4_trip.sl.r_66 Cert.Proof.KB.k1_t4_trip.sl.r_67 Cert.Proof.KB.k1_t4_trip.sl.r_68 Cert.Proof.KB.k1_t4_trip.sl.r_69
        Cert.Proof.KB.k1_t4_trip.sl.r_70 Cert.Proof.KB.k1_t4_trip.sl.r_71 Cert.Proof.KB.k1_t4_trip.sl.r_72 Cert.Proof.KB.k1_t4_trip.sl.r_73 Cert.Proof.KB.k1_t4_trip.sl.r_74
        Cert.Proof.KB.k1_t4_trip.sl.r_75 Cert.Proof.KB.k1_t4_trip.sl.r_76 Cert.Proof.KB.k1_t4_trip.sl.r_77 Cert.Proof.KB.k1_t4_trip.sl.r_78 Cert.Proof.KB.k1_t4_trip.sl.r_79
        Cert.Proof.KB.k1_t4_trip.sl.r_80 Cert.Proof.KB.k1_t4_trip.sl.r_81 Cert.Proof.KB.k1_t4_trip.sl.r_82 Cert.Proof.KB.k1_t4_trip.sl.r_83 Cert.Proof.KB.k1_t4_trip.sl.r_84
        Cert.Proof.KB.k1_t4_trip.sl.r_85 Cert.Proof.KB.k1_t4_trip.sl.r_86 Cert.Proof.KB.k1_t4_trip.sl.r_87 Cert.Proof.KB.k1_t4_trip.sl.r_88 Cert.Proof.KB.k1_t4_trip.sl.r_89
        Cert.Proof.KB.k1_t4_trip.sl.r_90 Cert.Proof.KB.k1_t4_trip.sl.r_91 Cert.Proof.KB.k1_t4_trip.sl.r_92 Cert.Proof.KB.k1_t4_trip.sl.r_93 Cert.Proof.KB.k1_t4_trip.sl.r_94
        Cert.Proof.KB.k1_t4_trip.sl.r_95 Cert.Proof.KB.k1_t4_trip.sl.r_96 Cert.Proof.KB.k1_t4_trip.sl.r_97 Cert.Proof.KB.k1_t4_trip.sl.r_98 Cert.Proof.KB.k1_t4_trip.sl.r_99
        Cert.Proof.KB.k1_t4_trip.sl.r_100 Cert.Proof.KB.k1_t4_trip.sl.r_101 Cert.Proof.KB.k1_t4_trip.sl.r_102 Cert.Proof.KB.k1_t4_trip.sl.r_103 Cert.Proof.KB.k1_t4_trip.sl.r_104
        Cert.Proof.KB.k1_t4_trip.sl.r_105 Cert.Proof.KB.k1_t4_trip.sl.r_106 Cert.Proof.KB.k1_t4_trip.sl.r_107 Cert.Proof.KB.k1_t4_trip.sl.r_108 Cert.Proof.KB.k1_t4_trip.sl.r_109
        Cert.Proof.KB.k1_t4_trip.sl.r_110 Cert.Proof.KB.k1_t4_trip.sl.r_111 Cert.Proof.KB.k1_t4_trip.sl.r_112 Cert.Proof.KB.k1_t4_trip.sl.r_113 Cert.Proof.KB.k1_t4_trip.sl.r_114
        Cert.Proof.KB.k1_t4_trip.sl.r_115 Cert.Proof.KB.k1_t4_trip.sl.r_116 Cert.Proof.KB.k1_t4_trip.sl.r_117 Cert.Proof.KB.k1_t4_trip.sl.r_118 Cert.Proof.KB.k1_t4_trip.sl.r_119
        Cert.Proof.KB.k1_t4_trip.sl.r_120 Cert.Proof.KB.k1_t4_trip.sl.r_121 Cert.Proof.KB.k1_t4_trip.sl.r_122 Cert.Proof.KB.k1_t4_trip.sl.r_123 Cert.Proof.KB.k1_t4_trip.sl.r_124
        Cert.Proof.KB.k1_t4_trip.sl.r_125 Cert.Proof.KB.k1_t4_trip.sl.r_126 Cert.Proof.KB.k1_t4_trip.sl.r_127 Cert.Proof.KB.k1_t4_trip.sl.r_128 Cert.Proof.KB.k1_t4_trip.sl.r_129
        Cert.Proof.KB.k1_t4_trip.sl.r_130 Cert.Proof.KB.k1_t4_trip.sl.r_131 Cert.Proof.KB.k1_t4_trip.sl.r_132 Cert.Proof.KB.k1_t4_trip.sl.r_133 Cert.Proof.KB.k1_t4_trip.sl.r_134
        Cert.Proof.KB.k1_t4_trip.sl.r_135 Cert.Proof.KB.k1_t4_trip.sl.r_136 Cert.Proof.KB.k1_t4_trip.sl.r_137 Cert.Proof.KB.k1_t4_trip.sl.r_138 Cert.Proof.KB.k1_t4_trip.sl.r_139
        Cert.Proof.KB.k1_t4_trip.sl.r_140 Cert.Proof.KB.k1_t4_trip.sl.r_141 Cert.Proof.KB.k1_t4_trip.sl.r_142 Cert.Proof.KB.k1_t4_trip.sl.r_143 Cert.Proof.KB.k1_t4_trip.sl.r_144
        Cert.Proof.KB.k1_t4_trip.sl.r_145 Cert.Proof.KB.k1_t4_trip.sl.r_146 Cert.Proof.KB.k1_t4_trip.sl.r_147 Cert.Proof.KB.k1_t4_trip.sl.r_148 Cert.Proof.KB.k1_t4_trip.sl.r_149
        Cert.Proof.KB.k1_t4_trip.sl.r_150 Cert.Proof.KB.k1_t4_trip.sl.r_151 Cert.Proof.KB.k1_t4_trip.sl.r_152 Cert.Proof.KB.k1_t4_trip.sl.r_153 Cert.Proof.KB.k1_t4_trip.sl.r_154
        Cert.Proof.KB.k1_t4_trip.sl.r_155 Cert.Proof.KB.k1_t4_trip.sl.r_156 Cert.Proof.KB.k1_t4_trip.sl.r_157 Cert.Proof.KB.k1_t4_trip.sl.r_158 Cert.Proof.KB.k1_t4_trip.sl.r_159
        Cert.Proof.KB.k1_t4_trip.sl.r_160 Cert.Proof.KB.k1_t4_trip.sl.r_161 Cert.Proof.KB.k1_t4_trip.sl.r_162 Cert.Proof.KB.k1_t4_trip.sl.r_163 Cert.Proof.KB.k1_t4_trip.sl.r_164
        Cert.Proof.KB.k1_t4_trip.sl.r_165 Cert.Proof.KB.k1_t4_trip.sl.r_166 Cert.Proof.KB.k1_t4_trip.sl.r_167 Cert.Proof.KB.k1_t4_trip.sl.r_168 Cert.Proof.KB.k1_t4_trip.sl.r_169
        Cert.Proof.KB.k1_t4_trip.sl.r_170 Cert.Proof.KB.k1_t4_trip.sl.r_171 Cert.Proof.KB.k1_t4_trip.sl.r_172 Cert.Proof.KB.k1_t4_trip.sl.r_173 Cert.Proof.KB.k1_t4_trip.sl.r_174
        Cert.Proof.KB.k1_t4_trip.sl.r_175 Cert.Proof.KB.k1_t4_trip.sl.r_176 Cert.Proof.KB.k1_t4_trip.sl.r_177 Cert.Proof.KB.k1_t4_trip.sl.r_178 Cert.Proof.KB.k1_t4_trip.sl.r_179
        Cert.Proof.KB.k1_t4_trip.sl.r_180 Cert.Proof.KB.k1_t4_trip.sl.r_181 Cert.Proof.KB.k1_t4_trip.sl.r_182 Cert.Proof.KB.k1_t4_trip.sl.r_183 Cert.Proof.KB.k1_t4_trip.sl.r_184
        Cert.Proof.KB.k1_t4_trip.sl.r_185 Cert.Proof.KB.k1_t4_trip.sl.r_186 Cert.Proof.KB.k1_t4_trip.sl.r_187 Cert.Proof.KB.k1_t4_trip.sl.r_188 Cert.Proof.KB.k1_t4_trip.sl.r_189
        Cert.Proof.KB.k1_t4_trip.sl.r_190 Cert.Proof.KB.k1_t4_trip.sl.r_191 Cert.Proof.KB.k1_t4_trip.sl.r_192 Cert.Proof.KB.k1_t4_trip.sl.r_193 Cert.Proof.KB.k1_t4_trip.sl.r_194
        Cert.Proof.KB.k1_t4_trip.sl.r_195 Cert.Proof.KB.k1_t4_trip.sl.r_196 Cert.Proof.KB.k1_t4_trip.sl.r_197 Cert.Proof.KB.k1_t4_trip.sl.r_198 Cert.Proof.KB.k1_t4_trip.sl.r_199
        Cert.Proof.KB.k1_t4_trip.sl.r_200 Cert.Proof.KB.k1_t4_trip.sl.r_201 Cert.Proof.KB.k1_t4_trip.sl.r_202 Cert.Proof.KB.k1_t4_trip.sl.r_203 Cert.Proof.KB.k1_t4_trip.sl.r_204
        Cert.Proof.KB.k1_t4_trip.sl.r_205 Cert.Proof.KB.k1_t4_trip.sl.r_206 Cert.Proof.KB.k1_t4_trip.sl.r_207 Cert.Proof.KB.k1_t4_trip.sl.r_208 Cert.Proof.KB.k1_t4_trip.sl.r_209
        Cert.Proof.KB.k1_t4_trip.sl.r_210 Cert.Proof.KB.k1_t4_trip.sl.r_211 Cert.Proof.KB.k1_t4_trip.sl.r_212 Cert.Proof.KB.k1_t4_trip.sl.r_213 Cert.Proof.KB.k1_t4_trip.sl.r_214
        Cert.Proof.KB.k1_t4_trip.sl.r_215 Cert.Proof.KB.k1_t4_trip.sl.r_216 Cert.Proof.KB.k1_t4_trip.sl.r_217 Cert.Proof.KB.k1_t4_trip.sl.r_218 Cert.Proof.KB.k1_t4_trip.sl.r_219
        Cert.Proof.KB.k1_t4_trip.sl.r_220 Cert.Proof.KB.k1_t4_trip.sl.r_221 Cert.Proof.KB.k1_t4_trip.sl.r_222 Cert.Proof.KB.k1_t4_trip.sl.r_223 Cert.Proof.KB.k1_t4_trip.sl.r_224
        Cert.Proof.KB.k1_t4_trip.sl.r_225 Cert.Proof.KB.k1_t4_trip.sl.r_226 Cert.Proof.KB.k1_t4_trip.sl.r_227 Cert.Proof.KB.k1_t4_trip.sl.r_228 Cert.Proof.KB.k1_t4_trip.sl.r_229
        Cert.Proof.KB.k1_t4_trip.sl.r_230 Cert.Proof.KB.k1_t4_trip.sl.r_231 Cert.Proof.KB.k1_t4_trip.sl.r_232 Cert.Proof.KB.k1_t4_trip.sl.r_233 Cert.Proof.KB.k1_t4_trip.sl.r_234
        Cert.Proof.KB.k1_t4_trip.sl.r_235 Cert.Proof.KB.k1_t4_trip.sl.r_236 Cert.Proof.KB.k1_t4_trip.sl.r_237 Cert.Proof.KB.k1_t4_trip.sl.r_238 Cert.Proof.KB.k1_t4_trip.sl.r_239
        Cert.Proof.KB.k1_t4_trip.sl.r_240 Cert.Proof.KB.k1_t4_trip.sl.r_241 Cert.Proof.KB.k1_t4_trip.sl.r_242 Cert.Proof.KB.k1_t4_trip.sl.r_243 Cert.Proof.KB.k1_t4_trip.sl.r_244
        Cert.Proof.KB.k1_t4_trip.sl.r_245 Cert.Proof.KB.k1_t4_trip.sl.r_246 Cert.Proof.KB.k1_t4_trip.sl.r_247 Cert.Proof.KB.k1_t4_trip.sl.r_248 Cert.Proof.KB.k1_t4_trip.sl.r_249
        Cert.Proof.KB.k1_t4_trip.sl.r_250 Cert.Proof.KB.k1_t4_trip.sl.r_251 Cert.Proof.KB.k1_t4_trip.sl.r_252 Cert.Proof.KB.k1_t4_trip.sl.r_253 Cert.Proof.KB.k1_t4_trip.sl.r_254
        Cert.Proof.KB.k1_t4_trip.sl.r_255 Cert.Proof.KB.k1_t4_trip.sl.r_256 Cert.Proof.KB.k1_t4_trip.sl.r_257 Cert.Proof.KB.k1_t4_trip.sl.r_258 Cert.Proof.KB.k1_t4_trip.sl.r_259
        Cert.Proof.KB.k1_t4_trip.sl.r_260 Cert.Proof.KB.k1_t4_trip.sl.r_261 Cert.Proof.KB.k1_t4_trip.sl.r_262 Cert.Proof.KB.k1_t4_trip.sl.r_263 Cert.Proof.KB.k1_t4_trip.sl.r_264
        Cert.Proof.KB.k1_t4_trip.sl.r_265 Cert.Proof.KB.k1_t4_trip.sl.r_266 Cert.Proof.KB.k1_t4_trip.sl.r_267 Cert.Proof.KB.k1_t4_trip.sl.r_268 Cert.Proof.KB.k1_t4_trip.sl.r_269
        Cert.Proof.KB.k1_t4_trip.sl.r_270 Cert.Proof.KB.k1_t4_trip.sl.r_271 Cert.Proof.KB.k1_t4_trip.sl.r_272 Cert.Proof.KB.k1_t4_trip.sl.r_273 Cert.Proof.KB.k1_t4_trip.sl.r_274
        Cert.Proof.KB.k1_t4_trip.sl.r_275 Cert.Proof.KB.k1_t4_trip.sl.r_276 Cert.Proof.KB.k1_t4_trip.sl.r_277 Cert.Proof.KB.k1_t4_trip.sl.r_278 Cert.Proof.KB.k1_t4_trip.sl.r_279
        Cert.Proof.KB.k1_t4_trip.sl.r_280 Cert.Proof.KB.k1_t4_trip.sl.r_281 Cert.Proof.KB.k1_t4_trip.sl.r_282 Cert.Proof.KB.k1_t4_trip.sl.r_283 Cert.Proof.KB.k1_t4_trip.sl.r_284
        Cert.Proof.KB.k1_t4_trip.sl.r_285 Cert.Proof.KB.k1_t4_trip.sl.r_286 Cert.Proof.KB.k1_t4_trip.sl.r_287 Cert.Proof.KB.k1_t4_trip.sl.r_288 Cert.Proof.KB.k1_t4_trip.sl.r_289
        Cert.Proof.KB.k1_t4_trip.sl.r_290 Cert.Proof.KB.k1_t4_trip.sl.r_291 Cert.Proof.KB.k1_t4_trip.sl.r_292 Cert.Proof.KB.k1_t4_trip.sl.r_293 Cert.Proof.KB.k1_t4_trip.sl.r_294
        Cert.Proof.KB.k1_t4_trip.sl.r_295 Cert.Proof.KB.k1_t4_trip.sl.r_296 Cert.Proof.KB.k1_t4_trip.sl.r_297 Cert.Proof.KB.k1_t4_trip.sl.r_298 Cert.Proof.KB.k1_t4_trip.sl.r_299
        Cert.Proof.KB.k1_t4_trip.sl.r_300 Cert.Proof.KB.k1_t4_trip.sl.r_301 Cert.Proof.KB.k1_t4_trip.sl.r_302 Cert.Proof.KB.k1_t4_trip.sl.r_303 Cert.Proof.KB.k1_t4_trip.sl.r_304
        Cert.Proof.KB.k1_t4_trip.sl.r_305 Cert.Proof.KB.k1_t4_trip.sl.r_306 Cert.Proof.KB.k1_t4_trip.sl.r_307 Cert.Proof.KB.k1_t4_trip.sl.r_308 Cert.Proof.KB.k1_t4_trip.sl.r_309
        Cert.Proof.KB.k1_t4_trip.sl.r_310 Cert.Proof.KB.k1_t4_trip.sl.r_311 Cert.Proof.KB.k1_t4_trip.sl.r_312 Cert.Proof.KB.k1_t4_trip.sl.r_313 Cert.Proof.KB.k1_t4_trip.sl.r_314
        Cert.Proof.KB.k1_t4_trip.sl.r_315 Cert.Proof.KB.k1_t4_trip.sl.r_316 Cert.Proof.KB.k1_t4_trip.sl.r_317 Cert.Proof.KB.k1_t4_trip.sl.r_318
      conv_lhs => simp only [k1_pay2, k1_pay324, k1_pay325, k1_pay326, k1_pay327, k1_pay328, k1_pay329, k1_pay330, k1_pay331, k1_pay332, k1_pay333, k1_pay334, k1_pay335, k1_pay336, k1_pay337, k1_pay338,
        k1_pay339, k1_pay340, k1_pay341, k1_pay342, k1_pay343, k1_pay344, k1_pay345, k1_pay346, k1_pay347, k1_pay348, k1_pay349, k1_pay350, k1_pay351, k1_pay352, k1_pay353, k1_pay354,
        k1_pay355, k1_pay356, k1_pay357, k1_pay358, k1_pay359, k1_pay360, k1_pay361, k1_pay362, k1_pay363, k1_pay364, k1_pay365, k1_pay366, k1_pay367, k1_pay368, k1_pay369, k1_pay370,
        k1_pay371, k1_pay372, k1_pay373, k1_pay374, k1_pay375, k1_pay376, k1_pay377, k1_pay378, k1_pay379, k1_pay380, k1_pay381, k1_pay382, k1_pay383, k1_pay384, k1_pay385, k1_pay386,
        k1_pay387, k1_pay388, k1_pay389, k1_pay390, k1_pay391, k1_pay392, k1_pay393, k1_pay394, k1_pay395, k1_pay396, k1_pay397, k1_pay398, k1_pay399, k1_pay400, k1_pay401, k1_pay402,
        k1_pay403, k1_pay404, k1_pay405, k1_pay406, k1_pay407, k1_pay408, k1_pay409, k1_pay410, k1_pay411, k1_pay412, k1_pay413, k1_pay414, k1_pay415, k1_pay416, k1_pay417, k1_pay418,
        k1_pay419, k1_pay420, k1_pay421, k1_pay422, k1_pay423, k1_pay424, k1_pay425, k1_pay426, k1_pay427, k1_pay428, k1_pay429, k1_pay430, k1_pay431, k1_pay432, k1_pay433, k1_pay434,
        k1_pay435, k1_pay436, k1_pay437, k1_pay438, k1_pay439, k1_pay440, k1_pay441, k1_pay442, k1_pay443, k1_pay444, k1_pay445, k1_pay446, k1_pay447, k1_pay448, k1_pay449, k1_pay450,
        k1_pay451, k1_pay452, k1_pay453, k1_pay454, k1_pay455, k1_pay456, k1_pay457, k1_pay458, k1_pay459, k1_pay460, k1_pay461, k1_pay462, k1_pay463, k1_pay464, k1_pay465, k1_pay466,
        k1_pay467, k1_pay468, k1_pay469, k1_pay470, k1_pay471, k1_pay472, k1_pay473, k1_pay474, k1_pay475, k1_pay476, k1_pay477, k1_pay478, k1_pay479, k1_pay480, k1_pay481, k1_pay482,
        k1_pay483, k1_pay484, k1_pay485, k1_pay486, k1_pay487, k1_pay488, k1_pay489, k1_pay490, k1_pay491, k1_pay492, k1_pay493, k1_pay494, k1_pay495, k1_pay496, k1_pay497, k1_pay498,
        k1_pay499, k1_pay500, k1_pay501, k1_pay502, k1_pay503, k1_pay504, k1_pay505, k1_pay506, k1_pay507, k1_pay508, k1_pay509, k1_pay510, k1_pay511, k1_pay512, k1_pay513, k1_pay514,
        k1_pay515, k1_pay516, k1_pay517, k1_pay518, k1_pay519, k1_pay520, k1_pay521, k1_pay522, k1_pay523, k1_pay524, k1_pay525, k1_pay526, k1_pay527, k1_pay528, k1_pay529, k1_pay530,
        k1_pay531, k1_pay532, k1_pay533, k1_pay534, k1_pay535, k1_pay536, k1_pay537, k1_pay538, k1_pay539, k1_pay540, k1_pay541, k1_pay542, k1_pay543, k1_pay544, k1_pay545, k1_pay546,
        k1_pay547, k1_pay548, k1_pay549, k1_pay550, k1_pay551, k1_pay552, k1_pay553, k1_pay554, k1_pay555, k1_pay556, k1_pay557, k1_pay558, k1_pay559, k1_pay560, k1_pay561, k1_pay562,
        k1_pay563, k1_pay564, k1_pay565, k1_pay566, k1_pay567, k1_pay568, k1_pay569, k1_pay570, k1_pay571, k1_pay572, k1_pay573, k1_pay574, k1_pay575, k1_pay576, k1_pay577, k1_pay578,
        k1_pay579, k1_pay580, k1_pay581, k1_pay582, k1_pay583, k1_pay584, k1_pay585, k1_pay586, k1_pay587, k1_pay588, k1_pay589, k1_pay590, k1_pay591, k1_pay592, k1_pay593, k1_pay594,
        k1_pay595, k1_pay596, k1_pay597, k1_pay598, k1_pay599, k1_pay600, k1_pay601, k1_pay602, k1_pay603, k1_pay604, k1_pay605, k1_pay606, k1_pay607, k1_pay608, k1_pay609, k1_pay610,
        k1_pay611, k1_pay612, k1_pay613, k1_pay614, k1_pay615, k1_pay616, k1_pay617, k1_pay618, k1_pay619, k1_pay620, k1_pay621, k1_pay622, k1_pay623, k1_pay624, k1_pay625, k1_pay626,
        k1_pay627, k1_pay628, k1_pay629, k1_pay630, k1_pay631, k1_pay632, k1_pay633, k1_pay634, k1_pay635, k1_pay636, k1_pay637, k1_pay638, k1_pay639, k1_pay640, k1_pay641, k1_pay642,
        k1_pay643, k1_pay644, Pure.addf_at, Pure.mulf_at, Pure.broadcast_at, Pure.lane_at, Pure.cast16_16, Pure.cast1x16_16, Pure.cast16_1x16]
      rfl
  isplitl [Hb]
  · iexact Hb
  · iexact Hw

set_option maxHeartbeats 1000000 in
/-- The item loop over a trip count `n` known to be the loop's: after it the chunk's `n` rows are done. -/
theorem k1_t4_run_n (t2 : Fin k1_t2_loop.trips) (fw : S8192.Idx → F .f32) (fb : S128x128.Idx → F .f32) (fo : S256x128.Idx → F .f32)
    (n : ℕ) (hn : k1_t4_loop.trips = n) :
    iprop(outPts d L fo ∗ buf1Pts d L fb ∗ awvPts d L fw)
      ⊢ wp frame (wpE (defs₀ (F := F)) 𝒱₀ (thrV d L) none) Set.univ
          (Scf.Loop.for k1_t4_loop k1_t4_ok ⟨⟩ (k1_t4_body L ieV (Memref.isWhole_whole _) awV (Memref.isWhole_whole _) embV (Memref.isWhole_whole _) resV (Memref.isWhole_whole _) idxV (Memref.isWhole_whole _) awvV (Memref.isWhole_whole _) buf0V (Memref.isWhole_whole _) buf1V (Memref.isWhole_whole _) outV (Memref.isWhole_whole _) cc1_scratch5 cc1_scratch6 cc1_scoped0 cc1_scoped1 cc1_scoped2 cc1_scoped3 t2 (Scalar.addi (Scalar.muli (Scf.iv 0#32 1#32 t2) 2#32) 1#32)))
          fun _ => iprop(outPts d L (outAfter fw fb fo (2 * t2.val + 1) n) ∗ buf1Pts d L fb ∗ awvPts d L fw) := by
  subst hn
  have ht2 : t2.val < 32 := lt_of_lt_of_eq t2.isLt trips2
  iintro ⟨Ho, Hb, Hw⟩
  sl_for (fun (k : ℕ) (_ : Unit) => iprop(outPts d L (outAfter fw fb fo (2 * t2.val + 1) k) ∗ buf1Pts d L fb ∗ awvPts d L fw)) $$ [Ho Hb Hw]
  case region =>
    intro k acc
    have hk : k.val < 4 := lt_of_lt_of_eq k.isLt trips4
    have h := k1_t4_trip d L t2 (Scalar.addi (Scalar.muli (Scf.iv 0#32 1#32 t2) 2#32) 1#32) k fw fb (outAfter fw fb fo (2 * t2.val + 1) k.val)
      (⟨8 * t2.val + k.val + 4, by omega⟩ : Fin 256) rfl (⟨k.val, hk⟩ : Fin 4) rfl
    rw [rowStep_outAfter fw fb fo (2 * t2.val + 1) (⟨k.val, hk⟩ : Fin 4) (⟨8 * t2.val + k.val + 4, by omega⟩ : Fin 256)
      (by show 8 * t2.val + k.val + 4 = 4 * (2 * t2.val + 1) + k.val; omega)] at h
    exact h
  · isplitl [Ho Hb Hw]
    · rw [outAfter_zero]
      isplitl [Ho]
      · iexact Ho
      isplitl [Hb]
      · iexact Hb
      · iexact Hw
    · iintro %acc HI
      iexact HI

/-- The item loop: the chunk's four rows of the accumulator are updated, the gather buffer and the weights kept. -/
theorem k1_t4_run (t2 : Fin k1_t2_loop.trips) (fw : S8192.Idx → F .f32) (fb : S128x128.Idx → F .f32) (fo : S256x128.Idx → F .f32) :
    iprop(outPts d L fo ∗ buf1Pts d L fb ∗ awvPts d L fw)
      ⊢ wp frame (wpE (defs₀ (F := F)) 𝒱₀ (thrV d L) none) Set.univ
          (Scf.Loop.for k1_t4_loop k1_t4_ok ⟨⟩ (k1_t4_body L ieV (Memref.isWhole_whole _) awV (Memref.isWhole_whole _) embV (Memref.isWhole_whole _) resV (Memref.isWhole_whole _) idxV (Memref.isWhole_whole _) awvV (Memref.isWhole_whole _) buf0V (Memref.isWhole_whole _) buf1V (Memref.isWhole_whole _) outV (Memref.isWhole_whole _) cc1_scratch5 cc1_scratch6 cc1_scoped0 cc1_scoped1 cc1_scoped2 cc1_scoped3 t2 (Scalar.addi (Scalar.muli (Scf.iv 0#32 1#32 t2) 2#32) 1#32)))
          fun _ => iprop(outPts d L (outAfter fw fb fo (2 * t2.val + 1) 4) ∗ buf1Pts d L fb ∗ awvPts d L fw) :=
  k1_t4_run_n d L t2 fw fb fo 4 trips4

end Cert.Proof.KB

end
-- ==== Proof.KBTileSpecProofs.lean ====
/-
  The two item loops meet the specifications the chunk loop states for them.
-/
import proofs.«203743_g50225347559739_cont_8to1c4_743_14_alg».proof.Proof.KBTileSpec
import proofs.«203743_g50225347559739_cont_8to1c4_743_14_alg».proof.Proof.KBItem3
import proofs.«203743_g50225347559739_cont_8to1c4_743_14_alg».proof.Proof.KBItem4

noncomputable section

namespace Cert.Proof.KB

open Cert.Kernel Cert.Kernel.Gen

open Idealize.ShloMosaic

variable {F : FTy → Type} [FloatOps F]

/-- The item loop on the first gather buffer is as specified. -/
theorem t3spec (d : Dev nD) (L : grid1.Coords) : T3Spec (F := F) d L :=
  fun t2 fw fb fo => k1_t3_run d L t2 fw fb fo

/-- The item loop on the second gather buffer is as specified. -/
theorem t4spec (d : Dev nD) (L : grid1.Coords) : T4Spec (F := F) d L :=
  fun t2 fw fb fo => k1_t4_run d L t2 fw fb fo

end Cert.Proof.KB

end
-- ==== Proof.KBTileBody.lean ====
/-
  The task of one vector subcore, with the half and the two item loops put in.
-/
import proofs.«203743_g50225347559739_cont_8to1c4_743_14_alg».proof.Proof.KBTile
import proofs.«203743_g50225347559739_cont_8to1c4_743_14_alg».proof.Proof.KBTileHalf
import proofs.«203743_g50225347559739_cont_8to1c4_743_14_alg».proof.Proof.KBTileSpecProofs

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The task of the vector subcore at `L` of device `d`: from its slabs of the indices and of the weights, its share of the
    table and its rows of the result, to the same with those rows at the items' accumulations. -/
theorem tile_body (d : Dev nD) (L : grid1.Coords) (ie : Buf (Elt F) (ieLoc d)) (aw : Buf (Elt F) (awLoc d)) (emb : Buf (Elt F) (embLoc d)) (fo : Buf (Elt F) (resLoc d))
    (hF : (K (F := F)).Facts) (hidx : IdxOK ie) (O : CellTallies nD τ sig (HIx 1)) (W : Waits sig (HIx 1)) (hO : ∀ g, O g none = 0) :
    iprop(levAts (K (F := F)).L (K (F := F)).lev ∗ emp ∗ tilePre d L ie aw emb fo
        ∗ scopedBufs (thrV d L) ∗ scopedSems0 (thrV d L) ∗ owes (thrV d L) O W)
      ⊢ wp frame (wpE (defs₀ (F := F)) 𝒱₀ (thrV d L) none) Set.univ (tileProg (F := F) L)
          fun _ => iprop(tilePost d L ie aw emb ∗ scopedBufs (thrV d L) ∗ scopedSems0 (thrV d L)
            ∗ ∃ W', ⌜∀ p ∈ W', p ∈ W ∨ p.2 = none⌝ ∗ owes (thrV d L) O W') :=
  tile_body_of d L ie aw emb fo hF
    (fun O' W' fo' h => half_body d L (t3spec d L) (t4spec d L) O' W' ie aw emb fo' hidx h) O W hO

end Cert.Proof.KB

end
-- ==== Proof.KBLaunch.lean ====
/-
  The launch.  Each vector subcore's task is the obligation the launch theorem asks; the launch element of the
  ghost state funds the handshakes and the TensorCore pipeline's staging cells; on the TensorCore @main runs its
  head (the two reshapes around the softmax region), deals the four arrays to the two SparseCores, starts them,
  waits, and collects the arrays with the result at the items' accumulations; the final memory agrees with what
  is held at the end.
-/
import proofs.«203743_g50225347559739_cont_8to1c4_743_14_alg».proof.Proof.KBPay
import proofs.«203743_g50225347559739_cont_8to1c4_743_14_alg».proof.Proof.KBSoftHead
import proofs.«203743_g50225347559739_cont_8to1c4_743_14_alg».proof.Proof.KBTileBody

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (m : (ℓ : Loc nD τ sig) → Buf (Elt F) ℓ) (ρ : Dev nD → PrngReg)

/-! ## The obligation -/

theorem defs₀_vector (c : Fin τ.nSC) (s : Fin τ.nSub) :
    defs₀ (F := F) (.scVector c s) 1 ()
      = SparseCore.onTile hcore1 hsub1 (fun c s => tileProg (F := F) (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  show iprop(levAts (K (F := F)).L (K (F := F)).lev ∗ emp ∗ (∃ fo, tilePre d (Lci c i) (ieC m d) (awC m d) (embC m d) fo) ∗ _ ∗ _ ∗ _) ⊢ _
  iintro ⟨Hlv, He, ⟨%fo, Hpre⟩, Hb, Hs, HO⟩
  iapply ((tile_body d (Lci c i) (ieC m d) (awC m d) (embC m d) fo hF (idxOK_of_pre m hpre d) O W hO).trans (wp_mono frame _ _ fun _ => obl_post))
  isplitl [Hlv]; · iexact Hlv
  isplitl [He]; · iexact He
  isplitl [Hpre]; · iexact Hpre
  isplitl [Hb]; · iexact Hb
  isplitl [Hs]; · iexact Hs
  iexact HO

/-! ## The launch element of the ghost state -/

def u₀ : UU := (initOf (K (F := F)).hsCells (K (F := F)).hsToks, (initOf (Pipeline.cells cfgs cellOf_inj) (Pipeline.launchToks cfgs cellOf_inj), 1))

omit [FloatOps F] in
theorem ownU_split (a : UH) (b : UR) : (ownU ((a, (b, 1)) : UU) : sProp 𝕄) ⊢ iprop(BI.own (EH a) ∗ BI.own (ER b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => GS (F := F) d)
        ∗ bigSep Finset.univ fun thr : Thread nD τ => bigSep Finset.univ fun q : Fin 1 => (P m).x q thr) := by
  unfold u₀
  iintro Hu
  ihave H := (ownU_split (F := F) (initOf (K (F := F)).hsCells (K (F := F)).hsToks) (initOf (Pipeline.cells cfgs cellOf_inj) (Pipeline.launchToks cfgs cellOf_inj))) $$ Hu
  icases H with ⟨HH, HR⟩
  imod (fundGS (F := F)) $$ HR with HG
  imodintro
  isplitl [HH]; · iexact HH
  isplitl [HG]; · iexact HG
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

/-- What the TensorCore holds at the end: the three arguments as launched, the result at the accumulations. -/
abbrev FIN (d : Dev nD) : sProp 𝕄 :=
  iprop((((T d : Thread nD τ).loc main_arg0) ↦{fullShare} m ((T d : Thread nD τ).loc main_arg0))
    ∗ (((T d : Thread nD τ).loc main_arg1) ↦{fullShare} m ((T d : Thread nD τ).loc main_arg1))
    ∗ (((T d : Thread nD τ).loc main_arg2) ↦{fullShare} m ((T d : Thread nD τ).loc main_arg2))
    ∗ (resLoc d ↦{fullShare} (Pure.Gk (F := F) (ieC m d) (awC m d) (embC m d) : Buf (Elt F) (resLoc d))))

/-- The four arrays whole are what the two SparseCores are started with. -/
theorem st_intro (d : Dev nD) (fo : Buf (Elt F) (resLoc d)) :
    (iprop((ieLoc d ↦{fullShare} ieC m d) ∗ (awLoc d ↦{fullShare} awC m d) ∗ (embLoc d ↦{fullShare} embC m d) ∗ (resLoc d ↦{fullShare} fo)) : sProp 𝕄)
      ⊢ bigSep Finset.univ fun c : Fin ((K (F := F)).nCore 0) => (P m).st 0 d c := by
  rw [arrays_split d (ieC m d) (awC m d) (embC m d) fo]
  show (bigSep Finset.univ fun c : Fin ((K (F := F)).nCore 0) => bigSep Finset.univ fun i : Fin ((K (F := F)).nSub 0) => tilePre d (Lci c i) (ieC m d) (awC m d) (embC m d) fo)
    ⊢ bigSep Finset.univ fun c : Fin ((K (F := F)).nCore 0) => iprop(∃ fo, bigSep Finset.univ fun i : Fin ((K (F := F)).nSub 0) => tilePre d (Lci c i) (ieC m d) (awC m d) (embC m d) fo)
  exact bigSep_mono fun c _ => by
    show (bigSep Finset.univ fun i : Fin ((K (F := F)).nSub 0) => tilePre d (Lci c i) (ieC m d) (awC m d) (embC m d) fo)
      ⊢ iprop(∃ fo, bigSep Finset.univ fun i : Fin ((K (F := F)).nSub 0) => tilePre d (Lci c i) (ieC m d) (awC m d) (embC m d) fo)
    iintro H; iexists fo; iexact H

/-- What the two SparseCores bring back is the four arrays whole, the result at the accumulations. -/
theorem dn_elim (d : Dev nD) :
    (bigSep Finset.univ fun c : Fin ((K (F := F)).nCore 0) => (P m).dn 0 d c)
      ⊢ (iprop((ieLoc d ↦{fullShare} ieC m d) ∗ (awLoc d ↦{fullShare} awC m d) ∗ (embLoc d ↦{fullShare} embC m d)
          ∗ (resLoc d ↦{fullShare} (Pure.Gk (F := F) (ieC m d) (awC m d) (embC m d) : Buf (Elt F) (resLoc d)))) : sProp 𝕄) := by
  rw [← arrays_join d (ieC m d) (awC m d) (embC m d)]
  exact BI.Entails.refl _

theorem hmain (κ : GSem nD τ sig → ℕ) (d : Dev nD) :
    iprop((K (F := F)).ctx EH (P m) κ ∗ (K (F := F)).tcSt EH d 0 ∗ (K (F := F)).tcRes m ρ d ∗ GS (F := F) d)
      ⊢ wp frame (wpE ((K (F := F)).defs (D (F := F))) 𝒱 (SparseCore.T d) none) Set.univ (main d)
          fun _ => iprop((K (F := F)).tcSt EH d 1 ∗ FIN m d) := by
  rw [main_eq]
  iintro ⟨#Hctx, Hst, Hres, HG⟩
  iapply (wp_head m ρ (P m) (K (F := F)).lev (by sl_refines_lev) κ d _ _)
  isplitr; · iexact Hctx
  isplitl [Hst]; · iexact Hst
  isplitl [Hres]; · iexact Hres
  isplitl [HG]; · iexact HG
  iintro ⟨Hst, Hpost⟩
  unfold HeadPost
  icases Hpost with ⟨H0, H1, H2, Hv0, -, Hv2, ⟨%fo, Hv3⟩, -⟩
  simp only [wp_bind, wp_pure]
  iapply ((K (F := F)).wp_run (D (F := F)) 𝒱 (EH := EH) (P := P m) κ d 0) $$ [Hst H1 Hv0 Hv2 Hv3 H0 H2]
  isplitr; · iexact Hctx
  isplitl [Hst]; · iexact Hst
  isplitl [H1 Hv0 Hv2 Hv3]
  · iapply (st_intro m d fo)
    isplitl [Hv0]; · iexact Hv0
    isplitl [Hv2]; · iexact Hv2
    isplitl [H1]; · iexact H1
    iexact Hv3
  iintro ⟨Hst, Hdn⟩
  ihave Hj := (dn_elim m d) $$ Hdn
  icases Hj with ⟨-, -, H1, Hr⟩
  imodintro
  isplitl [Hst]; · iexact Hst
  isplitl [H0]; · iexact H0
  isplitl [H1]; · iexact H1
  isplitl [H2]; · iexact H2
  iexact Hr

/-! ## The final memory -/

def fq (d : Dev nD) (s' : Phys nD τ sig (Elt F)) : Prop :=
  s'.mem.mem ((T d : Thread nD τ).loc main_arg0) = m ((T d : Thread nD τ).loc main_arg0)
  ∧ s'.mem.mem ((T d : Thread nD τ).loc main_arg1) = m ((T d : Thread nD τ).loc main_arg1)
  ∧ s'.mem.mem ((T d : Thread nD τ).loc main_arg2) = m ((T d : Thread nD τ).loc main_arg2)
  ∧ s'.mem.mem (resLoc d) = (Pure.Gk (F := F) (ieC m d) (awC m d) (embC m d) : Buf (Elt F) (resLoc d))

set_option maxRecDepth 16384 in
theorem hfin (d : Dev nD) (s' : Phys nD τ sig (Elt F)) : iprop(FIN m d ∗ SI s') ⊢ (⌜fq m d s'⌝ : sProp 𝕄) := by
  iintro ⟨⟨H0, H1, H2, Hr⟩, HSI⟩
  ihave H := (persistent_entails_right (SI_pointsTo_agree (st := s') (ℓ := (T d : Thread nD τ).loc main_arg0) (I := Finset.univ) (q := fullShare) (f := m ((T d : Thread nD τ).loc main_arg0)))) $$ [HSI H0]
  · isplitl [HSI] <;> iassumption
  icases H with ⟨%h0, HSI, -⟩
  ihave H := (persistent_entails_right (SI_pointsTo_agree (st := s') (ℓ := (T d : Thread nD τ).loc main_arg1) (I := Finset.univ) (q := fullShare) (f := m ((T d : Thread nD τ).loc main_arg1)))) $$ [HSI H1]
  · isplitl [HSI] <;> iassumption
  icases H with ⟨%h1, HSI, -⟩
  ihave H := (persistent_entails_right (SI_pointsTo_agree (st := s') (ℓ := (T d : Thread nD τ).loc main_arg2) (I := Finset.univ) (q := fullShare) (f := m ((T d : Thread nD τ).loc main_arg2)))) $$ [HSI H2]
  · isplitl [HSI] <;> iassumption
  icases H with ⟨%h2, HSI, -⟩
  ihave H := (SI_pointsTo_agree (st := s') (ℓ := resLoc d) (I := Finset.univ) (q := fullShare) (f := (Pure.Gk (F := F) (ieC m d) (awC m d) (embC m d) : Buf (Elt F) (resLoc d)))) $$ [HSI Hr]
  · isplitl [HSI] <;> iassumption
  icases H with %h3
  ipureintro
  exact ⟨funext fun i => h0 i (Finset.mem_univ i), funext fun i => h1 i (Finset.mem_univ i), funext fun i => h2 i (Finset.mem_univ i), funext fun i => h3 i (Finset.mem_univ i)⟩

/-! ## The program's run -/

/-- The run's post: the result array at the accumulations, the three arguments as launched. -/
def QC : PUnit × MemSt nD τ sig (Elt F) → Prop := fun r => ∀ c : Dev nD,
  r.2.mem ((c.tc : Thread nD τ).loc main_v3) = (Pure.Gk (F := F) (ieC m c) (awC m c) (embC m c) : Buf (Elt F) (resLoc c))
  ∧ r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)

theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun d => GS (F := F) d) (FIN m) (u₀ (F := F)) (sep_elim_left.trans (hu₀ m)) (hmain m ρ) (fq m) (hfin m) (QC m)
    (fun _ h c => ⟨(h c).2.2.2, (h c).1, (h c).2.1, (h c).2.2.1⟩)

end Cert.Proof.KB

end
-- ==== Proof.KICommon.lean ====
/-
  The names the launch of this program is written over: the SparseCore configuration and the body table as the
  launch theorem reads them, and the ghost state — the rounds of the launch handshakes, the rounds of the
  TensorCore pipeline's staging cells, and the counters of the subcores' own copies.
-/
import proofs.«203743_g50225347559739_cont_8to1c4_743_14_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«203743_g50225347559739_cont_8to1c4_743_14_alg».proof.Proof.Gen.KernelIdeal

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the pipeline cells' rounds, the copies' counters -/

abbrev UH : Type := URounds (GSem nD τ sig) ℕ
abbrev UR : Type := URounds (GSem nD τ sig) Unit
abbrev UU : Type := UH × (UR × Counters)

abbrev EH : Emb UH (MT nD τ sig (HIx 1) (Elt F) ℕ UU ℕ) := embL
/-- The pipeline cells' rounds: the left half of the right factor. -/
def ER : Emb UR (MT nD τ sig (HIx 1) (Elt F) ℕ UU ℕ) :=
  ((Emb.inl : Emb UR (UR × Counters)).trans (Emb.inr : Emb (UR × Counters) UU)).trans
    (uEmb (nD := nD) (sig := sig) (Ix := HIx 1) (Val := Elt F) (Name := ℕ) (U := UU) (Lvl := ℕ)).toEmb
instance ER_landsIn : (ER : Emb UR (MT nD τ sig (HIx 1) (Elt F) ℕ UU ℕ)).LandsIn (upEmb : UEmb _ (MT nD τ sig (HIx 1) (Elt F) ℕ UU ℕ)) := by unfold ER; infer_instance

end Cert.Proof.KI

end
-- ==== Proof.KITileDefs.lean ====
/-
  One vector subcore's task, as the two item loops and the task's outer structure are written against it: the
  thread, the operands and scratch buffers as the body table passes them, the parts of the three arrays a subcore
  owns, and what the subcore takes and gives back.

  Subcore `(c, s)` is worker `w = 2 s + c`.  It owns slabs `2 w` and `2 w + 1` of the index array and of the
  weights, rows `[512 w, 512 w + 512)` of the result, and reads the table through a thirty-second share.  Half
  `h` of its task works on slab `2 w + h` and result rows `[512 w + 256 h, +256)`.
-/
import proofs.«203743_g50225347559739_cont_8to1c4_743_14_alg».proof.Proof.KICommon
import proofs.«203743_g50225347559739_cont_8to1c4_743_14_alg».proof.Proof.KIPure

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The thread -/

abbrev cV (L : grid1.Coords) : Fin τ.nSC := (L 0).castLE hcore1
abbrev jV (L : grid1.Coords) : Fin τ.nSub := (L 1).castLE hsub1
/-- The vector subcore at grid coordinates `L` of device `d`. -/
abbrev thrV (d : Dev nD) (L : grid1.Coords) : Thread nD τ := V d (cV L) (jV L)
def coordsV (c : Fin (grid1.bound 0)) (s : Fin (grid1.bound 1)) : grid1.Coords :=
  fun | 0 => c | 1 => s | ⟨_ + 2, h⟩ => absurd h (Nat.not_lt.2 (Nat.le_add_left _ _))

theorem bound_zero : grid1.bound 0 = 2 := rfl
theorem bound_one : grid1.bound 1 = 16 := rfl
theorem trips1 : k1_t1_loop.trips = 2 := by decide
theorem trips2 : k1_t2_loop.trips = 32 := by decide
theorem trips3 : k1_t3_loop.trips = 4 := by decide
theorem trips4 : k1_t4_loop.trips = 4 := by decide

/-- The worker number `2 s + c` of subcore `(c, s)`: below 32. -/
def wid (L : grid1.Coords) : ℕ := 2 * (L 1).val + (L 0).val
theorem wid_lt (L : grid1.Coords) : wid L < 32 := by
  have h0 : (L 0).val < 2 := (L 0).isLt
  have h1 : (L 1).val < 16 := (L 1).isLt
  unfold wid; omega

/-! ## The operands and the scratch, as the body table passes them -/

abbrev ieV : Memref sig .scVector .hbm S64x64x128 .i32 := Memref.whole main_v0_scv
abbrev awV : Memref sig .scVector .hbm S64x8192 .f32 := Memref.whole main_v2_scv
abbrev embV : Memref sig .scVector .hbm S100001x128 .f32 := Memref.whole main_arg1_scv
abbrev resV : Memref sig .scVector .hbm S16384x128 .f32 := Memref.whole main_v3_scv
abbrev idxV : Memref sig .scVector .vmem S64x128 .i32 := Memref.whole cc1_scratch0
abbrev awvV : Memref sig .scVector .vmem S8192 .f32 := Memref.whole cc1_scratch1
abbrev buf0V : Memref sig .scVector .vmem S128x128 .f32 := Memref.whole cc1_scratch2
abbrev buf1V : Memref sig .scVector .vmem S128x128 .f32 := Memref.whole cc1_scratch3
abbrev outV : Memref sig .scVector .vmem S256x128 .f32 := Memref.whole cc1_scratch4

/-- The task at coordinates `L`, on the operands the body table passes. -/
abbrev tileProg [FloatOps F] (L : grid1.Coords) :
    Prog (TpuEff nD τ sig (Elt F) Λ₀ (.scVector ((L 0).castLE hcore1) ((L 1).castLE hsub1))) PUnit :=
  cc1__sc_body L ieV (Memref.isWhole_whole _) awV (Memref.isWhole_whole _) embV (Memref.isWhole_whole _)
    resV (Memref.isWhole_whole _) idxV (Memref.isWhole_whole _) awvV (Memref.isWhole_whole _)
    buf0V (Memref.isWhole_whole _) buf1V (Memref.isWhole_whole _) outV (Memref.isWhole_whole _)
    cc1_scratch5 cc1_scratch6 cc1_scoped0 cc1_scoped1 cc1_scoped2 cc1_scoped3

abbrev ieLoc (d : Dev nD) : Loc nD τ sig := (SparseCore.T d).loc main_v0
abbrev awLoc (d : Dev nD) : Loc nD τ sig := (SparseCore.T d).loc main_v2
abbrev embLoc (d : Dev nD) : Loc nD τ sig := (SparseCore.T d).loc main_arg1
abbrev resLoc (d : Dev nD) : Loc nD τ sig := (SparseCore.T d).loc main_v3
abbrev idxLoc (d : Dev nD) (L : grid1.Coords) : Loc nD τ sig := (thrV d L).loc cc1_scratch0
abbrev awvLoc (d : Dev nD) (L : grid1.Coords) : Loc nD τ sig := (thrV d L).loc cc1_scratch1
abbrev buf0Loc (d : Dev nD) (L : grid1.Coords) : Loc nD τ sig := (thrV d L).loc cc1_scratch2
abbrev buf1Loc (d : Dev nD) (L : grid1.Coords) : Loc nD τ sig := (thrV d L).loc cc1_scratch3
abbrev outLoc (d : Dev nD) (L : grid1.Coords) : Loc nD τ sig := (thrV d L).loc cc1_scratch4

/-- The scratch buffers as the run holds them: the whole buffer, at the full share. -/
abbrev idxPts (d : Dev nD) (L : grid1.Coords) (f : Buf (Elt F) (idxLoc d L)) : sProp 𝕄 := (idxV).view.loc (thrV d L) ↦{fullShare} f
abbrev awvPts (d : Dev nD) (L : grid1.Coords) (f : Buf (Elt F) (awvLoc d L)) : sProp 𝕄 := (awvV).view.loc (thrV d L) ↦{fullShare} f
abbrev buf0Pts (d : Dev nD) (L : grid1.Coords) (f : Buf (Elt F) (buf0Loc d L)) : sProp 𝕄 := (buf0V).view.loc (thrV d L) ↦{fullShare} f
abbrev buf1Pts (d : Dev nD) (L : grid1.Coords) (f : Buf (Elt F) (buf1Loc d L)) : sProp 𝕄 := (buf1V).view.loc (thrV d L) ↦{fullShare} f
abbrev outPts (d : Dev nD) (L : grid1.Coords) (f : Buf (Elt F) (outLoc d L)) : sProp 𝕄 := (outV).view.loc (thrV d L) ↦{fullShare} f

/-! ## The halves: the slices the task makes of the four arrays -/

abbrev ieRect (L : grid1.Coords) (h : Fin k1_t1_loop.trips) : Rect S64x64x128 :=
  Rect.unit (s := S64x64x128) (k1_off1 L h) S1x64x128.size (k1_off1_inb L h)
abbrev awRect (L : grid1.Coords) (h : Fin k1_t1_loop.trips) : Rect S64x8192 :=
  Rect.unit (s := S64x8192) (k1_off2 L h) S1x8192.size (k1_off2_inb L h)
abbrev ownRect (L : grid1.Coords) (h : Fin k1_t1_loop.trips) : Rect S100001x128 :=
  Rect.unit (s := S100001x128) (k1_off3 L h) S256x128.size (k1_off3_inb L h)
abbrev resRect (L : grid1.Coords) (h : Fin k1_t1_loop.trips) : Rect S16384x128 :=
  Rect.unit (s := S16384x128) (k1_off42 L h) S256x128.size (k1_off42_inb L h)
/-- Slab `2 w + h` of the indices, squeezed, as the task addresses it. -/
abbrev ieK (L : grid1.Coords) (h : Fin k1_t1_loop.trips) : Memref sig .scVector .hbm S64x128 .i32 :=
  ((ieV).slice (ieRect L h) (fun _ => rfl)).squeeze S64x128 squeezes_S1x64x128_S64x128
/-- Slab `2 w + h` of the weights, squeezed. -/
abbrev awK (L : grid1.Coords) (h : Fin k1_t1_loop.trips) : Memref sig .scVector .hbm S8192 .f32 :=
  ((awV).slice (awRect L h) (fun _ => rfl)).squeeze S8192 squeezes_S1x8192_S8192
/-- The items' own rows of the table: rows `[512 w + 256 h, +256)`. -/
abbrev ownK (L : grid1.Coords) (h : Fin k1_t1_loop.trips) : Memref sig .scVector .hbm S256x128 .f32 :=
  (embV).slice (ownRect L h) (fun _ => rfl)
/-- Rows `[512 w + 256 h, +256)` of the result. -/
abbrev resK (L : grid1.Coords) (h : Fin k1_t1_loop.trips) : Memref sig .scVector .hbm S256x128 .f32 :=
  (resV).slice (resRect L h) (fun _ => rfl)
/-- All of the table, as the gathers address it. -/
abbrev embAllK : Memref sig .scVector .hbm S100001x128 .f32 :=
  (embV).slice (Rect.unit (s := S100001x128) ![0, 0] S100001x128.size inb_S100001x128_S100001x128_0_0) (fun _ => rfl)

/-! ## What a subcore owns -/

/-- Slabs `2 w` and `2 w + 1` of the indices. -/
def ieSet (L : grid1.Coords) : Finset S64x64x128.Idx := Finset.univ.filter fun j => (j 0).val / 2 = wid L
/-- Slabs `2 w` and `2 w + 1` of the weights. -/
def awSet (L : grid1.Coords) : Finset S64x8192.Idx := Finset.univ.filter fun j => (j 0).val / 2 = wid L
/-- Rows `[512 w, 512 w + 512)` of the result. -/
def resSet (L : grid1.Coords) : Finset S16384x128.Idx := Finset.univ.filter fun j => (j 0).val / 512 = wid L

theorem mem_ieSet {L : grid1.Coords} {j : S64x64x128.Idx} : j ∈ ieSet L ↔ (j 0).val / 2 = wid L := by simp [ieSet]
theorem mem_awSet {L : grid1.Coords} {j : S64x8192.Idx} : j ∈ awSet L ↔ (j 0).val / 2 = wid L := by simp [awSet]
theorem mem_resSet {L : grid1.Coords} {j : S16384x128.Idx} : j ∈ resSet L ↔ (j 0).val / 512 = wid L := by simp [resSet]

/-- Leaf `i` of the depth-`n` halving of share `q`. -/
def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by omega⟩

/-- Subcore `(c, s)`'s share of the table: leaf `16 c + s` of the full share halved five times — the sixteen
    subcores of SparseCore 0 hold the leaves of the left half, those of SparseCore 1 the leaves of the right half. -/
def embq (L : grid1.Coords) : PosShare TreeShare :=
  leaf 5 fullShare ⟨16 * (L 0).val + (L 1).val, by
    have h0 : (L 0).val < 2 := (L 0).isLt
    have h1 : (L 1).val < 16 := (L 1).isLt
    omega⟩

variable [FloatOps F]

/-! ## What the subcore takes and gives back -/

/-- The indices of every item name a row of the table. -/
def IdxOK (ie : Pure.SIe.Idx → BitVec 32) : Prop := ∀ j, (ie j).toNat ≤ 100000

/-- What the task takes: its slabs of the indices and of the weights, a share of the table, its rows of the result. -/
def tilePre (d : Dev nD) (L : grid1.Coords) (ie : Buf (Elt F) (ieLoc d)) (aw : Buf (Elt F) (awLoc d))
    (emb : Buf (Elt F) (embLoc d)) (fo : Buf (Elt F) (resLoc d)) : sProp 𝕄 :=
  iprop((ieLoc d ↦[ieSet L]{fullShare} ie) ∗ (awLoc d ↦[awSet L]{fullShare} aw) ∗ (embLoc d ↦{embq L} emb)
    ∗ (resLoc d ↦[resSet L]{fullShare} fo))

/-- What it gives back: the same, its rows of the result at the items' accumulations. -/
def tilePost (d : Dev nD) (L : grid1.Coords) (ie : Buf (Elt F) (ieLoc d)) (aw : Buf (Elt F) (awLoc d))
    (emb : Buf (Elt F) (embLoc d)) : sProp 𝕄 :=
  iprop((ieLoc d ↦[ieSet L]{fullShare} ie) ∗ (awLoc d ↦[awSet L]{fullShare} aw) ∗ (embLoc d ↦{embq L} emb)
    ∗ (resLoc d ↦[resSet L]{fullShare} (Pure.Gk (F := F) ie aw emb : Buf (Elt F) (resLoc d))))

/-! ## One item's arithmetic on the scratch buffers -/

/-- Row `j 0` of the output scratch after its item: the thirty-two multiply-adds of the item's weights
    `fw[32 r + p]` with rows `32 (r % 4) + p` of the gathered buffer, from the row's own value. -/
def itemVal (fw : S8192.Idx → F .f32) (fb : S128x128.Idx → F .f32) (fo : S256x128.Idx → F .f32) (j : S256x128.Idx) : F .f32 :=
  Pure.acc32 (fun p => fw (ValueIdx.ix1 (⟨(j 0).val * 32 + p.val, by have h : (j 0).val < 256 := (j 0).isLt; have := p.isLt; show _ < 8192; omega⟩ : Fin 8192)))
    (fun p => fb (ValueIdx.ix2 (⟨((j 0).val % 4) * 32 + p.val, by have := p.isLt; show _ < 128; omega⟩ : Fin 128) (j 1)))
    (fo j)

/-- The output scratch after the first `k` items of chunk `c` (rows `4 c, …, 4 c + k - 1`). -/
def outAfter (fw : S8192.Idx → F .f32) (fb : S128x128.Idx → F .f32) (fo : S256x128.Idx → F .f32) (c k : ℕ) : S256x128.Idx → F .f32 :=
  fun j => if (j 0).val / 4 = c ∧ (j 0).val % 4 < k then itemVal fw fb fo j else fo j

theorem outAfter_zero (fw : S8192.Idx → F .f32) (fb : S128x128.Idx → F .f32) (fo : S256x128.Idx → F .f32) (c : ℕ) :
    outAfter fw fb fo c 0 = fo := by
  funext j; simp [outAfter]

end Cert.Proof.KI

end
-- ==== Proof.KISplit.lean ====
/-
  The four arrays the SparseCores work on, dealt among the thirty-two vector subcores and collected again.
  Subcore `(c, s)` is worker `2 s + c`; the workers' slabs of the indices and of the weights, and their rows of
  the result, are pairwise disjoint and cover the arrays, and the table is read through thirty-two equal shares.
  Since every subcore leaves its rows of the result at one and the same whole-array function, the rows join at that
  function.
-/
import proofs.«203743_g50225347559739_cont_8to1c4_743_14_alg».proof.Proof.KITileDefs

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The subcores -/

/-- The grid coordinates of subcore `s` of SparseCore `c`. -/
abbrev LL (c : Fin 2) (s : Fin 16) : grid1.Coords := coordsV (Fin.cast bound_zero.symm c) (Fin.cast bound_one.symm s)

theorem wid_LL (c : Fin 2) (s : Fin 16) : wid (LL c s) = 2 * s.val + c.val := rfl

theorem LL_inj {t t' : Fin 2 × Fin 16} (h : wid (LL t.1 t.2) = wid (LL t'.1 t'.2)) : t = t' := by
  rw [wid_LL, wid_LL] at h
  have h1 := t.1.isLt; have h2 := t'.1.isLt
  exact Prod.ext (Fin.ext (by omega)) (Fin.ext (by omega))

/-! ## Slabs and rows: disjoint, covering -/

theorem ie_disjoint : ∀ t ∈ (Finset.univ : Finset (Fin 2 × Fin 16)), ∀ t' ∈ (Finset.univ : Finset (Fin 2 × Fin 16)), t ≠ t' →
    Disjoint (ieSet (LL t.1 t.2)) (ieSet (LL t'.1 t'.2)) :=
  fun _ _ _ _ hne => Finset.disjoint_left.mpr fun _ hj hj' => hne (LL_inj ((mem_ieSet.mp hj).symm.trans (mem_ieSet.mp hj')))
theorem aw_disjoint : ∀ t ∈ (Finset.univ : Finset (Fin 2 × Fin 16)), ∀ t' ∈ (Finset.univ : Finset (Fin 2 × Fin 16)), t ≠ t' →
    Disjoint (awSet (LL t.1 t.2)) (awSet (LL t'.1 t'.2)) :=
  fun _ _ _ _ hne => Finset.disjoint_left.mpr fun _ hj hj' => hne (LL_inj ((mem_awSet.mp hj).symm.trans (mem_awSet.mp hj')))
theorem res_disjoint : ∀ t ∈ (Finset.univ : Finset (Fin 2 × Fin 16)), ∀ t' ∈ (Finset.univ : Finset (Fin 2 × Fin 16)), t ≠ t' →
    Disjoint (resSet (LL t.1 t.2)) (resSet (LL t'.1 t'.2)) :=
  fun _ _ _ _ hne => Finset.disjoint_left.mpr fun _ hj hj' => hne (LL_inj ((mem_resSet.mp hj).symm.trans (mem_resSet.mp hj')))

theorem ie_cover : (Finset.univ : Finset (Fin 2 × Fin 16)).biUnion (fun t => ieSet (LL t.1 t.2)) = Finset.univ := by
  ext j
  simp only [Finset.mem_biUnion, Finset.mem_univ, true_and, iff_true]
  have hj : (j 0).val < 64 := (j 0).isLt
  refine ⟨(⟨((j 0).val / 2) % 2, by omega⟩, ⟨((j 0).val / 2) / 2, by omega⟩), mem_ieSet.mpr ?_⟩
  rw [wid_LL]; show (j 0).val / 2 = 2 * (((j 0).val / 2) / 2) + ((j 0).val / 2) % 2; omega
theorem aw_cover : (Finset.univ : Finset (Fin 2 × Fin 16)).biUnion (fun t => awSet (LL t.1 t.2)) = Finset.univ := by
  ext j
  simp only [Finset.mem_biUnion, Finset.mem_univ, true_and, iff_true]
  have hj : (j 0).val < 64 := (j 0).isLt
  refine ⟨(⟨((j 0).val / 2) % 2, by omega⟩, ⟨((j 0).val / 2) / 2, by omega⟩), mem_awSet.mpr ?_⟩
  rw [wid_LL]; show (j 0).val / 2 = 2 * (((j 0).val / 2) / 2) + ((j 0).val / 2) % 2; omega
theorem res_cover : (Finset.univ : Finset (Fin 2 × Fin 16)).biUnion (fun t => resSet (LL t.1 t.2)) = Finset.univ := by
  ext j
  simp only [Finset.mem_biUnion, Finset.mem_univ, true_and, iff_true]
  have hj : (j 0).val < 16384 := (j 0).isLt
  refine ⟨(⟨((j 0).val / 512) % 2, by omega⟩, ⟨((j 0).val / 512) / 2, by omega⟩), mem_resSet.mpr ?_⟩
  rw [wid_LL]; show (j 0).val / 512 = 2 * (((j 0).val / 512) / 2) + ((j 0).val / 512) % 2; omega

theorem ie_rows (d : Dev nD) (f : Buf (Elt F) (ieLoc d)) :
    (ieLoc d ↦{fullShare} f : sProp 𝕄) = bigSep Finset.univ fun t : Fin 2 × Fin 16 => ieLoc d ↦[ieSet (LL t.1 t.2)]{fullShare} f := by
  rw [← pointsTo_biUnion Finset.univ (ℓ := ieLoc d) (fun t : Fin 2 × Fin 16 => ieSet (LL t.1 t.2)) ie_disjoint, ie_cover]
theorem aw_rows (d : Dev nD) (f : Buf (Elt F) (awLoc d)) :
    (awLoc d ↦{fullShare} f : sProp 𝕄) = bigSep Finset.univ fun t : Fin 2 × Fin 16 => awLoc d ↦[awSet (LL t.1 t.2)]{fullShare} f := by
  rw [← pointsTo_biUnion Finset.univ (ℓ := awLoc d) (fun t : Fin 2 × Fin 16 => awSet (LL t.1 t.2)) aw_disjoint, aw_cover]
theorem res_rows (d : Dev nD) (f : Buf (Elt F) (resLoc d)) :
    (resLoc d ↦{fullShare} f : sProp 𝕄) = bigSep Finset.univ fun t : Fin 2 × Fin 16 => resLoc d ↦[resSet (LL t.1 t.2)]{fullShare} f := by
  rw [← pointsTo_biUnion Finset.univ (ℓ := resLoc d) (fun t : Fin 2 × Fin 16 => resSet (LL t.1 t.2)) res_disjoint, res_cover]

/-! ## The table's shares -/

/-- The two halves of the leaves of depth `n + 1`. -/
def sumEquiv (n : ℕ) : Fin (2 ^ n) ⊕ Fin (2 ^ n) ≃ Fin (2 ^ (n + 1)) := finSumFinEquiv.trans (finCongr (by omega))

theorem sumEquiv_inl (n : ℕ) (i : Fin (2 ^ n)) : (sumEquiv n (Sum.inl i)).val = i.val := by simp [sumEquiv]
theorem sumEquiv_inr (n : ℕ) (i : Fin (2 ^ n)) : (sumEquiv n (Sum.inr i)).val = 2 ^ n + i.val := by simp [sumEquiv]; omega

theorem leaf_inl (n : ℕ) (q : PosShare TreeShare) (i : Fin (2 ^ n)) : leaf (n + 1) q (sumEquiv n (Sum.inl i)) = leaf n q.left i := by
  have h : (sumEquiv n (Sum.inl i)).val < 2 ^ n := by rw [sumEquiv_inl]; exact i.isLt
  have e : (⟨(sumEquiv n (Sum.inl i)).val, h⟩ : Fin (2 ^ n)) = i := Fin.ext (sumEquiv_inl n i)
  rw [leaf, dif_pos h, e]
theorem leaf_inr (n : ℕ) (q : PosShare TreeShare) (i : Fin (2 ^ n)) : leaf (n + 1) q (sumEquiv n (Sum.inr i)) = leaf n q.right i := by
  have h : ¬(sumEquiv n (Sum.inr i)).val < 2 ^ n := by rw [sumEquiv_inr]; omega
  have e : (⟨(sumEquiv n (Sum.inr i)).val - 2 ^ n, by have := (sumEquiv n (Sum.inr i)).isLt; omega⟩ : Fin (2 ^ n)) = i :=
    Fin.ext (by simp only [sumEquiv_inr]; omega)
  rw [leaf, dif_neg h, e]

/-- A points-to at a share is its leaves' at once. -/
theorem pointsTo_leaves {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (sumEquiv n) (fun i : Fin (2 ^ (n + 1)) => (ℓ ↦[I]{leaf (n + 1) q i} f : sProp 𝕄)), bigSep_univ_sum]
    congr 1 <;> refine bigSep_congr fun i _ => ?_
    · rw [leaf_inl]
    · rw [leaf_inr]

/-- Subcore `(c, s)` holds leaf `16 c + s`. -/
def tileEquiv : Fin 2 × Fin 16 ≃ Fin (2 ^ 5) := finProdFinEquiv.trans (finCongr (by norm_num))

theorem tileEquiv_val (t : Fin 2 × Fin 16) : (tileEquiv t).val = 16 * t.1.val + t.2.val := by
  simp [tileEquiv, finProdFinEquiv]; omega

theorem embq_LL (t : Fin 2 × Fin 16) : embq (LL t.1 t.2) = leaf 5 fullShare (tileEquiv t) := by
  unfold embq
  exact congrArg (leaf 5 fullShare) (Fin.ext (tileEquiv_val t).symm)

theorem emb_shares (d : Dev nD) (f : Buf (Elt F) (embLoc d)) :
    (embLoc d ↦{fullShare} f : sProp 𝕄) = bigSep Finset.univ fun t : Fin 2 × Fin 16 => embLoc d ↦{embq (LL t.1 t.2)} f := by
  rw [pointsTo_leaves Finset.univ f 5 fullShare,
    bigSep_univ_equiv tileEquiv (fun i : Fin (2 ^ 5) => (embLoc d ↦{leaf 5 fullShare i} f : sProp 𝕄))]
  exact bigSep_congr fun t _ => by rw [embq_LL]

variable [FloatOps F]

/-! ## The deal -/

/-- The four arrays whole are what the thirty-two subcores take. -/
theorem arrays_split (d : Dev nD) (ie : Buf (Elt F) (ieLoc d)) (aw : Buf (Elt F) (awLoc d)) (emb : Buf (Elt F) (embLoc d)) (fo : Buf (Elt F) (resLoc d)) :
    (iprop((ieLoc d ↦{fullShare} ie) ∗ (awLoc d ↦{fullShare} aw) ∗ (embLoc d ↦{fullShare} emb) ∗ (resLoc d ↦{fullShare} fo)) : sProp 𝕄)
      = bigSep Finset.univ fun c : Fin 2 => bigSep Finset.univ fun s : Fin 16 => tilePre d (LL c s) ie aw emb fo := by
  rw [← bigSep_univ_prod (fun t : Fin 2 × Fin 16 => tilePre d (LL t.1 t.2) ie aw emb fo)]
  unfold tilePre
  rw [bigSep_sep', bigSep_sep', bigSep_sep', ← ie_rows, ← aw_rows, ← emb_shares, ← res_rows]

/-- What a subcore gives back is what it would take with its rows of the result at the accumulations. -/
theorem tilePost_eq (d : Dev nD) (L : grid1.Coords) (ie : Buf (Elt F) (ieLoc d)) (aw : Buf (Elt F) (awLoc d)) (emb : Buf (Elt F) (embLoc d)) :
    tilePost d L ie aw emb = tilePre d L ie aw emb (Pure.Gk (F := F) ie aw emb : Buf (Elt F) (resLoc d)) := rfl

/-- What the thirty-two subcores give back is the four arrays whole, the result at the accumulations. -/
theorem arrays_join (d : Dev nD) (ie : Buf (Elt F) (ieLoc d)) (aw : Buf (Elt F) (awLoc d)) (emb : Buf (Elt F) (embLoc d)) :
    (bigSep Finset.univ fun c : Fin 2 => bigSep Finset.univ fun s : Fin 16 => tilePost d (LL c s) ie aw emb)
      = (iprop((ieLoc d ↦{fullShare} ie) ∗ (awLoc d ↦{fullShare} aw) ∗ (embLoc d ↦{fullShare} emb)
          ∗ (resLoc d ↦{fullShare} (Pure.Gk (F := F) ie aw emb : Buf (Elt F) (resLoc d)))) : sProp 𝕄) := by
  simp only [tilePost_eq]
  exact (arrays_split d ie aw emb _).symm

end Cert.Proof.KI

end
-- ==== Proof.KISoft.lean ====
/-
  The row-wise softmax that the first kernel region computes, as one function of the whole logits array.

  The region walks the 16384 rows in 8 blocks of 2048 rows.  On one block it takes, row by row, the maximum,
  subtracts it, exponentiates, sums the row and divides: `smPay`.  Row `n` of the array lies in block `n / 2048`
  at row `n % 2048`, so the whole result is `smF x n p = smPay (block (n / 2048) of x) (n % 2048) p`.
  Everything here is generic in the float operations.
-/
import Idealize.ShloMosaic.PureOps.Ideal
import Idealize.ShloMosaic.Lib.ValueIdx

noncomputable section

namespace Cert.Proof.KI

open Idealize.ShloMosaic Idealize.ShloMosaic.ValueIdx

/-- The shapes: the whole array, one block, a block's rows, and the rows as a column. -/
abbrev SmAll : Shape := ⟨2, ![16384, 32]⟩
abbrev SmBlk : Shape := ⟨2, ![2048, 32]⟩
abbrev SmRow : Shape := ⟨1, ![2048]⟩
abbrev SmCol : Shape := ⟨2, ![2048, 1]⟩

theorem smReduces : SmBlk.Reduces [1] SmRow := by decide
theorem smCasts : SmRow.ShapeCasts SmCol := by decide
theorem smBroadcasts : SmCol.Broadcasts SmBlk := by decide

variable {F : FTy → Type} [FloatOps F]

/-- The softmax of one block of 2048 rows: each row's maximum (from the bit pattern of `-∞`) is subtracted, the
    differences exponentiated, and each exponential divided by its row's sum (from the bit pattern of `0`). -/
def smPay (v0 : Vec F SmBlk .f32) : FVec F SmBlk .f32 :=
  have v1 : FVec F SmRow .f32 := multiReduction .maximumf [1] SmRow v0 0xFF800000#32 smReduces (.inl rfl) rfl
  have v2 : FVec F SmCol .f32 := shapeCast SmCol v1 smCasts
  have v3 : FVec F SmBlk .f32 := broadcastTo SmBlk v2 smBroadcasts
  have v4 : FVec F SmBlk .f32 := subf v0 v3
  have v5 : FVec F SmBlk .f32 := exp v4
  have v6 : FVec F SmRow .f32 := multiReduction .add [1] SmRow v5 0x00000000#32 smReduces (.inl rfl) rfl
  have v7 : FVec F SmCol .f32 := shapeCast SmCol v6 smCasts
  have v8 : FVec F SmBlk .f32 := broadcastTo SmBlk v7 smBroadcasts
  have v9 : FVec F SmBlk .f32 := divf v5 v8
  v9

/-- Block `b` of the array: rows `2048 * b` to `2048 * b + 2047`. -/
def smBlock (x : FVec F SmAll .f32) (b : Fin 8) : Vec F SmBlk .f32 :=
  fun j => x (ix2 (n0 := 16384) (n1 := 32) ⟨2048 * b.val + (j 0).val, by have h : (j 0).val < 2048 := (j 0).isLt; have := b.isLt; show _ < 16384; omega⟩ (j 1))

/-- The whole result: row `n` is row `n % 2048` of the softmax of block `n / 2048`. -/
def smF (x : FVec F SmAll .f32) : FVec F SmAll .f32 :=
  fun i => smPay (smBlock x ⟨(i 0).val / 2048, by have h : (i 0).val < 16384 := (i 0).isLt; show _ < 8; omega⟩)
    (ix2 (n0 := 2048) (n1 := 32) ⟨(i 0).val % 2048, Nat.mod_lt _ (by decide)⟩ (i 1))

end Cert.Proof.KI

end
-- ==== Proof.KIPay.lean ====
/-
  What the launch handshakes carry.  When the TensorCore starts the SparseCores the indices lie reshaped in
  64 slabs, the softmax weights reshaped likewise, the table is as the program found it and the result array holds
  anything.  Each SparseCore is handed what its sixteen subcores take; each subcore brings back its part with its
  rows of the result at the items' accumulations.
-/
import proofs.«203743_g50225347559739_cont_8to1c4_743_14_alg».proof.Proof.KISplit
import proofs.«203743_g50225347559739_cont_8to1c4_743_14_alg».proof.Proof.KISoft

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (m : (ℓ : Loc nD τ sig) → Buf (Elt F) ℓ)

/-! ## The arrays' contents at the SparseCore call -/

/-- The indices, reshaped into 64 slabs of 64 chunks of 128. -/
abbrev ieC (d : Dev nD) : Buf (Elt F) (ieLoc d) :=
  (shapeCast S64x64x128 (m ((T d : Thread nD τ).loc main_arg0)) shapeCasts_S16384x32_S64x64x128 : Vec F S64x64x128 .i32)
/-- The softmax weights, reshaped into 64 slabs of 8192. -/
abbrev awC (d : Dev nD) : Buf (Elt F) (awLoc d) :=
  (shapeCast S64x8192 (smF (m ((T d : Thread nD τ).loc main_arg2))) shapeCasts_S16384x32_S64x8192 : Vec F S64x8192 .f32)
/-- The table. -/
abbrev embC (d : Dev nD) : Buf (Elt F) (embLoc d) := m (embLoc d)

/-- What the proof asks of the launch memory: every index word names a row of the table. -/
def PreOK : Prop := ∀ (d : Dev nD) i, (m ((T d : Thread nD τ).loc main_arg0) i).toNat ≤ 100000

theorem idxOK_of_pre (hpre : PreOK m) (d : Dev nD) : IdxOK (ieC m d) := by
  intro j
  show (shapeCast S64x64x128 (m ((T d : Thread nD τ).loc main_arg0)) shapeCasts_S16384x32_S64x64x128 j).toNat ≤ 100000
  unfold shapeCast
  exact hpre d _

/-! ## The record -/

instance tilePre_storable (d : Dev nD) (L : grid1.Coords) (ie : Buf (Elt F) (ieLoc d)) (aw : Buf (Elt F) (awLoc d)) (emb : Buf (Elt F) (embLoc d)) (fo : Buf (Elt F) (resLoc d)) :
    BI.Storable (upEmb : UEmb _ 𝕄) (tilePre d L ie aw emb fo) := by unfold tilePre; infer_instance
instance tilePost_storable (d : Dev nD) (L : grid1.Coords) (ie : Buf (Elt F) (ieLoc d)) (aw : Buf (Elt F) (awLoc d)) (emb : Buf (Elt F) (embLoc d)) :
    BI.Storable (upEmb : UEmb _ 𝕄) (tilePost d L ie aw emb) := by unfold tilePost; infer_instance

/-- The subcore `i` of SparseCore `c` of the call, as grid coordinates. -/
abbrev Lci (c : Fin ((K (F := F)).nCore 0)) (i : Fin ((K (F := F)).nSub 0)) : grid1.Coords := LL (Fin.cast nCore_zero c) (Fin.cast nSub_zero i)

def P : (K (F := F)).Pay (nD := nD) (Val := Elt F) (Name := ℕ) (U := UU) where
  st := fun q d c => match q with
    | 0 => iprop(∃ fo, bigSep Finset.univ fun i : Fin ((K (F := F)).nSub 0) => tilePre d (Lci c i) (ieC m d) (awC m d) (embC m d) fo)
  dn := fun q d c => match q with
    | 0 => bigSep Finset.univ fun i : Fin ((K (F := F)).nSub 0) => tilePost d (Lci c i) (ieC m d) (awC m d) (embC m d)
  go := fun q d c i => match q with
    | 0 => iprop(∃ fo, tilePre d (Lci c i) (ieC m d) (awC m d) (embC m d) fo)
  td := fun q d c i => match q with
    | 0 => tilePost d (Lci c i) (ieC m d) (awC m d) (embC m d)
  x := fun _ _ => iprop(emp)

instance P_storable : (P (F := F) m).IsStorable where
  st q d c := match q with
    | 0 => (inferInstance : BI.Storable (upEmb : UEmb _ 𝕄)
      iprop(∃ fo, bigSep Finset.univ fun i : Fin ((K (F := F)).nSub 0) => tilePre d (Lci c i) (ieC m d) (awC m d) (embC m d) fo))
  dn q d c := match q with
    | 0 => (inferInstance : BI.Storable (upEmb : UEmb _ 𝕄)
      (bigSep Finset.univ fun i : Fin ((K (F := F)).nSub 0) => tilePost d (Lci c i) (ieC m d) (awC m d) (embC m d)))
  go q d c i := match q with
    | 0 => (inferInstance : BI.Storable (upEmb : UEmb _ 𝕄) iprop(∃ fo, tilePre d (Lci c i) (ieC m d) (awC m d) (embC m d) fo))
  td q d c i := match q with
    | 0 => (inferInstance : BI.Storable (upEmb : UEmb _ 𝕄) (tilePost d (Lci c i) (ieC m d) (awC m d) (embC m d)))

/-! ## A SparseCore's operands among its subcores -/

theorem pre_to_go (d : Dev nD) (c : Fin ((K (F := F)).nCore 0)) (fo : Buf (Elt F) (resLoc d)) :
    (bigSep Finset.univ fun i : Fin ((K (F := F)).nSub 0) => tilePre d (Lci c i) (ieC m d) (awC m d) (embC m d) fo)
      ⊢ bigSep Finset.univ fun i : Fin ((K (F := F)).nSub 0) => iprop(∃ fo, tilePre d (Lci c i) (ieC m d) (awC m d) (embC m d) fo) :=
  bigSep_mono fun i _ => by
    show tilePre d (Lci c i) (ieC m d) (awC m d) (embC m d) fo ⊢ iprop(∃ fo, tilePre d (Lci c i) (ieC m d) (awC m d) (embC m d) fo)
    iintro H; iexists fo; iexact H

theorem vecSplit : (K (F := F)).VecSplit' (P m) 0 := by
  intro d c
  show iprop(∃ fo, bigSep Finset.univ fun i : Fin ((K (F := F)).nSub 0) => tilePre d (Lci c i) (ieC m d) (awC m d) (embC m d) fo)
    ⊢ |={Set.univ}=> iprop((bigSep Finset.univ fun i : Fin ((K (F := F)).nSub 0) => iprop(∃ fo, tilePre d (Lci c i) (ieC m d) (awC m d) (embC m d) fo))
      ∗ ((bigSep Finset.univ fun i : Fin ((K (F := F)).nSub 0) => tilePost d (Lci c i) (ieC m d) (awC m d) (embC m d))
          -∗ bigSep Finset.univ fun i : Fin ((K (F := F)).nSub 0) => tilePost d (Lci c i) (ieC m d) (awC m d) (embC m d)))
  iintro ⟨%fo, H⟩
  imodintro
  isplitl [H]
  · iapply (pre_to_go m d c fo); iexact H
  · iintro H; iexact H

end Cert.Proof.KI

end
-- ==== Proof.KISoftDat.lean ====
/-
  The proof data of the softmax region's pipeline on one TensorCore, and its body obligation.

  The pipeline walks 8 grid points; at point `t` the input window holds block `t` of the logits (rows
  `2048 t … 2048 t + 2047`), the body loads it, computes the block softmax `smPay`, and stores it over the whole
  output buffer, which the pipeline writes back as block `t` of the result.  While the region runs the core owes
  what it owed at its entry: the start signals of the call that follows.
-/
import proofs.«203743_g50225347559739_cont_8to1c4_743_14_alg».proof.Proof.KICommon
import proofs.«203743_g50225347559739_cont_8to1c4_743_14_alg».proof.Proof.KISoft
import proofs.«203743_g50225347559739_cont_8to1c4_743_14_alg».proof.Proof.Gen.KernelIdeal.Launch
import proofs.«203743_g50225347559739_cont_8to1c4_743_14_alg».proof.Proof.Gen.KernelIdeal.Points
import Idealize.ShloMosaic.Lib.Pipeline.FrameBody
import Idealize.ShloMosaic.Lib.Ring

set_option maxRecDepth 16384

noncomputable section

namespace Cert.Proof.KI.Soft

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F]

local notation "𝕄" => MT nD τ sig (HIx 1) (Elt F) ℕ UU ℕ

variable (m : (ℓ : Loc nD τ sig) → Buf (Elt F) ℓ)

/-! ## The input window's block, and what the body leaves in the output window's buffer -/

/-- The input window's block at point `t`, read off the logits as launched. -/
def iblk (c : Dev nD) (t : Fin cfg0.N) : ((cfg0.win 0).xblock (cfg0.grid.coords t)).Idx → Elt F (cfg0.win 0).elt :=
  ((cfg0.win 0).blk t).view.read (Elt F) (m ((c : Thread nD τ).loc main_arg2))

/-- The one rectangle the body loads and stores through: the whole buffer. -/
abbrev r0 : Rect S2048x32 := Rect.unit (s := S2048x32) ![0, 0] S2048x32.size inb_S2048x32_S2048x32_0_0

/-- The output buffer after the body: its one store, of the block softmax of what was loaded. -/
def out1 (x0 : Vec F S2048x32 .f32) : Vec F S2048x32 .f32 :=
  View.canon [⟨r0, smPay (View.ld x0 r0)⟩]

theorem cover1 (p0 : Vec F S2048x32 .f32) (y : S2048x32.Idx) :
    ∃ pc ∈ ([⟨r0, p0⟩] : List (View.Piece (Elt F) S2048x32 .f32)), y ∈ pc.1.set :=
  View.cover_of_tiled [⟨r0, p0⟩] S2048x32.size (by rfl) y

/-! ## The body's triple -/

/-- The printed body is two loads and a store of the block softmax of the first. -/
theorem body_eq (i : grid0.Coords) (arg1 : Memref sig .tc .vmem S2048x32 .f32) (harg1 : arg1.IsWhole) (arg2 : Memref sig .tc .vmem S2048x32 .f32) (harg2 : arg2.IsWhole) :
    cc0__softmax_body (F := F) i arg1 harg1 arg2 harg2 = (do
      let v0 : Vec F S2048x32 .f32 ← Prog.lift (.load arg1 (Rect.unit (s := S2048x32) ![0, 0] S2048x32.size inb_S2048x32_S2048x32_0_0).toLoadRect (View.loadsAt_vmem h_S2048x32))
      let v10 : Vec F S2048x32 .f32 ← Prog.lift (.load arg2 (Rect.unit (s := S2048x32) ![0, 0] S2048x32.size inb_S2048x32_S2048x32_0_0).toLoadRect (View.loadsAt_vmem h_S2048x32))
      Prog.lift (.store arg2 (Rect.unit (s := S2048x32) ![0, 0] S2048x32.size inb_S2048x32_S2048x32_0_0) (smPay v0) Finset.univ (View.stores_vmem_bits_univ h_S2048x32 rfl) (.inl rfl))
      pure ⟨⟩) := rfl

set_option maxHeartbeats 1000000 in
/-- The body on whole staging memrefs, the input's at contents `x0` and the output's at anything, runs to the
    continuation holding the input's as it was and the output's at `out1 x0`. -/
theorem sound_kernel (c : Dev nD) (E : Set ℕ) (i : grid0.Coords) (arg1 : Memref sig .tc .vmem S2048x32 .f32) (harg1 : arg1.IsWhole) (arg2 : Memref sig .tc .vmem S2048x32 .f32) (harg2 : arg2.IsWhole)
    (x0 : Vec F S2048x32 .f32) (Kk : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1 x0)) -∗ Kk ⟨⟩))
      ⊢ wp frame (wpE (defs₀ (F := F)) Variants.none c none) E (cc0__softmax_body i arg1 harg1 arg2 harg2) Kk := by
  rw [body_eq]
  unfold owns
  iintro ⟨⟨%f0, %hf0, H0⟩, ⟨%d2, %f2, -, H2⟩, Hk⟩
  subst hf0
  sl_exec
  sl_step
  iapply Hk
  isplitl [H0]
  · iexists f0; isplitr; · ipureintro; rfl
    iexact H0
  iexists _; isplitr
  swap; · iexact H2
  ipureintro
  exact View.read_writes_eq_canon _ _ _ (cover1 _)

/-! ## The proof data -/

/-- The proof data of the pipeline on core `c`: the arrays as launched; after the body at point `t` the input's
    buffer at its block and the output's at `out1` of it; the invariant the scoped buffers no window stages; full
    shares; the core owes throughout what it owes before the first call, and every wait it has recorded sits at
    level zero. -/
def dats (_ : Fin 1) (c : Dev nD) : Dat τ (Elt F) (HIx 1) ℕ UU ℕ cfg0 c where
  A w := m ((c : Thread nD τ).loc (Pipeline.arrRef spec0 w))
  after w t := match w with
    | ⟨0, _⟩ => iblk m c t
    | ⟨1, _⟩ => out1 (iblk m c t)
  Φ _ := Pipeline.scopedRest spec0 c
  q _ := fullShare
  owed _ := (K (F := F)).Otc c 0
  recorded _ := {p | (K (F := F)).lev ((c : Thread nD τ), p.1) p.2 ≤ 0}

theorem A_eq (c : Dev nD) (w : Fin cfg0.W) : (dats m 0 c).A w = m ((c : Thread nD τ).loc (Pipeline.arrRef spec0 w)) := by
  dsimp only [dats]

theorem after0_0 (c : Dev nD) (t : Fin cfg0.N) : (dats m 0 c).after 0 t = iblk m c t := by dsimp only [dats]
theorem after0_1 (c : Dev nD) (t : Fin cfg0.N) : (dats m 0 c).after 1 t = out1 (iblk m c t) := by dsimp only [dats]

/-- The input's current staging buffer holds its block at every point. -/
theorem before0_0 (c : Dev nD) (t : Fin cfg0.N) (d) : (dats m 0 c).before 0 t d = iblk m c t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt none t.castSucc
    ∗ (∃ d, owns (c : Thread nD τ) (st0_0 t) fullShare ((dats m 0 c).before 0 t d))
    ∗ (∃ d, owns (c : Thread nD τ) (st0_1 t) fullShare ((dats m 0 c).before 1 t d)))

def bodyPost (c : Dev nD) (t : Fin cfg0.N) : sProp 𝕄 :=
  iprop((dats m 0 c).Φ t.succ ∗ (dats m 0 c).owesAt none t.succ
    ∗ owns (c : Thread nD τ) (st0_0 t) fullShare ((dats m 0 c).after 0 t)
    ∗ owns (c : Thread nD τ) (st0_1 t) fullShare ((dats m 0 c).after 1 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt none t.succ = (dats m 0 c).owesAt none t.castSucc from rfl,
    after0_0, after0_1]
  iintro ⟨HΦ, Ho, ⟨%d0, H0⟩, ⟨%d1, H1⟩⟩
  iapply (sound_kernel c Set.univ (grid0.coords t) _ _ _ _ (iblk m c t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation (c : Dev nD) : BodyObligation (dats (F := F) m 0 c) (defs₀ (F := F)) Variants.none none Set.univ := fun t => by
  rw [bigSep_W0, bigSep_W0]
  exact sound_body m c t

end Cert.Proof.KI.Soft

end
-- ==== Proof.KISoftFinal.lean ====
/-
  What the softmax region leaves in its two arrays: the logits untouched, and the result array at the row-wise
  softmax `smF` of the logits.

  Point `t` writes back the block softmax of block `t` of the logits as block `t` of the result; that is block
  `t` of `smF` (row `2048 t + r` lies in block `t` at row `r`); the eight blocks cover the array.
-/
import proofs.«203743_g50225347559739_cont_8to1c4_743_14_alg».proof.Proof.KISoftDat
import Idealize.ShloMosaic.Lib.Pipeline.Value

set_option maxRecDepth 16384

noncomputable section

namespace Cert.Proof.KI.Soft

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F]

local notation "𝕄" => MT nD τ sig (HIx 1) (Elt F) ℕ UU ℕ

variable (m : (ℓ : Loc nD τ sig) → Buf (Elt F) ℓ)

theorem hz : (![0, 0] : Fin 2 → Nat) = fun _ => 0 := funext fun a => by fin_cases a <;> rfl

/-- The body's store, the one piece covering the buffer, leaves the block softmax of the loaded block. -/
theorem out1_eq (x0 : Vec F S2048x32 .f32) : out1 x0 = smPay x0 := by
  unfold out1
  rw [View.canon_unit_zero hz]
  simp only [View.ld_unit_zero (S := S2048x32) hz]

/-- The index maps, decided over the grid: both windows are at block `(t, 0)` at point `t`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- The logits' array is never written. -/
theorem final0 (c : Dev nD) : (dats m 0 c).arrAt 0 cfg0.N = m ((c : Thread nD τ).loc main_arg2) :=
  ((dats m 0 c).arrAt_in 0 rfl _).trans (A_eq m c 0)

/-- What point `t` writes back is block `t` of `smF` of the logits. -/
theorem flushed1_eq (c : Dev nD) (t : Fin cfg0.N) :
    (dats m 0 c).flushed 1 t = ((cfg0.win 1).blk t).view.read (Elt F) (smF (m ((c : Thread nD τ).loc main_arg2)) : Vec F S16384x32 .f32) := by
  show (cfg0.win 1).cut (grid0.coords t) ((dats m 0 c).after 1 t) = _
  rw [after0_1, out1_eq]
  obtain ⟨e0, e1, e2, e3⟩ := idx_facts t
  have hN : grid0.N = 8 := N_0
  funext j
  show smPay (iblk m c t) j = smF (m ((c : Thread nD τ).loc main_arg2)) (((cfg0.win 1).blk t).view.emb j)
  have hj0 : (j 0).val < 2048 := (j 0).isLt
  have hj1 : (j 1).val < 32 := (j 1).isLt
  have ht : t.val < 8 := by have h : t.val < grid0.N := t.isLt; omega
  have h0 : ((((cfg0.win 1).blk t).view.emb j) 0).val = 2048 * t.val + (j 0).val := by
    show win0_1.index t (0 : Fin 2) * 2048 + 1 * (j 0).val = _; omega
  have h1 : ((((cfg0.win 1).blk t).view.emb j) 1).val = (j 1).val := by
    show win0_1.index t (1 : Fin 2) * 32 + 1 * (j 1).val = _; omega
  unfold smF
  have hb : (⟨((((cfg0.win 1).blk t).view.emb j) 0).val / 2048, by rw [h0]; show _ < 8; omega⟩ : Fin 8) = ⟨t.val, ht⟩ :=
    Fin.ext (by show ((((cfg0.win 1).blk t).view.emb j) 0).val / 2048 = t.val; rw [h0]; omega)
  have hr : (ValueIdx.ix2 (n0 := 2048) (n1 := 32) ⟨((((cfg0.win 1).blk t).view.emb j) 0).val % 2048, Nat.mod_lt _ (by decide)⟩ ((((cfg0.win 1).blk t).view.emb j) 1)) = j := by
    funext a
    match a with
    | ⟨0, _⟩ => exact Fin.ext (by show ((((cfg0.win 1).blk t).view.emb j) 0).val % 2048 = (j 0).val; rw [h0]; omega)
    | ⟨1, _⟩ => exact Fin.ext h1
  rw [hb, hr]
  congr 1
  funext i
  show m ((c : Thread nD τ).loc main_arg2) (((cfg0.win 0).blk t).view.emb i) = m ((c : Thread nD τ).loc main_arg2) _
  congr 1
  funext a
  have hi0 : (i 0).val < 2048 := (i 0).isLt
  match a with
  | ⟨0, _⟩ => exact Fin.ext (by show win0_0.index t (0 : Fin 2) * 2048 + 1 * (i 0).val = 2048 * t.val + (i 0).val; omega)
  | ⟨1, _⟩ => exact Fin.ext (by show win0_0.index t (1 : Fin 2) * 32 + 1 * (i 1).val = (i 1).val; omega)

/-- An index of the result array is in point `t`'s block iff each coordinate is in the block's range. -/
theorem mem_blk1 (t : Fin cfg0.N) (i : S16384x32.Idx) :
    i ∈ ((cfg0.win 1).blk t).view.set ↔ ∀ a : Fin 2, win0_1.index t a * S2048x32.size a ≤ (i a).val ∧ (i a).val < win0_1.index t a * S2048x32.size a + S2048x32.size a := by
  show i ∈ ((View.whole main_v1).slice (win0_1.rect t)).set ↔ _
  rw [View.set_slice_whole, Rect.mem_set_unit]
  exact Iff.rfl

/-- Every index of the result array is in some point's block. -/
theorem cover_all (i : S16384x32.Idx) : ∃ t : Fin cfg0.N, (cfg0.win 1).flush t = true ∧ i ∈ ((cfg0.win 1).blk t).view.set := by
  have hi0 : (i 0).val < 16384 := (i 0).isLt
  have hi1 : (i 1).val < 32 := (i 1).isLt
  have hN : grid0.N = 8 := N_0
  let t : Fin cfg0.N := ⟨(i 0).val / 2048, by show _ < grid0.N; omega⟩
  obtain ⟨e0, e1, e2, e3⟩ := idx_facts t
  have htv : t.val = (i 0).val / 2048 := rfl
  refine ⟨t, flush0_1 t, ?_⟩
  rw [mem_blk1]
  intro a
  match a with
  | ⟨0, _⟩ => show win0_1.index t (0 : Fin 2) * 2048 ≤ (i 0).val ∧ (i 0).val < win0_1.index t (0 : Fin 2) * 2048 + 2048; omega
  | ⟨1, _⟩ => show win0_1.index t (1 : Fin 2) * 32 ≤ (i 1).val ∧ (i 1).val < win0_1.index t (1 : Fin 2) * 32 + 32; omega

/-- The result array after the region: the row-wise softmax of the logits. -/
theorem final1 (c : Dev nD) : (dats m 0 c).arrAt 1 cfg0.N = (smF (m ((c : Thread nD τ).loc main_arg2)) : Vec F S16384x32 .f32) :=
  (dats m 0 c).arrAt_eq_of_cover 1 _ (fun t _ => flushed1_eq m c t) cover_all

end Cert.Proof.KI.Soft

end
-- ==== Proof.KISoftHead.lean ====
/-
  The head of @main on a TensorCore: the reshape of the index array, the softmax region, the reshape of its result.

  From what the launch deals the TensorCore — its handshake state before the first call, the region boundary, the seven
  arrays as launched — and the region's share of the ghost state (the staging cells' rounds and duty tokens), the three
  statements run to the same handshake state and the arrays at known contents: the arguments untouched, the
  index array recast, the softmax of the logits, and that recast.
-/
import proofs.«203743_g50225347559739_cont_8to1c4_743_14_alg».proof.Proof.KICommon
import proofs.«203743_g50225347559739_cont_8to1c4_743_14_alg».proof.Proof.KISoft
import proofs.«203743_g50225347559739_cont_8to1c4_743_14_alg».proof.Proof.Gen.KernelIdeal.Launch
import proofs.«203743_g50225347559739_cont_8to1c4_743_14_alg».proof.Proof.Gen.KernelIdeal.Points
import Idealize.ShloMosaic.Lib.Pipeline.Regions
import proofs.«203743_g50225347559739_cont_8to1c4_743_14_alg».proof.Proof.KISoftFinal

set_option maxRecDepth 16384

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F]

local notation "𝕄" => MT nD τ sig (HIx 1) (Elt F) ℕ UU ℕ

variable (m : (ℓ : Loc nD τ sig) → Buf (Elt F) ℓ) (g : Dev nD → PrngReg)
variable (P : (K (F := F)).Pay (nD := nD) (Val := Elt F) (Name := ℕ) (U := UU))
variable (lv : GSem nD τ sig → HIx 1 → ℕ)

open Soft

/-- The admissible prefetched tables: the pipeline has none. -/
abbrev adm : (p : Fin 1) → (pcfgs (F := F) p).Adm := fun p => (cfgs p).toPCfg_adm

namespace Soft

/-- At the one (empty) contents the pipelines are the program's own configurations. -/
theorem pin_eq : Pipeline.pin (pcfgs (F := F)) adm = cfgs := funext fun p => Pipeline.Cfg.toPCfg_at (cfgs p) _

/-! ## The arrays, one by one -/

/-- The TensorCore's unscoped buffers are the seven arrays of @main. -/
theorem unscopedBufs_eq (d : Dev nD) (W : (b : Ref sig .tc) → Buf (Elt F) ((d.tc : Thread nD τ).loc b)) :
    (unscopedBufs d W : sProp 𝕄) = iprop((((T d : Thread nD τ).loc main_arg0) ↦{fullShare} W main_arg0) ∗ (((T d : Thread nD τ).loc main_arg1) ↦{fullShare} W main_arg1)
      ∗ (((T d : Thread nD τ).loc main_arg2) ↦{fullShare} W main_arg2) ∗ (((T d : Thread nD τ).loc main_v0) ↦{fullShare} W main_v0)
      ∗ (((T d : Thread nD τ).loc main_v1) ↦{fullShare} W main_v1) ∗ (((T d : Thread nD τ).loc main_v2) ↦{fullShare} W main_v2)
      ∗ (((T d : Thread nD τ).loc main_v3) ↦{fullShare} W main_v3)) := by
  unfold unscopedBufs
  rw [show (Finset.univ.filter fun b : Ref sig .tc => ¬ b.isScoped) = {main_arg0, main_arg1, main_arg2, main_v0, main_v1, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The buffers a reshape touches, held: its operand and its result. -/
theorem held_reshape (d : Dev nD) (x y : Ref sig .tc) (hxy : x ≠ y) (he hn hx hy) (Vl : Valuation τ sig (Elt F)) :
    (StableHlo.held (T d : Thread nD τ) (StableHlo.reshape (τ := τ) (Val := Elt F) x y he hn hx hy).bufs Vl : sProp 𝕄)
      = iprop(((d, Proc.devRef .tc x) ↦{fullShare} Vl (Proc.devRef .tc x)) ∗ ((d, Proc.devRef .tc y) ↦{fullShare} Vl (Proc.devRef .tc y))) := by
  unfold StableHlo.held
  rw [StableHlo.reshape_bufs, SparseCore.bigSep_insert' (by rw [Finset.mem_singleton]; exact StableHlo.devRef_ne_of_ne hxy), bigSep_singleton]

/-! ## What the core owes through the head -/

/-- The TensorCore owes nothing at the index of a kernel's own waits. -/
theorem Otc_none (d : Dev nD) (n : ℕ) (gs : GSem nD τ sig) : (K (F := F)).Otc d n gs none = 0 := by
  by_contra h
  have := SparseCore.Cfg.lev_of_Otc_pos (K := K (F := F)) (Nat.pos_of_ne_zero h)
  rw [SparseCore.Cfg.lev_none] at this; omega

/-- What the TensorCore owes before the first call, its recorded waits at level zero. -/
def owesTc (d : Dev nD) : sProp 𝕄 :=
  iprop(∃ W, ⌜(K (F := F)).WBelow (T d) W (8 * 0)⌝ ∗ owes (T d) ((K (F := F)).Otc d 0) W)

/-! ## The region -/

theorem share_full (c : Dev nD) (w : Fin cfg0.W) : (dats m 0 c).share w = fullShare :=
  (dats m 0 c).share_full (fun _ => rfl) w

/-- What the region is entered holding: the logits' and the result's arrays as launched, and what the core owes; -/
def regPre (c : Dev nD) : sProp 𝕄 :=
  iprop((((T c : Thread nD τ).loc main_arg2) ↦{fullShare} m ((T c : Thread nD τ).loc main_arg2))
    ∗ (((T c : Thread nD τ).loc main_v1) ↦{fullShare} m ((T c : Thread nD τ).loc main_v1)) ∗ owesTc c)
/-- and left holding: the result at the softmax of the logits. -/
def regPost (c : Dev nD) : sProp 𝕄 :=
  iprop((((T c : Thread nD τ).loc main_arg2) ↦{fullShare} m ((T c : Thread nD τ).loc main_arg2))
    ∗ (((T c : Thread nD τ).loc main_v1) ↦{fullShare} (smF (m ((T c : Thread nD τ).loc main_arg2)) : Vec F S16384x32 .f32)) ∗ owesTc c)

/-- The region of the softmax pipeline as the library's region rule takes it: no semaphore of the kernel's own, the
    body obligation, the waits on the staging cells at level zero below everything the core owes; entered holding the
    logits' and the result's arrays as launched, left with the result at the softmax. -/
def reg (hlv : (K (F := F)).Refines lv) :
    Pipeline.RegionSeg (pcfgs (F := F)) adm (dats m) none defs₀ 𝒱₀ (K (F := F)).L lv 0 where
  win := launch0.win.to₀
  block_pos := launch0.block_pos
  stage_whole := launch0.stage_whole
  K := Fin 0
  osem := fun k => k.elim0
  ho := ⟨fun k => k.elim0, fun k => k.elim0, fun k => k.elim0⟩
  hbody c := (body_obligation m c).loose
  hwaits c := Pipeline.cellsWaits_intro (Pipeline.pin (pcfgs (F := F)) adm) (dats m) none 0 c fun w s t =>
    (K (F := F)).mayWait_none (thr := (c : Thread nD τ)) _ (fun gs => Otc_none c 0 gs) lv hlv
  pre := regPre m
  post := regPost m
  X _ := iprop(emp)
  Y _ := iprop(emp)
  Z _ := iprop(emp)
  hentry c := by
    rw [Pipeline.arrays_eq (Pipeline.pin (pcfgs (F := F)) adm) (dats m) 0 c launch0.arr_whole (share_full m c), bigSep_W0]
    unfold regPre owesTc
    iintro ⟨⟨H2, Hv1, %W, %hW, HO⟩, -, -⟩
    imodintro
    isplitl [H2 Hv1]
    · isplitl [H2]; · iexact H2
      iexact Hv1
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitl <;> iempintro
  hin c := by
    rw [show (dats m 0 c).Φ 0 = Pipeline.scopedRest (Pipeline.pin (pcfgs (F := F)) adm 0).spec c from rfl]
    iintro ⟨-, -, Hr⟩
    iexact Hr
  hout c := by
    rw [show (dats m 0 c).Φ (Fin.last (Pipeline.pin (pcfgs (F := F)) adm 0).N) = Pipeline.scopedRest (Pipeline.pin (pcfgs (F := F)) adm 0).spec c from rfl]
    unfold Pipeline.ownSems0
    rw [show (Finset.univ : Finset (Fin 0)) = ∅ from rfl, BI.bigSep_empty]
    iintro Hr
    isplitr; · iempintro
    isplitr; · iempintro
    iexact Hr
  hexit c := by
    rw [Pipeline.arrays_eq (Pipeline.pin (pcfgs (F := F)) adm) (dats m) 0 c launch0.arr_whole (share_full m c), bigSep_W0]
    rw [show (dats m 0 c).arrAt 0 (Pipeline.pin (pcfgs (F := F)) adm 0).N = m ((c : Thread nD τ).loc main_arg2) from final0 m c,
      show (dats m 0 c).arrAt 1 (Pipeline.pin (pcfgs (F := F)) adm 0).N = (smF (m ((c : Thread nD τ).loc main_arg2)) : Vec F S16384x32 .f32) from final1 m c]
    unfold regPost owesTc Pipeline.Dat.owesAt Pipeline.owesWithin
    iintro ⟨⟨H2, Hv1⟩, ⟨%W, %hW, HO⟩, -, -⟩
    imodintro
    isplitl [H2]; · iexact H2
    isplitl [Hv1]; · iexact Hv1
    iexists W; isplitr
    · ipureintro
      intro p hp
      rcases hW hp with h | ⟨w, s, rfl⟩
      · exact h
      · exact le_of_eq rfl
    iexact HO

end Soft

/-! ## The region's share of the ghost state -/

/-- The region's share of the ghost state on device `d`: its staging cells' launch state and its duty tokens. -/
def GS (d : Dev nD) : sProp 𝕄 :=
  iprop(Pipeline.cellsGhost (Pipeline.pin (pcfgs (F := F)) adm) ER 0 d ∗ Pipeline.toksInit (Pipeline.pin (pcfgs (F := F)) adm) ER 0 d)

/-- The launch element's rounds component for the staging cells funds every device's share. -/
theorem fundGS :
    (BI.own ((ER : Emb UR 𝕄) (initOf (Pipeline.cells cfgs cellOf_inj) (Pipeline.launchToks cfgs cellOf_inj))) : sProp 𝕄)
      ⊢ iprop(|==> bigSep Finset.univ fun d : Dev nD => GS (F := F) d) := by
  refine (Pipeline.fund_ghost cfgs ER cellOf_inj).trans (BI.bupd_mono ?_)
  rw [← bigSep_sep']
  refine Entails.of_eq (bigSep_congr fun d _ => ?_)
  unfold GS
  rw [pin_eq, show (Finset.univ : Finset (Fin 1)) = {0} from rfl, bigSep_singleton, bigSep_singleton]

namespace Soft

/-! ## The region, entered from the TensorCore's program -/

/-- The operands of the two reshapes, as the host operations see them: every buffer as launched, -/
def V₀ (d : Dev nD) : Valuation τ sig (Elt F) := fun b => m (d, b)
/-- and the result array at the softmax. -/
def V₁ (d : Dev nD) : Valuation τ sig (Elt F) :=
  Function.update (V₀ m d) (Proc.devRef .tc main_v1) (smF (m ((T d : Thread nD τ).loc main_arg2)) : Vec F S16384x32 .f32)

/-- The region's call in the pipeline's own signature, -/
def callP : Prog (TpuEff nD τ sig (Elt F) (ΛP (F := F)) .tc) PUnit :=
  .op (.customCall (Pipeline.entry (0 : Fin 1)) ()) fun _ => .ret ⟨⟩
/-- and the TensorCore's statement as that call lifted. -/
theorem lift_callP : (Prog.lift (.customCall (SparseCore.inner (Pipeline.entry 0)) ()) : Prog (TpuEff nD τ sig (Elt F) (SparseCore.Sig (ΛP (F := F)) 1) .tc) PUnit)
    = SparseCore.liftProg (callP (F := F)) := rfl

theorem reg_pre (hlv : (K (F := F)).Refines lv) : (reg m lv hlv).pre = regPre m := rfl
theorem reg_post (hlv : (K (F := F)).Refines lv) : (reg m lv hlv).post = regPost m := rfl

set_option maxHeartbeats 1000000 in
set_option backward.isDefEq.respectTransparency.types false in
/-- The region's call under the pipeline's own body table: the library's region rule at our region. -/
theorem wp_callP (hlv : (K (F := F)).Refines lv) (d : Dev nD) (Q : PUnit → sProp 𝕄) :
    iprop(boundary (T d) ∗ regPre m d ∗ levAts (K (F := F)).L lv ∗ GS d
        ∗ (iprop(boundary (T d) ∗ regPost m d) -∗ Q ⟨⟩))
      ⊢ wp frame (wpE (D (F := F)) 𝒱 (T d) none) Set.univ (callP (F := F)) Q := by
  have h := Pipeline.RegionSeg.wp (pcfgs (F := F)) adm (dats m) none cellOf_inj ER defs₀ 𝒱₀ (K (F := F)).L lv (reg m lv hlv) d none
    (fun _ h => nomatch h) (fun _ => .ret ⟨⟩) Q
  rw [reg_pre, reg_post] at h
  unfold callP GS
  iintro ⟨Hb, Hpre, #Hlev, ⟨Hcg, Htk⟩, Hk⟩
  iapply h
  isplitl [Hk]
  · iintro H; rw [wp_ret]; imodintro; iapply Hk; iexact H
  isplitl [Hb]; · iexact Hb
  isplitl [Hpre]; · iexact Hpre
  isplitr; · iexact Hlev
  isplitl [Hcg]; · iexact Hcg
  iexact Htk

/-- The region's call in the TensorCore's program: from the boundary, the two arrays, what the core owes, the level
    facts and the region's ghost share, to the boundary and the arrays after the region. -/
theorem wp_region (hlv : (K (F := F)).Refines lv) (d : Dev nD) (Q : PUnit → sProp 𝕄) :
    iprop(boundary (T d) ∗ regPre m d ∗ levAts (K (F := F)).L lv ∗ GS d
        ∗ (iprop(boundary (T d) ∗ regPost m d) -∗ Q ⟨⟩))
      ⊢ wp frame (wpE ((K (F := F)).defs (D (F := F))) 𝒱 (T d) none) Set.univ
          (Prog.lift (.customCall (SparseCore.inner (Pipeline.entry 0)) ())) Q := by
  rw [lift_callP]
  exact (wp_callP m lv hlv d Q).trans ((K (F := F)).wp_liftProg (D (F := F)) 𝒱 (T d) Set.univ none (callP (F := F)) Q)

end Soft

/-! ## The head of @main -/

/-- What remains of the launch resources beside the seven arrays: the region boundary, the TensorCore's own
    semaphores at zero, the generator register. -/
def HeadRest (d : Dev nD) : sProp 𝕄 := iprop(boundary (T d) ∗ (K (F := F)).tcSems0 d ∗ prngReg d (g d))

/-- The arrays after the head: the arguments as launched, the index array recast, the softmax of the logits, and
    that recast; the result array at anything. -/
def HeadPost (d : Dev nD) : sProp 𝕄 :=
  iprop((((T d : Thread nD τ).loc main_arg0) ↦{fullShare} m ((T d : Thread nD τ).loc main_arg0))
    ∗ (((T d : Thread nD τ).loc main_arg1) ↦{fullShare} m ((T d : Thread nD τ).loc main_arg1))
    ∗ (((T d : Thread nD τ).loc main_arg2) ↦{fullShare} m ((T d : Thread nD τ).loc main_arg2))
    ∗ (((T d : Thread nD τ).loc main_v0) ↦{fullShare} (shapeCast S64x64x128 (m ((T d : Thread nD τ).loc main_arg0)) shapeCasts_S16384x32_S64x64x128 : Vec F S64x64x128 .i32))
    ∗ (((T d : Thread nD τ).loc main_v1) ↦{fullShare} (smF (m ((T d : Thread nD τ).loc main_arg2)) : Vec F S16384x32 .f32))
    ∗ (((T d : Thread nD τ).loc main_v2) ↦{fullShare} (shapeCast S64x8192 (smF (m ((T d : Thread nD τ).loc main_arg2)) : Vec F S16384x32 .f32) shapeCasts_S16384x32_S64x8192 : Vec F S64x8192 .f32))
    ∗ (∃ f, ((T d : Thread nD τ).loc main_v3) ↦{fullShare} f)
    ∗ HeadRest g d)

/-- The first three statements of @main. -/
def head : Prog (TpuEff nD τ sig (Elt F) (SparseCore.Sig (ΛP (F := F)) 1) .tc) PUnit := do
  hlo rfl (StableHlo.reshape main_arg0 main_v0 rfl shapeCasts_S16384x32_S64x64x128) (fun _ => .ret ⟨⟩)
  Prog.lift (.customCall (SparseCore.inner (Pipeline.entry 0)) ())
  hlo rfl (StableHlo.reshape main_v1 main_v2 rfl shapeCasts_S16384x32_S64x8192) (fun _ => .ret ⟨⟩)

/-- @main is its head, the call, and the return. -/
theorem main_eq (d : Dev nD) : main (F := F) d = (head (F := F) >>= fun _ => ((K (F := F)).run d 0 >>= fun _ => pure ⟨⟩)) := rfl

namespace Soft

/-- The two reshapes. -/
abbrev op1 : HloOp τ sig (Elt F) := StableHlo.reshape main_arg0 main_v0 rfl shapeCasts_S16384x32_S64x64x128
abbrev op2 : HloOp τ sig (Elt F) := StableHlo.reshape main_v1 main_v2 rfl shapeCasts_S16384x32_S64x8192

/-- What the first reshape holds before it runs, and after. -/
theorem held1_pre (d : Dev nD) : (StableHlo.held (T d : Thread nD τ) (op1 (F := F)).bufs (V₀ m d) : sProp 𝕄)
    = iprop((((T d : Thread nD τ).loc main_arg0) ↦{fullShare} m ((T d : Thread nD τ).loc main_arg0))
      ∗ (((T d : Thread nD τ).loc main_v0) ↦{fullShare} m ((T d : Thread nD τ).loc main_v0))) := by
  rw [held_reshape d main_arg0 main_v0 (by decide)]; rfl
theorem held1_post (d : Dev nD) : (StableHlo.held (T d : Thread nD τ) (op1 (F := F)).bufs ((op1 (F := F)).result (V₀ m d)) : sProp 𝕄)
    = iprop((((T d : Thread nD τ).loc main_arg0) ↦{fullShare} m ((T d : Thread nD τ).loc main_arg0))
      ∗ (((T d : Thread nD τ).loc main_v0) ↦{fullShare} (shapeCast S64x64x128 (m ((T d : Thread nD τ).loc main_arg0)) shapeCasts_S16384x32_S64x64x128 : Vec F S64x64x128 .i32))) := by
  rw [held_reshape d main_arg0 main_v0 (by decide), StableHlo.reshape_result_ne main_arg0 main_v0 _ _ _ _ _ (by decide), StableHlo.reshape_result]; rfl

/-- What the second holds before it runs, and after. -/
theorem held2_pre (d : Dev nD) : (StableHlo.held (T d : Thread nD τ) (op2 (F := F)).bufs (V₁ m d) : sProp 𝕄)
    = iprop((((T d : Thread nD τ).loc main_v1) ↦{fullShare} (smF (m ((T d : Thread nD τ).loc main_arg2)) : Vec F S16384x32 .f32))
      ∗ (((T d : Thread nD τ).loc main_v2) ↦{fullShare} m ((T d : Thread nD τ).loc main_v2))) := by
  rw [held_reshape d main_v1 main_v2 (by decide)]
  unfold V₁
  rw [Function.update_self, Function.update_of_ne (by decide)]; rfl
theorem held2_post (d : Dev nD) : (StableHlo.held (T d : Thread nD τ) (op2 (F := F)).bufs ((op2 (F := F)).result (V₁ m d)) : sProp 𝕄)
    = iprop((((T d : Thread nD τ).loc main_v1) ↦{fullShare} (smF (m ((T d : Thread nD τ).loc main_arg2)) : Vec F S16384x32 .f32))
      ∗ (((T d : Thread nD τ).loc main_v2) ↦{fullShare} (shapeCast S64x8192 (smF (m ((T d : Thread nD τ).loc main_arg2)) : Vec F S16384x32 .f32) shapeCasts_S16384x32_S64x8192 : Vec F S64x8192 .f32))) := by
  rw [held_reshape d main_v1 main_v2 (by decide), StableHlo.reshape_result_ne main_v1 main_v2 _ _ _ _ _ (by decide), StableHlo.reshape_result]
  unfold V₁
  rw [Function.update_self]; rfl

end Soft

set_option maxHeartbeats 1000000 in
/-- The head of @main, continuation-passing. -/
theorem wp_head (hlv : (K (F := F)).Refines lv) (κ : GSem nD τ sig → ℕ) (d : Dev nD) {α : Type}
    (k : PUnit → Prog (TpuEff nD τ sig (Elt F) (SparseCore.Sig (ΛP (F := F)) 1) .tc) α) (Φ : α → sProp 𝕄) :
    iprop((K (F := F)).ctx EH P κ lv ∗ (K (F := F)).tcSt EH d 0 ∗ (K (F := F)).tcRes m g d ∗ GS d
        ∗ (iprop((K (F := F)).tcSt EH d 0 ∗ HeadPost m g d) -∗ wp frame (wpE ((K (F := F)).defs (D (F := F))) 𝒱 (T d) none) Set.univ (k ⟨⟩) Φ))
      ⊢ wp frame (wpE ((K (F := F)).defs (D (F := F))) 𝒱 (T d) none) Set.univ (head (F := F) >>= k) Φ := by
  unfold SparseCore.Cfg.tcRes SparseCore.Cfg.tcSt
  rw [unscopedBufs_eq]
  iintro ⟨#Hctx, ⟨HO, Hrest⟩, ⟨Hb, ⟨H0, H1, H2, Hv0, Hv1, Hv2, Hv3⟩, Hsems, Hprng⟩, HG, Hk⟩
  ihave Hlev := (SparseCore.Cfg.ctx_levAts κ) $$ Hctx
  unfold head
  simp only [wp_bind]
  -- the index array recast
  iapply (StableHlo.wp_hlo_within 𝒱 (T d) none Set.univ (S := (op1 (F := F)).bufs) (V := V₀ m d) (Finset.Subset.refl _)) $$ [Hb H0 Hv0]
  · isplitl [Hb]; · iexact Hb
    rw [held1_pre]
    isplitl [H0]; · iexact H0
    iexact Hv0
  iintro ⟨Hb, Hh⟩
  rw [wp_ret]; imodintro
  ihave Hh' := (Entails.of_eq (held1_post m d)) $$ Hh
  icases Hh' with ⟨H0, Hv0⟩
  -- the region
  iapply (wp_region m lv hlv d _)
  isplitl [Hb]; · iexact Hb
  isplitl [H2 Hv1 HO]
  · unfold regPre
    isplitl [H2]; · iexact H2
    isplitl [Hv1]; · iexact Hv1
    unfold owesTc; iexact HO
  isplitr; · iexact Hlev
  isplitl [HG]; · iexact HG
  unfold regPost
  iintro ⟨Hb, H2, Hv1, HO⟩
  -- the result recast
  iapply (StableHlo.wp_hlo_within 𝒱 (T d) none Set.univ (S := (op2 (F := F)).bufs) (V := V₁ m d) (Finset.Subset.refl _)) $$ [Hb Hv1 Hv2]
  · isplitl [Hb]; · iexact Hb
    rw [held2_pre]
    isplitl [Hv1]; · iexact Hv1
    iexact Hv2
  iintro ⟨Hb, Hh⟩
  rw [wp_ret]; imodintro
  ihave Hh' := (Entails.of_eq (held2_post m d)) $$ Hh
  icases Hh' with ⟨Hv1, Hv2⟩
  iapply Hk
  isplitl [HO Hrest]
  · isplitl [HO]; · unfold owesTc; iexact HO
    iexact Hrest
  unfold HeadPost HeadRest
  isplitl [H0]; · iexact H0
  isplitl [H1]; · iexact H1
  isplitl [H2]; · iexact H2
  isplitl [Hv0]; · iexact Hv0
  isplitl [Hv1]; · iexact Hv1
  isplitl [Hv2]; · iexact Hv2
  isplitl [Hv3]; · iexists _; iexact Hv3
  isplitl [Hb]; · iexact Hb
  isplitl [Hsems]; · iexact Hsems
  iexact Hprng

end Cert.Proof.KI

end
-- ==== Proof.KITileInv.lean ====
/-
  The chunk loop of one half of a subcore's task: what the scratch buffers hold before trip `k`, with the gather
  of chunk `2 k` in flight on the first semaphore.

  Chunk `c` of the half is row `c` of the index scratch: 128 index words, four items of 32.  Gathering it
  writes table row `idx[c, i]` to buffer row `i`.  Before trip `k` the output scratch holds the finished rows
  `r < 8 k` — the row's own value plus its thirty-two weighted gathered rows — and the own values above.
-/
import proofs.«203743_g50225347559739_cont_8to1c4_743_14_alg».proof.Proof.KITileDefs

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx

/-! ## The chunks' index rows -/

theorem rowK_inb (c : ℕ) : ∀ a, (![c % 64, 0] : Fin 2 → ℕ) a + S1x128.size a ≤ S64x128.size a := by
  intro a
  match a with
  | 0 => show c % 64 + 1 ≤ 64; omega
  | 1 => show 0 + 128 ≤ 128; omega

/-- Row `c` of the index scratch, squeezed: the offset list of chunk `c`'s gather. -/
abbrev rowK (c : ℕ) : Memref sig .scVector .vmem S128 .i32 :=
  ((idxV).slice (Rect.unit (s := S64x128) ![c % 64, 0] S1x128.size (rowK_inb c)) (fun _ => rfl)).squeeze S128 squeezes_S1x128_S128

theorem rowK_of_off {off : Fin 2 → ℕ} (inb : ∀ a, off a + S1x128.size a ≤ S64x128.size a) (c : ℕ) (h : off = ![c % 64, 0]) :
    ((idxV).slice (Rect.unit (s := S64x128) off S1x128.size inb) (fun _ => rfl)).squeeze S128 squeezes_S1x128_S128 = rowK c := by
  subst h; rfl

/-- A row of the index scratch, squeezed, at the offsets the program computes. -/
abbrev rowO (off : Fin 2 → ℕ) (inb : ∀ a, off a + S1x128.size a ≤ S64x128.size a) : Memref sig .scVector .vmem S128 .i32 :=
  ((idxV).slice (Rect.unit (s := S64x128) off S1x128.size inb) (fun _ => rfl)).squeeze S128 squeezes_S1x128_S128

variable [FloatOps F]

/-! ## The buffers' contents -/

/-- The gathered buffer of chunk `c`: row `i` is the table row named by index word `i` of the chunk. -/
def gath (fidx : S64x128.Idx → BitVec 32) (emb : S100001x128.Idx → F .f32) (c : ℕ) : S128x128.Idx → F .f32 :=
  fun j => emb (ix2 (Pure.rowOf (fidx (ix2 (⟨c % 64, Nat.mod_lt _ (by decide)⟩ : Fin 64) (j 0)))) (j 1))

/-- A finished row of the output scratch. -/
def doneVal (fw : S8192.Idx → F .f32) (fidx : S64x128.Idx → BitVec 32) (emb : S100001x128.Idx → F .f32)
    (fown : S256x128.Idx → F .f32) (j : S256x128.Idx) : F .f32 :=
  Pure.acc32 (fun p => fw (ix1 (⟨(j 0).val * 32 + p.val, by have h : (j 0).val < 256 := (j 0).isLt; have := p.isLt; show _ < 8192; omega⟩ : Fin 8192)))
    (fun p => emb (ix2 (Pure.rowOf (fidx (ix2 (⟨(j 0).val / 4, by have h : (j 0).val < 256 := (j 0).isLt; omega⟩ : Fin 64)
      (⟨((j 0).val % 4) * 32 + p.val, by have := p.isLt; omega⟩ : Fin 128)))) (j 1)))
    (fown j)

/-- The output scratch with rows below `n` finished. -/
def outDone (fw : S8192.Idx → F .f32) (fidx : S64x128.Idx → BitVec 32) (emb : S100001x128.Idx → F .f32)
    (fown : S256x128.Idx → F .f32) (n : ℕ) : S256x128.Idx → F .f32 :=
  fun j => if (j 0).val < n then doneVal fw fidx emb fown j else fown j

theorem outDone_zero (fw : S8192.Idx → F .f32) (fidx : S64x128.Idx → BitVec 32) (emb : S100001x128.Idx → F .f32)
    (fown : S256x128.Idx → F .f32) : outDone fw fidx emb fown 0 = fown := by
  funext j; simp [outDone]

/-- The four items of chunk `c`, from the gathered buffer, finish rows `4 c … 4 c + 3`. -/
theorem outAfter_gath (fw : S8192.Idx → F .f32) (fidx : S64x128.Idx → BitVec 32) (emb : S100001x128.Idx → F .f32)
    (fown : S256x128.Idx → F .f32) (c : ℕ) (hc : c < 64) :
    outAfter fw (gath fidx emb c) (outDone fw fidx emb fown (4 * c)) c 4 = outDone fw fidx emb fown (4 * c + 4) := by
  funext j
  have hj : (j 0).val < 256 := (j 0).isLt
  show (if (j 0).val / 4 = c ∧ (j 0).val % 4 < 4 then itemVal fw (gath fidx emb c) (outDone fw fidx emb fown (4 * c)) j
      else outDone fw fidx emb fown (4 * c) j) = (if (j 0).val < 4 * c + 4 then doneVal fw fidx emb fown j else fown j)
  by_cases h1 : (j 0).val / 4 = c
  · have h2 : (j 0).val % 4 < 4 := Nat.mod_lt _ (by decide)
    have hfo : outDone fw fidx emb fown (4 * c) j = fown j := if_neg (show ¬ (j 0).val < 4 * c by omega)
    rw [if_pos ⟨h1, h2⟩, if_pos (show (j 0).val < 4 * c + 4 by omega)]
    unfold itemVal doneVal
    rw [hfo]
    congr 1
    funext p
    have e : (⟨c % 64, Nat.mod_lt _ (by decide)⟩ : Fin 64) = ⟨(j 0).val / 4, by omega⟩ := Fin.ext (by show c % 64 = (j 0).val / 4; omega)
    show emb (ix2 (Pure.rowOf (fidx (ix2 (⟨c % 64, Nat.mod_lt _ (by decide)⟩ : Fin 64) _))) _) = _
    rw [e]
  · rw [if_neg (fun h => h1 h.1)]
    show (if (j 0).val < 4 * c then doneVal fw fidx emb fown j else fown j) = _
    by_cases h3 : (j 0).val < 4 * c
    · rw [if_pos h3, if_pos (show (j 0).val < 4 * c + 4 by omega)]
    · rw [if_neg h3, if_neg (show ¬ (j 0).val < 4 * c + 4 by omega)]

/-! ## The loop's invariant -/

/-- The cell of the subcore's first and second gather semaphore. -/
abbrev cellA (d : Dev nD) (L : grid1.Coords) : GSem nD τ sig := (thrV d L, .dma cc1_scratch5.sem)
abbrev cellB (d : Dev nD) (L : grid1.Coords) : GSem nD τ sig := (thrV d L, .dma cc1_scratch6.sem)

/-- The credit of a whole gathered buffer. -/
abbrev gN : ℕ := (buf0V).view.dmaCredit

/-- The gather of chunk `c` into the first buffer, issued and not yet waited for: its flight, and what is left
    of the halves of the index scratch and of the table's share that it holds. -/
def flightA (d : Dev nD) (L : grid1.Coords) (fidx : Buf (Elt F) (idxLoc d L)) (emb : Buf (Elt F) (embLoc d)) (c : ℕ) : sProp 𝕄 :=
  iprop(Transfers.Flight countersEmb (thrV d L) (.dma cc1_scratch5.sem) (default : HIx 1) gN
      iprop(((buf0V).view.loc (thrV d L) ↦[(buf0V).view.set]{fullShare} (gath fidx emb c : Buf (Elt F) (buf0Loc d L)))
        ∗ ((embAllK).view.loc (thrV d L) ↦[(embAllK).view.set]{(embq L).left} emb)
        ∗ ((rowK c).view.loc (thrV d L) ↦[(rowK c).view.set]{(fullShare : PosShare TreeShare).left} fidx))
    ∗ ((embAllK).view.loc (thrV d L) ↦[Finset.univ \ (embAllK).view.set]{(embq L).left} emb)
    ∗ ((rowK c).view.loc (thrV d L) ↦[Finset.univ \ (rowK c).view.set]{(fullShare : PosShare TreeShare).left} fidx))

/-- No gather in flight on the first semaphore: the buffer at anything, the halves back, the cell at zero. -/
def idleA (d : Dev nD) (L : grid1.Coords) (fidx : Buf (Elt F) (idxLoc d L)) (emb : Buf (Elt F) (embLoc d)) : sProp 𝕄 :=
  iprop((∃ fb, buf0Pts d L fb) ∗ ((embV).view.loc (thrV d L) ↦{(embq L).left} emb)
    ∗ ((idxV).view.loc (thrV d L) ↦{(fullShare : PosShare TreeShare).left} fidx) ∗ semVal (cellA d L) 0)

/-- Before trip `k` of the chunk loop. -/
def I2 (d : Dev nD) (L : grid1.Coords) (O : CellTallies nD τ sig (HIx 1)) (W : Waits sig (HIx 1))
    (fw : Buf (Elt F) (awvLoc d L)) (fidx : Buf (Elt F) (idxLoc d L)) (emb : Buf (Elt F) (embLoc d)) (fown : Buf (Elt F) (outLoc d L))
    (k : ℕ) (_ : Unit) : sProp 𝕄 :=
  iprop(Transfers.MayWaits (thrV d L) (none : HIx 1) O
    ∗ awvPts d L fw
    ∗ outPts d L (outDone fw fidx emb fown (8 * k))
    ∗ (∃ fb, buf1Pts d L fb)
    ∗ ((embV).view.loc (thrV d L) ↦{(embq L).right} emb)
    ∗ ((idxV).view.loc (thrV d L) ↦{(fullShare : PosShare TreeShare).right} fidx)
    ∗ semVal (cellB d L) 0
    ∗ (if k < 32 then flightA d L fidx emb (2 * k) else idleA d L fidx emb)
    ∗ ∃ W', ⌜∀ p ∈ W', p ∈ W ∨ p.2 = none⌝ ∗ owes (thrV d L) O W')

end Cert.Proof.KI

end
-- ==== Proof.KITileOwn.lean ====
/-
  A vector subcore's own semaphores and scratch buffers, with the six cells and the five buffers the task uses
  taken out by name.
-/
import proofs.«203743_g50225347559739_cont_8to1c4_743_14_alg».proof.Proof.KITileInv

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Own

variable (d : Dev nD) (L : grid1.Coords)

abbrev cellS0 (d : Dev nD) (L : grid1.Coords) : GSem nD τ sig := (thrV d L, .dma cc1_scoped0.sem)
abbrev cellS1 (d : Dev nD) (L : grid1.Coords) : GSem nD τ sig := (thrV d L, .dma cc1_scoped1.sem)
abbrev cellS2 (d : Dev nD) (L : grid1.Coords) : GSem nD τ sig := (thrV d L, .dma cc1_scoped2.sem)
abbrev cellS3 (d : Dev nD) (L : grid1.Coords) : GSem nD τ sig := (thrV d L, .dma cc1_scoped3.sem)

theorem cell_ne {a b : SemLoc sig} (h : a ≠ b) : ((thrV d L, a) : GSem nD τ sig) ≠ (thrV d L, b) :=
  fun e => h (congrArg Prod.snd e)

theorem mem_own (sm : SemLoc sig) (hs : sm.isScoped .scVector = true) : ((thrV d L, sm) : GSem nD τ sig) ∈ ownCells (thrV d L) :=
  (mem_ownCells (g := ((thrV d L, sm) : GSem nD τ sig))).mpr ⟨rfl, hs⟩

/-- The rest of the subcore's own cells. -/
abbrev restCells (d : Dev nD) (L : grid1.Coords) : Finset (GSem nD τ sig) :=
  ((((((ownCells (thrV d L)).erase (cellA d L)).erase (cellB d L)).erase (cellS0 d L)).erase (cellS1 d L)).erase (cellS2 d L)).erase (cellS3 d L)

theorem ownSems0_V :
    (ownSems0 (thrV d L) : sProp 𝕄)
      = iprop(semVal (cellA d L) 0 ∗ semVal (cellB d L) 0 ∗ semVal (cellS0 d L) 0 ∗ semVal (cellS1 d L) 0
          ∗ semVal (cellS2 d L) 0 ∗ semVal (cellS3 d L) 0 ∗ bigSep (restCells d L) fun g => semVal g 0) := by
  unfold SparseCore.Cfg.ownSems0
  have mA := mem_own d L (.dma cc1_scratch5.sem) (by decide)
  have mB := mem_own d L (.dma cc1_scratch6.sem) (by decide)
  have m0 := mem_own d L (.dma cc1_scoped0.sem) (by decide)
  have m1 := mem_own d L (.dma cc1_scoped1.sem) (by decide)
  have m2 := mem_own d L (.dma cc1_scoped2.sem) (by decide)
  have m3 := mem_own d L (.dma cc1_scoped3.sem) (by decide)
  rw [SparseCore.bigSep_erase' mA,
    SparseCore.bigSep_erase' (Finset.mem_erase.mpr ⟨cell_ne d L (by decide), mB⟩),
    SparseCore.bigSep_erase' (Finset.mem_erase.mpr ⟨cell_ne d L (by decide), Finset.mem_erase.mpr ⟨cell_ne d L (by decide), m0⟩⟩),
    SparseCore.bigSep_erase' (Finset.mem_erase.mpr ⟨cell_ne d L (by decide), Finset.mem_erase.mpr ⟨cell_ne d L (by decide),
      Finset.mem_erase.mpr ⟨cell_ne d L (by decide), m1⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide), m2⟩⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide),
        Finset.mem_erase.mpr ⟨cell_ne d L (by decide), m3⟩⟩⟩⟩⟩)]

abbrev pV (L : grid1.Coords) : Proc τ := Proc.scVector (cV L) (jV L)

/-- The rest of the subcore's own buffers. -/
abbrev restRefs (L : grid1.Coords) : Finset (DevRef τ sig) :=
  (((((ownRefs (τ := τ) (pV L)).erase ((pV L).devRef cc1_scratch0)).erase ((pV L).devRef cc1_scratch1)).erase
    ((pV L).devRef cc1_scratch2)).erase ((pV L).devRef cc1_scratch3)).erase ((pV L).devRef cc1_scratch4)

theorem ref_ne {a b : Ref sig .scVector} (h : a ≠ b) : (pV L).devRef a ≠ (pV L).devRef b :=
  fun e => h (Proc.devRef_injective _ e)

theorem ownBufs_V :
    (ownBufs (thrV d L) : sProp 𝕄)
      = iprop((∃ f, idxLoc d L ↦{fullShare} f) ∗ (∃ f, awvLoc d L ↦{fullShare} f) ∗ (∃ f, buf0Loc d L ↦{fullShare} f)
          ∗ (∃ f, buf1Loc d L ↦{fullShare} f) ∗ (∃ f, outLoc d L ↦{fullShare} f)
          ∗ bigSep (restRefs L) fun b => iprop(∃ f, ((d, b) : Loc nD τ sig) ↦{fullShare} f)) := by
  unfold SparseCore.Cfg.ownBufs
  refine (SparseCore.bigSep_erase' (SparseCore.Cfg.mem_ownRefs_of_owner (p := pV L) (b := (pV L).devRef cc1_scratch0) rfl)).trans ?_
  rw [SparseCore.bigSep_erase' (Finset.mem_erase.mpr ⟨ref_ne L (by decide), SparseCore.Cfg.mem_ownRefs_of_owner (p := pV L) (b := (pV L).devRef cc1_scratch1) rfl⟩),
    SparseCore.bigSep_erase' (Finset.mem_erase.mpr ⟨ref_ne L (by decide), Finset.mem_erase.mpr ⟨ref_ne L (by decide), SparseCore.Cfg.mem_ownRefs_of_owner (p := pV L) (b := (pV L).devRef cc1_scratch2) rfl⟩⟩),
    SparseCore.bigSep_erase' (Finset.mem_erase.mpr ⟨ref_ne L (by decide), Finset.mem_erase.mpr ⟨ref_ne L (by decide),
      Finset.mem_erase.mpr ⟨ref_ne L (by decide), SparseCore.Cfg.mem_ownRefs_of_owner (p := pV L) (b := (pV L).devRef cc1_scratch3) rfl⟩⟩⟩),
    SparseCore.bigSep_erase' (Finset.mem_erase.mpr ⟨ref_ne L (by decide), Finset.mem_erase.mpr ⟨ref_ne L (by decide),
      Finset.mem_erase.mpr ⟨ref_ne L (by decide), Finset.mem_erase.mpr ⟨ref_ne L (by decide), SparseCore.Cfg.mem_ownRefs_of_owner (p := pV L) (b := (pV L).devRef cc1_scratch4) rfl⟩⟩⟩⟩)]

/-- The worker number as the program computes it. -/
abbrev widW (L : grid1.Coords) : BitVec 32 := Scalar.addi (Scalar.muli (BitVec.ofNat 32 (L 1).val) 2#32) (BitVec.ofNat 32 (L 0).val)

/-- What half `h` of the task works on, its block of the result at `fr`. -/
def halfRes (O : CellTallies nD τ sig (HIx 1)) (W : Waits sig (HIx 1))
    (ie : Buf (Elt F) (ieLoc d)) (aw : Buf (Elt F) (awLoc d)) (emb : Buf (Elt F) (embLoc d))
    (h : Fin k1_t1_loop.trips) (fr : Buf (Elt F) (resLoc d)) : sProp 𝕄 :=
  iprop(Transfers.MayWaits (thrV d L) (none : HIx 1) O
    ∗ ((ieK L h).view.loc (thrV d L) ↦[(ieK L h).view.set]{fullShare} ie)
    ∗ ((awK L h).view.loc (thrV d L) ↦[(awK L h).view.set]{fullShare} aw)
    ∗ ((embV).view.loc (thrV d L) ↦{(embq L).left} emb)
    ∗ ((embV).view.loc (thrV d L) ↦{(embq L).right} emb)
    ∗ ((resK L h).view.loc (thrV d L) ↦[(resK L h).view.set]{fullShare} fr)
    ∗ (∃ f, idxPts d L f) ∗ (∃ f, awvPts d L f) ∗ (∃ f, buf0Pts d L f) ∗ (∃ f, buf1Pts d L f) ∗ (∃ f, outPts d L f)
    ∗ semVal (cellA d L) 0 ∗ semVal (cellB d L) 0
    ∗ semVal (cellS0 d L) 0 ∗ semVal (cellS1 d L) 0 ∗ semVal (cellS2 d L) 0 ∗ semVal (cellS3 d L) 0
    ∗ ∃ W', ⌜∀ p ∈ W', p ∈ W ∨ p.2 = none⌝ ∗ owes (thrV d L) O W')

end Own

end Cert.Proof.KI

end
-- ==== Proof.KITileSets.lean ====
/-
  The parts of the three arrays a subcore owns are the two halves' slices: slabs `2 w` and `2 w + 1` of the
  indices and of the weights, and the two blocks of 256 rows of the result.
-/
import proofs.«203743_g50225347559739_cont_8to1c4_743_14_alg».proof.Proof.KITileDefs

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The two halves of a task. -/
abbrev hh0 : Fin k1_t1_loop.trips := ⟨0, by decide⟩
abbrev hh1 : Fin k1_t1_loop.trips := ⟨1, by decide⟩

theorem fin_t1 (h : Fin k1_t1_loop.trips) : h = hh0 ∨ h = hh1 := by
  rcases h with ⟨v, hv⟩
  have hv2 : v < 2 := lt_of_lt_of_eq hv trips1
  have : v = 0 ∨ v = 1 := by omega
  rcases this with rfl | rfl
  · exact .inl rfl
  · exact .inr rfl

theorem set_ieK (L : grid1.Coords) (h : Fin k1_t1_loop.trips) : (ieK L h).view.set = (ieRect L h).set := by
  show (((View.whole main_v0_scv).slice (ieRect L h)).reshape S64x128 _).set = _
  rw [View.set_reshape, View.set_slice_whole]
theorem set_awK (L : grid1.Coords) (h : Fin k1_t1_loop.trips) : (awK L h).view.set = (awRect L h).set := by
  show (((View.whole main_v2_scv).slice (awRect L h)).reshape S8192 _).set = _
  rw [View.set_reshape, View.set_slice_whole]
theorem set_resK (L : grid1.Coords) (h : Fin k1_t1_loop.trips) : (resK L h).view.set = (resRect L h).set := by
  show ((View.whole main_v3_scv).slice (resRect L h)).set = _
  rw [View.set_slice_whole]
theorem set_ownK (L : grid1.Coords) (h : Fin k1_t1_loop.trips) : (ownK L h).view.set = (ownRect L h).set := by
  show ((View.whole main_arg1_scv).slice (ownRect L h)).set = _
  rw [View.set_slice_whole]

theorem mem_ieK (L : grid1.Coords) (h : Fin k1_t1_loop.trips) (j : S64x64x128.Idx) :
    j ∈ (ieK L h).view.set ↔ (j 0).val = 2 * wid L + h.val := by
  have h1 : (j 1).val < 64 := (j 1).isLt
  have h2 : (j 2).val < 128 := (j 2).isLt
  rw [set_ieK, Rect.mem_set_unit, k1_off1_eq]
  unfold wid
  constructor
  · intro H
    have := H 0
    simp at this
    omega
  · intro H a
    match a with
    | 0 => simp; omega
    | 1 => simp; exact h1
    | 2 => simp; exact h2

theorem mem_awK (L : grid1.Coords) (h : Fin k1_t1_loop.trips) (j : S64x8192.Idx) :
    j ∈ (awK L h).view.set ↔ (j 0).val = 2 * wid L + h.val := by
  have h1 : (j 1).val < 8192 := (j 1).isLt
  rw [set_awK, Rect.mem_set_unit, k1_off2_eq]
  unfold wid
  constructor
  · intro H
    have := H 0
    simp at this
    omega
  · intro H a
    match a with
    | 0 => simp; omega
    | 1 => simp; exact h1

theorem mem_resK (L : grid1.Coords) (h : Fin k1_t1_loop.trips) (j : S16384x128.Idx) :
    j ∈ (resK L h).view.set ↔ (j 0).val / 256 = 2 * wid L + h.val := by
  have h1 : (j 1).val < 128 := (j 1).isLt
  rw [set_resK, Rect.mem_set_unit, k1_off42_eq]
  unfold wid
  constructor
  · intro H
    have := H 0
    simp at this
    omega
  · intro H a
    match a with
    | 0 => simp; omega
    | 1 => simp; exact h1

theorem mem_ownK (L : grid1.Coords) (h : Fin k1_t1_loop.trips) (j : S100001x128.Idx) :
    j ∈ (ownK L h).view.set ↔ 256 * (2 * wid L + h.val) ≤ (j 0).val ∧ (j 0).val < 256 * (2 * wid L + h.val) + 256 := by
  have h1 : (j 1).val < 128 := (j 1).isLt
  rw [set_ownK, Rect.mem_set_unit, k1_off3_eq]
  unfold wid
  constructor
  · intro H
    have := H 0
    simp at this
    omega
  · intro H a
    match a with
    | 0 => simp; omega
    | 1 => simp; exact h1

theorem ieSet_eq (L : grid1.Coords) : ieSet L = (ieK L hh0).view.set ∪ (ieK L hh1).view.set := by
  ext j
  rw [mem_ieSet, Finset.mem_union, mem_ieK, mem_ieK]
  show _ ↔ (j 0).val = 2 * wid L + 0 ∨ (j 0).val = 2 * wid L + 1
  omega
theorem ie_disj (L : grid1.Coords) : Disjoint (ieK L hh0).view.set (ieK L hh1).view.set := by
  rw [Finset.disjoint_left]
  intro j h0 h1
  rw [mem_ieK] at h0 h1
  have e0 : (j 0).val = 2 * wid L + 0 := h0
  have e1 : (j 0).val = 2 * wid L + 1 := h1
  omega

theorem awSet_eq (L : grid1.Coords) : awSet L = (awK L hh0).view.set ∪ (awK L hh1).view.set := by
  ext j
  rw [mem_awSet, Finset.mem_union, mem_awK, mem_awK]
  show _ ↔ (j 0).val = 2 * wid L + 0 ∨ (j 0).val = 2 * wid L + 1
  omega
theorem aw_disj (L : grid1.Coords) : Disjoint (awK L hh0).view.set (awK L hh1).view.set := by
  rw [Finset.disjoint_left]
  intro j h0 h1
  rw [mem_awK] at h0 h1
  have e0 : (j 0).val = 2 * wid L + 0 := h0
  have e1 : (j 0).val = 2 * wid L + 1 := h1
  omega

theorem resSet_eq (L : grid1.Coords) : resSet L = (resK L hh0).view.set ∪ (resK L hh1).view.set := by
  ext j
  rw [mem_resSet, Finset.mem_union, mem_resK, mem_resK]
  show _ ↔ (j 0).val / 256 = 2 * wid L + 0 ∨ (j 0).val / 256 = 2 * wid L + 1
  omega
theorem res_disj (L : grid1.Coords) : Disjoint (resK L hh0).view.set (resK L hh1).view.set := by
  rw [Finset.disjoint_left]
  intro j h0 h1
  rw [mem_resK] at h0 h1
  have e0 : (j 0).val / 256 = 2 * wid L + 0 := h0
  have e1 : (j 0).val / 256 = 2 * wid L + 1 := h1
  omega

end Cert.Proof.KI

end
-- ==== Proof.KITileSpec.lean ====
/-
  The two item loops of a chunk trip, as the chunk loop uses them: each runs the four items of its chunk on the
  output scratch, from the gathered buffer and the weights, and leaves both of those as they were.
-/
import proofs.«203743_g50225347559739_cont_8to1c4_743_14_alg».proof.Proof.KITileDefs
import proofs.«203743_g50225347559739_cont_8to1c4_743_14_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- The item loop on the first buffer at chunk trip `t2`: the four items of chunk `2 t2`. -/
def T3Spec (d : Dev nD) (L : grid1.Coords) : Prop :=
  ∀ (t2 : Fin k1_t2_loop.trips) (fw : Buf (Elt F) (awvLoc d L)) (fb : Buf (Elt F) (buf0Loc d L)) (fo : Buf (Elt F) (outLoc d L)),
    iprop(outPts d L fo ∗ buf0Pts d L fb ∗ awvPts d L fw)
      ⊢ wp frame (wpE (defs₀ (F := F)) 𝒱₀ (thrV d L) none) Set.univ
        (Scf.Loop.for k1_t3_loop k1_t3_ok ⟨⟩ (Gen.k1_t3_body L ieV (Memref.isWhole_whole _) awV (Memref.isWhole_whole _) embV (Memref.isWhole_whole _) resV (Memref.isWhole_whole _)
        idxV (Memref.isWhole_whole _) awvV (Memref.isWhole_whole _) buf0V (Memref.isWhole_whole _) buf1V (Memref.isWhole_whole _) outV (Memref.isWhole_whole _)
        cc1_scratch5 cc1_scratch6 cc1_scoped0 cc1_scoped1 cc1_scoped2 cc1_scoped3
          t2 (Scalar.muli (Scf.iv 0#32 1#32 t2) 2#32)))
        fun _ => iprop(outPts d L (outAfter fw fb fo (2 * t2.val) 4) ∗ buf0Pts d L fb ∗ awvPts d L fw)

/-- The item loop on the second buffer at chunk trip `t2`: the four items of chunk `2 t2 + 1`. -/
def T4Spec (d : Dev nD) (L : grid1.Coords) : Prop :=
  ∀ (t2 : Fin k1_t2_loop.trips) (fw : Buf (Elt F) (awvLoc d L)) (fb : Buf (Elt F) (buf1Loc d L)) (fo : Buf (Elt F) (outLoc d L)),
    iprop(outPts d L fo ∗ buf1Pts d L fb ∗ awvPts d L fw)
      ⊢ wp frame (wpE (defs₀ (F := F)) 𝒱₀ (thrV d L) none) Set.univ
        (Scf.Loop.for k1_t4_loop k1_t4_ok ⟨⟩ (Gen.k1_t4_body L ieV (Memref.isWhole_whole _) awV (Memref.isWhole_whole _) embV (Memref.isWhole_whole _) resV (Memref.isWhole_whole _)
        idxV (Memref.isWhole_whole _) awvV (Memref.isWhole_whole _) buf0V (Memref.isWhole_whole _) buf1V (Memref.isWhole_whole _) outV (Memref.isWhole_whole _)
        cc1_scratch5 cc1_scratch6 cc1_scoped0 cc1_scoped1 cc1_scoped2 cc1_scoped3
          t2 (Scalar.addi (Scalar.muli (Scf.iv 0#32 1#32 t2) 2#32) 1#32)))
        fun _ => iprop(outPts d L (outAfter fw fb fo (2 * t2.val + 1) 4) ∗ buf1Pts d L fb ∗ awvPts d L fw)

end Cert.Proof.KI

end
-- ==== Proof.KITile.lean ====
/-
  The task of one vector subcore: the two halves one after the other.  The subcore's slabs of the indices and of the
  weights and its rows of the result are split into the halves' slices, its share of the table into two; each half
  leaves its block of the result at the items' accumulations; the pieces are joined again at the end.
-/
import proofs.«203743_g50225347559739_cont_8to1c4_743_14_alg».proof.Proof.KITileOwn
import proofs.«203743_g50225347559739_cont_8to1c4_743_14_alg».proof.Proof.KITileSets
import proofs.«203743_g50225347559739_cont_8to1c4_743_14_alg».proof.Proof.KITileSpec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid1.Coords)

/-! ## The arrays as the subcore's memrefs address them -/

theorem pts_ieK (h : Fin k1_t1_loop.trips) (S : Finset S64x64x128.Idx) (f : Buf (Elt F) (ieLoc d)) :
    ((ieK L h).view.loc (thrV d L) ↦[S]{fullShare} f : sProp 𝕄) = (ieLoc d ↦[S]{fullShare} f) := rfl
theorem pts_awK (h : Fin k1_t1_loop.trips) (S : Finset S64x8192.Idx) (f : Buf (Elt F) (awLoc d)) :
    ((awK L h).view.loc (thrV d L) ↦[S]{fullShare} f : sProp 𝕄) = (awLoc d ↦[S]{fullShare} f) := rfl
theorem pts_resK (h : Fin k1_t1_loop.trips) (S : Finset S16384x128.Idx) (f : Buf (Elt F) (resLoc d)) :
    ((resK L h).view.loc (thrV d L) ↦[S]{fullShare} f : sProp 𝕄) = (resLoc d ↦[S]{fullShare} f) := rfl
theorem pts_embV (q : PosShare TreeShare) (f : Buf (Elt F) (embLoc d)) :
    ((embV).view.loc (thrV d L) ↦{q} f : sProp 𝕄) = (embLoc d ↦{q} f) := rfl
theorem pts_idx (f : Buf (Elt F) (idxLoc d L)) : (idxPts d L f : sProp 𝕄) = (idxLoc d L ↦{fullShare} f) := rfl
theorem pts_awv (f : Buf (Elt F) (awvLoc d L)) : (awvPts d L f : sProp 𝕄) = (awvLoc d L ↦{fullShare} f) := rfl
theorem pts_buf0 (f : Buf (Elt F) (buf0Loc d L)) : (buf0Pts d L f : sProp 𝕄) = (buf0Loc d L ↦{fullShare} f) := rfl
theorem pts_buf1 (f : Buf (Elt F) (buf1Loc d L)) : (buf1Pts d L f : sProp 𝕄) = (buf1Loc d L ↦{fullShare} f) := rfl
theorem pts_out (f : Buf (Elt F) (outLoc d L)) : (outPts d L f : sProp 𝕄) = (outLoc d L ↦{fullShare} f) := rfl

variable [FloatOps F]

/-! ## The half, as the task uses it -/

/-- One half of the task from what it works on to the same with its block of the result done. -/
def HalfSpec (ie : Buf (Elt F) (ieLoc d)) (aw : Buf (Elt F) (awLoc d)) (emb : Buf (Elt F) (embLoc d)) : Prop :=
  ∀ (O : CellTallies nD τ sig (HIx 1)) (W : Waits sig (HIx 1)) (fo : Buf (Elt F) (resLoc d)) (h : Fin k1_t1_loop.trips),
    halfRes d L O W ie aw emb h fo ⊢ wp frame (wpE (defs₀ (F := F)) 𝒱₀ (thrV d L) none) Set.univ
      (Gen.k1_t1_body L ieV (Memref.isWhole_whole _) awV (Memref.isWhole_whole _) embV (Memref.isWhole_whole _) resV (Memref.isWhole_whole _)
        idxV (Memref.isWhole_whole _) awvV (Memref.isWhole_whole _) buf0V (Memref.isWhole_whole _) buf1V (Memref.isWhole_whole _) outV (Memref.isWhole_whole _)
        cc1_scratch5 cc1_scratch6 cc1_scoped0 cc1_scoped1 cc1_scoped2 cc1_scoped3 (widW L) h ⟨⟩)
      (fun _ => halfRes d L O W ie aw emb h (Pure.Gk (F := F) ie aw emb : Buf (Elt F) (resLoc d)))

/-- Before half `k`: everything both halves work on, the blocks of the result of the halves already run at the items'
    accumulations and the others as they came. -/
def I1 (O : CellTallies nD τ sig (HIx 1)) (W : Waits sig (HIx 1))
    (ie : Buf (Elt F) (ieLoc d)) (aw : Buf (Elt F) (awLoc d)) (emb : Buf (Elt F) (embLoc d)) (fo : Buf (Elt F) (resLoc d))
    (k : ℕ) (_ : Unit) : sProp 𝕄 :=
  iprop(Transfers.MayWaits (thrV d L) (none : HIx 1) O
    ∗ ((ieK L hh0).view.loc (thrV d L) ↦[(ieK L hh0).view.set]{fullShare} ie)
    ∗ ((ieK L hh1).view.loc (thrV d L) ↦[(ieK L hh1).view.set]{fullShare} ie)
    ∗ ((awK L hh0).view.loc (thrV d L) ↦[(awK L hh0).view.set]{fullShare} aw)
    ∗ ((awK L hh1).view.loc (thrV d L) ↦[(awK L hh1).view.set]{fullShare} aw)
    ∗ ((embV).view.loc (thrV d L) ↦{(embq L).left} emb)
    ∗ ((embV).view.loc (thrV d L) ↦{(embq L).right} emb)
    ∗ ((resK L hh0).view.loc (thrV d L) ↦[(resK L hh0).view.set]{fullShare}
        (if 0 < k then (Pure.Gk (F := F) ie aw emb : Buf (Elt F) (resLoc d)) else fo))
    ∗ ((resK L hh1).view.loc (thrV d L) ↦[(resK L hh1).view.set]{fullShare}
        (if 1 < k then (Pure.Gk (F := F) ie aw emb : Buf (Elt F) (resLoc d)) else fo))
    ∗ (∃ f, idxPts d L f) ∗ (∃ f, awvPts d L f) ∗ (∃ f, buf0Pts d L f) ∗ (∃ f, buf1Pts d L f) ∗ (∃ f, outPts d L f)
    ∗ semVal (cellA d L) 0 ∗ semVal (cellB d L) 0
    ∗ semVal (cellS0 d L) 0 ∗ semVal (cellS1 d L) 0 ∗ semVal (cellS2 d L) 0 ∗ semVal (cellS3 d L) 0
    ∗ ∃ W', ⌜∀ p ∈ W', p ∈ W ∨ p.2 = none⌝ ∗ owes (thrV d L) O W')

set_option maxHeartbeats 2000000 in
/-- The task of the vector subcore at `L`. -/
theorem tile_body_of (ie : Buf (Elt F) (ieLoc d)) (aw : Buf (Elt F) (awLoc d)) (emb : Buf (Elt F) (embLoc d)) (fo : Buf (Elt F) (resLoc d))
    (hF : (K (F := F)).Facts) (hhalf : HalfSpec d L ie aw emb) (O : CellTallies nD τ sig (HIx 1)) (W : Waits sig (HIx 1)) (hO : ∀ g, O g none = 0) :
    iprop(levAts (K (F := F)).L (K (F := F)).lev ∗ emp ∗ tilePre d L ie aw emb fo
        ∗ scopedBufs (thrV d L) ∗ scopedSems0 (thrV d L) ∗ owes (thrV d L) O W)
      ⊢ wp frame (wpE (defs₀ (F := F)) 𝒱₀ (thrV d L) none) Set.univ (tileProg (F := F) L)
          fun _ => iprop(tilePost d L ie aw emb ∗ scopedBufs (thrV d L) ∗ scopedSems0 (thrV d L)
            ∗ ∃ W', ⌜∀ p ∈ W', p ∈ W ∨ p.2 = none⌝ ∗ owes (thrV d L) O W') := by
  have ht0 : 0 < Scf.trips k1_t1_loop.lb k1_t1_loop.ub k1_t1_loop.st := by
    have h := trips1; show 0 < k1_t1_loop.trips; omega
  have ht1 : 1 < Scf.trips k1_t1_loop.lb k1_t1_loop.ub k1_t1_loop.st := by
    have h := trips1; show 1 < k1_t1_loop.trips; omega
  unfold tileProg
  simp only [cc1__sc_body_eq_skeleton]; unfold cc1__sc_body_skel
  rw [(K (F := F)).scopedBufs_V hF d (cV L) (jV L), SparseCore.Cfg.scopedSems0_V (Val := Elt F) d (cV L) (jV L), ownSems0_V, ownBufs_V]
  unfold tilePre tilePost
  rw [ieSet_eq, awSet_eq, resSet_eq]
  iintro ⟨#Hlv, -, ⟨Hie, Haw, Hemb, Hres⟩, ⟨⟨%f0, Hidx⟩, ⟨%f1, Hawv⟩, ⟨%f2, Hb0⟩, ⟨%f3, Hb1⟩, ⟨%f4, Hout⟩, Hbufs⟩, ⟨HsA, HsB, Hs0, Hs1, Hs2, Hs3, Hsems⟩, HO⟩
  ihave Hmw := (show levAts (K (F := F)).L (K (F := F)).lev ⊢ Transfers.MayWaits (thrV d L) (none : HIx 1) O from
    (K (F := F)).mayWaits_none (thr := thrV d L) hO) $$ Hlv
  ihave Hie' := (pointsTo_union (ie_disj L)).1 $$ Hie
  icases Hie' with ⟨Hie0, Hie1⟩
  ihave Haw' := (pointsTo_union (aw_disj L)).1 $$ Haw
  icases Haw' with ⟨Haw0, Haw1⟩
  ihave Hres' := (pointsTo_union (res_disj L)).1 $$ Hres
  icases Hres' with ⟨Hr0, Hr1⟩
  ihave Hemb' := (pointsTo_share (PosShare.mem_left_op_right (embq L))).1 $$ Hemb
  icases Hemb' with ⟨HeL, HeR⟩
  sl_exec
  sl_for (I1 d L O W ie aw emb fo) $$ [Hmw Hie0 Hie1 Haw0 Haw1 HeL HeR Hr0 Hr1 Hidx Hawv Hb0 Hb1 Hout HsA HsB Hs0 Hs1 Hs2 Hs3 HO]
  case region =>
    intro k acc
    rcases fin_t1 k with rfl | rfl
    · -- half 0
      show I1 d L O W ie aw emb fo 0 acc ⊢ wp frame (wpE (defs₀ (F := F)) 𝒱₀ (thrV d L) none) Set.univ _ (I1 d L O W ie aw emb fo (0 + 1))
      unfold I1
      rw [if_neg (show ¬(0 < 0) by omega), if_neg (show ¬(1 < 0) by omega), if_pos (show 0 < 0 + 1 by omega), if_neg (show ¬(1 < 0 + 1) by omega)]
      iintro ⟨Hmw, Hie0, Hie1, Haw0, Haw1, HeL, HeR, Hr0, Hr1, Hidx, Hawv, Hb0, Hb1, Hout, HsA, HsB, Hs0, Hs1, Hs2, Hs3, HW⟩
      iapply (exec_cut_last _ _ _ (hhalf O W fo hh0)) $$ [Hmw Hie0 Haw0 HeL HeR Hr0 Hidx Hawv Hb0 Hb1 Hout HsA HsB Hs0 Hs1 Hs2 Hs3 HW]
      · unfold halfRes
        isplitl [Hmw]
        · iexact Hmw
        isplitl [Hie0]
        · iexact Hie0
        isplitl [Haw0]
        · iexact Haw0
        isplitl [HeL]
        · iexact HeL
        isplitl [HeR]
        · iexact HeR
        isplitl [Hr0]
        · iexact Hr0
        isplitl [Hidx]
        · iexact Hidx
        isplitl [Hawv]
        · iexact Hawv
        isplitl [Hb0]
        · iexact Hb0
        isplitl [Hb1]
        · iexact Hb1
        isplitl [Hout]
        · iexact Hout
        isplitl [HsA]
        · iexact HsA
        isplitl [HsB]
        · iexact HsB
        isplitl [Hs0]
        · iexact Hs0
        isplitl [Hs1]
        · iexact Hs1
        isplitl [Hs2]
        · iexact Hs2
        isplitl [Hs3]
        · iexact Hs3
        iexact HW
      iintro %_ H
      unfold halfRes
      icases H with ⟨Hmw, Hie0, Haw0, HeL, HeR, Hr0, Hidx, Hawv, Hb0, Hb1, Hout, HsA, HsB, Hs0, Hs1, Hs2, Hs3, HW⟩
      isplitl [Hmw]
      · iexact Hmw
      isplitl [Hie0]
      · iexact Hie0
      isplitl [Hie1]
      · iexact Hie1
      isplitl [Haw0]
      · iexact Haw0
      isplitl [Haw1]
      · iexact Haw1
      isplitl [HeL]
      · iexact HeL
      isplitl [HeR]
      · iexact HeR
      isplitl [Hr0]
      · iexact Hr0
      isplitl [Hr1]
      · iexact Hr1
      isplitl [Hidx]
      · iexact Hidx
      isplitl [Hawv]
      · iexact Hawv
      isplitl [Hb0]
      · iexact Hb0
      isplitl [Hb1]
      · iexact Hb1
      isplitl [Hout]
      · iexact Hout
      isplitl [HsA]
      · iexact HsA
      isplitl [HsB]
      · iexact HsB
      isplitl [Hs0]
      · iexact Hs0
      isplitl [Hs1]
      · iexact Hs1
      isplitl [Hs2]
      · iexact Hs2
      isplitl [Hs3]
      · iexact Hs3
      iexact HW
    · -- half 1
      show I1 d L O W ie aw emb fo 1 acc ⊢ wp frame (wpE (defs₀ (F := F)) 𝒱₀ (thrV d L) none) Set.univ _ (I1 d L O W ie aw emb fo (1 + 1))
      unfold I1
      rw [if_pos (show 0 < 1 by omega), if_neg (show ¬(1 < 1) by omega), if_pos (show 0 < 1 + 1 by omega), if_pos (show 1 < 1 + 1 by omega)]
      iintro ⟨Hmw, Hie0, Hie1, Haw0, Haw1, HeL, HeR, Hr0, Hr1, Hidx, Hawv, Hb0, Hb1, Hout, HsA, HsB, Hs0, Hs1, Hs2, Hs3, HW⟩
      iapply (exec_cut_last _ _ _ (hhalf O W fo hh1)) $$ [Hmw Hie1 Haw1 HeL HeR Hr1 Hidx Hawv Hb0 Hb1 Hout HsA HsB Hs0 Hs1 Hs2 Hs3 HW]
      · unfold halfRes
        isplitl [Hmw]
        · iexact Hmw
        isplitl [Hie1]
        · iexact Hie1
        isplitl [Haw1]
        · iexact Haw1
        isplitl [HeL]
        · iexact HeL
        isplitl [HeR]
        · iexact HeR
        isplitl [Hr1]
        · iexact Hr1
        isplitl [Hidx]
        · iexact Hidx
        isplitl [Hawv]
        · iexact Hawv
        isplitl [Hb0]
        · iexact Hb0
        isplitl [Hb1]
        · iexact Hb1
        isplitl [Hout]
        · iexact Hout
        isplitl [HsA]
        · iexact HsA
        isplitl [HsB]
        · iexact HsB
        isplitl [Hs0]
        · iexact Hs0
        isplitl [Hs1]
        · iexact Hs1
        isplitl [Hs2]
        · iexact Hs2
        isplitl [Hs3]
        · iexact Hs3
        iexact HW
      iintro %_ H
      unfold halfRes
      icases H with ⟨Hmw, Hie1, Haw1, HeL, HeR, Hr1, Hidx, Hawv, Hb0, Hb1, Hout, HsA, HsB, Hs0, Hs1, Hs2, Hs3, HW⟩
      isplitl [Hmw]
      · iexact Hmw
      isplitl [Hie0]
      · iexact Hie0
      isplitl [Hie1]
      · iexact Hie1
      isplitl [Haw0]
      · iexact Haw0
      isplitl [Haw1]
      · iexact Haw1
      isplitl [HeL]
      · iexact HeL
      isplitl [HeR]
      · iexact HeR
      isplitl [Hr0]
      · iexact Hr0
      isplitl [Hr1]
      · iexact Hr1
      isplitl [Hidx]
      · iexact Hidx
      isplitl [Hawv]
      · iexact Hawv
      isplitl [Hb0]
      · iexact Hb0
      isplitl [Hb1]
      · iexact Hb1
      isplitl [Hout]
      · iexact Hout
      isplitl [HsA]
      · iexact HsA
      isplitl [HsB]
      · iexact HsB
      isplitl [Hs0]
      · iexact Hs0
      isplitl [Hs1]
      · iexact Hs1
      isplitl [Hs2]
      · iexact Hs2
      isplitl [Hs3]
      · iexact Hs3
      iexact HW
  · -- the invariant before the first half
    unfold I1
    rw [if_neg (show ¬(0 < 0) by omega), if_neg (show ¬(1 < 0) by omega)]
    isplitl [Hmw]
    · iexact Hmw
    isplitl [Hie0]
    · iexact Hie0
    isplitl [Hie1]
    · iexact Hie1
    isplitl [Haw0]
    · iexact Haw0
    isplitl [Haw1]
    · iexact Haw1
    isplitl [HeL]
    · iexact HeL
    isplitl [HeR]
    · iexact HeR
    isplitl [Hr0]
    · iexact Hr0
    isplitl [Hr1]
    · iexact Hr1
    isplitl [Hidx]
    · iexists f0; iexact Hidx
    isplitl [Hawv]
    · iexists f1; iexact Hawv
    isplitl [Hb0]
    · iexists f2; iexact Hb0
    isplitl [Hb1]
    · iexists f3; iexact Hb1
    isplitl [Hout]
    · iexists f4; iexact Hout
    isplitl [HsA]
    · iexact HsA
    isplitl [HsB]
    · iexact HsB
    isplitl [Hs0]
    · iexact Hs0
    isplitl [Hs1]
    · iexact Hs1
    isplitl [Hs2]
    · iexact Hs2
    isplitl [Hs3]
    · iexact Hs3
    iexists W
    isplitr
    · ipureintro; exact fun p hp => .inl hp
    · iexact HO
  iintro %acc
  unfold I1
  rw [if_pos ht0, if_pos ht1]
  iintro ⟨Hmw, Hie0, Hie1, Haw0, Haw1, HeL, HeR, Hr0, Hr1, ⟨%g0, Hidx⟩, ⟨%g1, Hawv⟩, ⟨%g2, Hb0⟩, ⟨%g3, Hb1⟩, ⟨%g4, Hout⟩, HsA, HsB, Hs0, Hs1, Hs2, Hs3, %W', %hW', HO⟩
  sl_exec
  sl_step
  ihave Hie := (pointsTo_union (ℓ := ieLoc d) (q := fullShare) (f := ie) (ie_disj L)).2 $$ [Hie0 Hie1]
  · isplitl [Hie0]
    · iexact Hie0
    iexact Hie1
  ihave Haw := (pointsTo_union (ℓ := awLoc d) (q := fullShare) (f := aw) (aw_disj L)).2 $$ [Haw0 Haw1]
  · isplitl [Haw0]
    · iexact Haw0
    iexact Haw1
  ihave Hres := (pointsTo_union (ℓ := resLoc d) (q := fullShare) (f := (Pure.Gk (F := F) ie aw emb : Buf (Elt F) (resLoc d))) (res_disj L)).2 $$ [Hr0 Hr1]
  · isplitl [Hr0]
    · iexact Hr0
    iexact Hr1
  ihave Hemb := (pointsTo_share (ℓ := embLoc d) (I := Finset.univ) (f := emb) (PosShare.mem_left_op_right (embq L))).2 $$ [HeL HeR]
  · isplitl [HeL]
    · iexact HeL
    iexact HeR
  isplitl [Hie Haw Hemb Hres]
  · isplitl [Hie]
    · iexact Hie
    isplitl [Haw]
    · iexact Haw
    isplitl [Hemb]
    · iexact Hemb
    iexact Hres
  isplitl [Hidx Hawv Hb0 Hb1 Hout Hbufs]
  · isplitl [Hidx]
    · iexists g0; iexact Hidx
    isplitl [Hawv]
    · iexists g1; iexact Hawv
    isplitl [Hb0]
    · iexists g2; iexact Hb0
    isplitl [Hb1]
    · iexists g3; iexact Hb1
    isplitl [Hout]
    · iexists g4; iexact Hout
    iexact Hbufs
  isplitl [HsA HsB Hs0 Hs1 Hs2 Hs3 Hsems]
  · isplitl [HsA]
    · iexact HsA
    isplitl [HsB]
    · iexact HsB
    isplitl [Hs0]
    · iexact Hs0
    isplitl [Hs1]
    · iexact Hs1
    isplitl [Hs2]
    · iexact Hs2
    isplitl [Hs3]
    · iexact Hs3
    iexact Hsems
  iexists W'
  isplitr
  · ipureintro; exact hW'
  · iexact HO

end Cert.Proof.KI

end
-- ==== Proof.KITileGath.lean ====
/-
  What an indirect gather of chunk `c` leaves in a 128 x 128 buffer, as a closed form: buffer row `i` is the table
  row named by index word `i` of row `c % 64` of the index scratch.

  The gather's payload reads the table at the destination's own column and, on the row axis, at the row the
  offset list names for the destination's row; the list is row `c % 64` of the index scratch squeezed to a vector, so
  its entry `i` is word `(c % 64, i)`; every word names a row of the table, so clamping it to the last row does nothing.
-/
import proofs.«203743_g50225347559739_cont_8to1c4_743_14_alg».proof.Proof.KITileInv

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx

variable [FloatOps F]

section Gath

variable (d : Dev nD) (L : grid1.Coords)

/-- Entry `y` of the offset list cut at row `c % 64` is word `(c % 64, y)` of the index scratch. -/
theorem rowO_read (fidx : Buf (Elt F) (idxLoc d L)) (c : ℕ)
    (inb : ∀ a, (![c % 64, 0] : Fin 2 → ℕ) a + S1x128.size a ≤ S64x128.size a) (y : S128.Idx) :
    (rowO ![c % 64, 0] inb).view.read (Elt F) fidx y
      = (fidx : S64x128.Idx → BitVec 32) (ix2 (⟨c % 64, Nat.mod_lt _ (by decide)⟩ : Fin 64) (⟨(y 0).val, (y 0).isLt⟩ : Fin 128)) := by
  refine (View.read_apply _ _).trans ((cast_eq _ _).trans ?_)
  refine congrArg (fidx : S64x128.Idx → BitVec 32) (funext fun a => Fin.ext ?_)
  show ((Rect.unit (s := S64x128) ![c % 64, 0] S1x128.size inb).emb (Shape.reshapeEquiv squeezes_S1x128_S128.numel_eq y) a : ℕ) = _
  rw [Rect.emb_apply, Shape.reshapeEquiv_cons_one]
  match a with
  | ⟨0, _⟩ => show c % 64 + 1 * 0 = c % 64; omega
  | ⟨1, _⟩ => show 0 + 1 * (y 0).val = (y 0).val; omega

/-- The table read through the memref the gathers address is the table. -/
theorem embAll_read (emb : Buf (Elt F) (embLoc d)) (z : S100001x128.Idx) :
    (embAllK).view.read (Elt F) emb z = (emb : S100001x128.Idx → F .f32) z := by
  refine (View.read_apply _ _).trans ((cast_eq _ _).trans ?_)
  refine congrArg (emb : S100001x128.Idx → F .f32) (funext fun a => Fin.ext ?_)
  show ((Rect.unit (s := S100001x128) ![0, 0] S100001x128.size inb_S100001x128_S100001x128_0_0).emb z a : ℕ) = _
  rw [Rect.emb_apply]
  match a with
  | ⟨0, _⟩ => show 0 + 1 * (z 0).val = (z 0).val; omega
  | ⟨1, _⟩ => show 0 + 1 * (z 1).val = (z 1).val; omega

/-- The gather's payload for chunk `c` is the closed form. -/
theorem gath_payload (fidx : Buf (Elt F) (idxLoc d L)) (emb : Buf (Elt F) (embLoc d)) (c : ℕ)
    (inb : ∀ a, (![c % 64, 0] : Fin 2 → ℕ) a + S1x128.size a ≤ S64x128.size a)
    (hn : S128.numel = S128x128.size gathers_S100001x128_S128x128.axis')
    (hin : ∀ x, ((rowO ![c % 64, 0] inb).view.read (Elt F) fidx x).toNat < S100001x128.size gathers_S100001x128_S128x128.axis) :
    SparseCore.gatherPayload gathers_S100001x128_S128x128 ((embAllK).view.read (Elt F) emb)
      (SparseCore.rows ((rowO ![c % 64, 0] inb).view.read (Elt F) fidx) hn hin) = gath fidx emb c := by
  funext x
  unfold SparseCore.gatherPayload gath
  refine (embAll_read d emb _).trans ?_
  refine congrArg (emb : S100001x128.Idx → F .f32) (funext fun a => Fin.ext ?_)
  match a with
  | ⟨1, _⟩ => exact Shape.Gathers.idx_of_ne gathers_S100001x128_S128x128 _ x 1 (by decide)
  | ⟨0, _⟩ =>
    refine (congrArg Fin.val (Shape.Gathers.idx_axis gathers_S100001x128_S128x128 _ x)).trans ?_
    -- the word the list holds for the destination's row
    have hy : ((S128.rowMajor.symm ((x gathers_S100001x128_S128x128.axis').cast hn.symm)) 0).val = (x 0).val := by
      have h1 := Shape.rowMajor_val_one (S128.rowMajor.symm ((x gathers_S100001x128_S128x128.axis').cast hn.symm))
      rw [Equiv.apply_symm_apply] at h1
      exact h1.symm
    have hw := rowO_read d L fidx c inb (S128.rowMajor.symm ((x gathers_S100001x128_S128x128.axis').cast hn.symm))
    have hlt := hin (S128.rowMajor.symm ((x gathers_S100001x128_S128x128.axis').cast hn.symm))
    show ((rowO ![c % 64, 0] inb).view.read (Elt F) fidx (S128.rowMajor.symm ((x gathers_S100001x128_S128x128.axis').cast hn.symm))).toNat
        = min ((fidx : S64x128.Idx → BitVec 32) (ix2 (⟨c % 64, Nat.mod_lt _ (by decide)⟩ : Fin 64) (x 0))).toNat 100000
    rw [hw] at hlt ⊢
    have he : (ix2 (⟨c % 64, Nat.mod_lt _ (by decide)⟩ : Fin 64)
        (⟨((S128.rowMajor.symm ((x gathers_S100001x128_S128x128.axis').cast hn.symm)) 0).val, ((S128.rowMajor.symm ((x gathers_S100001x128_S128x128.axis').cast hn.symm)) 0).isLt⟩ : Fin 128)
          : S64x128.Idx) = ix2 (⟨c % 64, Nat.mod_lt _ (by decide)⟩ : Fin 64) (x 0) :=
      congrArg (fun q : Fin 128 => (ix2 (⟨c % 64, Nat.mod_lt _ (by decide)⟩ : Fin 64) q : S64x128.Idx)) (Fin.ext hy)
    rw [he] at hlt ⊢
    exact (Nat.min_eq_left (Nat.le_of_lt_succ hlt)).symm

/-- What a gather of chunk `c` leaves in the first buffer. -/
theorem gath_eq0 (fd : Buf (Elt F) (buf0Loc d L)) (fidx : Buf (Elt F) (idxLoc d L)) (emb : Buf (Elt F) (embLoc d)) (c : ℕ)
    (off : Fin 2 → ℕ) (inb : ∀ a, off a + S1x128.size a ≤ S64x128.size a) (hoff : off = ![c % 64, 0])
    (hn : S128.numel = S128x128.size gathers_S100001x128_S128x128.axis')
    (hin : ∀ x, ((rowO off inb).view.read (Elt F) fidx x).toNat < S100001x128.size gathers_S100001x128_S128x128.axis) :
    (buf0V).view.write (Elt F) fd (SparseCore.gatherPayload gathers_S100001x128_S128x128 ((embAllK).view.read (Elt F) emb)
      (SparseCore.rows ((rowO off inb).view.read (Elt F) fidx) hn hin)) Finset.univ = gath fidx emb c := by
  subst hoff
  exact (View.write_whole_univ cc1_scratch2 fd _).trans (gath_payload d L fidx emb c inb hn hin)

/-- What a gather of chunk `c` leaves in the second buffer. -/
theorem gath_eq1 (fd : Buf (Elt F) (buf1Loc d L)) (fidx : Buf (Elt F) (idxLoc d L)) (emb : Buf (Elt F) (embLoc d)) (c : ℕ)
    (off : Fin 2 → ℕ) (inb : ∀ a, off a + S1x128.size a ≤ S64x128.size a) (hoff : off = ![c % 64, 0])
    (hn : S128.numel = S128x128.size gathers_S100001x128_S128x128.axis')
    (hin : ∀ x, ((rowO off inb).view.read (Elt F) fidx x).toNat < S100001x128.size gathers_S100001x128_S128x128.axis) :
    (buf1V).view.write (Elt F) fd (SparseCore.gatherPayload gathers_S100001x128_S128x128 ((embAllK).view.read (Elt F) emb)
      (SparseCore.rows ((rowO off inb).view.read (Elt F) fidx) hn hin)) Finset.univ = gath fidx emb c := by
  subst hoff
  exact (View.write_whole_univ cc1_scratch3 fd _).trans (gath_payload d L fidx emb c inb hn hin)

end Gath

end Cert.Proof.KI

end
-- ==== Proof.KITileTrip.lean ====
/-
  One trip of the chunk loop: the gather of chunk `2 k + 1` into the second buffer is issued, the gather of chunk
  `2 k` (in flight since the trip before) is awaited and its four items run; the gather of chunk `2 k + 2` is
  issued into the first buffer if there is one; the second gather is awaited and its four items run.  The two
  gathers in flight read the table through the two halves of the subcore's share, and their offset lists
  through the two halves of the index scratch.
-/
import proofs.«203743_g50225347559739_cont_8to1c4_743_14_alg».proof.Proof.KITileInv
import proofs.«203743_g50225347559739_cont_8to1c4_743_14_alg».proof.Proof.KITileSpec
import proofs.«203743_g50225347559739_cont_8to1c4_743_14_alg».proof.Proof.KITileGath

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx

variable [FloatOps F]

section Trip

variable (d : Dev nD) (L : grid1.Coords)

/-- Every word of an offset list cut from the index scratch names a row of the table. -/
theorem hin_off (fidx : Buf (Elt F) (idxLoc d L)) (hidx : ∀ x, (fidx x).toNat ≤ 100000) (off : Fin 2 → ℕ) (inb) :
    ∀ x, ((rowO off inb).view.read (Elt F) fidx x).toNat < S100001x128.size gathers_S100001x128_S128x128.axis := by
  intro x
  rw [show ∀ j, (rowO off inb).view.read (Elt F) fidx j = fidx ((rowO off inb).view.emb j) from fun j => (View.read_apply _ _).trans (cast_eq _ _)]
  exact Nat.lt_succ_of_le (hidx _)

theorem cond1_iff : ∀ t2 : Fin k1_t2_loop.trips, k1_cond1 t2 = 1#1 ↔ t2.val < 31 := by decide +kernel

/-- A trip finishes eight more rows. -/
theorem outDone_step (fw : S8192.Idx → F .f32) (fidx : S64x128.Idx → BitVec 32) (emb : S100001x128.Idx → F .f32)
    (fown : S256x128.Idx → F .f32) (k : ℕ) (hk : k < 32) :
    outAfter fw (gath fidx emb (2 * k + 1)) (outAfter fw (gath fidx emb (2 * k)) (outDone fw fidx emb fown (8 * k)) (2 * k) 4) (2 * k + 1) 4
      = outDone fw fidx emb fown (8 * (k + 1)) := by
  have e1 : 8 * k = 4 * (2 * k) := by omega
  rw [e1, outAfter_gath fw fidx emb fown (2 * k) (by omega)]
  have e2 : 4 * (2 * k) + 4 = 4 * (2 * k + 1) := by omega
  rw [e2, outAfter_gath fw fidx emb fown (2 * k + 1) (by omega)]
  congr 1; omega

/-- The gather of chunk `c` into the first buffer, issued with nothing in flight on its semaphore. -/
theorem gatherA_cps {α : Type} {k : PUnit → Prog (TpuEff nD τ sig (Elt F) Λ₀ (thrV d L).2) α} {Q : α → sProp 𝕄}
    (fidx : Buf (Elt F) (idxLoc d L)) (emb : Buf (Elt F) (embLoc d)) (hidx : ∀ x, (fidx x).toNat ≤ 100000) (c : ℕ)
    (off : Fin 2 → ℕ) (inb) (hoff : off = ![c % 64, 0]) :
    idleA d L fidx emb ⊢ iprop((flightA d L fidx emb c -∗ wp frame (wpE (defs₀ (F := F)) 𝒱₀ (thrV d L) none) Set.univ (k ⟨⟩) Q)
      -∗ wp frame (wpE (defs₀ (F := F)) 𝒱₀ (thrV d L) none) Set.univ
        (SparseCore.enqueueIndirectGather rfl embAllK buf0V gathers_S100001x128_S128x128 (rowO off inb) rfl cc1_scratch5.sem
          (View.wordExact_bits rfl) rfl (Or.inl rfl) >>= k) Q) := by
  subst hoff
  unfold idleA flightA
  iintro ⟨⟨%fb, Hb0⟩, HembL, HidxL, HsemA⟩ Hk
  ihave Hs := (pointsTo_split_subset (q := (embq L).left) (f := emb) (S := Finset.univ) (Finset.subset_univ (embAllK).view.set)).1 $$ HembL
  icases Hs with ⟨Hsrc, Hembr⟩
  ihave Ho := (pointsTo_split_subset (q := (fullShare : PosShare TreeShare).left) (f := fidx) (S := Finset.univ) (Finset.subset_univ (rowK c).view.set)).1 $$ HidxL
  icases Ho with ⟨Hoff, Hidxr⟩
  have hbs : (buf0V).view.set = Finset.univ := View.set_whole _
  ihave Hb0' := (Entails.of_eq (show ((buf0V).view.loc (thrV d L) ↦{fullShare} fb : sProp 𝕄)
      = (buf0V).view.loc (thrV d L) ↦[(buf0V).view.set]{fullShare} fb by rw [hbs])) $$ Hb0
  iapply (SparseCore.wp_indirectGatherLocal countersEmb 𝒱₀ (thrV d L) none (hg := gathers_S100001x128_S128x128) (default : HIx 1)
      (buf0V).view.dmaCredit (SparseCore.sum_rowCredit_eq_dmaCredit (buf0V) _ (fun _ => rfl)) (by decide) (hin_off d L fidx hidx _ inb)) $$ [Hsrc Hb0' Hoff HsemA]
  · isplitl [Hsrc]; · iexact Hsrc
    isplitl [Hb0']; · iexact Hb0'
    isplitl [Hoff]; · iexact Hoff
    iexact HsemA
  iintro Hfl
  iapply Hk
  isplitl [Hfl]
  · have hE := gath_eq0 d L fb fidx emb c _ inb rfl rfl (hin_off d L fidx hidx _ inb)
    rw [hE]; iexact Hfl
  isplitl [Hembr]; · iexact Hembr
  iexact Hidxr

set_option maxHeartbeats 4000000 in
/-- One trip of the chunk loop. -/
theorem t2_trip (h3 : T3Spec (F := F) d L) (h4 : T4Spec (F := F) d L)
    (O : CellTallies nD τ sig (HIx 1)) (W : Waits sig (HIx 1))
    (fw : Buf (Elt F) (awvLoc d L)) (fidx : Buf (Elt F) (idxLoc d L)) (emb : Buf (Elt F) (embLoc d)) (fown : Buf (Elt F) (outLoc d L))
    (hidx : ∀ x, (fidx x).toNat ≤ 100000) (t2 : Fin k1_t2_loop.trips) :
    I2 d L O W fw fidx emb fown t2.val ⟨⟩ ⊢ wp frame (wpE (defs₀ (F := F)) 𝒱₀ (thrV d L) none) Set.univ
      (Gen.k1_t2_body L ieV (Memref.isWhole_whole _) awV (Memref.isWhole_whole _) embV (Memref.isWhole_whole _) resV (Memref.isWhole_whole _)
        idxV (Memref.isWhole_whole _) awvV (Memref.isWhole_whole _) buf0V (Memref.isWhole_whole _) buf1V (Memref.isWhole_whole _) outV (Memref.isWhole_whole _)
        cc1_scratch5 cc1_scratch6 cc1_scoped0 cc1_scoped1 cc1_scoped2 cc1_scoped3 t2 ⟨⟩)
      (fun r => I2 d L O W fw fidx emb fown (t2.val + 1) r) := by
  have hlt : t2.val < 32 := lt_of_lt_of_eq t2.isLt trips2
  have hoB : k1_off4 t2 = ![(2 * t2.val + 1) % 64, 0] := by rw [k1_off4_eq, Nat.mod_eq_of_lt (by omega)]
  have hb0s : (buf0V).view.set = Finset.univ := View.set_whole _
  have hb1s : (buf1V).view.set = Finset.univ := View.set_whole _
  unfold Gen.k1_t2_body I2
  rw [if_pos hlt]
  unfold flightA
  iintro ⟨#Hmw, Haw, Hout, ⟨%fb1, Hb1⟩, HembR, HidxR, HsemB, ⟨Hfl, HembLr, HidxLr⟩, %W', %hW', HO⟩
  sl_exec
  -- the second gather, of chunk 2 k + 1
  ihave Hs := (pointsTo_split_subset (q := (embq L).right) (f := emb) (S := Finset.univ) (Finset.subset_univ (embAllK).view.set)).1 $$ HembR
  icases Hs with ⟨HsrcB, HembRr⟩
  ihave Ho := (pointsTo_split_subset (q := (fullShare : PosShare TreeShare).right) (f := fidx) (S := Finset.univ)
      (Finset.subset_univ (rowO (k1_off4 t2) (k1_off4_inb t2)).view.set)).1 $$ HidxR
  icases Ho with ⟨HoffB, HidxRr⟩
  ihave Hb1' := (Entails.of_eq (show ((buf1V).view.loc (thrV d L) ↦{fullShare} fb1 : sProp 𝕄)
      = (buf1V).view.loc (thrV d L) ↦[(buf1V).view.set]{fullShare} fb1 by rw [hb1s])) $$ Hb1
  iapply (SparseCore.wp_indirectGatherLocal countersEmb 𝒱₀ (thrV d L) none (hg := gathers_S100001x128_S128x128) (default : HIx 1)
      (buf1V).view.dmaCredit (SparseCore.sum_rowCredit_eq_dmaCredit (buf1V) _ (fun _ => rfl)) (by decide)
      (hin_off d L fidx hidx (k1_off4 t2) (k1_off4_inb t2))) $$ [HsrcB Hb1' HoffB HsemB]
  · isplitl [HsrcB]; · iexact HsrcB
    isplitl [Hb1']; · iexact Hb1'
    isplitl [HoffB]; · iexact HoffB
    iexact HsemB
  iintro HflB
  sl_exec
  -- the first gather's wait
  iapply (Transfers.wp_waitLocalO countersEmb 𝒱₀ (thrV d L) none (default : HIx 1) (rfl : (buf0V).view.dmaCredit = _)) $$ [Hfl HO]
  · isplitl [Hfl]; · iexact Hfl
    isplitl [HO]; · iexact HO
    iapply (Transfers.MayWaits.elim (SemLoc.dma cc1_scratch5.sem)) $$ Hmw
  iintro ⟨⟨Hb0, HsrcA, HoffA⟩, HsemA, HO⟩
  sl_step
  ihave HembL := (pointsTo_split_subset (q := (embq L).left) (f := emb) (S := Finset.univ) (Finset.subset_univ (embAllK).view.set)).2 $$ [HsrcA HembLr]
  · isplitl [HsrcA] <;> iassumption
  ihave HidxL := (pointsTo_split_subset (q := (fullShare : PosShare TreeShare).left) (f := fidx) (S := Finset.univ)
      (Finset.subset_univ (rowK (2 * t2.val)).view.set)).2 $$ [HoffA HidxLr]
  · isplitl [HoffA] <;> iassumption
  ihave Hb0' := (Entails.of_eq (show ((buf0V).view.loc (thrV d L) ↦[(buf0V).view.set]{fullShare} (gath fidx emb (2 * t2.val) : Buf (Elt F) (buf0Loc d L)) : sProp 𝕄)
      = buf0Pts d L (gath fidx emb (2 * t2.val)) by rw [hb0s])) $$ Hb0
  -- its four items
  iapply (exec_cut _ _ _ (h3 t2 fw (gath fidx emb (2 * t2.val)) _)) $$ [Hout Hb0' Haw]
  · isplitl [Hout]; · iexact Hout
    isplitl [Hb0']; · iexact Hb0'
    iexact Haw
  iintro %_ ⟨Hout, Hb0', Haw⟩
  -- the next gather into the first buffer, if there is a next chunk
  by_cases hc : k1_cond1 t2 = 1#1
  · have hlt' : t2.val + 1 < 32 := by have := (cond1_iff t2).1 hc; omega
    have e2 : 2 * (t2.val + 1) = 2 * t2.val + 2 := by omega
    have hoA : k1_off23 t2 = ![(2 * (t2.val + 1)) % 64, 0] := by rw [k1_off23_eq, Nat.mod_eq_of_lt (by omega), e2]
    rw [dif_pos hc]
    sl_exec
    iapply (gatherA_cps d L fidx emb hidx (2 * (t2.val + 1)) (k1_off23 t2) (k1_off23_inb t2 hc) hoA) $$ [Hb0' HembL HidxL HsemA]
    · unfold idleA
      isplitl [Hb0']; · iexists _; iexact Hb0'
      isplitl [HembL]; · iexact HembL
      isplitl [HidxL]; · iexact HidxL
      iexact HsemA
    iintro HA

    -- the second gather's wait
    sl_exec
    iapply (Transfers.wp_waitLocalO countersEmb 𝒱₀ (thrV d L) none (default : HIx 1) (rfl : (buf1V).view.dmaCredit = _)) $$ [HflB HO]
    · isplitl [HflB]; · iexact HflB
      isplitl [HO]; · iexact HO
      iapply (Transfers.MayWaits.elim (SemLoc.dma cc1_scratch6.sem)) $$ Hmw
    iintro ⟨⟨Hb1, HsrcB, HoffB⟩, HsemB, HO⟩
    sl_step
    ihave HembR := (pointsTo_split_subset (q := (embq L).right) (f := emb) (S := Finset.univ) (Finset.subset_univ (embAllK).view.set)).2 $$ [HsrcB HembRr]
    · isplitl [HsrcB] <;> iassumption
    ihave HidxR := (pointsTo_split_subset (q := (fullShare : PosShare TreeShare).right) (f := fidx) (S := Finset.univ)
        (Finset.subset_univ (rowO (k1_off4 t2) (k1_off4_inb t2)).view.set)).2 $$ [HoffB HidxRr]
    · isplitl [HoffB] <;> iassumption
    have hEB := gath_eq1 d L fb1 fidx emb (2 * t2.val + 1) (k1_off4 t2) (k1_off4_inb t2) hoB rfl (hin_off d L fidx hidx _ _)
    rw [hEB]
    ihave Hb1' := (Entails.of_eq (show ((buf1V).view.loc (thrV d L) ↦[(buf1V).view.set]{fullShare} (gath fidx emb (2 * t2.val + 1) : Buf (Elt F) (buf1Loc d L)) : sProp 𝕄)
        = buf1Pts d L (gath fidx emb (2 * t2.val + 1)) by rw [hb1s])) $$ Hb1
    -- its four items
    iapply (exec_cut _ _ _ (h4 t2 fw (gath fidx emb (2 * t2.val + 1)) _)) $$ [Hout Hb1' Haw]
    · isplitl [Hout]; · iexact Hout
      isplitl [Hb1']; · iexact Hb1'
      iexact Haw
    iintro %_ ⟨Hout, Hb1', Haw⟩
    sl_step
    rw [outDone_step fw fidx emb fown t2.val hlt]
    rw [if_pos hlt']
    unfold flightA
    isplitl []; · iexact Hmw
    isplitl [Haw]; · iexact Haw
    isplitl [Hout]; · iexact Hout
    isplitl [Hb1']; · iexists _; iexact Hb1'
    isplitl [HembR]; · iexact HembR
    isplitl [HidxR]; · iexact HidxR
    isplitl [HsemB]; · iexact HsemB
    isplitl [HA]; · iexact HA
    iexists (insert (SemLoc.dma cc1_scratch6.sem, (default : HIx 1)) (insert (SemLoc.dma cc1_scratch5.sem, (default : HIx 1)) W')); isplitr
    · ipureintro; intro p hp
      rcases Finset.mem_insert.mp hp with hp | hp; · exact .inr (hp ▸ rfl)
      rcases Finset.mem_insert.mp hp with hp | hp; · exact .inr (hp ▸ rfl)
      exact hW' p hp
    · iexact HO
  · have hlt' : ¬ t2.val + 1 < 32 := by have := (cond1_iff t2).not.1 hc; omega
    rw [dif_neg hc]
    ihave HA := (show iprop((∃ fb, buf0Pts d L fb) ∗ ((embV).view.loc (thrV d L) ↦{(embq L).left} emb)
        ∗ ((idxV).view.loc (thrV d L) ↦{(fullShare : PosShare TreeShare).left} fidx) ∗ semVal (cellA d L) 0) ⊢ idleA d L fidx emb from by unfold idleA; exact .rfl) $$ [Hb0' HembL HidxL HsemA]
    · isplitl [Hb0']; · iexists _; iexact Hb0'
      isplitl [HembL]; · iexact HembL
      isplitl [HidxL]; · iexact HidxL
      iexact HsemA

    -- the second gather's wait
    sl_exec
    iapply (Transfers.wp_waitLocalO countersEmb 𝒱₀ (thrV d L) none (default : HIx 1) (rfl : (buf1V).view.dmaCredit = _)) $$ [HflB HO]
    · isplitl [HflB]; · iexact HflB
      isplitl [HO]; · iexact HO
      iapply (Transfers.MayWaits.elim (SemLoc.dma cc1_scratch6.sem)) $$ Hmw
    iintro ⟨⟨Hb1, HsrcB, HoffB⟩, HsemB, HO⟩
    sl_step
    ihave HembR := (pointsTo_split_subset (q := (embq L).right) (f := emb) (S := Finset.univ) (Finset.subset_univ (embAllK).view.set)).2 $$ [HsrcB HembRr]
    · isplitl [HsrcB] <;> iassumption
    ihave HidxR := (pointsTo_split_subset (q := (fullShare : PosShare TreeShare).right) (f := fidx) (S := Finset.univ)
        (Finset.subset_univ (rowO (k1_off4 t2) (k1_off4_inb t2)).view.set)).2 $$ [HoffB HidxRr]
    · isplitl [HoffB] <;> iassumption
    have hEB := gath_eq1 d L fb1 fidx emb (2 * t2.val + 1) (k1_off4 t2) (k1_off4_inb t2) hoB rfl (hin_off d L fidx hidx _ _)
    rw [hEB]
    ihave Hb1' := (Entails.of_eq (show ((buf1V).view.loc (thrV d L) ↦[(buf1V).view.set]{fullShare} (gath fidx emb (2 * t2.val + 1) : Buf (Elt F) (buf1Loc d L)) : sProp 𝕄)
        = buf1Pts d L (gath fidx emb (2 * t2.val + 1)) by rw [hb1s])) $$ Hb1
    -- its four items
    iapply (exec_cut _ _ _ (h4 t2 fw (gath fidx emb (2 * t2.val + 1)) _)) $$ [Hout Hb1' Haw]
    · isplitl [Hout]; · iexact Hout
      isplitl [Hb1']; · iexact Hb1'
      iexact Haw
    iintro %_ ⟨Hout, Hb1', Haw⟩
    sl_step
    rw [outDone_step fw fidx emb fown t2.val hlt]
    rw [if_neg hlt']
    isplitl []; · iexact Hmw
    isplitl [Haw]; · iexact Haw
    isplitl [Hout]; · iexact Hout
    isplitl [Hb1']; · iexists _; iexact Hb1'
    isplitl [HembR]; · iexact HembR
    isplitl [HidxR]; · iexact HidxR
    isplitl [HsemB]; · iexact HsemB
    isplitl [HA]; · iexact HA
    iexists (insert (SemLoc.dma cc1_scratch6.sem, (default : HIx 1)) (insert (SemLoc.dma cc1_scratch5.sem, (default : HIx 1)) W')); isplitr
    · ipureintro; intro p hp
      rcases Finset.mem_insert.mp hp with hp | hp; · exact .inr (hp ▸ rfl)
      rcases Finset.mem_insert.mp hp with hp | hp; · exact .inr (hp ▸ rfl)
      exact hW' p hp
    · iexact HO

end Trip

end Cert.Proof.KI

end
-- ==== Proof.KITileValue.lean ====
/-
  The value of a finished half: once all 256 rows of a half are done, row `x` of the output scratch is the pure
  result `Gk` at the row of the result array that the half's slice places it at.

  Half `h` of subcore `(c, s)` works on slab `4 s + 2 c + h` and on result rows `1024 s + 512 c + 256 h + r`,
  `r < 256`: item `n = 256 * slab + r`, so `n / 256` is the slab and `n % 256 = r`; its weights are entries
  `32 r + p` of the slab, its indices entries `32 (r % 4) + p` of chunk `r / 4`, its own row is row `n` of the table.
-/
import proofs.«203743_g50225347559739_cont_8to1c4_743_14_alg».proof.Proof.KITileInv
import proofs.«203743_g50225347559739_cont_8to1c4_743_14_alg».proof.Proof.KITileSets

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx

variable [FloatOps F]

section HalfValue

variable (d : Dev nD) (L : grid1.Coords)

/-- The half's first result row. -/
def rowBase (h : Fin k1_t1_loop.trips) : ℕ := 1024 * (L 1).val + 512 * (L 0).val + 256 * h.val
/-- The half's slab. -/
def slabOf (h : Fin k1_t1_loop.trips) : ℕ := 4 * (L 1).val + 2 * (L 0).val + h.val

theorem rowBase_eq (h : Fin k1_t1_loop.trips) : rowBase L h = 256 * slabOf L h := by unfold rowBase slabOf; omega

theorem slabOf_lt (h : Fin k1_t1_loop.trips) : slabOf L h < 64 := by
  have h0 : (L 0).val < 2 := (L 0).isLt
  have h1 : (L 1).val < 16 := (L 1).isLt
  have h2 : h.val < 2 := lt_of_lt_of_eq h.isLt trips1
  unfold slabOf; omega

/-- Row `x` of the half's result slice is row `rowBase + x` of the result. -/
theorem resK_emb (h : Fin k1_t1_loop.trips) (x : S256x128.Idx) (a : Fin 2) :
    (((resK L h).view.emb x : S16384x128.Idx) a).val = (![rowBase L h, 0] : Fin 2 → ℕ) a + (x a).val := by
  show ((resRect L h).emb x a : ℕ) = _
  rw [Rect.emb_apply]
  show k1_off42 L h a + 1 * (x a).val = _
  rw [k1_off42_eq]
  match a with
  | ⟨0, _⟩ => show rowBase L h + 1 * (x 0).val = rowBase L h + (x 0).val; omega
  | ⟨1, _⟩ => show 0 + 1 * (x 1).val = 0 + (x 1).val; omega

/-- The half's weights, entry `y`: entry `y` of the slab. -/
theorem awK_read (aw : Buf (Elt F) (awLoc d)) (h : Fin k1_t1_loop.trips) (y : Fin 8192) :
    (awK L h).view.read (Elt F) aw (ix1 y)
      = (aw : S64x8192.Idx → F .f32) (ix2 (⟨slabOf L h, slabOf_lt L h⟩ : Fin 64) y) := by
  refine (View.read_apply _ _).trans ((cast_eq _ _).trans ?_)
  refine congrArg (aw : S64x8192.Idx → F .f32) (funext fun a => Fin.ext ?_)
  show ((awRect L h).emb (Shape.reshapeEquiv squeezes_S1x8192_S8192.numel_eq (ix1 y)) a : ℕ) = _
  rw [Rect.emb_apply, Shape.reshapeEquiv_cons_one]
  show k1_off2 L h a + 1 * _ = _
  rw [k1_off2_eq]
  match a with
  | ⟨0, _⟩ => show slabOf L h + 1 * 0 = slabOf L h; omega
  | ⟨1, _⟩ => show 0 + 1 * y.val = y.val; omega

/-- The half's indices, word `(q, z)`: word `(q, z)` of the slab. -/
theorem ieK_read (ie : Buf (Elt F) (ieLoc d)) (h : Fin k1_t1_loop.trips) (q : Fin 64) (z : Fin 128) :
    (ieK L h).view.read (Elt F) ie (ix2 q z)
      = (ie : S64x64x128.Idx → BitVec 32) (ix3 (⟨slabOf L h, slabOf_lt L h⟩ : Fin 64) q z) := by
  refine (View.read_apply _ _).trans ((cast_eq _ _).trans ?_)
  refine congrArg (ie : S64x64x128.Idx → BitVec 32) (funext fun a => Fin.ext ?_)
  show ((ieRect L h).emb (Shape.reshapeEquiv squeezes_S1x64x128_S64x128.numel_eq (ix2 q z)) a : ℕ) = _
  rw [Rect.emb_apply, Shape.reshapeEquiv_cons_one]
  show k1_off1 L h a + 1 * _ = _
  rw [k1_off1_eq]
  match a with
  | ⟨0, _⟩ => show slabOf L h + 1 * 0 = slabOf L h; omega
  | ⟨1, _⟩ => show 0 + 1 * q.val = q.val; omega
  | ⟨2, _⟩ => show 0 + 1 * z.val = z.val; omega

/-- The half's own rows of the table, at `x`: row `rowBase + x`. -/
theorem ownK_read (emb : Buf (Elt F) (embLoc d)) (h : Fin k1_t1_loop.trips) (x : S256x128.Idx)
    (hb : rowBase L h + (x 0).val < 100001) :
    (ownK L h).view.read (Elt F) emb x
      = (emb : S100001x128.Idx → F .f32) (ix2 (⟨rowBase L h + (x 0).val, hb⟩ : Fin 100001) (⟨(x 1).val, (x 1).isLt⟩ : Fin 128)) := by
  refine (View.read_apply _ _).trans ((cast_eq _ _).trans ?_)
  refine congrArg (emb : S100001x128.Idx → F .f32) (funext fun a => Fin.ext ?_)
  show ((ownRect L h).emb x a : ℕ) = _
  rw [Rect.emb_apply]
  show k1_off3 L h a + 1 * (x a).val = _
  rw [k1_off3_eq]
  match a with
  | ⟨0, _⟩ => show rowBase L h + 1 * (x 0).val = rowBase L h + (x 0).val; omega
  | ⟨1, _⟩ => show 0 + 1 * (x 1).val = (x 1).val; omega

/-- THE VALUE OF A FINISHED HALF: with all 256 rows done, row `x` of the output scratch is the pure result at the
    row of the result array the half's slice places it at. -/
theorem half_value_core (ie : Buf (Elt F) (ieLoc d)) (aw : Buf (Elt F) (awLoc d)) (emb : Buf (Elt F) (embLoc d))
    (hidx : IdxOK ie) (h : Fin k1_t1_loop.trips) (x : S256x128.Idx) :
    outDone ((awK L h).view.read (Elt F) aw) ((ieK L h).view.read (Elt F) ie) emb ((ownK L h).view.read (Elt F) emb) 256 x
      = Pure.Gk (F := F) ie aw emb ((resK L h).view.emb x) := by
  have hx0 : (x 0).val < 256 := (x 0).isLt
  have hx1 : (x 1).val < 128 := (x 1).isLt
  have hs := slabOf_lt L h
  have hrb := rowBase_eq L h
  have hb : rowBase L h + (x 0).val < 100001 := by omega
  have hj0 : (((resK L h).view.emb x : S16384x128.Idx) 0).val = rowBase L h + (x 0).val := resK_emb L h x 0
  have hj1 : (((resK L h).view.emb x : S16384x128.Idx) 1).val = (x 1).val := by
    have e := resK_emb L h x 1
    have e0 : (![rowBase L h, 0] : Fin 2 → ℕ) 1 = 0 := rfl
    rw [e0, Nat.zero_add] at e
    exact e
  show (if (x 0).val < 256 then doneVal ((awK L h).view.read (Elt F) aw) ((ieK L h).view.read (Elt F) ie) emb
      ((ownK L h).view.read (Elt F) emb) x else _) = _
  rw [if_pos hx0]
  unfold doneVal Pure.Gk
  congr 1
  · -- the weights
    funext p
    have hp : p.val < 32 := p.isLt
    unfold Pure.wOf
    refine (awK_read d L aw h _).trans ?_
    refine congrArg (aw : S64x8192.Idx → F .f32) (funext fun a => Fin.ext ?_)
    match a with
    | ⟨0, _⟩ =>
      show slabOf L h = (((resK L h).view.emb x : S16384x128.Idx) 0).val / 256
      rw [hj0]; omega
    | ⟨1, _⟩ =>
      show (x 0).val * 32 + p.val = ((((resK L h).view.emb x : S16384x128.Idx) 0).val % 256) * 32 + p.val
      rw [hj0]
      have : (rowBase L h + (x 0).val) % 256 = (x 0).val := by omega
      rw [this]
  · -- the gathered rows
    funext p
    have hp : p.val < 32 := p.isLt
    have hw : (ieK L h).view.read (Elt F) ie (ix2 (⟨(x 0).val / 4, by omega⟩ : Fin 64) (⟨((x 0).val % 4) * 32 + p.val, by omega⟩ : Fin 128))
        = Pure.iOf ie (((resK L h).view.emb x : S16384x128.Idx) 0) p := by
      unfold Pure.iOf
      refine (ieK_read d L ie h _ _).trans ?_
      refine congrArg (ie : S64x64x128.Idx → BitVec 32) (funext fun a => Fin.ext ?_)
      match a with
      | ⟨0, _⟩ =>
        show slabOf L h = (((resK L h).view.emb x : S16384x128.Idx) 0).val / 256
        rw [hj0]; omega
      | ⟨1, _⟩ =>
        show (x 0).val / 4 = ((((resK L h).view.emb x : S16384x128.Idx) 0).val % 256) / 4
        rw [hj0]
        have : (rowBase L h + (x 0).val) % 256 = (x 0).val := by omega
        rw [this]
      | ⟨2, _⟩ =>
        show ((x 0).val % 4) * 32 + p.val = ((((resK L h).view.emb x : S16384x128.Idx) 0).val % 4) * 32 + p.val
        rw [hj0]
        have : (rowBase L h + (x 0).val) % 4 = (x 0).val % 4 := by omega
        rw [this]
    refine congrArg (emb : S100001x128.Idx → F .f32) (funext fun a => Fin.ext ?_)
    match a with
    | ⟨0, _⟩ =>
      show (Pure.rowOf ((ieK L h).view.read (Elt F) ie (ix2 (⟨(x 0).val / 4, by omega⟩ : Fin 64) (⟨((x 0).val % 4) * 32 + p.val, by omega⟩ : Fin 128)))).val
        = (Pure.rowOf (Pure.iOf ie (((resK L h).view.emb x : S16384x128.Idx) 0) p)).val
      rw [hw]
    | ⟨1, _⟩ => exact hj1.symm
  · -- the item's own row
    refine (ownK_read d L emb h x hb).trans ?_
    refine congrArg (emb : S100001x128.Idx → F .f32) (funext fun a => Fin.ext ?_)
    match a with
    | ⟨0, _⟩ => exact hj0.symm
    | ⟨1, _⟩ => exact hj1.symm

/-- The copy-out of a finished half: after the whole output scratch is written over the half's rows of the result,
    every one of those rows holds the pure result. -/
theorem half_value (ie : Buf (Elt F) (ieLoc d)) (aw : Buf (Elt F) (awLoc d)) (emb : Buf (Elt F) (embLoc d))
    (fo : Buf (Elt F) (resLoc d)) (hidx : IdxOK ie) (h : Fin k1_t1_loop.trips)
    (pay : S256x128.Idx → F .f32)
    (hpay : pay = outDone ((awK L h).view.read (Elt F) aw) ((ieK L h).view.read (Elt F) ie) emb ((ownK L h).view.read (Elt F) emb) 256) :
    ∀ i ∈ (resK L h).view.set, ((resK L h).view.writes (Elt F) fo [⟨Rect.whole S256x128, pay⟩] : Buf (Elt F) (resLoc d)) i
      = Pure.Gk (F := F) ie aw emb i := by
  intro i hi
  obtain ⟨x, -, rfl⟩ := Finset.mem_map.mp hi
  subst hpay
  have e : ((resK L h).view.slice (Rect.whole S256x128)).emb x = (resK L h).view.emb x := by
    show (resK L h).view.emb ((Rect.whole S256x128).emb x) = (resK L h).view.emb x
    rw [Rect.emb_whole_apply]
  have hw := View.write_emb_of_mem (v := (resK L h).view.slice (Rect.whole S256x128)) (Val := Elt F) fo
    (outDone ((awK L h).view.read (Elt F) aw) ((ieK L h).view.read (Elt F) ie) emb ((ownK L h).view.read (Elt F) emb) 256)
    (Finset.mem_univ x)
  rw [e, cast_eq] at hw
  rw [View.writes_singleton]
  exact hw.trans (half_value_core d L ie aw emb hidx h x)

end HalfValue

end Cert.Proof.KI

end
-- ==== Proof.KITileHalf.lean ====
/-
  One half of a subcore's task: its slab of the indices, its slab of the weights and its items' own rows of the
  table are copied into the scratch; the gather of chunk 0 is issued; the chunk loop runs; the finished rows are
  copied out to the half's block of the result.
-/
import proofs.«203743_g50225347559739_cont_8to1c4_743_14_alg».proof.Proof.KITileTrip
import proofs.«203743_g50225347559739_cont_8to1c4_743_14_alg».proof.Proof.KITileSets
import proofs.«203743_g50225347559739_cont_8to1c4_743_14_alg».proof.Proof.KITileOwn
import proofs.«203743_g50225347559739_cont_8to1c4_743_14_alg».proof.Proof.KITileValue

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx

variable [FloatOps F]

section Half

variable (d : Dev nD) (L : grid1.Coords)

set_option maxHeartbeats 4000000 in
theorem half_body (h3 : T3Spec (F := F) d L) (h4 : T4Spec (F := F) d L)
    (O : CellTallies nD τ sig (HIx 1)) (W : Waits sig (HIx 1))
    (ie : Buf (Elt F) (ieLoc d)) (aw : Buf (Elt F) (awLoc d)) (emb : Buf (Elt F) (embLoc d)) (fo : Buf (Elt F) (resLoc d))
    (hidx : IdxOK ie) (h : Fin k1_t1_loop.trips) :
    halfRes d L O W ie aw emb h fo ⊢ wp frame (wpE (defs₀ (F := F)) 𝒱₀ (thrV d L) none) Set.univ
      (Gen.k1_t1_body L ieV (Memref.isWhole_whole _) awV (Memref.isWhole_whole _) embV (Memref.isWhole_whole _) resV (Memref.isWhole_whole _)
        idxV (Memref.isWhole_whole _) awvV (Memref.isWhole_whole _) buf0V (Memref.isWhole_whole _) buf1V (Memref.isWhole_whole _) outV (Memref.isWhole_whole _)
        cc1_scratch5 cc1_scratch6 cc1_scoped0 cc1_scoped1 cc1_scoped2 cc1_scoped3 (widW L) h ⟨⟩)
      (fun _ => halfRes d L O W ie aw emb h (Pure.Gk (F := F) ie aw emb : Buf (Elt F) (resLoc d))) := by
  unfold Gen.k1_t1_body halfRes
  iintro ⟨#Hmw, Hie, Haw, HembL, HembR, Hres, ⟨%f0, Hidx⟩, ⟨%f1, Hawv⟩, ⟨%f2, Hb0⟩, ⟨%f3, Hb1⟩, ⟨%f4, Hout⟩, HsemA, HsemB, Hs0, Hs1, Hs2, Hs3, %W', %hW', HO⟩
  sl_exec
  -- the scratch buffers now hold the slab of the indices, the slab of the weights, the items' own rows
  have e0 : View.write (Elt F) (idxV).view f0 (half_body.sl.dma0 d L ie h) Finset.univ = (ieK L h).view.read (Elt F) ie := View.write_whole_univ _ _ _
  have e1 : View.write (Elt F) (awvV).view f1 (half_body.sl.dma0_1 d L aw h) Finset.univ = (awK L h).view.read (Elt F) aw := View.write_whole_univ _ _ _
  have e2 : View.write (Elt F) (outV).view f4 (half_body.sl.dma0_2 d L emb h) Finset.univ = (ownK L h).view.read (Elt F) emb := View.write_whole_univ _ _ _
  rw [e0, e1, e2]
  have hidx' : ∀ x, (((ieK L h).view.read (Elt F) ie : Buf (Elt F) (idxLoc d L)) x).toNat ≤ 100000 := by
    intro x
    rw [show ∀ j, (ieK L h).view.read (Elt F) ie j = ie ((ieK L h).view.emb j) from fun j => (View.read_apply _ _).trans (cast_eq _ _)]
    exact hidx _
  -- the gather of chunk 0
  ihave Hi := (pointsTo_share (q := (fullShare : PosShare TreeShare)) (PosShare.mem_left_op_right fullShare)).1 $$ Hidx
  icases Hi with ⟨HidxL, HidxR⟩
  iapply (gatherA_cps d L ((ieK L h).view.read (Elt F) ie) emb hidx' 0 ![0, 0] _ rfl) $$ [Hb0 HembL HidxL HsemA]
  · unfold idleA
    isplitl [Hb0]; · iexists _; iexact Hb0
    isplitl [HembL]; · iexact HembL
    isplitl [HidxL]; · iexact HidxL
    iexact HsemA
  iintro HA
  sl_exec
  -- the chunk loop
  sl_for (I2 d L O W ((awK L h).view.read (Elt F) aw) ((ieK L h).view.read (Elt F) ie) emb ((ownK L h).view.read (Elt F) emb)) $$ [Hawv Hout Hb1 HembR HidxR HsemB HA HO]
  case region =>
    intro k acc
    cases acc
    exact t2_trip d L h3 h4 O W _ _ emb _ hidx' k
  · unfold I2
    rw [if_pos (by decide), Nat.mul_zero, outDone_zero]
    isplitl []; · iexact Hmw
    isplitl [Hawv]; · iexact Hawv
    isplitl [Hout]; · iexact Hout
    isplitl [Hb1]; · iexists _; iexact Hb1
    isplitl [HembR]; · iexact HembR
    isplitl [HidxR]; · iexact HidxR
    isplitl [HsemB]; · iexact HsemB
    isplitl [HA]; · iexact HA
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  iintro %_ HI
  unfold I2
  have hT : Scf.trips k1_t2_loop.lb k1_t2_loop.ub k1_t2_loop.st = 32 := by decide
  rw [hT, if_neg (by decide)]
  unfold idleA
  icases HI with ⟨-, Hawv, Hout, ⟨%fb1, Hb1⟩, HembR, HidxR, HsemB, ⟨⟨%fb0, Hb0⟩, HembL, HidxL, HsemA⟩, %W2, %hW2, HO⟩
  ihave Hidx := (pointsTo_share (q := (fullShare : PosShare TreeShare)) (PosShare.mem_left_op_right fullShare)).2 $$ [HidxL HidxR]
  · isplitl [HidxL] <;> iassumption
  -- the finished rows go out to the half's block of the result
  sl_exec
  sl_step
  isplitl []; · iexact Hmw
  isplitl [Hie]; · iexact Hie
  isplitl [Haw]; · iexact Haw
  isplitl [HembL]; · iexact HembL
  isplitl [HembR]; · iexact HembR
  isplitl [Hres]
  · iapply (Entails.of_eq (pointsTo_congr (half_value d L ie aw emb fo hidx h (half_body.sl.dma0_3 d L ie aw emb h) rfl)))
    iexact Hres
  isplitl [Hidx]; · iexists _; iexact Hidx
  isplitl [Hawv]; · iexists _; iexact Hawv
  isplitl [Hb0]; · iexists _; iexact Hb0
  isplitl [Hb1]; · iexists _; iexact Hb1
  isplitl [Hout]; · iexists _; iexact Hout
  isplitl [HsemA]; · iexact HsemA
  isplitl [HsemB]; · iexact HsemB
  isplitl [Hs0]; · iexact Hs0
  isplitl [Hs1]; · iexact Hs1
  isplitl [Hs2]; · iexact Hs2
  isplitl [Hs3]; · iexact Hs3
  iexists _; isplitr
  swap; · iexact HO
  ipureintro; intro p hp
  rcases Finset.mem_insert.mp hp with hp | hp; · exact .inr (hp ▸ rfl)
  exact hW2 p hp

end Half

end Cert.Proof.KI

end
-- ==== Proof.KIItemReads.lean ====
/-
  What one trip of an item loop reads and writes, as functions of the three scratch buffers: loads through the whole
  buffers at unit-stride rectangles read at an index, the update of one row of the accumulator by the thirty-two
  multiply-adds, and that four such updates, rows `4 c` to `4 c + 3`, are the chunk's update.
-/
import proofs.«203743_g50225347559739_cont_8to1c4_743_14_alg».proof.Proof.KITileDefs
import proofs.«203743_g50225347559739_cont_8to1c4_743_14_alg».proof.Proof.KIItemPure
import Idealize.ShloMosaic.Lib.WritesUnit

noncomputable section

namespace Cert.Proof.KI

open Cert.KernelIdeal Cert.KernelIdeal.Gen

open Idealize.ShloMosaic
open Idealize.ShloMosaic.ValueIdx

variable {F : FTy → Type}

/-! ## Loads through the whole scratch buffers -/

/-- Sixteen weights loaded at offset `off`: lane `i` is entry `off + i`. -/
theorem read_aw (fw : S8192.Idx → F .f32) (off : Fin 1 → ℕ) (inb : ∀ a, off a + S16.size a ≤ S8192.size a) (i : Fin 16) :
    View.readAt (Elt F) (awvV).view (Rect.unit (s := S8192) off S16.size inb).toLoadRect fw (ix1 i)
      = fw (ix1 (⟨off 0 + i.val, by
          have h := inb 0; have := i.isLt
          have h1 : S16.size 0 = 16 := rfl
          have h2 : S8192.size 0 = 8192 := rfl
          omega⟩ : Fin 8192)) := by
  show fw _ = fw _
  congr 1
  funext a
  match a with
  | ⟨0, _⟩ => exact Fin.ext (by show off 0 + 1 * i.val = _; rw [Nat.one_mul])

/-- Sixteen lanes of one row of a 128 x 128 buffer loaded at offsets `off`: lane `l` is entry `(off 0, off 1 + l)`. -/
theorem read_buf0 (fb : S128x128.Idx → F .f32) (off : Fin 2 → ℕ) (inb : ∀ a, off a + S1x16.size a ≤ S128x128.size a) (u : Fin 1) (l : Fin 16) :
    View.readAt (Elt F) (buf0V).view (Rect.unit (s := S128x128) off S1x16.size inb).toLoadRect fb (ix2 u l)
      = fb (ix2 (⟨off 0, by
            have h := inb 0
            have h1 : S1x16.size 0 = 1 := rfl
            have h2 : S128x128.size 0 = 128 := rfl
            omega⟩ : Fin 128)
          (⟨off 1 + l.val, by
            have h := inb 1; have := l.isLt
            have h1 : S1x16.size 1 = 16 := rfl
            have h2 : S128x128.size 1 = 128 := rfl
            omega⟩ : Fin 128)) := by
  show fb _ = fb _
  congr 1
  funext a
  match a with
  | ⟨0, _⟩ => exact Fin.ext (by show off 0 + 1 * u.val = off 0; have := u.isLt; omega)
  | ⟨1, _⟩ => exact Fin.ext (by show off 1 + 1 * l.val = _; rw [Nat.one_mul])

/-- The same through the second gather buffer. -/
theorem read_buf1 (fb : S128x128.Idx → F .f32) (off : Fin 2 → ℕ) (inb : ∀ a, off a + S1x16.size a ≤ S128x128.size a) (u : Fin 1) (l : Fin 16) :
    View.readAt (Elt F) (buf1V).view (Rect.unit (s := S128x128) off S1x16.size inb).toLoadRect fb (ix2 u l)
      = fb (ix2 (⟨off 0, by
            have h := inb 0
            have h1 : S1x16.size 0 = 1 := rfl
            have h2 : S128x128.size 0 = 128 := rfl
            omega⟩ : Fin 128)
          (⟨off 1 + l.val, by
            have h := inb 1; have := l.isLt
            have h1 : S1x16.size 1 = 16 := rfl
            have h2 : S128x128.size 1 = 128 := rfl
            omega⟩ : Fin 128)) := by
  show fb _ = fb _
  congr 1
  funext a
  match a with
  | ⟨0, _⟩ => exact Fin.ext (by show off 0 + 1 * u.val = off 0; have := u.isLt; omega)
  | ⟨1, _⟩ => exact Fin.ext (by show off 1 + 1 * l.val = _; rw [Nat.one_mul])

/-- Sixteen lanes of one row of the accumulator loaded at offsets `off`. -/
theorem read_out (g : S256x128.Idx → F .f32) (off : Fin 2 → ℕ) (inb : ∀ a, off a + S1x16.size a ≤ S256x128.size a) (u : Fin 1) (l : Fin 16) :
    View.readAt (Elt F) (outV).view (Rect.unit (s := S256x128) off S1x16.size inb).toLoadRect g (ix2 u l)
      = g (ix2 (⟨off 0, by
            have h := inb 0
            have h1 : S1x16.size 0 = 1 := rfl
            have h2 : S256x128.size 0 = 256 := rfl
            omega⟩ : Fin 256)
          (⟨off 1 + l.val, by
            have h := inb 1; have := l.isLt
            have h1 : S1x16.size 1 = 16 := rfl
            have h2 : S256x128.size 1 = 128 := rfl
            omega⟩ : Fin 128)) := by
  show g _ = g _
  congr 1
  funext a
  match a with
  | ⟨0, _⟩ => exact Fin.ext (by show off 0 + 1 * u.val = off 0; have := u.isLt; omega)
  | ⟨1, _⟩ => exact Fin.ext (by show off 1 + 1 * l.val = _; rw [Nat.one_mul])

variable [FloatOps F]

/-! ## One row's update -/

/-- The weights of row `r`. -/
def rowW (fw : S8192.Idx → F .f32) (r : Fin 256) : Fin 32 → F .f32 :=
  fun p => fw (ix1 (⟨r.val * 32 + p.val, by have := r.isLt; have := p.isLt; omega⟩ : Fin 8192))

/-- Column `c` of the thirty-two gathered rows of item `sub` of a chunk. -/
def rowE (fb : S128x128.Idx → F .f32) (sub : Fin 4) (c : Fin 128) : Fin 32 → F .f32 :=
  fun p => fb (ix2 (⟨sub.val * 32 + p.val, by have := sub.isLt; have := p.isLt; omega⟩ : Fin 128) c)

/-- Row `r` of the accumulator replaced by its accumulation with item `sub`'s gathered rows; the other rows kept. -/
def rowStep (fw : S8192.Idx → F .f32) (fb : S128x128.Idx → F .f32) (g : S256x128.Idx → F .f32) (r : Fin 256) (sub : Fin 4) :
    S256x128.Idx → F .f32 :=
  fun y => if (y 0).val = r.val then Pure.acc32 (rowW fw r) (rowE fb sub (y 1)) (g y) else g y

/-- The update of row `4 c + k` takes the chunk's first `k` rows done to its first `k + 1`. -/
theorem rowStep_outAfter (fw : S8192.Idx → F .f32) (fb : S128x128.Idx → F .f32) (fo : S256x128.Idx → F .f32) (c : ℕ) (k : Fin 4)
    (r : Fin 256) (hr : r.val = 4 * c + k.val) :
    rowStep fw fb (outAfter fw fb fo c k.val) r k = outAfter fw fb fo c (k.val + 1) := by
  funext y
  have hk := k.isLt
  unfold rowStep outAfter
  by_cases hy : (y 0).val = r.val
  · have h1 : (y 0).val / 4 = c ∧ (y 0).val % 4 < k.val + 1 := by omega
    have h2 : ¬((y 0).val / 4 = c ∧ (y 0).val % 4 < k.val) := by omega
    rw [if_pos hy, if_pos h1, if_neg h2]
    unfold itemVal
    refine Pure.acc32_congr (fun p => ?_) (fun p => ?_) rfl
    · unfold rowW
      congr 2
      exact Fin.ext (by show r.val * 32 + p.val = (y 0).val * 32 + p.val; rw [hy])
    · unfold rowE
      congr 2
      exact Fin.ext (by show k.val * 32 + p.val = (y 0).val % 4 * 32 + p.val; omega)
  · have h : ((y 0).val / 4 = c ∧ (y 0).val % 4 < k.val + 1) ↔ ((y 0).val / 4 = c ∧ (y 0).val % 4 < k.val) := by omega
    rw [if_neg hy]
    by_cases h3 : (y 0).val / 4 = c ∧ (y 0).val % 4 < k.val
    · rw [if_pos h3, if_pos (h.mpr h3)]
    · rw [if_neg h3, if_neg (fun h4 => h3 (h.mp h4))]

/-! ## A row stored as eight pieces of sixteen lanes -/

/-- Two indices of a rank-2 array with equal coordinates read the same entry. -/
theorem idx2_congr {α : Type} {n0 n1 : ℕ} (f : (⟨2, ![n0, n1]⟩ : Shape).Idx → α) {a a' : Fin n0} {b b' : Fin n1}
    (ha : a.val = a'.val) (hb : b.val = b'.val) : f (ix2 a b) = f (ix2 a' b') := by
  rw [Fin.ext ha, Fin.ext hb]

/-- The newest piece, sixteen lanes of row `r` from column `c`: under it the piece's payload, elsewhere the older pieces. -/
theorem read_cons_piece (g : S256x128.Idx → F .f32) (r c : ℕ) (o : Fin 2 → ℕ) (inb : ∀ a, o a + S1x16.size a ≤ S256x128.size a)
    (P : S1x16.Idx → F .f32) (Lst : List (View.Piece (Elt F) S256x128 .f32)) (ho : o = ![r, c]) (y : S256x128.Idx) :
    (outV).view.read (Elt F) ((outV).view.writes (Elt F) g (⟨Rect.unit (s := S256x128) o S1x16.size inb, P⟩ :: Lst)) y
      = if h : (y 0).val = r ∧ c ≤ (y 1).val ∧ (y 1).val < c + 16 then P (ix2 (0 : Fin 1) (⟨(y 1).val - c, by omega⟩ : Fin 16))
        else (outV).view.read (Elt F) ((outV).view.writes (Elt F) g Lst) y := by
  by_cases h : (y 0).val = r ∧ c ≤ (y 1).val ∧ (y 1).val < c + 16
  · rw [dif_pos h]
    refine View.read_writes_cons_unit_of_mem (outV).view g inb P Lst y (ix2 (0 : Fin 1) (⟨(y 1).val - c, by omega⟩ : Fin 16)) ho ?_
    intro a
    match a with
    | ⟨0, _⟩ => show (y 0).val = r + 0; omega
    | ⟨1, _⟩ => show (y 1).val = c + ((y 1).val - c); omega
  · rw [dif_neg h]
    by_cases h0 : (y 0).val = r
    · exact View.read_writes_cons_unit_of_not_mem (outV).view g inb P Lst y ho 1 (by show (y 1).val < c ∨ c + 16 ≤ (y 1).val; omega)
    · exact View.read_writes_cons_unit_of_not_mem (outV).view g inb P Lst y ho 0 (by show (y 0).val < r ∨ r + 1 ≤ (y 0).val; omega)

/-- Eight pieces of sixteen lanes that tile row `r`, each reading `Q` at its lanes: the buffer then holds `Q` on row `r` and
    what it held elsewhere. -/
theorem read_writes8 (g : S256x128.Idx → F .f32) (r : Fin 256)
    (o7 o6 o5 o4 o3 o2 o1 o0 : Fin 2 → ℕ)
    (i7 : ∀ a, o7 a + S1x16.size a ≤ S256x128.size a) (i6 : ∀ a, o6 a + S1x16.size a ≤ S256x128.size a)
    (i5 : ∀ a, o5 a + S1x16.size a ≤ S256x128.size a) (i4 : ∀ a, o4 a + S1x16.size a ≤ S256x128.size a)
    (i3 : ∀ a, o3 a + S1x16.size a ≤ S256x128.size a) (i2 : ∀ a, o2 a + S1x16.size a ≤ S256x128.size a)
    (i1 : ∀ a, o1 a + S1x16.size a ≤ S256x128.size a) (i0 : ∀ a, o0 a + S1x16.size a ≤ S256x128.size a)
    (P7 P6 P5 P4 P3 P2 P1 P0 : S1x16.Idx → F .f32)
    (h7 : o7 = ![r.val, 112]) (h6 : o6 = ![r.val, 96]) (h5 : o5 = ![r.val, 80]) (h4 : o4 = ![r.val, 64])
    (h3 : o3 = ![r.val, 48]) (h2 : o2 = ![r.val, 32]) (h1 : o1 = ![r.val, 16]) (h0 : o0 = ![r.val, 0])
    (Q : S256x128.Idx → F .f32)
    (q0 : ∀ l : Fin 16, P0 (ix2 (0 : Fin 1) l) = Q (ix2 r (⟨0 + l.val, by have := l.isLt; omega⟩ : Fin 128)))
    (q1 : ∀ l : Fin 16, P1 (ix2 (0 : Fin 1) l) = Q (ix2 r (⟨16 + l.val, by have := l.isLt; omega⟩ : Fin 128)))
    (q2 : ∀ l : Fin 16, P2 (ix2 (0 : Fin 1) l) = Q (ix2 r (⟨32 + l.val, by have := l.isLt; omega⟩ : Fin 128)))
    (q3 : ∀ l : Fin 16, P3 (ix2 (0 : Fin 1) l) = Q (ix2 r (⟨48 + l.val, by have := l.isLt; omega⟩ : Fin 128)))
    (q4 : ∀ l : Fin 16, P4 (ix2 (0 : Fin 1) l) = Q (ix2 r (⟨64 + l.val, by have := l.isLt; omega⟩ : Fin 128)))
    (q5 : ∀ l : Fin 16, P5 (ix2 (0 : Fin 1) l) = Q (ix2 r (⟨80 + l.val, by have := l.isLt; omega⟩ : Fin 128)))
    (q6 : ∀ l : Fin 16, P6 (ix2 (0 : Fin 1) l) = Q (ix2 r (⟨96 + l.val, by have := l.isLt; omega⟩ : Fin 128)))
    (q7 : ∀ l : Fin 16, P7 (ix2 (0 : Fin 1) l) = Q (ix2 r (⟨112 + l.val, by have := l.isLt; omega⟩ : Fin 128)))
    (y : S256x128.Idx) :
    (outV).view.writes (Elt F) g
        [⟨Rect.unit (s := S256x128) o7 S1x16.size i7, P7⟩,
         ⟨Rect.unit (s := S256x128) o6 S1x16.size i6, P6⟩,
         ⟨Rect.unit (s := S256x128) o5 S1x16.size i5, P5⟩,
         ⟨Rect.unit (s := S256x128) o4 S1x16.size i4, P4⟩,
         ⟨Rect.unit (s := S256x128) o3 S1x16.size i3, P3⟩,
         ⟨Rect.unit (s := S256x128) o2 S1x16.size i2, P2⟩,
         ⟨Rect.unit (s := S256x128) o1 S1x16.size i1, P1⟩,
         ⟨Rect.unit (s := S256x128) o0 S1x16.size i0, P0⟩] y
      = if (y 0).val = r.val then Q y else g y := by
  have hread : ∀ f : S256x128.Idx → F .f32, f y = (outV).view.read (Elt F) f y := fun _ => rfl
  refine (hread _).trans ?_
  rw [read_cons_piece g r.val 112 o7 i7 P7 _ h7,
    read_cons_piece g r.val 96 o6 i6 P6 _ h6,
    read_cons_piece g r.val 80 o5 i5 P5 _ h5,
    read_cons_piece g r.val 64 o4 i4 P4 _ h4,
    read_cons_piece g r.val 48 o3 i3 P3 _ h3,
    read_cons_piece g r.val 32 o2 i2 P2 _ h2,
    read_cons_piece g r.val 16 o1 i1 P1 _ h1,
    read_cons_piece g r.val 0 o0 i0 P0 _ h0]
  have hy1 : (y 1).val < 128 := (y 1).isLt
  have hyy : y = ix2 (y 0) (y 1) := eq_ix2 y
  by_cases hr : (y 0).val = r.val
  · rw [if_pos hr]
    rw [hyy]
    by_cases c7 : (y 0).val = r.val ∧ 112 ≤ (y 1).val ∧ (y 1).val < 112 + 16
    · rw [dif_pos c7, q7]
      exact idx2_congr Q (by show r.val = (y 0).val; omega) (by show 112 + ((y 1).val - 112) = (y 1).val; omega)
    rw [dif_neg c7]
    by_cases c6 : (y 0).val = r.val ∧ 96 ≤ (y 1).val ∧ (y 1).val < 96 + 16
    · rw [dif_pos c6, q6]
      exact idx2_congr Q (by show r.val = (y 0).val; omega) (by show 96 + ((y 1).val - 96) = (y 1).val; omega)
    rw [dif_neg c6]
    by_cases c5 : (y 0).val = r.val ∧ 80 ≤ (y 1).val ∧ (y 1).val < 80 + 16
    · rw [dif_pos c5, q5]
      exact idx2_congr Q (by show r.val = (y 0).val; omega) (by show 80 + ((y 1).val - 80) = (y 1).val; omega)
    rw [dif_neg c5]
    by_cases c4 : (y 0).val = r.val ∧ 64 ≤ (y 1).val ∧ (y 1).val < 64 + 16
    · rw [dif_pos c4, q4]
      exact idx2_congr Q (by show r.val = (y 0).val; omega) (by show 64 + ((y 1).val - 64) = (y 1).val; omega)
    rw [dif_neg c4]
    by_cases c3 : (y 0).val = r.val ∧ 48 ≤ (y 1).val ∧ (y 1).val < 48 + 16
    · rw [dif_pos c3, q3]
      exact idx2_congr Q (by show r.val = (y 0).val; omega) (by show 48 + ((y 1).val - 48) = (y 1).val; omega)
    rw [dif_neg c3]
    by_cases c2 : (y 0).val = r.val ∧ 32 ≤ (y 1).val ∧ (y 1).val < 32 + 16
    · rw [dif_pos c2, q2]
      exact idx2_congr Q (by show r.val = (y 0).val; omega) (by show 32 + ((y 1).val - 32) = (y 1).val; omega)
    rw [dif_neg c2]
    by_cases c1 : (y 0).val = r.val ∧ 16 ≤ (y 1).val ∧ (y 1).val < 16 + 16
    · rw [dif_pos c1, q1]
      exact idx2_congr Q (by show r.val = (y 0).val; omega) (by show 16 + ((y 1).val - 16) = (y 1).val; omega)
    rw [dif_neg c1]
    by_cases c0 : (y 0).val = r.val ∧ 0 ≤ (y 1).val ∧ (y 1).val < 0 + 16
    · rw [dif_pos c0, q0]
      exact idx2_congr Q (by show r.val = (y 0).val; omega) (by show 0 + ((y 1).val - 0) = (y 1).val; omega)
    rw [dif_neg c0]
    exfalso; omega
  · rw [if_neg hr,
      dif_neg (show ¬((y 0).val = r.val ∧ 112 ≤ (y 1).val ∧ (y 1).val < 112 + 16) from fun h => hr h.1),
      dif_neg (show ¬((y 0).val = r.val ∧ 96 ≤ (y 1).val ∧ (y 1).val < 96 + 16) from fun h => hr h.1),
      dif_neg (show ¬((y 0).val = r.val ∧ 80 ≤ (y 1).val ∧ (y 1).val < 80 + 16) from fun h => hr h.1),
      dif_neg (show ¬((y 0).val = r.val ∧ 64 ≤ (y 1).val ∧ (y 1).val < 64 + 16) from fun h => hr h.1),
      dif_neg (show ¬((y 0).val = r.val ∧ 48 ≤ (y 1).val ∧ (y 1).val < 48 + 16) from fun h => hr h.1),
      dif_neg (show ¬((y 0).val = r.val ∧ 32 ≤ (y 1).val ∧ (y 1).val < 32 + 16) from fun h => hr h.1),
      dif_neg (show ¬((y 0).val = r.val ∧ 16 ≤ (y 1).val ∧ (y 1).val < 16 + 16) from fun h => hr h.1),
      dif_neg (show ¬((y 0).val = r.val ∧ 0 ≤ (y 1).val ∧ (y 1).val < 0 + 16) from fun h => hr h.1)]
    rfl

/-! ## Loop `k1_t3_loop`: the loaded values as the trip reads them, and what they are -/

/-- The thirty-two weights the trip loads: two loads of sixteen. -/
def wraw3 (fw : S8192.Idx → F .f32) (t2 : Fin k1_t2_loop.trips) (t : Fin k1_t3_loop.trips) : Fin 32 → F .f32 := fun p =>
  if h : p.val < 16 then
    View.readAt (Elt F) (awvV).view (Rect.unit (s := S8192) (k1_off5 t2 t) S16.size (k1_off5_inb t2 t)).toLoadRect fw (ix1 (⟨p.val, h⟩ : Fin 16))
  else
    View.readAt (Elt F) (awvV).view (Rect.unit (s := S8192) (k1_off6 t2 t) S16.size (k1_off6_inb t2 t)).toLoadRect fw
      (ix1 (⟨p.val - 16, by have := p.isLt; omega⟩ : Fin 16))

theorem wraw3_eq (fw : S8192.Idx → F .f32) (t2 : Fin k1_t2_loop.trips) (t : Fin k1_t3_loop.trips) (r : Fin 256)
    (hr : r.val = 8 * t2.val + t.val) (p : Fin 32) : wraw3 fw t2 t p = rowW fw r p := by
  unfold wraw3 rowW
  by_cases h : p.val < 16
  · rw [dif_pos h, read_aw]
    refine congrArg (fun n : Fin 8192 => fw (ix1 n)) (Fin.ext ?_)
    show k1_off5 t2 t 0 + p.val = r.val * 32 + p.val
    rw [k1_off5_eq]
    show 256 * t2.val + 32 * t.val + p.val = r.val * 32 + p.val
    omega
  · rw [dif_neg h, read_aw]
    refine congrArg (fun n : Fin 8192 => fw (ix1 n)) (Fin.ext ?_)
    show k1_off6 t2 t 0 + (p.val - 16) = r.val * 32 + p.val
    rw [k1_off6_eq]
    show 256 * t2.val + 32 * t.val + 16 + (p.val - 16) = r.val * 32 + p.val
    omega

/-- Lane `l` of lane group 0 of the thirty-two gathered rows, as loaded. -/
def eraw3_0 (fb : S128x128.Idx → F .f32) (t : Fin k1_t3_loop.trips) (l : Fin 16) : Fin 32 → F .f32 := fun p =>
  View.readAt (Elt F) (buf0V).view (Rect.unit (s := S128x128) (k1_off15 t (BitVec.ofNat 32 p.val)) S1x16.size (k1_off15_inb t p)).toLoadRect fb
    (ix2 (0 : Fin 1) l)

theorem eraw3_0_eq (fb : S128x128.Idx → F .f32) (t : Fin k1_t3_loop.trips) (sub : Fin 4) (hs : sub.val = t.val) (l : Fin 16) (c : Fin 128)
    (hc : c.val = 0 + l.val) (p : Fin 32) : eraw3_0 fb t l p = rowE fb sub c p := by
  unfold eraw3_0 rowE
  rw [read_buf0]
  have e := k1_off15_eq t p
  refine idx2_congr fb ?_ ?_
  · show k1_off15 t (BitVec.ofNat 32 p.val) 0 = sub.val * 32 + p.val
    rw [e]; show 32 * t.val + p.val = sub.val * 32 + p.val; omega
  · show k1_off15 t (BitVec.ofNat 32 p.val) 1 + l.val = c.val
    rw [e]; show 0 + l.val = c.val; omega

/-- Lane `l` of lane group 0 of the accumulator's row, as loaded. -/
def graw3_0 (g : S256x128.Idx → F .f32) (t2 : Fin k1_t2_loop.trips) (t : Fin k1_t3_loop.trips) (l : Fin 16) : F .f32 :=
  View.readAt (Elt F) (outV).view (Rect.unit (s := S256x128) (k1_off7 t2 t) S1x16.size (k1_off7_inb t2 t)).toLoadRect g (ix2 (0 : Fin 1) l)

theorem graw3_0_eq (g : S256x128.Idx → F .f32) (t2 : Fin k1_t2_loop.trips) (t : Fin k1_t3_loop.trips) (r : Fin 256)
    (hr : r.val = 8 * t2.val + t.val) (l : Fin 16) (c : Fin 128) (hc : c.val = 0 + l.val) :
    graw3_0 g t2 t l = g (ix2 r c) := by
  unfold graw3_0
  rw [read_out]
  have e := k1_off7_eq t2 t
  refine idx2_congr g ?_ ?_
  · show k1_off7 t2 t 0 = r.val
    rw [e]; show 8 * t2.val + t.val = r.val; omega
  · show k1_off7 t2 t 1 + l.val = c.val
    rw [e]; show 0 + l.val = c.val; omega

/-- Lane `l` of lane group 1 of the thirty-two gathered rows, as loaded. -/
def eraw3_1 (fb : S128x128.Idx → F .f32) (t : Fin k1_t3_loop.trips) (l : Fin 16) : Fin 32 → F .f32 := fun p =>
  View.readAt (Elt F) (buf0V).view (Rect.unit (s := S128x128) (k1_off16 t (BitVec.ofNat 32 p.val)) S1x16.size (k1_off16_inb t p)).toLoadRect fb
    (ix2 (0 : Fin 1) l)

theorem eraw3_1_eq (fb : S128x128.Idx → F .f32) (t : Fin k1_t3_loop.trips) (sub : Fin 4) (hs : sub.val = t.val) (l : Fin 16) (c : Fin 128)
    (hc : c.val = 16 + l.val) (p : Fin 32) : eraw3_1 fb t l p = rowE fb sub c p := by
  unfold eraw3_1 rowE
  rw [read_buf0]
  have e := k1_off16_eq t p
  refine idx2_congr fb ?_ ?_
  · show k1_off16 t (BitVec.ofNat 32 p.val) 0 = sub.val * 32 + p.val
    rw [e]; show 32 * t.val + p.val = sub.val * 32 + p.val; omega
  · show k1_off16 t (BitVec.ofNat 32 p.val) 1 + l.val = c.val
    rw [e]; show 16 + l.val = c.val; omega

/-- Lane `l` of lane group 1 of the accumulator's row, as loaded. -/
def graw3_1 (g : S256x128.Idx → F .f32) (t2 : Fin k1_t2_loop.trips) (t : Fin k1_t3_loop.trips) (l : Fin 16) : F .f32 :=
  View.readAt (Elt F) (outV).view (Rect.unit (s := S256x128) (k1_off8 t2 t) S1x16.size (k1_off8_inb t2 t)).toLoadRect g (ix2 (0 : Fin 1) l)

theorem graw3_1_eq (g : S256x128.Idx → F .f32) (t2 : Fin k1_t2_loop.trips) (t : Fin k1_t3_loop.trips) (r : Fin 256)
    (hr : r.val = 8 * t2.val + t.val) (l : Fin 16) (c : Fin 128) (hc : c.val = 16 + l.val) :
    graw3_1 g t2 t l = g (ix2 r c) := by
  unfold graw3_1
  rw [read_out]
  have e := k1_off8_eq t2 t
  refine idx2_congr g ?_ ?_
  · show k1_off8 t2 t 0 = r.val
    rw [e]; show 8 * t2.val + t.val = r.val; omega
  · show k1_off8 t2 t 1 + l.val = c.val
    rw [e]; show 16 + l.val = c.val; omega

/-- Lane `l` of lane group 2 of the thirty-two gathered rows, as loaded. -/
def eraw3_2 (fb : S128x128.Idx → F .f32) (t : Fin k1_t3_loop.trips) (l : Fin 16) : Fin 32 → F .f32 := fun p =>
  View.readAt (Elt F) (buf0V).view (Rect.unit (s := S128x128) (k1_off17 t (BitVec.ofNat 32 p.val)) S1x16.size (k1_off17_inb t p)).toLoadRect fb
    (ix2 (0 : Fin 1) l)

theorem eraw3_2_eq (fb : S128x128.Idx → F .f32) (t : Fin k1_t3_loop.trips) (sub : Fin 4) (hs : sub.val = t.val) (l : Fin 16) (c : Fin 128)
    (hc : c.val = 32 + l.val) (p : Fin 32) : eraw3_2 fb t l p = rowE fb sub c p := by
  unfold eraw3_2 rowE
  rw [read_buf0]
  have e := k1_off17_eq t p
  refine idx2_congr fb ?_ ?_
  · show k1_off17 t (BitVec.ofNat 32 p.val) 0 = sub.val * 32 + p.val
    rw [e]; show 32 * t.val + p.val = sub.val * 32 + p.val; omega
  · show k1_off17 t (BitVec.ofNat 32 p.val) 1 + l.val = c.val
    rw [e]; show 32 + l.val = c.val; omega

/-- Lane `l` of lane group 2 of the accumulator's row, as loaded. -/
def graw3_2 (g : S256x128.Idx → F .f32) (t2 : Fin k1_t2_loop.trips) (t : Fin k1_t3_loop.trips) (l : Fin 16) : F .f32 :=
  View.readAt (Elt F) (outV).view (Rect.unit (s := S256x128) (k1_off9 t2 t) S1x16.size (k1_off9_inb t2 t)).toLoadRect g (ix2 (0 : Fin 1) l)

theorem graw3_2_eq (g : S256x128.Idx → F .f32) (t2 : Fin k1_t2_loop.trips) (t : Fin k1_t3_loop.trips) (r : Fin 256)
    (hr : r.val = 8 * t2.val + t.val) (l : Fin 16) (c : Fin 128) (hc : c.val = 32 + l.val) :
    graw3_2 g t2 t l = g (ix2 r c) := by
  unfold graw3_2
  rw [read_out]
  have e := k1_off9_eq t2 t
  refine idx2_congr g ?_ ?_
  · show k1_off9 t2 t 0 = r.val
    rw [e]; show 8 * t2.val + t.val = r.val; omega
  · show k1_off9 t2 t 1 + l.val = c.val
    rw [e]; show 32 + l.val = c.val; omega

/-- Lane `l` of lane group 3 of the thirty-two gathered rows, as loaded. -/
def eraw3_3 (fb : S128x128.Idx → F .f32) (t : Fin k1_t3_loop.trips) (l : Fin 16) : Fin 32 → F .f32 := fun p =>
  View.readAt (Elt F) (buf0V).view (Rect.unit (s := S128x128) (k1_off18 t (BitVec.ofNat 32 p.val)) S1x16.size (k1_off18_inb t p)).toLoadRect fb
    (ix2 (0 : Fin 1) l)

theorem eraw3_3_eq (fb : S128x128.Idx → F .f32) (t : Fin k1_t3_loop.trips) (sub : Fin 4) (hs : sub.val = t.val) (l : Fin 16) (c : Fin 128)
    (hc : c.val = 48 + l.val) (p : Fin 32) : eraw3_3 fb t l p = rowE fb sub c p := by
  unfold eraw3_3 rowE
  rw [read_buf0]
  have e := k1_off18_eq t p
  refine idx2_congr fb ?_ ?_
  · show k1_off18 t (BitVec.ofNat 32 p.val) 0 = sub.val * 32 + p.val
    rw [e]; show 32 * t.val + p.val = sub.val * 32 + p.val; omega
  · show k1_off18 t (BitVec.ofNat 32 p.val) 1 + l.val = c.val
    rw [e]; show 48 + l.val = c.val; omega

/-- Lane `l` of lane group 3 of the accumulator's row, as loaded. -/
def graw3_3 (g : S256x128.Idx → F .f32) (t2 : Fin k1_t2_loop.trips) (t : Fin k1_t3_loop.trips) (l : Fin 16) : F .f32 :=
  View.readAt (Elt F) (outV).view (Rect.unit (s := S256x128) (k1_off10 t2 t) S1x16.size (k1_off10_inb t2 t)).toLoadRect g (ix2 (0 : Fin 1) l)

theorem graw3_3_eq (g : S256x128.Idx → F .f32) (t2 : Fin k1_t2_loop.trips) (t : Fin k1_t3_loop.trips) (r : Fin 256)
    (hr : r.val = 8 * t2.val + t.val) (l : Fin 16) (c : Fin 128) (hc : c.val = 48 + l.val) :
    graw3_3 g t2 t l = g (ix2 r c) := by
  unfold graw3_3
  rw [read_out]
  have e := k1_off10_eq t2 t
  refine idx2_congr g ?_ ?_
  · show k1_off10 t2 t 0 = r.val
    rw [e]; show 8 * t2.val + t.val = r.val; omega
  · show k1_off10 t2 t 1 + l.val = c.val
    rw [e]; show 48 + l.val = c.val; omega

/-- Lane `l` of lane group 4 of the thirty-two gathered rows, as loaded. -/
def eraw3_4 (fb : S128x128.Idx → F .f32) (t : Fin k1_t3_loop.trips) (l : Fin 16) : Fin 32 → F .f32 := fun p =>
  View.readAt (Elt F) (buf0V).view (Rect.unit (s := S128x128) (k1_off19 t (BitVec.ofNat 32 p.val)) S1x16.size (k1_off19_inb t p)).toLoadRect fb
    (ix2 (0 : Fin 1) l)

theorem eraw3_4_eq (fb : S128x128.Idx → F .f32) (t : Fin k1_t3_loop.trips) (sub : Fin 4) (hs : sub.val = t.val) (l : Fin 16) (c : Fin 128)
    (hc : c.val = 64 + l.val) (p : Fin 32) : eraw3_4 fb t l p = rowE fb sub c p := by
  unfold eraw3_4 rowE
  rw [read_buf0]
  have e := k1_off19_eq t p
  refine idx2_congr fb ?_ ?_
  · show k1_off19 t (BitVec.ofNat 32 p.val) 0 = sub.val * 32 + p.val
    rw [e]; show 32 * t.val + p.val = sub.val * 32 + p.val; omega
  · show k1_off19 t (BitVec.ofNat 32 p.val) 1 + l.val = c.val
    rw [e]; show 64 + l.val = c.val; omega

/-- Lane `l` of lane group 4 of the accumulator's row, as loaded. -/
def graw3_4 (g : S256x128.Idx → F .f32) (t2 : Fin k1_t2_loop.trips) (t : Fin k1_t3_loop.trips) (l : Fin 16) : F .f32 :=
  View.readAt (Elt F) (outV).view (Rect.unit (s := S256x128) (k1_off11 t2 t) S1x16.size (k1_off11_inb t2 t)).toLoadRect g (ix2 (0 : Fin 1) l)

theorem graw3_4_eq (g : S256x128.Idx → F .f32) (t2 : Fin k1_t2_loop.trips) (t : Fin k1_t3_loop.trips) (r : Fin 256)
    (hr : r.val = 8 * t2.val + t.val) (l : Fin 16) (c : Fin 128) (hc : c.val = 64 + l.val) :
    graw3_4 g t2 t l = g (ix2 r c) := by
  unfold graw3_4
  rw [read_out]
  have e := k1_off11_eq t2 t
  refine idx2_congr g ?_ ?_
  · show k1_off11 t2 t 0 = r.val
    rw [e]; show 8 * t2.val + t.val = r.val; omega
  · show k1_off11 t2 t 1 + l.val = c.val
    rw [e]; show 64 + l.val = c.val; omega

/-- Lane `l` of lane group 5 of the thirty-two gathered rows, as loaded. -/
def eraw3_5 (fb : S128x128.Idx → F .f32) (t : Fin k1_t3_loop.trips) (l : Fin 16) : Fin 32 → F .f32 := fun p =>
  View.readAt (Elt F) (buf0V).view (Rect.unit (s := S128x128) (k1_off20 t (BitVec.ofNat 32 p.val)) S1x16.size (k1_off20_inb t p)).toLoadRect fb
    (ix2 (0 : Fin 1) l)

theorem eraw3_5_eq (fb : S128x128.Idx → F .f32) (t : Fin k1_t3_loop.trips) (sub : Fin 4) (hs : sub.val = t.val) (l : Fin 16) (c : Fin 128)
    (hc : c.val = 80 + l.val) (p : Fin 32) : eraw3_5 fb t l p = rowE fb sub c p := by
  unfold eraw3_5 rowE
  rw [read_buf0]
  have e := k1_off20_eq t p
  refine idx2_congr fb ?_ ?_
  · show k1_off20 t (BitVec.ofNat 32 p.val) 0 = sub.val * 32 + p.val
    rw [e]; show 32 * t.val + p.val = sub.val * 32 + p.val; omega
  · show k1_off20 t (BitVec.ofNat 32 p.val) 1 + l.val = c.val
    rw [e]; show 80 + l.val = c.val; omega

/-- Lane `l` of lane group 5 of the accumulator's row, as loaded. -/
def graw3_5 (g : S256x128.Idx → F .f32) (t2 : Fin k1_t2_loop.trips) (t : Fin k1_t3_loop.trips) (l : Fin 16) : F .f32 :=
  View.readAt (Elt F) (outV).view (Rect.unit (s := S256x128) (k1_off12 t2 t) S1x16.size (k1_off12_inb t2 t)).toLoadRect g (ix2 (0 : Fin 1) l)

theorem graw3_5_eq (g : S256x128.Idx → F .f32) (t2 : Fin k1_t2_loop.trips) (t : Fin k1_t3_loop.trips) (r : Fin 256)
    (hr : r.val = 8 * t2.val + t.val) (l : Fin 16) (c : Fin 128) (hc : c.val = 80 + l.val) :
    graw3_5 g t2 t l = g (ix2 r c) := by
  unfold graw3_5
  rw [read_out]
  have e := k1_off12_eq t2 t
  refine idx2_congr g ?_ ?_
  · show k1_off12 t2 t 0 = r.val
    rw [e]; show 8 * t2.val + t.val = r.val; omega
  · show k1_off12 t2 t 1 + l.val = c.val
    rw [e]; show 80 + l.val = c.val; omega

/-- Lane `l` of lane group 6 of the thirty-two gathered rows, as loaded. -/
def eraw3_6 (fb : S128x128.Idx → F .f32) (t : Fin k1_t3_loop.trips) (l : Fin 16) : Fin 32 → F .f32 := fun p =>
  View.readAt (Elt F) (buf0V).view (Rect.unit (s := S128x128) (k1_off21 t (BitVec.ofNat 32 p.val)) S1x16.size (k1_off21_inb t p)).toLoadRect fb
    (ix2 (0 : Fin 1) l)

theorem eraw3_6_eq (fb : S128x128.Idx → F .f32) (t : Fin k1_t3_loop.trips) (sub : Fin 4) (hs : sub.val = t.val) (l : Fin 16) (c : Fin 128)
    (hc : c.val = 96 + l.val) (p : Fin 32) : eraw3_6 fb t l p = rowE fb sub c p := by
  unfold eraw3_6 rowE
  rw [read_buf0]
  have e := k1_off21_eq t p
  refine idx2_congr fb ?_ ?_
  · show k1_off21 t (BitVec.ofNat 32 p.val) 0 = sub.val * 32 + p.val
    rw [e]; show 32 * t.val + p.val = sub.val * 32 + p.val; omega
  · show k1_off21 t (BitVec.ofNat 32 p.val) 1 + l.val = c.val
    rw [e]; show 96 + l.val = c.val; omega

/-- Lane `l` of lane group 6 of the accumulator's row, as loaded. -/
def graw3_6 (g : S256x128.Idx → F .f32) (t2 : Fin k1_t2_loop.trips) (t : Fin k1_t3_loop.trips) (l : Fin 16) : F .f32 :=
  View.readAt (Elt F) (outV).view (Rect.unit (s := S256x128) (k1_off13 t2 t) S1x16.size (k1_off13_inb t2 t)).toLoadRect g (ix2 (0 : Fin 1) l)

theorem graw3_6_eq (g : S256x128.Idx → F .f32) (t2 : Fin k1_t2_loop.trips) (t : Fin k1_t3_loop.trips) (r : Fin 256)
    (hr : r.val = 8 * t2.val + t.val) (l : Fin 16) (c : Fin 128) (hc : c.val = 96 + l.val) :
    graw3_6 g t2 t l = g (ix2 r c) := by
  unfold graw3_6
  rw [read_out]
  have e := k1_off13_eq t2 t
  refine idx2_congr g ?_ ?_
  · show k1_off13 t2 t 0 = r.val
    rw [e]; show 8 * t2.val + t.val = r.val; omega
  · show k1_off13 t2 t 1 + l.val = c.val
    rw [e]; show 96 + l.val = c.val; omega

/-- Lane `l` of lane group 7 of the thirty-two gathered rows, as loaded. -/
def eraw3_7 (fb : S128x128.Idx → F .f32) (t : Fin k1_t3_loop.trips) (l : Fin 16) : Fin 32 → F .f32 := fun p =>
  View.readAt (Elt F) (buf0V).view (Rect.unit (s := S128x128) (k1_off22 t (BitVec.ofNat 32 p.val)) S1x16.size (k1_off22_inb t p)).toLoadRect fb
    (ix2 (0 : Fin 1) l)

theorem eraw3_7_eq (fb : S128x128.Idx → F .f32) (t : Fin k1_t3_loop.trips) (sub : Fin 4) (hs : sub.val = t.val) (l : Fin 16) (c : Fin 128)
    (hc : c.val = 112 + l.val) (p : Fin 32) : eraw3_7 fb t l p = rowE fb sub c p := by
  unfold eraw3_7 rowE
  rw [read_buf0]
  have e := k1_off22_eq t p
  refine idx2_congr fb ?_ ?_
  · show k1_off22 t (BitVec.ofNat 32 p.val) 0 = sub.val * 32 + p.val
    rw [e]; show 32 * t.val + p.val = sub.val * 32 + p.val; omega
  · show k1_off22 t (BitVec.ofNat 32 p.val) 1 + l.val = c.val
    rw [e]; show 112 + l.val = c.val; omega

/-- Lane `l` of lane group 7 of the accumulator's row, as loaded. -/
def graw3_7 (g : S256x128.Idx → F .f32) (t2 : Fin k1_t2_loop.trips) (t : Fin k1_t3_loop.trips) (l : Fin 16) : F .f32 :=
  View.readAt (Elt F) (outV).view (Rect.unit (s := S256x128) (k1_off14 t2 t) S1x16.size (k1_off14_inb t2 t)).toLoadRect g (ix2 (0 : Fin 1) l)

theorem graw3_7_eq (g : S256x128.Idx → F .f32) (t2 : Fin k1_t2_loop.trips) (t : Fin k1_t3_loop.trips) (r : Fin 256)
    (hr : r.val = 8 * t2.val + t.val) (l : Fin 16) (c : Fin 128) (hc : c.val = 112 + l.val) :
    graw3_7 g t2 t l = g (ix2 r c) := by
  unfold graw3_7
  rw [read_out]
  have e := k1_off14_eq t2 t
  refine idx2_congr g ?_ ?_
  · show k1_off14 t2 t 0 = r.val
    rw [e]; show 8 * t2.val + t.val = r.val; omega
  · show k1_off14 t2 t 1 + l.val = c.val
    rw [e]; show 112 + l.val = c.val; omega

/-! ## Loop `k1_t4_loop`: the loaded values as the trip reads them, and what they are -/

/-- The thirty-two weights the trip loads: two loads of sixteen. -/
def wraw4 (fw : S8192.Idx → F .f32) (t2 : Fin k1_t2_loop.trips) (t : Fin k1_t4_loop.trips) : Fin 32 → F .f32 := fun p =>
  if h : p.val < 16 then
    View.readAt (Elt F) (awvV).view (Rect.unit (s := S8192) (k1_off24 t2 t) S16.size (k1_off24_inb t2 t)).toLoadRect fw (ix1 (⟨p.val, h⟩ : Fin 16))
  else
    View.readAt (Elt F) (awvV).view (Rect.unit (s := S8192) (k1_off25 t2 t) S16.size (k1_off25_inb t2 t)).toLoadRect fw
      (ix1 (⟨p.val - 16, by have := p.isLt; omega⟩ : Fin 16))

theorem wraw4_eq (fw : S8192.Idx → F .f32) (t2 : Fin k1_t2_loop.trips) (t : Fin k1_t4_loop.trips) (r : Fin 256)
    (hr : r.val = 8 * t2.val + t.val + 4) (p : Fin 32) : wraw4 fw t2 t p = rowW fw r p := by
  unfold wraw4 rowW
  by_cases h : p.val < 16
  · rw [dif_pos h, read_aw]
    refine congrArg (fun n : Fin 8192 => fw (ix1 n)) (Fin.ext ?_)
    show k1_off24 t2 t 0 + p.val = r.val * 32 + p.val
    rw [k1_off24_eq]
    show 256 * t2.val + 32 * t.val + 128 + p.val = r.val * 32 + p.val
    omega
  · rw [dif_neg h, read_aw]
    refine congrArg (fun n : Fin 8192 => fw (ix1 n)) (Fin.ext ?_)
    show k1_off25 t2 t 0 + (p.val - 16) = r.val * 32 + p.val
    rw [k1_off25_eq]
    show 256 * t2.val + 32 * t.val + 144 + (p.val - 16) = r.val * 32 + p.val
    omega

/-- Lane `l` of lane group 0 of the thirty-two gathered rows, as loaded. -/
def eraw4_0 (fb : S128x128.Idx → F .f32) (t : Fin k1_t4_loop.trips) (l : Fin 16) : Fin 32 → F .f32 := fun p =>
  View.readAt (Elt F) (buf1V).view (Rect.unit (s := S128x128) (k1_off34 t (BitVec.ofNat 32 p.val)) S1x16.size (k1_off34_inb t p)).toLoadRect fb
    (ix2 (0 : Fin 1) l)

theorem eraw4_0_eq (fb : S128x128.Idx → F .f32) (t : Fin k1_t4_loop.trips) (sub : Fin 4) (hs : sub.val = t.val) (l : Fin 16) (c : Fin 128)
    (hc : c.val = 0 + l.val) (p : Fin 32) : eraw4_0 fb t l p = rowE fb sub c p := by
  unfold eraw4_0 rowE
  rw [read_buf1]
  have e := k1_off34_eq t p
  refine idx2_congr fb ?_ ?_
  · show k1_off34 t (BitVec.ofNat 32 p.val) 0 = sub.val * 32 + p.val
    rw [e]; show 32 * t.val + p.val = sub.val * 32 + p.val; omega
  · show k1_off34 t (BitVec.ofNat 32 p.val) 1 + l.val = c.val
    rw [e]; show 0 + l.val = c.val; omega

/-- Lane `l` of lane group 0 of the accumulator's row, as loaded. -/
def graw4_0 (g : S256x128.Idx → F .f32) (t2 : Fin k1_t2_loop.trips) (t : Fin k1_t4_loop.trips) (l : Fin 16) : F .f32 :=
  View.readAt (Elt F) (outV).view (Rect.unit (s := S256x128) (k1_off26 t2 t) S1x16.size (k1_off26_inb t2 t)).toLoadRect g (ix2 (0 : Fin 1) l)

theorem graw4_0_eq (g : S256x128.Idx → F .f32) (t2 : Fin k1_t2_loop.trips) (t : Fin k1_t4_loop.trips) (r : Fin 256)
    (hr : r.val = 8 * t2.val + t.val + 4) (l : Fin 16) (c : Fin 128) (hc : c.val = 0 + l.val) :
    graw4_0 g t2 t l = g (ix2 r c) := by
  unfold graw4_0
  rw [read_out]
  have e := k1_off26_eq t2 t
  refine idx2_congr g ?_ ?_
  · show k1_off26 t2 t 0 = r.val
    rw [e]; show 8 * t2.val + t.val + 4 = r.val; omega
  · show k1_off26 t2 t 1 + l.val = c.val
    rw [e]; show 0 + l.val = c.val; omega

/-- Lane `l` of lane group 1 of the thirty-two gathered rows, as loaded. -/
def eraw4_1 (fb : S128x128.Idx → F .f32) (t : Fin k1_t4_loop.trips) (l : Fin 16) : Fin 32 → F .f32 := fun p =>
  View.readAt (Elt F) (buf1V).view (Rect.unit (s := S128x128) (k1_off35 t (BitVec.ofNat 32 p.val)) S1x16.size (k1_off35_inb t p)).toLoadRect fb
    (ix2 (0 : Fin 1) l)

theorem eraw4_1_eq (fb : S128x128.Idx → F .f32) (t : Fin k1_t4_loop.trips) (sub : Fin 4) (hs : sub.val = t.val) (l : Fin 16) (c : Fin 128)
    (hc : c.val = 16 + l.val) (p : Fin 32) : eraw4_1 fb t l p = rowE fb sub c p := by
  unfold eraw4_1 rowE
  rw [read_buf1]
  have e := k1_off35_eq t p
  refine idx2_congr fb ?_ ?_
  · show k1_off35 t (BitVec.ofNat 32 p.val) 0 = sub.val * 32 + p.val
    rw [e]; show 32 * t.val + p.val = sub.val * 32 + p.val; omega
  · show k1_off35 t (BitVec.ofNat 32 p.val) 1 + l.val = c.val
    rw [e]; show 16 + l.val = c.val; omega

/-- Lane `l` of lane group 1 of the accumulator's row, as loaded. -/
def graw4_1 (g : S256x128.Idx → F .f32) (t2 : Fin k1_t2_loop.trips) (t : Fin k1_t4_loop.trips) (l : Fin 16) : F .f32 :=
  View.readAt (Elt F) (outV).view (Rect.unit (s := S256x128) (k1_off27 t2 t) S1x16.size (k1_off27_inb t2 t)).toLoadRect g (ix2 (0 : Fin 1) l)

theorem graw4_1_eq (g : S256x128.Idx → F .f32) (t2 : Fin k1_t2_loop.trips) (t : Fin k1_t4_loop.trips) (r : Fin 256)
    (hr : r.val = 8 * t2.val + t.val + 4) (l : Fin 16) (c : Fin 128) (hc : c.val = 16 + l.val) :
    graw4_1 g t2 t l = g (ix2 r c) := by
  unfold graw4_1
  rw [read_out]
  have e := k1_off27_eq t2 t
  refine idx2_congr g ?_ ?_
  · show k1_off27 t2 t 0 = r.val
    rw [e]; show 8 * t2.val + t.val + 4 = r.val; omega
  · show k1_off27 t2 t 1 + l.val = c.val
    rw [e]; show 16 + l.val = c.val; omega

/-- Lane `l` of lane group 2 of the thirty-two gathered rows, as loaded. -/
def eraw4_2 (fb : S128x128.Idx → F .f32) (t : Fin k1_t4_loop.trips) (l : Fin 16) : Fin 32 → F .f32 := fun p =>
  View.readAt (Elt F) (buf1V).view (Rect.unit (s := S128x128) (k1_off36 t (BitVec.ofNat 32 p.val)) S1x16.size (k1_off36_inb t p)).toLoadRect fb
    (ix2 (0 : Fin 1) l)

theorem eraw4_2_eq (fb : S128x128.Idx → F .f32) (t : Fin k1_t4_loop.trips) (sub : Fin 4) (hs : sub.val = t.val) (l : Fin 16) (c : Fin 128)
    (hc : c.val = 32 + l.val) (p : Fin 32) : eraw4_2 fb t l p = rowE fb sub c p := by
  unfold eraw4_2 rowE
  rw [read_buf1]
  have e := k1_off36_eq t p
  refine idx2_congr fb ?_ ?_
  · show k1_off36 t (BitVec.ofNat 32 p.val) 0 = sub.val * 32 + p.val
    rw [e]; show 32 * t.val + p.val = sub.val * 32 + p.val; omega
  · show k1_off36 t (BitVec.ofNat 32 p.val) 1 + l.val = c.val
    rw [e]; show 32 + l.val = c.val; omega

/-- Lane `l` of lane group 2 of the accumulator's row, as loaded. -/
def graw4_2 (g : S256x128.Idx → F .f32) (t2 : Fin k1_t2_loop.trips) (t : Fin k1_t4_loop.trips) (l : Fin 16) : F .f32 :=
  View.readAt (Elt F) (outV).view (Rect.unit (s := S256x128) (k1_off28 t2 t) S1x16.size (k1_off28_inb t2 t)).toLoadRect g (ix2 (0 : Fin 1) l)

theorem graw4_2_eq (g : S256x128.Idx → F .f32) (t2 : Fin k1_t2_loop.trips) (t : Fin k1_t4_loop.trips) (r : Fin 256)
    (hr : r.val = 8 * t2.val + t.val + 4) (l : Fin 16) (c : Fin 128) (hc : c.val = 32 + l.val) :
    graw4_2 g t2 t l = g (ix2 r c) := by
  unfold graw4_2
  rw [read_out]
  have e := k1_off28_eq t2 t
  refine idx2_congr g ?_ ?_
  · show k1_off28 t2 t 0 = r.val
    rw [e]; show 8 * t2.val + t.val + 4 = r.val; omega
  · show k1_off28 t2 t 1 + l.val = c.val
    rw [e]; show 32 + l.val = c.val; omega

/-- Lane `l` of lane group 3 of the thirty-two gathered rows, as loaded. -/
def eraw4_3 (fb : S128x128.Idx → F .f32) (t : Fin k1_t4_loop.trips) (l : Fin 16) : Fin 32 → F .f32 := fun p =>
  View.readAt (Elt F) (buf1V).view (Rect.unit (s := S128x128) (k1_off37 t (BitVec.ofNat 32 p.val)) S1x16.size (k1_off37_inb t p)).toLoadRect fb
    (ix2 (0 : Fin 1) l)

theorem eraw4_3_eq (fb : S128x128.Idx → F .f32) (t : Fin k1_t4_loop.trips) (sub : Fin 4) (hs : sub.val = t.val) (l : Fin 16) (c : Fin 128)
    (hc : c.val = 48 + l.val) (p : Fin 32) : eraw4_3 fb t l p = rowE fb sub c p := by
  unfold eraw4_3 rowE
  rw [read_buf1]
  have e := k1_off37_eq t p
  refine idx2_congr fb ?_ ?_
  · show k1_off37 t (BitVec.ofNat 32 p.val) 0 = sub.val * 32 + p.val
    rw [e]; show 32 * t.val + p.val = sub.val * 32 + p.val; omega
  · show k1_off37 t (BitVec.ofNat 32 p.val) 1 + l.val = c.val
    rw [e]; show 48 + l.val = c.val; omega

/-- Lane `l` of lane group 3 of the accumulator's row, as loaded. -/
def graw4_3 (g : S256x128.Idx → F .f32) (t2 : Fin k1_t2_loop.trips) (t : Fin k1_t4_loop.trips) (l : Fin 16) : F .f32 :=
  View.readAt (Elt F) (outV).view (Rect.unit (s := S256x128) (k1_off29 t2 t) S1x16.size (k1_off29_inb t2 t)).toLoadRect g (ix2 (0 : Fin 1) l)

theorem graw4_3_eq (g : S256x128.Idx → F .f32) (t2 : Fin k1_t2_loop.trips) (t : Fin k1_t4_loop.trips) (r : Fin 256)
    (hr : r.val = 8 * t2.val + t.val + 4) (l : Fin 16) (c : Fin 128) (hc : c.val = 48 + l.val) :
    graw4_3 g t2 t l = g (ix2 r c) := by
  unfold graw4_3
  rw [read_out]
  have e := k1_off29_eq t2 t
  refine idx2_congr g ?_ ?_
  · show k1_off29 t2 t 0 = r.val
    rw [e]; show 8 * t2.val + t.val + 4 = r.val; omega
  · show k1_off29 t2 t 1 + l.val = c.val
    rw [e]; show 48 + l.val = c.val; omega

/-- Lane `l` of lane group 4 of the thirty-two gathered rows, as loaded. -/
def eraw4_4 (fb : S128x128.Idx → F .f32) (t : Fin k1_t4_loop.trips) (l : Fin 16) : Fin 32 → F .f32 := fun p =>
  View.readAt (Elt F) (buf1V).view (Rect.unit (s := S128x128) (k1_off38 t (BitVec.ofNat 32 p.val)) S1x16.size (k1_off38_inb t p)).toLoadRect fb
    (ix2 (0 : Fin 1) l)

theorem eraw4_4_eq (fb : S128x128.Idx → F .f32) (t : Fin k1_t4_loop.trips) (sub : Fin 4) (hs : sub.val = t.val) (l : Fin 16) (c : Fin 128)
    (hc : c.val = 64 + l.val) (p : Fin 32) : eraw4_4 fb t l p = rowE fb sub c p := by
  unfold eraw4_4 rowE
  rw [read_buf1]
  have e := k1_off38_eq t p
  refine idx2_congr fb ?_ ?_
  · show k1_off38 t (BitVec.ofNat 32 p.val) 0 = sub.val * 32 + p.val
    rw [e]; show 32 * t.val + p.val = sub.val * 32 + p.val; omega
  · show k1_off38 t (BitVec.ofNat 32 p.val) 1 + l.val = c.val
    rw [e]; show 64 + l.val = c.val; omega

/-- Lane `l` of lane group 4 of the accumulator's row, as loaded. -/
def graw4_4 (g : S256x128.Idx → F .f32) (t2 : Fin k1_t2_loop.trips) (t : Fin k1_t4_loop.trips) (l : Fin 16) : F .f32 :=
  View.readAt (Elt F) (outV).view (Rect.unit (s := S256x128) (k1_off30 t2 t) S1x16.size (k1_off30_inb t2 t)).toLoadRect g (ix2 (0 : Fin 1) l)

theorem graw4_4_eq (g : S256x128.Idx → F .f32) (t2 : Fin k1_t2_loop.trips) (t : Fin k1_t4_loop.trips) (r : Fin 256)
    (hr : r.val = 8 * t2.val + t.val + 4) (l : Fin 16) (c : Fin 128) (hc : c.val = 64 + l.val) :
    graw4_4 g t2 t l = g (ix2 r c) := by
  unfold graw4_4
  rw [read_out]
  have e := k1_off30_eq t2 t
  refine idx2_congr g ?_ ?_
  · show k1_off30 t2 t 0 = r.val
    rw [e]; show 8 * t2.val + t.val + 4 = r.val; omega
  · show k1_off30 t2 t 1 + l.val = c.val
    rw [e]; show 64 + l.val = c.val; omega

/-- Lane `l` of lane group 5 of the thirty-two gathered rows, as loaded. -/
def eraw4_5 (fb : S128x128.Idx → F .f32) (t : Fin k1_t4_loop.trips) (l : Fin 16) : Fin 32 → F .f32 := fun p =>
  View.readAt (Elt F) (buf1V).view (Rect.unit (s := S128x128) (k1_off39 t (BitVec.ofNat 32 p.val)) S1x16.size (k1_off39_inb t p)).toLoadRect fb
    (ix2 (0 : Fin 1) l)

theorem eraw4_5_eq (fb : S128x128.Idx → F .f32) (t : Fin k1_t4_loop.trips) (sub : Fin 4) (hs : sub.val = t.val) (l : Fin 16) (c : Fin 128)
    (hc : c.val = 80 + l.val) (p : Fin 32) : eraw4_5 fb t l p = rowE fb sub c p := by
  unfold eraw4_5 rowE
  rw [read_buf1]
  have e := k1_off39_eq t p
  refine idx2_congr fb ?_ ?_
  · show k1_off39 t (BitVec.ofNat 32 p.val) 0 = sub.val * 32 + p.val
    rw [e]; show 32 * t.val + p.val = sub.val * 32 + p.val; omega
  · show k1_off39 t (BitVec.ofNat 32 p.val) 1 + l.val = c.val
    rw [e]; show 80 + l.val = c.val; omega

/-- Lane `l` of lane group 5 of the accumulator's row, as loaded. -/
def graw4_5 (g : S256x128.Idx → F .f32) (t2 : Fin k1_t2_loop.trips) (t : Fin k1_t4_loop.trips) (l : Fin 16) : F .f32 :=
  View.readAt (Elt F) (outV).view (Rect.unit (s := S256x128) (k1_off31 t2 t) S1x16.size (k1_off31_inb t2 t)).toLoadRect g (ix2 (0 : Fin 1) l)

theorem graw4_5_eq (g : S256x128.Idx → F .f32) (t2 : Fin k1_t2_loop.trips) (t : Fin k1_t4_loop.trips) (r : Fin 256)
    (hr : r.val = 8 * t2.val + t.val + 4) (l : Fin 16) (c : Fin 128) (hc : c.val = 80 + l.val) :
    graw4_5 g t2 t l = g (ix2 r c) := by
  unfold graw4_5
  rw [read_out]
  have e := k1_off31_eq t2 t
  refine idx2_congr g ?_ ?_
  · show k1_off31 t2 t 0 = r.val
    rw [e]; show 8 * t2.val + t.val + 4 = r.val; omega
  · show k1_off31 t2 t 1 + l.val = c.val
    rw [e]; show 80 + l.val = c.val; omega

/-- Lane `l` of lane group 6 of the thirty-two gathered rows, as loaded. -/
def eraw4_6 (fb : S128x128.Idx → F .f32) (t : Fin k1_t4_loop.trips) (l : Fin 16) : Fin 32 → F .f32 := fun p =>
  View.readAt (Elt F) (buf1V).view (Rect.unit (s := S128x128) (k1_off40 t (BitVec.ofNat 32 p.val)) S1x16.size (k1_off40_inb t p)).toLoadRect fb
    (ix2 (0 : Fin 1) l)

theorem eraw4_6_eq (fb : S128x128.Idx → F .f32) (t : Fin k1_t4_loop.trips) (sub : Fin 4) (hs : sub.val = t.val) (l : Fin 16) (c : Fin 128)
    (hc : c.val = 96 + l.val) (p : Fin 32) : eraw4_6 fb t l p = rowE fb sub c p := by
  unfold eraw4_6 rowE
  rw [read_buf1]
  have e := k1_off40_eq t p
  refine idx2_congr fb ?_ ?_
  · show k1_off40 t (BitVec.ofNat 32 p.val) 0 = sub.val * 32 + p.val
    rw [e]; show 32 * t.val + p.val = sub.val * 32 + p.val; omega
  · show k1_off40 t (BitVec.ofNat 32 p.val) 1 + l.val = c.val
    rw [e]; show 96 + l.val = c.val; omega

/-- Lane `l` of lane group 6 of the accumulator's row, as loaded. -/
def graw4_6 (g : S256x128.Idx → F .f32) (t2 : Fin k1_t2_loop.trips) (t : Fin k1_t4_loop.trips) (l : Fin 16) : F .f32 :=
  View.readAt (Elt F) (outV).view (Rect.unit (s := S256x128) (k1_off32 t2 t) S1x16.size (k1_off32_inb t2 t)).toLoadRect g (ix2 (0 : Fin 1) l)

theorem graw4_6_eq (g : S256x128.Idx → F .f32) (t2 : Fin k1_t2_loop.trips) (t : Fin k1_t4_loop.trips) (r : Fin 256)
    (hr : r.val = 8 * t2.val + t.val + 4) (l : Fin 16) (c : Fin 128) (hc : c.val = 96 + l.val) :
    graw4_6 g t2 t l = g (ix2 r c) := by
  unfold graw4_6
  rw [read_out]
  have e := k1_off32_eq t2 t
  refine idx2_congr g ?_ ?_
  · show k1_off32 t2 t 0 = r.val
    rw [e]; show 8 * t2.val + t.val + 4 = r.val; omega
  · show k1_off32 t2 t 1 + l.val = c.val
    rw [e]; show 96 + l.val = c.val; omega

/-- Lane `l` of lane group 7 of the thirty-two gathered rows, as loaded. -/
def eraw4_7 (fb : S128x128.Idx → F .f32) (t : Fin k1_t4_loop.trips) (l : Fin 16) : Fin 32 → F .f32 := fun p =>
  View.readAt (Elt F) (buf1V).view (Rect.unit (s := S128x128) (k1_off41 t (BitVec.ofNat 32 p.val)) S1x16.size (k1_off41_inb t p)).toLoadRect fb
    (ix2 (0 : Fin 1) l)

theorem eraw4_7_eq (fb : S128x128.Idx → F .f32) (t : Fin k1_t4_loop.trips) (sub : Fin 4) (hs : sub.val = t.val) (l : Fin 16) (c : Fin 128)
    (hc : c.val = 112 + l.val) (p : Fin 32) : eraw4_7 fb t l p = rowE fb sub c p := by
  unfold eraw4_7 rowE
  rw [read_buf1]
  have e := k1_off41_eq t p
  refine idx2_congr fb ?_ ?_
  · show k1_off41 t (BitVec.ofNat 32 p.val) 0 = sub.val * 32 + p.val
    rw [e]; show 32 * t.val + p.val = sub.val * 32 + p.val; omega
  · show k1_off41 t (BitVec.ofNat 32 p.val) 1 + l.val = c.val
    rw [e]; show 112 + l.val = c.val; omega

/-- Lane `l` of lane group 7 of the accumulator's row, as loaded. -/
def graw4_7 (g : S256x128.Idx → F .f32) (t2 : Fin k1_t2_loop.trips) (t : Fin k1_t4_loop.trips) (l : Fin 16) : F .f32 :=
  View.readAt (Elt F) (outV).view (Rect.unit (s := S256x128) (k1_off33 t2 t) S1x16.size (k1_off33_inb t2 t)).toLoadRect g (ix2 (0 : Fin 1) l)

theorem graw4_7_eq (g : S256x128.Idx → F .f32) (t2 : Fin k1_t2_loop.trips) (t : Fin k1_t4_loop.trips) (r : Fin 256)
    (hr : r.val = 8 * t2.val + t.val + 4) (l : Fin 16) (c : Fin 128) (hc : c.val = 112 + l.val) :
    graw4_7 g t2 t l = g (ix2 r c) := by
  unfold graw4_7
  rw [read_out]
  have e := k1_off33_eq t2 t
  refine idx2_congr g ?_ ?_
  · show k1_off33 t2 t 0 = r.val
    rw [e]; show 8 * t2.val + t.val + 4 = r.val; omega
  · show k1_off33 t2 t 1 + l.val = c.val
    rw [e]; show 112 + l.val = c.val; omega

end Cert.Proof.KI

end
-- ==== Proof.KIItem3.lean ====
/-
  The first item loop of a chunk pair: each of its four trips loads one item's thirty-two weights and the eight lane
  groups of the item's row of the accumulator, multiplies and adds the thirty-two gathered rows of the first gather
  buffer lane group by lane group, and stores the row back.  One trip is run once at a symbolic trip; what it stores
  is read lane by lane as the left-to-right accumulation; the loop is the four rows of the chunk.
-/
import proofs.«203743_g50225347559739_cont_8to1c4_743_14_alg».proof.Proof.KICommon
import proofs.«203743_g50225347559739_cont_8to1c4_743_14_alg».proof.Proof.Gen.KernelIdeal.Skeleton
import proofs.«203743_g50225347559739_cont_8to1c4_743_14_alg».proof.Proof.KITileDefs
import proofs.«203743_g50225347559739_cont_8to1c4_743_14_alg».proof.Proof.KIItemReads

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx

variable (d : Dev nD) (L : grid1.Coords)
variable [FloatOps F]

set_option maxHeartbeats 4000000 in
/-- One trip of the item loop: row `r` of the accumulator becomes its accumulation with the item's thirty-two gathered
    rows, every other entry and the two buffers read are kept. -/
theorem k1_t3_trip (t2 : Fin k1_t2_loop.trips) (v12 : BitVec 32) (t : Fin k1_t3_loop.trips)
    (fw : S8192.Idx → F .f32) (fb : S128x128.Idx → F .f32) (g : S256x128.Idx → F .f32)
    (r : Fin 256) (hr : r.val = 8 * t2.val + t.val) (sub : Fin 4) (hs : sub.val = t.val) :
    iprop(outPts d L g ∗ buf0Pts d L fb ∗ awvPts d L fw)
      ⊢ wp frame (wpE (defs₀ (F := F)) 𝒱₀ (thrV d L) none) Set.univ
          (k1_t3_body L ieV (Memref.isWhole_whole _) awV (Memref.isWhole_whole _) embV (Memref.isWhole_whole _) resV (Memref.isWhole_whole _) idxV (Memref.isWhole_whole _) awvV (Memref.isWhole_whole _) buf0V (Memref.isWhole_whole _) buf1V (Memref.isWhole_whole _) outV (Memref.isWhole_whole _) cc1_scratch5 cc1_scratch6 cc1_scoped0 cc1_scoped1 cc1_scoped2 cc1_scoped3 t2 v12 t ())
          fun _ => iprop(outPts d L (rowStep fw fb g r sub) ∗ buf0Pts d L fb ∗ awvPts d L fw) := by
  unfold k1_t3_body
  iintro ⟨Ho, Hb, Hw⟩
  sl_exec_parts
  sl_step
  isplitl [Ho]
  · iapply (Entails.of_eq (pointsTo_congr fun i hi => ?_)) $$ Ho
    refine read_writes8 g r _ _ _ _ _ _ _ _ _ _ _ _ _ _ _ _ _ _ _ _ _ _ _ _
      (by rw [hr]; exact k1_off14_eq t2 t) (by rw [hr]; exact k1_off13_eq t2 t) (by rw [hr]; exact k1_off12_eq t2 t) (by rw [hr]; exact k1_off11_eq t2 t) (by rw [hr]; exact k1_off10_eq t2 t) (by rw [hr]; exact k1_off9_eq t2 t) (by rw [hr]; exact k1_off8_eq t2 t) (by rw [hr]; exact k1_off7_eq t2 t)
      (fun y => Pure.acc32 (rowW fw r) (rowE fb sub (y 1)) (g y)) ?_ ?_ ?_ ?_ ?_ ?_ ?_ ?_ i
    · intro l
      show _ = Pure.acc32 (rowW fw r) (rowE fb sub (⟨0 + l.val, by have := l.isLt; omega⟩ : Fin 128))
        (g (ix2 r (⟨0 + l.val, by have := l.isLt; omega⟩ : Fin 128)))
      refine ((?_ : _ = _).trans (Pure.acc32_chain (wraw3 fw t2 t) (eraw3_0 fb t l) (graw3_0 g t2 t l))).trans
        (Pure.acc32_congr (wraw3_eq fw t2 t r hr) (eraw3_0_eq fb t sub hs l _ rfl) (graw3_0_eq g t2 t r hr l _ rfl))
      delta Cert.Proof.KI.k1_t3_trip.sl.r Cert.Proof.KI.k1_t3_trip.sl.r_1 Cert.Proof.KI.k1_t3_trip.sl.r_2 Cert.Proof.KI.k1_t3_trip.sl.r_3 Cert.Proof.KI.k1_t3_trip.sl.r_4
        Cert.Proof.KI.k1_t3_trip.sl.r_5 Cert.Proof.KI.k1_t3_trip.sl.r_6 Cert.Proof.KI.k1_t3_trip.sl.r_7 Cert.Proof.KI.k1_t3_trip.sl.r_8 Cert.Proof.KI.k1_t3_trip.sl.r_9
        Cert.Proof.KI.k1_t3_trip.sl.r_10 Cert.Proof.KI.k1_t3_trip.sl.r_11 Cert.Proof.KI.k1_t3_trip.sl.r_12 Cert.Proof.KI.k1_t3_trip.sl.r_13 Cert.Proof.KI.k1_t3_trip.sl.r_14
        Cert.Proof.KI.k1_t3_trip.sl.r_15 Cert.Proof.KI.k1_t3_trip.sl.r_16 Cert.Proof.KI.k1_t3_trip.sl.r_17 Cert.Proof.KI.k1_t3_trip.sl.r_18 Cert.Proof.KI.k1_t3_trip.sl.r_19
        Cert.Proof.KI.k1_t3_trip.sl.r_20 Cert.Proof.KI.k1_t3_trip.sl.r_21 Cert.Proof.KI.k1_t3_trip.sl.r_22 Cert.Proof.KI.k1_t3_trip.sl.r_23 Cert.Proof.KI.k1_t3_trip.sl.r_24
        Cert.Proof.KI.k1_t3_trip.sl.r_25 Cert.Proof.KI.k1_t3_trip.sl.r_26 Cert.Proof.KI.k1_t3_trip.sl.r_27 Cert.Proof.KI.k1_t3_trip.sl.r_28 Cert.Proof.KI.k1_t3_trip.sl.r_29
        Cert.Proof.KI.k1_t3_trip.sl.r_30 Cert.Proof.KI.k1_t3_trip.sl.r_31 Cert.Proof.KI.k1_t3_trip.sl.r_32 Cert.Proof.KI.k1_t3_trip.sl.r_33 Cert.Proof.KI.k1_t3_trip.sl.r_34
        Cert.Proof.KI.k1_t3_trip.sl.r_35 Cert.Proof.KI.k1_t3_trip.sl.r_36 Cert.Proof.KI.k1_t3_trip.sl.r_37 Cert.Proof.KI.k1_t3_trip.sl.r_38 Cert.Proof.KI.k1_t3_trip.sl.r_39
        Cert.Proof.KI.k1_t3_trip.sl.r_40 Cert.Proof.KI.k1_t3_trip.sl.r_41 Cert.Proof.KI.k1_t3_trip.sl.r_42 Cert.Proof.KI.k1_t3_trip.sl.r_43 Cert.Proof.KI.k1_t3_trip.sl.r_44
        Cert.Proof.KI.k1_t3_trip.sl.r_45 Cert.Proof.KI.k1_t3_trip.sl.r_46 Cert.Proof.KI.k1_t3_trip.sl.r_47 Cert.Proof.KI.k1_t3_trip.sl.r_48 Cert.Proof.KI.k1_t3_trip.sl.r_49
        Cert.Proof.KI.k1_t3_trip.sl.r_50 Cert.Proof.KI.k1_t3_trip.sl.r_51 Cert.Proof.KI.k1_t3_trip.sl.r_52 Cert.Proof.KI.k1_t3_trip.sl.r_53 Cert.Proof.KI.k1_t3_trip.sl.r_54
        Cert.Proof.KI.k1_t3_trip.sl.r_55 Cert.Proof.KI.k1_t3_trip.sl.r_56 Cert.Proof.KI.k1_t3_trip.sl.r_57 Cert.Proof.KI.k1_t3_trip.sl.r_58 Cert.Proof.KI.k1_t3_trip.sl.r_59
        Cert.Proof.KI.k1_t3_trip.sl.r_60 Cert.Proof.KI.k1_t3_trip.sl.r_61 Cert.Proof.KI.k1_t3_trip.sl.r_62 Cert.Proof.KI.k1_t3_trip.sl.r_63 Cert.Proof.KI.k1_t3_trip.sl.r_64
        Cert.Proof.KI.k1_t3_trip.sl.r_65 Cert.Proof.KI.k1_t3_trip.sl.r_66 Cert.Proof.KI.k1_t3_trip.sl.r_67 Cert.Proof.KI.k1_t3_trip.sl.r_68 Cert.Proof.KI.k1_t3_trip.sl.r_69
        Cert.Proof.KI.k1_t3_trip.sl.r_70 Cert.Proof.KI.k1_t3_trip.sl.r_71 Cert.Proof.KI.k1_t3_trip.sl.r_72 Cert.Proof.KI.k1_t3_trip.sl.r_73 Cert.Proof.KI.k1_t3_trip.sl.r_74
        Cert.Proof.KI.k1_t3_trip.sl.r_75 Cert.Proof.KI.k1_t3_trip.sl.r_76 Cert.Proof.KI.k1_t3_trip.sl.r_77 Cert.Proof.KI.k1_t3_trip.sl.r_78 Cert.Proof.KI.k1_t3_trip.sl.r_79
        Cert.Proof.KI.k1_t3_trip.sl.r_80 Cert.Proof.KI.k1_t3_trip.sl.r_81 Cert.Proof.KI.k1_t3_trip.sl.r_82 Cert.Proof.KI.k1_t3_trip.sl.r_83 Cert.Proof.KI.k1_t3_trip.sl.r_84
        Cert.Proof.KI.k1_t3_trip.sl.r_85 Cert.Proof.KI.k1_t3_trip.sl.r_86 Cert.Proof.KI.k1_t3_trip.sl.r_87 Cert.Proof.KI.k1_t3_trip.sl.r_88 Cert.Proof.KI.k1_t3_trip.sl.r_89
        Cert.Proof.KI.k1_t3_trip.sl.r_90 Cert.Proof.KI.k1_t3_trip.sl.r_91 Cert.Proof.KI.k1_t3_trip.sl.r_92 Cert.Proof.KI.k1_t3_trip.sl.r_93 Cert.Proof.KI.k1_t3_trip.sl.r_94
        Cert.Proof.KI.k1_t3_trip.sl.r_95 Cert.Proof.KI.k1_t3_trip.sl.r_96 Cert.Proof.KI.k1_t3_trip.sl.r_97 Cert.Proof.KI.k1_t3_trip.sl.r_98 Cert.Proof.KI.k1_t3_trip.sl.r_99
        Cert.Proof.KI.k1_t3_trip.sl.r_100 Cert.Proof.KI.k1_t3_trip.sl.r_101 Cert.Proof.KI.k1_t3_trip.sl.r_102 Cert.Proof.KI.k1_t3_trip.sl.r_103 Cert.Proof.KI.k1_t3_trip.sl.r_104
        Cert.Proof.KI.k1_t3_trip.sl.r_105 Cert.Proof.KI.k1_t3_trip.sl.r_106 Cert.Proof.KI.k1_t3_trip.sl.r_107 Cert.Proof.KI.k1_t3_trip.sl.r_108 Cert.Proof.KI.k1_t3_trip.sl.r_109
        Cert.Proof.KI.k1_t3_trip.sl.r_110 Cert.Proof.KI.k1_t3_trip.sl.r_111 Cert.Proof.KI.k1_t3_trip.sl.r_112 Cert.Proof.KI.k1_t3_trip.sl.r_113 Cert.Proof.KI.k1_t3_trip.sl.r_114
        Cert.Proof.KI.k1_t3_trip.sl.r_115 Cert.Proof.KI.k1_t3_trip.sl.r_116 Cert.Proof.KI.k1_t3_trip.sl.r_117 Cert.Proof.KI.k1_t3_trip.sl.r_118 Cert.Proof.KI.k1_t3_trip.sl.r_119
        Cert.Proof.KI.k1_t3_trip.sl.r_120 Cert.Proof.KI.k1_t3_trip.sl.r_121 Cert.Proof.KI.k1_t3_trip.sl.r_122 Cert.Proof.KI.k1_t3_trip.sl.r_123 Cert.Proof.KI.k1_t3_trip.sl.r_124
        Cert.Proof.KI.k1_t3_trip.sl.r_125 Cert.Proof.KI.k1_t3_trip.sl.r_126 Cert.Proof.KI.k1_t3_trip.sl.r_127 Cert.Proof.KI.k1_t3_trip.sl.r_128 Cert.Proof.KI.k1_t3_trip.sl.r_129
        Cert.Proof.KI.k1_t3_trip.sl.r_130 Cert.Proof.KI.k1_t3_trip.sl.r_131 Cert.Proof.KI.k1_t3_trip.sl.r_132 Cert.Proof.KI.k1_t3_trip.sl.r_133 Cert.Proof.KI.k1_t3_trip.sl.r_134
        Cert.Proof.KI.k1_t3_trip.sl.r_135 Cert.Proof.KI.k1_t3_trip.sl.r_136 Cert.Proof.KI.k1_t3_trip.sl.r_137 Cert.Proof.KI.k1_t3_trip.sl.r_138 Cert.Proof.KI.k1_t3_trip.sl.r_139
        Cert.Proof.KI.k1_t3_trip.sl.r_140 Cert.Proof.KI.k1_t3_trip.sl.r_141 Cert.Proof.KI.k1_t3_trip.sl.r_142 Cert.Proof.KI.k1_t3_trip.sl.r_143 Cert.Proof.KI.k1_t3_trip.sl.r_144
        Cert.Proof.KI.k1_t3_trip.sl.r_145 Cert.Proof.KI.k1_t3_trip.sl.r_146 Cert.Proof.KI.k1_t3_trip.sl.r_147 Cert.Proof.KI.k1_t3_trip.sl.r_148 Cert.Proof.KI.k1_t3_trip.sl.r_149
        Cert.Proof.KI.k1_t3_trip.sl.r_150 Cert.Proof.KI.k1_t3_trip.sl.r_151 Cert.Proof.KI.k1_t3_trip.sl.r_152 Cert.Proof.KI.k1_t3_trip.sl.r_153 Cert.Proof.KI.k1_t3_trip.sl.r_154
        Cert.Proof.KI.k1_t3_trip.sl.r_155 Cert.Proof.KI.k1_t3_trip.sl.r_156 Cert.Proof.KI.k1_t3_trip.sl.r_157 Cert.Proof.KI.k1_t3_trip.sl.r_158 Cert.Proof.KI.k1_t3_trip.sl.r_159
        Cert.Proof.KI.k1_t3_trip.sl.r_160 Cert.Proof.KI.k1_t3_trip.sl.r_161 Cert.Proof.KI.k1_t3_trip.sl.r_162 Cert.Proof.KI.k1_t3_trip.sl.r_163 Cert.Proof.KI.k1_t3_trip.sl.r_164
        Cert.Proof.KI.k1_t3_trip.sl.r_165 Cert.Proof.KI.k1_t3_trip.sl.r_166 Cert.Proof.KI.k1_t3_trip.sl.r_167 Cert.Proof.KI.k1_t3_trip.sl.r_168 Cert.Proof.KI.k1_t3_trip.sl.r_169
        Cert.Proof.KI.k1_t3_trip.sl.r_170 Cert.Proof.KI.k1_t3_trip.sl.r_171 Cert.Proof.KI.k1_t3_trip.sl.r_172 Cert.Proof.KI.k1_t3_trip.sl.r_173 Cert.Proof.KI.k1_t3_trip.sl.r_174
        Cert.Proof.KI.k1_t3_trip.sl.r_175 Cert.Proof.KI.k1_t3_trip.sl.r_176 Cert.Proof.KI.k1_t3_trip.sl.r_177 Cert.Proof.KI.k1_t3_trip.sl.r_178 Cert.Proof.KI.k1_t3_trip.sl.r_179
        Cert.Proof.KI.k1_t3_trip.sl.r_180 Cert.Proof.KI.k1_t3_trip.sl.r_181 Cert.Proof.KI.k1_t3_trip.sl.r_182 Cert.Proof.KI.k1_t3_trip.sl.r_183 Cert.Proof.KI.k1_t3_trip.sl.r_184
        Cert.Proof.KI.k1_t3_trip.sl.r_185 Cert.Proof.KI.k1_t3_trip.sl.r_186 Cert.Proof.KI.k1_t3_trip.sl.r_187 Cert.Proof.KI.k1_t3_trip.sl.r_188 Cert.Proof.KI.k1_t3_trip.sl.r_189
        Cert.Proof.KI.k1_t3_trip.sl.r_190 Cert.Proof.KI.k1_t3_trip.sl.r_191 Cert.Proof.KI.k1_t3_trip.sl.r_192 Cert.Proof.KI.k1_t3_trip.sl.r_193 Cert.Proof.KI.k1_t3_trip.sl.r_194
        Cert.Proof.KI.k1_t3_trip.sl.r_195 Cert.Proof.KI.k1_t3_trip.sl.r_196 Cert.Proof.KI.k1_t3_trip.sl.r_197 Cert.Proof.KI.k1_t3_trip.sl.r_198 Cert.Proof.KI.k1_t3_trip.sl.r_199
        Cert.Proof.KI.k1_t3_trip.sl.r_200 Cert.Proof.KI.k1_t3_trip.sl.r_201 Cert.Proof.KI.k1_t3_trip.sl.r_202 Cert.Proof.KI.k1_t3_trip.sl.r_203 Cert.Proof.KI.k1_t3_trip.sl.r_204
        Cert.Proof.KI.k1_t3_trip.sl.r_205 Cert.Proof.KI.k1_t3_trip.sl.r_206 Cert.Proof.KI.k1_t3_trip.sl.r_207 Cert.Proof.KI.k1_t3_trip.sl.r_208 Cert.Proof.KI.k1_t3_trip.sl.r_209
        Cert.Proof.KI.k1_t3_trip.sl.r_210 Cert.Proof.KI.k1_t3_trip.sl.r_211 Cert.Proof.KI.k1_t3_trip.sl.r_212 Cert.Proof.KI.k1_t3_trip.sl.r_213 Cert.Proof.KI.k1_t3_trip.sl.r_214
        Cert.Proof.KI.k1_t3_trip.sl.r_215 Cert.Proof.KI.k1_t3_trip.sl.r_216 Cert.Proof.KI.k1_t3_trip.sl.r_217 Cert.Proof.KI.k1_t3_trip.sl.r_218 Cert.Proof.KI.k1_t3_trip.sl.r_219
        Cert.Proof.KI.k1_t3_trip.sl.r_220 Cert.Proof.KI.k1_t3_trip.sl.r_221 Cert.Proof.KI.k1_t3_trip.sl.r_222 Cert.Proof.KI.k1_t3_trip.sl.r_223 Cert.Proof.KI.k1_t3_trip.sl.r_224
        Cert.Proof.KI.k1_t3_trip.sl.r_225 Cert.Proof.KI.k1_t3_trip.sl.r_226 Cert.Proof.KI.k1_t3_trip.sl.r_227 Cert.Proof.KI.k1_t3_trip.sl.r_228 Cert.Proof.KI.k1_t3_trip.sl.r_229
        Cert.Proof.KI.k1_t3_trip.sl.r_230 Cert.Proof.KI.k1_t3_trip.sl.r_231 Cert.Proof.KI.k1_t3_trip.sl.r_232 Cert.Proof.KI.k1_t3_trip.sl.r_233 Cert.Proof.KI.k1_t3_trip.sl.r_234
        Cert.Proof.KI.k1_t3_trip.sl.r_235 Cert.Proof.KI.k1_t3_trip.sl.r_236 Cert.Proof.KI.k1_t3_trip.sl.r_237 Cert.Proof.KI.k1_t3_trip.sl.r_238 Cert.Proof.KI.k1_t3_trip.sl.r_239
        Cert.Proof.KI.k1_t3_trip.sl.r_240 Cert.Proof.KI.k1_t3_trip.sl.r_241 Cert.Proof.KI.k1_t3_trip.sl.r_242 Cert.Proof.KI.k1_t3_trip.sl.r_243 Cert.Proof.KI.k1_t3_trip.sl.r_244
        Cert.Proof.KI.k1_t3_trip.sl.r_245 Cert.Proof.KI.k1_t3_trip.sl.r_246 Cert.Proof.KI.k1_t3_trip.sl.r_247 Cert.Proof.KI.k1_t3_trip.sl.r_248 Cert.Proof.KI.k1_t3_trip.sl.r_249
        Cert.Proof.KI.k1_t3_trip.sl.r_250 Cert.Proof.KI.k1_t3_trip.sl.r_251 Cert.Proof.KI.k1_t3_trip.sl.r_252 Cert.Proof.KI.k1_t3_trip.sl.r_253 Cert.Proof.KI.k1_t3_trip.sl.r_254
        Cert.Proof.KI.k1_t3_trip.sl.r_255 Cert.Proof.KI.k1_t3_trip.sl.r_256 Cert.Proof.KI.k1_t3_trip.sl.r_257 Cert.Proof.KI.k1_t3_trip.sl.r_258 Cert.Proof.KI.k1_t3_trip.sl.r_259
        Cert.Proof.KI.k1_t3_trip.sl.r_260 Cert.Proof.KI.k1_t3_trip.sl.r_261 Cert.Proof.KI.k1_t3_trip.sl.r_262 Cert.Proof.KI.k1_t3_trip.sl.r_263 Cert.Proof.KI.k1_t3_trip.sl.r_264
        Cert.Proof.KI.k1_t3_trip.sl.r_265 Cert.Proof.KI.k1_t3_trip.sl.r_266 Cert.Proof.KI.k1_t3_trip.sl.r_267 Cert.Proof.KI.k1_t3_trip.sl.r_268 Cert.Proof.KI.k1_t3_trip.sl.r_269
        Cert.Proof.KI.k1_t3_trip.sl.r_270 Cert.Proof.KI.k1_t3_trip.sl.r_271 Cert.Proof.KI.k1_t3_trip.sl.r_272 Cert.Proof.KI.k1_t3_trip.sl.r_273 Cert.Proof.KI.k1_t3_trip.sl.r_274
        Cert.Proof.KI.k1_t3_trip.sl.r_275 Cert.Proof.KI.k1_t3_trip.sl.r_276 Cert.Proof.KI.k1_t3_trip.sl.r_277 Cert.Proof.KI.k1_t3_trip.sl.r_278 Cert.Proof.KI.k1_t3_trip.sl.r_279
        Cert.Proof.KI.k1_t3_trip.sl.r_280 Cert.Proof.KI.k1_t3_trip.sl.r_281 Cert.Proof.KI.k1_t3_trip.sl.r_282 Cert.Proof.KI.k1_t3_trip.sl.r_283 Cert.Proof.KI.k1_t3_trip.sl.r_284
        Cert.Proof.KI.k1_t3_trip.sl.r_285 Cert.Proof.KI.k1_t3_trip.sl.r_286 Cert.Proof.KI.k1_t3_trip.sl.r_287 Cert.Proof.KI.k1_t3_trip.sl.r_288 Cert.Proof.KI.k1_t3_trip.sl.r_289
        Cert.Proof.KI.k1_t3_trip.sl.r_290 Cert.Proof.KI.k1_t3_trip.sl.r_291 Cert.Proof.KI.k1_t3_trip.sl.r_292 Cert.Proof.KI.k1_t3_trip.sl.r_293 Cert.Proof.KI.k1_t3_trip.sl.r_294
        Cert.Proof.KI.k1_t3_trip.sl.r_295 Cert.Proof.KI.k1_t3_trip.sl.r_296 Cert.Proof.KI.k1_t3_trip.sl.r_297 Cert.Proof.KI.k1_t3_trip.sl.r_298 Cert.Proof.KI.k1_t3_trip.sl.r_299
        Cert.Proof.KI.k1_t3_trip.sl.r_300 Cert.Proof.KI.k1_t3_trip.sl.r_301 Cert.Proof.KI.k1_t3_trip.sl.r_302 Cert.Proof.KI.k1_t3_trip.sl.r_303 Cert.Proof.KI.k1_t3_trip.sl.r_304
        Cert.Proof.KI.k1_t3_trip.sl.r_305 Cert.Proof.KI.k1_t3_trip.sl.r_306 Cert.Proof.KI.k1_t3_trip.sl.r_307 Cert.Proof.KI.k1_t3_trip.sl.r_308 Cert.Proof.KI.k1_t3_trip.sl.r_309
        Cert.Proof.KI.k1_t3_trip.sl.r_310 Cert.Proof.KI.k1_t3_trip.sl.r_311 Cert.Proof.KI.k1_t3_trip.sl.r_312 Cert.Proof.KI.k1_t3_trip.sl.r_313 Cert.Proof.KI.k1_t3_trip.sl.r_314
        Cert.Proof.KI.k1_t3_trip.sl.r_315 Cert.Proof.KI.k1_t3_trip.sl.r_316 Cert.Proof.KI.k1_t3_trip.sl.r_317 Cert.Proof.KI.k1_t3_trip.sl.r_318
      conv_lhs => simp only [k1_pay1, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20,
        k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38,
        k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56,
        k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74,
        k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92,
        k1_pay93, k1_pay94, k1_pay95, k1_pay96, k1_pay97, k1_pay98, k1_pay99, k1_pay100, k1_pay101, k1_pay102, k1_pay103, k1_pay104, k1_pay105, k1_pay106, k1_pay107, k1_pay108, k1_pay109,
        k1_pay110, k1_pay111, k1_pay112, k1_pay113, k1_pay114, k1_pay115, k1_pay116, k1_pay117, k1_pay118, k1_pay119, k1_pay120, k1_pay121, k1_pay122, k1_pay123, k1_pay124, k1_pay125,
        k1_pay126, k1_pay127, k1_pay128, k1_pay129, k1_pay130, k1_pay131, k1_pay132, k1_pay133, k1_pay134, k1_pay135, k1_pay136, k1_pay137, k1_pay138, k1_pay139, k1_pay140, k1_pay141,
        k1_pay142, k1_pay143, k1_pay144, k1_pay145, k1_pay146, k1_pay147, k1_pay148, k1_pay149, k1_pay150, k1_pay151, k1_pay152, k1_pay153, k1_pay154, k1_pay155, k1_pay156, k1_pay157,
        k1_pay158, k1_pay159, k1_pay160, k1_pay161, k1_pay162, k1_pay163, k1_pay164, k1_pay165, k1_pay166, k1_pay167, k1_pay168, k1_pay169, k1_pay170, k1_pay171, k1_pay172, k1_pay173,
        k1_pay174, k1_pay175, k1_pay176, k1_pay177, k1_pay178, k1_pay179, k1_pay180, k1_pay181, k1_pay182, k1_pay183, k1_pay184, k1_pay185, k1_pay186, k1_pay187, k1_pay188, k1_pay189,
        k1_pay190, k1_pay191, k1_pay192, k1_pay193, k1_pay194, k1_pay195, k1_pay196, k1_pay197, k1_pay198, k1_pay199, k1_pay200, k1_pay201, k1_pay202, k1_pay203, k1_pay204, k1_pay205,
        k1_pay206, k1_pay207, k1_pay208, k1_pay209, k1_pay210, k1_pay211, k1_pay212, k1_pay213, k1_pay214, k1_pay215, k1_pay216, k1_pay217, k1_pay218, k1_pay219, k1_pay220, k1_pay221,
        k1_pay222, k1_pay223, k1_pay224, k1_pay225, k1_pay226, k1_pay227, k1_pay228, k1_pay229, k1_pay230, k1_pay231, k1_pay232, k1_pay233, k1_pay234, k1_pay235, k1_pay236, k1_pay237,
        k1_pay238, k1_pay239, k1_pay240, k1_pay241, k1_pay242, k1_pay243, k1_pay244, k1_pay245, k1_pay246, k1_pay247, k1_pay248, k1_pay249, k1_pay250, k1_pay251, k1_pay252, k1_pay253,
        k1_pay254, k1_pay255, k1_pay256, k1_pay257, k1_pay258, k1_pay259, k1_pay260, k1_pay261, k1_pay262, k1_pay263, k1_pay264, k1_pay265, k1_pay266, k1_pay267, k1_pay268, k1_pay269,
        k1_pay270, k1_pay271, k1_pay272, k1_pay273, k1_pay274, k1_pay275, k1_pay276, k1_pay277, k1_pay278, k1_pay279, k1_pay280, k1_pay281, k1_pay282, k1_pay283, k1_pay284, k1_pay285,
        k1_pay286, k1_pay287, k1_pay288, k1_pay289, k1_pay290, k1_pay291, k1_pay292, k1_pay293, k1_pay294, k1_pay295, k1_pay296, k1_pay297, k1_pay298, k1_pay299, k1_pay300, k1_pay301,
        k1_pay302, k1_pay303, k1_pay304, k1_pay305, k1_pay306, k1_pay307, k1_pay308, k1_pay309, k1_pay310, k1_pay311, k1_pay312, k1_pay313, k1_pay314, k1_pay315, k1_pay316, k1_pay317,
        k1_pay318, k1_pay319, k1_pay320, k1_pay321, k1_pay322, k1_pay323, Pure.addf_at, Pure.mulf_at, Pure.broadcast_at, Pure.lane_at, Pure.cast16_16, Pure.cast1x16_16, Pure.cast16_1x16]
      rfl
    · intro l
      show _ = Pure.acc32 (rowW fw r) (rowE fb sub (⟨16 + l.val, by have := l.isLt; omega⟩ : Fin 128))
        (g (ix2 r (⟨16 + l.val, by have := l.isLt; omega⟩ : Fin 128)))
      refine ((?_ : _ = _).trans (Pure.acc32_chain (wraw3 fw t2 t) (eraw3_1 fb t l) (graw3_1 g t2 t l))).trans
        (Pure.acc32_congr (wraw3_eq fw t2 t r hr) (eraw3_1_eq fb t sub hs l _ rfl) (graw3_1_eq g t2 t r hr l _ rfl))
      delta Cert.Proof.KI.k1_t3_trip.sl.r Cert.Proof.KI.k1_t3_trip.sl.r_1 Cert.Proof.KI.k1_t3_trip.sl.r_2 Cert.Proof.KI.k1_t3_trip.sl.r_3 Cert.Proof.KI.k1_t3_trip.sl.r_4
        Cert.Proof.KI.k1_t3_trip.sl.r_5 Cert.Proof.KI.k1_t3_trip.sl.r_6 Cert.Proof.KI.k1_t3_trip.sl.r_7 Cert.Proof.KI.k1_t3_trip.sl.r_8 Cert.Proof.KI.k1_t3_trip.sl.r_9
        Cert.Proof.KI.k1_t3_trip.sl.r_10 Cert.Proof.KI.k1_t3_trip.sl.r_11 Cert.Proof.KI.k1_t3_trip.sl.r_12 Cert.Proof.KI.k1_t3_trip.sl.r_13 Cert.Proof.KI.k1_t3_trip.sl.r_14
        Cert.Proof.KI.k1_t3_trip.sl.r_15 Cert.Proof.KI.k1_t3_trip.sl.r_16 Cert.Proof.KI.k1_t3_trip.sl.r_17 Cert.Proof.KI.k1_t3_trip.sl.r_18 Cert.Proof.KI.k1_t3_trip.sl.r_19
        Cert.Proof.KI.k1_t3_trip.sl.r_20 Cert.Proof.KI.k1_t3_trip.sl.r_21 Cert.Proof.KI.k1_t3_trip.sl.r_22 Cert.Proof.KI.k1_t3_trip.sl.r_23 Cert.Proof.KI.k1_t3_trip.sl.r_24
        Cert.Proof.KI.k1_t3_trip.sl.r_25 Cert.Proof.KI.k1_t3_trip.sl.r_26 Cert.Proof.KI.k1_t3_trip.sl.r_27 Cert.Proof.KI.k1_t3_trip.sl.r_28 Cert.Proof.KI.k1_t3_trip.sl.r_29
        Cert.Proof.KI.k1_t3_trip.sl.r_30 Cert.Proof.KI.k1_t3_trip.sl.r_31 Cert.Proof.KI.k1_t3_trip.sl.r_32 Cert.Proof.KI.k1_t3_trip.sl.r_33 Cert.Proof.KI.k1_t3_trip.sl.r_34
        Cert.Proof.KI.k1_t3_trip.sl.r_35 Cert.Proof.KI.k1_t3_trip.sl.r_36 Cert.Proof.KI.k1_t3_trip.sl.r_37 Cert.Proof.KI.k1_t3_trip.sl.r_38 Cert.Proof.KI.k1_t3_trip.sl.r_39
        Cert.Proof.KI.k1_t3_trip.sl.r_40 Cert.Proof.KI.k1_t3_trip.sl.r_41 Cert.Proof.KI.k1_t3_trip.sl.r_42 Cert.Proof.KI.k1_t3_trip.sl.r_43 Cert.Proof.KI.k1_t3_trip.sl.r_44
        Cert.Proof.KI.k1_t3_trip.sl.r_45 Cert.Proof.KI.k1_t3_trip.sl.r_46 Cert.Proof.KI.k1_t3_trip.sl.r_47 Cert.Proof.KI.k1_t3_trip.sl.r_48 Cert.Proof.KI.k1_t3_trip.sl.r_49
        Cert.Proof.KI.k1_t3_trip.sl.r_50 Cert.Proof.KI.k1_t3_trip.sl.r_51 Cert.Proof.KI.k1_t3_trip.sl.r_52 Cert.Proof.KI.k1_t3_trip.sl.r_53 Cert.Proof.KI.k1_t3_trip.sl.r_54
        Cert.Proof.KI.k1_t3_trip.sl.r_55 Cert.Proof.KI.k1_t3_trip.sl.r_56 Cert.Proof.KI.k1_t3_trip.sl.r_57 Cert.Proof.KI.k1_t3_trip.sl.r_58 Cert.Proof.KI.k1_t3_trip.sl.r_59
        Cert.Proof.KI.k1_t3_trip.sl.r_60 Cert.Proof.KI.k1_t3_trip.sl.r_61 Cert.Proof.KI.k1_t3_trip.sl.r_62 Cert.Proof.KI.k1_t3_trip.sl.r_63 Cert.Proof.KI.k1_t3_trip.sl.r_64
        Cert.Proof.KI.k1_t3_trip.sl.r_65 Cert.Proof.KI.k1_t3_trip.sl.r_66 Cert.Proof.KI.k1_t3_trip.sl.r_67 Cert.Proof.KI.k1_t3_trip.sl.r_68 Cert.Proof.KI.k1_t3_trip.sl.r_69
        Cert.Proof.KI.k1_t3_trip.sl.r_70 Cert.Proof.KI.k1_t3_trip.sl.r_71 Cert.Proof.KI.k1_t3_trip.sl.r_72 Cert.Proof.KI.k1_t3_trip.sl.r_73 Cert.Proof.KI.k1_t3_trip.sl.r_74
        Cert.Proof.KI.k1_t3_trip.sl.r_75 Cert.Proof.KI.k1_t3_trip.sl.r_76 Cert.Proof.KI.k1_t3_trip.sl.r_77 Cert.Proof.KI.k1_t3_trip.sl.r_78 Cert.Proof.KI.k1_t3_trip.sl.r_79
        Cert.Proof.KI.k1_t3_trip.sl.r_80 Cert.Proof.KI.k1_t3_trip.sl.r_81 Cert.Proof.KI.k1_t3_trip.sl.r_82 Cert.Proof.KI.k1_t3_trip.sl.r_83 Cert.Proof.KI.k1_t3_trip.sl.r_84
        Cert.Proof.KI.k1_t3_trip.sl.r_85 Cert.Proof.KI.k1_t3_trip.sl.r_86 Cert.Proof.KI.k1_t3_trip.sl.r_87 Cert.Proof.KI.k1_t3_trip.sl.r_88 Cert.Proof.KI.k1_t3_trip.sl.r_89
        Cert.Proof.KI.k1_t3_trip.sl.r_90 Cert.Proof.KI.k1_t3_trip.sl.r_91 Cert.Proof.KI.k1_t3_trip.sl.r_92 Cert.Proof.KI.k1_t3_trip.sl.r_93 Cert.Proof.KI.k1_t3_trip.sl.r_94
        Cert.Proof.KI.k1_t3_trip.sl.r_95 Cert.Proof.KI.k1_t3_trip.sl.r_96 Cert.Proof.KI.k1_t3_trip.sl.r_97 Cert.Proof.KI.k1_t3_trip.sl.r_98 Cert.Proof.KI.k1_t3_trip.sl.r_99
        Cert.Proof.KI.k1_t3_trip.sl.r_100 Cert.Proof.KI.k1_t3_trip.sl.r_101 Cert.Proof.KI.k1_t3_trip.sl.r_102 Cert.Proof.KI.k1_t3_trip.sl.r_103 Cert.Proof.KI.k1_t3_trip.sl.r_104
        Cert.Proof.KI.k1_t3_trip.sl.r_105 Cert.Proof.KI.k1_t3_trip.sl.r_106 Cert.Proof.KI.k1_t3_trip.sl.r_107 Cert.Proof.KI.k1_t3_trip.sl.r_108 Cert.Proof.KI.k1_t3_trip.sl.r_109
        Cert.Proof.KI.k1_t3_trip.sl.r_110 Cert.Proof.KI.k1_t3_trip.sl.r_111 Cert.Proof.KI.k1_t3_trip.sl.r_112 Cert.Proof.KI.k1_t3_trip.sl.r_113 Cert.Proof.KI.k1_t3_trip.sl.r_114
        Cert.Proof.KI.k1_t3_trip.sl.r_115 Cert.Proof.KI.k1_t3_trip.sl.r_116 Cert.Proof.KI.k1_t3_trip.sl.r_117 Cert.Proof.KI.k1_t3_trip.sl.r_118 Cert.Proof.KI.k1_t3_trip.sl.r_119
        Cert.Proof.KI.k1_t3_trip.sl.r_120 Cert.Proof.KI.k1_t3_trip.sl.r_121 Cert.Proof.KI.k1_t3_trip.sl.r_122 Cert.Proof.KI.k1_t3_trip.sl.r_123 Cert.Proof.KI.k1_t3_trip.sl.r_124
        Cert.Proof.KI.k1_t3_trip.sl.r_125 Cert.Proof.KI.k1_t3_trip.sl.r_126 Cert.Proof.KI.k1_t3_trip.sl.r_127 Cert.Proof.KI.k1_t3_trip.sl.r_128 Cert.Proof.KI.k1_t3_trip.sl.r_129
        Cert.Proof.KI.k1_t3_trip.sl.r_130 Cert.Proof.KI.k1_t3_trip.sl.r_131 Cert.Proof.KI.k1_t3_trip.sl.r_132 Cert.Proof.KI.k1_t3_trip.sl.r_133 Cert.Proof.KI.k1_t3_trip.sl.r_134
        Cert.Proof.KI.k1_t3_trip.sl.r_135 Cert.Proof.KI.k1_t3_trip.sl.r_136 Cert.Proof.KI.k1_t3_trip.sl.r_137 Cert.Proof.KI.k1_t3_trip.sl.r_138 Cert.Proof.KI.k1_t3_trip.sl.r_139
        Cert.Proof.KI.k1_t3_trip.sl.r_140 Cert.Proof.KI.k1_t3_trip.sl.r_141 Cert.Proof.KI.k1_t3_trip.sl.r_142 Cert.Proof.KI.k1_t3_trip.sl.r_143 Cert.Proof.KI.k1_t3_trip.sl.r_144
        Cert.Proof.KI.k1_t3_trip.sl.r_145 Cert.Proof.KI.k1_t3_trip.sl.r_146 Cert.Proof.KI.k1_t3_trip.sl.r_147 Cert.Proof.KI.k1_t3_trip.sl.r_148 Cert.Proof.KI.k1_t3_trip.sl.r_149
        Cert.Proof.KI.k1_t3_trip.sl.r_150 Cert.Proof.KI.k1_t3_trip.sl.r_151 Cert.Proof.KI.k1_t3_trip.sl.r_152 Cert.Proof.KI.k1_t3_trip.sl.r_153 Cert.Proof.KI.k1_t3_trip.sl.r_154
        Cert.Proof.KI.k1_t3_trip.sl.r_155 Cert.Proof.KI.k1_t3_trip.sl.r_156 Cert.Proof.KI.k1_t3_trip.sl.r_157 Cert.Proof.KI.k1_t3_trip.sl.r_158 Cert.Proof.KI.k1_t3_trip.sl.r_159
        Cert.Proof.KI.k1_t3_trip.sl.r_160 Cert.Proof.KI.k1_t3_trip.sl.r_161 Cert.Proof.KI.k1_t3_trip.sl.r_162 Cert.Proof.KI.k1_t3_trip.sl.r_163 Cert.Proof.KI.k1_t3_trip.sl.r_164
        Cert.Proof.KI.k1_t3_trip.sl.r_165 Cert.Proof.KI.k1_t3_trip.sl.r_166 Cert.Proof.KI.k1_t3_trip.sl.r_167 Cert.Proof.KI.k1_t3_trip.sl.r_168 Cert.Proof.KI.k1_t3_trip.sl.r_169
        Cert.Proof.KI.k1_t3_trip.sl.r_170 Cert.Proof.KI.k1_t3_trip.sl.r_171 Cert.Proof.KI.k1_t3_trip.sl.r_172 Cert.Proof.KI.k1_t3_trip.sl.r_173 Cert.Proof.KI.k1_t3_trip.sl.r_174
        Cert.Proof.KI.k1_t3_trip.sl.r_175 Cert.Proof.KI.k1_t3_trip.sl.r_176 Cert.Proof.KI.k1_t3_trip.sl.r_177 Cert.Proof.KI.k1_t3_trip.sl.r_178 Cert.Proof.KI.k1_t3_trip.sl.r_179
        Cert.Proof.KI.k1_t3_trip.sl.r_180 Cert.Proof.KI.k1_t3_trip.sl.r_181 Cert.Proof.KI.k1_t3_trip.sl.r_182 Cert.Proof.KI.k1_t3_trip.sl.r_183 Cert.Proof.KI.k1_t3_trip.sl.r_184
        Cert.Proof.KI.k1_t3_trip.sl.r_185 Cert.Proof.KI.k1_t3_trip.sl.r_186 Cert.Proof.KI.k1_t3_trip.sl.r_187 Cert.Proof.KI.k1_t3_trip.sl.r_188 Cert.Proof.KI.k1_t3_trip.sl.r_189
        Cert.Proof.KI.k1_t3_trip.sl.r_190 Cert.Proof.KI.k1_t3_trip.sl.r_191 Cert.Proof.KI.k1_t3_trip.sl.r_192 Cert.Proof.KI.k1_t3_trip.sl.r_193 Cert.Proof.KI.k1_t3_trip.sl.r_194
        Cert.Proof.KI.k1_t3_trip.sl.r_195 Cert.Proof.KI.k1_t3_trip.sl.r_196 Cert.Proof.KI.k1_t3_trip.sl.r_197 Cert.Proof.KI.k1_t3_trip.sl.r_198 Cert.Proof.KI.k1_t3_trip.sl.r_199
        Cert.Proof.KI.k1_t3_trip.sl.r_200 Cert.Proof.KI.k1_t3_trip.sl.r_201 Cert.Proof.KI.k1_t3_trip.sl.r_202 Cert.Proof.KI.k1_t3_trip.sl.r_203 Cert.Proof.KI.k1_t3_trip.sl.r_204
        Cert.Proof.KI.k1_t3_trip.sl.r_205 Cert.Proof.KI.k1_t3_trip.sl.r_206 Cert.Proof.KI.k1_t3_trip.sl.r_207 Cert.Proof.KI.k1_t3_trip.sl.r_208 Cert.Proof.KI.k1_t3_trip.sl.r_209
        Cert.Proof.KI.k1_t3_trip.sl.r_210 Cert.Proof.KI.k1_t3_trip.sl.r_211 Cert.Proof.KI.k1_t3_trip.sl.r_212 Cert.Proof.KI.k1_t3_trip.sl.r_213 Cert.Proof.KI.k1_t3_trip.sl.r_214
        Cert.Proof.KI.k1_t3_trip.sl.r_215 Cert.Proof.KI.k1_t3_trip.sl.r_216 Cert.Proof.KI.k1_t3_trip.sl.r_217 Cert.Proof.KI.k1_t3_trip.sl.r_218 Cert.Proof.KI.k1_t3_trip.sl.r_219
        Cert.Proof.KI.k1_t3_trip.sl.r_220 Cert.Proof.KI.k1_t3_trip.sl.r_221 Cert.Proof.KI.k1_t3_trip.sl.r_222 Cert.Proof.KI.k1_t3_trip.sl.r_223 Cert.Proof.KI.k1_t3_trip.sl.r_224
        Cert.Proof.KI.k1_t3_trip.sl.r_225 Cert.Proof.KI.k1_t3_trip.sl.r_226 Cert.Proof.KI.k1_t3_trip.sl.r_227 Cert.Proof.KI.k1_t3_trip.sl.r_228 Cert.Proof.KI.k1_t3_trip.sl.r_229
        Cert.Proof.KI.k1_t3_trip.sl.r_230 Cert.Proof.KI.k1_t3_trip.sl.r_231 Cert.Proof.KI.k1_t3_trip.sl.r_232 Cert.Proof.KI.k1_t3_trip.sl.r_233 Cert.Proof.KI.k1_t3_trip.sl.r_234
        Cert.Proof.KI.k1_t3_trip.sl.r_235 Cert.Proof.KI.k1_t3_trip.sl.r_236 Cert.Proof.KI.k1_t3_trip.sl.r_237 Cert.Proof.KI.k1_t3_trip.sl.r_238 Cert.Proof.KI.k1_t3_trip.sl.r_239
        Cert.Proof.KI.k1_t3_trip.sl.r_240 Cert.Proof.KI.k1_t3_trip.sl.r_241 Cert.Proof.KI.k1_t3_trip.sl.r_242 Cert.Proof.KI.k1_t3_trip.sl.r_243 Cert.Proof.KI.k1_t3_trip.sl.r_244
        Cert.Proof.KI.k1_t3_trip.sl.r_245 Cert.Proof.KI.k1_t3_trip.sl.r_246 Cert.Proof.KI.k1_t3_trip.sl.r_247 Cert.Proof.KI.k1_t3_trip.sl.r_248 Cert.Proof.KI.k1_t3_trip.sl.r_249
        Cert.Proof.KI.k1_t3_trip.sl.r_250 Cert.Proof.KI.k1_t3_trip.sl.r_251 Cert.Proof.KI.k1_t3_trip.sl.r_252 Cert.Proof.KI.k1_t3_trip.sl.r_253 Cert.Proof.KI.k1_t3_trip.sl.r_254
        Cert.Proof.KI.k1_t3_trip.sl.r_255 Cert.Proof.KI.k1_t3_trip.sl.r_256 Cert.Proof.KI.k1_t3_trip.sl.r_257 Cert.Proof.KI.k1_t3_trip.sl.r_258 Cert.Proof.KI.k1_t3_trip.sl.r_259
        Cert.Proof.KI.k1_t3_trip.sl.r_260 Cert.Proof.KI.k1_t3_trip.sl.r_261 Cert.Proof.KI.k1_t3_trip.sl.r_262 Cert.Proof.KI.k1_t3_trip.sl.r_263 Cert.Proof.KI.k1_t3_trip.sl.r_264
        Cert.Proof.KI.k1_t3_trip.sl.r_265 Cert.Proof.KI.k1_t3_trip.sl.r_266 Cert.Proof.KI.k1_t3_trip.sl.r_267 Cert.Proof.KI.k1_t3_trip.sl.r_268 Cert.Proof.KI.k1_t3_trip.sl.r_269
        Cert.Proof.KI.k1_t3_trip.sl.r_270 Cert.Proof.KI.k1_t3_trip.sl.r_271 Cert.Proof.KI.k1_t3_trip.sl.r_272 Cert.Proof.KI.k1_t3_trip.sl.r_273 Cert.Proof.KI.k1_t3_trip.sl.r_274
        Cert.Proof.KI.k1_t3_trip.sl.r_275 Cert.Proof.KI.k1_t3_trip.sl.r_276 Cert.Proof.KI.k1_t3_trip.sl.r_277 Cert.Proof.KI.k1_t3_trip.sl.r_278 Cert.Proof.KI.k1_t3_trip.sl.r_279
        Cert.Proof.KI.k1_t3_trip.sl.r_280 Cert.Proof.KI.k1_t3_trip.sl.r_281 Cert.Proof.KI.k1_t3_trip.sl.r_282 Cert.Proof.KI.k1_t3_trip.sl.r_283 Cert.Proof.KI.k1_t3_trip.sl.r_284
        Cert.Proof.KI.k1_t3_trip.sl.r_285 Cert.Proof.KI.k1_t3_trip.sl.r_286 Cert.Proof.KI.k1_t3_trip.sl.r_287 Cert.Proof.KI.k1_t3_trip.sl.r_288 Cert.Proof.KI.k1_t3_trip.sl.r_289
        Cert.Proof.KI.k1_t3_trip.sl.r_290 Cert.Proof.KI.k1_t3_trip.sl.r_291 Cert.Proof.KI.k1_t3_trip.sl.r_292 Cert.Proof.KI.k1_t3_trip.sl.r_293 Cert.Proof.KI.k1_t3_trip.sl.r_294
        Cert.Proof.KI.k1_t3_trip.sl.r_295 Cert.Proof.KI.k1_t3_trip.sl.r_296 Cert.Proof.KI.k1_t3_trip.sl.r_297 Cert.Proof.KI.k1_t3_trip.sl.r_298 Cert.Proof.KI.k1_t3_trip.sl.r_299
        Cert.Proof.KI.k1_t3_trip.sl.r_300 Cert.Proof.KI.k1_t3_trip.sl.r_301 Cert.Proof.KI.k1_t3_trip.sl.r_302 Cert.Proof.KI.k1_t3_trip.sl.r_303 Cert.Proof.KI.k1_t3_trip.sl.r_304
        Cert.Proof.KI.k1_t3_trip.sl.r_305 Cert.Proof.KI.k1_t3_trip.sl.r_306 Cert.Proof.KI.k1_t3_trip.sl.r_307 Cert.Proof.KI.k1_t3_trip.sl.r_308 Cert.Proof.KI.k1_t3_trip.sl.r_309
        Cert.Proof.KI.k1_t3_trip.sl.r_310 Cert.Proof.KI.k1_t3_trip.sl.r_311 Cert.Proof.KI.k1_t3_trip.sl.r_312 Cert.Proof.KI.k1_t3_trip.sl.r_313 Cert.Proof.KI.k1_t3_trip.sl.r_314
        Cert.Proof.KI.k1_t3_trip.sl.r_315 Cert.Proof.KI.k1_t3_trip.sl.r_316 Cert.Proof.KI.k1_t3_trip.sl.r_317 Cert.Proof.KI.k1_t3_trip.sl.r_318
      conv_lhs => simp only [k1_pay1, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20,
        k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38,
        k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56,
        k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74,
        k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92,
        k1_pay93, k1_pay94, k1_pay95, k1_pay96, k1_pay97, k1_pay98, k1_pay99, k1_pay100, k1_pay101, k1_pay102, k1_pay103, k1_pay104, k1_pay105, k1_pay106, k1_pay107, k1_pay108, k1_pay109,
        k1_pay110, k1_pay111, k1_pay112, k1_pay113, k1_pay114, k1_pay115, k1_pay116, k1_pay117, k1_pay118, k1_pay119, k1_pay120, k1_pay121, k1_pay122, k1_pay123, k1_pay124, k1_pay125,
        k1_pay126, k1_pay127, k1_pay128, k1_pay129, k1_pay130, k1_pay131, k1_pay132, k1_pay133, k1_pay134, k1_pay135, k1_pay136, k1_pay137, k1_pay138, k1_pay139, k1_pay140, k1_pay141,
        k1_pay142, k1_pay143, k1_pay144, k1_pay145, k1_pay146, k1_pay147, k1_pay148, k1_pay149, k1_pay150, k1_pay151, k1_pay152, k1_pay153, k1_pay154, k1_pay155, k1_pay156, k1_pay157,
        k1_pay158, k1_pay159, k1_pay160, k1_pay161, k1_pay162, k1_pay163, k1_pay164, k1_pay165, k1_pay166, k1_pay167, k1_pay168, k1_pay169, k1_pay170, k1_pay171, k1_pay172, k1_pay173,
        k1_pay174, k1_pay175, k1_pay176, k1_pay177, k1_pay178, k1_pay179, k1_pay180, k1_pay181, k1_pay182, k1_pay183, k1_pay184, k1_pay185, k1_pay186, k1_pay187, k1_pay188, k1_pay189,
        k1_pay190, k1_pay191, k1_pay192, k1_pay193, k1_pay194, k1_pay195, k1_pay196, k1_pay197, k1_pay198, k1_pay199, k1_pay200, k1_pay201, k1_pay202, k1_pay203, k1_pay204, k1_pay205,
        k1_pay206, k1_pay207, k1_pay208, k1_pay209, k1_pay210, k1_pay211, k1_pay212, k1_pay213, k1_pay214, k1_pay215, k1_pay216, k1_pay217, k1_pay218, k1_pay219, k1_pay220, k1_pay221,
        k1_pay222, k1_pay223, k1_pay224, k1_pay225, k1_pay226, k1_pay227, k1_pay228, k1_pay229, k1_pay230, k1_pay231, k1_pay232, k1_pay233, k1_pay234, k1_pay235, k1_pay236, k1_pay237,
        k1_pay238, k1_pay239, k1_pay240, k1_pay241, k1_pay242, k1_pay243, k1_pay244, k1_pay245, k1_pay246, k1_pay247, k1_pay248, k1_pay249, k1_pay250, k1_pay251, k1_pay252, k1_pay253,
        k1_pay254, k1_pay255, k1_pay256, k1_pay257, k1_pay258, k1_pay259, k1_pay260, k1_pay261, k1_pay262, k1_pay263, k1_pay264, k1_pay265, k1_pay266, k1_pay267, k1_pay268, k1_pay269,
        k1_pay270, k1_pay271, k1_pay272, k1_pay273, k1_pay274, k1_pay275, k1_pay276, k1_pay277, k1_pay278, k1_pay279, k1_pay280, k1_pay281, k1_pay282, k1_pay283, k1_pay284, k1_pay285,
        k1_pay286, k1_pay287, k1_pay288, k1_pay289, k1_pay290, k1_pay291, k1_pay292, k1_pay293, k1_pay294, k1_pay295, k1_pay296, k1_pay297, k1_pay298, k1_pay299, k1_pay300, k1_pay301,
        k1_pay302, k1_pay303, k1_pay304, k1_pay305, k1_pay306, k1_pay307, k1_pay308, k1_pay309, k1_pay310, k1_pay311, k1_pay312, k1_pay313, k1_pay314, k1_pay315, k1_pay316, k1_pay317,
        k1_pay318, k1_pay319, k1_pay320, k1_pay321, k1_pay322, k1_pay323, Pure.addf_at, Pure.mulf_at, Pure.broadcast_at, Pure.lane_at, Pure.cast16_16, Pure.cast1x16_16, Pure.cast16_1x16]
      rfl
    · intro l
      show _ = Pure.acc32 (rowW fw r) (rowE fb sub (⟨32 + l.val, by have := l.isLt; omega⟩ : Fin 128))
        (g (ix2 r (⟨32 + l.val, by have := l.isLt; omega⟩ : Fin 128)))
      refine ((?_ : _ = _).trans (Pure.acc32_chain (wraw3 fw t2 t) (eraw3_2 fb t l) (graw3_2 g t2 t l))).trans
        (Pure.acc32_congr (wraw3_eq fw t2 t r hr) (eraw3_2_eq fb t sub hs l _ rfl) (graw3_2_eq g t2 t r hr l _ rfl))
      delta Cert.Proof.KI.k1_t3_trip.sl.r Cert.Proof.KI.k1_t3_trip.sl.r_1 Cert.Proof.KI.k1_t3_trip.sl.r_2 Cert.Proof.KI.k1_t3_trip.sl.r_3 Cert.Proof.KI.k1_t3_trip.sl.r_4
        Cert.Proof.KI.k1_t3_trip.sl.r_5 Cert.Proof.KI.k1_t3_trip.sl.r_6 Cert.Proof.KI.k1_t3_trip.sl.r_7 Cert.Proof.KI.k1_t3_trip.sl.r_8 Cert.Proof.KI.k1_t3_trip.sl.r_9
        Cert.Proof.KI.k1_t3_trip.sl.r_10 Cert.Proof.KI.k1_t3_trip.sl.r_11 Cert.Proof.KI.k1_t3_trip.sl.r_12 Cert.Proof.KI.k1_t3_trip.sl.r_13 Cert.Proof.KI.k1_t3_trip.sl.r_14
        Cert.Proof.KI.k1_t3_trip.sl.r_15 Cert.Proof.KI.k1_t3_trip.sl.r_16 Cert.Proof.KI.k1_t3_trip.sl.r_17 Cert.Proof.KI.k1_t3_trip.sl.r_18 Cert.Proof.KI.k1_t3_trip.sl.r_19
        Cert.Proof.KI.k1_t3_trip.sl.r_20 Cert.Proof.KI.k1_t3_trip.sl.r_21 Cert.Proof.KI.k1_t3_trip.sl.r_22 Cert.Proof.KI.k1_t3_trip.sl.r_23 Cert.Proof.KI.k1_t3_trip.sl.r_24
        Cert.Proof.KI.k1_t3_trip.sl.r_25 Cert.Proof.KI.k1_t3_trip.sl.r_26 Cert.Proof.KI.k1_t3_trip.sl.r_27 Cert.Proof.KI.k1_t3_trip.sl.r_28 Cert.Proof.KI.k1_t3_trip.sl.r_29
        Cert.Proof.KI.k1_t3_trip.sl.r_30 Cert.Proof.KI.k1_t3_trip.sl.r_31 Cert.Proof.KI.k1_t3_trip.sl.r_32 Cert.Proof.KI.k1_t3_trip.sl.r_33 Cert.Proof.KI.k1_t3_trip.sl.r_34
        Cert.Proof.KI.k1_t3_trip.sl.r_35 Cert.Proof.KI.k1_t3_trip.sl.r_36 Cert.Proof.KI.k1_t3_trip.sl.r_37 Cert.Proof.KI.k1_t3_trip.sl.r_38 Cert.Proof.KI.k1_t3_trip.sl.r_39
        Cert.Proof.KI.k1_t3_trip.sl.r_40 Cert.Proof.KI.k1_t3_trip.sl.r_41 Cert.Proof.KI.k1_t3_trip.sl.r_42 Cert.Proof.KI.k1_t3_trip.sl.r_43 Cert.Proof.KI.k1_t3_trip.sl.r_44
        Cert.Proof.KI.k1_t3_trip.sl.r_45 Cert.Proof.KI.k1_t3_trip.sl.r_46 Cert.Proof.KI.k1_t3_trip.sl.r_47 Cert.Proof.KI.k1_t3_trip.sl.r_48 Cert.Proof.KI.k1_t3_trip.sl.r_49
        Cert.Proof.KI.k1_t3_trip.sl.r_50 Cert.Proof.KI.k1_t3_trip.sl.r_51 Cert.Proof.KI.k1_t3_trip.sl.r_52 Cert.Proof.KI.k1_t3_trip.sl.r_53 Cert.Proof.KI.k1_t3_trip.sl.r_54
        Cert.Proof.KI.k1_t3_trip.sl.r_55 Cert.Proof.KI.k1_t3_trip.sl.r_56 Cert.Proof.KI.k1_t3_trip.sl.r_57 Cert.Proof.KI.k1_t3_trip.sl.r_58 Cert.Proof.KI.k1_t3_trip.sl.r_59
        Cert.Proof.KI.k1_t3_trip.sl.r_60 Cert.Proof.KI.k1_t3_trip.sl.r_61 Cert.Proof.KI.k1_t3_trip.sl.r_62 Cert.Proof.KI.k1_t3_trip.sl.r_63 Cert.Proof.KI.k1_t3_trip.sl.r_64
        Cert.Proof.KI.k1_t3_trip.sl.r_65 Cert.Proof.KI.k1_t3_trip.sl.r_66 Cert.Proof.KI.k1_t3_trip.sl.r_67 Cert.Proof.KI.k1_t3_trip.sl.r_68 Cert.Proof.KI.k1_t3_trip.sl.r_69
        Cert.Proof.KI.k1_t3_trip.sl.r_70 Cert.Proof.KI.k1_t3_trip.sl.r_71 Cert.Proof.KI.k1_t3_trip.sl.r_72 Cert.Proof.KI.k1_t3_trip.sl.r_73 Cert.Proof.KI.k1_t3_trip.sl.r_74
        Cert.Proof.KI.k1_t3_trip.sl.r_75 Cert.Proof.KI.k1_t3_trip.sl.r_76 Cert.Proof.KI.k1_t3_trip.sl.r_77 Cert.Proof.KI.k1_t3_trip.sl.r_78 Cert.Proof.KI.k1_t3_trip.sl.r_79
        Cert.Proof.KI.k1_t3_trip.sl.r_80 Cert.Proof.KI.k1_t3_trip.sl.r_81 Cert.Proof.KI.k1_t3_trip.sl.r_82 Cert.Proof.KI.k1_t3_trip.sl.r_83 Cert.Proof.KI.k1_t3_trip.sl.r_84
        Cert.Proof.KI.k1_t3_trip.sl.r_85 Cert.Proof.KI.k1_t3_trip.sl.r_86 Cert.Proof.KI.k1_t3_trip.sl.r_87 Cert.Proof.KI.k1_t3_trip.sl.r_88 Cert.Proof.KI.k1_t3_trip.sl.r_89
        Cert.Proof.KI.k1_t3_trip.sl.r_90 Cert.Proof.KI.k1_t3_trip.sl.r_91 Cert.Proof.KI.k1_t3_trip.sl.r_92 Cert.Proof.KI.k1_t3_trip.sl.r_93 Cert.Proof.KI.k1_t3_trip.sl.r_94
        Cert.Proof.KI.k1_t3_trip.sl.r_95 Cert.Proof.KI.k1_t3_trip.sl.r_96 Cert.Proof.KI.k1_t3_trip.sl.r_97 Cert.Proof.KI.k1_t3_trip.sl.r_98 Cert.Proof.KI.k1_t3_trip.sl.r_99
        Cert.Proof.KI.k1_t3_trip.sl.r_100 Cert.Proof.KI.k1_t3_trip.sl.r_101 Cert.Proof.KI.k1_t3_trip.sl.r_102 Cert.Proof.KI.k1_t3_trip.sl.r_103 Cert.Proof.KI.k1_t3_trip.sl.r_104
        Cert.Proof.KI.k1_t3_trip.sl.r_105 Cert.Proof.KI.k1_t3_trip.sl.r_106 Cert.Proof.KI.k1_t3_trip.sl.r_107 Cert.Proof.KI.k1_t3_trip.sl.r_108 Cert.Proof.KI.k1_t3_trip.sl.r_109
        Cert.Proof.KI.k1_t3_trip.sl.r_110 Cert.Proof.KI.k1_t3_trip.sl.r_111 Cert.Proof.KI.k1_t3_trip.sl.r_112 Cert.Proof.KI.k1_t3_trip.sl.r_113 Cert.Proof.KI.k1_t3_trip.sl.r_114
        Cert.Proof.KI.k1_t3_trip.sl.r_115 Cert.Proof.KI.k1_t3_trip.sl.r_116 Cert.Proof.KI.k1_t3_trip.sl.r_117 Cert.Proof.KI.k1_t3_trip.sl.r_118 Cert.Proof.KI.k1_t3_trip.sl.r_119
        Cert.Proof.KI.k1_t3_trip.sl.r_120 Cert.Proof.KI.k1_t3_trip.sl.r_121 Cert.Proof.KI.k1_t3_trip.sl.r_122 Cert.Proof.KI.k1_t3_trip.sl.r_123 Cert.Proof.KI.k1_t3_trip.sl.r_124
        Cert.Proof.KI.k1_t3_trip.sl.r_125 Cert.Proof.KI.k1_t3_trip.sl.r_126 Cert.Proof.KI.k1_t3_trip.sl.r_127 Cert.Proof.KI.k1_t3_trip.sl.r_128 Cert.Proof.KI.k1_t3_trip.sl.r_129
        Cert.Proof.KI.k1_t3_trip.sl.r_130 Cert.Proof.KI.k1_t3_trip.sl.r_131 Cert.Proof.KI.k1_t3_trip.sl.r_132 Cert.Proof.KI.k1_t3_trip.sl.r_133 Cert.Proof.KI.k1_t3_trip.sl.r_134
        Cert.Proof.KI.k1_t3_trip.sl.r_135 Cert.Proof.KI.k1_t3_trip.sl.r_136 Cert.Proof.KI.k1_t3_trip.sl.r_137 Cert.Proof.KI.k1_t3_trip.sl.r_138 Cert.Proof.KI.k1_t3_trip.sl.r_139
        Cert.Proof.KI.k1_t3_trip.sl.r_140 Cert.Proof.KI.k1_t3_trip.sl.r_141 Cert.Proof.KI.k1_t3_trip.sl.r_142 Cert.Proof.KI.k1_t3_trip.sl.r_143 Cert.Proof.KI.k1_t3_trip.sl.r_144
        Cert.Proof.KI.k1_t3_trip.sl.r_145 Cert.Proof.KI.k1_t3_trip.sl.r_146 Cert.Proof.KI.k1_t3_trip.sl.r_147 Cert.Proof.KI.k1_t3_trip.sl.r_148 Cert.Proof.KI.k1_t3_trip.sl.r_149
        Cert.Proof.KI.k1_t3_trip.sl.r_150 Cert.Proof.KI.k1_t3_trip.sl.r_151 Cert.Proof.KI.k1_t3_trip.sl.r_152 Cert.Proof.KI.k1_t3_trip.sl.r_153 Cert.Proof.KI.k1_t3_trip.sl.r_154
        Cert.Proof.KI.k1_t3_trip.sl.r_155 Cert.Proof.KI.k1_t3_trip.sl.r_156 Cert.Proof.KI.k1_t3_trip.sl.r_157 Cert.Proof.KI.k1_t3_trip.sl.r_158 Cert.Proof.KI.k1_t3_trip.sl.r_159
        Cert.Proof.KI.k1_t3_trip.sl.r_160 Cert.Proof.KI.k1_t3_trip.sl.r_161 Cert.Proof.KI.k1_t3_trip.sl.r_162 Cert.Proof.KI.k1_t3_trip.sl.r_163 Cert.Proof.KI.k1_t3_trip.sl.r_164
        Cert.Proof.KI.k1_t3_trip.sl.r_165 Cert.Proof.KI.k1_t3_trip.sl.r_166 Cert.Proof.KI.k1_t3_trip.sl.r_167 Cert.Proof.KI.k1_t3_trip.sl.r_168 Cert.Proof.KI.k1_t3_trip.sl.r_169
        Cert.Proof.KI.k1_t3_trip.sl.r_170 Cert.Proof.KI.k1_t3_trip.sl.r_171 Cert.Proof.KI.k1_t3_trip.sl.r_172 Cert.Proof.KI.k1_t3_trip.sl.r_173 Cert.Proof.KI.k1_t3_trip.sl.r_174
        Cert.Proof.KI.k1_t3_trip.sl.r_175 Cert.Proof.KI.k1_t3_trip.sl.r_176 Cert.Proof.KI.k1_t3_trip.sl.r_177 Cert.Proof.KI.k1_t3_trip.sl.r_178 Cert.Proof.KI.k1_t3_trip.sl.r_179
        Cert.Proof.KI.k1_t3_trip.sl.r_180 Cert.Proof.KI.k1_t3_trip.sl.r_181 Cert.Proof.KI.k1_t3_trip.sl.r_182 Cert.Proof.KI.k1_t3_trip.sl.r_183 Cert.Proof.KI.k1_t3_trip.sl.r_184
        Cert.Proof.KI.k1_t3_trip.sl.r_185 Cert.Proof.KI.k1_t3_trip.sl.r_186 Cert.Proof.KI.k1_t3_trip.sl.r_187 Cert.Proof.KI.k1_t3_trip.sl.r_188 Cert.Proof.KI.k1_t3_trip.sl.r_189
        Cert.Proof.KI.k1_t3_trip.sl.r_190 Cert.Proof.KI.k1_t3_trip.sl.r_191 Cert.Proof.KI.k1_t3_trip.sl.r_192 Cert.Proof.KI.k1_t3_trip.sl.r_193 Cert.Proof.KI.k1_t3_trip.sl.r_194
        Cert.Proof.KI.k1_t3_trip.sl.r_195 Cert.Proof.KI.k1_t3_trip.sl.r_196 Cert.Proof.KI.k1_t3_trip.sl.r_197 Cert.Proof.KI.k1_t3_trip.sl.r_198 Cert.Proof.KI.k1_t3_trip.sl.r_199
        Cert.Proof.KI.k1_t3_trip.sl.r_200 Cert.Proof.KI.k1_t3_trip.sl.r_201 Cert.Proof.KI.k1_t3_trip.sl.r_202 Cert.Proof.KI.k1_t3_trip.sl.r_203 Cert.Proof.KI.k1_t3_trip.sl.r_204
        Cert.Proof.KI.k1_t3_trip.sl.r_205 Cert.Proof.KI.k1_t3_trip.sl.r_206 Cert.Proof.KI.k1_t3_trip.sl.r_207 Cert.Proof.KI.k1_t3_trip.sl.r_208 Cert.Proof.KI.k1_t3_trip.sl.r_209
        Cert.Proof.KI.k1_t3_trip.sl.r_210 Cert.Proof.KI.k1_t3_trip.sl.r_211 Cert.Proof.KI.k1_t3_trip.sl.r_212 Cert.Proof.KI.k1_t3_trip.sl.r_213 Cert.Proof.KI.k1_t3_trip.sl.r_214
        Cert.Proof.KI.k1_t3_trip.sl.r_215 Cert.Proof.KI.k1_t3_trip.sl.r_216 Cert.Proof.KI.k1_t3_trip.sl.r_217 Cert.Proof.KI.k1_t3_trip.sl.r_218 Cert.Proof.KI.k1_t3_trip.sl.r_219
        Cert.Proof.KI.k1_t3_trip.sl.r_220 Cert.Proof.KI.k1_t3_trip.sl.r_221 Cert.Proof.KI.k1_t3_trip.sl.r_222 Cert.Proof.KI.k1_t3_trip.sl.r_223 Cert.Proof.KI.k1_t3_trip.sl.r_224
        Cert.Proof.KI.k1_t3_trip.sl.r_225 Cert.Proof.KI.k1_t3_trip.sl.r_226 Cert.Proof.KI.k1_t3_trip.sl.r_227 Cert.Proof.KI.k1_t3_trip.sl.r_228 Cert.Proof.KI.k1_t3_trip.sl.r_229
        Cert.Proof.KI.k1_t3_trip.sl.r_230 Cert.Proof.KI.k1_t3_trip.sl.r_231 Cert.Proof.KI.k1_t3_trip.sl.r_232 Cert.Proof.KI.k1_t3_trip.sl.r_233 Cert.Proof.KI.k1_t3_trip.sl.r_234
        Cert.Proof.KI.k1_t3_trip.sl.r_235 Cert.Proof.KI.k1_t3_trip.sl.r_236 Cert.Proof.KI.k1_t3_trip.sl.r_237 Cert.Proof.KI.k1_t3_trip.sl.r_238 Cert.Proof.KI.k1_t3_trip.sl.r_239
        Cert.Proof.KI.k1_t3_trip.sl.r_240 Cert.Proof.KI.k1_t3_trip.sl.r_241 Cert.Proof.KI.k1_t3_trip.sl.r_242 Cert.Proof.KI.k1_t3_trip.sl.r_243 Cert.Proof.KI.k1_t3_trip.sl.r_244
        Cert.Proof.KI.k1_t3_trip.sl.r_245 Cert.Proof.KI.k1_t3_trip.sl.r_246 Cert.Proof.KI.k1_t3_trip.sl.r_247 Cert.Proof.KI.k1_t3_trip.sl.r_248 Cert.Proof.KI.k1_t3_trip.sl.r_249
        Cert.Proof.KI.k1_t3_trip.sl.r_250 Cert.Proof.KI.k1_t3_trip.sl.r_251 Cert.Proof.KI.k1_t3_trip.sl.r_252 Cert.Proof.KI.k1_t3_trip.sl.r_253 Cert.Proof.KI.k1_t3_trip.sl.r_254
        Cert.Proof.KI.k1_t3_trip.sl.r_255 Cert.Proof.KI.k1_t3_trip.sl.r_256 Cert.Proof.KI.k1_t3_trip.sl.r_257 Cert.Proof.KI.k1_t3_trip.sl.r_258 Cert.Proof.KI.k1_t3_trip.sl.r_259
        Cert.Proof.KI.k1_t3_trip.sl.r_260 Cert.Proof.KI.k1_t3_trip.sl.r_261 Cert.Proof.KI.k1_t3_trip.sl.r_262 Cert.Proof.KI.k1_t3_trip.sl.r_263 Cert.Proof.KI.k1_t3_trip.sl.r_264
        Cert.Proof.KI.k1_t3_trip.sl.r_265 Cert.Proof.KI.k1_t3_trip.sl.r_266 Cert.Proof.KI.k1_t3_trip.sl.r_267 Cert.Proof.KI.k1_t3_trip.sl.r_268 Cert.Proof.KI.k1_t3_trip.sl.r_269
        Cert.Proof.KI.k1_t3_trip.sl.r_270 Cert.Proof.KI.k1_t3_trip.sl.r_271 Cert.Proof.KI.k1_t3_trip.sl.r_272 Cert.Proof.KI.k1_t3_trip.sl.r_273 Cert.Proof.KI.k1_t3_trip.sl.r_274
        Cert.Proof.KI.k1_t3_trip.sl.r_275 Cert.Proof.KI.k1_t3_trip.sl.r_276 Cert.Proof.KI.k1_t3_trip.sl.r_277 Cert.Proof.KI.k1_t3_trip.sl.r_278 Cert.Proof.KI.k1_t3_trip.sl.r_279
        Cert.Proof.KI.k1_t3_trip.sl.r_280 Cert.Proof.KI.k1_t3_trip.sl.r_281 Cert.Proof.KI.k1_t3_trip.sl.r_282 Cert.Proof.KI.k1_t3_trip.sl.r_283 Cert.Proof.KI.k1_t3_trip.sl.r_284
        Cert.Proof.KI.k1_t3_trip.sl.r_285 Cert.Proof.KI.k1_t3_trip.sl.r_286 Cert.Proof.KI.k1_t3_trip.sl.r_287 Cert.Proof.KI.k1_t3_trip.sl.r_288 Cert.Proof.KI.k1_t3_trip.sl.r_289
        Cert.Proof.KI.k1_t3_trip.sl.r_290 Cert.Proof.KI.k1_t3_trip.sl.r_291 Cert.Proof.KI.k1_t3_trip.sl.r_292 Cert.Proof.KI.k1_t3_trip.sl.r_293 Cert.Proof.KI.k1_t3_trip.sl.r_294
        Cert.Proof.KI.k1_t3_trip.sl.r_295 Cert.Proof.KI.k1_t3_trip.sl.r_296 Cert.Proof.KI.k1_t3_trip.sl.r_297 Cert.Proof.KI.k1_t3_trip.sl.r_298 Cert.Proof.KI.k1_t3_trip.sl.r_299
        Cert.Proof.KI.k1_t3_trip.sl.r_300 Cert.Proof.KI.k1_t3_trip.sl.r_301 Cert.Proof.KI.k1_t3_trip.sl.r_302 Cert.Proof.KI.k1_t3_trip.sl.r_303 Cert.Proof.KI.k1_t3_trip.sl.r_304
        Cert.Proof.KI.k1_t3_trip.sl.r_305 Cert.Proof.KI.k1_t3_trip.sl.r_306 Cert.Proof.KI.k1_t3_trip.sl.r_307 Cert.Proof.KI.k1_t3_trip.sl.r_308 Cert.Proof.KI.k1_t3_trip.sl.r_309
        Cert.Proof.KI.k1_t3_trip.sl.r_310 Cert.Proof.KI.k1_t3_trip.sl.r_311 Cert.Proof.KI.k1_t3_trip.sl.r_312 Cert.Proof.KI.k1_t3_trip.sl.r_313 Cert.Proof.KI.k1_t3_trip.sl.r_314
        Cert.Proof.KI.k1_t3_trip.sl.r_315 Cert.Proof.KI.k1_t3_trip.sl.r_316 Cert.Proof.KI.k1_t3_trip.sl.r_317 Cert.Proof.KI.k1_t3_trip.sl.r_318
      conv_lhs => simp only [k1_pay1, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20,
        k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38,
        k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56,
        k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74,
        k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92,
        k1_pay93, k1_pay94, k1_pay95, k1_pay96, k1_pay97, k1_pay98, k1_pay99, k1_pay100, k1_pay101, k1_pay102, k1_pay103, k1_pay104, k1_pay105, k1_pay106, k1_pay107, k1_pay108, k1_pay109,
        k1_pay110, k1_pay111, k1_pay112, k1_pay113, k1_pay114, k1_pay115, k1_pay116, k1_pay117, k1_pay118, k1_pay119, k1_pay120, k1_pay121, k1_pay122, k1_pay123, k1_pay124, k1_pay125,
        k1_pay126, k1_pay127, k1_pay128, k1_pay129, k1_pay130, k1_pay131, k1_pay132, k1_pay133, k1_pay134, k1_pay135, k1_pay136, k1_pay137, k1_pay138, k1_pay139, k1_pay140, k1_pay141,
        k1_pay142, k1_pay143, k1_pay144, k1_pay145, k1_pay146, k1_pay147, k1_pay148, k1_pay149, k1_pay150, k1_pay151, k1_pay152, k1_pay153, k1_pay154, k1_pay155, k1_pay156, k1_pay157,
        k1_pay158, k1_pay159, k1_pay160, k1_pay161, k1_pay162, k1_pay163, k1_pay164, k1_pay165, k1_pay166, k1_pay167, k1_pay168, k1_pay169, k1_pay170, k1_pay171, k1_pay172, k1_pay173,
        k1_pay174, k1_pay175, k1_pay176, k1_pay177, k1_pay178, k1_pay179, k1_pay180, k1_pay181, k1_pay182, k1_pay183, k1_pay184, k1_pay185, k1_pay186, k1_pay187, k1_pay188, k1_pay189,
        k1_pay190, k1_pay191, k1_pay192, k1_pay193, k1_pay194, k1_pay195, k1_pay196, k1_pay197, k1_pay198, k1_pay199, k1_pay200, k1_pay201, k1_pay202, k1_pay203, k1_pay204, k1_pay205,
        k1_pay206, k1_pay207, k1_pay208, k1_pay209, k1_pay210, k1_pay211, k1_pay212, k1_pay213, k1_pay214, k1_pay215, k1_pay216, k1_pay217, k1_pay218, k1_pay219, k1_pay220, k1_pay221,
        k1_pay222, k1_pay223, k1_pay224, k1_pay225, k1_pay226, k1_pay227, k1_pay228, k1_pay229, k1_pay230, k1_pay231, k1_pay232, k1_pay233, k1_pay234, k1_pay235, k1_pay236, k1_pay237,
        k1_pay238, k1_pay239, k1_pay240, k1_pay241, k1_pay242, k1_pay243, k1_pay244, k1_pay245, k1_pay246, k1_pay247, k1_pay248, k1_pay249, k1_pay250, k1_pay251, k1_pay252, k1_pay253,
        k1_pay254, k1_pay255, k1_pay256, k1_pay257, k1_pay258, k1_pay259, k1_pay260, k1_pay261, k1_pay262, k1_pay263, k1_pay264, k1_pay265, k1_pay266, k1_pay267, k1_pay268, k1_pay269,
        k1_pay270, k1_pay271, k1_pay272, k1_pay273, k1_pay274, k1_pay275, k1_pay276, k1_pay277, k1_pay278, k1_pay279, k1_pay280, k1_pay281, k1_pay282, k1_pay283, k1_pay284, k1_pay285,
        k1_pay286, k1_pay287, k1_pay288, k1_pay289, k1_pay290, k1_pay291, k1_pay292, k1_pay293, k1_pay294, k1_pay295, k1_pay296, k1_pay297, k1_pay298, k1_pay299, k1_pay300, k1_pay301,
        k1_pay302, k1_pay303, k1_pay304, k1_pay305, k1_pay306, k1_pay307, k1_pay308, k1_pay309, k1_pay310, k1_pay311, k1_pay312, k1_pay313, k1_pay314, k1_pay315, k1_pay316, k1_pay317,
        k1_pay318, k1_pay319, k1_pay320, k1_pay321, k1_pay322, k1_pay323, Pure.addf_at, Pure.mulf_at, Pure.broadcast_at, Pure.lane_at, Pure.cast16_16, Pure.cast1x16_16, Pure.cast16_1x16]
      rfl
    · intro l
      show _ = Pure.acc32 (rowW fw r) (rowE fb sub (⟨48 + l.val, by have := l.isLt; omega⟩ : Fin 128))
        (g (ix2 r (⟨48 + l.val, by have := l.isLt; omega⟩ : Fin 128)))
      refine ((?_ : _ = _).trans (Pure.acc32_chain (wraw3 fw t2 t) (eraw3_3 fb t l) (graw3_3 g t2 t l))).trans
        (Pure.acc32_congr (wraw3_eq fw t2 t r hr) (eraw3_3_eq fb t sub hs l _ rfl) (graw3_3_eq g t2 t r hr l _ rfl))
      delta Cert.Proof.KI.k1_t3_trip.sl.r Cert.Proof.KI.k1_t3_trip.sl.r_1 Cert.Proof.KI.k1_t3_trip.sl.r_2 Cert.Proof.KI.k1_t3_trip.sl.r_3 Cert.Proof.KI.k1_t3_trip.sl.r_4
        Cert.Proof.KI.k1_t3_trip.sl.r_5 Cert.Proof.KI.k1_t3_trip.sl.r_6 Cert.Proof.KI.k1_t3_trip.sl.r_7 Cert.Proof.KI.k1_t3_trip.sl.r_8 Cert.Proof.KI.k1_t3_trip.sl.r_9
        Cert.Proof.KI.k1_t3_trip.sl.r_10 Cert.Proof.KI.k1_t3_trip.sl.r_11 Cert.Proof.KI.k1_t3_trip.sl.r_12 Cert.Proof.KI.k1_t3_trip.sl.r_13 Cert.Proof.KI.k1_t3_trip.sl.r_14
        Cert.Proof.KI.k1_t3_trip.sl.r_15 Cert.Proof.KI.k1_t3_trip.sl.r_16 Cert.Proof.KI.k1_t3_trip.sl.r_17 Cert.Proof.KI.k1_t3_trip.sl.r_18 Cert.Proof.KI.k1_t3_trip.sl.r_19
        Cert.Proof.KI.k1_t3_trip.sl.r_20 Cert.Proof.KI.k1_t3_trip.sl.r_21 Cert.Proof.KI.k1_t3_trip.sl.r_22 Cert.Proof.KI.k1_t3_trip.sl.r_23 Cert.Proof.KI.k1_t3_trip.sl.r_24
        Cert.Proof.KI.k1_t3_trip.sl.r_25 Cert.Proof.KI.k1_t3_trip.sl.r_26 Cert.Proof.KI.k1_t3_trip.sl.r_27 Cert.Proof.KI.k1_t3_trip.sl.r_28 Cert.Proof.KI.k1_t3_trip.sl.r_29
        Cert.Proof.KI.k1_t3_trip.sl.r_30 Cert.Proof.KI.k1_t3_trip.sl.r_31 Cert.Proof.KI.k1_t3_trip.sl.r_32 Cert.Proof.KI.k1_t3_trip.sl.r_33 Cert.Proof.KI.k1_t3_trip.sl.r_34
        Cert.Proof.KI.k1_t3_trip.sl.r_35 Cert.Proof.KI.k1_t3_trip.sl.r_36 Cert.Proof.KI.k1_t3_trip.sl.r_37 Cert.Proof.KI.k1_t3_trip.sl.r_38 Cert.Proof.KI.k1_t3_trip.sl.r_39
        Cert.Proof.KI.k1_t3_trip.sl.r_40 Cert.Proof.KI.k1_t3_trip.sl.r_41 Cert.Proof.KI.k1_t3_trip.sl.r_42 Cert.Proof.KI.k1_t3_trip.sl.r_43 Cert.Proof.KI.k1_t3_trip.sl.r_44
        Cert.Proof.KI.k1_t3_trip.sl.r_45 Cert.Proof.KI.k1_t3_trip.sl.r_46 Cert.Proof.KI.k1_t3_trip.sl.r_47 Cert.Proof.KI.k1_t3_trip.sl.r_48 Cert.Proof.KI.k1_t3_trip.sl.r_49
        Cert.Proof.KI.k1_t3_trip.sl.r_50 Cert.Proof.KI.k1_t3_trip.sl.r_51 Cert.Proof.KI.k1_t3_trip.sl.r_52 Cert.Proof.KI.k1_t3_trip.sl.r_53 Cert.Proof.KI.k1_t3_trip.sl.r_54
        Cert.Proof.KI.k1_t3_trip.sl.r_55 Cert.Proof.KI.k1_t3_trip.sl.r_56 Cert.Proof.KI.k1_t3_trip.sl.r_57 Cert.Proof.KI.k1_t3_trip.sl.r_58 Cert.Proof.KI.k1_t3_trip.sl.r_59
        Cert.Proof.KI.k1_t3_trip.sl.r_60 Cert.Proof.KI.k1_t3_trip.sl.r_61 Cert.Proof.KI.k1_t3_trip.sl.r_62 Cert.Proof.KI.k1_t3_trip.sl.r_63 Cert.Proof.KI.k1_t3_trip.sl.r_64
        Cert.Proof.KI.k1_t3_trip.sl.r_65 Cert.Proof.KI.k1_t3_trip.sl.r_66 Cert.Proof.KI.k1_t3_trip.sl.r_67 Cert.Proof.KI.k1_t3_trip.sl.r_68 Cert.Proof.KI.k1_t3_trip.sl.r_69
        Cert.Proof.KI.k1_t3_trip.sl.r_70 Cert.Proof.KI.k1_t3_trip.sl.r_71 Cert.Proof.KI.k1_t3_trip.sl.r_72 Cert.Proof.KI.k1_t3_trip.sl.r_73 Cert.Proof.KI.k1_t3_trip.sl.r_74
        Cert.Proof.KI.k1_t3_trip.sl.r_75 Cert.Proof.KI.k1_t3_trip.sl.r_76 Cert.Proof.KI.k1_t3_trip.sl.r_77 Cert.Proof.KI.k1_t3_trip.sl.r_78 Cert.Proof.KI.k1_t3_trip.sl.r_79
        Cert.Proof.KI.k1_t3_trip.sl.r_80 Cert.Proof.KI.k1_t3_trip.sl.r_81 Cert.Proof.KI.k1_t3_trip.sl.r_82 Cert.Proof.KI.k1_t3_trip.sl.r_83 Cert.Proof.KI.k1_t3_trip.sl.r_84
        Cert.Proof.KI.k1_t3_trip.sl.r_85 Cert.Proof.KI.k1_t3_trip.sl.r_86 Cert.Proof.KI.k1_t3_trip.sl.r_87 Cert.Proof.KI.k1_t3_trip.sl.r_88 Cert.Proof.KI.k1_t3_trip.sl.r_89
        Cert.Proof.KI.k1_t3_trip.sl.r_90 Cert.Proof.KI.k1_t3_trip.sl.r_91 Cert.Proof.KI.k1_t3_trip.sl.r_92 Cert.Proof.KI.k1_t3_trip.sl.r_93 Cert.Proof.KI.k1_t3_trip.sl.r_94
        Cert.Proof.KI.k1_t3_trip.sl.r_95 Cert.Proof.KI.k1_t3_trip.sl.r_96 Cert.Proof.KI.k1_t3_trip.sl.r_97 Cert.Proof.KI.k1_t3_trip.sl.r_98 Cert.Proof.KI.k1_t3_trip.sl.r_99
        Cert.Proof.KI.k1_t3_trip.sl.r_100 Cert.Proof.KI.k1_t3_trip.sl.r_101 Cert.Proof.KI.k1_t3_trip.sl.r_102 Cert.Proof.KI.k1_t3_trip.sl.r_103 Cert.Proof.KI.k1_t3_trip.sl.r_104
        Cert.Proof.KI.k1_t3_trip.sl.r_105 Cert.Proof.KI.k1_t3_trip.sl.r_106 Cert.Proof.KI.k1_t3_trip.sl.r_107 Cert.Proof.KI.k1_t3_trip.sl.r_108 Cert.Proof.KI.k1_t3_trip.sl.r_109
        Cert.Proof.KI.k1_t3_trip.sl.r_110 Cert.Proof.KI.k1_t3_trip.sl.r_111 Cert.Proof.KI.k1_t3_trip.sl.r_112 Cert.Proof.KI.k1_t3_trip.sl.r_113 Cert.Proof.KI.k1_t3_trip.sl.r_114
        Cert.Proof.KI.k1_t3_trip.sl.r_115 Cert.Proof.KI.k1_t3_trip.sl.r_116 Cert.Proof.KI.k1_t3_trip.sl.r_117 Cert.Proof.KI.k1_t3_trip.sl.r_118 Cert.Proof.KI.k1_t3_trip.sl.r_119
        Cert.Proof.KI.k1_t3_trip.sl.r_120 Cert.Proof.KI.k1_t3_trip.sl.r_121 Cert.Proof.KI.k1_t3_trip.sl.r_122 Cert.Proof.KI.k1_t3_trip.sl.r_123 Cert.Proof.KI.k1_t3_trip.sl.r_124
        Cert.Proof.KI.k1_t3_trip.sl.r_125 Cert.Proof.KI.k1_t3_trip.sl.r_126 Cert.Proof.KI.k1_t3_trip.sl.r_127 Cert.Proof.KI.k1_t3_trip.sl.r_128 Cert.Proof.KI.k1_t3_trip.sl.r_129
        Cert.Proof.KI.k1_t3_trip.sl.r_130 Cert.Proof.KI.k1_t3_trip.sl.r_131 Cert.Proof.KI.k1_t3_trip.sl.r_132 Cert.Proof.KI.k1_t3_trip.sl.r_133 Cert.Proof.KI.k1_t3_trip.sl.r_134
        Cert.Proof.KI.k1_t3_trip.sl.r_135 Cert.Proof.KI.k1_t3_trip.sl.r_136 Cert.Proof.KI.k1_t3_trip.sl.r_137 Cert.Proof.KI.k1_t3_trip.sl.r_138 Cert.Proof.KI.k1_t3_trip.sl.r_139
        Cert.Proof.KI.k1_t3_trip.sl.r_140 Cert.Proof.KI.k1_t3_trip.sl.r_141 Cert.Proof.KI.k1_t3_trip.sl.r_142 Cert.Proof.KI.k1_t3_trip.sl.r_143 Cert.Proof.KI.k1_t3_trip.sl.r_144
        Cert.Proof.KI.k1_t3_trip.sl.r_145 Cert.Proof.KI.k1_t3_trip.sl.r_146 Cert.Proof.KI.k1_t3_trip.sl.r_147 Cert.Proof.KI.k1_t3_trip.sl.r_148 Cert.Proof.KI.k1_t3_trip.sl.r_149
        Cert.Proof.KI.k1_t3_trip.sl.r_150 Cert.Proof.KI.k1_t3_trip.sl.r_151 Cert.Proof.KI.k1_t3_trip.sl.r_152 Cert.Proof.KI.k1_t3_trip.sl.r_153 Cert.Proof.KI.k1_t3_trip.sl.r_154
        Cert.Proof.KI.k1_t3_trip.sl.r_155 Cert.Proof.KI.k1_t3_trip.sl.r_156 Cert.Proof.KI.k1_t3_trip.sl.r_157 Cert.Proof.KI.k1_t3_trip.sl.r_158 Cert.Proof.KI.k1_t3_trip.sl.r_159
        Cert.Proof.KI.k1_t3_trip.sl.r_160 Cert.Proof.KI.k1_t3_trip.sl.r_161 Cert.Proof.KI.k1_t3_trip.sl.r_162 Cert.Proof.KI.k1_t3_trip.sl.r_163 Cert.Proof.KI.k1_t3_trip.sl.r_164
        Cert.Proof.KI.k1_t3_trip.sl.r_165 Cert.Proof.KI.k1_t3_trip.sl.r_166 Cert.Proof.KI.k1_t3_trip.sl.r_167 Cert.Proof.KI.k1_t3_trip.sl.r_168 Cert.Proof.KI.k1_t3_trip.sl.r_169
        Cert.Proof.KI.k1_t3_trip.sl.r_170 Cert.Proof.KI.k1_t3_trip.sl.r_171 Cert.Proof.KI.k1_t3_trip.sl.r_172 Cert.Proof.KI.k1_t3_trip.sl.r_173 Cert.Proof.KI.k1_t3_trip.sl.r_174
        Cert.Proof.KI.k1_t3_trip.sl.r_175 Cert.Proof.KI.k1_t3_trip.sl.r_176 Cert.Proof.KI.k1_t3_trip.sl.r_177 Cert.Proof.KI.k1_t3_trip.sl.r_178 Cert.Proof.KI.k1_t3_trip.sl.r_179
        Cert.Proof.KI.k1_t3_trip.sl.r_180 Cert.Proof.KI.k1_t3_trip.sl.r_181 Cert.Proof.KI.k1_t3_trip.sl.r_182 Cert.Proof.KI.k1_t3_trip.sl.r_183 Cert.Proof.KI.k1_t3_trip.sl.r_184
        Cert.Proof.KI.k1_t3_trip.sl.r_185 Cert.Proof.KI.k1_t3_trip.sl.r_186 Cert.Proof.KI.k1_t3_trip.sl.r_187 Cert.Proof.KI.k1_t3_trip.sl.r_188 Cert.Proof.KI.k1_t3_trip.sl.r_189
        Cert.Proof.KI.k1_t3_trip.sl.r_190 Cert.Proof.KI.k1_t3_trip.sl.r_191 Cert.Proof.KI.k1_t3_trip.sl.r_192 Cert.Proof.KI.k1_t3_trip.sl.r_193 Cert.Proof.KI.k1_t3_trip.sl.r_194
        Cert.Proof.KI.k1_t3_trip.sl.r_195 Cert.Proof.KI.k1_t3_trip.sl.r_196 Cert.Proof.KI.k1_t3_trip.sl.r_197 Cert.Proof.KI.k1_t3_trip.sl.r_198 Cert.Proof.KI.k1_t3_trip.sl.r_199
        Cert.Proof.KI.k1_t3_trip.sl.r_200 Cert.Proof.KI.k1_t3_trip.sl.r_201 Cert.Proof.KI.k1_t3_trip.sl.r_202 Cert.Proof.KI.k1_t3_trip.sl.r_203 Cert.Proof.KI.k1_t3_trip.sl.r_204
        Cert.Proof.KI.k1_t3_trip.sl.r_205 Cert.Proof.KI.k1_t3_trip.sl.r_206 Cert.Proof.KI.k1_t3_trip.sl.r_207 Cert.Proof.KI.k1_t3_trip.sl.r_208 Cert.Proof.KI.k1_t3_trip.sl.r_209
        Cert.Proof.KI.k1_t3_trip.sl.r_210 Cert.Proof.KI.k1_t3_trip.sl.r_211 Cert.Proof.KI.k1_t3_trip.sl.r_212 Cert.Proof.KI.k1_t3_trip.sl.r_213 Cert.Proof.KI.k1_t3_trip.sl.r_214
        Cert.Proof.KI.k1_t3_trip.sl.r_215 Cert.Proof.KI.k1_t3_trip.sl.r_216 Cert.Proof.KI.k1_t3_trip.sl.r_217 Cert.Proof.KI.k1_t3_trip.sl.r_218 Cert.Proof.KI.k1_t3_trip.sl.r_219
        Cert.Proof.KI.k1_t3_trip.sl.r_220 Cert.Proof.KI.k1_t3_trip.sl.r_221 Cert.Proof.KI.k1_t3_trip.sl.r_222 Cert.Proof.KI.k1_t3_trip.sl.r_223 Cert.Proof.KI.k1_t3_trip.sl.r_224
        Cert.Proof.KI.k1_t3_trip.sl.r_225 Cert.Proof.KI.k1_t3_trip.sl.r_226 Cert.Proof.KI.k1_t3_trip.sl.r_227 Cert.Proof.KI.k1_t3_trip.sl.r_228 Cert.Proof.KI.k1_t3_trip.sl.r_229
        Cert.Proof.KI.k1_t3_trip.sl.r_230 Cert.Proof.KI.k1_t3_trip.sl.r_231 Cert.Proof.KI.k1_t3_trip.sl.r_232 Cert.Proof.KI.k1_t3_trip.sl.r_233 Cert.Proof.KI.k1_t3_trip.sl.r_234
        Cert.Proof.KI.k1_t3_trip.sl.r_235 Cert.Proof.KI.k1_t3_trip.sl.r_236 Cert.Proof.KI.k1_t3_trip.sl.r_237 Cert.Proof.KI.k1_t3_trip.sl.r_238 Cert.Proof.KI.k1_t3_trip.sl.r_239
        Cert.Proof.KI.k1_t3_trip.sl.r_240 Cert.Proof.KI.k1_t3_trip.sl.r_241 Cert.Proof.KI.k1_t3_trip.sl.r_242 Cert.Proof.KI.k1_t3_trip.sl.r_243 Cert.Proof.KI.k1_t3_trip.sl.r_244
        Cert.Proof.KI.k1_t3_trip.sl.r_245 Cert.Proof.KI.k1_t3_trip.sl.r_246 Cert.Proof.KI.k1_t3_trip.sl.r_247 Cert.Proof.KI.k1_t3_trip.sl.r_248 Cert.Proof.KI.k1_t3_trip.sl.r_249
        Cert.Proof.KI.k1_t3_trip.sl.r_250 Cert.Proof.KI.k1_t3_trip.sl.r_251 Cert.Proof.KI.k1_t3_trip.sl.r_252 Cert.Proof.KI.k1_t3_trip.sl.r_253 Cert.Proof.KI.k1_t3_trip.sl.r_254
        Cert.Proof.KI.k1_t3_trip.sl.r_255 Cert.Proof.KI.k1_t3_trip.sl.r_256 Cert.Proof.KI.k1_t3_trip.sl.r_257 Cert.Proof.KI.k1_t3_trip.sl.r_258 Cert.Proof.KI.k1_t3_trip.sl.r_259
        Cert.Proof.KI.k1_t3_trip.sl.r_260 Cert.Proof.KI.k1_t3_trip.sl.r_261 Cert.Proof.KI.k1_t3_trip.sl.r_262 Cert.Proof.KI.k1_t3_trip.sl.r_263 Cert.Proof.KI.k1_t3_trip.sl.r_264
        Cert.Proof.KI.k1_t3_trip.sl.r_265 Cert.Proof.KI.k1_t3_trip.sl.r_266 Cert.Proof.KI.k1_t3_trip.sl.r_267 Cert.Proof.KI.k1_t3_trip.sl.r_268 Cert.Proof.KI.k1_t3_trip.sl.r_269
        Cert.Proof.KI.k1_t3_trip.sl.r_270 Cert.Proof.KI.k1_t3_trip.sl.r_271 Cert.Proof.KI.k1_t3_trip.sl.r_272 Cert.Proof.KI.k1_t3_trip.sl.r_273 Cert.Proof.KI.k1_t3_trip.sl.r_274
        Cert.Proof.KI.k1_t3_trip.sl.r_275 Cert.Proof.KI.k1_t3_trip.sl.r_276 Cert.Proof.KI.k1_t3_trip.sl.r_277 Cert.Proof.KI.k1_t3_trip.sl.r_278 Cert.Proof.KI.k1_t3_trip.sl.r_279
        Cert.Proof.KI.k1_t3_trip.sl.r_280 Cert.Proof.KI.k1_t3_trip.sl.r_281 Cert.Proof.KI.k1_t3_trip.sl.r_282 Cert.Proof.KI.k1_t3_trip.sl.r_283 Cert.Proof.KI.k1_t3_trip.sl.r_284
        Cert.Proof.KI.k1_t3_trip.sl.r_285 Cert.Proof.KI.k1_t3_trip.sl.r_286 Cert.Proof.KI.k1_t3_trip.sl.r_287 Cert.Proof.KI.k1_t3_trip.sl.r_288 Cert.Proof.KI.k1_t3_trip.sl.r_289
        Cert.Proof.KI.k1_t3_trip.sl.r_290 Cert.Proof.KI.k1_t3_trip.sl.r_291 Cert.Proof.KI.k1_t3_trip.sl.r_292 Cert.Proof.KI.k1_t3_trip.sl.r_293 Cert.Proof.KI.k1_t3_trip.sl.r_294
        Cert.Proof.KI.k1_t3_trip.sl.r_295 Cert.Proof.KI.k1_t3_trip.sl.r_296 Cert.Proof.KI.k1_t3_trip.sl.r_297 Cert.Proof.KI.k1_t3_trip.sl.r_298 Cert.Proof.KI.k1_t3_trip.sl.r_299
        Cert.Proof.KI.k1_t3_trip.sl.r_300 Cert.Proof.KI.k1_t3_trip.sl.r_301 Cert.Proof.KI.k1_t3_trip.sl.r_302 Cert.Proof.KI.k1_t3_trip.sl.r_303 Cert.Proof.KI.k1_t3_trip.sl.r_304
        Cert.Proof.KI.k1_t3_trip.sl.r_305 Cert.Proof.KI.k1_t3_trip.sl.r_306 Cert.Proof.KI.k1_t3_trip.sl.r_307 Cert.Proof.KI.k1_t3_trip.sl.r_308 Cert.Proof.KI.k1_t3_trip.sl.r_309
        Cert.Proof.KI.k1_t3_trip.sl.r_310 Cert.Proof.KI.k1_t3_trip.sl.r_311 Cert.Proof.KI.k1_t3_trip.sl.r_312 Cert.Proof.KI.k1_t3_trip.sl.r_313 Cert.Proof.KI.k1_t3_trip.sl.r_314
        Cert.Proof.KI.k1_t3_trip.sl.r_315 Cert.Proof.KI.k1_t3_trip.sl.r_316 Cert.Proof.KI.k1_t3_trip.sl.r_317 Cert.Proof.KI.k1_t3_trip.sl.r_318
      conv_lhs => simp only [k1_pay1, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20,
        k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38,
        k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56,
        k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74,
        k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92,
        k1_pay93, k1_pay94, k1_pay95, k1_pay96, k1_pay97, k1_pay98, k1_pay99, k1_pay100, k1_pay101, k1_pay102, k1_pay103, k1_pay104, k1_pay105, k1_pay106, k1_pay107, k1_pay108, k1_pay109,
        k1_pay110, k1_pay111, k1_pay112, k1_pay113, k1_pay114, k1_pay115, k1_pay116, k1_pay117, k1_pay118, k1_pay119, k1_pay120, k1_pay121, k1_pay122, k1_pay123, k1_pay124, k1_pay125,
        k1_pay126, k1_pay127, k1_pay128, k1_pay129, k1_pay130, k1_pay131, k1_pay132, k1_pay133, k1_pay134, k1_pay135, k1_pay136, k1_pay137, k1_pay138, k1_pay139, k1_pay140, k1_pay141,
        k1_pay142, k1_pay143, k1_pay144, k1_pay145, k1_pay146, k1_pay147, k1_pay148, k1_pay149, k1_pay150, k1_pay151, k1_pay152, k1_pay153, k1_pay154, k1_pay155, k1_pay156, k1_pay157,
        k1_pay158, k1_pay159, k1_pay160, k1_pay161, k1_pay162, k1_pay163, k1_pay164, k1_pay165, k1_pay166, k1_pay167, k1_pay168, k1_pay169, k1_pay170, k1_pay171, k1_pay172, k1_pay173,
        k1_pay174, k1_pay175, k1_pay176, k1_pay177, k1_pay178, k1_pay179, k1_pay180, k1_pay181, k1_pay182, k1_pay183, k1_pay184, k1_pay185, k1_pay186, k1_pay187, k1_pay188, k1_pay189,
        k1_pay190, k1_pay191, k1_pay192, k1_pay193, k1_pay194, k1_pay195, k1_pay196, k1_pay197, k1_pay198, k1_pay199, k1_pay200, k1_pay201, k1_pay202, k1_pay203, k1_pay204, k1_pay205,
        k1_pay206, k1_pay207, k1_pay208, k1_pay209, k1_pay210, k1_pay211, k1_pay212, k1_pay213, k1_pay214, k1_pay215, k1_pay216, k1_pay217, k1_pay218, k1_pay219, k1_pay220, k1_pay221,
        k1_pay222, k1_pay223, k1_pay224, k1_pay225, k1_pay226, k1_pay227, k1_pay228, k1_pay229, k1_pay230, k1_pay231, k1_pay232, k1_pay233, k1_pay234, k1_pay235, k1_pay236, k1_pay237,
        k1_pay238, k1_pay239, k1_pay240, k1_pay241, k1_pay242, k1_pay243, k1_pay244, k1_pay245, k1_pay246, k1_pay247, k1_pay248, k1_pay249, k1_pay250, k1_pay251, k1_pay252, k1_pay253,
        k1_pay254, k1_pay255, k1_pay256, k1_pay257, k1_pay258, k1_pay259, k1_pay260, k1_pay261, k1_pay262, k1_pay263, k1_pay264, k1_pay265, k1_pay266, k1_pay267, k1_pay268, k1_pay269,
        k1_pay270, k1_pay271, k1_pay272, k1_pay273, k1_pay274, k1_pay275, k1_pay276, k1_pay277, k1_pay278, k1_pay279, k1_pay280, k1_pay281, k1_pay282, k1_pay283, k1_pay284, k1_pay285,
        k1_pay286, k1_pay287, k1_pay288, k1_pay289, k1_pay290, k1_pay291, k1_pay292, k1_pay293, k1_pay294, k1_pay295, k1_pay296, k1_pay297, k1_pay298, k1_pay299, k1_pay300, k1_pay301,
        k1_pay302, k1_pay303, k1_pay304, k1_pay305, k1_pay306, k1_pay307, k1_pay308, k1_pay309, k1_pay310, k1_pay311, k1_pay312, k1_pay313, k1_pay314, k1_pay315, k1_pay316, k1_pay317,
        k1_pay318, k1_pay319, k1_pay320, k1_pay321, k1_pay322, k1_pay323, Pure.addf_at, Pure.mulf_at, Pure.broadcast_at, Pure.lane_at, Pure.cast16_16, Pure.cast1x16_16, Pure.cast16_1x16]
      rfl
    · intro l
      show _ = Pure.acc32 (rowW fw r) (rowE fb sub (⟨64 + l.val, by have := l.isLt; omega⟩ : Fin 128))
        (g (ix2 r (⟨64 + l.val, by have := l.isLt; omega⟩ : Fin 128)))
      refine ((?_ : _ = _).trans (Pure.acc32_chain (wraw3 fw t2 t) (eraw3_4 fb t l) (graw3_4 g t2 t l))).trans
        (Pure.acc32_congr (wraw3_eq fw t2 t r hr) (eraw3_4_eq fb t sub hs l _ rfl) (graw3_4_eq g t2 t r hr l _ rfl))
      delta Cert.Proof.KI.k1_t3_trip.sl.r Cert.Proof.KI.k1_t3_trip.sl.r_1 Cert.Proof.KI.k1_t3_trip.sl.r_2 Cert.Proof.KI.k1_t3_trip.sl.r_3 Cert.Proof.KI.k1_t3_trip.sl.r_4
        Cert.Proof.KI.k1_t3_trip.sl.r_5 Cert.Proof.KI.k1_t3_trip.sl.r_6 Cert.Proof.KI.k1_t3_trip.sl.r_7 Cert.Proof.KI.k1_t3_trip.sl.r_8 Cert.Proof.KI.k1_t3_trip.sl.r_9
        Cert.Proof.KI.k1_t3_trip.sl.r_10 Cert.Proof.KI.k1_t3_trip.sl.r_11 Cert.Proof.KI.k1_t3_trip.sl.r_12 Cert.Proof.KI.k1_t3_trip.sl.r_13 Cert.Proof.KI.k1_t3_trip.sl.r_14
        Cert.Proof.KI.k1_t3_trip.sl.r_15 Cert.Proof.KI.k1_t3_trip.sl.r_16 Cert.Proof.KI.k1_t3_trip.sl.r_17 Cert.Proof.KI.k1_t3_trip.sl.r_18 Cert.Proof.KI.k1_t3_trip.sl.r_19
        Cert.Proof.KI.k1_t3_trip.sl.r_20 Cert.Proof.KI.k1_t3_trip.sl.r_21 Cert.Proof.KI.k1_t3_trip.sl.r_22 Cert.Proof.KI.k1_t3_trip.sl.r_23 Cert.Proof.KI.k1_t3_trip.sl.r_24
        Cert.Proof.KI.k1_t3_trip.sl.r_25 Cert.Proof.KI.k1_t3_trip.sl.r_26 Cert.Proof.KI.k1_t3_trip.sl.r_27 Cert.Proof.KI.k1_t3_trip.sl.r_28 Cert.Proof.KI.k1_t3_trip.sl.r_29
        Cert.Proof.KI.k1_t3_trip.sl.r_30 Cert.Proof.KI.k1_t3_trip.sl.r_31 Cert.Proof.KI.k1_t3_trip.sl.r_32 Cert.Proof.KI.k1_t3_trip.sl.r_33 Cert.Proof.KI.k1_t3_trip.sl.r_34
        Cert.Proof.KI.k1_t3_trip.sl.r_35 Cert.Proof.KI.k1_t3_trip.sl.r_36 Cert.Proof.KI.k1_t3_trip.sl.r_37 Cert.Proof.KI.k1_t3_trip.sl.r_38 Cert.Proof.KI.k1_t3_trip.sl.r_39
        Cert.Proof.KI.k1_t3_trip.sl.r_40 Cert.Proof.KI.k1_t3_trip.sl.r_41 Cert.Proof.KI.k1_t3_trip.sl.r_42 Cert.Proof.KI.k1_t3_trip.sl.r_43 Cert.Proof.KI.k1_t3_trip.sl.r_44
        Cert.Proof.KI.k1_t3_trip.sl.r_45 Cert.Proof.KI.k1_t3_trip.sl.r_46 Cert.Proof.KI.k1_t3_trip.sl.r_47 Cert.Proof.KI.k1_t3_trip.sl.r_48 Cert.Proof.KI.k1_t3_trip.sl.r_49
        Cert.Proof.KI.k1_t3_trip.sl.r_50 Cert.Proof.KI.k1_t3_trip.sl.r_51 Cert.Proof.KI.k1_t3_trip.sl.r_52 Cert.Proof.KI.k1_t3_trip.sl.r_53 Cert.Proof.KI.k1_t3_trip.sl.r_54
        Cert.Proof.KI.k1_t3_trip.sl.r_55 Cert.Proof.KI.k1_t3_trip.sl.r_56 Cert.Proof.KI.k1_t3_trip.sl.r_57 Cert.Proof.KI.k1_t3_trip.sl.r_58 Cert.Proof.KI.k1_t3_trip.sl.r_59
        Cert.Proof.KI.k1_t3_trip.sl.r_60 Cert.Proof.KI.k1_t3_trip.sl.r_61 Cert.Proof.KI.k1_t3_trip.sl.r_62 Cert.Proof.KI.k1_t3_trip.sl.r_63 Cert.Proof.KI.k1_t3_trip.sl.r_64
        Cert.Proof.KI.k1_t3_trip.sl.r_65 Cert.Proof.KI.k1_t3_trip.sl.r_66 Cert.Proof.KI.k1_t3_trip.sl.r_67 Cert.Proof.KI.k1_t3_trip.sl.r_68 Cert.Proof.KI.k1_t3_trip.sl.r_69
        Cert.Proof.KI.k1_t3_trip.sl.r_70 Cert.Proof.KI.k1_t3_trip.sl.r_71 Cert.Proof.KI.k1_t3_trip.sl.r_72 Cert.Proof.KI.k1_t3_trip.sl.r_73 Cert.Proof.KI.k1_t3_trip.sl.r_74
        Cert.Proof.KI.k1_t3_trip.sl.r_75 Cert.Proof.KI.k1_t3_trip.sl.r_76 Cert.Proof.KI.k1_t3_trip.sl.r_77 Cert.Proof.KI.k1_t3_trip.sl.r_78 Cert.Proof.KI.k1_t3_trip.sl.r_79
        Cert.Proof.KI.k1_t3_trip.sl.r_80 Cert.Proof.KI.k1_t3_trip.sl.r_81 Cert.Proof.KI.k1_t3_trip.sl.r_82 Cert.Proof.KI.k1_t3_trip.sl.r_83 Cert.Proof.KI.k1_t3_trip.sl.r_84
        Cert.Proof.KI.k1_t3_trip.sl.r_85 Cert.Proof.KI.k1_t3_trip.sl.r_86 Cert.Proof.KI.k1_t3_trip.sl.r_87 Cert.Proof.KI.k1_t3_trip.sl.r_88 Cert.Proof.KI.k1_t3_trip.sl.r_89
        Cert.Proof.KI.k1_t3_trip.sl.r_90 Cert.Proof.KI.k1_t3_trip.sl.r_91 Cert.Proof.KI.k1_t3_trip.sl.r_92 Cert.Proof.KI.k1_t3_trip.sl.r_93 Cert.Proof.KI.k1_t3_trip.sl.r_94
        Cert.Proof.KI.k1_t3_trip.sl.r_95 Cert.Proof.KI.k1_t3_trip.sl.r_96 Cert.Proof.KI.k1_t3_trip.sl.r_97 Cert.Proof.KI.k1_t3_trip.sl.r_98 Cert.Proof.KI.k1_t3_trip.sl.r_99
        Cert.Proof.KI.k1_t3_trip.sl.r_100 Cert.Proof.KI.k1_t3_trip.sl.r_101 Cert.Proof.KI.k1_t3_trip.sl.r_102 Cert.Proof.KI.k1_t3_trip.sl.r_103 Cert.Proof.KI.k1_t3_trip.sl.r_104
        Cert.Proof.KI.k1_t3_trip.sl.r_105 Cert.Proof.KI.k1_t3_trip.sl.r_106 Cert.Proof.KI.k1_t3_trip.sl.r_107 Cert.Proof.KI.k1_t3_trip.sl.r_108 Cert.Proof.KI.k1_t3_trip.sl.r_109
        Cert.Proof.KI.k1_t3_trip.sl.r_110 Cert.Proof.KI.k1_t3_trip.sl.r_111 Cert.Proof.KI.k1_t3_trip.sl.r_112 Cert.Proof.KI.k1_t3_trip.sl.r_113 Cert.Proof.KI.k1_t3_trip.sl.r_114
        Cert.Proof.KI.k1_t3_trip.sl.r_115 Cert.Proof.KI.k1_t3_trip.sl.r_116 Cert.Proof.KI.k1_t3_trip.sl.r_117 Cert.Proof.KI.k1_t3_trip.sl.r_118 Cert.Proof.KI.k1_t3_trip.sl.r_119
        Cert.Proof.KI.k1_t3_trip.sl.r_120 Cert.Proof.KI.k1_t3_trip.sl.r_121 Cert.Proof.KI.k1_t3_trip.sl.r_122 Cert.Proof.KI.k1_t3_trip.sl.r_123 Cert.Proof.KI.k1_t3_trip.sl.r_124
        Cert.Proof.KI.k1_t3_trip.sl.r_125 Cert.Proof.KI.k1_t3_trip.sl.r_126 Cert.Proof.KI.k1_t3_trip.sl.r_127 Cert.Proof.KI.k1_t3_trip.sl.r_128 Cert.Proof.KI.k1_t3_trip.sl.r_129
        Cert.Proof.KI.k1_t3_trip.sl.r_130 Cert.Proof.KI.k1_t3_trip.sl.r_131 Cert.Proof.KI.k1_t3_trip.sl.r_132 Cert.Proof.KI.k1_t3_trip.sl.r_133 Cert.Proof.KI.k1_t3_trip.sl.r_134
        Cert.Proof.KI.k1_t3_trip.sl.r_135 Cert.Proof.KI.k1_t3_trip.sl.r_136 Cert.Proof.KI.k1_t3_trip.sl.r_137 Cert.Proof.KI.k1_t3_trip.sl.r_138 Cert.Proof.KI.k1_t3_trip.sl.r_139
        Cert.Proof.KI.k1_t3_trip.sl.r_140 Cert.Proof.KI.k1_t3_trip.sl.r_141 Cert.Proof.KI.k1_t3_trip.sl.r_142 Cert.Proof.KI.k1_t3_trip.sl.r_143 Cert.Proof.KI.k1_t3_trip.sl.r_144
        Cert.Proof.KI.k1_t3_trip.sl.r_145 Cert.Proof.KI.k1_t3_trip.sl.r_146 Cert.Proof.KI.k1_t3_trip.sl.r_147 Cert.Proof.KI.k1_t3_trip.sl.r_148 Cert.Proof.KI.k1_t3_trip.sl.r_149
        Cert.Proof.KI.k1_t3_trip.sl.r_150 Cert.Proof.KI.k1_t3_trip.sl.r_151 Cert.Proof.KI.k1_t3_trip.sl.r_152 Cert.Proof.KI.k1_t3_trip.sl.r_153 Cert.Proof.KI.k1_t3_trip.sl.r_154
        Cert.Proof.KI.k1_t3_trip.sl.r_155 Cert.Proof.KI.k1_t3_trip.sl.r_156 Cert.Proof.KI.k1_t3_trip.sl.r_157 Cert.Proof.KI.k1_t3_trip.sl.r_158 Cert.Proof.KI.k1_t3_trip.sl.r_159
        Cert.Proof.KI.k1_t3_trip.sl.r_160 Cert.Proof.KI.k1_t3_trip.sl.r_161 Cert.Proof.KI.k1_t3_trip.sl.r_162 Cert.Proof.KI.k1_t3_trip.sl.r_163 Cert.Proof.KI.k1_t3_trip.sl.r_164
        Cert.Proof.KI.k1_t3_trip.sl.r_165 Cert.Proof.KI.k1_t3_trip.sl.r_166 Cert.Proof.KI.k1_t3_trip.sl.r_167 Cert.Proof.KI.k1_t3_trip.sl.r_168 Cert.Proof.KI.k1_t3_trip.sl.r_169
        Cert.Proof.KI.k1_t3_trip.sl.r_170 Cert.Proof.KI.k1_t3_trip.sl.r_171 Cert.Proof.KI.k1_t3_trip.sl.r_172 Cert.Proof.KI.k1_t3_trip.sl.r_173 Cert.Proof.KI.k1_t3_trip.sl.r_174
        Cert.Proof.KI.k1_t3_trip.sl.r_175 Cert.Proof.KI.k1_t3_trip.sl.r_176 Cert.Proof.KI.k1_t3_trip.sl.r_177 Cert.Proof.KI.k1_t3_trip.sl.r_178 Cert.Proof.KI.k1_t3_trip.sl.r_179
        Cert.Proof.KI.k1_t3_trip.sl.r_180 Cert.Proof.KI.k1_t3_trip.sl.r_181 Cert.Proof.KI.k1_t3_trip.sl.r_182 Cert.Proof.KI.k1_t3_trip.sl.r_183 Cert.Proof.KI.k1_t3_trip.sl.r_184
        Cert.Proof.KI.k1_t3_trip.sl.r_185 Cert.Proof.KI.k1_t3_trip.sl.r_186 Cert.Proof.KI.k1_t3_trip.sl.r_187 Cert.Proof.KI.k1_t3_trip.sl.r_188 Cert.Proof.KI.k1_t3_trip.sl.r_189
        Cert.Proof.KI.k1_t3_trip.sl.r_190 Cert.Proof.KI.k1_t3_trip.sl.r_191 Cert.Proof.KI.k1_t3_trip.sl.r_192 Cert.Proof.KI.k1_t3_trip.sl.r_193 Cert.Proof.KI.k1_t3_trip.sl.r_194
        Cert.Proof.KI.k1_t3_trip.sl.r_195 Cert.Proof.KI.k1_t3_trip.sl.r_196 Cert.Proof.KI.k1_t3_trip.sl.r_197 Cert.Proof.KI.k1_t3_trip.sl.r_198 Cert.Proof.KI.k1_t3_trip.sl.r_199
        Cert.Proof.KI.k1_t3_trip.sl.r_200 Cert.Proof.KI.k1_t3_trip.sl.r_201 Cert.Proof.KI.k1_t3_trip.sl.r_202 Cert.Proof.KI.k1_t3_trip.sl.r_203 Cert.Proof.KI.k1_t3_trip.sl.r_204
        Cert.Proof.KI.k1_t3_trip.sl.r_205 Cert.Proof.KI.k1_t3_trip.sl.r_206 Cert.Proof.KI.k1_t3_trip.sl.r_207 Cert.Proof.KI.k1_t3_trip.sl.r_208 Cert.Proof.KI.k1_t3_trip.sl.r_209
        Cert.Proof.KI.k1_t3_trip.sl.r_210 Cert.Proof.KI.k1_t3_trip.sl.r_211 Cert.Proof.KI.k1_t3_trip.sl.r_212 Cert.Proof.KI.k1_t3_trip.sl.r_213 Cert.Proof.KI.k1_t3_trip.sl.r_214
        Cert.Proof.KI.k1_t3_trip.sl.r_215 Cert.Proof.KI.k1_t3_trip.sl.r_216 Cert.Proof.KI.k1_t3_trip.sl.r_217 Cert.Proof.KI.k1_t3_trip.sl.r_218 Cert.Proof.KI.k1_t3_trip.sl.r_219
        Cert.Proof.KI.k1_t3_trip.sl.r_220 Cert.Proof.KI.k1_t3_trip.sl.r_221 Cert.Proof.KI.k1_t3_trip.sl.r_222 Cert.Proof.KI.k1_t3_trip.sl.r_223 Cert.Proof.KI.k1_t3_trip.sl.r_224
        Cert.Proof.KI.k1_t3_trip.sl.r_225 Cert.Proof.KI.k1_t3_trip.sl.r_226 Cert.Proof.KI.k1_t3_trip.sl.r_227 Cert.Proof.KI.k1_t3_trip.sl.r_228 Cert.Proof.KI.k1_t3_trip.sl.r_229
        Cert.Proof.KI.k1_t3_trip.sl.r_230 Cert.Proof.KI.k1_t3_trip.sl.r_231 Cert.Proof.KI.k1_t3_trip.sl.r_232 Cert.Proof.KI.k1_t3_trip.sl.r_233 Cert.Proof.KI.k1_t3_trip.sl.r_234
        Cert.Proof.KI.k1_t3_trip.sl.r_235 Cert.Proof.KI.k1_t3_trip.sl.r_236 Cert.Proof.KI.k1_t3_trip.sl.r_237 Cert.Proof.KI.k1_t3_trip.sl.r_238 Cert.Proof.KI.k1_t3_trip.sl.r_239
        Cert.Proof.KI.k1_t3_trip.sl.r_240 Cert.Proof.KI.k1_t3_trip.sl.r_241 Cert.Proof.KI.k1_t3_trip.sl.r_242 Cert.Proof.KI.k1_t3_trip.sl.r_243 Cert.Proof.KI.k1_t3_trip.sl.r_244
        Cert.Proof.KI.k1_t3_trip.sl.r_245 Cert.Proof.KI.k1_t3_trip.sl.r_246 Cert.Proof.KI.k1_t3_trip.sl.r_247 Cert.Proof.KI.k1_t3_trip.sl.r_248 Cert.Proof.KI.k1_t3_trip.sl.r_249
        Cert.Proof.KI.k1_t3_trip.sl.r_250 Cert.Proof.KI.k1_t3_trip.sl.r_251 Cert.Proof.KI.k1_t3_trip.sl.r_252 Cert.Proof.KI.k1_t3_trip.sl.r_253 Cert.Proof.KI.k1_t3_trip.sl.r_254
        Cert.Proof.KI.k1_t3_trip.sl.r_255 Cert.Proof.KI.k1_t3_trip.sl.r_256 Cert.Proof.KI.k1_t3_trip.sl.r_257 Cert.Proof.KI.k1_t3_trip.sl.r_258 Cert.Proof.KI.k1_t3_trip.sl.r_259
        Cert.Proof.KI.k1_t3_trip.sl.r_260 Cert.Proof.KI.k1_t3_trip.sl.r_261 Cert.Proof.KI.k1_t3_trip.sl.r_262 Cert.Proof.KI.k1_t3_trip.sl.r_263 Cert.Proof.KI.k1_t3_trip.sl.r_264
        Cert.Proof.KI.k1_t3_trip.sl.r_265 Cert.Proof.KI.k1_t3_trip.sl.r_266 Cert.Proof.KI.k1_t3_trip.sl.r_267 Cert.Proof.KI.k1_t3_trip.sl.r_268 Cert.Proof.KI.k1_t3_trip.sl.r_269
        Cert.Proof.KI.k1_t3_trip.sl.r_270 Cert.Proof.KI.k1_t3_trip.sl.r_271 Cert.Proof.KI.k1_t3_trip.sl.r_272 Cert.Proof.KI.k1_t3_trip.sl.r_273 Cert.Proof.KI.k1_t3_trip.sl.r_274
        Cert.Proof.KI.k1_t3_trip.sl.r_275 Cert.Proof.KI.k1_t3_trip.sl.r_276 Cert.Proof.KI.k1_t3_trip.sl.r_277 Cert.Proof.KI.k1_t3_trip.sl.r_278 Cert.Proof.KI.k1_t3_trip.sl.r_279
        Cert.Proof.KI.k1_t3_trip.sl.r_280 Cert.Proof.KI.k1_t3_trip.sl.r_281 Cert.Proof.KI.k1_t3_trip.sl.r_282 Cert.Proof.KI.k1_t3_trip.sl.r_283 Cert.Proof.KI.k1_t3_trip.sl.r_284
        Cert.Proof.KI.k1_t3_trip.sl.r_285 Cert.Proof.KI.k1_t3_trip.sl.r_286 Cert.Proof.KI.k1_t3_trip.sl.r_287 Cert.Proof.KI.k1_t3_trip.sl.r_288 Cert.Proof.KI.k1_t3_trip.sl.r_289
        Cert.Proof.KI.k1_t3_trip.sl.r_290 Cert.Proof.KI.k1_t3_trip.sl.r_291 Cert.Proof.KI.k1_t3_trip.sl.r_292 Cert.Proof.KI.k1_t3_trip.sl.r_293 Cert.Proof.KI.k1_t3_trip.sl.r_294
        Cert.Proof.KI.k1_t3_trip.sl.r_295 Cert.Proof.KI.k1_t3_trip.sl.r_296 Cert.Proof.KI.k1_t3_trip.sl.r_297 Cert.Proof.KI.k1_t3_trip.sl.r_298 Cert.Proof.KI.k1_t3_trip.sl.r_299
        Cert.Proof.KI.k1_t3_trip.sl.r_300 Cert.Proof.KI.k1_t3_trip.sl.r_301 Cert.Proof.KI.k1_t3_trip.sl.r_302 Cert.Proof.KI.k1_t3_trip.sl.r_303 Cert.Proof.KI.k1_t3_trip.sl.r_304
        Cert.Proof.KI.k1_t3_trip.sl.r_305 Cert.Proof.KI.k1_t3_trip.sl.r_306 Cert.Proof.KI.k1_t3_trip.sl.r_307 Cert.Proof.KI.k1_t3_trip.sl.r_308 Cert.Proof.KI.k1_t3_trip.sl.r_309
        Cert.Proof.KI.k1_t3_trip.sl.r_310 Cert.Proof.KI.k1_t3_trip.sl.r_311 Cert.Proof.KI.k1_t3_trip.sl.r_312 Cert.Proof.KI.k1_t3_trip.sl.r_313 Cert.Proof.KI.k1_t3_trip.sl.r_314
        Cert.Proof.KI.k1_t3_trip.sl.r_315 Cert.Proof.KI.k1_t3_trip.sl.r_316 Cert.Proof.KI.k1_t3_trip.sl.r_317 Cert.Proof.KI.k1_t3_trip.sl.r_318
      conv_lhs => simp only [k1_pay1, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20,
        k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38,
        k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56,
        k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74,
        k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92,
        k1_pay93, k1_pay94, k1_pay95, k1_pay96, k1_pay97, k1_pay98, k1_pay99, k1_pay100, k1_pay101, k1_pay102, k1_pay103, k1_pay104, k1_pay105, k1_pay106, k1_pay107, k1_pay108, k1_pay109,
        k1_pay110, k1_pay111, k1_pay112, k1_pay113, k1_pay114, k1_pay115, k1_pay116, k1_pay117, k1_pay118, k1_pay119, k1_pay120, k1_pay121, k1_pay122, k1_pay123, k1_pay124, k1_pay125,
        k1_pay126, k1_pay127, k1_pay128, k1_pay129, k1_pay130, k1_pay131, k1_pay132, k1_pay133, k1_pay134, k1_pay135, k1_pay136, k1_pay137, k1_pay138, k1_pay139, k1_pay140, k1_pay141,
        k1_pay142, k1_pay143, k1_pay144, k1_pay145, k1_pay146, k1_pay147, k1_pay148, k1_pay149, k1_pay150, k1_pay151, k1_pay152, k1_pay153, k1_pay154, k1_pay155, k1_pay156, k1_pay157,
        k1_pay158, k1_pay159, k1_pay160, k1_pay161, k1_pay162, k1_pay163, k1_pay164, k1_pay165, k1_pay166, k1_pay167, k1_pay168, k1_pay169, k1_pay170, k1_pay171, k1_pay172, k1_pay173,
        k1_pay174, k1_pay175, k1_pay176, k1_pay177, k1_pay178, k1_pay179, k1_pay180, k1_pay181, k1_pay182, k1_pay183, k1_pay184, k1_pay185, k1_pay186, k1_pay187, k1_pay188, k1_pay189,
        k1_pay190, k1_pay191, k1_pay192, k1_pay193, k1_pay194, k1_pay195, k1_pay196, k1_pay197, k1_pay198, k1_pay199, k1_pay200, k1_pay201, k1_pay202, k1_pay203, k1_pay204, k1_pay205,
        k1_pay206, k1_pay207, k1_pay208, k1_pay209, k1_pay210, k1_pay211, k1_pay212, k1_pay213, k1_pay214, k1_pay215, k1_pay216, k1_pay217, k1_pay218, k1_pay219, k1_pay220, k1_pay221,
        k1_pay222, k1_pay223, k1_pay224, k1_pay225, k1_pay226, k1_pay227, k1_pay228, k1_pay229, k1_pay230, k1_pay231, k1_pay232, k1_pay233, k1_pay234, k1_pay235, k1_pay236, k1_pay237,
        k1_pay238, k1_pay239, k1_pay240, k1_pay241, k1_pay242, k1_pay243, k1_pay244, k1_pay245, k1_pay246, k1_pay247, k1_pay248, k1_pay249, k1_pay250, k1_pay251, k1_pay252, k1_pay253,
        k1_pay254, k1_pay255, k1_pay256, k1_pay257, k1_pay258, k1_pay259, k1_pay260, k1_pay261, k1_pay262, k1_pay263, k1_pay264, k1_pay265, k1_pay266, k1_pay267, k1_pay268, k1_pay269,
        k1_pay270, k1_pay271, k1_pay272, k1_pay273, k1_pay274, k1_pay275, k1_pay276, k1_pay277, k1_pay278, k1_pay279, k1_pay280, k1_pay281, k1_pay282, k1_pay283, k1_pay284, k1_pay285,
        k1_pay286, k1_pay287, k1_pay288, k1_pay289, k1_pay290, k1_pay291, k1_pay292, k1_pay293, k1_pay294, k1_pay295, k1_pay296, k1_pay297, k1_pay298, k1_pay299, k1_pay300, k1_pay301,
        k1_pay302, k1_pay303, k1_pay304, k1_pay305, k1_pay306, k1_pay307, k1_pay308, k1_pay309, k1_pay310, k1_pay311, k1_pay312, k1_pay313, k1_pay314, k1_pay315, k1_pay316, k1_pay317,
        k1_pay318, k1_pay319, k1_pay320, k1_pay321, k1_pay322, k1_pay323, Pure.addf_at, Pure.mulf_at, Pure.broadcast_at, Pure.lane_at, Pure.cast16_16, Pure.cast1x16_16, Pure.cast16_1x16]
      rfl
    · intro l
      show _ = Pure.acc32 (rowW fw r) (rowE fb sub (⟨80 + l.val, by have := l.isLt; omega⟩ : Fin 128))
        (g (ix2 r (⟨80 + l.val, by have := l.isLt; omega⟩ : Fin 128)))
      refine ((?_ : _ = _).trans (Pure.acc32_chain (wraw3 fw t2 t) (eraw3_5 fb t l) (graw3_5 g t2 t l))).trans
        (Pure.acc32_congr (wraw3_eq fw t2 t r hr) (eraw3_5_eq fb t sub hs l _ rfl) (graw3_5_eq g t2 t r hr l _ rfl))
      delta Cert.Proof.KI.k1_t3_trip.sl.r Cert.Proof.KI.k1_t3_trip.sl.r_1 Cert.Proof.KI.k1_t3_trip.sl.r_2 Cert.Proof.KI.k1_t3_trip.sl.r_3 Cert.Proof.KI.k1_t3_trip.sl.r_4
        Cert.Proof.KI.k1_t3_trip.sl.r_5 Cert.Proof.KI.k1_t3_trip.sl.r_6 Cert.Proof.KI.k1_t3_trip.sl.r_7 Cert.Proof.KI.k1_t3_trip.sl.r_8 Cert.Proof.KI.k1_t3_trip.sl.r_9
        Cert.Proof.KI.k1_t3_trip.sl.r_10 Cert.Proof.KI.k1_t3_trip.sl.r_11 Cert.Proof.KI.k1_t3_trip.sl.r_12 Cert.Proof.KI.k1_t3_trip.sl.r_13 Cert.Proof.KI.k1_t3_trip.sl.r_14
        Cert.Proof.KI.k1_t3_trip.sl.r_15 Cert.Proof.KI.k1_t3_trip.sl.r_16 Cert.Proof.KI.k1_t3_trip.sl.r_17 Cert.Proof.KI.k1_t3_trip.sl.r_18 Cert.Proof.KI.k1_t3_trip.sl.r_19
        Cert.Proof.KI.k1_t3_trip.sl.r_20 Cert.Proof.KI.k1_t3_trip.sl.r_21 Cert.Proof.KI.k1_t3_trip.sl.r_22 Cert.Proof.KI.k1_t3_trip.sl.r_23 Cert.Proof.KI.k1_t3_trip.sl.r_24
        Cert.Proof.KI.k1_t3_trip.sl.r_25 Cert.Proof.KI.k1_t3_trip.sl.r_26 Cert.Proof.KI.k1_t3_trip.sl.r_27 Cert.Proof.KI.k1_t3_trip.sl.r_28 Cert.Proof.KI.k1_t3_trip.sl.r_29
        Cert.Proof.KI.k1_t3_trip.sl.r_30 Cert.Proof.KI.k1_t3_trip.sl.r_31 Cert.Proof.KI.k1_t3_trip.sl.r_32 Cert.Proof.KI.k1_t3_trip.sl.r_33 Cert.Proof.KI.k1_t3_trip.sl.r_34
        Cert.Proof.KI.k1_t3_trip.sl.r_35 Cert.Proof.KI.k1_t3_trip.sl.r_36 Cert.Proof.KI.k1_t3_trip.sl.r_37 Cert.Proof.KI.k1_t3_trip.sl.r_38 Cert.Proof.KI.k1_t3_trip.sl.r_39
        Cert.Proof.KI.k1_t3_trip.sl.r_40 Cert.Proof.KI.k1_t3_trip.sl.r_41 Cert.Proof.KI.k1_t3_trip.sl.r_42 Cert.Proof.KI.k1_t3_trip.sl.r_43 Cert.Proof.KI.k1_t3_trip.sl.r_44
        Cert.Proof.KI.k1_t3_trip.sl.r_45 Cert.Proof.KI.k1_t3_trip.sl.r_46 Cert.Proof.KI.k1_t3_trip.sl.r_47 Cert.Proof.KI.k1_t3_trip.sl.r_48 Cert.Proof.KI.k1_t3_trip.sl.r_49
        Cert.Proof.KI.k1_t3_trip.sl.r_50 Cert.Proof.KI.k1_t3_trip.sl.r_51 Cert.Proof.KI.k1_t3_trip.sl.r_52 Cert.Proof.KI.k1_t3_trip.sl.r_53 Cert.Proof.KI.k1_t3_trip.sl.r_54
        Cert.Proof.KI.k1_t3_trip.sl.r_55 Cert.Proof.KI.k1_t3_trip.sl.r_56 Cert.Proof.KI.k1_t3_trip.sl.r_57 Cert.Proof.KI.k1_t3_trip.sl.r_58 Cert.Proof.KI.k1_t3_trip.sl.r_59
        Cert.Proof.KI.k1_t3_trip.sl.r_60 Cert.Proof.KI.k1_t3_trip.sl.r_61 Cert.Proof.KI.k1_t3_trip.sl.r_62 Cert.Proof.KI.k1_t3_trip.sl.r_63 Cert.Proof.KI.k1_t3_trip.sl.r_64
        Cert.Proof.KI.k1_t3_trip.sl.r_65 Cert.Proof.KI.k1_t3_trip.sl.r_66 Cert.Proof.KI.k1_t3_trip.sl.r_67 Cert.Proof.KI.k1_t3_trip.sl.r_68 Cert.Proof.KI.k1_t3_trip.sl.r_69
        Cert.Proof.KI.k1_t3_trip.sl.r_70 Cert.Proof.KI.k1_t3_trip.sl.r_71 Cert.Proof.KI.k1_t3_trip.sl.r_72 Cert.Proof.KI.k1_t3_trip.sl.r_73 Cert.Proof.KI.k1_t3_trip.sl.r_74
        Cert.Proof.KI.k1_t3_trip.sl.r_75 Cert.Proof.KI.k1_t3_trip.sl.r_76 Cert.Proof.KI.k1_t3_trip.sl.r_77 Cert.Proof.KI.k1_t3_trip.sl.r_78 Cert.Proof.KI.k1_t3_trip.sl.r_79
        Cert.Proof.KI.k1_t3_trip.sl.r_80 Cert.Proof.KI.k1_t3_trip.sl.r_81 Cert.Proof.KI.k1_t3_trip.sl.r_82 Cert.Proof.KI.k1_t3_trip.sl.r_83 Cert.Proof.KI.k1_t3_trip.sl.r_84
        Cert.Proof.KI.k1_t3_trip.sl.r_85 Cert.Proof.KI.k1_t3_trip.sl.r_86 Cert.Proof.KI.k1_t3_trip.sl.r_87 Cert.Proof.KI.k1_t3_trip.sl.r_88 Cert.Proof.KI.k1_t3_trip.sl.r_89
        Cert.Proof.KI.k1_t3_trip.sl.r_90 Cert.Proof.KI.k1_t3_trip.sl.r_91 Cert.Proof.KI.k1_t3_trip.sl.r_92 Cert.Proof.KI.k1_t3_trip.sl.r_93 Cert.Proof.KI.k1_t3_trip.sl.r_94
        Cert.Proof.KI.k1_t3_trip.sl.r_95 Cert.Proof.KI.k1_t3_trip.sl.r_96 Cert.Proof.KI.k1_t3_trip.sl.r_97 Cert.Proof.KI.k1_t3_trip.sl.r_98 Cert.Proof.KI.k1_t3_trip.sl.r_99
        Cert.Proof.KI.k1_t3_trip.sl.r_100 Cert.Proof.KI.k1_t3_trip.sl.r_101 Cert.Proof.KI.k1_t3_trip.sl.r_102 Cert.Proof.KI.k1_t3_trip.sl.r_103 Cert.Proof.KI.k1_t3_trip.sl.r_104
        Cert.Proof.KI.k1_t3_trip.sl.r_105 Cert.Proof.KI.k1_t3_trip.sl.r_106 Cert.Proof.KI.k1_t3_trip.sl.r_107 Cert.Proof.KI.k1_t3_trip.sl.r_108 Cert.Proof.KI.k1_t3_trip.sl.r_109
        Cert.Proof.KI.k1_t3_trip.sl.r_110 Cert.Proof.KI.k1_t3_trip.sl.r_111 Cert.Proof.KI.k1_t3_trip.sl.r_112 Cert.Proof.KI.k1_t3_trip.sl.r_113 Cert.Proof.KI.k1_t3_trip.sl.r_114
        Cert.Proof.KI.k1_t3_trip.sl.r_115 Cert.Proof.KI.k1_t3_trip.sl.r_116 Cert.Proof.KI.k1_t3_trip.sl.r_117 Cert.Proof.KI.k1_t3_trip.sl.r_118 Cert.Proof.KI.k1_t3_trip.sl.r_119
        Cert.Proof.KI.k1_t3_trip.sl.r_120 Cert.Proof.KI.k1_t3_trip.sl.r_121 Cert.Proof.KI.k1_t3_trip.sl.r_122 Cert.Proof.KI.k1_t3_trip.sl.r_123 Cert.Proof.KI.k1_t3_trip.sl.r_124
        Cert.Proof.KI.k1_t3_trip.sl.r_125 Cert.Proof.KI.k1_t3_trip.sl.r_126 Cert.Proof.KI.k1_t3_trip.sl.r_127 Cert.Proof.KI.k1_t3_trip.sl.r_128 Cert.Proof.KI.k1_t3_trip.sl.r_129
        Cert.Proof.KI.k1_t3_trip.sl.r_130 Cert.Proof.KI.k1_t3_trip.sl.r_131 Cert.Proof.KI.k1_t3_trip.sl.r_132 Cert.Proof.KI.k1_t3_trip.sl.r_133 Cert.Proof.KI.k1_t3_trip.sl.r_134
        Cert.Proof.KI.k1_t3_trip.sl.r_135 Cert.Proof.KI.k1_t3_trip.sl.r_136 Cert.Proof.KI.k1_t3_trip.sl.r_137 Cert.Proof.KI.k1_t3_trip.sl.r_138 Cert.Proof.KI.k1_t3_trip.sl.r_139
        Cert.Proof.KI.k1_t3_trip.sl.r_140 Cert.Proof.KI.k1_t3_trip.sl.r_141 Cert.Proof.KI.k1_t3_trip.sl.r_142 Cert.Proof.KI.k1_t3_trip.sl.r_143 Cert.Proof.KI.k1_t3_trip.sl.r_144
        Cert.Proof.KI.k1_t3_trip.sl.r_145 Cert.Proof.KI.k1_t3_trip.sl.r_146 Cert.Proof.KI.k1_t3_trip.sl.r_147 Cert.Proof.KI.k1_t3_trip.sl.r_148 Cert.Proof.KI.k1_t3_trip.sl.r_149
        Cert.Proof.KI.k1_t3_trip.sl.r_150 Cert.Proof.KI.k1_t3_trip.sl.r_151 Cert.Proof.KI.k1_t3_trip.sl.r_152 Cert.Proof.KI.k1_t3_trip.sl.r_153 Cert.Proof.KI.k1_t3_trip.sl.r_154
        Cert.Proof.KI.k1_t3_trip.sl.r_155 Cert.Proof.KI.k1_t3_trip.sl.r_156 Cert.Proof.KI.k1_t3_trip.sl.r_157 Cert.Proof.KI.k1_t3_trip.sl.r_158 Cert.Proof.KI.k1_t3_trip.sl.r_159
        Cert.Proof.KI.k1_t3_trip.sl.r_160 Cert.Proof.KI.k1_t3_trip.sl.r_161 Cert.Proof.KI.k1_t3_trip.sl.r_162 Cert.Proof.KI.k1_t3_trip.sl.r_163 Cert.Proof.KI.k1_t3_trip.sl.r_164
        Cert.Proof.KI.k1_t3_trip.sl.r_165 Cert.Proof.KI.k1_t3_trip.sl.r_166 Cert.Proof.KI.k1_t3_trip.sl.r_167 Cert.Proof.KI.k1_t3_trip.sl.r_168 Cert.Proof.KI.k1_t3_trip.sl.r_169
        Cert.Proof.KI.k1_t3_trip.sl.r_170 Cert.Proof.KI.k1_t3_trip.sl.r_171 Cert.Proof.KI.k1_t3_trip.sl.r_172 Cert.Proof.KI.k1_t3_trip.sl.r_173 Cert.Proof.KI.k1_t3_trip.sl.r_174
        Cert.Proof.KI.k1_t3_trip.sl.r_175 Cert.Proof.KI.k1_t3_trip.sl.r_176 Cert.Proof.KI.k1_t3_trip.sl.r_177 Cert.Proof.KI.k1_t3_trip.sl.r_178 Cert.Proof.KI.k1_t3_trip.sl.r_179
        Cert.Proof.KI.k1_t3_trip.sl.r_180 Cert.Proof.KI.k1_t3_trip.sl.r_181 Cert.Proof.KI.k1_t3_trip.sl.r_182 Cert.Proof.KI.k1_t3_trip.sl.r_183 Cert.Proof.KI.k1_t3_trip.sl.r_184
        Cert.Proof.KI.k1_t3_trip.sl.r_185 Cert.Proof.KI.k1_t3_trip.sl.r_186 Cert.Proof.KI.k1_t3_trip.sl.r_187 Cert.Proof.KI.k1_t3_trip.sl.r_188 Cert.Proof.KI.k1_t3_trip.sl.r_189
        Cert.Proof.KI.k1_t3_trip.sl.r_190 Cert.Proof.KI.k1_t3_trip.sl.r_191 Cert.Proof.KI.k1_t3_trip.sl.r_192 Cert.Proof.KI.k1_t3_trip.sl.r_193 Cert.Proof.KI.k1_t3_trip.sl.r_194
        Cert.Proof.KI.k1_t3_trip.sl.r_195 Cert.Proof.KI.k1_t3_trip.sl.r_196 Cert.Proof.KI.k1_t3_trip.sl.r_197 Cert.Proof.KI.k1_t3_trip.sl.r_198 Cert.Proof.KI.k1_t3_trip.sl.r_199
        Cert.Proof.KI.k1_t3_trip.sl.r_200 Cert.Proof.KI.k1_t3_trip.sl.r_201 Cert.Proof.KI.k1_t3_trip.sl.r_202 Cert.Proof.KI.k1_t3_trip.sl.r_203 Cert.Proof.KI.k1_t3_trip.sl.r_204
        Cert.Proof.KI.k1_t3_trip.sl.r_205 Cert.Proof.KI.k1_t3_trip.sl.r_206 Cert.Proof.KI.k1_t3_trip.sl.r_207 Cert.Proof.KI.k1_t3_trip.sl.r_208 Cert.Proof.KI.k1_t3_trip.sl.r_209
        Cert.Proof.KI.k1_t3_trip.sl.r_210 Cert.Proof.KI.k1_t3_trip.sl.r_211 Cert.Proof.KI.k1_t3_trip.sl.r_212 Cert.Proof.KI.k1_t3_trip.sl.r_213 Cert.Proof.KI.k1_t3_trip.sl.r_214
        Cert.Proof.KI.k1_t3_trip.sl.r_215 Cert.Proof.KI.k1_t3_trip.sl.r_216 Cert.Proof.KI.k1_t3_trip.sl.r_217 Cert.Proof.KI.k1_t3_trip.sl.r_218 Cert.Proof.KI.k1_t3_trip.sl.r_219
        Cert.Proof.KI.k1_t3_trip.sl.r_220 Cert.Proof.KI.k1_t3_trip.sl.r_221 Cert.Proof.KI.k1_t3_trip.sl.r_222 Cert.Proof.KI.k1_t3_trip.sl.r_223 Cert.Proof.KI.k1_t3_trip.sl.r_224
        Cert.Proof.KI.k1_t3_trip.sl.r_225 Cert.Proof.KI.k1_t3_trip.sl.r_226 Cert.Proof.KI.k1_t3_trip.sl.r_227 Cert.Proof.KI.k1_t3_trip.sl.r_228 Cert.Proof.KI.k1_t3_trip.sl.r_229
        Cert.Proof.KI.k1_t3_trip.sl.r_230 Cert.Proof.KI.k1_t3_trip.sl.r_231 Cert.Proof.KI.k1_t3_trip.sl.r_232 Cert.Proof.KI.k1_t3_trip.sl.r_233 Cert.Proof.KI.k1_t3_trip.sl.r_234
        Cert.Proof.KI.k1_t3_trip.sl.r_235 Cert.Proof.KI.k1_t3_trip.sl.r_236 Cert.Proof.KI.k1_t3_trip.sl.r_237 Cert.Proof.KI.k1_t3_trip.sl.r_238 Cert.Proof.KI.k1_t3_trip.sl.r_239
        Cert.Proof.KI.k1_t3_trip.sl.r_240 Cert.Proof.KI.k1_t3_trip.sl.r_241 Cert.Proof.KI.k1_t3_trip.sl.r_242 Cert.Proof.KI.k1_t3_trip.sl.r_243 Cert.Proof.KI.k1_t3_trip.sl.r_244
        Cert.Proof.KI.k1_t3_trip.sl.r_245 Cert.Proof.KI.k1_t3_trip.sl.r_246 Cert.Proof.KI.k1_t3_trip.sl.r_247 Cert.Proof.KI.k1_t3_trip.sl.r_248 Cert.Proof.KI.k1_t3_trip.sl.r_249
        Cert.Proof.KI.k1_t3_trip.sl.r_250 Cert.Proof.KI.k1_t3_trip.sl.r_251 Cert.Proof.KI.k1_t3_trip.sl.r_252 Cert.Proof.KI.k1_t3_trip.sl.r_253 Cert.Proof.KI.k1_t3_trip.sl.r_254
        Cert.Proof.KI.k1_t3_trip.sl.r_255 Cert.Proof.KI.k1_t3_trip.sl.r_256 Cert.Proof.KI.k1_t3_trip.sl.r_257 Cert.Proof.KI.k1_t3_trip.sl.r_258 Cert.Proof.KI.k1_t3_trip.sl.r_259
        Cert.Proof.KI.k1_t3_trip.sl.r_260 Cert.Proof.KI.k1_t3_trip.sl.r_261 Cert.Proof.KI.k1_t3_trip.sl.r_262 Cert.Proof.KI.k1_t3_trip.sl.r_263 Cert.Proof.KI.k1_t3_trip.sl.r_264
        Cert.Proof.KI.k1_t3_trip.sl.r_265 Cert.Proof.KI.k1_t3_trip.sl.r_266 Cert.Proof.KI.k1_t3_trip.sl.r_267 Cert.Proof.KI.k1_t3_trip.sl.r_268 Cert.Proof.KI.k1_t3_trip.sl.r_269
        Cert.Proof.KI.k1_t3_trip.sl.r_270 Cert.Proof.KI.k1_t3_trip.sl.r_271 Cert.Proof.KI.k1_t3_trip.sl.r_272 Cert.Proof.KI.k1_t3_trip.sl.r_273 Cert.Proof.KI.k1_t3_trip.sl.r_274
        Cert.Proof.KI.k1_t3_trip.sl.r_275 Cert.Proof.KI.k1_t3_trip.sl.r_276 Cert.Proof.KI.k1_t3_trip.sl.r_277 Cert.Proof.KI.k1_t3_trip.sl.r_278 Cert.Proof.KI.k1_t3_trip.sl.r_279
        Cert.Proof.KI.k1_t3_trip.sl.r_280 Cert.Proof.KI.k1_t3_trip.sl.r_281 Cert.Proof.KI.k1_t3_trip.sl.r_282 Cert.Proof.KI.k1_t3_trip.sl.r_283 Cert.Proof.KI.k1_t3_trip.sl.r_284
        Cert.Proof.KI.k1_t3_trip.sl.r_285 Cert.Proof.KI.k1_t3_trip.sl.r_286 Cert.Proof.KI.k1_t3_trip.sl.r_287 Cert.Proof.KI.k1_t3_trip.sl.r_288 Cert.Proof.KI.k1_t3_trip.sl.r_289
        Cert.Proof.KI.k1_t3_trip.sl.r_290 Cert.Proof.KI.k1_t3_trip.sl.r_291 Cert.Proof.KI.k1_t3_trip.sl.r_292 Cert.Proof.KI.k1_t3_trip.sl.r_293 Cert.Proof.KI.k1_t3_trip.sl.r_294
        Cert.Proof.KI.k1_t3_trip.sl.r_295 Cert.Proof.KI.k1_t3_trip.sl.r_296 Cert.Proof.KI.k1_t3_trip.sl.r_297 Cert.Proof.KI.k1_t3_trip.sl.r_298 Cert.Proof.KI.k1_t3_trip.sl.r_299
        Cert.Proof.KI.k1_t3_trip.sl.r_300 Cert.Proof.KI.k1_t3_trip.sl.r_301 Cert.Proof.KI.k1_t3_trip.sl.r_302 Cert.Proof.KI.k1_t3_trip.sl.r_303 Cert.Proof.KI.k1_t3_trip.sl.r_304
        Cert.Proof.KI.k1_t3_trip.sl.r_305 Cert.Proof.KI.k1_t3_trip.sl.r_306 Cert.Proof.KI.k1_t3_trip.sl.r_307 Cert.Proof.KI.k1_t3_trip.sl.r_308 Cert.Proof.KI.k1_t3_trip.sl.r_309
        Cert.Proof.KI.k1_t3_trip.sl.r_310 Cert.Proof.KI.k1_t3_trip.sl.r_311 Cert.Proof.KI.k1_t3_trip.sl.r_312 Cert.Proof.KI.k1_t3_trip.sl.r_313 Cert.Proof.KI.k1_t3_trip.sl.r_314
        Cert.Proof.KI.k1_t3_trip.sl.r_315 Cert.Proof.KI.k1_t3_trip.sl.r_316 Cert.Proof.KI.k1_t3_trip.sl.r_317 Cert.Proof.KI.k1_t3_trip.sl.r_318
      conv_lhs => simp only [k1_pay1, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20,
        k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38,
        k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56,
        k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74,
        k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92,
        k1_pay93, k1_pay94, k1_pay95, k1_pay96, k1_pay97, k1_pay98, k1_pay99, k1_pay100, k1_pay101, k1_pay102, k1_pay103, k1_pay104, k1_pay105, k1_pay106, k1_pay107, k1_pay108, k1_pay109,
        k1_pay110, k1_pay111, k1_pay112, k1_pay113, k1_pay114, k1_pay115, k1_pay116, k1_pay117, k1_pay118, k1_pay119, k1_pay120, k1_pay121, k1_pay122, k1_pay123, k1_pay124, k1_pay125,
        k1_pay126, k1_pay127, k1_pay128, k1_pay129, k1_pay130, k1_pay131, k1_pay132, k1_pay133, k1_pay134, k1_pay135, k1_pay136, k1_pay137, k1_pay138, k1_pay139, k1_pay140, k1_pay141,
        k1_pay142, k1_pay143, k1_pay144, k1_pay145, k1_pay146, k1_pay147, k1_pay148, k1_pay149, k1_pay150, k1_pay151, k1_pay152, k1_pay153, k1_pay154, k1_pay155, k1_pay156, k1_pay157,
        k1_pay158, k1_pay159, k1_pay160, k1_pay161, k1_pay162, k1_pay163, k1_pay164, k1_pay165, k1_pay166, k1_pay167, k1_pay168, k1_pay169, k1_pay170, k1_pay171, k1_pay172, k1_pay173,
        k1_pay174, k1_pay175, k1_pay176, k1_pay177, k1_pay178, k1_pay179, k1_pay180, k1_pay181, k1_pay182, k1_pay183, k1_pay184, k1_pay185, k1_pay186, k1_pay187, k1_pay188, k1_pay189,
        k1_pay190, k1_pay191, k1_pay192, k1_pay193, k1_pay194, k1_pay195, k1_pay196, k1_pay197, k1_pay198, k1_pay199, k1_pay200, k1_pay201, k1_pay202, k1_pay203, k1_pay204, k1_pay205,
        k1_pay206, k1_pay207, k1_pay208, k1_pay209, k1_pay210, k1_pay211, k1_pay212, k1_pay213, k1_pay214, k1_pay215, k1_pay216, k1_pay217, k1_pay218, k1_pay219, k1_pay220, k1_pay221,
        k1_pay222, k1_pay223, k1_pay224, k1_pay225, k1_pay226, k1_pay227, k1_pay228, k1_pay229, k1_pay230, k1_pay231, k1_pay232, k1_pay233, k1_pay234, k1_pay235, k1_pay236, k1_pay237,
        k1_pay238, k1_pay239, k1_pay240, k1_pay241, k1_pay242, k1_pay243, k1_pay244, k1_pay245, k1_pay246, k1_pay247, k1_pay248, k1_pay249, k1_pay250, k1_pay251, k1_pay252, k1_pay253,
        k1_pay254, k1_pay255, k1_pay256, k1_pay257, k1_pay258, k1_pay259, k1_pay260, k1_pay261, k1_pay262, k1_pay263, k1_pay264, k1_pay265, k1_pay266, k1_pay267, k1_pay268, k1_pay269,
        k1_pay270, k1_pay271, k1_pay272, k1_pay273, k1_pay274, k1_pay275, k1_pay276, k1_pay277, k1_pay278, k1_pay279, k1_pay280, k1_pay281, k1_pay282, k1_pay283, k1_pay284, k1_pay285,
        k1_pay286, k1_pay287, k1_pay288, k1_pay289, k1_pay290, k1_pay291, k1_pay292, k1_pay293, k1_pay294, k1_pay295, k1_pay296, k1_pay297, k1_pay298, k1_pay299, k1_pay300, k1_pay301,
        k1_pay302, k1_pay303, k1_pay304, k1_pay305, k1_pay306, k1_pay307, k1_pay308, k1_pay309, k1_pay310, k1_pay311, k1_pay312, k1_pay313, k1_pay314, k1_pay315, k1_pay316, k1_pay317,
        k1_pay318, k1_pay319, k1_pay320, k1_pay321, k1_pay322, k1_pay323, Pure.addf_at, Pure.mulf_at, Pure.broadcast_at, Pure.lane_at, Pure.cast16_16, Pure.cast1x16_16, Pure.cast16_1x16]
      rfl
    · intro l
      show _ = Pure.acc32 (rowW fw r) (rowE fb sub (⟨96 + l.val, by have := l.isLt; omega⟩ : Fin 128))
        (g (ix2 r (⟨96 + l.val, by have := l.isLt; omega⟩ : Fin 128)))
      refine ((?_ : _ = _).trans (Pure.acc32_chain (wraw3 fw t2 t) (eraw3_6 fb t l) (graw3_6 g t2 t l))).trans
        (Pure.acc32_congr (wraw3_eq fw t2 t r hr) (eraw3_6_eq fb t sub hs l _ rfl) (graw3_6_eq g t2 t r hr l _ rfl))
      delta Cert.Proof.KI.k1_t3_trip.sl.r Cert.Proof.KI.k1_t3_trip.sl.r_1 Cert.Proof.KI.k1_t3_trip.sl.r_2 Cert.Proof.KI.k1_t3_trip.sl.r_3 Cert.Proof.KI.k1_t3_trip.sl.r_4
        Cert.Proof.KI.k1_t3_trip.sl.r_5 Cert.Proof.KI.k1_t3_trip.sl.r_6 Cert.Proof.KI.k1_t3_trip.sl.r_7 Cert.Proof.KI.k1_t3_trip.sl.r_8 Cert.Proof.KI.k1_t3_trip.sl.r_9
        Cert.Proof.KI.k1_t3_trip.sl.r_10 Cert.Proof.KI.k1_t3_trip.sl.r_11 Cert.Proof.KI.k1_t3_trip.sl.r_12 Cert.Proof.KI.k1_t3_trip.sl.r_13 Cert.Proof.KI.k1_t3_trip.sl.r_14
        Cert.Proof.KI.k1_t3_trip.sl.r_15 Cert.Proof.KI.k1_t3_trip.sl.r_16 Cert.Proof.KI.k1_t3_trip.sl.r_17 Cert.Proof.KI.k1_t3_trip.sl.r_18 Cert.Proof.KI.k1_t3_trip.sl.r_19
        Cert.Proof.KI.k1_t3_trip.sl.r_20 Cert.Proof.KI.k1_t3_trip.sl.r_21 Cert.Proof.KI.k1_t3_trip.sl.r_22 Cert.Proof.KI.k1_t3_trip.sl.r_23 Cert.Proof.KI.k1_t3_trip.sl.r_24
        Cert.Proof.KI.k1_t3_trip.sl.r_25 Cert.Proof.KI.k1_t3_trip.sl.r_26 Cert.Proof.KI.k1_t3_trip.sl.r_27 Cert.Proof.KI.k1_t3_trip.sl.r_28 Cert.Proof.KI.k1_t3_trip.sl.r_29
        Cert.Proof.KI.k1_t3_trip.sl.r_30 Cert.Proof.KI.k1_t3_trip.sl.r_31 Cert.Proof.KI.k1_t3_trip.sl.r_32 Cert.Proof.KI.k1_t3_trip.sl.r_33 Cert.Proof.KI.k1_t3_trip.sl.r_34
        Cert.Proof.KI.k1_t3_trip.sl.r_35 Cert.Proof.KI.k1_t3_trip.sl.r_36 Cert.Proof.KI.k1_t3_trip.sl.r_37 Cert.Proof.KI.k1_t3_trip.sl.r_38 Cert.Proof.KI.k1_t3_trip.sl.r_39
        Cert.Proof.KI.k1_t3_trip.sl.r_40 Cert.Proof.KI.k1_t3_trip.sl.r_41 Cert.Proof.KI.k1_t3_trip.sl.r_42 Cert.Proof.KI.k1_t3_trip.sl.r_43 Cert.Proof.KI.k1_t3_trip.sl.r_44
        Cert.Proof.KI.k1_t3_trip.sl.r_45 Cert.Proof.KI.k1_t3_trip.sl.r_46 Cert.Proof.KI.k1_t3_trip.sl.r_47 Cert.Proof.KI.k1_t3_trip.sl.r_48 Cert.Proof.KI.k1_t3_trip.sl.r_49
        Cert.Proof.KI.k1_t3_trip.sl.r_50 Cert.Proof.KI.k1_t3_trip.sl.r_51 Cert.Proof.KI.k1_t3_trip.sl.r_52 Cert.Proof.KI.k1_t3_trip.sl.r_53 Cert.Proof.KI.k1_t3_trip.sl.r_54
        Cert.Proof.KI.k1_t3_trip.sl.r_55 Cert.Proof.KI.k1_t3_trip.sl.r_56 Cert.Proof.KI.k1_t3_trip.sl.r_57 Cert.Proof.KI.k1_t3_trip.sl.r_58 Cert.Proof.KI.k1_t3_trip.sl.r_59
        Cert.Proof.KI.k1_t3_trip.sl.r_60 Cert.Proof.KI.k1_t3_trip.sl.r_61 Cert.Proof.KI.k1_t3_trip.sl.r_62 Cert.Proof.KI.k1_t3_trip.sl.r_63 Cert.Proof.KI.k1_t3_trip.sl.r_64
        Cert.Proof.KI.k1_t3_trip.sl.r_65 Cert.Proof.KI.k1_t3_trip.sl.r_66 Cert.Proof.KI.k1_t3_trip.sl.r_67 Cert.Proof.KI.k1_t3_trip.sl.r_68 Cert.Proof.KI.k1_t3_trip.sl.r_69
        Cert.Proof.KI.k1_t3_trip.sl.r_70 Cert.Proof.KI.k1_t3_trip.sl.r_71 Cert.Proof.KI.k1_t3_trip.sl.r_72 Cert.Proof.KI.k1_t3_trip.sl.r_73 Cert.Proof.KI.k1_t3_trip.sl.r_74
        Cert.Proof.KI.k1_t3_trip.sl.r_75 Cert.Proof.KI.k1_t3_trip.sl.r_76 Cert.Proof.KI.k1_t3_trip.sl.r_77 Cert.Proof.KI.k1_t3_trip.sl.r_78 Cert.Proof.KI.k1_t3_trip.sl.r_79
        Cert.Proof.KI.k1_t3_trip.sl.r_80 Cert.Proof.KI.k1_t3_trip.sl.r_81 Cert.Proof.KI.k1_t3_trip.sl.r_82 Cert.Proof.KI.k1_t3_trip.sl.r_83 Cert.Proof.KI.k1_t3_trip.sl.r_84
        Cert.Proof.KI.k1_t3_trip.sl.r_85 Cert.Proof.KI.k1_t3_trip.sl.r_86 Cert.Proof.KI.k1_t3_trip.sl.r_87 Cert.Proof.KI.k1_t3_trip.sl.r_88 Cert.Proof.KI.k1_t3_trip.sl.r_89
        Cert.Proof.KI.k1_t3_trip.sl.r_90 Cert.Proof.KI.k1_t3_trip.sl.r_91 Cert.Proof.KI.k1_t3_trip.sl.r_92 Cert.Proof.KI.k1_t3_trip.sl.r_93 Cert.Proof.KI.k1_t3_trip.sl.r_94
        Cert.Proof.KI.k1_t3_trip.sl.r_95 Cert.Proof.KI.k1_t3_trip.sl.r_96 Cert.Proof.KI.k1_t3_trip.sl.r_97 Cert.Proof.KI.k1_t3_trip.sl.r_98 Cert.Proof.KI.k1_t3_trip.sl.r_99
        Cert.Proof.KI.k1_t3_trip.sl.r_100 Cert.Proof.KI.k1_t3_trip.sl.r_101 Cert.Proof.KI.k1_t3_trip.sl.r_102 Cert.Proof.KI.k1_t3_trip.sl.r_103 Cert.Proof.KI.k1_t3_trip.sl.r_104
        Cert.Proof.KI.k1_t3_trip.sl.r_105 Cert.Proof.KI.k1_t3_trip.sl.r_106 Cert.Proof.KI.k1_t3_trip.sl.r_107 Cert.Proof.KI.k1_t3_trip.sl.r_108 Cert.Proof.KI.k1_t3_trip.sl.r_109
        Cert.Proof.KI.k1_t3_trip.sl.r_110 Cert.Proof.KI.k1_t3_trip.sl.r_111 Cert.Proof.KI.k1_t3_trip.sl.r_112 Cert.Proof.KI.k1_t3_trip.sl.r_113 Cert.Proof.KI.k1_t3_trip.sl.r_114
        Cert.Proof.KI.k1_t3_trip.sl.r_115 Cert.Proof.KI.k1_t3_trip.sl.r_116 Cert.Proof.KI.k1_t3_trip.sl.r_117 Cert.Proof.KI.k1_t3_trip.sl.r_118 Cert.Proof.KI.k1_t3_trip.sl.r_119
        Cert.Proof.KI.k1_t3_trip.sl.r_120 Cert.Proof.KI.k1_t3_trip.sl.r_121 Cert.Proof.KI.k1_t3_trip.sl.r_122 Cert.Proof.KI.k1_t3_trip.sl.r_123 Cert.Proof.KI.k1_t3_trip.sl.r_124
        Cert.Proof.KI.k1_t3_trip.sl.r_125 Cert.Proof.KI.k1_t3_trip.sl.r_126 Cert.Proof.KI.k1_t3_trip.sl.r_127 Cert.Proof.KI.k1_t3_trip.sl.r_128 Cert.Proof.KI.k1_t3_trip.sl.r_129
        Cert.Proof.KI.k1_t3_trip.sl.r_130 Cert.Proof.KI.k1_t3_trip.sl.r_131 Cert.Proof.KI.k1_t3_trip.sl.r_132 Cert.Proof.KI.k1_t3_trip.sl.r_133 Cert.Proof.KI.k1_t3_trip.sl.r_134
        Cert.Proof.KI.k1_t3_trip.sl.r_135 Cert.Proof.KI.k1_t3_trip.sl.r_136 Cert.Proof.KI.k1_t3_trip.sl.r_137 Cert.Proof.KI.k1_t3_trip.sl.r_138 Cert.Proof.KI.k1_t3_trip.sl.r_139
        Cert.Proof.KI.k1_t3_trip.sl.r_140 Cert.Proof.KI.k1_t3_trip.sl.r_141 Cert.Proof.KI.k1_t3_trip.sl.r_142 Cert.Proof.KI.k1_t3_trip.sl.r_143 Cert.Proof.KI.k1_t3_trip.sl.r_144
        Cert.Proof.KI.k1_t3_trip.sl.r_145 Cert.Proof.KI.k1_t3_trip.sl.r_146 Cert.Proof.KI.k1_t3_trip.sl.r_147 Cert.Proof.KI.k1_t3_trip.sl.r_148 Cert.Proof.KI.k1_t3_trip.sl.r_149
        Cert.Proof.KI.k1_t3_trip.sl.r_150 Cert.Proof.KI.k1_t3_trip.sl.r_151 Cert.Proof.KI.k1_t3_trip.sl.r_152 Cert.Proof.KI.k1_t3_trip.sl.r_153 Cert.Proof.KI.k1_t3_trip.sl.r_154
        Cert.Proof.KI.k1_t3_trip.sl.r_155 Cert.Proof.KI.k1_t3_trip.sl.r_156 Cert.Proof.KI.k1_t3_trip.sl.r_157 Cert.Proof.KI.k1_t3_trip.sl.r_158 Cert.Proof.KI.k1_t3_trip.sl.r_159
        Cert.Proof.KI.k1_t3_trip.sl.r_160 Cert.Proof.KI.k1_t3_trip.sl.r_161 Cert.Proof.KI.k1_t3_trip.sl.r_162 Cert.Proof.KI.k1_t3_trip.sl.r_163 Cert.Proof.KI.k1_t3_trip.sl.r_164
        Cert.Proof.KI.k1_t3_trip.sl.r_165 Cert.Proof.KI.k1_t3_trip.sl.r_166 Cert.Proof.KI.k1_t3_trip.sl.r_167 Cert.Proof.KI.k1_t3_trip.sl.r_168 Cert.Proof.KI.k1_t3_trip.sl.r_169
        Cert.Proof.KI.k1_t3_trip.sl.r_170 Cert.Proof.KI.k1_t3_trip.sl.r_171 Cert.Proof.KI.k1_t3_trip.sl.r_172 Cert.Proof.KI.k1_t3_trip.sl.r_173 Cert.Proof.KI.k1_t3_trip.sl.r_174
        Cert.Proof.KI.k1_t3_trip.sl.r_175 Cert.Proof.KI.k1_t3_trip.sl.r_176 Cert.Proof.KI.k1_t3_trip.sl.r_177 Cert.Proof.KI.k1_t3_trip.sl.r_178 Cert.Proof.KI.k1_t3_trip.sl.r_179
        Cert.Proof.KI.k1_t3_trip.sl.r_180 Cert.Proof.KI.k1_t3_trip.sl.r_181 Cert.Proof.KI.k1_t3_trip.sl.r_182 Cert.Proof.KI.k1_t3_trip.sl.r_183 Cert.Proof.KI.k1_t3_trip.sl.r_184
        Cert.Proof.KI.k1_t3_trip.sl.r_185 Cert.Proof.KI.k1_t3_trip.sl.r_186 Cert.Proof.KI.k1_t3_trip.sl.r_187 Cert.Proof.KI.k1_t3_trip.sl.r_188 Cert.Proof.KI.k1_t3_trip.sl.r_189
        Cert.Proof.KI.k1_t3_trip.sl.r_190 Cert.Proof.KI.k1_t3_trip.sl.r_191 Cert.Proof.KI.k1_t3_trip.sl.r_192 Cert.Proof.KI.k1_t3_trip.sl.r_193 Cert.Proof.KI.k1_t3_trip.sl.r_194
        Cert.Proof.KI.k1_t3_trip.sl.r_195 Cert.Proof.KI.k1_t3_trip.sl.r_196 Cert.Proof.KI.k1_t3_trip.sl.r_197 Cert.Proof.KI.k1_t3_trip.sl.r_198 Cert.Proof.KI.k1_t3_trip.sl.r_199
        Cert.Proof.KI.k1_t3_trip.sl.r_200 Cert.Proof.KI.k1_t3_trip.sl.r_201 Cert.Proof.KI.k1_t3_trip.sl.r_202 Cert.Proof.KI.k1_t3_trip.sl.r_203 Cert.Proof.KI.k1_t3_trip.sl.r_204
        Cert.Proof.KI.k1_t3_trip.sl.r_205 Cert.Proof.KI.k1_t3_trip.sl.r_206 Cert.Proof.KI.k1_t3_trip.sl.r_207 Cert.Proof.KI.k1_t3_trip.sl.r_208 Cert.Proof.KI.k1_t3_trip.sl.r_209
        Cert.Proof.KI.k1_t3_trip.sl.r_210 Cert.Proof.KI.k1_t3_trip.sl.r_211 Cert.Proof.KI.k1_t3_trip.sl.r_212 Cert.Proof.KI.k1_t3_trip.sl.r_213 Cert.Proof.KI.k1_t3_trip.sl.r_214
        Cert.Proof.KI.k1_t3_trip.sl.r_215 Cert.Proof.KI.k1_t3_trip.sl.r_216 Cert.Proof.KI.k1_t3_trip.sl.r_217 Cert.Proof.KI.k1_t3_trip.sl.r_218 Cert.Proof.KI.k1_t3_trip.sl.r_219
        Cert.Proof.KI.k1_t3_trip.sl.r_220 Cert.Proof.KI.k1_t3_trip.sl.r_221 Cert.Proof.KI.k1_t3_trip.sl.r_222 Cert.Proof.KI.k1_t3_trip.sl.r_223 Cert.Proof.KI.k1_t3_trip.sl.r_224
        Cert.Proof.KI.k1_t3_trip.sl.r_225 Cert.Proof.KI.k1_t3_trip.sl.r_226 Cert.Proof.KI.k1_t3_trip.sl.r_227 Cert.Proof.KI.k1_t3_trip.sl.r_228 Cert.Proof.KI.k1_t3_trip.sl.r_229
        Cert.Proof.KI.k1_t3_trip.sl.r_230 Cert.Proof.KI.k1_t3_trip.sl.r_231 Cert.Proof.KI.k1_t3_trip.sl.r_232 Cert.Proof.KI.k1_t3_trip.sl.r_233 Cert.Proof.KI.k1_t3_trip.sl.r_234
        Cert.Proof.KI.k1_t3_trip.sl.r_235 Cert.Proof.KI.k1_t3_trip.sl.r_236 Cert.Proof.KI.k1_t3_trip.sl.r_237 Cert.Proof.KI.k1_t3_trip.sl.r_238 Cert.Proof.KI.k1_t3_trip.sl.r_239
        Cert.Proof.KI.k1_t3_trip.sl.r_240 Cert.Proof.KI.k1_t3_trip.sl.r_241 Cert.Proof.KI.k1_t3_trip.sl.r_242 Cert.Proof.KI.k1_t3_trip.sl.r_243 Cert.Proof.KI.k1_t3_trip.sl.r_244
        Cert.Proof.KI.k1_t3_trip.sl.r_245 Cert.Proof.KI.k1_t3_trip.sl.r_246 Cert.Proof.KI.k1_t3_trip.sl.r_247 Cert.Proof.KI.k1_t3_trip.sl.r_248 Cert.Proof.KI.k1_t3_trip.sl.r_249
        Cert.Proof.KI.k1_t3_trip.sl.r_250 Cert.Proof.KI.k1_t3_trip.sl.r_251 Cert.Proof.KI.k1_t3_trip.sl.r_252 Cert.Proof.KI.k1_t3_trip.sl.r_253 Cert.Proof.KI.k1_t3_trip.sl.r_254
        Cert.Proof.KI.k1_t3_trip.sl.r_255 Cert.Proof.KI.k1_t3_trip.sl.r_256 Cert.Proof.KI.k1_t3_trip.sl.r_257 Cert.Proof.KI.k1_t3_trip.sl.r_258 Cert.Proof.KI.k1_t3_trip.sl.r_259
        Cert.Proof.KI.k1_t3_trip.sl.r_260 Cert.Proof.KI.k1_t3_trip.sl.r_261 Cert.Proof.KI.k1_t3_trip.sl.r_262 Cert.Proof.KI.k1_t3_trip.sl.r_263 Cert.Proof.KI.k1_t3_trip.sl.r_264
        Cert.Proof.KI.k1_t3_trip.sl.r_265 Cert.Proof.KI.k1_t3_trip.sl.r_266 Cert.Proof.KI.k1_t3_trip.sl.r_267 Cert.Proof.KI.k1_t3_trip.sl.r_268 Cert.Proof.KI.k1_t3_trip.sl.r_269
        Cert.Proof.KI.k1_t3_trip.sl.r_270 Cert.Proof.KI.k1_t3_trip.sl.r_271 Cert.Proof.KI.k1_t3_trip.sl.r_272 Cert.Proof.KI.k1_t3_trip.sl.r_273 Cert.Proof.KI.k1_t3_trip.sl.r_274
        Cert.Proof.KI.k1_t3_trip.sl.r_275 Cert.Proof.KI.k1_t3_trip.sl.r_276 Cert.Proof.KI.k1_t3_trip.sl.r_277 Cert.Proof.KI.k1_t3_trip.sl.r_278 Cert.Proof.KI.k1_t3_trip.sl.r_279
        Cert.Proof.KI.k1_t3_trip.sl.r_280 Cert.Proof.KI.k1_t3_trip.sl.r_281 Cert.Proof.KI.k1_t3_trip.sl.r_282 Cert.Proof.KI.k1_t3_trip.sl.r_283 Cert.Proof.KI.k1_t3_trip.sl.r_284
        Cert.Proof.KI.k1_t3_trip.sl.r_285 Cert.Proof.KI.k1_t3_trip.sl.r_286 Cert.Proof.KI.k1_t3_trip.sl.r_287 Cert.Proof.KI.k1_t3_trip.sl.r_288 Cert.Proof.KI.k1_t3_trip.sl.r_289
        Cert.Proof.KI.k1_t3_trip.sl.r_290 Cert.Proof.KI.k1_t3_trip.sl.r_291 Cert.Proof.KI.k1_t3_trip.sl.r_292 Cert.Proof.KI.k1_t3_trip.sl.r_293 Cert.Proof.KI.k1_t3_trip.sl.r_294
        Cert.Proof.KI.k1_t3_trip.sl.r_295 Cert.Proof.KI.k1_t3_trip.sl.r_296 Cert.Proof.KI.k1_t3_trip.sl.r_297 Cert.Proof.KI.k1_t3_trip.sl.r_298 Cert.Proof.KI.k1_t3_trip.sl.r_299
        Cert.Proof.KI.k1_t3_trip.sl.r_300 Cert.Proof.KI.k1_t3_trip.sl.r_301 Cert.Proof.KI.k1_t3_trip.sl.r_302 Cert.Proof.KI.k1_t3_trip.sl.r_303 Cert.Proof.KI.k1_t3_trip.sl.r_304
        Cert.Proof.KI.k1_t3_trip.sl.r_305 Cert.Proof.KI.k1_t3_trip.sl.r_306 Cert.Proof.KI.k1_t3_trip.sl.r_307 Cert.Proof.KI.k1_t3_trip.sl.r_308 Cert.Proof.KI.k1_t3_trip.sl.r_309
        Cert.Proof.KI.k1_t3_trip.sl.r_310 Cert.Proof.KI.k1_t3_trip.sl.r_311 Cert.Proof.KI.k1_t3_trip.sl.r_312 Cert.Proof.KI.k1_t3_trip.sl.r_313 Cert.Proof.KI.k1_t3_trip.sl.r_314
        Cert.Proof.KI.k1_t3_trip.sl.r_315 Cert.Proof.KI.k1_t3_trip.sl.r_316 Cert.Proof.KI.k1_t3_trip.sl.r_317 Cert.Proof.KI.k1_t3_trip.sl.r_318
      conv_lhs => simp only [k1_pay1, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20,
        k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38,
        k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56,
        k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74,
        k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92,
        k1_pay93, k1_pay94, k1_pay95, k1_pay96, k1_pay97, k1_pay98, k1_pay99, k1_pay100, k1_pay101, k1_pay102, k1_pay103, k1_pay104, k1_pay105, k1_pay106, k1_pay107, k1_pay108, k1_pay109,
        k1_pay110, k1_pay111, k1_pay112, k1_pay113, k1_pay114, k1_pay115, k1_pay116, k1_pay117, k1_pay118, k1_pay119, k1_pay120, k1_pay121, k1_pay122, k1_pay123, k1_pay124, k1_pay125,
        k1_pay126, k1_pay127, k1_pay128, k1_pay129, k1_pay130, k1_pay131, k1_pay132, k1_pay133, k1_pay134, k1_pay135, k1_pay136, k1_pay137, k1_pay138, k1_pay139, k1_pay140, k1_pay141,
        k1_pay142, k1_pay143, k1_pay144, k1_pay145, k1_pay146, k1_pay147, k1_pay148, k1_pay149, k1_pay150, k1_pay151, k1_pay152, k1_pay153, k1_pay154, k1_pay155, k1_pay156, k1_pay157,
        k1_pay158, k1_pay159, k1_pay160, k1_pay161, k1_pay162, k1_pay163, k1_pay164, k1_pay165, k1_pay166, k1_pay167, k1_pay168, k1_pay169, k1_pay170, k1_pay171, k1_pay172, k1_pay173,
        k1_pay174, k1_pay175, k1_pay176, k1_pay177, k1_pay178, k1_pay179, k1_pay180, k1_pay181, k1_pay182, k1_pay183, k1_pay184, k1_pay185, k1_pay186, k1_pay187, k1_pay188, k1_pay189,
        k1_pay190, k1_pay191, k1_pay192, k1_pay193, k1_pay194, k1_pay195, k1_pay196, k1_pay197, k1_pay198, k1_pay199, k1_pay200, k1_pay201, k1_pay202, k1_pay203, k1_pay204, k1_pay205,
        k1_pay206, k1_pay207, k1_pay208, k1_pay209, k1_pay210, k1_pay211, k1_pay212, k1_pay213, k1_pay214, k1_pay215, k1_pay216, k1_pay217, k1_pay218, k1_pay219, k1_pay220, k1_pay221,
        k1_pay222, k1_pay223, k1_pay224, k1_pay225, k1_pay226, k1_pay227, k1_pay228, k1_pay229, k1_pay230, k1_pay231, k1_pay232, k1_pay233, k1_pay234, k1_pay235, k1_pay236, k1_pay237,
        k1_pay238, k1_pay239, k1_pay240, k1_pay241, k1_pay242, k1_pay243, k1_pay244, k1_pay245, k1_pay246, k1_pay247, k1_pay248, k1_pay249, k1_pay250, k1_pay251, k1_pay252, k1_pay253,
        k1_pay254, k1_pay255, k1_pay256, k1_pay257, k1_pay258, k1_pay259, k1_pay260, k1_pay261, k1_pay262, k1_pay263, k1_pay264, k1_pay265, k1_pay266, k1_pay267, k1_pay268, k1_pay269,
        k1_pay270, k1_pay271, k1_pay272, k1_pay273, k1_pay274, k1_pay275, k1_pay276, k1_pay277, k1_pay278, k1_pay279, k1_pay280, k1_pay281, k1_pay282, k1_pay283, k1_pay284, k1_pay285,
        k1_pay286, k1_pay287, k1_pay288, k1_pay289, k1_pay290, k1_pay291, k1_pay292, k1_pay293, k1_pay294, k1_pay295, k1_pay296, k1_pay297, k1_pay298, k1_pay299, k1_pay300, k1_pay301,
        k1_pay302, k1_pay303, k1_pay304, k1_pay305, k1_pay306, k1_pay307, k1_pay308, k1_pay309, k1_pay310, k1_pay311, k1_pay312, k1_pay313, k1_pay314, k1_pay315, k1_pay316, k1_pay317,
        k1_pay318, k1_pay319, k1_pay320, k1_pay321, k1_pay322, k1_pay323, Pure.addf_at, Pure.mulf_at, Pure.broadcast_at, Pure.lane_at, Pure.cast16_16, Pure.cast1x16_16, Pure.cast16_1x16]
      rfl
    · intro l
      show _ = Pure.acc32 (rowW fw r) (rowE fb sub (⟨112 + l.val, by have := l.isLt; omega⟩ : Fin 128))
        (g (ix2 r (⟨112 + l.val, by have := l.isLt; omega⟩ : Fin 128)))
      refine ((?_ : _ = _).trans (Pure.acc32_chain (wraw3 fw t2 t) (eraw3_7 fb t l) (graw3_7 g t2 t l))).trans
        (Pure.acc32_congr (wraw3_eq fw t2 t r hr) (eraw3_7_eq fb t sub hs l _ rfl) (graw3_7_eq g t2 t r hr l _ rfl))
      delta Cert.Proof.KI.k1_t3_trip.sl.r Cert.Proof.KI.k1_t3_trip.sl.r_1 Cert.Proof.KI.k1_t3_trip.sl.r_2 Cert.Proof.KI.k1_t3_trip.sl.r_3 Cert.Proof.KI.k1_t3_trip.sl.r_4
        Cert.Proof.KI.k1_t3_trip.sl.r_5 Cert.Proof.KI.k1_t3_trip.sl.r_6 Cert.Proof.KI.k1_t3_trip.sl.r_7 Cert.Proof.KI.k1_t3_trip.sl.r_8 Cert.Proof.KI.k1_t3_trip.sl.r_9
        Cert.Proof.KI.k1_t3_trip.sl.r_10 Cert.Proof.KI.k1_t3_trip.sl.r_11 Cert.Proof.KI.k1_t3_trip.sl.r_12 Cert.Proof.KI.k1_t3_trip.sl.r_13 Cert.Proof.KI.k1_t3_trip.sl.r_14
        Cert.Proof.KI.k1_t3_trip.sl.r_15 Cert.Proof.KI.k1_t3_trip.sl.r_16 Cert.Proof.KI.k1_t3_trip.sl.r_17 Cert.Proof.KI.k1_t3_trip.sl.r_18 Cert.Proof.KI.k1_t3_trip.sl.r_19
        Cert.Proof.KI.k1_t3_trip.sl.r_20 Cert.Proof.KI.k1_t3_trip.sl.r_21 Cert.Proof.KI.k1_t3_trip.sl.r_22 Cert.Proof.KI.k1_t3_trip.sl.r_23 Cert.Proof.KI.k1_t3_trip.sl.r_24
        Cert.Proof.KI.k1_t3_trip.sl.r_25 Cert.Proof.KI.k1_t3_trip.sl.r_26 Cert.Proof.KI.k1_t3_trip.sl.r_27 Cert.Proof.KI.k1_t3_trip.sl.r_28 Cert.Proof.KI.k1_t3_trip.sl.r_29
        Cert.Proof.KI.k1_t3_trip.sl.r_30 Cert.Proof.KI.k1_t3_trip.sl.r_31 Cert.Proof.KI.k1_t3_trip.sl.r_32 Cert.Proof.KI.k1_t3_trip.sl.r_33 Cert.Proof.KI.k1_t3_trip.sl.r_34
        Cert.Proof.KI.k1_t3_trip.sl.r_35 Cert.Proof.KI.k1_t3_trip.sl.r_36 Cert.Proof.KI.k1_t3_trip.sl.r_37 Cert.Proof.KI.k1_t3_trip.sl.r_38 Cert.Proof.KI.k1_t3_trip.sl.r_39
        Cert.Proof.KI.k1_t3_trip.sl.r_40 Cert.Proof.KI.k1_t3_trip.sl.r_41 Cert.Proof.KI.k1_t3_trip.sl.r_42 Cert.Proof.KI.k1_t3_trip.sl.r_43 Cert.Proof.KI.k1_t3_trip.sl.r_44
        Cert.Proof.KI.k1_t3_trip.sl.r_45 Cert.Proof.KI.k1_t3_trip.sl.r_46 Cert.Proof.KI.k1_t3_trip.sl.r_47 Cert.Proof.KI.k1_t3_trip.sl.r_48 Cert.Proof.KI.k1_t3_trip.sl.r_49
        Cert.Proof.KI.k1_t3_trip.sl.r_50 Cert.Proof.KI.k1_t3_trip.sl.r_51 Cert.Proof.KI.k1_t3_trip.sl.r_52 Cert.Proof.KI.k1_t3_trip.sl.r_53 Cert.Proof.KI.k1_t3_trip.sl.r_54
        Cert.Proof.KI.k1_t3_trip.sl.r_55 Cert.Proof.KI.k1_t3_trip.sl.r_56 Cert.Proof.KI.k1_t3_trip.sl.r_57 Cert.Proof.KI.k1_t3_trip.sl.r_58 Cert.Proof.KI.k1_t3_trip.sl.r_59
        Cert.Proof.KI.k1_t3_trip.sl.r_60 Cert.Proof.KI.k1_t3_trip.sl.r_61 Cert.Proof.KI.k1_t3_trip.sl.r_62 Cert.Proof.KI.k1_t3_trip.sl.r_63 Cert.Proof.KI.k1_t3_trip.sl.r_64
        Cert.Proof.KI.k1_t3_trip.sl.r_65 Cert.Proof.KI.k1_t3_trip.sl.r_66 Cert.Proof.KI.k1_t3_trip.sl.r_67 Cert.Proof.KI.k1_t3_trip.sl.r_68 Cert.Proof.KI.k1_t3_trip.sl.r_69
        Cert.Proof.KI.k1_t3_trip.sl.r_70 Cert.Proof.KI.k1_t3_trip.sl.r_71 Cert.Proof.KI.k1_t3_trip.sl.r_72 Cert.Proof.KI.k1_t3_trip.sl.r_73 Cert.Proof.KI.k1_t3_trip.sl.r_74
        Cert.Proof.KI.k1_t3_trip.sl.r_75 Cert.Proof.KI.k1_t3_trip.sl.r_76 Cert.Proof.KI.k1_t3_trip.sl.r_77 Cert.Proof.KI.k1_t3_trip.sl.r_78 Cert.Proof.KI.k1_t3_trip.sl.r_79
        Cert.Proof.KI.k1_t3_trip.sl.r_80 Cert.Proof.KI.k1_t3_trip.sl.r_81 Cert.Proof.KI.k1_t3_trip.sl.r_82 Cert.Proof.KI.k1_t3_trip.sl.r_83 Cert.Proof.KI.k1_t3_trip.sl.r_84
        Cert.Proof.KI.k1_t3_trip.sl.r_85 Cert.Proof.KI.k1_t3_trip.sl.r_86 Cert.Proof.KI.k1_t3_trip.sl.r_87 Cert.Proof.KI.k1_t3_trip.sl.r_88 Cert.Proof.KI.k1_t3_trip.sl.r_89
        Cert.Proof.KI.k1_t3_trip.sl.r_90 Cert.Proof.KI.k1_t3_trip.sl.r_91 Cert.Proof.KI.k1_t3_trip.sl.r_92 Cert.Proof.KI.k1_t3_trip.sl.r_93 Cert.Proof.KI.k1_t3_trip.sl.r_94
        Cert.Proof.KI.k1_t3_trip.sl.r_95 Cert.Proof.KI.k1_t3_trip.sl.r_96 Cert.Proof.KI.k1_t3_trip.sl.r_97 Cert.Proof.KI.k1_t3_trip.sl.r_98 Cert.Proof.KI.k1_t3_trip.sl.r_99
        Cert.Proof.KI.k1_t3_trip.sl.r_100 Cert.Proof.KI.k1_t3_trip.sl.r_101 Cert.Proof.KI.k1_t3_trip.sl.r_102 Cert.Proof.KI.k1_t3_trip.sl.r_103 Cert.Proof.KI.k1_t3_trip.sl.r_104
        Cert.Proof.KI.k1_t3_trip.sl.r_105 Cert.Proof.KI.k1_t3_trip.sl.r_106 Cert.Proof.KI.k1_t3_trip.sl.r_107 Cert.Proof.KI.k1_t3_trip.sl.r_108 Cert.Proof.KI.k1_t3_trip.sl.r_109
        Cert.Proof.KI.k1_t3_trip.sl.r_110 Cert.Proof.KI.k1_t3_trip.sl.r_111 Cert.Proof.KI.k1_t3_trip.sl.r_112 Cert.Proof.KI.k1_t3_trip.sl.r_113 Cert.Proof.KI.k1_t3_trip.sl.r_114
        Cert.Proof.KI.k1_t3_trip.sl.r_115 Cert.Proof.KI.k1_t3_trip.sl.r_116 Cert.Proof.KI.k1_t3_trip.sl.r_117 Cert.Proof.KI.k1_t3_trip.sl.r_118 Cert.Proof.KI.k1_t3_trip.sl.r_119
        Cert.Proof.KI.k1_t3_trip.sl.r_120 Cert.Proof.KI.k1_t3_trip.sl.r_121 Cert.Proof.KI.k1_t3_trip.sl.r_122 Cert.Proof.KI.k1_t3_trip.sl.r_123 Cert.Proof.KI.k1_t3_trip.sl.r_124
        Cert.Proof.KI.k1_t3_trip.sl.r_125 Cert.Proof.KI.k1_t3_trip.sl.r_126 Cert.Proof.KI.k1_t3_trip.sl.r_127 Cert.Proof.KI.k1_t3_trip.sl.r_128 Cert.Proof.KI.k1_t3_trip.sl.r_129
        Cert.Proof.KI.k1_t3_trip.sl.r_130 Cert.Proof.KI.k1_t3_trip.sl.r_131 Cert.Proof.KI.k1_t3_trip.sl.r_132 Cert.Proof.KI.k1_t3_trip.sl.r_133 Cert.Proof.KI.k1_t3_trip.sl.r_134
        Cert.Proof.KI.k1_t3_trip.sl.r_135 Cert.Proof.KI.k1_t3_trip.sl.r_136 Cert.Proof.KI.k1_t3_trip.sl.r_137 Cert.Proof.KI.k1_t3_trip.sl.r_138 Cert.Proof.KI.k1_t3_trip.sl.r_139
        Cert.Proof.KI.k1_t3_trip.sl.r_140 Cert.Proof.KI.k1_t3_trip.sl.r_141 Cert.Proof.KI.k1_t3_trip.sl.r_142 Cert.Proof.KI.k1_t3_trip.sl.r_143 Cert.Proof.KI.k1_t3_trip.sl.r_144
        Cert.Proof.KI.k1_t3_trip.sl.r_145 Cert.Proof.KI.k1_t3_trip.sl.r_146 Cert.Proof.KI.k1_t3_trip.sl.r_147 Cert.Proof.KI.k1_t3_trip.sl.r_148 Cert.Proof.KI.k1_t3_trip.sl.r_149
        Cert.Proof.KI.k1_t3_trip.sl.r_150 Cert.Proof.KI.k1_t3_trip.sl.r_151 Cert.Proof.KI.k1_t3_trip.sl.r_152 Cert.Proof.KI.k1_t3_trip.sl.r_153 Cert.Proof.KI.k1_t3_trip.sl.r_154
        Cert.Proof.KI.k1_t3_trip.sl.r_155 Cert.Proof.KI.k1_t3_trip.sl.r_156 Cert.Proof.KI.k1_t3_trip.sl.r_157 Cert.Proof.KI.k1_t3_trip.sl.r_158 Cert.Proof.KI.k1_t3_trip.sl.r_159
        Cert.Proof.KI.k1_t3_trip.sl.r_160 Cert.Proof.KI.k1_t3_trip.sl.r_161 Cert.Proof.KI.k1_t3_trip.sl.r_162 Cert.Proof.KI.k1_t3_trip.sl.r_163 Cert.Proof.KI.k1_t3_trip.sl.r_164
        Cert.Proof.KI.k1_t3_trip.sl.r_165 Cert.Proof.KI.k1_t3_trip.sl.r_166 Cert.Proof.KI.k1_t3_trip.sl.r_167 Cert.Proof.KI.k1_t3_trip.sl.r_168 Cert.Proof.KI.k1_t3_trip.sl.r_169
        Cert.Proof.KI.k1_t3_trip.sl.r_170 Cert.Proof.KI.k1_t3_trip.sl.r_171 Cert.Proof.KI.k1_t3_trip.sl.r_172 Cert.Proof.KI.k1_t3_trip.sl.r_173 Cert.Proof.KI.k1_t3_trip.sl.r_174
        Cert.Proof.KI.k1_t3_trip.sl.r_175 Cert.Proof.KI.k1_t3_trip.sl.r_176 Cert.Proof.KI.k1_t3_trip.sl.r_177 Cert.Proof.KI.k1_t3_trip.sl.r_178 Cert.Proof.KI.k1_t3_trip.sl.r_179
        Cert.Proof.KI.k1_t3_trip.sl.r_180 Cert.Proof.KI.k1_t3_trip.sl.r_181 Cert.Proof.KI.k1_t3_trip.sl.r_182 Cert.Proof.KI.k1_t3_trip.sl.r_183 Cert.Proof.KI.k1_t3_trip.sl.r_184
        Cert.Proof.KI.k1_t3_trip.sl.r_185 Cert.Proof.KI.k1_t3_trip.sl.r_186 Cert.Proof.KI.k1_t3_trip.sl.r_187 Cert.Proof.KI.k1_t3_trip.sl.r_188 Cert.Proof.KI.k1_t3_trip.sl.r_189
        Cert.Proof.KI.k1_t3_trip.sl.r_190 Cert.Proof.KI.k1_t3_trip.sl.r_191 Cert.Proof.KI.k1_t3_trip.sl.r_192 Cert.Proof.KI.k1_t3_trip.sl.r_193 Cert.Proof.KI.k1_t3_trip.sl.r_194
        Cert.Proof.KI.k1_t3_trip.sl.r_195 Cert.Proof.KI.k1_t3_trip.sl.r_196 Cert.Proof.KI.k1_t3_trip.sl.r_197 Cert.Proof.KI.k1_t3_trip.sl.r_198 Cert.Proof.KI.k1_t3_trip.sl.r_199
        Cert.Proof.KI.k1_t3_trip.sl.r_200 Cert.Proof.KI.k1_t3_trip.sl.r_201 Cert.Proof.KI.k1_t3_trip.sl.r_202 Cert.Proof.KI.k1_t3_trip.sl.r_203 Cert.Proof.KI.k1_t3_trip.sl.r_204
        Cert.Proof.KI.k1_t3_trip.sl.r_205 Cert.Proof.KI.k1_t3_trip.sl.r_206 Cert.Proof.KI.k1_t3_trip.sl.r_207 Cert.Proof.KI.k1_t3_trip.sl.r_208 Cert.Proof.KI.k1_t3_trip.sl.r_209
        Cert.Proof.KI.k1_t3_trip.sl.r_210 Cert.Proof.KI.k1_t3_trip.sl.r_211 Cert.Proof.KI.k1_t3_trip.sl.r_212 Cert.Proof.KI.k1_t3_trip.sl.r_213 Cert.Proof.KI.k1_t3_trip.sl.r_214
        Cert.Proof.KI.k1_t3_trip.sl.r_215 Cert.Proof.KI.k1_t3_trip.sl.r_216 Cert.Proof.KI.k1_t3_trip.sl.r_217 Cert.Proof.KI.k1_t3_trip.sl.r_218 Cert.Proof.KI.k1_t3_trip.sl.r_219
        Cert.Proof.KI.k1_t3_trip.sl.r_220 Cert.Proof.KI.k1_t3_trip.sl.r_221 Cert.Proof.KI.k1_t3_trip.sl.r_222 Cert.Proof.KI.k1_t3_trip.sl.r_223 Cert.Proof.KI.k1_t3_trip.sl.r_224
        Cert.Proof.KI.k1_t3_trip.sl.r_225 Cert.Proof.KI.k1_t3_trip.sl.r_226 Cert.Proof.KI.k1_t3_trip.sl.r_227 Cert.Proof.KI.k1_t3_trip.sl.r_228 Cert.Proof.KI.k1_t3_trip.sl.r_229
        Cert.Proof.KI.k1_t3_trip.sl.r_230 Cert.Proof.KI.k1_t3_trip.sl.r_231 Cert.Proof.KI.k1_t3_trip.sl.r_232 Cert.Proof.KI.k1_t3_trip.sl.r_233 Cert.Proof.KI.k1_t3_trip.sl.r_234
        Cert.Proof.KI.k1_t3_trip.sl.r_235 Cert.Proof.KI.k1_t3_trip.sl.r_236 Cert.Proof.KI.k1_t3_trip.sl.r_237 Cert.Proof.KI.k1_t3_trip.sl.r_238 Cert.Proof.KI.k1_t3_trip.sl.r_239
        Cert.Proof.KI.k1_t3_trip.sl.r_240 Cert.Proof.KI.k1_t3_trip.sl.r_241 Cert.Proof.KI.k1_t3_trip.sl.r_242 Cert.Proof.KI.k1_t3_trip.sl.r_243 Cert.Proof.KI.k1_t3_trip.sl.r_244
        Cert.Proof.KI.k1_t3_trip.sl.r_245 Cert.Proof.KI.k1_t3_trip.sl.r_246 Cert.Proof.KI.k1_t3_trip.sl.r_247 Cert.Proof.KI.k1_t3_trip.sl.r_248 Cert.Proof.KI.k1_t3_trip.sl.r_249
        Cert.Proof.KI.k1_t3_trip.sl.r_250 Cert.Proof.KI.k1_t3_trip.sl.r_251 Cert.Proof.KI.k1_t3_trip.sl.r_252 Cert.Proof.KI.k1_t3_trip.sl.r_253 Cert.Proof.KI.k1_t3_trip.sl.r_254
        Cert.Proof.KI.k1_t3_trip.sl.r_255 Cert.Proof.KI.k1_t3_trip.sl.r_256 Cert.Proof.KI.k1_t3_trip.sl.r_257 Cert.Proof.KI.k1_t3_trip.sl.r_258 Cert.Proof.KI.k1_t3_trip.sl.r_259
        Cert.Proof.KI.k1_t3_trip.sl.r_260 Cert.Proof.KI.k1_t3_trip.sl.r_261 Cert.Proof.KI.k1_t3_trip.sl.r_262 Cert.Proof.KI.k1_t3_trip.sl.r_263 Cert.Proof.KI.k1_t3_trip.sl.r_264
        Cert.Proof.KI.k1_t3_trip.sl.r_265 Cert.Proof.KI.k1_t3_trip.sl.r_266 Cert.Proof.KI.k1_t3_trip.sl.r_267 Cert.Proof.KI.k1_t3_trip.sl.r_268 Cert.Proof.KI.k1_t3_trip.sl.r_269
        Cert.Proof.KI.k1_t3_trip.sl.r_270 Cert.Proof.KI.k1_t3_trip.sl.r_271 Cert.Proof.KI.k1_t3_trip.sl.r_272 Cert.Proof.KI.k1_t3_trip.sl.r_273 Cert.Proof.KI.k1_t3_trip.sl.r_274
        Cert.Proof.KI.k1_t3_trip.sl.r_275 Cert.Proof.KI.k1_t3_trip.sl.r_276 Cert.Proof.KI.k1_t3_trip.sl.r_277 Cert.Proof.KI.k1_t3_trip.sl.r_278 Cert.Proof.KI.k1_t3_trip.sl.r_279
        Cert.Proof.KI.k1_t3_trip.sl.r_280 Cert.Proof.KI.k1_t3_trip.sl.r_281 Cert.Proof.KI.k1_t3_trip.sl.r_282 Cert.Proof.KI.k1_t3_trip.sl.r_283 Cert.Proof.KI.k1_t3_trip.sl.r_284
        Cert.Proof.KI.k1_t3_trip.sl.r_285 Cert.Proof.KI.k1_t3_trip.sl.r_286 Cert.Proof.KI.k1_t3_trip.sl.r_287 Cert.Proof.KI.k1_t3_trip.sl.r_288 Cert.Proof.KI.k1_t3_trip.sl.r_289
        Cert.Proof.KI.k1_t3_trip.sl.r_290 Cert.Proof.KI.k1_t3_trip.sl.r_291 Cert.Proof.KI.k1_t3_trip.sl.r_292 Cert.Proof.KI.k1_t3_trip.sl.r_293 Cert.Proof.KI.k1_t3_trip.sl.r_294
        Cert.Proof.KI.k1_t3_trip.sl.r_295 Cert.Proof.KI.k1_t3_trip.sl.r_296 Cert.Proof.KI.k1_t3_trip.sl.r_297 Cert.Proof.KI.k1_t3_trip.sl.r_298 Cert.Proof.KI.k1_t3_trip.sl.r_299
        Cert.Proof.KI.k1_t3_trip.sl.r_300 Cert.Proof.KI.k1_t3_trip.sl.r_301 Cert.Proof.KI.k1_t3_trip.sl.r_302 Cert.Proof.KI.k1_t3_trip.sl.r_303 Cert.Proof.KI.k1_t3_trip.sl.r_304
        Cert.Proof.KI.k1_t3_trip.sl.r_305 Cert.Proof.KI.k1_t3_trip.sl.r_306 Cert.Proof.KI.k1_t3_trip.sl.r_307 Cert.Proof.KI.k1_t3_trip.sl.r_308 Cert.Proof.KI.k1_t3_trip.sl.r_309
        Cert.Proof.KI.k1_t3_trip.sl.r_310 Cert.Proof.KI.k1_t3_trip.sl.r_311 Cert.Proof.KI.k1_t3_trip.sl.r_312 Cert.Proof.KI.k1_t3_trip.sl.r_313 Cert.Proof.KI.k1_t3_trip.sl.r_314
        Cert.Proof.KI.k1_t3_trip.sl.r_315 Cert.Proof.KI.k1_t3_trip.sl.r_316 Cert.Proof.KI.k1_t3_trip.sl.r_317 Cert.Proof.KI.k1_t3_trip.sl.r_318
      conv_lhs => simp only [k1_pay1, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20,
        k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38,
        k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56,
        k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74,
        k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92,
        k1_pay93, k1_pay94, k1_pay95, k1_pay96, k1_pay97, k1_pay98, k1_pay99, k1_pay100, k1_pay101, k1_pay102, k1_pay103, k1_pay104, k1_pay105, k1_pay106, k1_pay107, k1_pay108, k1_pay109,
        k1_pay110, k1_pay111, k1_pay112, k1_pay113, k1_pay114, k1_pay115, k1_pay116, k1_pay117, k1_pay118, k1_pay119, k1_pay120, k1_pay121, k1_pay122, k1_pay123, k1_pay124, k1_pay125,
        k1_pay126, k1_pay127, k1_pay128, k1_pay129, k1_pay130, k1_pay131, k1_pay132, k1_pay133, k1_pay134, k1_pay135, k1_pay136, k1_pay137, k1_pay138, k1_pay139, k1_pay140, k1_pay141,
        k1_pay142, k1_pay143, k1_pay144, k1_pay145, k1_pay146, k1_pay147, k1_pay148, k1_pay149, k1_pay150, k1_pay151, k1_pay152, k1_pay153, k1_pay154, k1_pay155, k1_pay156, k1_pay157,
        k1_pay158, k1_pay159, k1_pay160, k1_pay161, k1_pay162, k1_pay163, k1_pay164, k1_pay165, k1_pay166, k1_pay167, k1_pay168, k1_pay169, k1_pay170, k1_pay171, k1_pay172, k1_pay173,
        k1_pay174, k1_pay175, k1_pay176, k1_pay177, k1_pay178, k1_pay179, k1_pay180, k1_pay181, k1_pay182, k1_pay183, k1_pay184, k1_pay185, k1_pay186, k1_pay187, k1_pay188, k1_pay189,
        k1_pay190, k1_pay191, k1_pay192, k1_pay193, k1_pay194, k1_pay195, k1_pay196, k1_pay197, k1_pay198, k1_pay199, k1_pay200, k1_pay201, k1_pay202, k1_pay203, k1_pay204, k1_pay205,
        k1_pay206, k1_pay207, k1_pay208, k1_pay209, k1_pay210, k1_pay211, k1_pay212, k1_pay213, k1_pay214, k1_pay215, k1_pay216, k1_pay217, k1_pay218, k1_pay219, k1_pay220, k1_pay221,
        k1_pay222, k1_pay223, k1_pay224, k1_pay225, k1_pay226, k1_pay227, k1_pay228, k1_pay229, k1_pay230, k1_pay231, k1_pay232, k1_pay233, k1_pay234, k1_pay235, k1_pay236, k1_pay237,
        k1_pay238, k1_pay239, k1_pay240, k1_pay241, k1_pay242, k1_pay243, k1_pay244, k1_pay245, k1_pay246, k1_pay247, k1_pay248, k1_pay249, k1_pay250, k1_pay251, k1_pay252, k1_pay253,
        k1_pay254, k1_pay255, k1_pay256, k1_pay257, k1_pay258, k1_pay259, k1_pay260, k1_pay261, k1_pay262, k1_pay263, k1_pay264, k1_pay265, k1_pay266, k1_pay267, k1_pay268, k1_pay269,
        k1_pay270, k1_pay271, k1_pay272, k1_pay273, k1_pay274, k1_pay275, k1_pay276, k1_pay277, k1_pay278, k1_pay279, k1_pay280, k1_pay281, k1_pay282, k1_pay283, k1_pay284, k1_pay285,
        k1_pay286, k1_pay287, k1_pay288, k1_pay289, k1_pay290, k1_pay291, k1_pay292, k1_pay293, k1_pay294, k1_pay295, k1_pay296, k1_pay297, k1_pay298, k1_pay299, k1_pay300, k1_pay301,
        k1_pay302, k1_pay303, k1_pay304, k1_pay305, k1_pay306, k1_pay307, k1_pay308, k1_pay309, k1_pay310, k1_pay311, k1_pay312, k1_pay313, k1_pay314, k1_pay315, k1_pay316, k1_pay317,
        k1_pay318, k1_pay319, k1_pay320, k1_pay321, k1_pay322, k1_pay323, Pure.addf_at, Pure.mulf_at, Pure.broadcast_at, Pure.lane_at, Pure.cast16_16, Pure.cast1x16_16, Pure.cast16_1x16]
      rfl
  isplitl [Hb]
  · iexact Hb
  · iexact Hw

set_option maxHeartbeats 1000000 in
/-- The item loop over a trip count `n` known to be the loop's: after it the chunk's `n` rows are done. -/
theorem k1_t3_run_n (t2 : Fin k1_t2_loop.trips) (fw : S8192.Idx → F .f32) (fb : S128x128.Idx → F .f32) (fo : S256x128.Idx → F .f32)
    (n : ℕ) (hn : k1_t3_loop.trips = n) :
    iprop(outPts d L fo ∗ buf0Pts d L fb ∗ awvPts d L fw)
      ⊢ wp frame (wpE (defs₀ (F := F)) 𝒱₀ (thrV d L) none) Set.univ
          (Scf.Loop.for k1_t3_loop k1_t3_ok ⟨⟩ (k1_t3_body L ieV (Memref.isWhole_whole _) awV (Memref.isWhole_whole _) embV (Memref.isWhole_whole _) resV (Memref.isWhole_whole _) idxV (Memref.isWhole_whole _) awvV (Memref.isWhole_whole _) buf0V (Memref.isWhole_whole _) buf1V (Memref.isWhole_whole _) outV (Memref.isWhole_whole _) cc1_scratch5 cc1_scratch6 cc1_scoped0 cc1_scoped1 cc1_scoped2 cc1_scoped3 t2 (Scalar.muli (Scf.iv 0#32 1#32 t2) 2#32)))
          fun _ => iprop(outPts d L (outAfter fw fb fo (2 * t2.val) n) ∗ buf0Pts d L fb ∗ awvPts d L fw) := by
  subst hn
  have ht2 : t2.val < 32 := lt_of_lt_of_eq t2.isLt trips2
  iintro ⟨Ho, Hb, Hw⟩
  sl_for (fun (k : ℕ) (_ : Unit) => iprop(outPts d L (outAfter fw fb fo (2 * t2.val) k) ∗ buf0Pts d L fb ∗ awvPts d L fw)) $$ [Ho Hb Hw]
  case region =>
    intro k acc
    have hk : k.val < 4 := lt_of_lt_of_eq k.isLt trips3
    have h := k1_t3_trip d L t2 (Scalar.muli (Scf.iv 0#32 1#32 t2) 2#32) k fw fb (outAfter fw fb fo (2 * t2.val) k.val)
      (⟨8 * t2.val + k.val, by omega⟩ : Fin 256) rfl (⟨k.val, hk⟩ : Fin 4) rfl
    rw [rowStep_outAfter fw fb fo (2 * t2.val) (⟨k.val, hk⟩ : Fin 4) (⟨8 * t2.val + k.val, by omega⟩ : Fin 256)
      (by show 8 * t2.val + k.val = 4 * (2 * t2.val) + k.val; omega)] at h
    exact h
  · isplitl [Ho Hb Hw]
    · rw [outAfter_zero]
      isplitl [Ho]
      · iexact Ho
      isplitl [Hb]
      · iexact Hb
      · iexact Hw
    · iintro %acc HI
      iexact HI

/-- The item loop: the chunk's four rows of the accumulator are updated, the gather buffer and the weights kept. -/
theorem k1_t3_run (t2 : Fin k1_t2_loop.trips) (fw : S8192.Idx → F .f32) (fb : S128x128.Idx → F .f32) (fo : S256x128.Idx → F .f32) :
    iprop(outPts d L fo ∗ buf0Pts d L fb ∗ awvPts d L fw)
      ⊢ wp frame (wpE (defs₀ (F := F)) 𝒱₀ (thrV d L) none) Set.univ
          (Scf.Loop.for k1_t3_loop k1_t3_ok ⟨⟩ (k1_t3_body L ieV (Memref.isWhole_whole _) awV (Memref.isWhole_whole _) embV (Memref.isWhole_whole _) resV (Memref.isWhole_whole _) idxV (Memref.isWhole_whole _) awvV (Memref.isWhole_whole _) buf0V (Memref.isWhole_whole _) buf1V (Memref.isWhole_whole _) outV (Memref.isWhole_whole _) cc1_scratch5 cc1_scratch6 cc1_scoped0 cc1_scoped1 cc1_scoped2 cc1_scoped3 t2 (Scalar.muli (Scf.iv 0#32 1#32 t2) 2#32)))
          fun _ => iprop(outPts d L (outAfter fw fb fo (2 * t2.val) 4) ∗ buf0Pts d L fb ∗ awvPts d L fw) :=
  k1_t3_run_n d L t2 fw fb fo 4 trips3

end Cert.Proof.KI

end
-- ==== Proof.KIItem4.lean ====
/-
  The second item loop of a chunk pair: each of its four trips loads one item's thirty-two weights and the eight lane
  groups of the item's row of the accumulator, multiplies and adds the thirty-two gathered rows of the second gather
  buffer lane group by lane group, and stores the row back.  One trip is run once at a symbolic trip; what it stores
  is read lane by lane as the left-to-right accumulation; the loop is the four rows of the chunk.
-/
import proofs.«203743_g50225347559739_cont_8to1c4_743_14_alg».proof.Proof.KICommon
import proofs.«203743_g50225347559739_cont_8to1c4_743_14_alg».proof.Proof.Gen.KernelIdeal.Skeleton
import proofs.«203743_g50225347559739_cont_8to1c4_743_14_alg».proof.Proof.KITileDefs
import proofs.«203743_g50225347559739_cont_8to1c4_743_14_alg».proof.Proof.KIItemReads

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx

variable (d : Dev nD) (L : grid1.Coords)
variable [FloatOps F]

set_option maxHeartbeats 4000000 in
/-- One trip of the item loop: row `r` of the accumulator becomes its accumulation with the item's thirty-two gathered
    rows, every other entry and the two buffers read are kept. -/
theorem k1_t4_trip (t2 : Fin k1_t2_loop.trips) (v12 : BitVec 32) (t : Fin k1_t4_loop.trips)
    (fw : S8192.Idx → F .f32) (fb : S128x128.Idx → F .f32) (g : S256x128.Idx → F .f32)
    (r : Fin 256) (hr : r.val = 8 * t2.val + t.val + 4) (sub : Fin 4) (hs : sub.val = t.val) :
    iprop(outPts d L g ∗ buf1Pts d L fb ∗ awvPts d L fw)
      ⊢ wp frame (wpE (defs₀ (F := F)) 𝒱₀ (thrV d L) none) Set.univ
          (k1_t4_body L ieV (Memref.isWhole_whole _) awV (Memref.isWhole_whole _) embV (Memref.isWhole_whole _) resV (Memref.isWhole_whole _) idxV (Memref.isWhole_whole _) awvV (Memref.isWhole_whole _) buf0V (Memref.isWhole_whole _) buf1V (Memref.isWhole_whole _) outV (Memref.isWhole_whole _) cc1_scratch5 cc1_scratch6 cc1_scoped0 cc1_scoped1 cc1_scoped2 cc1_scoped3 t2 v12 t ())
          fun _ => iprop(outPts d L (rowStep fw fb g r sub) ∗ buf1Pts d L fb ∗ awvPts d L fw) := by
  unfold k1_t4_body
  iintro ⟨Ho, Hb, Hw⟩
  sl_exec_parts
  sl_step
  isplitl [Ho]
  · iapply (Entails.of_eq (pointsTo_congr fun i hi => ?_)) $$ Ho
    refine read_writes8 g r _ _ _ _ _ _ _ _ _ _ _ _ _ _ _ _ _ _ _ _ _ _ _ _
      (by rw [hr]; exact k1_off33_eq t2 t) (by rw [hr]; exact k1_off32_eq t2 t) (by rw [hr]; exact k1_off31_eq t2 t) (by rw [hr]; exact k1_off30_eq t2 t) (by rw [hr]; exact k1_off29_eq t2 t) (by rw [hr]; exact k1_off28_eq t2 t) (by rw [hr]; exact k1_off27_eq t2 t) (by rw [hr]; exact k1_off26_eq t2 t)
      (fun y => Pure.acc32 (rowW fw r) (rowE fb sub (y 1)) (g y)) ?_ ?_ ?_ ?_ ?_ ?_ ?_ ?_ i
    · intro l
      show _ = Pure.acc32 (rowW fw r) (rowE fb sub (⟨0 + l.val, by have := l.isLt; omega⟩ : Fin 128))
        (g (ix2 r (⟨0 + l.val, by have := l.isLt; omega⟩ : Fin 128)))
      refine ((?_ : _ = _).trans (Pure.acc32_chain (wraw4 fw t2 t) (eraw4_0 fb t l) (graw4_0 g t2 t l))).trans
        (Pure.acc32_congr (wraw4_eq fw t2 t r hr) (eraw4_0_eq fb t sub hs l _ rfl) (graw4_0_eq g t2 t r hr l _ rfl))
      delta Cert.Proof.KI.k1_t4_trip.sl.r Cert.Proof.KI.k1_t4_trip.sl.r_1 Cert.Proof.KI.k1_t4_trip.sl.r_2 Cert.Proof.KI.k1_t4_trip.sl.r_3 Cert.Proof.KI.k1_t4_trip.sl.r_4
        Cert.Proof.KI.k1_t4_trip.sl.r_5 Cert.Proof.KI.k1_t4_trip.sl.r_6 Cert.Proof.KI.k1_t4_trip.sl.r_7 Cert.Proof.KI.k1_t4_trip.sl.r_8 Cert.Proof.KI.k1_t4_trip.sl.r_9
        Cert.Proof.KI.k1_t4_trip.sl.r_10 Cert.Proof.KI.k1_t4_trip.sl.r_11 Cert.Proof.KI.k1_t4_trip.sl.r_12 Cert.Proof.KI.k1_t4_trip.sl.r_13 Cert.Proof.KI.k1_t4_trip.sl.r_14
        Cert.Proof.KI.k1_t4_trip.sl.r_15 Cert.Proof.KI.k1_t4_trip.sl.r_16 Cert.Proof.KI.k1_t4_trip.sl.r_17 Cert.Proof.KI.k1_t4_trip.sl.r_18 Cert.Proof.KI.k1_t4_trip.sl.r_19
        Cert.Proof.KI.k1_t4_trip.sl.r_20 Cert.Proof.KI.k1_t4_trip.sl.r_21 Cert.Proof.KI.k1_t4_trip.sl.r_22 Cert.Proof.KI.k1_t4_trip.sl.r_23 Cert.Proof.KI.k1_t4_trip.sl.r_24
        Cert.Proof.KI.k1_t4_trip.sl.r_25 Cert.Proof.KI.k1_t4_trip.sl.r_26 Cert.Proof.KI.k1_t4_trip.sl.r_27 Cert.Proof.KI.k1_t4_trip.sl.r_28 Cert.Proof.KI.k1_t4_trip.sl.r_29
        Cert.Proof.KI.k1_t4_trip.sl.r_30 Cert.Proof.KI.k1_t4_trip.sl.r_31 Cert.Proof.KI.k1_t4_trip.sl.r_32 Cert.Proof.KI.k1_t4_trip.sl.r_33 Cert.Proof.KI.k1_t4_trip.sl.r_34
        Cert.Proof.KI.k1_t4_trip.sl.r_35 Cert.Proof.KI.k1_t4_trip.sl.r_36 Cert.Proof.KI.k1_t4_trip.sl.r_37 Cert.Proof.KI.k1_t4_trip.sl.r_38 Cert.Proof.KI.k1_t4_trip.sl.r_39
        Cert.Proof.KI.k1_t4_trip.sl.r_40 Cert.Proof.KI.k1_t4_trip.sl.r_41 Cert.Proof.KI.k1_t4_trip.sl.r_42 Cert.Proof.KI.k1_t4_trip.sl.r_43 Cert.Proof.KI.k1_t4_trip.sl.r_44
        Cert.Proof.KI.k1_t4_trip.sl.r_45 Cert.Proof.KI.k1_t4_trip.sl.r_46 Cert.Proof.KI.k1_t4_trip.sl.r_47 Cert.Proof.KI.k1_t4_trip.sl.r_48 Cert.Proof.KI.k1_t4_trip.sl.r_49
        Cert.Proof.KI.k1_t4_trip.sl.r_50 Cert.Proof.KI.k1_t4_trip.sl.r_51 Cert.Proof.KI.k1_t4_trip.sl.r_52 Cert.Proof.KI.k1_t4_trip.sl.r_53 Cert.Proof.KI.k1_t4_trip.sl.r_54
        Cert.Proof.KI.k1_t4_trip.sl.r_55 Cert.Proof.KI.k1_t4_trip.sl.r_56 Cert.Proof.KI.k1_t4_trip.sl.r_57 Cert.Proof.KI.k1_t4_trip.sl.r_58 Cert.Proof.KI.k1_t4_trip.sl.r_59
        Cert.Proof.KI.k1_t4_trip.sl.r_60 Cert.Proof.KI.k1_t4_trip.sl.r_61 Cert.Proof.KI.k1_t4_trip.sl.r_62 Cert.Proof.KI.k1_t4_trip.sl.r_63 Cert.Proof.KI.k1_t4_trip.sl.r_64
        Cert.Proof.KI.k1_t4_trip.sl.r_65 Cert.Proof.KI.k1_t4_trip.sl.r_66 Cert.Proof.KI.k1_t4_trip.sl.r_67 Cert.Proof.KI.k1_t4_trip.sl.r_68 Cert.Proof.KI.k1_t4_trip.sl.r_69
        Cert.Proof.KI.k1_t4_trip.sl.r_70 Cert.Proof.KI.k1_t4_trip.sl.r_71 Cert.Proof.KI.k1_t4_trip.sl.r_72 Cert.Proof.KI.k1_t4_trip.sl.r_73 Cert.Proof.KI.k1_t4_trip.sl.r_74
        Cert.Proof.KI.k1_t4_trip.sl.r_75 Cert.Proof.KI.k1_t4_trip.sl.r_76 Cert.Proof.KI.k1_t4_trip.sl.r_77 Cert.Proof.KI.k1_t4_trip.sl.r_78 Cert.Proof.KI.k1_t4_trip.sl.r_79
        Cert.Proof.KI.k1_t4_trip.sl.r_80 Cert.Proof.KI.k1_t4_trip.sl.r_81 Cert.Proof.KI.k1_t4_trip.sl.r_82 Cert.Proof.KI.k1_t4_trip.sl.r_83 Cert.Proof.KI.k1_t4_trip.sl.r_84
        Cert.Proof.KI.k1_t4_trip.sl.r_85 Cert.Proof.KI.k1_t4_trip.sl.r_86 Cert.Proof.KI.k1_t4_trip.sl.r_87 Cert.Proof.KI.k1_t4_trip.sl.r_88 Cert.Proof.KI.k1_t4_trip.sl.r_89
        Cert.Proof.KI.k1_t4_trip.sl.r_90 Cert.Proof.KI.k1_t4_trip.sl.r_91 Cert.Proof.KI.k1_t4_trip.sl.r_92 Cert.Proof.KI.k1_t4_trip.sl.r_93 Cert.Proof.KI.k1_t4_trip.sl.r_94
        Cert.Proof.KI.k1_t4_trip.sl.r_95 Cert.Proof.KI.k1_t4_trip.sl.r_96 Cert.Proof.KI.k1_t4_trip.sl.r_97 Cert.Proof.KI.k1_t4_trip.sl.r_98 Cert.Proof.KI.k1_t4_trip.sl.r_99
        Cert.Proof.KI.k1_t4_trip.sl.r_100 Cert.Proof.KI.k1_t4_trip.sl.r_101 Cert.Proof.KI.k1_t4_trip.sl.r_102 Cert.Proof.KI.k1_t4_trip.sl.r_103 Cert.Proof.KI.k1_t4_trip.sl.r_104
        Cert.Proof.KI.k1_t4_trip.sl.r_105 Cert.Proof.KI.k1_t4_trip.sl.r_106 Cert.Proof.KI.k1_t4_trip.sl.r_107 Cert.Proof.KI.k1_t4_trip.sl.r_108 Cert.Proof.KI.k1_t4_trip.sl.r_109
        Cert.Proof.KI.k1_t4_trip.sl.r_110 Cert.Proof.KI.k1_t4_trip.sl.r_111 Cert.Proof.KI.k1_t4_trip.sl.r_112 Cert.Proof.KI.k1_t4_trip.sl.r_113 Cert.Proof.KI.k1_t4_trip.sl.r_114
        Cert.Proof.KI.k1_t4_trip.sl.r_115 Cert.Proof.KI.k1_t4_trip.sl.r_116 Cert.Proof.KI.k1_t4_trip.sl.r_117 Cert.Proof.KI.k1_t4_trip.sl.r_118 Cert.Proof.KI.k1_t4_trip.sl.r_119
        Cert.Proof.KI.k1_t4_trip.sl.r_120 Cert.Proof.KI.k1_t4_trip.sl.r_121 Cert.Proof.KI.k1_t4_trip.sl.r_122 Cert.Proof.KI.k1_t4_trip.sl.r_123 Cert.Proof.KI.k1_t4_trip.sl.r_124
        Cert.Proof.KI.k1_t4_trip.sl.r_125 Cert.Proof.KI.k1_t4_trip.sl.r_126 Cert.Proof.KI.k1_t4_trip.sl.r_127 Cert.Proof.KI.k1_t4_trip.sl.r_128 Cert.Proof.KI.k1_t4_trip.sl.r_129
        Cert.Proof.KI.k1_t4_trip.sl.r_130 Cert.Proof.KI.k1_t4_trip.sl.r_131 Cert.Proof.KI.k1_t4_trip.sl.r_132 Cert.Proof.KI.k1_t4_trip.sl.r_133 Cert.Proof.KI.k1_t4_trip.sl.r_134
        Cert.Proof.KI.k1_t4_trip.sl.r_135 Cert.Proof.KI.k1_t4_trip.sl.r_136 Cert.Proof.KI.k1_t4_trip.sl.r_137 Cert.Proof.KI.k1_t4_trip.sl.r_138 Cert.Proof.KI.k1_t4_trip.sl.r_139
        Cert.Proof.KI.k1_t4_trip.sl.r_140 Cert.Proof.KI.k1_t4_trip.sl.r_141 Cert.Proof.KI.k1_t4_trip.sl.r_142 Cert.Proof.KI.k1_t4_trip.sl.r_143 Cert.Proof.KI.k1_t4_trip.sl.r_144
        Cert.Proof.KI.k1_t4_trip.sl.r_145 Cert.Proof.KI.k1_t4_trip.sl.r_146 Cert.Proof.KI.k1_t4_trip.sl.r_147 Cert.Proof.KI.k1_t4_trip.sl.r_148 Cert.Proof.KI.k1_t4_trip.sl.r_149
        Cert.Proof.KI.k1_t4_trip.sl.r_150 Cert.Proof.KI.k1_t4_trip.sl.r_151 Cert.Proof.KI.k1_t4_trip.sl.r_152 Cert.Proof.KI.k1_t4_trip.sl.r_153 Cert.Proof.KI.k1_t4_trip.sl.r_154
        Cert.Proof.KI.k1_t4_trip.sl.r_155 Cert.Proof.KI.k1_t4_trip.sl.r_156 Cert.Proof.KI.k1_t4_trip.sl.r_157 Cert.Proof.KI.k1_t4_trip.sl.r_158 Cert.Proof.KI.k1_t4_trip.sl.r_159
        Cert.Proof.KI.k1_t4_trip.sl.r_160 Cert.Proof.KI.k1_t4_trip.sl.r_161 Cert.Proof.KI.k1_t4_trip.sl.r_162 Cert.Proof.KI.k1_t4_trip.sl.r_163 Cert.Proof.KI.k1_t4_trip.sl.r_164
        Cert.Proof.KI.k1_t4_trip.sl.r_165 Cert.Proof.KI.k1_t4_trip.sl.r_166 Cert.Proof.KI.k1_t4_trip.sl.r_167 Cert.Proof.KI.k1_t4_trip.sl.r_168 Cert.Proof.KI.k1_t4_trip.sl.r_169
        Cert.Proof.KI.k1_t4_trip.sl.r_170 Cert.Proof.KI.k1_t4_trip.sl.r_171 Cert.Proof.KI.k1_t4_trip.sl.r_172 Cert.Proof.KI.k1_t4_trip.sl.r_173 Cert.Proof.KI.k1_t4_trip.sl.r_174
        Cert.Proof.KI.k1_t4_trip.sl.r_175 Cert.Proof.KI.k1_t4_trip.sl.r_176 Cert.Proof.KI.k1_t4_trip.sl.r_177 Cert.Proof.KI.k1_t4_trip.sl.r_178 Cert.Proof.KI.k1_t4_trip.sl.r_179
        Cert.Proof.KI.k1_t4_trip.sl.r_180 Cert.Proof.KI.k1_t4_trip.sl.r_181 Cert.Proof.KI.k1_t4_trip.sl.r_182 Cert.Proof.KI.k1_t4_trip.sl.r_183 Cert.Proof.KI.k1_t4_trip.sl.r_184
        Cert.Proof.KI.k1_t4_trip.sl.r_185 Cert.Proof.KI.k1_t4_trip.sl.r_186 Cert.Proof.KI.k1_t4_trip.sl.r_187 Cert.Proof.KI.k1_t4_trip.sl.r_188 Cert.Proof.KI.k1_t4_trip.sl.r_189
        Cert.Proof.KI.k1_t4_trip.sl.r_190 Cert.Proof.KI.k1_t4_trip.sl.r_191 Cert.Proof.KI.k1_t4_trip.sl.r_192 Cert.Proof.KI.k1_t4_trip.sl.r_193 Cert.Proof.KI.k1_t4_trip.sl.r_194
        Cert.Proof.KI.k1_t4_trip.sl.r_195 Cert.Proof.KI.k1_t4_trip.sl.r_196 Cert.Proof.KI.k1_t4_trip.sl.r_197 Cert.Proof.KI.k1_t4_trip.sl.r_198 Cert.Proof.KI.k1_t4_trip.sl.r_199
        Cert.Proof.KI.k1_t4_trip.sl.r_200 Cert.Proof.KI.k1_t4_trip.sl.r_201 Cert.Proof.KI.k1_t4_trip.sl.r_202 Cert.Proof.KI.k1_t4_trip.sl.r_203 Cert.Proof.KI.k1_t4_trip.sl.r_204
        Cert.Proof.KI.k1_t4_trip.sl.r_205 Cert.Proof.KI.k1_t4_trip.sl.r_206 Cert.Proof.KI.k1_t4_trip.sl.r_207 Cert.Proof.KI.k1_t4_trip.sl.r_208 Cert.Proof.KI.k1_t4_trip.sl.r_209
        Cert.Proof.KI.k1_t4_trip.sl.r_210 Cert.Proof.KI.k1_t4_trip.sl.r_211 Cert.Proof.KI.k1_t4_trip.sl.r_212 Cert.Proof.KI.k1_t4_trip.sl.r_213 Cert.Proof.KI.k1_t4_trip.sl.r_214
        Cert.Proof.KI.k1_t4_trip.sl.r_215 Cert.Proof.KI.k1_t4_trip.sl.r_216 Cert.Proof.KI.k1_t4_trip.sl.r_217 Cert.Proof.KI.k1_t4_trip.sl.r_218 Cert.Proof.KI.k1_t4_trip.sl.r_219
        Cert.Proof.KI.k1_t4_trip.sl.r_220 Cert.Proof.KI.k1_t4_trip.sl.r_221 Cert.Proof.KI.k1_t4_trip.sl.r_222 Cert.Proof.KI.k1_t4_trip.sl.r_223 Cert.Proof.KI.k1_t4_trip.sl.r_224
        Cert.Proof.KI.k1_t4_trip.sl.r_225 Cert.Proof.KI.k1_t4_trip.sl.r_226 Cert.Proof.KI.k1_t4_trip.sl.r_227 Cert.Proof.KI.k1_t4_trip.sl.r_228 Cert.Proof.KI.k1_t4_trip.sl.r_229
        Cert.Proof.KI.k1_t4_trip.sl.r_230 Cert.Proof.KI.k1_t4_trip.sl.r_231 Cert.Proof.KI.k1_t4_trip.sl.r_232 Cert.Proof.KI.k1_t4_trip.sl.r_233 Cert.Proof.KI.k1_t4_trip.sl.r_234
        Cert.Proof.KI.k1_t4_trip.sl.r_235 Cert.Proof.KI.k1_t4_trip.sl.r_236 Cert.Proof.KI.k1_t4_trip.sl.r_237 Cert.Proof.KI.k1_t4_trip.sl.r_238 Cert.Proof.KI.k1_t4_trip.sl.r_239
        Cert.Proof.KI.k1_t4_trip.sl.r_240 Cert.Proof.KI.k1_t4_trip.sl.r_241 Cert.Proof.KI.k1_t4_trip.sl.r_242 Cert.Proof.KI.k1_t4_trip.sl.r_243 Cert.Proof.KI.k1_t4_trip.sl.r_244
        Cert.Proof.KI.k1_t4_trip.sl.r_245 Cert.Proof.KI.k1_t4_trip.sl.r_246 Cert.Proof.KI.k1_t4_trip.sl.r_247 Cert.Proof.KI.k1_t4_trip.sl.r_248 Cert.Proof.KI.k1_t4_trip.sl.r_249
        Cert.Proof.KI.k1_t4_trip.sl.r_250 Cert.Proof.KI.k1_t4_trip.sl.r_251 Cert.Proof.KI.k1_t4_trip.sl.r_252 Cert.Proof.KI.k1_t4_trip.sl.r_253 Cert.Proof.KI.k1_t4_trip.sl.r_254
        Cert.Proof.KI.k1_t4_trip.sl.r_255 Cert.Proof.KI.k1_t4_trip.sl.r_256 Cert.Proof.KI.k1_t4_trip.sl.r_257 Cert.Proof.KI.k1_t4_trip.sl.r_258 Cert.Proof.KI.k1_t4_trip.sl.r_259
        Cert.Proof.KI.k1_t4_trip.sl.r_260 Cert.Proof.KI.k1_t4_trip.sl.r_261 Cert.Proof.KI.k1_t4_trip.sl.r_262 Cert.Proof.KI.k1_t4_trip.sl.r_263 Cert.Proof.KI.k1_t4_trip.sl.r_264
        Cert.Proof.KI.k1_t4_trip.sl.r_265 Cert.Proof.KI.k1_t4_trip.sl.r_266 Cert.Proof.KI.k1_t4_trip.sl.r_267 Cert.Proof.KI.k1_t4_trip.sl.r_268 Cert.Proof.KI.k1_t4_trip.sl.r_269
        Cert.Proof.KI.k1_t4_trip.sl.r_270 Cert.Proof.KI.k1_t4_trip.sl.r_271 Cert.Proof.KI.k1_t4_trip.sl.r_272 Cert.Proof.KI.k1_t4_trip.sl.r_273 Cert.Proof.KI.k1_t4_trip.sl.r_274
        Cert.Proof.KI.k1_t4_trip.sl.r_275 Cert.Proof.KI.k1_t4_trip.sl.r_276 Cert.Proof.KI.k1_t4_trip.sl.r_277 Cert.Proof.KI.k1_t4_trip.sl.r_278 Cert.Proof.KI.k1_t4_trip.sl.r_279
        Cert.Proof.KI.k1_t4_trip.sl.r_280 Cert.Proof.KI.k1_t4_trip.sl.r_281 Cert.Proof.KI.k1_t4_trip.sl.r_282 Cert.Proof.KI.k1_t4_trip.sl.r_283 Cert.Proof.KI.k1_t4_trip.sl.r_284
        Cert.Proof.KI.k1_t4_trip.sl.r_285 Cert.Proof.KI.k1_t4_trip.sl.r_286 Cert.Proof.KI.k1_t4_trip.sl.r_287 Cert.Proof.KI.k1_t4_trip.sl.r_288 Cert.Proof.KI.k1_t4_trip.sl.r_289
        Cert.Proof.KI.k1_t4_trip.sl.r_290 Cert.Proof.KI.k1_t4_trip.sl.r_291 Cert.Proof.KI.k1_t4_trip.sl.r_292 Cert.Proof.KI.k1_t4_trip.sl.r_293 Cert.Proof.KI.k1_t4_trip.sl.r_294
        Cert.Proof.KI.k1_t4_trip.sl.r_295 Cert.Proof.KI.k1_t4_trip.sl.r_296 Cert.Proof.KI.k1_t4_trip.sl.r_297 Cert.Proof.KI.k1_t4_trip.sl.r_298 Cert.Proof.KI.k1_t4_trip.sl.r_299
        Cert.Proof.KI.k1_t4_trip.sl.r_300 Cert.Proof.KI.k1_t4_trip.sl.r_301 Cert.Proof.KI.k1_t4_trip.sl.r_302 Cert.Proof.KI.k1_t4_trip.sl.r_303 Cert.Proof.KI.k1_t4_trip.sl.r_304
        Cert.Proof.KI.k1_t4_trip.sl.r_305 Cert.Proof.KI.k1_t4_trip.sl.r_306 Cert.Proof.KI.k1_t4_trip.sl.r_307 Cert.Proof.KI.k1_t4_trip.sl.r_308 Cert.Proof.KI.k1_t4_trip.sl.r_309
        Cert.Proof.KI.k1_t4_trip.sl.r_310 Cert.Proof.KI.k1_t4_trip.sl.r_311 Cert.Proof.KI.k1_t4_trip.sl.r_312 Cert.Proof.KI.k1_t4_trip.sl.r_313 Cert.Proof.KI.k1_t4_trip.sl.r_314
        Cert.Proof.KI.k1_t4_trip.sl.r_315 Cert.Proof.KI.k1_t4_trip.sl.r_316 Cert.Proof.KI.k1_t4_trip.sl.r_317 Cert.Proof.KI.k1_t4_trip.sl.r_318
      conv_lhs => simp only [k1_pay2, k1_pay324, k1_pay325, k1_pay326, k1_pay327, k1_pay328, k1_pay329, k1_pay330, k1_pay331, k1_pay332, k1_pay333, k1_pay334, k1_pay335, k1_pay336, k1_pay337, k1_pay338,
        k1_pay339, k1_pay340, k1_pay341, k1_pay342, k1_pay343, k1_pay344, k1_pay345, k1_pay346, k1_pay347, k1_pay348, k1_pay349, k1_pay350, k1_pay351, k1_pay352, k1_pay353, k1_pay354,
        k1_pay355, k1_pay356, k1_pay357, k1_pay358, k1_pay359, k1_pay360, k1_pay361, k1_pay362, k1_pay363, k1_pay364, k1_pay365, k1_pay366, k1_pay367, k1_pay368, k1_pay369, k1_pay370,
        k1_pay371, k1_pay372, k1_pay373, k1_pay374, k1_pay375, k1_pay376, k1_pay377, k1_pay378, k1_pay379, k1_pay380, k1_pay381, k1_pay382, k1_pay383, k1_pay384, k1_pay385, k1_pay386,
        k1_pay387, k1_pay388, k1_pay389, k1_pay390, k1_pay391, k1_pay392, k1_pay393, k1_pay394, k1_pay395, k1_pay396, k1_pay397, k1_pay398, k1_pay399, k1_pay400, k1_pay401, k1_pay402,
        k1_pay403, k1_pay404, k1_pay405, k1_pay406, k1_pay407, k1_pay408, k1_pay409, k1_pay410, k1_pay411, k1_pay412, k1_pay413, k1_pay414, k1_pay415, k1_pay416, k1_pay417, k1_pay418,
        k1_pay419, k1_pay420, k1_pay421, k1_pay422, k1_pay423, k1_pay424, k1_pay425, k1_pay426, k1_pay427, k1_pay428, k1_pay429, k1_pay430, k1_pay431, k1_pay432, k1_pay433, k1_pay434,
        k1_pay435, k1_pay436, k1_pay437, k1_pay438, k1_pay439, k1_pay440, k1_pay441, k1_pay442, k1_pay443, k1_pay444, k1_pay445, k1_pay446, k1_pay447, k1_pay448, k1_pay449, k1_pay450,
        k1_pay451, k1_pay452, k1_pay453, k1_pay454, k1_pay455, k1_pay456, k1_pay457, k1_pay458, k1_pay459, k1_pay460, k1_pay461, k1_pay462, k1_pay463, k1_pay464, k1_pay465, k1_pay466,
        k1_pay467, k1_pay468, k1_pay469, k1_pay470, k1_pay471, k1_pay472, k1_pay473, k1_pay474, k1_pay475, k1_pay476, k1_pay477, k1_pay478, k1_pay479, k1_pay480, k1_pay481, k1_pay482,
        k1_pay483, k1_pay484, k1_pay485, k1_pay486, k1_pay487, k1_pay488, k1_pay489, k1_pay490, k1_pay491, k1_pay492, k1_pay493, k1_pay494, k1_pay495, k1_pay496, k1_pay497, k1_pay498,
        k1_pay499, k1_pay500, k1_pay501, k1_pay502, k1_pay503, k1_pay504, k1_pay505, k1_pay506, k1_pay507, k1_pay508, k1_pay509, k1_pay510, k1_pay511, k1_pay512, k1_pay513, k1_pay514,
        k1_pay515, k1_pay516, k1_pay517, k1_pay518, k1_pay519, k1_pay520, k1_pay521, k1_pay522, k1_pay523, k1_pay524, k1_pay525, k1_pay526, k1_pay527, k1_pay528, k1_pay529, k1_pay530,
        k1_pay531, k1_pay532, k1_pay533, k1_pay534, k1_pay535, k1_pay536, k1_pay537, k1_pay538, k1_pay539, k1_pay540, k1_pay541, k1_pay542, k1_pay543, k1_pay544, k1_pay545, k1_pay546,
        k1_pay547, k1_pay548, k1_pay549, k1_pay550, k1_pay551, k1_pay552, k1_pay553, k1_pay554, k1_pay555, k1_pay556, k1_pay557, k1_pay558, k1_pay559, k1_pay560, k1_pay561, k1_pay562,
        k1_pay563, k1_pay564, k1_pay565, k1_pay566, k1_pay567, k1_pay568, k1_pay569, k1_pay570, k1_pay571, k1_pay572, k1_pay573, k1_pay574, k1_pay575, k1_pay576, k1_pay577, k1_pay578,
        k1_pay579, k1_pay580, k1_pay581, k1_pay582, k1_pay583, k1_pay584, k1_pay585, k1_pay586, k1_pay587, k1_pay588, k1_pay589, k1_pay590, k1_pay591, k1_pay592, k1_pay593, k1_pay594,
        k1_pay595, k1_pay596, k1_pay597, k1_pay598, k1_pay599, k1_pay600, k1_pay601, k1_pay602, k1_pay603, k1_pay604, k1_pay605, k1_pay606, k1_pay607, k1_pay608, k1_pay609, k1_pay610,
        k1_pay611, k1_pay612, k1_pay613, k1_pay614, k1_pay615, k1_pay616, k1_pay617, k1_pay618, k1_pay619, k1_pay620, k1_pay621, k1_pay622, k1_pay623, k1_pay624, k1_pay625, k1_pay626,
        k1_pay627, k1_pay628, k1_pay629, k1_pay630, k1_pay631, k1_pay632, k1_pay633, k1_pay634, k1_pay635, k1_pay636, k1_pay637, k1_pay638, k1_pay639, k1_pay640, k1_pay641, k1_pay642,
        k1_pay643, k1_pay644, Pure.addf_at, Pure.mulf_at, Pure.broadcast_at, Pure.lane_at, Pure.cast16_16, Pure.cast1x16_16, Pure.cast16_1x16]
      rfl
    · intro l
      show _ = Pure.acc32 (rowW fw r) (rowE fb sub (⟨16 + l.val, by have := l.isLt; omega⟩ : Fin 128))
        (g (ix2 r (⟨16 + l.val, by have := l.isLt; omega⟩ : Fin 128)))
      refine ((?_ : _ = _).trans (Pure.acc32_chain (wraw4 fw t2 t) (eraw4_1 fb t l) (graw4_1 g t2 t l))).trans
        (Pure.acc32_congr (wraw4_eq fw t2 t r hr) (eraw4_1_eq fb t sub hs l _ rfl) (graw4_1_eq g t2 t r hr l _ rfl))
      delta Cert.Proof.KI.k1_t4_trip.sl.r Cert.Proof.KI.k1_t4_trip.sl.r_1 Cert.Proof.KI.k1_t4_trip.sl.r_2 Cert.Proof.KI.k1_t4_trip.sl.r_3 Cert.Proof.KI.k1_t4_trip.sl.r_4
        Cert.Proof.KI.k1_t4_trip.sl.r_5 Cert.Proof.KI.k1_t4_trip.sl.r_6 Cert.Proof.KI.k1_t4_trip.sl.r_7 Cert.Proof.KI.k1_t4_trip.sl.r_8 Cert.Proof.KI.k1_t4_trip.sl.r_9
        Cert.Proof.KI.k1_t4_trip.sl.r_10 Cert.Proof.KI.k1_t4_trip.sl.r_11 Cert.Proof.KI.k1_t4_trip.sl.r_12 Cert.Proof.KI.k1_t4_trip.sl.r_13 Cert.Proof.KI.k1_t4_trip.sl.r_14
        Cert.Proof.KI.k1_t4_trip.sl.r_15 Cert.Proof.KI.k1_t4_trip.sl.r_16 Cert.Proof.KI.k1_t4_trip.sl.r_17 Cert.Proof.KI.k1_t4_trip.sl.r_18 Cert.Proof.KI.k1_t4_trip.sl.r_19
        Cert.Proof.KI.k1_t4_trip.sl.r_20 Cert.Proof.KI.k1_t4_trip.sl.r_21 Cert.Proof.KI.k1_t4_trip.sl.r_22 Cert.Proof.KI.k1_t4_trip.sl.r_23 Cert.Proof.KI.k1_t4_trip.sl.r_24
        Cert.Proof.KI.k1_t4_trip.sl.r_25 Cert.Proof.KI.k1_t4_trip.sl.r_26 Cert.Proof.KI.k1_t4_trip.sl.r_27 Cert.Proof.KI.k1_t4_trip.sl.r_28 Cert.Proof.KI.k1_t4_trip.sl.r_29
        Cert.Proof.KI.k1_t4_trip.sl.r_30 Cert.Proof.KI.k1_t4_trip.sl.r_31 Cert.Proof.KI.k1_t4_trip.sl.r_32 Cert.Proof.KI.k1_t4_trip.sl.r_33 Cert.Proof.KI.k1_t4_trip.sl.r_34
        Cert.Proof.KI.k1_t4_trip.sl.r_35 Cert.Proof.KI.k1_t4_trip.sl.r_36 Cert.Proof.KI.k1_t4_trip.sl.r_37 Cert.Proof.KI.k1_t4_trip.sl.r_38 Cert.Proof.KI.k1_t4_trip.sl.r_39
        Cert.Proof.KI.k1_t4_trip.sl.r_40 Cert.Proof.KI.k1_t4_trip.sl.r_41 Cert.Proof.KI.k1_t4_trip.sl.r_42 Cert.Proof.KI.k1_t4_trip.sl.r_43 Cert.Proof.KI.k1_t4_trip.sl.r_44
        Cert.Proof.KI.k1_t4_trip.sl.r_45 Cert.Proof.KI.k1_t4_trip.sl.r_46 Cert.Proof.KI.k1_t4_trip.sl.r_47 Cert.Proof.KI.k1_t4_trip.sl.r_48 Cert.Proof.KI.k1_t4_trip.sl.r_49
        Cert.Proof.KI.k1_t4_trip.sl.r_50 Cert.Proof.KI.k1_t4_trip.sl.r_51 Cert.Proof.KI.k1_t4_trip.sl.r_52 Cert.Proof.KI.k1_t4_trip.sl.r_53 Cert.Proof.KI.k1_t4_trip.sl.r_54
        Cert.Proof.KI.k1_t4_trip.sl.r_55 Cert.Proof.KI.k1_t4_trip.sl.r_56 Cert.Proof.KI.k1_t4_trip.sl.r_57 Cert.Proof.KI.k1_t4_trip.sl.r_58 Cert.Proof.KI.k1_t4_trip.sl.r_59
        Cert.Proof.KI.k1_t4_trip.sl.r_60 Cert.Proof.KI.k1_t4_trip.sl.r_61 Cert.Proof.KI.k1_t4_trip.sl.r_62 Cert.Proof.KI.k1_t4_trip.sl.r_63 Cert.Proof.KI.k1_t4_trip.sl.r_64
        Cert.Proof.KI.k1_t4_trip.sl.r_65 Cert.Proof.KI.k1_t4_trip.sl.r_66 Cert.Proof.KI.k1_t4_trip.sl.r_67 Cert.Proof.KI.k1_t4_trip.sl.r_68 Cert.Proof.KI.k1_t4_trip.sl.r_69
        Cert.Proof.KI.k1_t4_trip.sl.r_70 Cert.Proof.KI.k1_t4_trip.sl.r_71 Cert.Proof.KI.k1_t4_trip.sl.r_72 Cert.Proof.KI.k1_t4_trip.sl.r_73 Cert.Proof.KI.k1_t4_trip.sl.r_74
        Cert.Proof.KI.k1_t4_trip.sl.r_75 Cert.Proof.KI.k1_t4_trip.sl.r_76 Cert.Proof.KI.k1_t4_trip.sl.r_77 Cert.Proof.KI.k1_t4_trip.sl.r_78 Cert.Proof.KI.k1_t4_trip.sl.r_79
        Cert.Proof.KI.k1_t4_trip.sl.r_80 Cert.Proof.KI.k1_t4_trip.sl.r_81 Cert.Proof.KI.k1_t4_trip.sl.r_82 Cert.Proof.KI.k1_t4_trip.sl.r_83 Cert.Proof.KI.k1_t4_trip.sl.r_84
        Cert.Proof.KI.k1_t4_trip.sl.r_85 Cert.Proof.KI.k1_t4_trip.sl.r_86 Cert.Proof.KI.k1_t4_trip.sl.r_87 Cert.Proof.KI.k1_t4_trip.sl.r_88 Cert.Proof.KI.k1_t4_trip.sl.r_89
        Cert.Proof.KI.k1_t4_trip.sl.r_90 Cert.Proof.KI.k1_t4_trip.sl.r_91 Cert.Proof.KI.k1_t4_trip.sl.r_92 Cert.Proof.KI.k1_t4_trip.sl.r_93 Cert.Proof.KI.k1_t4_trip.sl.r_94
        Cert.Proof.KI.k1_t4_trip.sl.r_95 Cert.Proof.KI.k1_t4_trip.sl.r_96 Cert.Proof.KI.k1_t4_trip.sl.r_97 Cert.Proof.KI.k1_t4_trip.sl.r_98 Cert.Proof.KI.k1_t4_trip.sl.r_99
        Cert.Proof.KI.k1_t4_trip.sl.r_100 Cert.Proof.KI.k1_t4_trip.sl.r_101 Cert.Proof.KI.k1_t4_trip.sl.r_102 Cert.Proof.KI.k1_t4_trip.sl.r_103 Cert.Proof.KI.k1_t4_trip.sl.r_104
        Cert.Proof.KI.k1_t4_trip.sl.r_105 Cert.Proof.KI.k1_t4_trip.sl.r_106 Cert.Proof.KI.k1_t4_trip.sl.r_107 Cert.Proof.KI.k1_t4_trip.sl.r_108 Cert.Proof.KI.k1_t4_trip.sl.r_109
        Cert.Proof.KI.k1_t4_trip.sl.r_110 Cert.Proof.KI.k1_t4_trip.sl.r_111 Cert.Proof.KI.k1_t4_trip.sl.r_112 Cert.Proof.KI.k1_t4_trip.sl.r_113 Cert.Proof.KI.k1_t4_trip.sl.r_114
        Cert.Proof.KI.k1_t4_trip.sl.r_115 Cert.Proof.KI.k1_t4_trip.sl.r_116 Cert.Proof.KI.k1_t4_trip.sl.r_117 Cert.Proof.KI.k1_t4_trip.sl.r_118 Cert.Proof.KI.k1_t4_trip.sl.r_119
        Cert.Proof.KI.k1_t4_trip.sl.r_120 Cert.Proof.KI.k1_t4_trip.sl.r_121 Cert.Proof.KI.k1_t4_trip.sl.r_122 Cert.Proof.KI.k1_t4_trip.sl.r_123 Cert.Proof.KI.k1_t4_trip.sl.r_124
        Cert.Proof.KI.k1_t4_trip.sl.r_125 Cert.Proof.KI.k1_t4_trip.sl.r_126 Cert.Proof.KI.k1_t4_trip.sl.r_127 Cert.Proof.KI.k1_t4_trip.sl.r_128 Cert.Proof.KI.k1_t4_trip.sl.r_129
        Cert.Proof.KI.k1_t4_trip.sl.r_130 Cert.Proof.KI.k1_t4_trip.sl.r_131 Cert.Proof.KI.k1_t4_trip.sl.r_132 Cert.Proof.KI.k1_t4_trip.sl.r_133 Cert.Proof.KI.k1_t4_trip.sl.r_134
        Cert.Proof.KI.k1_t4_trip.sl.r_135 Cert.Proof.KI.k1_t4_trip.sl.r_136 Cert.Proof.KI.k1_t4_trip.sl.r_137 Cert.Proof.KI.k1_t4_trip.sl.r_138 Cert.Proof.KI.k1_t4_trip.sl.r_139
        Cert.Proof.KI.k1_t4_trip.sl.r_140 Cert.Proof.KI.k1_t4_trip.sl.r_141 Cert.Proof.KI.k1_t4_trip.sl.r_142 Cert.Proof.KI.k1_t4_trip.sl.r_143 Cert.Proof.KI.k1_t4_trip.sl.r_144
        Cert.Proof.KI.k1_t4_trip.sl.r_145 Cert.Proof.KI.k1_t4_trip.sl.r_146 Cert.Proof.KI.k1_t4_trip.sl.r_147 Cert.Proof.KI.k1_t4_trip.sl.r_148 Cert.Proof.KI.k1_t4_trip.sl.r_149
        Cert.Proof.KI.k1_t4_trip.sl.r_150 Cert.Proof.KI.k1_t4_trip.sl.r_151 Cert.Proof.KI.k1_t4_trip.sl.r_152 Cert.Proof.KI.k1_t4_trip.sl.r_153 Cert.Proof.KI.k1_t4_trip.sl.r_154
        Cert.Proof.KI.k1_t4_trip.sl.r_155 Cert.Proof.KI.k1_t4_trip.sl.r_156 Cert.Proof.KI.k1_t4_trip.sl.r_157 Cert.Proof.KI.k1_t4_trip.sl.r_158 Cert.Proof.KI.k1_t4_trip.sl.r_159
        Cert.Proof.KI.k1_t4_trip.sl.r_160 Cert.Proof.KI.k1_t4_trip.sl.r_161 Cert.Proof.KI.k1_t4_trip.sl.r_162 Cert.Proof.KI.k1_t4_trip.sl.r_163 Cert.Proof.KI.k1_t4_trip.sl.r_164
        Cert.Proof.KI.k1_t4_trip.sl.r_165 Cert.Proof.KI.k1_t4_trip.sl.r_166 Cert.Proof.KI.k1_t4_trip.sl.r_167 Cert.Proof.KI.k1_t4_trip.sl.r_168 Cert.Proof.KI.k1_t4_trip.sl.r_169
        Cert.Proof.KI.k1_t4_trip.sl.r_170 Cert.Proof.KI.k1_t4_trip.sl.r_171 Cert.Proof.KI.k1_t4_trip.sl.r_172 Cert.Proof.KI.k1_t4_trip.sl.r_173 Cert.Proof.KI.k1_t4_trip.sl.r_174
        Cert.Proof.KI.k1_t4_trip.sl.r_175 Cert.Proof.KI.k1_t4_trip.sl.r_176 Cert.Proof.KI.k1_t4_trip.sl.r_177 Cert.Proof.KI.k1_t4_trip.sl.r_178 Cert.Proof.KI.k1_t4_trip.sl.r_179
        Cert.Proof.KI.k1_t4_trip.sl.r_180 Cert.Proof.KI.k1_t4_trip.sl.r_181 Cert.Proof.KI.k1_t4_trip.sl.r_182 Cert.Proof.KI.k1_t4_trip.sl.r_183 Cert.Proof.KI.k1_t4_trip.sl.r_184
        Cert.Proof.KI.k1_t4_trip.sl.r_185 Cert.Proof.KI.k1_t4_trip.sl.r_186 Cert.Proof.KI.k1_t4_trip.sl.r_187 Cert.Proof.KI.k1_t4_trip.sl.r_188 Cert.Proof.KI.k1_t4_trip.sl.r_189
        Cert.Proof.KI.k1_t4_trip.sl.r_190 Cert.Proof.KI.k1_t4_trip.sl.r_191 Cert.Proof.KI.k1_t4_trip.sl.r_192 Cert.Proof.KI.k1_t4_trip.sl.r_193 Cert.Proof.KI.k1_t4_trip.sl.r_194
        Cert.Proof.KI.k1_t4_trip.sl.r_195 Cert.Proof.KI.k1_t4_trip.sl.r_196 Cert.Proof.KI.k1_t4_trip.sl.r_197 Cert.Proof.KI.k1_t4_trip.sl.r_198 Cert.Proof.KI.k1_t4_trip.sl.r_199
        Cert.Proof.KI.k1_t4_trip.sl.r_200 Cert.Proof.KI.k1_t4_trip.sl.r_201 Cert.Proof.KI.k1_t4_trip.sl.r_202 Cert.Proof.KI.k1_t4_trip.sl.r_203 Cert.Proof.KI.k1_t4_trip.sl.r_204
        Cert.Proof.KI.k1_t4_trip.sl.r_205 Cert.Proof.KI.k1_t4_trip.sl.r_206 Cert.Proof.KI.k1_t4_trip.sl.r_207 Cert.Proof.KI.k1_t4_trip.sl.r_208 Cert.Proof.KI.k1_t4_trip.sl.r_209
        Cert.Proof.KI.k1_t4_trip.sl.r_210 Cert.Proof.KI.k1_t4_trip.sl.r_211 Cert.Proof.KI.k1_t4_trip.sl.r_212 Cert.Proof.KI.k1_t4_trip.sl.r_213 Cert.Proof.KI.k1_t4_trip.sl.r_214
        Cert.Proof.KI.k1_t4_trip.sl.r_215 Cert.Proof.KI.k1_t4_trip.sl.r_216 Cert.Proof.KI.k1_t4_trip.sl.r_217 Cert.Proof.KI.k1_t4_trip.sl.r_218 Cert.Proof.KI.k1_t4_trip.sl.r_219
        Cert.Proof.KI.k1_t4_trip.sl.r_220 Cert.Proof.KI.k1_t4_trip.sl.r_221 Cert.Proof.KI.k1_t4_trip.sl.r_222 Cert.Proof.KI.k1_t4_trip.sl.r_223 Cert.Proof.KI.k1_t4_trip.sl.r_224
        Cert.Proof.KI.k1_t4_trip.sl.r_225 Cert.Proof.KI.k1_t4_trip.sl.r_226 Cert.Proof.KI.k1_t4_trip.sl.r_227 Cert.Proof.KI.k1_t4_trip.sl.r_228 Cert.Proof.KI.k1_t4_trip.sl.r_229
        Cert.Proof.KI.k1_t4_trip.sl.r_230 Cert.Proof.KI.k1_t4_trip.sl.r_231 Cert.Proof.KI.k1_t4_trip.sl.r_232 Cert.Proof.KI.k1_t4_trip.sl.r_233 Cert.Proof.KI.k1_t4_trip.sl.r_234
        Cert.Proof.KI.k1_t4_trip.sl.r_235 Cert.Proof.KI.k1_t4_trip.sl.r_236 Cert.Proof.KI.k1_t4_trip.sl.r_237 Cert.Proof.KI.k1_t4_trip.sl.r_238 Cert.Proof.KI.k1_t4_trip.sl.r_239
        Cert.Proof.KI.k1_t4_trip.sl.r_240 Cert.Proof.KI.k1_t4_trip.sl.r_241 Cert.Proof.KI.k1_t4_trip.sl.r_242 Cert.Proof.KI.k1_t4_trip.sl.r_243 Cert.Proof.KI.k1_t4_trip.sl.r_244
        Cert.Proof.KI.k1_t4_trip.sl.r_245 Cert.Proof.KI.k1_t4_trip.sl.r_246 Cert.Proof.KI.k1_t4_trip.sl.r_247 Cert.Proof.KI.k1_t4_trip.sl.r_248 Cert.Proof.KI.k1_t4_trip.sl.r_249
        Cert.Proof.KI.k1_t4_trip.sl.r_250 Cert.Proof.KI.k1_t4_trip.sl.r_251 Cert.Proof.KI.k1_t4_trip.sl.r_252 Cert.Proof.KI.k1_t4_trip.sl.r_253 Cert.Proof.KI.k1_t4_trip.sl.r_254
        Cert.Proof.KI.k1_t4_trip.sl.r_255 Cert.Proof.KI.k1_t4_trip.sl.r_256 Cert.Proof.KI.k1_t4_trip.sl.r_257 Cert.Proof.KI.k1_t4_trip.sl.r_258 Cert.Proof.KI.k1_t4_trip.sl.r_259
        Cert.Proof.KI.k1_t4_trip.sl.r_260 Cert.Proof.KI.k1_t4_trip.sl.r_261 Cert.Proof.KI.k1_t4_trip.sl.r_262 Cert.Proof.KI.k1_t4_trip.sl.r_263 Cert.Proof.KI.k1_t4_trip.sl.r_264
        Cert.Proof.KI.k1_t4_trip.sl.r_265 Cert.Proof.KI.k1_t4_trip.sl.r_266 Cert.Proof.KI.k1_t4_trip.sl.r_267 Cert.Proof.KI.k1_t4_trip.sl.r_268 Cert.Proof.KI.k1_t4_trip.sl.r_269
        Cert.Proof.KI.k1_t4_trip.sl.r_270 Cert.Proof.KI.k1_t4_trip.sl.r_271 Cert.Proof.KI.k1_t4_trip.sl.r_272 Cert.Proof.KI.k1_t4_trip.sl.r_273 Cert.Proof.KI.k1_t4_trip.sl.r_274
        Cert.Proof.KI.k1_t4_trip.sl.r_275 Cert.Proof.KI.k1_t4_trip.sl.r_276 Cert.Proof.KI.k1_t4_trip.sl.r_277 Cert.Proof.KI.k1_t4_trip.sl.r_278 Cert.Proof.KI.k1_t4_trip.sl.r_279
        Cert.Proof.KI.k1_t4_trip.sl.r_280 Cert.Proof.KI.k1_t4_trip.sl.r_281 Cert.Proof.KI.k1_t4_trip.sl.r_282 Cert.Proof.KI.k1_t4_trip.sl.r_283 Cert.Proof.KI.k1_t4_trip.sl.r_284
        Cert.Proof.KI.k1_t4_trip.sl.r_285 Cert.Proof.KI.k1_t4_trip.sl.r_286 Cert.Proof.KI.k1_t4_trip.sl.r_287 Cert.Proof.KI.k1_t4_trip.sl.r_288 Cert.Proof.KI.k1_t4_trip.sl.r_289
        Cert.Proof.KI.k1_t4_trip.sl.r_290 Cert.Proof.KI.k1_t4_trip.sl.r_291 Cert.Proof.KI.k1_t4_trip.sl.r_292 Cert.Proof.KI.k1_t4_trip.sl.r_293 Cert.Proof.KI.k1_t4_trip.sl.r_294
        Cert.Proof.KI.k1_t4_trip.sl.r_295 Cert.Proof.KI.k1_t4_trip.sl.r_296 Cert.Proof.KI.k1_t4_trip.sl.r_297 Cert.Proof.KI.k1_t4_trip.sl.r_298 Cert.Proof.KI.k1_t4_trip.sl.r_299
        Cert.Proof.KI.k1_t4_trip.sl.r_300 Cert.Proof.KI.k1_t4_trip.sl.r_301 Cert.Proof.KI.k1_t4_trip.sl.r_302 Cert.Proof.KI.k1_t4_trip.sl.r_303 Cert.Proof.KI.k1_t4_trip.sl.r_304
        Cert.Proof.KI.k1_t4_trip.sl.r_305 Cert.Proof.KI.k1_t4_trip.sl.r_306 Cert.Proof.KI.k1_t4_trip.sl.r_307 Cert.Proof.KI.k1_t4_trip.sl.r_308 Cert.Proof.KI.k1_t4_trip.sl.r_309
        Cert.Proof.KI.k1_t4_trip.sl.r_310 Cert.Proof.KI.k1_t4_trip.sl.r_311 Cert.Proof.KI.k1_t4_trip.sl.r_312 Cert.Proof.KI.k1_t4_trip.sl.r_313 Cert.Proof.KI.k1_t4_trip.sl.r_314
        Cert.Proof.KI.k1_t4_trip.sl.r_315 Cert.Proof.KI.k1_t4_trip.sl.r_316 Cert.Proof.KI.k1_t4_trip.sl.r_317 Cert.Proof.KI.k1_t4_trip.sl.r_318
      conv_lhs => simp only [k1_pay2, k1_pay324, k1_pay325, k1_pay326, k1_pay327, k1_pay328, k1_pay329, k1_pay330, k1_pay331, k1_pay332, k1_pay333, k1_pay334, k1_pay335, k1_pay336, k1_pay337, k1_pay338,
        k1_pay339, k1_pay340, k1_pay341, k1_pay342, k1_pay343, k1_pay344, k1_pay345, k1_pay346, k1_pay347, k1_pay348, k1_pay349, k1_pay350, k1_pay351, k1_pay352, k1_pay353, k1_pay354,
        k1_pay355, k1_pay356, k1_pay357, k1_pay358, k1_pay359, k1_pay360, k1_pay361, k1_pay362, k1_pay363, k1_pay364, k1_pay365, k1_pay366, k1_pay367, k1_pay368, k1_pay369, k1_pay370,
        k1_pay371, k1_pay372, k1_pay373, k1_pay374, k1_pay375, k1_pay376, k1_pay377, k1_pay378, k1_pay379, k1_pay380, k1_pay381, k1_pay382, k1_pay383, k1_pay384, k1_pay385, k1_pay386,
        k1_pay387, k1_pay388, k1_pay389, k1_pay390, k1_pay391, k1_pay392, k1_pay393, k1_pay394, k1_pay395, k1_pay396, k1_pay397, k1_pay398, k1_pay399, k1_pay400, k1_pay401, k1_pay402,
        k1_pay403, k1_pay404, k1_pay405, k1_pay406, k1_pay407, k1_pay408, k1_pay409, k1_pay410, k1_pay411, k1_pay412, k1_pay413, k1_pay414, k1_pay415, k1_pay416, k1_pay417, k1_pay418,
        k1_pay419, k1_pay420, k1_pay421, k1_pay422, k1_pay423, k1_pay424, k1_pay425, k1_pay426, k1_pay427, k1_pay428, k1_pay429, k1_pay430, k1_pay431, k1_pay432, k1_pay433, k1_pay434,
        k1_pay435, k1_pay436, k1_pay437, k1_pay438, k1_pay439, k1_pay440, k1_pay441, k1_pay442, k1_pay443, k1_pay444, k1_pay445, k1_pay446, k1_pay447, k1_pay448, k1_pay449, k1_pay450,
        k1_pay451, k1_pay452, k1_pay453, k1_pay454, k1_pay455, k1_pay456, k1_pay457, k1_pay458, k1_pay459, k1_pay460, k1_pay461, k1_pay462, k1_pay463, k1_pay464, k1_pay465, k1_pay466,
        k1_pay467, k1_pay468, k1_pay469, k1_pay470, k1_pay471, k1_pay472, k1_pay473, k1_pay474, k1_pay475, k1_pay476, k1_pay477, k1_pay478, k1_pay479, k1_pay480, k1_pay481, k1_pay482,
        k1_pay483, k1_pay484, k1_pay485, k1_pay486, k1_pay487, k1_pay488, k1_pay489, k1_pay490, k1_pay491, k1_pay492, k1_pay493, k1_pay494, k1_pay495, k1_pay496, k1_pay497, k1_pay498,
        k1_pay499, k1_pay500, k1_pay501, k1_pay502, k1_pay503, k1_pay504, k1_pay505, k1_pay506, k1_pay507, k1_pay508, k1_pay509, k1_pay510, k1_pay511, k1_pay512, k1_pay513, k1_pay514,
        k1_pay515, k1_pay516, k1_pay517, k1_pay518, k1_pay519, k1_pay520, k1_pay521, k1_pay522, k1_pay523, k1_pay524, k1_pay525, k1_pay526, k1_pay527, k1_pay528, k1_pay529, k1_pay530,
        k1_pay531, k1_pay532, k1_pay533, k1_pay534, k1_pay535, k1_pay536, k1_pay537, k1_pay538, k1_pay539, k1_pay540, k1_pay541, k1_pay542, k1_pay543, k1_pay544, k1_pay545, k1_pay546,
        k1_pay547, k1_pay548, k1_pay549, k1_pay550, k1_pay551, k1_pay552, k1_pay553, k1_pay554, k1_pay555, k1_pay556, k1_pay557, k1_pay558, k1_pay559, k1_pay560, k1_pay561, k1_pay562,
        k1_pay563, k1_pay564, k1_pay565, k1_pay566, k1_pay567, k1_pay568, k1_pay569, k1_pay570, k1_pay571, k1_pay572, k1_pay573, k1_pay574, k1_pay575, k1_pay576, k1_pay577, k1_pay578,
        k1_pay579, k1_pay580, k1_pay581, k1_pay582, k1_pay583, k1_pay584, k1_pay585, k1_pay586, k1_pay587, k1_pay588, k1_pay589, k1_pay590, k1_pay591, k1_pay592, k1_pay593, k1_pay594,
        k1_pay595, k1_pay596, k1_pay597, k1_pay598, k1_pay599, k1_pay600, k1_pay601, k1_pay602, k1_pay603, k1_pay604, k1_pay605, k1_pay606, k1_pay607, k1_pay608, k1_pay609, k1_pay610,
        k1_pay611, k1_pay612, k1_pay613, k1_pay614, k1_pay615, k1_pay616, k1_pay617, k1_pay618, k1_pay619, k1_pay620, k1_pay621, k1_pay622, k1_pay623, k1_pay624, k1_pay625, k1_pay626,
        k1_pay627, k1_pay628, k1_pay629, k1_pay630, k1_pay631, k1_pay632, k1_pay633, k1_pay634, k1_pay635, k1_pay636, k1_pay637, k1_pay638, k1_pay639, k1_pay640, k1_pay641, k1_pay642,
        k1_pay643, k1_pay644, Pure.addf_at, Pure.mulf_at, Pure.broadcast_at, Pure.lane_at, Pure.cast16_16, Pure.cast1x16_16, Pure.cast16_1x16]
      rfl
    · intro l
      show _ = Pure.acc32 (rowW fw r) (rowE fb sub (⟨32 + l.val, by have := l.isLt; omega⟩ : Fin 128))
        (g (ix2 r (⟨32 + l.val, by have := l.isLt; omega⟩ : Fin 128)))
      refine ((?_ : _ = _).trans (Pure.acc32_chain (wraw4 fw t2 t) (eraw4_2 fb t l) (graw4_2 g t2 t l))).trans
        (Pure.acc32_congr (wraw4_eq fw t2 t r hr) (eraw4_2_eq fb t sub hs l _ rfl) (graw4_2_eq g t2 t r hr l _ rfl))
      delta Cert.Proof.KI.k1_t4_trip.sl.r Cert.Proof.KI.k1_t4_trip.sl.r_1 Cert.Proof.KI.k1_t4_trip.sl.r_2 Cert.Proof.KI.k1_t4_trip.sl.r_3 Cert.Proof.KI.k1_t4_trip.sl.r_4
        Cert.Proof.KI.k1_t4_trip.sl.r_5 Cert.Proof.KI.k1_t4_trip.sl.r_6 Cert.Proof.KI.k1_t4_trip.sl.r_7 Cert.Proof.KI.k1_t4_trip.sl.r_8 Cert.Proof.KI.k1_t4_trip.sl.r_9
        Cert.Proof.KI.k1_t4_trip.sl.r_10 Cert.Proof.KI.k1_t4_trip.sl.r_11 Cert.Proof.KI.k1_t4_trip.sl.r_12 Cert.Proof.KI.k1_t4_trip.sl.r_13 Cert.Proof.KI.k1_t4_trip.sl.r_14
        Cert.Proof.KI.k1_t4_trip.sl.r_15 Cert.Proof.KI.k1_t4_trip.sl.r_16 Cert.Proof.KI.k1_t4_trip.sl.r_17 Cert.Proof.KI.k1_t4_trip.sl.r_18 Cert.Proof.KI.k1_t4_trip.sl.r_19
        Cert.Proof.KI.k1_t4_trip.sl.r_20 Cert.Proof.KI.k1_t4_trip.sl.r_21 Cert.Proof.KI.k1_t4_trip.sl.r_22 Cert.Proof.KI.k1_t4_trip.sl.r_23 Cert.Proof.KI.k1_t4_trip.sl.r_24
        Cert.Proof.KI.k1_t4_trip.sl.r_25 Cert.Proof.KI.k1_t4_trip.sl.r_26 Cert.Proof.KI.k1_t4_trip.sl.r_27 Cert.Proof.KI.k1_t4_trip.sl.r_28 Cert.Proof.KI.k1_t4_trip.sl.r_29
        Cert.Proof.KI.k1_t4_trip.sl.r_30 Cert.Proof.KI.k1_t4_trip.sl.r_31 Cert.Proof.KI.k1_t4_trip.sl.r_32 Cert.Proof.KI.k1_t4_trip.sl.r_33 Cert.Proof.KI.k1_t4_trip.sl.r_34
        Cert.Proof.KI.k1_t4_trip.sl.r_35 Cert.Proof.KI.k1_t4_trip.sl.r_36 Cert.Proof.KI.k1_t4_trip.sl.r_37 Cert.Proof.KI.k1_t4_trip.sl.r_38 Cert.Proof.KI.k1_t4_trip.sl.r_39
        Cert.Proof.KI.k1_t4_trip.sl.r_40 Cert.Proof.KI.k1_t4_trip.sl.r_41 Cert.Proof.KI.k1_t4_trip.sl.r_42 Cert.Proof.KI.k1_t4_trip.sl.r_43 Cert.Proof.KI.k1_t4_trip.sl.r_44
        Cert.Proof.KI.k1_t4_trip.sl.r_45 Cert.Proof.KI.k1_t4_trip.sl.r_46 Cert.Proof.KI.k1_t4_trip.sl.r_47 Cert.Proof.KI.k1_t4_trip.sl.r_48 Cert.Proof.KI.k1_t4_trip.sl.r_49
        Cert.Proof.KI.k1_t4_trip.sl.r_50 Cert.Proof.KI.k1_t4_trip.sl.r_51 Cert.Proof.KI.k1_t4_trip.sl.r_52 Cert.Proof.KI.k1_t4_trip.sl.r_53 Cert.Proof.KI.k1_t4_trip.sl.r_54
        Cert.Proof.KI.k1_t4_trip.sl.r_55 Cert.Proof.KI.k1_t4_trip.sl.r_56 Cert.Proof.KI.k1_t4_trip.sl.r_57 Cert.Proof.KI.k1_t4_trip.sl.r_58 Cert.Proof.KI.k1_t4_trip.sl.r_59
        Cert.Proof.KI.k1_t4_trip.sl.r_60 Cert.Proof.KI.k1_t4_trip.sl.r_61 Cert.Proof.KI.k1_t4_trip.sl.r_62 Cert.Proof.KI.k1_t4_trip.sl.r_63 Cert.Proof.KI.k1_t4_trip.sl.r_64
        Cert.Proof.KI.k1_t4_trip.sl.r_65 Cert.Proof.KI.k1_t4_trip.sl.r_66 Cert.Proof.KI.k1_t4_trip.sl.r_67 Cert.Proof.KI.k1_t4_trip.sl.r_68 Cert.Proof.KI.k1_t4_trip.sl.r_69
        Cert.Proof.KI.k1_t4_trip.sl.r_70 Cert.Proof.KI.k1_t4_trip.sl.r_71 Cert.Proof.KI.k1_t4_trip.sl.r_72 Cert.Proof.KI.k1_t4_trip.sl.r_73 Cert.Proof.KI.k1_t4_trip.sl.r_74
        Cert.Proof.KI.k1_t4_trip.sl.r_75 Cert.Proof.KI.k1_t4_trip.sl.r_76 Cert.Proof.KI.k1_t4_trip.sl.r_77 Cert.Proof.KI.k1_t4_trip.sl.r_78 Cert.Proof.KI.k1_t4_trip.sl.r_79
        Cert.Proof.KI.k1_t4_trip.sl.r_80 Cert.Proof.KI.k1_t4_trip.sl.r_81 Cert.Proof.KI.k1_t4_trip.sl.r_82 Cert.Proof.KI.k1_t4_trip.sl.r_83 Cert.Proof.KI.k1_t4_trip.sl.r_84
        Cert.Proof.KI.k1_t4_trip.sl.r_85 Cert.Proof.KI.k1_t4_trip.sl.r_86 Cert.Proof.KI.k1_t4_trip.sl.r_87 Cert.Proof.KI.k1_t4_trip.sl.r_88 Cert.Proof.KI.k1_t4_trip.sl.r_89
        Cert.Proof.KI.k1_t4_trip.sl.r_90 Cert.Proof.KI.k1_t4_trip.sl.r_91 Cert.Proof.KI.k1_t4_trip.sl.r_92 Cert.Proof.KI.k1_t4_trip.sl.r_93 Cert.Proof.KI.k1_t4_trip.sl.r_94
        Cert.Proof.KI.k1_t4_trip.sl.r_95 Cert.Proof.KI.k1_t4_trip.sl.r_96 Cert.Proof.KI.k1_t4_trip.sl.r_97 Cert.Proof.KI.k1_t4_trip.sl.r_98 Cert.Proof.KI.k1_t4_trip.sl.r_99
        Cert.Proof.KI.k1_t4_trip.sl.r_100 Cert.Proof.KI.k1_t4_trip.sl.r_101 Cert.Proof.KI.k1_t4_trip.sl.r_102 Cert.Proof.KI.k1_t4_trip.sl.r_103 Cert.Proof.KI.k1_t4_trip.sl.r_104
        Cert.Proof.KI.k1_t4_trip.sl.r_105 Cert.Proof.KI.k1_t4_trip.sl.r_106 Cert.Proof.KI.k1_t4_trip.sl.r_107 Cert.Proof.KI.k1_t4_trip.sl.r_108 Cert.Proof.KI.k1_t4_trip.sl.r_109
        Cert.Proof.KI.k1_t4_trip.sl.r_110 Cert.Proof.KI.k1_t4_trip.sl.r_111 Cert.Proof.KI.k1_t4_trip.sl.r_112 Cert.Proof.KI.k1_t4_trip.sl.r_113 Cert.Proof.KI.k1_t4_trip.sl.r_114
        Cert.Proof.KI.k1_t4_trip.sl.r_115 Cert.Proof.KI.k1_t4_trip.sl.r_116 Cert.Proof.KI.k1_t4_trip.sl.r_117 Cert.Proof.KI.k1_t4_trip.sl.r_118 Cert.Proof.KI.k1_t4_trip.sl.r_119
        Cert.Proof.KI.k1_t4_trip.sl.r_120 Cert.Proof.KI.k1_t4_trip.sl.r_121 Cert.Proof.KI.k1_t4_trip.sl.r_122 Cert.Proof.KI.k1_t4_trip.sl.r_123 Cert.Proof.KI.k1_t4_trip.sl.r_124
        Cert.Proof.KI.k1_t4_trip.sl.r_125 Cert.Proof.KI.k1_t4_trip.sl.r_126 Cert.Proof.KI.k1_t4_trip.sl.r_127 Cert.Proof.KI.k1_t4_trip.sl.r_128 Cert.Proof.KI.k1_t4_trip.sl.r_129
        Cert.Proof.KI.k1_t4_trip.sl.r_130 Cert.Proof.KI.k1_t4_trip.sl.r_131 Cert.Proof.KI.k1_t4_trip.sl.r_132 Cert.Proof.KI.k1_t4_trip.sl.r_133 Cert.Proof.KI.k1_t4_trip.sl.r_134
        Cert.Proof.KI.k1_t4_trip.sl.r_135 Cert.Proof.KI.k1_t4_trip.sl.r_136 Cert.Proof.KI.k1_t4_trip.sl.r_137 Cert.Proof.KI.k1_t4_trip.sl.r_138 Cert.Proof.KI.k1_t4_trip.sl.r_139
        Cert.Proof.KI.k1_t4_trip.sl.r_140 Cert.Proof.KI.k1_t4_trip.sl.r_141 Cert.Proof.KI.k1_t4_trip.sl.r_142 Cert.Proof.KI.k1_t4_trip.sl.r_143 Cert.Proof.KI.k1_t4_trip.sl.r_144
        Cert.Proof.KI.k1_t4_trip.sl.r_145 Cert.Proof.KI.k1_t4_trip.sl.r_146 Cert.Proof.KI.k1_t4_trip.sl.r_147 Cert.Proof.KI.k1_t4_trip.sl.r_148 Cert.Proof.KI.k1_t4_trip.sl.r_149
        Cert.Proof.KI.k1_t4_trip.sl.r_150 Cert.Proof.KI.k1_t4_trip.sl.r_151 Cert.Proof.KI.k1_t4_trip.sl.r_152 Cert.Proof.KI.k1_t4_trip.sl.r_153 Cert.Proof.KI.k1_t4_trip.sl.r_154
        Cert.Proof.KI.k1_t4_trip.sl.r_155 Cert.Proof.KI.k1_t4_trip.sl.r_156 Cert.Proof.KI.k1_t4_trip.sl.r_157 Cert.Proof.KI.k1_t4_trip.sl.r_158 Cert.Proof.KI.k1_t4_trip.sl.r_159
        Cert.Proof.KI.k1_t4_trip.sl.r_160 Cert.Proof.KI.k1_t4_trip.sl.r_161 Cert.Proof.KI.k1_t4_trip.sl.r_162 Cert.Proof.KI.k1_t4_trip.sl.r_163 Cert.Proof.KI.k1_t4_trip.sl.r_164
        Cert.Proof.KI.k1_t4_trip.sl.r_165 Cert.Proof.KI.k1_t4_trip.sl.r_166 Cert.Proof.KI.k1_t4_trip.sl.r_167 Cert.Proof.KI.k1_t4_trip.sl.r_168 Cert.Proof.KI.k1_t4_trip.sl.r_169
        Cert.Proof.KI.k1_t4_trip.sl.r_170 Cert.Proof.KI.k1_t4_trip.sl.r_171 Cert.Proof.KI.k1_t4_trip.sl.r_172 Cert.Proof.KI.k1_t4_trip.sl.r_173 Cert.Proof.KI.k1_t4_trip.sl.r_174
        Cert.Proof.KI.k1_t4_trip.sl.r_175 Cert.Proof.KI.k1_t4_trip.sl.r_176 Cert.Proof.KI.k1_t4_trip.sl.r_177 Cert.Proof.KI.k1_t4_trip.sl.r_178 Cert.Proof.KI.k1_t4_trip.sl.r_179
        Cert.Proof.KI.k1_t4_trip.sl.r_180 Cert.Proof.KI.k1_t4_trip.sl.r_181 Cert.Proof.KI.k1_t4_trip.sl.r_182 Cert.Proof.KI.k1_t4_trip.sl.r_183 Cert.Proof.KI.k1_t4_trip.sl.r_184
        Cert.Proof.KI.k1_t4_trip.sl.r_185 Cert.Proof.KI.k1_t4_trip.sl.r_186 Cert.Proof.KI.k1_t4_trip.sl.r_187 Cert.Proof.KI.k1_t4_trip.sl.r_188 Cert.Proof.KI.k1_t4_trip.sl.r_189
        Cert.Proof.KI.k1_t4_trip.sl.r_190 Cert.Proof.KI.k1_t4_trip.sl.r_191 Cert.Proof.KI.k1_t4_trip.sl.r_192 Cert.Proof.KI.k1_t4_trip.sl.r_193 Cert.Proof.KI.k1_t4_trip.sl.r_194
        Cert.Proof.KI.k1_t4_trip.sl.r_195 Cert.Proof.KI.k1_t4_trip.sl.r_196 Cert.Proof.KI.k1_t4_trip.sl.r_197 Cert.Proof.KI.k1_t4_trip.sl.r_198 Cert.Proof.KI.k1_t4_trip.sl.r_199
        Cert.Proof.KI.k1_t4_trip.sl.r_200 Cert.Proof.KI.k1_t4_trip.sl.r_201 Cert.Proof.KI.k1_t4_trip.sl.r_202 Cert.Proof.KI.k1_t4_trip.sl.r_203 Cert.Proof.KI.k1_t4_trip.sl.r_204
        Cert.Proof.KI.k1_t4_trip.sl.r_205 Cert.Proof.KI.k1_t4_trip.sl.r_206 Cert.Proof.KI.k1_t4_trip.sl.r_207 Cert.Proof.KI.k1_t4_trip.sl.r_208 Cert.Proof.KI.k1_t4_trip.sl.r_209
        Cert.Proof.KI.k1_t4_trip.sl.r_210 Cert.Proof.KI.k1_t4_trip.sl.r_211 Cert.Proof.KI.k1_t4_trip.sl.r_212 Cert.Proof.KI.k1_t4_trip.sl.r_213 Cert.Proof.KI.k1_t4_trip.sl.r_214
        Cert.Proof.KI.k1_t4_trip.sl.r_215 Cert.Proof.KI.k1_t4_trip.sl.r_216 Cert.Proof.KI.k1_t4_trip.sl.r_217 Cert.Proof.KI.k1_t4_trip.sl.r_218 Cert.Proof.KI.k1_t4_trip.sl.r_219
        Cert.Proof.KI.k1_t4_trip.sl.r_220 Cert.Proof.KI.k1_t4_trip.sl.r_221 Cert.Proof.KI.k1_t4_trip.sl.r_222 Cert.Proof.KI.k1_t4_trip.sl.r_223 Cert.Proof.KI.k1_t4_trip.sl.r_224
        Cert.Proof.KI.k1_t4_trip.sl.r_225 Cert.Proof.KI.k1_t4_trip.sl.r_226 Cert.Proof.KI.k1_t4_trip.sl.r_227 Cert.Proof.KI.k1_t4_trip.sl.r_228 Cert.Proof.KI.k1_t4_trip.sl.r_229
        Cert.Proof.KI.k1_t4_trip.sl.r_230 Cert.Proof.KI.k1_t4_trip.sl.r_231 Cert.Proof.KI.k1_t4_trip.sl.r_232 Cert.Proof.KI.k1_t4_trip.sl.r_233 Cert.Proof.KI.k1_t4_trip.sl.r_234
        Cert.Proof.KI.k1_t4_trip.sl.r_235 Cert.Proof.KI.k1_t4_trip.sl.r_236 Cert.Proof.KI.k1_t4_trip.sl.r_237 Cert.Proof.KI.k1_t4_trip.sl.r_238 Cert.Proof.KI.k1_t4_trip.sl.r_239
        Cert.Proof.KI.k1_t4_trip.sl.r_240 Cert.Proof.KI.k1_t4_trip.sl.r_241 Cert.Proof.KI.k1_t4_trip.sl.r_242 Cert.Proof.KI.k1_t4_trip.sl.r_243 Cert.Proof.KI.k1_t4_trip.sl.r_244
        Cert.Proof.KI.k1_t4_trip.sl.r_245 Cert.Proof.KI.k1_t4_trip.sl.r_246 Cert.Proof.KI.k1_t4_trip.sl.r_247 Cert.Proof.KI.k1_t4_trip.sl.r_248 Cert.Proof.KI.k1_t4_trip.sl.r_249
        Cert.Proof.KI.k1_t4_trip.sl.r_250 Cert.Proof.KI.k1_t4_trip.sl.r_251 Cert.Proof.KI.k1_t4_trip.sl.r_252 Cert.Proof.KI.k1_t4_trip.sl.r_253 Cert.Proof.KI.k1_t4_trip.sl.r_254
        Cert.Proof.KI.k1_t4_trip.sl.r_255 Cert.Proof.KI.k1_t4_trip.sl.r_256 Cert.Proof.KI.k1_t4_trip.sl.r_257 Cert.Proof.KI.k1_t4_trip.sl.r_258 Cert.Proof.KI.k1_t4_trip.sl.r_259
        Cert.Proof.KI.k1_t4_trip.sl.r_260 Cert.Proof.KI.k1_t4_trip.sl.r_261 Cert.Proof.KI.k1_t4_trip.sl.r_262 Cert.Proof.KI.k1_t4_trip.sl.r_263 Cert.Proof.KI.k1_t4_trip.sl.r_264
        Cert.Proof.KI.k1_t4_trip.sl.r_265 Cert.Proof.KI.k1_t4_trip.sl.r_266 Cert.Proof.KI.k1_t4_trip.sl.r_267 Cert.Proof.KI.k1_t4_trip.sl.r_268 Cert.Proof.KI.k1_t4_trip.sl.r_269
        Cert.Proof.KI.k1_t4_trip.sl.r_270 Cert.Proof.KI.k1_t4_trip.sl.r_271 Cert.Proof.KI.k1_t4_trip.sl.r_272 Cert.Proof.KI.k1_t4_trip.sl.r_273 Cert.Proof.KI.k1_t4_trip.sl.r_274
        Cert.Proof.KI.k1_t4_trip.sl.r_275 Cert.Proof.KI.k1_t4_trip.sl.r_276 Cert.Proof.KI.k1_t4_trip.sl.r_277 Cert.Proof.KI.k1_t4_trip.sl.r_278 Cert.Proof.KI.k1_t4_trip.sl.r_279
        Cert.Proof.KI.k1_t4_trip.sl.r_280 Cert.Proof.KI.k1_t4_trip.sl.r_281 Cert.Proof.KI.k1_t4_trip.sl.r_282 Cert.Proof.KI.k1_t4_trip.sl.r_283 Cert.Proof.KI.k1_t4_trip.sl.r_284
        Cert.Proof.KI.k1_t4_trip.sl.r_285 Cert.Proof.KI.k1_t4_trip.sl.r_286 Cert.Proof.KI.k1_t4_trip.sl.r_287 Cert.Proof.KI.k1_t4_trip.sl.r_288 Cert.Proof.KI.k1_t4_trip.sl.r_289
        Cert.Proof.KI.k1_t4_trip.sl.r_290 Cert.Proof.KI.k1_t4_trip.sl.r_291 Cert.Proof.KI.k1_t4_trip.sl.r_292 Cert.Proof.KI.k1_t4_trip.sl.r_293 Cert.Proof.KI.k1_t4_trip.sl.r_294
        Cert.Proof.KI.k1_t4_trip.sl.r_295 Cert.Proof.KI.k1_t4_trip.sl.r_296 Cert.Proof.KI.k1_t4_trip.sl.r_297 Cert.Proof.KI.k1_t4_trip.sl.r_298 Cert.Proof.KI.k1_t4_trip.sl.r_299
        Cert.Proof.KI.k1_t4_trip.sl.r_300 Cert.Proof.KI.k1_t4_trip.sl.r_301 Cert.Proof.KI.k1_t4_trip.sl.r_302 Cert.Proof.KI.k1_t4_trip.sl.r_303 Cert.Proof.KI.k1_t4_trip.sl.r_304
        Cert.Proof.KI.k1_t4_trip.sl.r_305 Cert.Proof.KI.k1_t4_trip.sl.r_306 Cert.Proof.KI.k1_t4_trip.sl.r_307 Cert.Proof.KI.k1_t4_trip.sl.r_308 Cert.Proof.KI.k1_t4_trip.sl.r_309
        Cert.Proof.KI.k1_t4_trip.sl.r_310 Cert.Proof.KI.k1_t4_trip.sl.r_311 Cert.Proof.KI.k1_t4_trip.sl.r_312 Cert.Proof.KI.k1_t4_trip.sl.r_313 Cert.Proof.KI.k1_t4_trip.sl.r_314
        Cert.Proof.KI.k1_t4_trip.sl.r_315 Cert.Proof.KI.k1_t4_trip.sl.r_316 Cert.Proof.KI.k1_t4_trip.sl.r_317 Cert.Proof.KI.k1_t4_trip.sl.r_318
      conv_lhs => simp only [k1_pay2, k1_pay324, k1_pay325, k1_pay326, k1_pay327, k1_pay328, k1_pay329, k1_pay330, k1_pay331, k1_pay332, k1_pay333, k1_pay334, k1_pay335, k1_pay336, k1_pay337, k1_pay338,
        k1_pay339, k1_pay340, k1_pay341, k1_pay342, k1_pay343, k1_pay344, k1_pay345, k1_pay346, k1_pay347, k1_pay348, k1_pay349, k1_pay350, k1_pay351, k1_pay352, k1_pay353, k1_pay354,
        k1_pay355, k1_pay356, k1_pay357, k1_pay358, k1_pay359, k1_pay360, k1_pay361, k1_pay362, k1_pay363, k1_pay364, k1_pay365, k1_pay366, k1_pay367, k1_pay368, k1_pay369, k1_pay370,
        k1_pay371, k1_pay372, k1_pay373, k1_pay374, k1_pay375, k1_pay376, k1_pay377, k1_pay378, k1_pay379, k1_pay380, k1_pay381, k1_pay382, k1_pay383, k1_pay384, k1_pay385, k1_pay386,
        k1_pay387, k1_pay388, k1_pay389, k1_pay390, k1_pay391, k1_pay392, k1_pay393, k1_pay394, k1_pay395, k1_pay396, k1_pay397, k1_pay398, k1_pay399, k1_pay400, k1_pay401, k1_pay402,
        k1_pay403, k1_pay404, k1_pay405, k1_pay406, k1_pay407, k1_pay408, k1_pay409, k1_pay410, k1_pay411, k1_pay412, k1_pay413, k1_pay414, k1_pay415, k1_pay416, k1_pay417, k1_pay418,
        k1_pay419, k1_pay420, k1_pay421, k1_pay422, k1_pay423, k1_pay424, k1_pay425, k1_pay426, k1_pay427, k1_pay428, k1_pay429, k1_pay430, k1_pay431, k1_pay432, k1_pay433, k1_pay434,
        k1_pay435, k1_pay436, k1_pay437, k1_pay438, k1_pay439, k1_pay440, k1_pay441, k1_pay442, k1_pay443, k1_pay444, k1_pay445, k1_pay446, k1_pay447, k1_pay448, k1_pay449, k1_pay450,
        k1_pay451, k1_pay452, k1_pay453, k1_pay454, k1_pay455, k1_pay456, k1_pay457, k1_pay458, k1_pay459, k1_pay460, k1_pay461, k1_pay462, k1_pay463, k1_pay464, k1_pay465, k1_pay466,
        k1_pay467, k1_pay468, k1_pay469, k1_pay470, k1_pay471, k1_pay472, k1_pay473, k1_pay474, k1_pay475, k1_pay476, k1_pay477, k1_pay478, k1_pay479, k1_pay480, k1_pay481, k1_pay482,
        k1_pay483, k1_pay484, k1_pay485, k1_pay486, k1_pay487, k1_pay488, k1_pay489, k1_pay490, k1_pay491, k1_pay492, k1_pay493, k1_pay494, k1_pay495, k1_pay496, k1_pay497, k1_pay498,
        k1_pay499, k1_pay500, k1_pay501, k1_pay502, k1_pay503, k1_pay504, k1_pay505, k1_pay506, k1_pay507, k1_pay508, k1_pay509, k1_pay510, k1_pay511, k1_pay512, k1_pay513, k1_pay514,
        k1_pay515, k1_pay516, k1_pay517, k1_pay518, k1_pay519, k1_pay520, k1_pay521, k1_pay522, k1_pay523, k1_pay524, k1_pay525, k1_pay526, k1_pay527, k1_pay528, k1_pay529, k1_pay530,
        k1_pay531, k1_pay532, k1_pay533, k1_pay534, k1_pay535, k1_pay536, k1_pay537, k1_pay538, k1_pay539, k1_pay540, k1_pay541, k1_pay542, k1_pay543, k1_pay544, k1_pay545, k1_pay546,
        k1_pay547, k1_pay548, k1_pay549, k1_pay550, k1_pay551, k1_pay552, k1_pay553, k1_pay554, k1_pay555, k1_pay556, k1_pay557, k1_pay558, k1_pay559, k1_pay560, k1_pay561, k1_pay562,
        k1_pay563, k1_pay564, k1_pay565, k1_pay566, k1_pay567, k1_pay568, k1_pay569, k1_pay570, k1_pay571, k1_pay572, k1_pay573, k1_pay574, k1_pay575, k1_pay576, k1_pay577, k1_pay578,
        k1_pay579, k1_pay580, k1_pay581, k1_pay582, k1_pay583, k1_pay584, k1_pay585, k1_pay586, k1_pay587, k1_pay588, k1_pay589, k1_pay590, k1_pay591, k1_pay592, k1_pay593, k1_pay594,
        k1_pay595, k1_pay596, k1_pay597, k1_pay598, k1_pay599, k1_pay600, k1_pay601, k1_pay602, k1_pay603, k1_pay604, k1_pay605, k1_pay606, k1_pay607, k1_pay608, k1_pay609, k1_pay610,
        k1_pay611, k1_pay612, k1_pay613, k1_pay614, k1_pay615, k1_pay616, k1_pay617, k1_pay618, k1_pay619, k1_pay620, k1_pay621, k1_pay622, k1_pay623, k1_pay624, k1_pay625, k1_pay626,
        k1_pay627, k1_pay628, k1_pay629, k1_pay630, k1_pay631, k1_pay632, k1_pay633, k1_pay634, k1_pay635, k1_pay636, k1_pay637, k1_pay638, k1_pay639, k1_pay640, k1_pay641, k1_pay642,
        k1_pay643, k1_pay644, Pure.addf_at, Pure.mulf_at, Pure.broadcast_at, Pure.lane_at, Pure.cast16_16, Pure.cast1x16_16, Pure.cast16_1x16]
      rfl
    · intro l
      show _ = Pure.acc32 (rowW fw r) (rowE fb sub (⟨48 + l.val, by have := l.isLt; omega⟩ : Fin 128))
        (g (ix2 r (⟨48 + l.val, by have := l.isLt; omega⟩ : Fin 128)))
      refine ((?_ : _ = _).trans (Pure.acc32_chain (wraw4 fw t2 t) (eraw4_3 fb t l) (graw4_3 g t2 t l))).trans
        (Pure.acc32_congr (wraw4_eq fw t2 t r hr) (eraw4_3_eq fb t sub hs l _ rfl) (graw4_3_eq g t2 t r hr l _ rfl))
      delta Cert.Proof.KI.k1_t4_trip.sl.r Cert.Proof.KI.k1_t4_trip.sl.r_1 Cert.Proof.KI.k1_t4_trip.sl.r_2 Cert.Proof.KI.k1_t4_trip.sl.r_3 Cert.Proof.KI.k1_t4_trip.sl.r_4
        Cert.Proof.KI.k1_t4_trip.sl.r_5 Cert.Proof.KI.k1_t4_trip.sl.r_6 Cert.Proof.KI.k1_t4_trip.sl.r_7 Cert.Proof.KI.k1_t4_trip.sl.r_8 Cert.Proof.KI.k1_t4_trip.sl.r_9
        Cert.Proof.KI.k1_t4_trip.sl.r_10 Cert.Proof.KI.k1_t4_trip.sl.r_11 Cert.Proof.KI.k1_t4_trip.sl.r_12 Cert.Proof.KI.k1_t4_trip.sl.r_13 Cert.Proof.KI.k1_t4_trip.sl.r_14
        Cert.Proof.KI.k1_t4_trip.sl.r_15 Cert.Proof.KI.k1_t4_trip.sl.r_16 Cert.Proof.KI.k1_t4_trip.sl.r_17 Cert.Proof.KI.k1_t4_trip.sl.r_18 Cert.Proof.KI.k1_t4_trip.sl.r_19
        Cert.Proof.KI.k1_t4_trip.sl.r_20 Cert.Proof.KI.k1_t4_trip.sl.r_21 Cert.Proof.KI.k1_t4_trip.sl.r_22 Cert.Proof.KI.k1_t4_trip.sl.r_23 Cert.Proof.KI.k1_t4_trip.sl.r_24
        Cert.Proof.KI.k1_t4_trip.sl.r_25 Cert.Proof.KI.k1_t4_trip.sl.r_26 Cert.Proof.KI.k1_t4_trip.sl.r_27 Cert.Proof.KI.k1_t4_trip.sl.r_28 Cert.Proof.KI.k1_t4_trip.sl.r_29
        Cert.Proof.KI.k1_t4_trip.sl.r_30 Cert.Proof.KI.k1_t4_trip.sl.r_31 Cert.Proof.KI.k1_t4_trip.sl.r_32 Cert.Proof.KI.k1_t4_trip.sl.r_33 Cert.Proof.KI.k1_t4_trip.sl.r_34
        Cert.Proof.KI.k1_t4_trip.sl.r_35 Cert.Proof.KI.k1_t4_trip.sl.r_36 Cert.Proof.KI.k1_t4_trip.sl.r_37 Cert.Proof.KI.k1_t4_trip.sl.r_38 Cert.Proof.KI.k1_t4_trip.sl.r_39
        Cert.Proof.KI.k1_t4_trip.sl.r_40 Cert.Proof.KI.k1_t4_trip.sl.r_41 Cert.Proof.KI.k1_t4_trip.sl.r_42 Cert.Proof.KI.k1_t4_trip.sl.r_43 Cert.Proof.KI.k1_t4_trip.sl.r_44
        Cert.Proof.KI.k1_t4_trip.sl.r_45 Cert.Proof.KI.k1_t4_trip.sl.r_46 Cert.Proof.KI.k1_t4_trip.sl.r_47 Cert.Proof.KI.k1_t4_trip.sl.r_48 Cert.Proof.KI.k1_t4_trip.sl.r_49
        Cert.Proof.KI.k1_t4_trip.sl.r_50 Cert.Proof.KI.k1_t4_trip.sl.r_51 Cert.Proof.KI.k1_t4_trip.sl.r_52 Cert.Proof.KI.k1_t4_trip.sl.r_53 Cert.Proof.KI.k1_t4_trip.sl.r_54
        Cert.Proof.KI.k1_t4_trip.sl.r_55 Cert.Proof.KI.k1_t4_trip.sl.r_56 Cert.Proof.KI.k1_t4_trip.sl.r_57 Cert.Proof.KI.k1_t4_trip.sl.r_58 Cert.Proof.KI.k1_t4_trip.sl.r_59
        Cert.Proof.KI.k1_t4_trip.sl.r_60 Cert.Proof.KI.k1_t4_trip.sl.r_61 Cert.Proof.KI.k1_t4_trip.sl.r_62 Cert.Proof.KI.k1_t4_trip.sl.r_63 Cert.Proof.KI.k1_t4_trip.sl.r_64
        Cert.Proof.KI.k1_t4_trip.sl.r_65 Cert.Proof.KI.k1_t4_trip.sl.r_66 Cert.Proof.KI.k1_t4_trip.sl.r_67 Cert.Proof.KI.k1_t4_trip.sl.r_68 Cert.Proof.KI.k1_t4_trip.sl.r_69
        Cert.Proof.KI.k1_t4_trip.sl.r_70 Cert.Proof.KI.k1_t4_trip.sl.r_71 Cert.Proof.KI.k1_t4_trip.sl.r_72 Cert.Proof.KI.k1_t4_trip.sl.r_73 Cert.Proof.KI.k1_t4_trip.sl.r_74
        Cert.Proof.KI.k1_t4_trip.sl.r_75 Cert.Proof.KI.k1_t4_trip.sl.r_76 Cert.Proof.KI.k1_t4_trip.sl.r_77 Cert.Proof.KI.k1_t4_trip.sl.r_78 Cert.Proof.KI.k1_t4_trip.sl.r_79
        Cert.Proof.KI.k1_t4_trip.sl.r_80 Cert.Proof.KI.k1_t4_trip.sl.r_81 Cert.Proof.KI.k1_t4_trip.sl.r_82 Cert.Proof.KI.k1_t4_trip.sl.r_83 Cert.Proof.KI.k1_t4_trip.sl.r_84
        Cert.Proof.KI.k1_t4_trip.sl.r_85 Cert.Proof.KI.k1_t4_trip.sl.r_86 Cert.Proof.KI.k1_t4_trip.sl.r_87 Cert.Proof.KI.k1_t4_trip.sl.r_88 Cert.Proof.KI.k1_t4_trip.sl.r_89
        Cert.Proof.KI.k1_t4_trip.sl.r_90 Cert.Proof.KI.k1_t4_trip.sl.r_91 Cert.Proof.KI.k1_t4_trip.sl.r_92 Cert.Proof.KI.k1_t4_trip.sl.r_93 Cert.Proof.KI.k1_t4_trip.sl.r_94
        Cert.Proof.KI.k1_t4_trip.sl.r_95 Cert.Proof.KI.k1_t4_trip.sl.r_96 Cert.Proof.KI.k1_t4_trip.sl.r_97 Cert.Proof.KI.k1_t4_trip.sl.r_98 Cert.Proof.KI.k1_t4_trip.sl.r_99
        Cert.Proof.KI.k1_t4_trip.sl.r_100 Cert.Proof.KI.k1_t4_trip.sl.r_101 Cert.Proof.KI.k1_t4_trip.sl.r_102 Cert.Proof.KI.k1_t4_trip.sl.r_103 Cert.Proof.KI.k1_t4_trip.sl.r_104
        Cert.Proof.KI.k1_t4_trip.sl.r_105 Cert.Proof.KI.k1_t4_trip.sl.r_106 Cert.Proof.KI.k1_t4_trip.sl.r_107 Cert.Proof.KI.k1_t4_trip.sl.r_108 Cert.Proof.KI.k1_t4_trip.sl.r_109
        Cert.Proof.KI.k1_t4_trip.sl.r_110 Cert.Proof.KI.k1_t4_trip.sl.r_111 Cert.Proof.KI.k1_t4_trip.sl.r_112 Cert.Proof.KI.k1_t4_trip.sl.r_113 Cert.Proof.KI.k1_t4_trip.sl.r_114
        Cert.Proof.KI.k1_t4_trip.sl.r_115 Cert.Proof.KI.k1_t4_trip.sl.r_116 Cert.Proof.KI.k1_t4_trip.sl.r_117 Cert.Proof.KI.k1_t4_trip.sl.r_118 Cert.Proof.KI.k1_t4_trip.sl.r_119
        Cert.Proof.KI.k1_t4_trip.sl.r_120 Cert.Proof.KI.k1_t4_trip.sl.r_121 Cert.Proof.KI.k1_t4_trip.sl.r_122 Cert.Proof.KI.k1_t4_trip.sl.r_123 Cert.Proof.KI.k1_t4_trip.sl.r_124
        Cert.Proof.KI.k1_t4_trip.sl.r_125 Cert.Proof.KI.k1_t4_trip.sl.r_126 Cert.Proof.KI.k1_t4_trip.sl.r_127 Cert.Proof.KI.k1_t4_trip.sl.r_128 Cert.Proof.KI.k1_t4_trip.sl.r_129
        Cert.Proof.KI.k1_t4_trip.sl.r_130 Cert.Proof.KI.k1_t4_trip.sl.r_131 Cert.Proof.KI.k1_t4_trip.sl.r_132 Cert.Proof.KI.k1_t4_trip.sl.r_133 Cert.Proof.KI.k1_t4_trip.sl.r_134
        Cert.Proof.KI.k1_t4_trip.sl.r_135 Cert.Proof.KI.k1_t4_trip.sl.r_136 Cert.Proof.KI.k1_t4_trip.sl.r_137 Cert.Proof.KI.k1_t4_trip.sl.r_138 Cert.Proof.KI.k1_t4_trip.sl.r_139
        Cert.Proof.KI.k1_t4_trip.sl.r_140 Cert.Proof.KI.k1_t4_trip.sl.r_141 Cert.Proof.KI.k1_t4_trip.sl.r_142 Cert.Proof.KI.k1_t4_trip.sl.r_143 Cert.Proof.KI.k1_t4_trip.sl.r_144
        Cert.Proof.KI.k1_t4_trip.sl.r_145 Cert.Proof.KI.k1_t4_trip.sl.r_146 Cert.Proof.KI.k1_t4_trip.sl.r_147 Cert.Proof.KI.k1_t4_trip.sl.r_148 Cert.Proof.KI.k1_t4_trip.sl.r_149
        Cert.Proof.KI.k1_t4_trip.sl.r_150 Cert.Proof.KI.k1_t4_trip.sl.r_151 Cert.Proof.KI.k1_t4_trip.sl.r_152 Cert.Proof.KI.k1_t4_trip.sl.r_153 Cert.Proof.KI.k1_t4_trip.sl.r_154
        Cert.Proof.KI.k1_t4_trip.sl.r_155 Cert.Proof.KI.k1_t4_trip.sl.r_156 Cert.Proof.KI.k1_t4_trip.sl.r_157 Cert.Proof.KI.k1_t4_trip.sl.r_158 Cert.Proof.KI.k1_t4_trip.sl.r_159
        Cert.Proof.KI.k1_t4_trip.sl.r_160 Cert.Proof.KI.k1_t4_trip.sl.r_161 Cert.Proof.KI.k1_t4_trip.sl.r_162 Cert.Proof.KI.k1_t4_trip.sl.r_163 Cert.Proof.KI.k1_t4_trip.sl.r_164
        Cert.Proof.KI.k1_t4_trip.sl.r_165 Cert.Proof.KI.k1_t4_trip.sl.r_166 Cert.Proof.KI.k1_t4_trip.sl.r_167 Cert.Proof.KI.k1_t4_trip.sl.r_168 Cert.Proof.KI.k1_t4_trip.sl.r_169
        Cert.Proof.KI.k1_t4_trip.sl.r_170 Cert.Proof.KI.k1_t4_trip.sl.r_171 Cert.Proof.KI.k1_t4_trip.sl.r_172 Cert.Proof.KI.k1_t4_trip.sl.r_173 Cert.Proof.KI.k1_t4_trip.sl.r_174
        Cert.Proof.KI.k1_t4_trip.sl.r_175 Cert.Proof.KI.k1_t4_trip.sl.r_176 Cert.Proof.KI.k1_t4_trip.sl.r_177 Cert.Proof.KI.k1_t4_trip.sl.r_178 Cert.Proof.KI.k1_t4_trip.sl.r_179
        Cert.Proof.KI.k1_t4_trip.sl.r_180 Cert.Proof.KI.k1_t4_trip.sl.r_181 Cert.Proof.KI.k1_t4_trip.sl.r_182 Cert.Proof.KI.k1_t4_trip.sl.r_183 Cert.Proof.KI.k1_t4_trip.sl.r_184
        Cert.Proof.KI.k1_t4_trip.sl.r_185 Cert.Proof.KI.k1_t4_trip.sl.r_186 Cert.Proof.KI.k1_t4_trip.sl.r_187 Cert.Proof.KI.k1_t4_trip.sl.r_188 Cert.Proof.KI.k1_t4_trip.sl.r_189
        Cert.Proof.KI.k1_t4_trip.sl.r_190 Cert.Proof.KI.k1_t4_trip.sl.r_191 Cert.Proof.KI.k1_t4_trip.sl.r_192 Cert.Proof.KI.k1_t4_trip.sl.r_193 Cert.Proof.KI.k1_t4_trip.sl.r_194
        Cert.Proof.KI.k1_t4_trip.sl.r_195 Cert.Proof.KI.k1_t4_trip.sl.r_196 Cert.Proof.KI.k1_t4_trip.sl.r_197 Cert.Proof.KI.k1_t4_trip.sl.r_198 Cert.Proof.KI.k1_t4_trip.sl.r_199
        Cert.Proof.KI.k1_t4_trip.sl.r_200 Cert.Proof.KI.k1_t4_trip.sl.r_201 Cert.Proof.KI.k1_t4_trip.sl.r_202 Cert.Proof.KI.k1_t4_trip.sl.r_203 Cert.Proof.KI.k1_t4_trip.sl.r_204
        Cert.Proof.KI.k1_t4_trip.sl.r_205 Cert.Proof.KI.k1_t4_trip.sl.r_206 Cert.Proof.KI.k1_t4_trip.sl.r_207 Cert.Proof.KI.k1_t4_trip.sl.r_208 Cert.Proof.KI.k1_t4_trip.sl.r_209
        Cert.Proof.KI.k1_t4_trip.sl.r_210 Cert.Proof.KI.k1_t4_trip.sl.r_211 Cert.Proof.KI.k1_t4_trip.sl.r_212 Cert.Proof.KI.k1_t4_trip.sl.r_213 Cert.Proof.KI.k1_t4_trip.sl.r_214
        Cert.Proof.KI.k1_t4_trip.sl.r_215 Cert.Proof.KI.k1_t4_trip.sl.r_216 Cert.Proof.KI.k1_t4_trip.sl.r_217 Cert.Proof.KI.k1_t4_trip.sl.r_218 Cert.Proof.KI.k1_t4_trip.sl.r_219
        Cert.Proof.KI.k1_t4_trip.sl.r_220 Cert.Proof.KI.k1_t4_trip.sl.r_221 Cert.Proof.KI.k1_t4_trip.sl.r_222 Cert.Proof.KI.k1_t4_trip.sl.r_223 Cert.Proof.KI.k1_t4_trip.sl.r_224
        Cert.Proof.KI.k1_t4_trip.sl.r_225 Cert.Proof.KI.k1_t4_trip.sl.r_226 Cert.Proof.KI.k1_t4_trip.sl.r_227 Cert.Proof.KI.k1_t4_trip.sl.r_228 Cert.Proof.KI.k1_t4_trip.sl.r_229
        Cert.Proof.KI.k1_t4_trip.sl.r_230 Cert.Proof.KI.k1_t4_trip.sl.r_231 Cert.Proof.KI.k1_t4_trip.sl.r_232 Cert.Proof.KI.k1_t4_trip.sl.r_233 Cert.Proof.KI.k1_t4_trip.sl.r_234
        Cert.Proof.KI.k1_t4_trip.sl.r_235 Cert.Proof.KI.k1_t4_trip.sl.r_236 Cert.Proof.KI.k1_t4_trip.sl.r_237 Cert.Proof.KI.k1_t4_trip.sl.r_238 Cert.Proof.KI.k1_t4_trip.sl.r_239
        Cert.Proof.KI.k1_t4_trip.sl.r_240 Cert.Proof.KI.k1_t4_trip.sl.r_241 Cert.Proof.KI.k1_t4_trip.sl.r_242 Cert.Proof.KI.k1_t4_trip.sl.r_243 Cert.Proof.KI.k1_t4_trip.sl.r_244
        Cert.Proof.KI.k1_t4_trip.sl.r_245 Cert.Proof.KI.k1_t4_trip.sl.r_246 Cert.Proof.KI.k1_t4_trip.sl.r_247 Cert.Proof.KI.k1_t4_trip.sl.r_248 Cert.Proof.KI.k1_t4_trip.sl.r_249
        Cert.Proof.KI.k1_t4_trip.sl.r_250 Cert.Proof.KI.k1_t4_trip.sl.r_251 Cert.Proof.KI.k1_t4_trip.sl.r_252 Cert.Proof.KI.k1_t4_trip.sl.r_253 Cert.Proof.KI.k1_t4_trip.sl.r_254
        Cert.Proof.KI.k1_t4_trip.sl.r_255 Cert.Proof.KI.k1_t4_trip.sl.r_256 Cert.Proof.KI.k1_t4_trip.sl.r_257 Cert.Proof.KI.k1_t4_trip.sl.r_258 Cert.Proof.KI.k1_t4_trip.sl.r_259
        Cert.Proof.KI.k1_t4_trip.sl.r_260 Cert.Proof.KI.k1_t4_trip.sl.r_261 Cert.Proof.KI.k1_t4_trip.sl.r_262 Cert.Proof.KI.k1_t4_trip.sl.r_263 Cert.Proof.KI.k1_t4_trip.sl.r_264
        Cert.Proof.KI.k1_t4_trip.sl.r_265 Cert.Proof.KI.k1_t4_trip.sl.r_266 Cert.Proof.KI.k1_t4_trip.sl.r_267 Cert.Proof.KI.k1_t4_trip.sl.r_268 Cert.Proof.KI.k1_t4_trip.sl.r_269
        Cert.Proof.KI.k1_t4_trip.sl.r_270 Cert.Proof.KI.k1_t4_trip.sl.r_271 Cert.Proof.KI.k1_t4_trip.sl.r_272 Cert.Proof.KI.k1_t4_trip.sl.r_273 Cert.Proof.KI.k1_t4_trip.sl.r_274
        Cert.Proof.KI.k1_t4_trip.sl.r_275 Cert.Proof.KI.k1_t4_trip.sl.r_276 Cert.Proof.KI.k1_t4_trip.sl.r_277 Cert.Proof.KI.k1_t4_trip.sl.r_278 Cert.Proof.KI.k1_t4_trip.sl.r_279
        Cert.Proof.KI.k1_t4_trip.sl.r_280 Cert.Proof.KI.k1_t4_trip.sl.r_281 Cert.Proof.KI.k1_t4_trip.sl.r_282 Cert.Proof.KI.k1_t4_trip.sl.r_283 Cert.Proof.KI.k1_t4_trip.sl.r_284
        Cert.Proof.KI.k1_t4_trip.sl.r_285 Cert.Proof.KI.k1_t4_trip.sl.r_286 Cert.Proof.KI.k1_t4_trip.sl.r_287 Cert.Proof.KI.k1_t4_trip.sl.r_288 Cert.Proof.KI.k1_t4_trip.sl.r_289
        Cert.Proof.KI.k1_t4_trip.sl.r_290 Cert.Proof.KI.k1_t4_trip.sl.r_291 Cert.Proof.KI.k1_t4_trip.sl.r_292 Cert.Proof.KI.k1_t4_trip.sl.r_293 Cert.Proof.KI.k1_t4_trip.sl.r_294
        Cert.Proof.KI.k1_t4_trip.sl.r_295 Cert.Proof.KI.k1_t4_trip.sl.r_296 Cert.Proof.KI.k1_t4_trip.sl.r_297 Cert.Proof.KI.k1_t4_trip.sl.r_298 Cert.Proof.KI.k1_t4_trip.sl.r_299
        Cert.Proof.KI.k1_t4_trip.sl.r_300 Cert.Proof.KI.k1_t4_trip.sl.r_301 Cert.Proof.KI.k1_t4_trip.sl.r_302 Cert.Proof.KI.k1_t4_trip.sl.r_303 Cert.Proof.KI.k1_t4_trip.sl.r_304
        Cert.Proof.KI.k1_t4_trip.sl.r_305 Cert.Proof.KI.k1_t4_trip.sl.r_306 Cert.Proof.KI.k1_t4_trip.sl.r_307 Cert.Proof.KI.k1_t4_trip.sl.r_308 Cert.Proof.KI.k1_t4_trip.sl.r_309
        Cert.Proof.KI.k1_t4_trip.sl.r_310 Cert.Proof.KI.k1_t4_trip.sl.r_311 Cert.Proof.KI.k1_t4_trip.sl.r_312 Cert.Proof.KI.k1_t4_trip.sl.r_313 Cert.Proof.KI.k1_t4_trip.sl.r_314
        Cert.Proof.KI.k1_t4_trip.sl.r_315 Cert.Proof.KI.k1_t4_trip.sl.r_316 Cert.Proof.KI.k1_t4_trip.sl.r_317 Cert.Proof.KI.k1_t4_trip.sl.r_318
      conv_lhs => simp only [k1_pay2, k1_pay324, k1_pay325, k1_pay326, k1_pay327, k1_pay328, k1_pay329, k1_pay330, k1_pay331, k1_pay332, k1_pay333, k1_pay334, k1_pay335, k1_pay336, k1_pay337, k1_pay338,
        k1_pay339, k1_pay340, k1_pay341, k1_pay342, k1_pay343, k1_pay344, k1_pay345, k1_pay346, k1_pay347, k1_pay348, k1_pay349, k1_pay350, k1_pay351, k1_pay352, k1_pay353, k1_pay354,
        k1_pay355, k1_pay356, k1_pay357, k1_pay358, k1_pay359, k1_pay360, k1_pay361, k1_pay362, k1_pay363, k1_pay364, k1_pay365, k1_pay366, k1_pay367, k1_pay368, k1_pay369, k1_pay370,
        k1_pay371, k1_pay372, k1_pay373, k1_pay374, k1_pay375, k1_pay376, k1_pay377, k1_pay378, k1_pay379, k1_pay380, k1_pay381, k1_pay382, k1_pay383, k1_pay384, k1_pay385, k1_pay386,
        k1_pay387, k1_pay388, k1_pay389, k1_pay390, k1_pay391, k1_pay392, k1_pay393, k1_pay394, k1_pay395, k1_pay396, k1_pay397, k1_pay398, k1_pay399, k1_pay400, k1_pay401, k1_pay402,
        k1_pay403, k1_pay404, k1_pay405, k1_pay406, k1_pay407, k1_pay408, k1_pay409, k1_pay410, k1_pay411, k1_pay412, k1_pay413, k1_pay414, k1_pay415, k1_pay416, k1_pay417, k1_pay418,
        k1_pay419, k1_pay420, k1_pay421, k1_pay422, k1_pay423, k1_pay424, k1_pay425, k1_pay426, k1_pay427, k1_pay428, k1_pay429, k1_pay430, k1_pay431, k1_pay432, k1_pay433, k1_pay434,
        k1_pay435, k1_pay436, k1_pay437, k1_pay438, k1_pay439, k1_pay440, k1_pay441, k1_pay442, k1_pay443, k1_pay444, k1_pay445, k1_pay446, k1_pay447, k1_pay448, k1_pay449, k1_pay450,
        k1_pay451, k1_pay452, k1_pay453, k1_pay454, k1_pay455, k1_pay456, k1_pay457, k1_pay458, k1_pay459, k1_pay460, k1_pay461, k1_pay462, k1_pay463, k1_pay464, k1_pay465, k1_pay466,
        k1_pay467, k1_pay468, k1_pay469, k1_pay470, k1_pay471, k1_pay472, k1_pay473, k1_pay474, k1_pay475, k1_pay476, k1_pay477, k1_pay478, k1_pay479, k1_pay480, k1_pay481, k1_pay482,
        k1_pay483, k1_pay484, k1_pay485, k1_pay486, k1_pay487, k1_pay488, k1_pay489, k1_pay490, k1_pay491, k1_pay492, k1_pay493, k1_pay494, k1_pay495, k1_pay496, k1_pay497, k1_pay498,
        k1_pay499, k1_pay500, k1_pay501, k1_pay502, k1_pay503, k1_pay504, k1_pay505, k1_pay506, k1_pay507, k1_pay508, k1_pay509, k1_pay510, k1_pay511, k1_pay512, k1_pay513, k1_pay514,
        k1_pay515, k1_pay516, k1_pay517, k1_pay518, k1_pay519, k1_pay520, k1_pay521, k1_pay522, k1_pay523, k1_pay524, k1_pay525, k1_pay526, k1_pay527, k1_pay528, k1_pay529, k1_pay530,
        k1_pay531, k1_pay532, k1_pay533, k1_pay534, k1_pay535, k1_pay536, k1_pay537, k1_pay538, k1_pay539, k1_pay540, k1_pay541, k1_pay542, k1_pay543, k1_pay544, k1_pay545, k1_pay546,
        k1_pay547, k1_pay548, k1_pay549, k1_pay550, k1_pay551, k1_pay552, k1_pay553, k1_pay554, k1_pay555, k1_pay556, k1_pay557, k1_pay558, k1_pay559, k1_pay560, k1_pay561, k1_pay562,
        k1_pay563, k1_pay564, k1_pay565, k1_pay566, k1_pay567, k1_pay568, k1_pay569, k1_pay570, k1_pay571, k1_pay572, k1_pay573, k1_pay574, k1_pay575, k1_pay576, k1_pay577, k1_pay578,
        k1_pay579, k1_pay580, k1_pay581, k1_pay582, k1_pay583, k1_pay584, k1_pay585, k1_pay586, k1_pay587, k1_pay588, k1_pay589, k1_pay590, k1_pay591, k1_pay592, k1_pay593, k1_pay594,
        k1_pay595, k1_pay596, k1_pay597, k1_pay598, k1_pay599, k1_pay600, k1_pay601, k1_pay602, k1_pay603, k1_pay604, k1_pay605, k1_pay606, k1_pay607, k1_pay608, k1_pay609, k1_pay610,
        k1_pay611, k1_pay612, k1_pay613, k1_pay614, k1_pay615, k1_pay616, k1_pay617, k1_pay618, k1_pay619, k1_pay620, k1_pay621, k1_pay622, k1_pay623, k1_pay624, k1_pay625, k1_pay626,
        k1_pay627, k1_pay628, k1_pay629, k1_pay630, k1_pay631, k1_pay632, k1_pay633, k1_pay634, k1_pay635, k1_pay636, k1_pay637, k1_pay638, k1_pay639, k1_pay640, k1_pay641, k1_pay642,
        k1_pay643, k1_pay644, Pure.addf_at, Pure.mulf_at, Pure.broadcast_at, Pure.lane_at, Pure.cast16_16, Pure.cast1x16_16, Pure.cast16_1x16]
      rfl
    · intro l
      show _ = Pure.acc32 (rowW fw r) (rowE fb sub (⟨64 + l.val, by have := l.isLt; omega⟩ : Fin 128))
        (g (ix2 r (⟨64 + l.val, by have := l.isLt; omega⟩ : Fin 128)))
      refine ((?_ : _ = _).trans (Pure.acc32_chain (wraw4 fw t2 t) (eraw4_4 fb t l) (graw4_4 g t2 t l))).trans
        (Pure.acc32_congr (wraw4_eq fw t2 t r hr) (eraw4_4_eq fb t sub hs l _ rfl) (graw4_4_eq g t2 t r hr l _ rfl))
      delta Cert.Proof.KI.k1_t4_trip.sl.r Cert.Proof.KI.k1_t4_trip.sl.r_1 Cert.Proof.KI.k1_t4_trip.sl.r_2 Cert.Proof.KI.k1_t4_trip.sl.r_3 Cert.Proof.KI.k1_t4_trip.sl.r_4
        Cert.Proof.KI.k1_t4_trip.sl.r_5 Cert.Proof.KI.k1_t4_trip.sl.r_6 Cert.Proof.KI.k1_t4_trip.sl.r_7 Cert.Proof.KI.k1_t4_trip.sl.r_8 Cert.Proof.KI.k1_t4_trip.sl.r_9
        Cert.Proof.KI.k1_t4_trip.sl.r_10 Cert.Proof.KI.k1_t4_trip.sl.r_11 Cert.Proof.KI.k1_t4_trip.sl.r_12 Cert.Proof.KI.k1_t4_trip.sl.r_13 Cert.Proof.KI.k1_t4_trip.sl.r_14
        Cert.Proof.KI.k1_t4_trip.sl.r_15 Cert.Proof.KI.k1_t4_trip.sl.r_16 Cert.Proof.KI.k1_t4_trip.sl.r_17 Cert.Proof.KI.k1_t4_trip.sl.r_18 Cert.Proof.KI.k1_t4_trip.sl.r_19
        Cert.Proof.KI.k1_t4_trip.sl.r_20 Cert.Proof.KI.k1_t4_trip.sl.r_21 Cert.Proof.KI.k1_t4_trip.sl.r_22 Cert.Proof.KI.k1_t4_trip.sl.r_23 Cert.Proof.KI.k1_t4_trip.sl.r_24
        Cert.Proof.KI.k1_t4_trip.sl.r_25 Cert.Proof.KI.k1_t4_trip.sl.r_26 Cert.Proof.KI.k1_t4_trip.sl.r_27 Cert.Proof.KI.k1_t4_trip.sl.r_28 Cert.Proof.KI.k1_t4_trip.sl.r_29
        Cert.Proof.KI.k1_t4_trip.sl.r_30 Cert.Proof.KI.k1_t4_trip.sl.r_31 Cert.Proof.KI.k1_t4_trip.sl.r_32 Cert.Proof.KI.k1_t4_trip.sl.r_33 Cert.Proof.KI.k1_t4_trip.sl.r_34
        Cert.Proof.KI.k1_t4_trip.sl.r_35 Cert.Proof.KI.k1_t4_trip.sl.r_36 Cert.Proof.KI.k1_t4_trip.sl.r_37 Cert.Proof.KI.k1_t4_trip.sl.r_38 Cert.Proof.KI.k1_t4_trip.sl.r_39
        Cert.Proof.KI.k1_t4_trip.sl.r_40 Cert.Proof.KI.k1_t4_trip.sl.r_41 Cert.Proof.KI.k1_t4_trip.sl.r_42 Cert.Proof.KI.k1_t4_trip.sl.r_43 Cert.Proof.KI.k1_t4_trip.sl.r_44
        Cert.Proof.KI.k1_t4_trip.sl.r_45 Cert.Proof.KI.k1_t4_trip.sl.r_46 Cert.Proof.KI.k1_t4_trip.sl.r_47 Cert.Proof.KI.k1_t4_trip.sl.r_48 Cert.Proof.KI.k1_t4_trip.sl.r_49
        Cert.Proof.KI.k1_t4_trip.sl.r_50 Cert.Proof.KI.k1_t4_trip.sl.r_51 Cert.Proof.KI.k1_t4_trip.sl.r_52 Cert.Proof.KI.k1_t4_trip.sl.r_53 Cert.Proof.KI.k1_t4_trip.sl.r_54
        Cert.Proof.KI.k1_t4_trip.sl.r_55 Cert.Proof.KI.k1_t4_trip.sl.r_56 Cert.Proof.KI.k1_t4_trip.sl.r_57 Cert.Proof.KI.k1_t4_trip.sl.r_58 Cert.Proof.KI.k1_t4_trip.sl.r_59
        Cert.Proof.KI.k1_t4_trip.sl.r_60 Cert.Proof.KI.k1_t4_trip.sl.r_61 Cert.Proof.KI.k1_t4_trip.sl.r_62 Cert.Proof.KI.k1_t4_trip.sl.r_63 Cert.Proof.KI.k1_t4_trip.sl.r_64
        Cert.Proof.KI.k1_t4_trip.sl.r_65 Cert.Proof.KI.k1_t4_trip.sl.r_66 Cert.Proof.KI.k1_t4_trip.sl.r_67 Cert.Proof.KI.k1_t4_trip.sl.r_68 Cert.Proof.KI.k1_t4_trip.sl.r_69
        Cert.Proof.KI.k1_t4_trip.sl.r_70 Cert.Proof.KI.k1_t4_trip.sl.r_71 Cert.Proof.KI.k1_t4_trip.sl.r_72 Cert.Proof.KI.k1_t4_trip.sl.r_73 Cert.Proof.KI.k1_t4_trip.sl.r_74
        Cert.Proof.KI.k1_t4_trip.sl.r_75 Cert.Proof.KI.k1_t4_trip.sl.r_76 Cert.Proof.KI.k1_t4_trip.sl.r_77 Cert.Proof.KI.k1_t4_trip.sl.r_78 Cert.Proof.KI.k1_t4_trip.sl.r_79
        Cert.Proof.KI.k1_t4_trip.sl.r_80 Cert.Proof.KI.k1_t4_trip.sl.r_81 Cert.Proof.KI.k1_t4_trip.sl.r_82 Cert.Proof.KI.k1_t4_trip.sl.r_83 Cert.Proof.KI.k1_t4_trip.sl.r_84
        Cert.Proof.KI.k1_t4_trip.sl.r_85 Cert.Proof.KI.k1_t4_trip.sl.r_86 Cert.Proof.KI.k1_t4_trip.sl.r_87 Cert.Proof.KI.k1_t4_trip.sl.r_88 Cert.Proof.KI.k1_t4_trip.sl.r_89
        Cert.Proof.KI.k1_t4_trip.sl.r_90 Cert.Proof.KI.k1_t4_trip.sl.r_91 Cert.Proof.KI.k1_t4_trip.sl.r_92 Cert.Proof.KI.k1_t4_trip.sl.r_93 Cert.Proof.KI.k1_t4_trip.sl.r_94
        Cert.Proof.KI.k1_t4_trip.sl.r_95 Cert.Proof.KI.k1_t4_trip.sl.r_96 Cert.Proof.KI.k1_t4_trip.sl.r_97 Cert.Proof.KI.k1_t4_trip.sl.r_98 Cert.Proof.KI.k1_t4_trip.sl.r_99
        Cert.Proof.KI.k1_t4_trip.sl.r_100 Cert.Proof.KI.k1_t4_trip.sl.r_101 Cert.Proof.KI.k1_t4_trip.sl.r_102 Cert.Proof.KI.k1_t4_trip.sl.r_103 Cert.Proof.KI.k1_t4_trip.sl.r_104
        Cert.Proof.KI.k1_t4_trip.sl.r_105 Cert.Proof.KI.k1_t4_trip.sl.r_106 Cert.Proof.KI.k1_t4_trip.sl.r_107 Cert.Proof.KI.k1_t4_trip.sl.r_108 Cert.Proof.KI.k1_t4_trip.sl.r_109
        Cert.Proof.KI.k1_t4_trip.sl.r_110 Cert.Proof.KI.k1_t4_trip.sl.r_111 Cert.Proof.KI.k1_t4_trip.sl.r_112 Cert.Proof.KI.k1_t4_trip.sl.r_113 Cert.Proof.KI.k1_t4_trip.sl.r_114
        Cert.Proof.KI.k1_t4_trip.sl.r_115 Cert.Proof.KI.k1_t4_trip.sl.r_116 Cert.Proof.KI.k1_t4_trip.sl.r_117 Cert.Proof.KI.k1_t4_trip.sl.r_118 Cert.Proof.KI.k1_t4_trip.sl.r_119
        Cert.Proof.KI.k1_t4_trip.sl.r_120 Cert.Proof.KI.k1_t4_trip.sl.r_121 Cert.Proof.KI.k1_t4_trip.sl.r_122 Cert.Proof.KI.k1_t4_trip.sl.r_123 Cert.Proof.KI.k1_t4_trip.sl.r_124
        Cert.Proof.KI.k1_t4_trip.sl.r_125 Cert.Proof.KI.k1_t4_trip.sl.r_126 Cert.Proof.KI.k1_t4_trip.sl.r_127 Cert.Proof.KI.k1_t4_trip.sl.r_128 Cert.Proof.KI.k1_t4_trip.sl.r_129
        Cert.Proof.KI.k1_t4_trip.sl.r_130 Cert.Proof.KI.k1_t4_trip.sl.r_131 Cert.Proof.KI.k1_t4_trip.sl.r_132 Cert.Proof.KI.k1_t4_trip.sl.r_133 Cert.Proof.KI.k1_t4_trip.sl.r_134
        Cert.Proof.KI.k1_t4_trip.sl.r_135 Cert.Proof.KI.k1_t4_trip.sl.r_136 Cert.Proof.KI.k1_t4_trip.sl.r_137 Cert.Proof.KI.k1_t4_trip.sl.r_138 Cert.Proof.KI.k1_t4_trip.sl.r_139
        Cert.Proof.KI.k1_t4_trip.sl.r_140 Cert.Proof.KI.k1_t4_trip.sl.r_141 Cert.Proof.KI.k1_t4_trip.sl.r_142 Cert.Proof.KI.k1_t4_trip.sl.r_143 Cert.Proof.KI.k1_t4_trip.sl.r_144
        Cert.Proof.KI.k1_t4_trip.sl.r_145 Cert.Proof.KI.k1_t4_trip.sl.r_146 Cert.Proof.KI.k1_t4_trip.sl.r_147 Cert.Proof.KI.k1_t4_trip.sl.r_148 Cert.Proof.KI.k1_t4_trip.sl.r_149
        Cert.Proof.KI.k1_t4_trip.sl.r_150 Cert.Proof.KI.k1_t4_trip.sl.r_151 Cert.Proof.KI.k1_t4_trip.sl.r_152 Cert.Proof.KI.k1_t4_trip.sl.r_153 Cert.Proof.KI.k1_t4_trip.sl.r_154
        Cert.Proof.KI.k1_t4_trip.sl.r_155 Cert.Proof.KI.k1_t4_trip.sl.r_156 Cert.Proof.KI.k1_t4_trip.sl.r_157 Cert.Proof.KI.k1_t4_trip.sl.r_158 Cert.Proof.KI.k1_t4_trip.sl.r_159
        Cert.Proof.KI.k1_t4_trip.sl.r_160 Cert.Proof.KI.k1_t4_trip.sl.r_161 Cert.Proof.KI.k1_t4_trip.sl.r_162 Cert.Proof.KI.k1_t4_trip.sl.r_163 Cert.Proof.KI.k1_t4_trip.sl.r_164
        Cert.Proof.KI.k1_t4_trip.sl.r_165 Cert.Proof.KI.k1_t4_trip.sl.r_166 Cert.Proof.KI.k1_t4_trip.sl.r_167 Cert.Proof.KI.k1_t4_trip.sl.r_168 Cert.Proof.KI.k1_t4_trip.sl.r_169
        Cert.Proof.KI.k1_t4_trip.sl.r_170 Cert.Proof.KI.k1_t4_trip.sl.r_171 Cert.Proof.KI.k1_t4_trip.sl.r_172 Cert.Proof.KI.k1_t4_trip.sl.r_173 Cert.Proof.KI.k1_t4_trip.sl.r_174
        Cert.Proof.KI.k1_t4_trip.sl.r_175 Cert.Proof.KI.k1_t4_trip.sl.r_176 Cert.Proof.KI.k1_t4_trip.sl.r_177 Cert.Proof.KI.k1_t4_trip.sl.r_178 Cert.Proof.KI.k1_t4_trip.sl.r_179
        Cert.Proof.KI.k1_t4_trip.sl.r_180 Cert.Proof.KI.k1_t4_trip.sl.r_181 Cert.Proof.KI.k1_t4_trip.sl.r_182 Cert.Proof.KI.k1_t4_trip.sl.r_183 Cert.Proof.KI.k1_t4_trip.sl.r_184
        Cert.Proof.KI.k1_t4_trip.sl.r_185 Cert.Proof.KI.k1_t4_trip.sl.r_186 Cert.Proof.KI.k1_t4_trip.sl.r_187 Cert.Proof.KI.k1_t4_trip.sl.r_188 Cert.Proof.KI.k1_t4_trip.sl.r_189
        Cert.Proof.KI.k1_t4_trip.sl.r_190 Cert.Proof.KI.k1_t4_trip.sl.r_191 Cert.Proof.KI.k1_t4_trip.sl.r_192 Cert.Proof.KI.k1_t4_trip.sl.r_193 Cert.Proof.KI.k1_t4_trip.sl.r_194
        Cert.Proof.KI.k1_t4_trip.sl.r_195 Cert.Proof.KI.k1_t4_trip.sl.r_196 Cert.Proof.KI.k1_t4_trip.sl.r_197 Cert.Proof.KI.k1_t4_trip.sl.r_198 Cert.Proof.KI.k1_t4_trip.sl.r_199
        Cert.Proof.KI.k1_t4_trip.sl.r_200 Cert.Proof.KI.k1_t4_trip.sl.r_201 Cert.Proof.KI.k1_t4_trip.sl.r_202 Cert.Proof.KI.k1_t4_trip.sl.r_203 Cert.Proof.KI.k1_t4_trip.sl.r_204
        Cert.Proof.KI.k1_t4_trip.sl.r_205 Cert.Proof.KI.k1_t4_trip.sl.r_206 Cert.Proof.KI.k1_t4_trip.sl.r_207 Cert.Proof.KI.k1_t4_trip.sl.r_208 Cert.Proof.KI.k1_t4_trip.sl.r_209
        Cert.Proof.KI.k1_t4_trip.sl.r_210 Cert.Proof.KI.k1_t4_trip.sl.r_211 Cert.Proof.KI.k1_t4_trip.sl.r_212 Cert.Proof.KI.k1_t4_trip.sl.r_213 Cert.Proof.KI.k1_t4_trip.sl.r_214
        Cert.Proof.KI.k1_t4_trip.sl.r_215 Cert.Proof.KI.k1_t4_trip.sl.r_216 Cert.Proof.KI.k1_t4_trip.sl.r_217 Cert.Proof.KI.k1_t4_trip.sl.r_218 Cert.Proof.KI.k1_t4_trip.sl.r_219
        Cert.Proof.KI.k1_t4_trip.sl.r_220 Cert.Proof.KI.k1_t4_trip.sl.r_221 Cert.Proof.KI.k1_t4_trip.sl.r_222 Cert.Proof.KI.k1_t4_trip.sl.r_223 Cert.Proof.KI.k1_t4_trip.sl.r_224
        Cert.Proof.KI.k1_t4_trip.sl.r_225 Cert.Proof.KI.k1_t4_trip.sl.r_226 Cert.Proof.KI.k1_t4_trip.sl.r_227 Cert.Proof.KI.k1_t4_trip.sl.r_228 Cert.Proof.KI.k1_t4_trip.sl.r_229
        Cert.Proof.KI.k1_t4_trip.sl.r_230 Cert.Proof.KI.k1_t4_trip.sl.r_231 Cert.Proof.KI.k1_t4_trip.sl.r_232 Cert.Proof.KI.k1_t4_trip.sl.r_233 Cert.Proof.KI.k1_t4_trip.sl.r_234
        Cert.Proof.KI.k1_t4_trip.sl.r_235 Cert.Proof.KI.k1_t4_trip.sl.r_236 Cert.Proof.KI.k1_t4_trip.sl.r_237 Cert.Proof.KI.k1_t4_trip.sl.r_238 Cert.Proof.KI.k1_t4_trip.sl.r_239
        Cert.Proof.KI.k1_t4_trip.sl.r_240 Cert.Proof.KI.k1_t4_trip.sl.r_241 Cert.Proof.KI.k1_t4_trip.sl.r_242 Cert.Proof.KI.k1_t4_trip.sl.r_243 Cert.Proof.KI.k1_t4_trip.sl.r_244
        Cert.Proof.KI.k1_t4_trip.sl.r_245 Cert.Proof.KI.k1_t4_trip.sl.r_246 Cert.Proof.KI.k1_t4_trip.sl.r_247 Cert.Proof.KI.k1_t4_trip.sl.r_248 Cert.Proof.KI.k1_t4_trip.sl.r_249
        Cert.Proof.KI.k1_t4_trip.sl.r_250 Cert.Proof.KI.k1_t4_trip.sl.r_251 Cert.Proof.KI.k1_t4_trip.sl.r_252 Cert.Proof.KI.k1_t4_trip.sl.r_253 Cert.Proof.KI.k1_t4_trip.sl.r_254
        Cert.Proof.KI.k1_t4_trip.sl.r_255 Cert.Proof.KI.k1_t4_trip.sl.r_256 Cert.Proof.KI.k1_t4_trip.sl.r_257 Cert.Proof.KI.k1_t4_trip.sl.r_258 Cert.Proof.KI.k1_t4_trip.sl.r_259
        Cert.Proof.KI.k1_t4_trip.sl.r_260 Cert.Proof.KI.k1_t4_trip.sl.r_261 Cert.Proof.KI.k1_t4_trip.sl.r_262 Cert.Proof.KI.k1_t4_trip.sl.r_263 Cert.Proof.KI.k1_t4_trip.sl.r_264
        Cert.Proof.KI.k1_t4_trip.sl.r_265 Cert.Proof.KI.k1_t4_trip.sl.r_266 Cert.Proof.KI.k1_t4_trip.sl.r_267 Cert.Proof.KI.k1_t4_trip.sl.r_268 Cert.Proof.KI.k1_t4_trip.sl.r_269
        Cert.Proof.KI.k1_t4_trip.sl.r_270 Cert.Proof.KI.k1_t4_trip.sl.r_271 Cert.Proof.KI.k1_t4_trip.sl.r_272 Cert.Proof.KI.k1_t4_trip.sl.r_273 Cert.Proof.KI.k1_t4_trip.sl.r_274
        Cert.Proof.KI.k1_t4_trip.sl.r_275 Cert.Proof.KI.k1_t4_trip.sl.r_276 Cert.Proof.KI.k1_t4_trip.sl.r_277 Cert.Proof.KI.k1_t4_trip.sl.r_278 Cert.Proof.KI.k1_t4_trip.sl.r_279
        Cert.Proof.KI.k1_t4_trip.sl.r_280 Cert.Proof.KI.k1_t4_trip.sl.r_281 Cert.Proof.KI.k1_t4_trip.sl.r_282 Cert.Proof.KI.k1_t4_trip.sl.r_283 Cert.Proof.KI.k1_t4_trip.sl.r_284
        Cert.Proof.KI.k1_t4_trip.sl.r_285 Cert.Proof.KI.k1_t4_trip.sl.r_286 Cert.Proof.KI.k1_t4_trip.sl.r_287 Cert.Proof.KI.k1_t4_trip.sl.r_288 Cert.Proof.KI.k1_t4_trip.sl.r_289
        Cert.Proof.KI.k1_t4_trip.sl.r_290 Cert.Proof.KI.k1_t4_trip.sl.r_291 Cert.Proof.KI.k1_t4_trip.sl.r_292 Cert.Proof.KI.k1_t4_trip.sl.r_293 Cert.Proof.KI.k1_t4_trip.sl.r_294
        Cert.Proof.KI.k1_t4_trip.sl.r_295 Cert.Proof.KI.k1_t4_trip.sl.r_296 Cert.Proof.KI.k1_t4_trip.sl.r_297 Cert.Proof.KI.k1_t4_trip.sl.r_298 Cert.Proof.KI.k1_t4_trip.sl.r_299
        Cert.Proof.KI.k1_t4_trip.sl.r_300 Cert.Proof.KI.k1_t4_trip.sl.r_301 Cert.Proof.KI.k1_t4_trip.sl.r_302 Cert.Proof.KI.k1_t4_trip.sl.r_303 Cert.Proof.KI.k1_t4_trip.sl.r_304
        Cert.Proof.KI.k1_t4_trip.sl.r_305 Cert.Proof.KI.k1_t4_trip.sl.r_306 Cert.Proof.KI.k1_t4_trip.sl.r_307 Cert.Proof.KI.k1_t4_trip.sl.r_308 Cert.Proof.KI.k1_t4_trip.sl.r_309
        Cert.Proof.KI.k1_t4_trip.sl.r_310 Cert.Proof.KI.k1_t4_trip.sl.r_311 Cert.Proof.KI.k1_t4_trip.sl.r_312 Cert.Proof.KI.k1_t4_trip.sl.r_313 Cert.Proof.KI.k1_t4_trip.sl.r_314
        Cert.Proof.KI.k1_t4_trip.sl.r_315 Cert.Proof.KI.k1_t4_trip.sl.r_316 Cert.Proof.KI.k1_t4_trip.sl.r_317 Cert.Proof.KI.k1_t4_trip.sl.r_318
      conv_lhs => simp only [k1_pay2, k1_pay324, k1_pay325, k1_pay326, k1_pay327, k1_pay328, k1_pay329, k1_pay330, k1_pay331, k1_pay332, k1_pay333, k1_pay334, k1_pay335, k1_pay336, k1_pay337, k1_pay338,
        k1_pay339, k1_pay340, k1_pay341, k1_pay342, k1_pay343, k1_pay344, k1_pay345, k1_pay346, k1_pay347, k1_pay348, k1_pay349, k1_pay350, k1_pay351, k1_pay352, k1_pay353, k1_pay354,
        k1_pay355, k1_pay356, k1_pay357, k1_pay358, k1_pay359, k1_pay360, k1_pay361, k1_pay362, k1_pay363, k1_pay364, k1_pay365, k1_pay366, k1_pay367, k1_pay368, k1_pay369, k1_pay370,
        k1_pay371, k1_pay372, k1_pay373, k1_pay374, k1_pay375, k1_pay376, k1_pay377, k1_pay378, k1_pay379, k1_pay380, k1_pay381, k1_pay382, k1_pay383, k1_pay384, k1_pay385, k1_pay386,
        k1_pay387, k1_pay388, k1_pay389, k1_pay390, k1_pay391, k1_pay392, k1_pay393, k1_pay394, k1_pay395, k1_pay396, k1_pay397, k1_pay398, k1_pay399, k1_pay400, k1_pay401, k1_pay402,
        k1_pay403, k1_pay404, k1_pay405, k1_pay406, k1_pay407, k1_pay408, k1_pay409, k1_pay410, k1_pay411, k1_pay412, k1_pay413, k1_pay414, k1_pay415, k1_pay416, k1_pay417, k1_pay418,
        k1_pay419, k1_pay420, k1_pay421, k1_pay422, k1_pay423, k1_pay424, k1_pay425, k1_pay426, k1_pay427, k1_pay428, k1_pay429, k1_pay430, k1_pay431, k1_pay432, k1_pay433, k1_pay434,
        k1_pay435, k1_pay436, k1_pay437, k1_pay438, k1_pay439, k1_pay440, k1_pay441, k1_pay442, k1_pay443, k1_pay444, k1_pay445, k1_pay446, k1_pay447, k1_pay448, k1_pay449, k1_pay450,
        k1_pay451, k1_pay452, k1_pay453, k1_pay454, k1_pay455, k1_pay456, k1_pay457, k1_pay458, k1_pay459, k1_pay460, k1_pay461, k1_pay462, k1_pay463, k1_pay464, k1_pay465, k1_pay466,
        k1_pay467, k1_pay468, k1_pay469, k1_pay470, k1_pay471, k1_pay472, k1_pay473, k1_pay474, k1_pay475, k1_pay476, k1_pay477, k1_pay478, k1_pay479, k1_pay480, k1_pay481, k1_pay482,
        k1_pay483, k1_pay484, k1_pay485, k1_pay486, k1_pay487, k1_pay488, k1_pay489, k1_pay490, k1_pay491, k1_pay492, k1_pay493, k1_pay494, k1_pay495, k1_pay496, k1_pay497, k1_pay498,
        k1_pay499, k1_pay500, k1_pay501, k1_pay502, k1_pay503, k1_pay504, k1_pay505, k1_pay506, k1_pay507, k1_pay508, k1_pay509, k1_pay510, k1_pay511, k1_pay512, k1_pay513, k1_pay514,
        k1_pay515, k1_pay516, k1_pay517, k1_pay518, k1_pay519, k1_pay520, k1_pay521, k1_pay522, k1_pay523, k1_pay524, k1_pay525, k1_pay526, k1_pay527, k1_pay528, k1_pay529, k1_pay530,
        k1_pay531, k1_pay532, k1_pay533, k1_pay534, k1_pay535, k1_pay536, k1_pay537, k1_pay538, k1_pay539, k1_pay540, k1_pay541, k1_pay542, k1_pay543, k1_pay544, k1_pay545, k1_pay546,
        k1_pay547, k1_pay548, k1_pay549, k1_pay550, k1_pay551, k1_pay552, k1_pay553, k1_pay554, k1_pay555, k1_pay556, k1_pay557, k1_pay558, k1_pay559, k1_pay560, k1_pay561, k1_pay562,
        k1_pay563, k1_pay564, k1_pay565, k1_pay566, k1_pay567, k1_pay568, k1_pay569, k1_pay570, k1_pay571, k1_pay572, k1_pay573, k1_pay574, k1_pay575, k1_pay576, k1_pay577, k1_pay578,
        k1_pay579, k1_pay580, k1_pay581, k1_pay582, k1_pay583, k1_pay584, k1_pay585, k1_pay586, k1_pay587, k1_pay588, k1_pay589, k1_pay590, k1_pay591, k1_pay592, k1_pay593, k1_pay594,
        k1_pay595, k1_pay596, k1_pay597, k1_pay598, k1_pay599, k1_pay600, k1_pay601, k1_pay602, k1_pay603, k1_pay604, k1_pay605, k1_pay606, k1_pay607, k1_pay608, k1_pay609, k1_pay610,
        k1_pay611, k1_pay612, k1_pay613, k1_pay614, k1_pay615, k1_pay616, k1_pay617, k1_pay618, k1_pay619, k1_pay620, k1_pay621, k1_pay622, k1_pay623, k1_pay624, k1_pay625, k1_pay626,
        k1_pay627, k1_pay628, k1_pay629, k1_pay630, k1_pay631, k1_pay632, k1_pay633, k1_pay634, k1_pay635, k1_pay636, k1_pay637, k1_pay638, k1_pay639, k1_pay640, k1_pay641, k1_pay642,
        k1_pay643, k1_pay644, Pure.addf_at, Pure.mulf_at, Pure.broadcast_at, Pure.lane_at, Pure.cast16_16, Pure.cast1x16_16, Pure.cast16_1x16]
      rfl
    · intro l
      show _ = Pure.acc32 (rowW fw r) (rowE fb sub (⟨80 + l.val, by have := l.isLt; omega⟩ : Fin 128))
        (g (ix2 r (⟨80 + l.val, by have := l.isLt; omega⟩ : Fin 128)))
      refine ((?_ : _ = _).trans (Pure.acc32_chain (wraw4 fw t2 t) (eraw4_5 fb t l) (graw4_5 g t2 t l))).trans
        (Pure.acc32_congr (wraw4_eq fw t2 t r hr) (eraw4_5_eq fb t sub hs l _ rfl) (graw4_5_eq g t2 t r hr l _ rfl))
      delta Cert.Proof.KI.k1_t4_trip.sl.r Cert.Proof.KI.k1_t4_trip.sl.r_1 Cert.Proof.KI.k1_t4_trip.sl.r_2 Cert.Proof.KI.k1_t4_trip.sl.r_3 Cert.Proof.KI.k1_t4_trip.sl.r_4
        Cert.Proof.KI.k1_t4_trip.sl.r_5 Cert.Proof.KI.k1_t4_trip.sl.r_6 Cert.Proof.KI.k1_t4_trip.sl.r_7 Cert.Proof.KI.k1_t4_trip.sl.r_8 Cert.Proof.KI.k1_t4_trip.sl.r_9
        Cert.Proof.KI.k1_t4_trip.sl.r_10 Cert.Proof.KI.k1_t4_trip.sl.r_11 Cert.Proof.KI.k1_t4_trip.sl.r_12 Cert.Proof.KI.k1_t4_trip.sl.r_13 Cert.Proof.KI.k1_t4_trip.sl.r_14
        Cert.Proof.KI.k1_t4_trip.sl.r_15 Cert.Proof.KI.k1_t4_trip.sl.r_16 Cert.Proof.KI.k1_t4_trip.sl.r_17 Cert.Proof.KI.k1_t4_trip.sl.r_18 Cert.Proof.KI.k1_t4_trip.sl.r_19
        Cert.Proof.KI.k1_t4_trip.sl.r_20 Cert.Proof.KI.k1_t4_trip.sl.r_21 Cert.Proof.KI.k1_t4_trip.sl.r_22 Cert.Proof.KI.k1_t4_trip.sl.r_23 Cert.Proof.KI.k1_t4_trip.sl.r_24
        Cert.Proof.KI.k1_t4_trip.sl.r_25 Cert.Proof.KI.k1_t4_trip.sl.r_26 Cert.Proof.KI.k1_t4_trip.sl.r_27 Cert.Proof.KI.k1_t4_trip.sl.r_28 Cert.Proof.KI.k1_t4_trip.sl.r_29
        Cert.Proof.KI.k1_t4_trip.sl.r_30 Cert.Proof.KI.k1_t4_trip.sl.r_31 Cert.Proof.KI.k1_t4_trip.sl.r_32 Cert.Proof.KI.k1_t4_trip.sl.r_33 Cert.Proof.KI.k1_t4_trip.sl.r_34
        Cert.Proof.KI.k1_t4_trip.sl.r_35 Cert.Proof.KI.k1_t4_trip.sl.r_36 Cert.Proof.KI.k1_t4_trip.sl.r_37 Cert.Proof.KI.k1_t4_trip.sl.r_38 Cert.Proof.KI.k1_t4_trip.sl.r_39
        Cert.Proof.KI.k1_t4_trip.sl.r_40 Cert.Proof.KI.k1_t4_trip.sl.r_41 Cert.Proof.KI.k1_t4_trip.sl.r_42 Cert.Proof.KI.k1_t4_trip.sl.r_43 Cert.Proof.KI.k1_t4_trip.sl.r_44
        Cert.Proof.KI.k1_t4_trip.sl.r_45 Cert.Proof.KI.k1_t4_trip.sl.r_46 Cert.Proof.KI.k1_t4_trip.sl.r_47 Cert.Proof.KI.k1_t4_trip.sl.r_48 Cert.Proof.KI.k1_t4_trip.sl.r_49
        Cert.Proof.KI.k1_t4_trip.sl.r_50 Cert.Proof.KI.k1_t4_trip.sl.r_51 Cert.Proof.KI.k1_t4_trip.sl.r_52 Cert.Proof.KI.k1_t4_trip.sl.r_53 Cert.Proof.KI.k1_t4_trip.sl.r_54
        Cert.Proof.KI.k1_t4_trip.sl.r_55 Cert.Proof.KI.k1_t4_trip.sl.r_56 Cert.Proof.KI.k1_t4_trip.sl.r_57 Cert.Proof.KI.k1_t4_trip.sl.r_58 Cert.Proof.KI.k1_t4_trip.sl.r_59
        Cert.Proof.KI.k1_t4_trip.sl.r_60 Cert.Proof.KI.k1_t4_trip.sl.r_61 Cert.Proof.KI.k1_t4_trip.sl.r_62 Cert.Proof.KI.k1_t4_trip.sl.r_63 Cert.Proof.KI.k1_t4_trip.sl.r_64
        Cert.Proof.KI.k1_t4_trip.sl.r_65 Cert.Proof.KI.k1_t4_trip.sl.r_66 Cert.Proof.KI.k1_t4_trip.sl.r_67 Cert.Proof.KI.k1_t4_trip.sl.r_68 Cert.Proof.KI.k1_t4_trip.sl.r_69
        Cert.Proof.KI.k1_t4_trip.sl.r_70 Cert.Proof.KI.k1_t4_trip.sl.r_71 Cert.Proof.KI.k1_t4_trip.sl.r_72 Cert.Proof.KI.k1_t4_trip.sl.r_73 Cert.Proof.KI.k1_t4_trip.sl.r_74
        Cert.Proof.KI.k1_t4_trip.sl.r_75 Cert.Proof.KI.k1_t4_trip.sl.r_76 Cert.Proof.KI.k1_t4_trip.sl.r_77 Cert.Proof.KI.k1_t4_trip.sl.r_78 Cert.Proof.KI.k1_t4_trip.sl.r_79
        Cert.Proof.KI.k1_t4_trip.sl.r_80 Cert.Proof.KI.k1_t4_trip.sl.r_81 Cert.Proof.KI.k1_t4_trip.sl.r_82 Cert.Proof.KI.k1_t4_trip.sl.r_83 Cert.Proof.KI.k1_t4_trip.sl.r_84
        Cert.Proof.KI.k1_t4_trip.sl.r_85 Cert.Proof.KI.k1_t4_trip.sl.r_86 Cert.Proof.KI.k1_t4_trip.sl.r_87 Cert.Proof.KI.k1_t4_trip.sl.r_88 Cert.Proof.KI.k1_t4_trip.sl.r_89
        Cert.Proof.KI.k1_t4_trip.sl.r_90 Cert.Proof.KI.k1_t4_trip.sl.r_91 Cert.Proof.KI.k1_t4_trip.sl.r_92 Cert.Proof.KI.k1_t4_trip.sl.r_93 Cert.Proof.KI.k1_t4_trip.sl.r_94
        Cert.Proof.KI.k1_t4_trip.sl.r_95 Cert.Proof.KI.k1_t4_trip.sl.r_96 Cert.Proof.KI.k1_t4_trip.sl.r_97 Cert.Proof.KI.k1_t4_trip.sl.r_98 Cert.Proof.KI.k1_t4_trip.sl.r_99
        Cert.Proof.KI.k1_t4_trip.sl.r_100 Cert.Proof.KI.k1_t4_trip.sl.r_101 Cert.Proof.KI.k1_t4_trip.sl.r_102 Cert.Proof.KI.k1_t4_trip.sl.r_103 Cert.Proof.KI.k1_t4_trip.sl.r_104
        Cert.Proof.KI.k1_t4_trip.sl.r_105 Cert.Proof.KI.k1_t4_trip.sl.r_106 Cert.Proof.KI.k1_t4_trip.sl.r_107 Cert.Proof.KI.k1_t4_trip.sl.r_108 Cert.Proof.KI.k1_t4_trip.sl.r_109
        Cert.Proof.KI.k1_t4_trip.sl.r_110 Cert.Proof.KI.k1_t4_trip.sl.r_111 Cert.Proof.KI.k1_t4_trip.sl.r_112 Cert.Proof.KI.k1_t4_trip.sl.r_113 Cert.Proof.KI.k1_t4_trip.sl.r_114
        Cert.Proof.KI.k1_t4_trip.sl.r_115 Cert.Proof.KI.k1_t4_trip.sl.r_116 Cert.Proof.KI.k1_t4_trip.sl.r_117 Cert.Proof.KI.k1_t4_trip.sl.r_118 Cert.Proof.KI.k1_t4_trip.sl.r_119
        Cert.Proof.KI.k1_t4_trip.sl.r_120 Cert.Proof.KI.k1_t4_trip.sl.r_121 Cert.Proof.KI.k1_t4_trip.sl.r_122 Cert.Proof.KI.k1_t4_trip.sl.r_123 Cert.Proof.KI.k1_t4_trip.sl.r_124
        Cert.Proof.KI.k1_t4_trip.sl.r_125 Cert.Proof.KI.k1_t4_trip.sl.r_126 Cert.Proof.KI.k1_t4_trip.sl.r_127 Cert.Proof.KI.k1_t4_trip.sl.r_128 Cert.Proof.KI.k1_t4_trip.sl.r_129
        Cert.Proof.KI.k1_t4_trip.sl.r_130 Cert.Proof.KI.k1_t4_trip.sl.r_131 Cert.Proof.KI.k1_t4_trip.sl.r_132 Cert.Proof.KI.k1_t4_trip.sl.r_133 Cert.Proof.KI.k1_t4_trip.sl.r_134
        Cert.Proof.KI.k1_t4_trip.sl.r_135 Cert.Proof.KI.k1_t4_trip.sl.r_136 Cert.Proof.KI.k1_t4_trip.sl.r_137 Cert.Proof.KI.k1_t4_trip.sl.r_138 Cert.Proof.KI.k1_t4_trip.sl.r_139
        Cert.Proof.KI.k1_t4_trip.sl.r_140 Cert.Proof.KI.k1_t4_trip.sl.r_141 Cert.Proof.KI.k1_t4_trip.sl.r_142 Cert.Proof.KI.k1_t4_trip.sl.r_143 Cert.Proof.KI.k1_t4_trip.sl.r_144
        Cert.Proof.KI.k1_t4_trip.sl.r_145 Cert.Proof.KI.k1_t4_trip.sl.r_146 Cert.Proof.KI.k1_t4_trip.sl.r_147 Cert.Proof.KI.k1_t4_trip.sl.r_148 Cert.Proof.KI.k1_t4_trip.sl.r_149
        Cert.Proof.KI.k1_t4_trip.sl.r_150 Cert.Proof.KI.k1_t4_trip.sl.r_151 Cert.Proof.KI.k1_t4_trip.sl.r_152 Cert.Proof.KI.k1_t4_trip.sl.r_153 Cert.Proof.KI.k1_t4_trip.sl.r_154
        Cert.Proof.KI.k1_t4_trip.sl.r_155 Cert.Proof.KI.k1_t4_trip.sl.r_156 Cert.Proof.KI.k1_t4_trip.sl.r_157 Cert.Proof.KI.k1_t4_trip.sl.r_158 Cert.Proof.KI.k1_t4_trip.sl.r_159
        Cert.Proof.KI.k1_t4_trip.sl.r_160 Cert.Proof.KI.k1_t4_trip.sl.r_161 Cert.Proof.KI.k1_t4_trip.sl.r_162 Cert.Proof.KI.k1_t4_trip.sl.r_163 Cert.Proof.KI.k1_t4_trip.sl.r_164
        Cert.Proof.KI.k1_t4_trip.sl.r_165 Cert.Proof.KI.k1_t4_trip.sl.r_166 Cert.Proof.KI.k1_t4_trip.sl.r_167 Cert.Proof.KI.k1_t4_trip.sl.r_168 Cert.Proof.KI.k1_t4_trip.sl.r_169
        Cert.Proof.KI.k1_t4_trip.sl.r_170 Cert.Proof.KI.k1_t4_trip.sl.r_171 Cert.Proof.KI.k1_t4_trip.sl.r_172 Cert.Proof.KI.k1_t4_trip.sl.r_173 Cert.Proof.KI.k1_t4_trip.sl.r_174
        Cert.Proof.KI.k1_t4_trip.sl.r_175 Cert.Proof.KI.k1_t4_trip.sl.r_176 Cert.Proof.KI.k1_t4_trip.sl.r_177 Cert.Proof.KI.k1_t4_trip.sl.r_178 Cert.Proof.KI.k1_t4_trip.sl.r_179
        Cert.Proof.KI.k1_t4_trip.sl.r_180 Cert.Proof.KI.k1_t4_trip.sl.r_181 Cert.Proof.KI.k1_t4_trip.sl.r_182 Cert.Proof.KI.k1_t4_trip.sl.r_183 Cert.Proof.KI.k1_t4_trip.sl.r_184
        Cert.Proof.KI.k1_t4_trip.sl.r_185 Cert.Proof.KI.k1_t4_trip.sl.r_186 Cert.Proof.KI.k1_t4_trip.sl.r_187 Cert.Proof.KI.k1_t4_trip.sl.r_188 Cert.Proof.KI.k1_t4_trip.sl.r_189
        Cert.Proof.KI.k1_t4_trip.sl.r_190 Cert.Proof.KI.k1_t4_trip.sl.r_191 Cert.Proof.KI.k1_t4_trip.sl.r_192 Cert.Proof.KI.k1_t4_trip.sl.r_193 Cert.Proof.KI.k1_t4_trip.sl.r_194
        Cert.Proof.KI.k1_t4_trip.sl.r_195 Cert.Proof.KI.k1_t4_trip.sl.r_196 Cert.Proof.KI.k1_t4_trip.sl.r_197 Cert.Proof.KI.k1_t4_trip.sl.r_198 Cert.Proof.KI.k1_t4_trip.sl.r_199
        Cert.Proof.KI.k1_t4_trip.sl.r_200 Cert.Proof.KI.k1_t4_trip.sl.r_201 Cert.Proof.KI.k1_t4_trip.sl.r_202 Cert.Proof.KI.k1_t4_trip.sl.r_203 Cert.Proof.KI.k1_t4_trip.sl.r_204
        Cert.Proof.KI.k1_t4_trip.sl.r_205 Cert.Proof.KI.k1_t4_trip.sl.r_206 Cert.Proof.KI.k1_t4_trip.sl.r_207 Cert.Proof.KI.k1_t4_trip.sl.r_208 Cert.Proof.KI.k1_t4_trip.sl.r_209
        Cert.Proof.KI.k1_t4_trip.sl.r_210 Cert.Proof.KI.k1_t4_trip.sl.r_211 Cert.Proof.KI.k1_t4_trip.sl.r_212 Cert.Proof.KI.k1_t4_trip.sl.r_213 Cert.Proof.KI.k1_t4_trip.sl.r_214
        Cert.Proof.KI.k1_t4_trip.sl.r_215 Cert.Proof.KI.k1_t4_trip.sl.r_216 Cert.Proof.KI.k1_t4_trip.sl.r_217 Cert.Proof.KI.k1_t4_trip.sl.r_218 Cert.Proof.KI.k1_t4_trip.sl.r_219
        Cert.Proof.KI.k1_t4_trip.sl.r_220 Cert.Proof.KI.k1_t4_trip.sl.r_221 Cert.Proof.KI.k1_t4_trip.sl.r_222 Cert.Proof.KI.k1_t4_trip.sl.r_223 Cert.Proof.KI.k1_t4_trip.sl.r_224
        Cert.Proof.KI.k1_t4_trip.sl.r_225 Cert.Proof.KI.k1_t4_trip.sl.r_226 Cert.Proof.KI.k1_t4_trip.sl.r_227 Cert.Proof.KI.k1_t4_trip.sl.r_228 Cert.Proof.KI.k1_t4_trip.sl.r_229
        Cert.Proof.KI.k1_t4_trip.sl.r_230 Cert.Proof.KI.k1_t4_trip.sl.r_231 Cert.Proof.KI.k1_t4_trip.sl.r_232 Cert.Proof.KI.k1_t4_trip.sl.r_233 Cert.Proof.KI.k1_t4_trip.sl.r_234
        Cert.Proof.KI.k1_t4_trip.sl.r_235 Cert.Proof.KI.k1_t4_trip.sl.r_236 Cert.Proof.KI.k1_t4_trip.sl.r_237 Cert.Proof.KI.k1_t4_trip.sl.r_238 Cert.Proof.KI.k1_t4_trip.sl.r_239
        Cert.Proof.KI.k1_t4_trip.sl.r_240 Cert.Proof.KI.k1_t4_trip.sl.r_241 Cert.Proof.KI.k1_t4_trip.sl.r_242 Cert.Proof.KI.k1_t4_trip.sl.r_243 Cert.Proof.KI.k1_t4_trip.sl.r_244
        Cert.Proof.KI.k1_t4_trip.sl.r_245 Cert.Proof.KI.k1_t4_trip.sl.r_246 Cert.Proof.KI.k1_t4_trip.sl.r_247 Cert.Proof.KI.k1_t4_trip.sl.r_248 Cert.Proof.KI.k1_t4_trip.sl.r_249
        Cert.Proof.KI.k1_t4_trip.sl.r_250 Cert.Proof.KI.k1_t4_trip.sl.r_251 Cert.Proof.KI.k1_t4_trip.sl.r_252 Cert.Proof.KI.k1_t4_trip.sl.r_253 Cert.Proof.KI.k1_t4_trip.sl.r_254
        Cert.Proof.KI.k1_t4_trip.sl.r_255 Cert.Proof.KI.k1_t4_trip.sl.r_256 Cert.Proof.KI.k1_t4_trip.sl.r_257 Cert.Proof.KI.k1_t4_trip.sl.r_258 Cert.Proof.KI.k1_t4_trip.sl.r_259
        Cert.Proof.KI.k1_t4_trip.sl.r_260 Cert.Proof.KI.k1_t4_trip.sl.r_261 Cert.Proof.KI.k1_t4_trip.sl.r_262 Cert.Proof.KI.k1_t4_trip.sl.r_263 Cert.Proof.KI.k1_t4_trip.sl.r_264
        Cert.Proof.KI.k1_t4_trip.sl.r_265 Cert.Proof.KI.k1_t4_trip.sl.r_266 Cert.Proof.KI.k1_t4_trip.sl.r_267 Cert.Proof.KI.k1_t4_trip.sl.r_268 Cert.Proof.KI.k1_t4_trip.sl.r_269
        Cert.Proof.KI.k1_t4_trip.sl.r_270 Cert.Proof.KI.k1_t4_trip.sl.r_271 Cert.Proof.KI.k1_t4_trip.sl.r_272 Cert.Proof.KI.k1_t4_trip.sl.r_273 Cert.Proof.KI.k1_t4_trip.sl.r_274
        Cert.Proof.KI.k1_t4_trip.sl.r_275 Cert.Proof.KI.k1_t4_trip.sl.r_276 Cert.Proof.KI.k1_t4_trip.sl.r_277 Cert.Proof.KI.k1_t4_trip.sl.r_278 Cert.Proof.KI.k1_t4_trip.sl.r_279
        Cert.Proof.KI.k1_t4_trip.sl.r_280 Cert.Proof.KI.k1_t4_trip.sl.r_281 Cert.Proof.KI.k1_t4_trip.sl.r_282 Cert.Proof.KI.k1_t4_trip.sl.r_283 Cert.Proof.KI.k1_t4_trip.sl.r_284
        Cert.Proof.KI.k1_t4_trip.sl.r_285 Cert.Proof.KI.k1_t4_trip.sl.r_286 Cert.Proof.KI.k1_t4_trip.sl.r_287 Cert.Proof.KI.k1_t4_trip.sl.r_288 Cert.Proof.KI.k1_t4_trip.sl.r_289
        Cert.Proof.KI.k1_t4_trip.sl.r_290 Cert.Proof.KI.k1_t4_trip.sl.r_291 Cert.Proof.KI.k1_t4_trip.sl.r_292 Cert.Proof.KI.k1_t4_trip.sl.r_293 Cert.Proof.KI.k1_t4_trip.sl.r_294
        Cert.Proof.KI.k1_t4_trip.sl.r_295 Cert.Proof.KI.k1_t4_trip.sl.r_296 Cert.Proof.KI.k1_t4_trip.sl.r_297 Cert.Proof.KI.k1_t4_trip.sl.r_298 Cert.Proof.KI.k1_t4_trip.sl.r_299
        Cert.Proof.KI.k1_t4_trip.sl.r_300 Cert.Proof.KI.k1_t4_trip.sl.r_301 Cert.Proof.KI.k1_t4_trip.sl.r_302 Cert.Proof.KI.k1_t4_trip.sl.r_303 Cert.Proof.KI.k1_t4_trip.sl.r_304
        Cert.Proof.KI.k1_t4_trip.sl.r_305 Cert.Proof.KI.k1_t4_trip.sl.r_306 Cert.Proof.KI.k1_t4_trip.sl.r_307 Cert.Proof.KI.k1_t4_trip.sl.r_308 Cert.Proof.KI.k1_t4_trip.sl.r_309
        Cert.Proof.KI.k1_t4_trip.sl.r_310 Cert.Proof.KI.k1_t4_trip.sl.r_311 Cert.Proof.KI.k1_t4_trip.sl.r_312 Cert.Proof.KI.k1_t4_trip.sl.r_313 Cert.Proof.KI.k1_t4_trip.sl.r_314
        Cert.Proof.KI.k1_t4_trip.sl.r_315 Cert.Proof.KI.k1_t4_trip.sl.r_316 Cert.Proof.KI.k1_t4_trip.sl.r_317 Cert.Proof.KI.k1_t4_trip.sl.r_318
      conv_lhs => simp only [k1_pay2, k1_pay324, k1_pay325, k1_pay326, k1_pay327, k1_pay328, k1_pay329, k1_pay330, k1_pay331, k1_pay332, k1_pay333, k1_pay334, k1_pay335, k1_pay336, k1_pay337, k1_pay338,
        k1_pay339, k1_pay340, k1_pay341, k1_pay342, k1_pay343, k1_pay344, k1_pay345, k1_pay346, k1_pay347, k1_pay348, k1_pay349, k1_pay350, k1_pay351, k1_pay352, k1_pay353, k1_pay354,
        k1_pay355, k1_pay356, k1_pay357, k1_pay358, k1_pay359, k1_pay360, k1_pay361, k1_pay362, k1_pay363, k1_pay364, k1_pay365, k1_pay366, k1_pay367, k1_pay368, k1_pay369, k1_pay370,
        k1_pay371, k1_pay372, k1_pay373, k1_pay374, k1_pay375, k1_pay376, k1_pay377, k1_pay378, k1_pay379, k1_pay380, k1_pay381, k1_pay382, k1_pay383, k1_pay384, k1_pay385, k1_pay386,
        k1_pay387, k1_pay388, k1_pay389, k1_pay390, k1_pay391, k1_pay392, k1_pay393, k1_pay394, k1_pay395, k1_pay396, k1_pay397, k1_pay398, k1_pay399, k1_pay400, k1_pay401, k1_pay402,
        k1_pay403, k1_pay404, k1_pay405, k1_pay406, k1_pay407, k1_pay408, k1_pay409, k1_pay410, k1_pay411, k1_pay412, k1_pay413, k1_pay414, k1_pay415, k1_pay416, k1_pay417, k1_pay418,
        k1_pay419, k1_pay420, k1_pay421, k1_pay422, k1_pay423, k1_pay424, k1_pay425, k1_pay426, k1_pay427, k1_pay428, k1_pay429, k1_pay430, k1_pay431, k1_pay432, k1_pay433, k1_pay434,
        k1_pay435, k1_pay436, k1_pay437, k1_pay438, k1_pay439, k1_pay440, k1_pay441, k1_pay442, k1_pay443, k1_pay444, k1_pay445, k1_pay446, k1_pay447, k1_pay448, k1_pay449, k1_pay450,
        k1_pay451, k1_pay452, k1_pay453, k1_pay454, k1_pay455, k1_pay456, k1_pay457, k1_pay458, k1_pay459, k1_pay460, k1_pay461, k1_pay462, k1_pay463, k1_pay464, k1_pay465, k1_pay466,
        k1_pay467, k1_pay468, k1_pay469, k1_pay470, k1_pay471, k1_pay472, k1_pay473, k1_pay474, k1_pay475, k1_pay476, k1_pay477, k1_pay478, k1_pay479, k1_pay480, k1_pay481, k1_pay482,
        k1_pay483, k1_pay484, k1_pay485, k1_pay486, k1_pay487, k1_pay488, k1_pay489, k1_pay490, k1_pay491, k1_pay492, k1_pay493, k1_pay494, k1_pay495, k1_pay496, k1_pay497, k1_pay498,
        k1_pay499, k1_pay500, k1_pay501, k1_pay502, k1_pay503, k1_pay504, k1_pay505, k1_pay506, k1_pay507, k1_pay508, k1_pay509, k1_pay510, k1_pay511, k1_pay512, k1_pay513, k1_pay514,
        k1_pay515, k1_pay516, k1_pay517, k1_pay518, k1_pay519, k1_pay520, k1_pay521, k1_pay522, k1_pay523, k1_pay524, k1_pay525, k1_pay526, k1_pay527, k1_pay528, k1_pay529, k1_pay530,
        k1_pay531, k1_pay532, k1_pay533, k1_pay534, k1_pay535, k1_pay536, k1_pay537, k1_pay538, k1_pay539, k1_pay540, k1_pay541, k1_pay542, k1_pay543, k1_pay544, k1_pay545, k1_pay546,
        k1_pay547, k1_pay548, k1_pay549, k1_pay550, k1_pay551, k1_pay552, k1_pay553, k1_pay554, k1_pay555, k1_pay556, k1_pay557, k1_pay558, k1_pay559, k1_pay560, k1_pay561, k1_pay562,
        k1_pay563, k1_pay564, k1_pay565, k1_pay566, k1_pay567, k1_pay568, k1_pay569, k1_pay570, k1_pay571, k1_pay572, k1_pay573, k1_pay574, k1_pay575, k1_pay576, k1_pay577, k1_pay578,
        k1_pay579, k1_pay580, k1_pay581, k1_pay582, k1_pay583, k1_pay584, k1_pay585, k1_pay586, k1_pay587, k1_pay588, k1_pay589, k1_pay590, k1_pay591, k1_pay592, k1_pay593, k1_pay594,
        k1_pay595, k1_pay596, k1_pay597, k1_pay598, k1_pay599, k1_pay600, k1_pay601, k1_pay602, k1_pay603, k1_pay604, k1_pay605, k1_pay606, k1_pay607, k1_pay608, k1_pay609, k1_pay610,
        k1_pay611, k1_pay612, k1_pay613, k1_pay614, k1_pay615, k1_pay616, k1_pay617, k1_pay618, k1_pay619, k1_pay620, k1_pay621, k1_pay622, k1_pay623, k1_pay624, k1_pay625, k1_pay626,
        k1_pay627, k1_pay628, k1_pay629, k1_pay630, k1_pay631, k1_pay632, k1_pay633, k1_pay634, k1_pay635, k1_pay636, k1_pay637, k1_pay638, k1_pay639, k1_pay640, k1_pay641, k1_pay642,
        k1_pay643, k1_pay644, Pure.addf_at, Pure.mulf_at, Pure.broadcast_at, Pure.lane_at, Pure.cast16_16, Pure.cast1x16_16, Pure.cast16_1x16]
      rfl
    · intro l
      show _ = Pure.acc32 (rowW fw r) (rowE fb sub (⟨96 + l.val, by have := l.isLt; omega⟩ : Fin 128))
        (g (ix2 r (⟨96 + l.val, by have := l.isLt; omega⟩ : Fin 128)))
      refine ((?_ : _ = _).trans (Pure.acc32_chain (wraw4 fw t2 t) (eraw4_6 fb t l) (graw4_6 g t2 t l))).trans
        (Pure.acc32_congr (wraw4_eq fw t2 t r hr) (eraw4_6_eq fb t sub hs l _ rfl) (graw4_6_eq g t2 t r hr l _ rfl))
      delta Cert.Proof.KI.k1_t4_trip.sl.r Cert.Proof.KI.k1_t4_trip.sl.r_1 Cert.Proof.KI.k1_t4_trip.sl.r_2 Cert.Proof.KI.k1_t4_trip.sl.r_3 Cert.Proof.KI.k1_t4_trip.sl.r_4
        Cert.Proof.KI.k1_t4_trip.sl.r_5 Cert.Proof.KI.k1_t4_trip.sl.r_6 Cert.Proof.KI.k1_t4_trip.sl.r_7 Cert.Proof.KI.k1_t4_trip.sl.r_8 Cert.Proof.KI.k1_t4_trip.sl.r_9
        Cert.Proof.KI.k1_t4_trip.sl.r_10 Cert.Proof.KI.k1_t4_trip.sl.r_11 Cert.Proof.KI.k1_t4_trip.sl.r_12 Cert.Proof.KI.k1_t4_trip.sl.r_13 Cert.Proof.KI.k1_t4_trip.sl.r_14
        Cert.Proof.KI.k1_t4_trip.sl.r_15 Cert.Proof.KI.k1_t4_trip.sl.r_16 Cert.Proof.KI.k1_t4_trip.sl.r_17 Cert.Proof.KI.k1_t4_trip.sl.r_18 Cert.Proof.KI.k1_t4_trip.sl.r_19
        Cert.Proof.KI.k1_t4_trip.sl.r_20 Cert.Proof.KI.k1_t4_trip.sl.r_21 Cert.Proof.KI.k1_t4_trip.sl.r_22 Cert.Proof.KI.k1_t4_trip.sl.r_23 Cert.Proof.KI.k1_t4_trip.sl.r_24
        Cert.Proof.KI.k1_t4_trip.sl.r_25 Cert.Proof.KI.k1_t4_trip.sl.r_26 Cert.Proof.KI.k1_t4_trip.sl.r_27 Cert.Proof.KI.k1_t4_trip.sl.r_28 Cert.Proof.KI.k1_t4_trip.sl.r_29
        Cert.Proof.KI.k1_t4_trip.sl.r_30 Cert.Proof.KI.k1_t4_trip.sl.r_31 Cert.Proof.KI.k1_t4_trip.sl.r_32 Cert.Proof.KI.k1_t4_trip.sl.r_33 Cert.Proof.KI.k1_t4_trip.sl.r_34
        Cert.Proof.KI.k1_t4_trip.sl.r_35 Cert.Proof.KI.k1_t4_trip.sl.r_36 Cert.Proof.KI.k1_t4_trip.sl.r_37 Cert.Proof.KI.k1_t4_trip.sl.r_38 Cert.Proof.KI.k1_t4_trip.sl.r_39
        Cert.Proof.KI.k1_t4_trip.sl.r_40 Cert.Proof.KI.k1_t4_trip.sl.r_41 Cert.Proof.KI.k1_t4_trip.sl.r_42 Cert.Proof.KI.k1_t4_trip.sl.r_43 Cert.Proof.KI.k1_t4_trip.sl.r_44
        Cert.Proof.KI.k1_t4_trip.sl.r_45 Cert.Proof.KI.k1_t4_trip.sl.r_46 Cert.Proof.KI.k1_t4_trip.sl.r_47 Cert.Proof.KI.k1_t4_trip.sl.r_48 Cert.Proof.KI.k1_t4_trip.sl.r_49
        Cert.Proof.KI.k1_t4_trip.sl.r_50 Cert.Proof.KI.k1_t4_trip.sl.r_51 Cert.Proof.KI.k1_t4_trip.sl.r_52 Cert.Proof.KI.k1_t4_trip.sl.r_53 Cert.Proof.KI.k1_t4_trip.sl.r_54
        Cert.Proof.KI.k1_t4_trip.sl.r_55 Cert.Proof.KI.k1_t4_trip.sl.r_56 Cert.Proof.KI.k1_t4_trip.sl.r_57 Cert.Proof.KI.k1_t4_trip.sl.r_58 Cert.Proof.KI.k1_t4_trip.sl.r_59
        Cert.Proof.KI.k1_t4_trip.sl.r_60 Cert.Proof.KI.k1_t4_trip.sl.r_61 Cert.Proof.KI.k1_t4_trip.sl.r_62 Cert.Proof.KI.k1_t4_trip.sl.r_63 Cert.Proof.KI.k1_t4_trip.sl.r_64
        Cert.Proof.KI.k1_t4_trip.sl.r_65 Cert.Proof.KI.k1_t4_trip.sl.r_66 Cert.Proof.KI.k1_t4_trip.sl.r_67 Cert.Proof.KI.k1_t4_trip.sl.r_68 Cert.Proof.KI.k1_t4_trip.sl.r_69
        Cert.Proof.KI.k1_t4_trip.sl.r_70 Cert.Proof.KI.k1_t4_trip.sl.r_71 Cert.Proof.KI.k1_t4_trip.sl.r_72 Cert.Proof.KI.k1_t4_trip.sl.r_73 Cert.Proof.KI.k1_t4_trip.sl.r_74
        Cert.Proof.KI.k1_t4_trip.sl.r_75 Cert.Proof.KI.k1_t4_trip.sl.r_76 Cert.Proof.KI.k1_t4_trip.sl.r_77 Cert.Proof.KI.k1_t4_trip.sl.r_78 Cert.Proof.KI.k1_t4_trip.sl.r_79
        Cert.Proof.KI.k1_t4_trip.sl.r_80 Cert.Proof.KI.k1_t4_trip.sl.r_81 Cert.Proof.KI.k1_t4_trip.sl.r_82 Cert.Proof.KI.k1_t4_trip.sl.r_83 Cert.Proof.KI.k1_t4_trip.sl.r_84
        Cert.Proof.KI.k1_t4_trip.sl.r_85 Cert.Proof.KI.k1_t4_trip.sl.r_86 Cert.Proof.KI.k1_t4_trip.sl.r_87 Cert.Proof.KI.k1_t4_trip.sl.r_88 Cert.Proof.KI.k1_t4_trip.sl.r_89
        Cert.Proof.KI.k1_t4_trip.sl.r_90 Cert.Proof.KI.k1_t4_trip.sl.r_91 Cert.Proof.KI.k1_t4_trip.sl.r_92 Cert.Proof.KI.k1_t4_trip.sl.r_93 Cert.Proof.KI.k1_t4_trip.sl.r_94
        Cert.Proof.KI.k1_t4_trip.sl.r_95 Cert.Proof.KI.k1_t4_trip.sl.r_96 Cert.Proof.KI.k1_t4_trip.sl.r_97 Cert.Proof.KI.k1_t4_trip.sl.r_98 Cert.Proof.KI.k1_t4_trip.sl.r_99
        Cert.Proof.KI.k1_t4_trip.sl.r_100 Cert.Proof.KI.k1_t4_trip.sl.r_101 Cert.Proof.KI.k1_t4_trip.sl.r_102 Cert.Proof.KI.k1_t4_trip.sl.r_103 Cert.Proof.KI.k1_t4_trip.sl.r_104
        Cert.Proof.KI.k1_t4_trip.sl.r_105 Cert.Proof.KI.k1_t4_trip.sl.r_106 Cert.Proof.KI.k1_t4_trip.sl.r_107 Cert.Proof.KI.k1_t4_trip.sl.r_108 Cert.Proof.KI.k1_t4_trip.sl.r_109
        Cert.Proof.KI.k1_t4_trip.sl.r_110 Cert.Proof.KI.k1_t4_trip.sl.r_111 Cert.Proof.KI.k1_t4_trip.sl.r_112 Cert.Proof.KI.k1_t4_trip.sl.r_113 Cert.Proof.KI.k1_t4_trip.sl.r_114
        Cert.Proof.KI.k1_t4_trip.sl.r_115 Cert.Proof.KI.k1_t4_trip.sl.r_116 Cert.Proof.KI.k1_t4_trip.sl.r_117 Cert.Proof.KI.k1_t4_trip.sl.r_118 Cert.Proof.KI.k1_t4_trip.sl.r_119
        Cert.Proof.KI.k1_t4_trip.sl.r_120 Cert.Proof.KI.k1_t4_trip.sl.r_121 Cert.Proof.KI.k1_t4_trip.sl.r_122 Cert.Proof.KI.k1_t4_trip.sl.r_123 Cert.Proof.KI.k1_t4_trip.sl.r_124
        Cert.Proof.KI.k1_t4_trip.sl.r_125 Cert.Proof.KI.k1_t4_trip.sl.r_126 Cert.Proof.KI.k1_t4_trip.sl.r_127 Cert.Proof.KI.k1_t4_trip.sl.r_128 Cert.Proof.KI.k1_t4_trip.sl.r_129
        Cert.Proof.KI.k1_t4_trip.sl.r_130 Cert.Proof.KI.k1_t4_trip.sl.r_131 Cert.Proof.KI.k1_t4_trip.sl.r_132 Cert.Proof.KI.k1_t4_trip.sl.r_133 Cert.Proof.KI.k1_t4_trip.sl.r_134
        Cert.Proof.KI.k1_t4_trip.sl.r_135 Cert.Proof.KI.k1_t4_trip.sl.r_136 Cert.Proof.KI.k1_t4_trip.sl.r_137 Cert.Proof.KI.k1_t4_trip.sl.r_138 Cert.Proof.KI.k1_t4_trip.sl.r_139
        Cert.Proof.KI.k1_t4_trip.sl.r_140 Cert.Proof.KI.k1_t4_trip.sl.r_141 Cert.Proof.KI.k1_t4_trip.sl.r_142 Cert.Proof.KI.k1_t4_trip.sl.r_143 Cert.Proof.KI.k1_t4_trip.sl.r_144
        Cert.Proof.KI.k1_t4_trip.sl.r_145 Cert.Proof.KI.k1_t4_trip.sl.r_146 Cert.Proof.KI.k1_t4_trip.sl.r_147 Cert.Proof.KI.k1_t4_trip.sl.r_148 Cert.Proof.KI.k1_t4_trip.sl.r_149
        Cert.Proof.KI.k1_t4_trip.sl.r_150 Cert.Proof.KI.k1_t4_trip.sl.r_151 Cert.Proof.KI.k1_t4_trip.sl.r_152 Cert.Proof.KI.k1_t4_trip.sl.r_153 Cert.Proof.KI.k1_t4_trip.sl.r_154
        Cert.Proof.KI.k1_t4_trip.sl.r_155 Cert.Proof.KI.k1_t4_trip.sl.r_156 Cert.Proof.KI.k1_t4_trip.sl.r_157 Cert.Proof.KI.k1_t4_trip.sl.r_158 Cert.Proof.KI.k1_t4_trip.sl.r_159
        Cert.Proof.KI.k1_t4_trip.sl.r_160 Cert.Proof.KI.k1_t4_trip.sl.r_161 Cert.Proof.KI.k1_t4_trip.sl.r_162 Cert.Proof.KI.k1_t4_trip.sl.r_163 Cert.Proof.KI.k1_t4_trip.sl.r_164
        Cert.Proof.KI.k1_t4_trip.sl.r_165 Cert.Proof.KI.k1_t4_trip.sl.r_166 Cert.Proof.KI.k1_t4_trip.sl.r_167 Cert.Proof.KI.k1_t4_trip.sl.r_168 Cert.Proof.KI.k1_t4_trip.sl.r_169
        Cert.Proof.KI.k1_t4_trip.sl.r_170 Cert.Proof.KI.k1_t4_trip.sl.r_171 Cert.Proof.KI.k1_t4_trip.sl.r_172 Cert.Proof.KI.k1_t4_trip.sl.r_173 Cert.Proof.KI.k1_t4_trip.sl.r_174
        Cert.Proof.KI.k1_t4_trip.sl.r_175 Cert.Proof.KI.k1_t4_trip.sl.r_176 Cert.Proof.KI.k1_t4_trip.sl.r_177 Cert.Proof.KI.k1_t4_trip.sl.r_178 Cert.Proof.KI.k1_t4_trip.sl.r_179
        Cert.Proof.KI.k1_t4_trip.sl.r_180 Cert.Proof.KI.k1_t4_trip.sl.r_181 Cert.Proof.KI.k1_t4_trip.sl.r_182 Cert.Proof.KI.k1_t4_trip.sl.r_183 Cert.Proof.KI.k1_t4_trip.sl.r_184
        Cert.Proof.KI.k1_t4_trip.sl.r_185 Cert.Proof.KI.k1_t4_trip.sl.r_186 Cert.Proof.KI.k1_t4_trip.sl.r_187 Cert.Proof.KI.k1_t4_trip.sl.r_188 Cert.Proof.KI.k1_t4_trip.sl.r_189
        Cert.Proof.KI.k1_t4_trip.sl.r_190 Cert.Proof.KI.k1_t4_trip.sl.r_191 Cert.Proof.KI.k1_t4_trip.sl.r_192 Cert.Proof.KI.k1_t4_trip.sl.r_193 Cert.Proof.KI.k1_t4_trip.sl.r_194
        Cert.Proof.KI.k1_t4_trip.sl.r_195 Cert.Proof.KI.k1_t4_trip.sl.r_196 Cert.Proof.KI.k1_t4_trip.sl.r_197 Cert.Proof.KI.k1_t4_trip.sl.r_198 Cert.Proof.KI.k1_t4_trip.sl.r_199
        Cert.Proof.KI.k1_t4_trip.sl.r_200 Cert.Proof.KI.k1_t4_trip.sl.r_201 Cert.Proof.KI.k1_t4_trip.sl.r_202 Cert.Proof.KI.k1_t4_trip.sl.r_203 Cert.Proof.KI.k1_t4_trip.sl.r_204
        Cert.Proof.KI.k1_t4_trip.sl.r_205 Cert.Proof.KI.k1_t4_trip.sl.r_206 Cert.Proof.KI.k1_t4_trip.sl.r_207 Cert.Proof.KI.k1_t4_trip.sl.r_208 Cert.Proof.KI.k1_t4_trip.sl.r_209
        Cert.Proof.KI.k1_t4_trip.sl.r_210 Cert.Proof.KI.k1_t4_trip.sl.r_211 Cert.Proof.KI.k1_t4_trip.sl.r_212 Cert.Proof.KI.k1_t4_trip.sl.r_213 Cert.Proof.KI.k1_t4_trip.sl.r_214
        Cert.Proof.KI.k1_t4_trip.sl.r_215 Cert.Proof.KI.k1_t4_trip.sl.r_216 Cert.Proof.KI.k1_t4_trip.sl.r_217 Cert.Proof.KI.k1_t4_trip.sl.r_218 Cert.Proof.KI.k1_t4_trip.sl.r_219
        Cert.Proof.KI.k1_t4_trip.sl.r_220 Cert.Proof.KI.k1_t4_trip.sl.r_221 Cert.Proof.KI.k1_t4_trip.sl.r_222 Cert.Proof.KI.k1_t4_trip.sl.r_223 Cert.Proof.KI.k1_t4_trip.sl.r_224
        Cert.Proof.KI.k1_t4_trip.sl.r_225 Cert.Proof.KI.k1_t4_trip.sl.r_226 Cert.Proof.KI.k1_t4_trip.sl.r_227 Cert.Proof.KI.k1_t4_trip.sl.r_228 Cert.Proof.KI.k1_t4_trip.sl.r_229
        Cert.Proof.KI.k1_t4_trip.sl.r_230 Cert.Proof.KI.k1_t4_trip.sl.r_231 Cert.Proof.KI.k1_t4_trip.sl.r_232 Cert.Proof.KI.k1_t4_trip.sl.r_233 Cert.Proof.KI.k1_t4_trip.sl.r_234
        Cert.Proof.KI.k1_t4_trip.sl.r_235 Cert.Proof.KI.k1_t4_trip.sl.r_236 Cert.Proof.KI.k1_t4_trip.sl.r_237 Cert.Proof.KI.k1_t4_trip.sl.r_238 Cert.Proof.KI.k1_t4_trip.sl.r_239
        Cert.Proof.KI.k1_t4_trip.sl.r_240 Cert.Proof.KI.k1_t4_trip.sl.r_241 Cert.Proof.KI.k1_t4_trip.sl.r_242 Cert.Proof.KI.k1_t4_trip.sl.r_243 Cert.Proof.KI.k1_t4_trip.sl.r_244
        Cert.Proof.KI.k1_t4_trip.sl.r_245 Cert.Proof.KI.k1_t4_trip.sl.r_246 Cert.Proof.KI.k1_t4_trip.sl.r_247 Cert.Proof.KI.k1_t4_trip.sl.r_248 Cert.Proof.KI.k1_t4_trip.sl.r_249
        Cert.Proof.KI.k1_t4_trip.sl.r_250 Cert.Proof.KI.k1_t4_trip.sl.r_251 Cert.Proof.KI.k1_t4_trip.sl.r_252 Cert.Proof.KI.k1_t4_trip.sl.r_253 Cert.Proof.KI.k1_t4_trip.sl.r_254
        Cert.Proof.KI.k1_t4_trip.sl.r_255 Cert.Proof.KI.k1_t4_trip.sl.r_256 Cert.Proof.KI.k1_t4_trip.sl.r_257 Cert.Proof.KI.k1_t4_trip.sl.r_258 Cert.Proof.KI.k1_t4_trip.sl.r_259
        Cert.Proof.KI.k1_t4_trip.sl.r_260 Cert.Proof.KI.k1_t4_trip.sl.r_261 Cert.Proof.KI.k1_t4_trip.sl.r_262 Cert.Proof.KI.k1_t4_trip.sl.r_263 Cert.Proof.KI.k1_t4_trip.sl.r_264
        Cert.Proof.KI.k1_t4_trip.sl.r_265 Cert.Proof.KI.k1_t4_trip.sl.r_266 Cert.Proof.KI.k1_t4_trip.sl.r_267 Cert.Proof.KI.k1_t4_trip.sl.r_268 Cert.Proof.KI.k1_t4_trip.sl.r_269
        Cert.Proof.KI.k1_t4_trip.sl.r_270 Cert.Proof.KI.k1_t4_trip.sl.r_271 Cert.Proof.KI.k1_t4_trip.sl.r_272 Cert.Proof.KI.k1_t4_trip.sl.r_273 Cert.Proof.KI.k1_t4_trip.sl.r_274
        Cert.Proof.KI.k1_t4_trip.sl.r_275 Cert.Proof.KI.k1_t4_trip.sl.r_276 Cert.Proof.KI.k1_t4_trip.sl.r_277 Cert.Proof.KI.k1_t4_trip.sl.r_278 Cert.Proof.KI.k1_t4_trip.sl.r_279
        Cert.Proof.KI.k1_t4_trip.sl.r_280 Cert.Proof.KI.k1_t4_trip.sl.r_281 Cert.Proof.KI.k1_t4_trip.sl.r_282 Cert.Proof.KI.k1_t4_trip.sl.r_283 Cert.Proof.KI.k1_t4_trip.sl.r_284
        Cert.Proof.KI.k1_t4_trip.sl.r_285 Cert.Proof.KI.k1_t4_trip.sl.r_286 Cert.Proof.KI.k1_t4_trip.sl.r_287 Cert.Proof.KI.k1_t4_trip.sl.r_288 Cert.Proof.KI.k1_t4_trip.sl.r_289
        Cert.Proof.KI.k1_t4_trip.sl.r_290 Cert.Proof.KI.k1_t4_trip.sl.r_291 Cert.Proof.KI.k1_t4_trip.sl.r_292 Cert.Proof.KI.k1_t4_trip.sl.r_293 Cert.Proof.KI.k1_t4_trip.sl.r_294
        Cert.Proof.KI.k1_t4_trip.sl.r_295 Cert.Proof.KI.k1_t4_trip.sl.r_296 Cert.Proof.KI.k1_t4_trip.sl.r_297 Cert.Proof.KI.k1_t4_trip.sl.r_298 Cert.Proof.KI.k1_t4_trip.sl.r_299
        Cert.Proof.KI.k1_t4_trip.sl.r_300 Cert.Proof.KI.k1_t4_trip.sl.r_301 Cert.Proof.KI.k1_t4_trip.sl.r_302 Cert.Proof.KI.k1_t4_trip.sl.r_303 Cert.Proof.KI.k1_t4_trip.sl.r_304
        Cert.Proof.KI.k1_t4_trip.sl.r_305 Cert.Proof.KI.k1_t4_trip.sl.r_306 Cert.Proof.KI.k1_t4_trip.sl.r_307 Cert.Proof.KI.k1_t4_trip.sl.r_308 Cert.Proof.KI.k1_t4_trip.sl.r_309
        Cert.Proof.KI.k1_t4_trip.sl.r_310 Cert.Proof.KI.k1_t4_trip.sl.r_311 Cert.Proof.KI.k1_t4_trip.sl.r_312 Cert.Proof.KI.k1_t4_trip.sl.r_313 Cert.Proof.KI.k1_t4_trip.sl.r_314
        Cert.Proof.KI.k1_t4_trip.sl.r_315 Cert.Proof.KI.k1_t4_trip.sl.r_316 Cert.Proof.KI.k1_t4_trip.sl.r_317 Cert.Proof.KI.k1_t4_trip.sl.r_318
      conv_lhs => simp only [k1_pay2, k1_pay324, k1_pay325, k1_pay326, k1_pay327, k1_pay328, k1_pay329, k1_pay330, k1_pay331, k1_pay332, k1_pay333, k1_pay334, k1_pay335, k1_pay336, k1_pay337, k1_pay338,
        k1_pay339, k1_pay340, k1_pay341, k1_pay342, k1_pay343, k1_pay344, k1_pay345, k1_pay346, k1_pay347, k1_pay348, k1_pay349, k1_pay350, k1_pay351, k1_pay352, k1_pay353, k1_pay354,
        k1_pay355, k1_pay356, k1_pay357, k1_pay358, k1_pay359, k1_pay360, k1_pay361, k1_pay362, k1_pay363, k1_pay364, k1_pay365, k1_pay366, k1_pay367, k1_pay368, k1_pay369, k1_pay370,
        k1_pay371, k1_pay372, k1_pay373, k1_pay374, k1_pay375, k1_pay376, k1_pay377, k1_pay378, k1_pay379, k1_pay380, k1_pay381, k1_pay382, k1_pay383, k1_pay384, k1_pay385, k1_pay386,
        k1_pay387, k1_pay388, k1_pay389, k1_pay390, k1_pay391, k1_pay392, k1_pay393, k1_pay394, k1_pay395, k1_pay396, k1_pay397, k1_pay398, k1_pay399, k1_pay400, k1_pay401, k1_pay402,
        k1_pay403, k1_pay404, k1_pay405, k1_pay406, k1_pay407, k1_pay408, k1_pay409, k1_pay410, k1_pay411, k1_pay412, k1_pay413, k1_pay414, k1_pay415, k1_pay416, k1_pay417, k1_pay418,
        k1_pay419, k1_pay420, k1_pay421, k1_pay422, k1_pay423, k1_pay424, k1_pay425, k1_pay426, k1_pay427, k1_pay428, k1_pay429, k1_pay430, k1_pay431, k1_pay432, k1_pay433, k1_pay434,
        k1_pay435, k1_pay436, k1_pay437, k1_pay438, k1_pay439, k1_pay440, k1_pay441, k1_pay442, k1_pay443, k1_pay444, k1_pay445, k1_pay446, k1_pay447, k1_pay448, k1_pay449, k1_pay450,
        k1_pay451, k1_pay452, k1_pay453, k1_pay454, k1_pay455, k1_pay456, k1_pay457, k1_pay458, k1_pay459, k1_pay460, k1_pay461, k1_pay462, k1_pay463, k1_pay464, k1_pay465, k1_pay466,
        k1_pay467, k1_pay468, k1_pay469, k1_pay470, k1_pay471, k1_pay472, k1_pay473, k1_pay474, k1_pay475, k1_pay476, k1_pay477, k1_pay478, k1_pay479, k1_pay480, k1_pay481, k1_pay482,
        k1_pay483, k1_pay484, k1_pay485, k1_pay486, k1_pay487, k1_pay488, k1_pay489, k1_pay490, k1_pay491, k1_pay492, k1_pay493, k1_pay494, k1_pay495, k1_pay496, k1_pay497, k1_pay498,
        k1_pay499, k1_pay500, k1_pay501, k1_pay502, k1_pay503, k1_pay504, k1_pay505, k1_pay506, k1_pay507, k1_pay508, k1_pay509, k1_pay510, k1_pay511, k1_pay512, k1_pay513, k1_pay514,
        k1_pay515, k1_pay516, k1_pay517, k1_pay518, k1_pay519, k1_pay520, k1_pay521, k1_pay522, k1_pay523, k1_pay524, k1_pay525, k1_pay526, k1_pay527, k1_pay528, k1_pay529, k1_pay530,
        k1_pay531, k1_pay532, k1_pay533, k1_pay534, k1_pay535, k1_pay536, k1_pay537, k1_pay538, k1_pay539, k1_pay540, k1_pay541, k1_pay542, k1_pay543, k1_pay544, k1_pay545, k1_pay546,
        k1_pay547, k1_pay548, k1_pay549, k1_pay550, k1_pay551, k1_pay552, k1_pay553, k1_pay554, k1_pay555, k1_pay556, k1_pay557, k1_pay558, k1_pay559, k1_pay560, k1_pay561, k1_pay562,
        k1_pay563, k1_pay564, k1_pay565, k1_pay566, k1_pay567, k1_pay568, k1_pay569, k1_pay570, k1_pay571, k1_pay572, k1_pay573, k1_pay574, k1_pay575, k1_pay576, k1_pay577, k1_pay578,
        k1_pay579, k1_pay580, k1_pay581, k1_pay582, k1_pay583, k1_pay584, k1_pay585, k1_pay586, k1_pay587, k1_pay588, k1_pay589, k1_pay590, k1_pay591, k1_pay592, k1_pay593, k1_pay594,
        k1_pay595, k1_pay596, k1_pay597, k1_pay598, k1_pay599, k1_pay600, k1_pay601, k1_pay602, k1_pay603, k1_pay604, k1_pay605, k1_pay606, k1_pay607, k1_pay608, k1_pay609, k1_pay610,
        k1_pay611, k1_pay612, k1_pay613, k1_pay614, k1_pay615, k1_pay616, k1_pay617, k1_pay618, k1_pay619, k1_pay620, k1_pay621, k1_pay622, k1_pay623, k1_pay624, k1_pay625, k1_pay626,
        k1_pay627, k1_pay628, k1_pay629, k1_pay630, k1_pay631, k1_pay632, k1_pay633, k1_pay634, k1_pay635, k1_pay636, k1_pay637, k1_pay638, k1_pay639, k1_pay640, k1_pay641, k1_pay642,
        k1_pay643, k1_pay644, Pure.addf_at, Pure.mulf_at, Pure.broadcast_at, Pure.lane_at, Pure.cast16_16, Pure.cast1x16_16, Pure.cast16_1x16]
      rfl
    · intro l
      show _ = Pure.acc32 (rowW fw r) (rowE fb sub (⟨112 + l.val, by have := l.isLt; omega⟩ : Fin 128))
        (g (ix2 r (⟨112 + l.val, by have := l.isLt; omega⟩ : Fin 128)))
      refine ((?_ : _ = _).trans (Pure.acc32_chain (wraw4 fw t2 t) (eraw4_7 fb t l) (graw4_7 g t2 t l))).trans
        (Pure.acc32_congr (wraw4_eq fw t2 t r hr) (eraw4_7_eq fb t sub hs l _ rfl) (graw4_7_eq g t2 t r hr l _ rfl))
      delta Cert.Proof.KI.k1_t4_trip.sl.r Cert.Proof.KI.k1_t4_trip.sl.r_1 Cert.Proof.KI.k1_t4_trip.sl.r_2 Cert.Proof.KI.k1_t4_trip.sl.r_3 Cert.Proof.KI.k1_t4_trip.sl.r_4
        Cert.Proof.KI.k1_t4_trip.sl.r_5 Cert.Proof.KI.k1_t4_trip.sl.r_6 Cert.Proof.KI.k1_t4_trip.sl.r_7 Cert.Proof.KI.k1_t4_trip.sl.r_8 Cert.Proof.KI.k1_t4_trip.sl.r_9
        Cert.Proof.KI.k1_t4_trip.sl.r_10 Cert.Proof.KI.k1_t4_trip.sl.r_11 Cert.Proof.KI.k1_t4_trip.sl.r_12 Cert.Proof.KI.k1_t4_trip.sl.r_13 Cert.Proof.KI.k1_t4_trip.sl.r_14
        Cert.Proof.KI.k1_t4_trip.sl.r_15 Cert.Proof.KI.k1_t4_trip.sl.r_16 Cert.Proof.KI.k1_t4_trip.sl.r_17 Cert.Proof.KI.k1_t4_trip.sl.r_18 Cert.Proof.KI.k1_t4_trip.sl.r_19
        Cert.Proof.KI.k1_t4_trip.sl.r_20 Cert.Proof.KI.k1_t4_trip.sl.r_21 Cert.Proof.KI.k1_t4_trip.sl.r_22 Cert.Proof.KI.k1_t4_trip.sl.r_23 Cert.Proof.KI.k1_t4_trip.sl.r_24
        Cert.Proof.KI.k1_t4_trip.sl.r_25 Cert.Proof.KI.k1_t4_trip.sl.r_26 Cert.Proof.KI.k1_t4_trip.sl.r_27 Cert.Proof.KI.k1_t4_trip.sl.r_28 Cert.Proof.KI.k1_t4_trip.sl.r_29
        Cert.Proof.KI.k1_t4_trip.sl.r_30 Cert.Proof.KI.k1_t4_trip.sl.r_31 Cert.Proof.KI.k1_t4_trip.sl.r_32 Cert.Proof.KI.k1_t4_trip.sl.r_33 Cert.Proof.KI.k1_t4_trip.sl.r_34
        Cert.Proof.KI.k1_t4_trip.sl.r_35 Cert.Proof.KI.k1_t4_trip.sl.r_36 Cert.Proof.KI.k1_t4_trip.sl.r_37 Cert.Proof.KI.k1_t4_trip.sl.r_38 Cert.Proof.KI.k1_t4_trip.sl.r_39
        Cert.Proof.KI.k1_t4_trip.sl.r_40 Cert.Proof.KI.k1_t4_trip.sl.r_41 Cert.Proof.KI.k1_t4_trip.sl.r_42 Cert.Proof.KI.k1_t4_trip.sl.r_43 Cert.Proof.KI.k1_t4_trip.sl.r_44
        Cert.Proof.KI.k1_t4_trip.sl.r_45 Cert.Proof.KI.k1_t4_trip.sl.r_46 Cert.Proof.KI.k1_t4_trip.sl.r_47 Cert.Proof.KI.k1_t4_trip.sl.r_48 Cert.Proof.KI.k1_t4_trip.sl.r_49
        Cert.Proof.KI.k1_t4_trip.sl.r_50 Cert.Proof.KI.k1_t4_trip.sl.r_51 Cert.Proof.KI.k1_t4_trip.sl.r_52 Cert.Proof.KI.k1_t4_trip.sl.r_53 Cert.Proof.KI.k1_t4_trip.sl.r_54
        Cert.Proof.KI.k1_t4_trip.sl.r_55 Cert.Proof.KI.k1_t4_trip.sl.r_56 Cert.Proof.KI.k1_t4_trip.sl.r_57 Cert.Proof.KI.k1_t4_trip.sl.r_58 Cert.Proof.KI.k1_t4_trip.sl.r_59
        Cert.Proof.KI.k1_t4_trip.sl.r_60 Cert.Proof.KI.k1_t4_trip.sl.r_61 Cert.Proof.KI.k1_t4_trip.sl.r_62 Cert.Proof.KI.k1_t4_trip.sl.r_63 Cert.Proof.KI.k1_t4_trip.sl.r_64
        Cert.Proof.KI.k1_t4_trip.sl.r_65 Cert.Proof.KI.k1_t4_trip.sl.r_66 Cert.Proof.KI.k1_t4_trip.sl.r_67 Cert.Proof.KI.k1_t4_trip.sl.r_68 Cert.Proof.KI.k1_t4_trip.sl.r_69
        Cert.Proof.KI.k1_t4_trip.sl.r_70 Cert.Proof.KI.k1_t4_trip.sl.r_71 Cert.Proof.KI.k1_t4_trip.sl.r_72 Cert.Proof.KI.k1_t4_trip.sl.r_73 Cert.Proof.KI.k1_t4_trip.sl.r_74
        Cert.Proof.KI.k1_t4_trip.sl.r_75 Cert.Proof.KI.k1_t4_trip.sl.r_76 Cert.Proof.KI.k1_t4_trip.sl.r_77 Cert.Proof.KI.k1_t4_trip.sl.r_78 Cert.Proof.KI.k1_t4_trip.sl.r_79
        Cert.Proof.KI.k1_t4_trip.sl.r_80 Cert.Proof.KI.k1_t4_trip.sl.r_81 Cert.Proof.KI.k1_t4_trip.sl.r_82 Cert.Proof.KI.k1_t4_trip.sl.r_83 Cert.Proof.KI.k1_t4_trip.sl.r_84
        Cert.Proof.KI.k1_t4_trip.sl.r_85 Cert.Proof.KI.k1_t4_trip.sl.r_86 Cert.Proof.KI.k1_t4_trip.sl.r_87 Cert.Proof.KI.k1_t4_trip.sl.r_88 Cert.Proof.KI.k1_t4_trip.sl.r_89
        Cert.Proof.KI.k1_t4_trip.sl.r_90 Cert.Proof.KI.k1_t4_trip.sl.r_91 Cert.Proof.KI.k1_t4_trip.sl.r_92 Cert.Proof.KI.k1_t4_trip.sl.r_93 Cert.Proof.KI.k1_t4_trip.sl.r_94
        Cert.Proof.KI.k1_t4_trip.sl.r_95 Cert.Proof.KI.k1_t4_trip.sl.r_96 Cert.Proof.KI.k1_t4_trip.sl.r_97 Cert.Proof.KI.k1_t4_trip.sl.r_98 Cert.Proof.KI.k1_t4_trip.sl.r_99
        Cert.Proof.KI.k1_t4_trip.sl.r_100 Cert.Proof.KI.k1_t4_trip.sl.r_101 Cert.Proof.KI.k1_t4_trip.sl.r_102 Cert.Proof.KI.k1_t4_trip.sl.r_103 Cert.Proof.KI.k1_t4_trip.sl.r_104
        Cert.Proof.KI.k1_t4_trip.sl.r_105 Cert.Proof.KI.k1_t4_trip.sl.r_106 Cert.Proof.KI.k1_t4_trip.sl.r_107 Cert.Proof.KI.k1_t4_trip.sl.r_108 Cert.Proof.KI.k1_t4_trip.sl.r_109
        Cert.Proof.KI.k1_t4_trip.sl.r_110 Cert.Proof.KI.k1_t4_trip.sl.r_111 Cert.Proof.KI.k1_t4_trip.sl.r_112 Cert.Proof.KI.k1_t4_trip.sl.r_113 Cert.Proof.KI.k1_t4_trip.sl.r_114
        Cert.Proof.KI.k1_t4_trip.sl.r_115 Cert.Proof.KI.k1_t4_trip.sl.r_116 Cert.Proof.KI.k1_t4_trip.sl.r_117 Cert.Proof.KI.k1_t4_trip.sl.r_118 Cert.Proof.KI.k1_t4_trip.sl.r_119
        Cert.Proof.KI.k1_t4_trip.sl.r_120 Cert.Proof.KI.k1_t4_trip.sl.r_121 Cert.Proof.KI.k1_t4_trip.sl.r_122 Cert.Proof.KI.k1_t4_trip.sl.r_123 Cert.Proof.KI.k1_t4_trip.sl.r_124
        Cert.Proof.KI.k1_t4_trip.sl.r_125 Cert.Proof.KI.k1_t4_trip.sl.r_126 Cert.Proof.KI.k1_t4_trip.sl.r_127 Cert.Proof.KI.k1_t4_trip.sl.r_128 Cert.Proof.KI.k1_t4_trip.sl.r_129
        Cert.Proof.KI.k1_t4_trip.sl.r_130 Cert.Proof.KI.k1_t4_trip.sl.r_131 Cert.Proof.KI.k1_t4_trip.sl.r_132 Cert.Proof.KI.k1_t4_trip.sl.r_133 Cert.Proof.KI.k1_t4_trip.sl.r_134
        Cert.Proof.KI.k1_t4_trip.sl.r_135 Cert.Proof.KI.k1_t4_trip.sl.r_136 Cert.Proof.KI.k1_t4_trip.sl.r_137 Cert.Proof.KI.k1_t4_trip.sl.r_138 Cert.Proof.KI.k1_t4_trip.sl.r_139
        Cert.Proof.KI.k1_t4_trip.sl.r_140 Cert.Proof.KI.k1_t4_trip.sl.r_141 Cert.Proof.KI.k1_t4_trip.sl.r_142 Cert.Proof.KI.k1_t4_trip.sl.r_143 Cert.Proof.KI.k1_t4_trip.sl.r_144
        Cert.Proof.KI.k1_t4_trip.sl.r_145 Cert.Proof.KI.k1_t4_trip.sl.r_146 Cert.Proof.KI.k1_t4_trip.sl.r_147 Cert.Proof.KI.k1_t4_trip.sl.r_148 Cert.Proof.KI.k1_t4_trip.sl.r_149
        Cert.Proof.KI.k1_t4_trip.sl.r_150 Cert.Proof.KI.k1_t4_trip.sl.r_151 Cert.Proof.KI.k1_t4_trip.sl.r_152 Cert.Proof.KI.k1_t4_trip.sl.r_153 Cert.Proof.KI.k1_t4_trip.sl.r_154
        Cert.Proof.KI.k1_t4_trip.sl.r_155 Cert.Proof.KI.k1_t4_trip.sl.r_156 Cert.Proof.KI.k1_t4_trip.sl.r_157 Cert.Proof.KI.k1_t4_trip.sl.r_158 Cert.Proof.KI.k1_t4_trip.sl.r_159
        Cert.Proof.KI.k1_t4_trip.sl.r_160 Cert.Proof.KI.k1_t4_trip.sl.r_161 Cert.Proof.KI.k1_t4_trip.sl.r_162 Cert.Proof.KI.k1_t4_trip.sl.r_163 Cert.Proof.KI.k1_t4_trip.sl.r_164
        Cert.Proof.KI.k1_t4_trip.sl.r_165 Cert.Proof.KI.k1_t4_trip.sl.r_166 Cert.Proof.KI.k1_t4_trip.sl.r_167 Cert.Proof.KI.k1_t4_trip.sl.r_168 Cert.Proof.KI.k1_t4_trip.sl.r_169
        Cert.Proof.KI.k1_t4_trip.sl.r_170 Cert.Proof.KI.k1_t4_trip.sl.r_171 Cert.Proof.KI.k1_t4_trip.sl.r_172 Cert.Proof.KI.k1_t4_trip.sl.r_173 Cert.Proof.KI.k1_t4_trip.sl.r_174
        Cert.Proof.KI.k1_t4_trip.sl.r_175 Cert.Proof.KI.k1_t4_trip.sl.r_176 Cert.Proof.KI.k1_t4_trip.sl.r_177 Cert.Proof.KI.k1_t4_trip.sl.r_178 Cert.Proof.KI.k1_t4_trip.sl.r_179
        Cert.Proof.KI.k1_t4_trip.sl.r_180 Cert.Proof.KI.k1_t4_trip.sl.r_181 Cert.Proof.KI.k1_t4_trip.sl.r_182 Cert.Proof.KI.k1_t4_trip.sl.r_183 Cert.Proof.KI.k1_t4_trip.sl.r_184
        Cert.Proof.KI.k1_t4_trip.sl.r_185 Cert.Proof.KI.k1_t4_trip.sl.r_186 Cert.Proof.KI.k1_t4_trip.sl.r_187 Cert.Proof.KI.k1_t4_trip.sl.r_188 Cert.Proof.KI.k1_t4_trip.sl.r_189
        Cert.Proof.KI.k1_t4_trip.sl.r_190 Cert.Proof.KI.k1_t4_trip.sl.r_191 Cert.Proof.KI.k1_t4_trip.sl.r_192 Cert.Proof.KI.k1_t4_trip.sl.r_193 Cert.Proof.KI.k1_t4_trip.sl.r_194
        Cert.Proof.KI.k1_t4_trip.sl.r_195 Cert.Proof.KI.k1_t4_trip.sl.r_196 Cert.Proof.KI.k1_t4_trip.sl.r_197 Cert.Proof.KI.k1_t4_trip.sl.r_198 Cert.Proof.KI.k1_t4_trip.sl.r_199
        Cert.Proof.KI.k1_t4_trip.sl.r_200 Cert.Proof.KI.k1_t4_trip.sl.r_201 Cert.Proof.KI.k1_t4_trip.sl.r_202 Cert.Proof.KI.k1_t4_trip.sl.r_203 Cert.Proof.KI.k1_t4_trip.sl.r_204
        Cert.Proof.KI.k1_t4_trip.sl.r_205 Cert.Proof.KI.k1_t4_trip.sl.r_206 Cert.Proof.KI.k1_t4_trip.sl.r_207 Cert.Proof.KI.k1_t4_trip.sl.r_208 Cert.Proof.KI.k1_t4_trip.sl.r_209
        Cert.Proof.KI.k1_t4_trip.sl.r_210 Cert.Proof.KI.k1_t4_trip.sl.r_211 Cert.Proof.KI.k1_t4_trip.sl.r_212 Cert.Proof.KI.k1_t4_trip.sl.r_213 Cert.Proof.KI.k1_t4_trip.sl.r_214
        Cert.Proof.KI.k1_t4_trip.sl.r_215 Cert.Proof.KI.k1_t4_trip.sl.r_216 Cert.Proof.KI.k1_t4_trip.sl.r_217 Cert.Proof.KI.k1_t4_trip.sl.r_218 Cert.Proof.KI.k1_t4_trip.sl.r_219
        Cert.Proof.KI.k1_t4_trip.sl.r_220 Cert.Proof.KI.k1_t4_trip.sl.r_221 Cert.Proof.KI.k1_t4_trip.sl.r_222 Cert.Proof.KI.k1_t4_trip.sl.r_223 Cert.Proof.KI.k1_t4_trip.sl.r_224
        Cert.Proof.KI.k1_t4_trip.sl.r_225 Cert.Proof.KI.k1_t4_trip.sl.r_226 Cert.Proof.KI.k1_t4_trip.sl.r_227 Cert.Proof.KI.k1_t4_trip.sl.r_228 Cert.Proof.KI.k1_t4_trip.sl.r_229
        Cert.Proof.KI.k1_t4_trip.sl.r_230 Cert.Proof.KI.k1_t4_trip.sl.r_231 Cert.Proof.KI.k1_t4_trip.sl.r_232 Cert.Proof.KI.k1_t4_trip.sl.r_233 Cert.Proof.KI.k1_t4_trip.sl.r_234
        Cert.Proof.KI.k1_t4_trip.sl.r_235 Cert.Proof.KI.k1_t4_trip.sl.r_236 Cert.Proof.KI.k1_t4_trip.sl.r_237 Cert.Proof.KI.k1_t4_trip.sl.r_238 Cert.Proof.KI.k1_t4_trip.sl.r_239
        Cert.Proof.KI.k1_t4_trip.sl.r_240 Cert.Proof.KI.k1_t4_trip.sl.r_241 Cert.Proof.KI.k1_t4_trip.sl.r_242 Cert.Proof.KI.k1_t4_trip.sl.r_243 Cert.Proof.KI.k1_t4_trip.sl.r_244
        Cert.Proof.KI.k1_t4_trip.sl.r_245 Cert.Proof.KI.k1_t4_trip.sl.r_246 Cert.Proof.KI.k1_t4_trip.sl.r_247 Cert.Proof.KI.k1_t4_trip.sl.r_248 Cert.Proof.KI.k1_t4_trip.sl.r_249
        Cert.Proof.KI.k1_t4_trip.sl.r_250 Cert.Proof.KI.k1_t4_trip.sl.r_251 Cert.Proof.KI.k1_t4_trip.sl.r_252 Cert.Proof.KI.k1_t4_trip.sl.r_253 Cert.Proof.KI.k1_t4_trip.sl.r_254
        Cert.Proof.KI.k1_t4_trip.sl.r_255 Cert.Proof.KI.k1_t4_trip.sl.r_256 Cert.Proof.KI.k1_t4_trip.sl.r_257 Cert.Proof.KI.k1_t4_trip.sl.r_258 Cert.Proof.KI.k1_t4_trip.sl.r_259
        Cert.Proof.KI.k1_t4_trip.sl.r_260 Cert.Proof.KI.k1_t4_trip.sl.r_261 Cert.Proof.KI.k1_t4_trip.sl.r_262 Cert.Proof.KI.k1_t4_trip.sl.r_263 Cert.Proof.KI.k1_t4_trip.sl.r_264
        Cert.Proof.KI.k1_t4_trip.sl.r_265 Cert.Proof.KI.k1_t4_trip.sl.r_266 Cert.Proof.KI.k1_t4_trip.sl.r_267 Cert.Proof.KI.k1_t4_trip.sl.r_268 Cert.Proof.KI.k1_t4_trip.sl.r_269
        Cert.Proof.KI.k1_t4_trip.sl.r_270 Cert.Proof.KI.k1_t4_trip.sl.r_271 Cert.Proof.KI.k1_t4_trip.sl.r_272 Cert.Proof.KI.k1_t4_trip.sl.r_273 Cert.Proof.KI.k1_t4_trip.sl.r_274
        Cert.Proof.KI.k1_t4_trip.sl.r_275 Cert.Proof.KI.k1_t4_trip.sl.r_276 Cert.Proof.KI.k1_t4_trip.sl.r_277 Cert.Proof.KI.k1_t4_trip.sl.r_278 Cert.Proof.KI.k1_t4_trip.sl.r_279
        Cert.Proof.KI.k1_t4_trip.sl.r_280 Cert.Proof.KI.k1_t4_trip.sl.r_281 Cert.Proof.KI.k1_t4_trip.sl.r_282 Cert.Proof.KI.k1_t4_trip.sl.r_283 Cert.Proof.KI.k1_t4_trip.sl.r_284
        Cert.Proof.KI.k1_t4_trip.sl.r_285 Cert.Proof.KI.k1_t4_trip.sl.r_286 Cert.Proof.KI.k1_t4_trip.sl.r_287 Cert.Proof.KI.k1_t4_trip.sl.r_288 Cert.Proof.KI.k1_t4_trip.sl.r_289
        Cert.Proof.KI.k1_t4_trip.sl.r_290 Cert.Proof.KI.k1_t4_trip.sl.r_291 Cert.Proof.KI.k1_t4_trip.sl.r_292 Cert.Proof.KI.k1_t4_trip.sl.r_293 Cert.Proof.KI.k1_t4_trip.sl.r_294
        Cert.Proof.KI.k1_t4_trip.sl.r_295 Cert.Proof.KI.k1_t4_trip.sl.r_296 Cert.Proof.KI.k1_t4_trip.sl.r_297 Cert.Proof.KI.k1_t4_trip.sl.r_298 Cert.Proof.KI.k1_t4_trip.sl.r_299
        Cert.Proof.KI.k1_t4_trip.sl.r_300 Cert.Proof.KI.k1_t4_trip.sl.r_301 Cert.Proof.KI.k1_t4_trip.sl.r_302 Cert.Proof.KI.k1_t4_trip.sl.r_303 Cert.Proof.KI.k1_t4_trip.sl.r_304
        Cert.Proof.KI.k1_t4_trip.sl.r_305 Cert.Proof.KI.k1_t4_trip.sl.r_306 Cert.Proof.KI.k1_t4_trip.sl.r_307 Cert.Proof.KI.k1_t4_trip.sl.r_308 Cert.Proof.KI.k1_t4_trip.sl.r_309
        Cert.Proof.KI.k1_t4_trip.sl.r_310 Cert.Proof.KI.k1_t4_trip.sl.r_311 Cert.Proof.KI.k1_t4_trip.sl.r_312 Cert.Proof.KI.k1_t4_trip.sl.r_313 Cert.Proof.KI.k1_t4_trip.sl.r_314
        Cert.Proof.KI.k1_t4_trip.sl.r_315 Cert.Proof.KI.k1_t4_trip.sl.r_316 Cert.Proof.KI.k1_t4_trip.sl.r_317 Cert.Proof.KI.k1_t4_trip.sl.r_318
      conv_lhs => simp only [k1_pay2, k1_pay324, k1_pay325, k1_pay326, k1_pay327, k1_pay328, k1_pay329, k1_pay330, k1_pay331, k1_pay332, k1_pay333, k1_pay334, k1_pay335, k1_pay336, k1_pay337, k1_pay338,
        k1_pay339, k1_pay340, k1_pay341, k1_pay342, k1_pay343, k1_pay344, k1_pay345, k1_pay346, k1_pay347, k1_pay348, k1_pay349, k1_pay350, k1_pay351, k1_pay352, k1_pay353, k1_pay354,
        k1_pay355, k1_pay356, k1_pay357, k1_pay358, k1_pay359, k1_pay360, k1_pay361, k1_pay362, k1_pay363, k1_pay364, k1_pay365, k1_pay366, k1_pay367, k1_pay368, k1_pay369, k1_pay370,
        k1_pay371, k1_pay372, k1_pay373, k1_pay374, k1_pay375, k1_pay376, k1_pay377, k1_pay378, k1_pay379, k1_pay380, k1_pay381, k1_pay382, k1_pay383, k1_pay384, k1_pay385, k1_pay386,
        k1_pay387, k1_pay388, k1_pay389, k1_pay390, k1_pay391, k1_pay392, k1_pay393, k1_pay394, k1_pay395, k1_pay396, k1_pay397, k1_pay398, k1_pay399, k1_pay400, k1_pay401, k1_pay402,
        k1_pay403, k1_pay404, k1_pay405, k1_pay406, k1_pay407, k1_pay408, k1_pay409, k1_pay410, k1_pay411, k1_pay412, k1_pay413, k1_pay414, k1_pay415, k1_pay416, k1_pay417, k1_pay418,
        k1_pay419, k1_pay420, k1_pay421, k1_pay422, k1_pay423, k1_pay424, k1_pay425, k1_pay426, k1_pay427, k1_pay428, k1_pay429, k1_pay430, k1_pay431, k1_pay432, k1_pay433, k1_pay434,
        k1_pay435, k1_pay436, k1_pay437, k1_pay438, k1_pay439, k1_pay440, k1_pay441, k1_pay442, k1_pay443, k1_pay444, k1_pay445, k1_pay446, k1_pay447, k1_pay448, k1_pay449, k1_pay450,
        k1_pay451, k1_pay452, k1_pay453, k1_pay454, k1_pay455, k1_pay456, k1_pay457, k1_pay458, k1_pay459, k1_pay460, k1_pay461, k1_pay462, k1_pay463, k1_pay464, k1_pay465, k1_pay466,
        k1_pay467, k1_pay468, k1_pay469, k1_pay470, k1_pay471, k1_pay472, k1_pay473, k1_pay474, k1_pay475, k1_pay476, k1_pay477, k1_pay478, k1_pay479, k1_pay480, k1_pay481, k1_pay482,
        k1_pay483, k1_pay484, k1_pay485, k1_pay486, k1_pay487, k1_pay488, k1_pay489, k1_pay490, k1_pay491, k1_pay492, k1_pay493, k1_pay494, k1_pay495, k1_pay496, k1_pay497, k1_pay498,
        k1_pay499, k1_pay500, k1_pay501, k1_pay502, k1_pay503, k1_pay504, k1_pay505, k1_pay506, k1_pay507, k1_pay508, k1_pay509, k1_pay510, k1_pay511, k1_pay512, k1_pay513, k1_pay514,
        k1_pay515, k1_pay516, k1_pay517, k1_pay518, k1_pay519, k1_pay520, k1_pay521, k1_pay522, k1_pay523, k1_pay524, k1_pay525, k1_pay526, k1_pay527, k1_pay528, k1_pay529, k1_pay530,
        k1_pay531, k1_pay532, k1_pay533, k1_pay534, k1_pay535, k1_pay536, k1_pay537, k1_pay538, k1_pay539, k1_pay540, k1_pay541, k1_pay542, k1_pay543, k1_pay544, k1_pay545, k1_pay546,
        k1_pay547, k1_pay548, k1_pay549, k1_pay550, k1_pay551, k1_pay552, k1_pay553, k1_pay554, k1_pay555, k1_pay556, k1_pay557, k1_pay558, k1_pay559, k1_pay560, k1_pay561, k1_pay562,
        k1_pay563, k1_pay564, k1_pay565, k1_pay566, k1_pay567, k1_pay568, k1_pay569, k1_pay570, k1_pay571, k1_pay572, k1_pay573, k1_pay574, k1_pay575, k1_pay576, k1_pay577, k1_pay578,
        k1_pay579, k1_pay580, k1_pay581, k1_pay582, k1_pay583, k1_pay584, k1_pay585, k1_pay586, k1_pay587, k1_pay588, k1_pay589, k1_pay590, k1_pay591, k1_pay592, k1_pay593, k1_pay594,
        k1_pay595, k1_pay596, k1_pay597, k1_pay598, k1_pay599, k1_pay600, k1_pay601, k1_pay602, k1_pay603, k1_pay604, k1_pay605, k1_pay606, k1_pay607, k1_pay608, k1_pay609, k1_pay610,
        k1_pay611, k1_pay612, k1_pay613, k1_pay614, k1_pay615, k1_pay616, k1_pay617, k1_pay618, k1_pay619, k1_pay620, k1_pay621, k1_pay622, k1_pay623, k1_pay624, k1_pay625, k1_pay626,
        k1_pay627, k1_pay628, k1_pay629, k1_pay630, k1_pay631, k1_pay632, k1_pay633, k1_pay634, k1_pay635, k1_pay636, k1_pay637, k1_pay638, k1_pay639, k1_pay640, k1_pay641, k1_pay642,
        k1_pay643, k1_pay644, Pure.addf_at, Pure.mulf_at, Pure.broadcast_at, Pure.lane_at, Pure.cast16_16, Pure.cast1x16_16, Pure.cast16_1x16]
      rfl
  isplitl [Hb]
  · iexact Hb
  · iexact Hw

set_option maxHeartbeats 1000000 in
/-- The item loop over a trip count `n` known to be the loop's: after it the chunk's `n` rows are done. -/
theorem k1_t4_run_n (t2 : Fin k1_t2_loop.trips) (fw : S8192.Idx → F .f32) (fb : S128x128.Idx → F .f32) (fo : S256x128.Idx → F .f32)
    (n : ℕ) (hn : k1_t4_loop.trips = n) :
    iprop(outPts d L fo ∗ buf1Pts d L fb ∗ awvPts d L fw)
      ⊢ wp frame (wpE (defs₀ (F := F)) 𝒱₀ (thrV d L) none) Set.univ
          (Scf.Loop.for k1_t4_loop k1_t4_ok ⟨⟩ (k1_t4_body L ieV (Memref.isWhole_whole _) awV (Memref.isWhole_whole _) embV (Memref.isWhole_whole _) resV (Memref.isWhole_whole _) idxV (Memref.isWhole_whole _) awvV (Memref.isWhole_whole _) buf0V (Memref.isWhole_whole _) buf1V (Memref.isWhole_whole _) outV (Memref.isWhole_whole _) cc1_scratch5 cc1_scratch6 cc1_scoped0 cc1_scoped1 cc1_scoped2 cc1_scoped3 t2 (Scalar.addi (Scalar.muli (Scf.iv 0#32 1#32 t2) 2#32) 1#32)))
          fun _ => iprop(outPts d L (outAfter fw fb fo (2 * t2.val + 1) n) ∗ buf1Pts d L fb ∗ awvPts d L fw) := by
  subst hn
  have ht2 : t2.val < 32 := lt_of_lt_of_eq t2.isLt trips2
  iintro ⟨Ho, Hb, Hw⟩
  sl_for (fun (k : ℕ) (_ : Unit) => iprop(outPts d L (outAfter fw fb fo (2 * t2.val + 1) k) ∗ buf1Pts d L fb ∗ awvPts d L fw)) $$ [Ho Hb Hw]
  case region =>
    intro k acc
    have hk : k.val < 4 := lt_of_lt_of_eq k.isLt trips4
    have h := k1_t4_trip d L t2 (Scalar.addi (Scalar.muli (Scf.iv 0#32 1#32 t2) 2#32) 1#32) k fw fb (outAfter fw fb fo (2 * t2.val + 1) k.val)
      (⟨8 * t2.val + k.val + 4, by omega⟩ : Fin 256) rfl (⟨k.val, hk⟩ : Fin 4) rfl
    rw [rowStep_outAfter fw fb fo (2 * t2.val + 1) (⟨k.val, hk⟩ : Fin 4) (⟨8 * t2.val + k.val + 4, by omega⟩ : Fin 256)
      (by show 8 * t2.val + k.val + 4 = 4 * (2 * t2.val + 1) + k.val; omega)] at h
    exact h
  · isplitl [Ho Hb Hw]
    · rw [outAfter_zero]
      isplitl [Ho]
      · iexact Ho
      isplitl [Hb]
      · iexact Hb
      · iexact Hw
    · iintro %acc HI
      iexact HI

/-- The item loop: the chunk's four rows of the accumulator are updated, the gather buffer and the weights kept. -/
theorem k1_t4_run (t2 : Fin k1_t2_loop.trips) (fw : S8192.Idx → F .f32) (fb : S128x128.Idx → F .f32) (fo : S256x128.Idx → F .f32) :
    iprop(outPts d L fo ∗ buf1Pts d L fb ∗ awvPts d L fw)
      ⊢ wp frame (wpE (defs₀ (F := F)) 𝒱₀ (thrV d L) none) Set.univ
          (Scf.Loop.for k1_t4_loop k1_t4_ok ⟨⟩ (k1_t4_body L ieV (Memref.isWhole_whole _) awV (Memref.isWhole_whole _) embV (Memref.isWhole_whole _) resV (Memref.isWhole_whole _) idxV (Memref.isWhole_whole _) awvV (Memref.isWhole_whole _) buf0V (Memref.isWhole_whole _) buf1V (Memref.isWhole_whole _) outV (Memref.isWhole_whole _) cc1_scratch5 cc1_scratch6 cc1_scoped0 cc1_scoped1 cc1_scoped2 cc1_scoped3 t2 (Scalar.addi (Scalar.muli (Scf.iv 0#32 1#32 t2) 2#32) 1#32)))
          fun _ => iprop(outPts d L (outAfter fw fb fo (2 * t2.val + 1) 4) ∗ buf1Pts d L fb ∗ awvPts d L fw) :=
  k1_t4_run_n d L t2 fw fb fo 4 trips4

end Cert.Proof.KI

end
-- ==== Proof.KITileSpecProofs.lean ====
/-
  The two item loops meet the specifications the chunk loop states for them.
-/
import proofs.«203743_g50225347559739_cont_8to1c4_743_14_alg».proof.Proof.KITileSpec
import proofs.«203743_g50225347559739_cont_8to1c4_743_14_alg».proof.Proof.KIItem3
import proofs.«203743_g50225347559739_cont_8to1c4_743_14_alg».proof.Proof.KIItem4

noncomputable section

namespace Cert.Proof.KI

open Cert.KernelIdeal Cert.KernelIdeal.Gen

open Idealize.ShloMosaic

variable {F : FTy → Type} [FloatOps F]

/-- The item loop on the first gather buffer is as specified. -/
theorem t3spec (d : Dev nD) (L : grid1.Coords) : T3Spec (F := F) d L :=
  fun t2 fw fb fo => k1_t3_run d L t2 fw fb fo

/-- The item loop on the second gather buffer is as specified. -/
theorem t4spec (d : Dev nD) (L : grid1.Coords) : T4Spec (F := F) d L :=
  fun t2 fw fb fo => k1_t4_run d L t2 fw fb fo

end Cert.Proof.KI

end
-- ==== Proof.KITileBody.lean ====
/-
  The task of one vector subcore, with the half and the two item loops put in.
-/
import proofs.«203743_g50225347559739_cont_8to1c4_743_14_alg».proof.Proof.KITile
import proofs.«203743_g50225347559739_cont_8to1c4_743_14_alg».proof.Proof.KITileHalf
import proofs.«203743_g50225347559739_cont_8to1c4_743_14_alg».proof.Proof.KITileSpecProofs

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The task of the vector subcore at `L` of device `d`: from its slabs of the indices and of the weights, its share of the
    table and its rows of the result, to the same with those rows at the items' accumulations. -/
theorem tile_body (d : Dev nD) (L : grid1.Coords) (ie : Buf (Elt F) (ieLoc d)) (aw : Buf (Elt F) (awLoc d)) (emb : Buf (Elt F) (embLoc d)) (fo : Buf (Elt F) (resLoc d))
    (hF : (K (F := F)).Facts) (hidx : IdxOK ie) (O : CellTallies nD τ sig (HIx 1)) (W : Waits sig (HIx 1)) (hO : ∀ g, O g none = 0) :
    iprop(levAts (K (F := F)).L (K (F := F)).lev ∗ emp ∗ tilePre d L ie aw emb fo
        ∗ scopedBufs (thrV d L) ∗ scopedSems0 (thrV d L) ∗ owes (thrV d L) O W)
      ⊢ wp frame (wpE (defs₀ (F := F)) 𝒱₀ (thrV d L) none) Set.univ (tileProg (F := F) L)
          fun _ => iprop(tilePost d L ie aw emb ∗ scopedBufs (thrV d L) ∗ scopedSems0 (thrV d L)
            ∗ ∃ W', ⌜∀ p ∈ W', p ∈ W ∨ p.2 = none⌝ ∗ owes (thrV d L) O W') :=
  tile_body_of d L ie aw emb fo hF
    (fun O' W' fo' h => half_body d L (t3spec d L) (t4spec d L) O' W' ie aw emb fo' hidx h) O W hO

end Cert.Proof.KI

end
-- ==== Proof.KILaunch.lean ====
/-
  The launch.  Each vector subcore's task is the obligation the launch theorem asks; the launch element of the
  ghost state funds the handshakes and the TensorCore pipeline's staging cells; on the TensorCore @main runs its
  head (the two reshapes around the softmax region), deals the four arrays to the two SparseCores, starts them,
  waits, and collects the arrays with the result at the items' accumulations; the final memory agrees with what
  is held at the end.
-/
import proofs.«203743_g50225347559739_cont_8to1c4_743_14_alg».proof.Proof.KIPay
import proofs.«203743_g50225347559739_cont_8to1c4_743_14_alg».proof.Proof.KISoftHead
import proofs.«203743_g50225347559739_cont_8to1c4_743_14_alg».proof.Proof.KITileBody

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (m : (ℓ : Loc nD τ sig) → Buf (Elt F) ℓ) (ρ : Dev nD → PrngReg)

/-! ## The obligation -/

theorem defs₀_vector (c : Fin τ.nSC) (s : Fin τ.nSub) :
    defs₀ (F := F) (.scVector c s) 1 ()
      = SparseCore.onTile hcore1 hsub1 (fun c s => tileProg (F := F) (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  show iprop(levAts (K (F := F)).L (K (F := F)).lev ∗ emp ∗ (∃ fo, tilePre d (Lci c i) (ieC m d) (awC m d) (embC m d) fo) ∗ _ ∗ _ ∗ _) ⊢ _
  iintro ⟨Hlv, He, ⟨%fo, Hpre⟩, Hb, Hs, HO⟩
  iapply ((tile_body d (Lci c i) (ieC m d) (awC m d) (embC m d) fo hF (idxOK_of_pre m hpre d) O W hO).trans (wp_mono frame _ _ fun _ => obl_post))
  isplitl [Hlv]; · iexact Hlv
  isplitl [He]; · iexact He
  isplitl [Hpre]; · iexact Hpre
  isplitl [Hb]; · iexact Hb
  isplitl [Hs]; · iexact Hs
  iexact HO

/-! ## The launch element of the ghost state -/

def u₀ : UU := (initOf (K (F := F)).hsCells (K (F := F)).hsToks, (initOf (Pipeline.cells cfgs cellOf_inj) (Pipeline.launchToks cfgs cellOf_inj), 1))

omit [FloatOps F] in
theorem ownU_split (a : UH) (b : UR) : (ownU ((a, (b, 1)) : UU) : sProp 𝕄) ⊢ iprop(BI.own (EH a) ∗ BI.own (ER b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => GS (F := F) d)
        ∗ bigSep Finset.univ fun thr : Thread nD τ => bigSep Finset.univ fun q : Fin 1 => (P m).x q thr) := by
  unfold u₀
  iintro Hu
  ihave H := (ownU_split (F := F) (initOf (K (F := F)).hsCells (K (F := F)).hsToks) (initOf (Pipeline.cells cfgs cellOf_inj) (Pipeline.launchToks cfgs cellOf_inj))) $$ Hu
  icases H with ⟨HH, HR⟩
  imod (fundGS (F := F)) $$ HR with HG
  imodintro
  isplitl [HH]; · iexact HH
  isplitl [HG]; · iexact HG
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

/-- What the TensorCore holds at the end: the three arguments as launched, the result at the accumulations. -/
abbrev FIN (d : Dev nD) : sProp 𝕄 :=
  iprop((((T d : Thread nD τ).loc main_arg0) ↦{fullShare} m ((T d : Thread nD τ).loc main_arg0))
    ∗ (((T d : Thread nD τ).loc main_arg1) ↦{fullShare} m ((T d : Thread nD τ).loc main_arg1))
    ∗ (((T d : Thread nD τ).loc main_arg2) ↦{fullShare} m ((T d : Thread nD τ).loc main_arg2))
    ∗ (resLoc d ↦{fullShare} (Pure.Gk (F := F) (ieC m d) (awC m d) (embC m d) : Buf (Elt F) (resLoc d))))

/-- The four arrays whole are what the two SparseCores are started with. -/
theorem st_intro (d : Dev nD) (fo : Buf (Elt F) (resLoc d)) :
    (iprop((ieLoc d ↦{fullShare} ieC m d) ∗ (awLoc d ↦{fullShare} awC m d) ∗ (embLoc d ↦{fullShare} embC m d) ∗ (resLoc d ↦{fullShare} fo)) : sProp 𝕄)
      ⊢ bigSep Finset.univ fun c : Fin ((K (F := F)).nCore 0) => (P m).st 0 d c := by
  rw [arrays_split d (ieC m d) (awC m d) (embC m d) fo]
  show (bigSep Finset.univ fun c : Fin ((K (F := F)).nCore 0) => bigSep Finset.univ fun i : Fin ((K (F := F)).nSub 0) => tilePre d (Lci c i) (ieC m d) (awC m d) (embC m d) fo)
    ⊢ bigSep Finset.univ fun c : Fin ((K (F := F)).nCore 0) => iprop(∃ fo, bigSep Finset.univ fun i : Fin ((K (F := F)).nSub 0) => tilePre d (Lci c i) (ieC m d) (awC m d) (embC m d) fo)
  exact bigSep_mono fun c _ => by
    show (bigSep Finset.univ fun i : Fin ((K (F := F)).nSub 0) => tilePre d (Lci c i) (ieC m d) (awC m d) (embC m d) fo)
      ⊢ iprop(∃ fo, bigSep Finset.univ fun i : Fin ((K (F := F)).nSub 0) => tilePre d (Lci c i) (ieC m d) (awC m d) (embC m d) fo)
    iintro H; iexists fo; iexact H

/-- What the two SparseCores bring back is the four arrays whole, the result at the accumulations. -/
theorem dn_elim (d : Dev nD) :
    (bigSep Finset.univ fun c : Fin ((K (F := F)).nCore 0) => (P m).dn 0 d c)
      ⊢ (iprop((ieLoc d ↦{fullShare} ieC m d) ∗ (awLoc d ↦{fullShare} awC m d) ∗ (embLoc d ↦{fullShare} embC m d)
          ∗ (resLoc d ↦{fullShare} (Pure.Gk (F := F) (ieC m d) (awC m d) (embC m d) : Buf (Elt F) (resLoc d)))) : sProp 𝕄) := by
  rw [← arrays_join d (ieC m d) (awC m d) (embC m d)]
  exact BI.Entails.refl _

theorem hmain (κ : GSem nD τ sig → ℕ) (d : Dev nD) :
    iprop((K (F := F)).ctx EH (P m) κ ∗ (K (F := F)).tcSt EH d 0 ∗ (K (F := F)).tcRes m ρ d ∗ GS (F := F) d)
      ⊢ wp frame (wpE ((K (F := F)).defs (D (F := F))) 𝒱 (SparseCore.T d) none) Set.univ (main d)
          fun _ => iprop((K (F := F)).tcSt EH d 1 ∗ FIN m d) := by
  rw [main_eq]
  iintro ⟨#Hctx, Hst, Hres, HG⟩
  iapply (wp_head m ρ (P m) (K (F := F)).lev (by sl_refines_lev) κ d _ _)
  isplitr; · iexact Hctx
  isplitl [Hst]; · iexact Hst
  isplitl [Hres]; · iexact Hres
  isplitl [HG]; · iexact HG
  iintro ⟨Hst, Hpost⟩
  unfold HeadPost
  icases Hpost with ⟨H0, H1, H2, Hv0, -, Hv2, ⟨%fo, Hv3⟩, -⟩
  simp only [wp_bind, wp_pure]
  iapply ((K (F := F)).wp_run (D (F := F)) 𝒱 (EH := EH) (P := P m) κ d 0) $$ [Hst H1 Hv0 Hv2 Hv3 H0 H2]
  isplitr; · iexact Hctx
  isplitl [Hst]; · iexact Hst
  isplitl [H1 Hv0 Hv2 Hv3]
  · iapply (st_intro m d fo)
    isplitl [Hv0]; · iexact Hv0
    isplitl [Hv2]; · iexact Hv2
    isplitl [H1]; · iexact H1
    iexact Hv3
  iintro ⟨Hst, Hdn⟩
  ihave Hj := (dn_elim m d) $$ Hdn
  icases Hj with ⟨-, -, H1, Hr⟩
  imodintro
  isplitl [Hst]; · iexact Hst
  isplitl [H0]; · iexact H0
  isplitl [H1]; · iexact H1
  isplitl [H2]; · iexact H2
  iexact Hr

/-! ## The final memory -/

def fq (d : Dev nD) (s' : Phys nD τ sig (Elt F)) : Prop :=
  s'.mem.mem ((T d : Thread nD τ).loc main_arg0) = m ((T d : Thread nD τ).loc main_arg0)
  ∧ s'.mem.mem ((T d : Thread nD τ).loc main_arg1) = m ((T d : Thread nD τ).loc main_arg1)
  ∧ s'.mem.mem ((T d : Thread nD τ).loc main_arg2) = m ((T d : Thread nD τ).loc main_arg2)
  ∧ s'.mem.mem (resLoc d) = (Pure.Gk (F := F) (ieC m d) (awC m d) (embC m d) : Buf (Elt F) (resLoc d))

set_option maxRecDepth 16384 in
theorem hfin (d : Dev nD) (s' : Phys nD τ sig (Elt F)) : iprop(FIN m d ∗ SI s') ⊢ (⌜fq m d s'⌝ : sProp 𝕄) := by
  iintro ⟨⟨H0, H1, H2, Hr⟩, HSI⟩
  ihave H := (persistent_entails_right (SI_pointsTo_agree (st := s') (ℓ := (T d : Thread nD τ).loc main_arg0) (I := Finset.univ) (q := fullShare) (f := m ((T d : Thread nD τ).loc main_arg0)))) $$ [HSI H0]
  · isplitl [HSI] <;> iassumption
  icases H with ⟨%h0, HSI, -⟩
  ihave H := (persistent_entails_right (SI_pointsTo_agree (st := s') (ℓ := (T d : Thread nD τ).loc main_arg1) (I := Finset.univ) (q := fullShare) (f := m ((T d : Thread nD τ).loc main_arg1)))) $$ [HSI H1]
  · isplitl [HSI] <;> iassumption
  icases H with ⟨%h1, HSI, -⟩
  ihave H := (persistent_entails_right (SI_pointsTo_agree (st := s') (ℓ := (T d : Thread nD τ).loc main_arg2) (I := Finset.univ) (q := fullShare) (f := m ((T d : Thread nD τ).loc main_arg2)))) $$ [HSI H2]
  · isplitl [HSI] <;> iassumption
  icases H with ⟨%h2, HSI, -⟩
  ihave H := (SI_pointsTo_agree (st := s') (ℓ := resLoc d) (I := Finset.univ) (q := fullShare) (f := (Pure.Gk (F := F) (ieC m d) (awC m d) (embC m d) : Buf (Elt F) (resLoc d)))) $$ [HSI Hr]
  · isplitl [HSI] <;> iassumption
  icases H with %h3
  ipureintro
  exact ⟨funext fun i => h0 i (Finset.mem_univ i), funext fun i => h1 i (Finset.mem_univ i), funext fun i => h2 i (Finset.mem_univ i), funext fun i => h3 i (Finset.mem_univ i)⟩

/-! ## The program's run -/

/-- The run's post: the result array at the accumulations, the three arguments as launched. -/
def QC : PUnit × MemSt nD τ sig (Elt F) → Prop := fun r => ∀ c : Dev nD,
  r.2.mem ((c.tc : Thread nD τ).loc main_v3) = (Pure.Gk (F := F) (ieC m c) (awC m c) (embC m c) : Buf (Elt F) (resLoc c))
  ∧ r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun d => GS (F := F) d) (FIN m) (u₀ (F := F)) (sep_elim_left.trans (hu₀ m)) (hmain m ρ) (fq m) (hfin m) (QC m)
    (fun _ h c => ⟨(h c).2.2.2, (h c).1, (h c).2.1, (h c).2.2.1⟩)

end Cert.Proof.KI

end
-- ==== Proof.Spec.lean ====
/-
  What both programs compute, as ONE function of the three argument arrays over the extended reals.

  Row `n` of the logits is turned into weights by the softmax with the row's maximum subtracted,
  `w n p = exp (att n p - max_q att n q) / sum_q exp (att n q - max_q att n q)`; item `n` then receives its own
  table row plus the weighted sum of the 32 table rows its index row names:
  `G n d = (sum_p w n p * emb (idx n p) d) + emb n d`.
  An index is read as a natural number and clamped to the table's last row; on indices inside the table
  (the only ones the precondition admits) the clamp is the identity.
-/
import Idealize.ShloMosaic.PureOps.Ideal
import Idealize.ShloMosaic.Lib.ValueIdx

noncomputable section

open scoped BigOperators

namespace Cert.Spec

open Idealize.ShloMosaic Idealize.ShloMosaic.ValueIdx

/-- The logits' and the indices' shape, the table's and the result's. -/
abbrev SAtt : Shape := ⟨2, ![16384, 32]⟩
abbrev SEmb : Shape := ⟨2, ![100001, 128]⟩
abbrev SOut : Shape := ⟨2, ![16384, 128]⟩

/-- The largest entry of row `n` of the logits: the fold of `max` from the bottom element `-∞`. -/
def rowMax (att : SAtt.Idx → EReal) (n : Fin 16384) : EReal :=
  (Finset.univ : Finset (Fin 32)).fold max ⊥ fun q => att (ix2 n q)

/-- The exponential of an entry with its row's maximum subtracted. -/
def ex (att : SAtt.Idx → EReal) (n : Fin 16384) (p : Fin 32) : EReal :=
  Ideal.exp (att (ix2 n p) - rowMax att n)

/-- The softmax weight of entry `p` of row `n`. -/
def soft (att : SAtt.Idx → EReal) (n : Fin 16384) (p : Fin 32) : EReal :=
  Ideal.div (ex att n p) (∑ q : Fin 32, ex att n q)

/-- The table row that entry `p` of index row `n` names, clamped to the last row. -/
def row (idx : SAtt.Idx → BitVec 32) (n : Fin 16384) (p : Fin 32) : Fin 100001 :=
  ⟨min (idx (ix2 n p)).toNat 100000, by omega⟩

/-- Item `n`'s own table row (the first 16384 rows of the table). -/
def own (n : Fin 16384) : Fin 100001 := ⟨n.val, by omega⟩

/-- The weighted sum of the rows an item names, without the item's own row. -/
def mix (idx : SAtt.Idx → BitVec 32) (emb : SEmb.Idx → EReal) (att : SAtt.Idx → EReal) (n : Fin 16384) (d : Fin 128) : EReal :=
  ∑ p : Fin 32, soft att n p * emb (ix2 (row idx n p) d)

/-- The result: the weighted sum plus the item's own row. -/
def G (idx : SAtt.Idx → BitVec 32) (emb : SEmb.Idx → EReal) (att : SAtt.Idx → EReal) : SOut.Idx → EReal :=
  fun j => mix idx emb att (j 0) (j 1) + emb (ix2 (own (j 0)) (j 1))

end Cert.Spec

end
-- ==== Proof.KIBridge.lean ====
/-
  The subcores' result function is the specification.  Reshaping the 16384 x 32 index array into 64 slabs of 64
  chunks of 128, and the 16384 x 32 weights into 64 slabs of 8192, keeps row-major positions: entry `(n, p)` sits
  at position `n * 32 + p` in all three layouts, so the index and the weight that item `n` reads at `p` are the
  entries `(n, p)` of the unreshaped arrays.  With the weights the softmax of the logits, the left-to-right
  accumulation from the item's own row is the weighted sum plus that row.
-/
import proofs.«203743_g50225347559739_cont_8to1c4_743_14_alg».proof.Proof.Spec
import proofs.«203743_g50225347559739_cont_8to1c4_743_14_alg».proof.Proof.KIPure
import Idealize.ShloMosaic.Lib.Pipeline.Value

noncomputable section

open scoped BigOperators

namespace Cert.Proof.Pure

open Idealize.ShloMosaic Idealize.ShloMosaic.ValueIdx

/-- The index word item `n` reads at `p` in the reshaped layout is entry `(n, p)` of the index array. -/
theorem iOf_shapeCast {α : Type} (x : Cert.Spec.SAtt.Idx → α) (h : Cert.Spec.SAtt.ShapeCasts SIe) (n : Fin 16384) (p : Fin 32) :
    shapeCast SIe x h (ix3 (⟨n.val / 256, by omega⟩ : Fin 64) (⟨(n.val % 256) / 4, by omega⟩ : Fin 64) (⟨(n.val % 4) * 32 + p.val, by omega⟩ : Fin 128))
      = x (ix2 n p) := by
  refine shapeCast_apply x h _ (ix2 n p) ?_
  rw [Shape.rowMajor_val_two, Shape.rowMajor_val_three]
  show n.val * 32 + p.val = ((n.val / 256) * 64 + (n.val % 256) / 4) * 128 + ((n.val % 4) * 32 + p.val)
  omega

/-- The weight item `n` reads at `p` in the reshaped layout is entry `(n, p)` of the weight array. -/
theorem wOf_shapeCast {α : Type} (x : Cert.Spec.SAtt.Idx → α) (h : Cert.Spec.SAtt.ShapeCasts SAw) (n : Fin 16384) (p : Fin 32) :
    shapeCast SAw x h (ix2 (⟨n.val / 256, by omega⟩ : Fin 64) (⟨(n.val % 256) * 32 + p.val, by omega⟩ : Fin 8192))
      = x (ix2 n p) := by
  refine shapeCast_apply x h _ (ix2 n p) ?_
  rw [Shape.rowMajor_val_two, Shape.rowMajor_val_two]
  show n.val * 32 + p.val = (n.val / 256) * 8192 + ((n.val % 256) * 32 + p.val)
  omega

/-- With the reshaped indices and the softmax weights, the accumulated result is the specification. -/
theorem Gk_eq_G (idx : Cert.Spec.SAtt.Idx → BitVec 32) (emb : Cert.Spec.SEmb.Idx → EReal) (att : Cert.Spec.SAtt.Idx → EReal)
    (ie : SIe.Idx → BitVec 32) (aw : SAw.Idx → EReal)
    (hie : ∀ n p, iOf ie n p = idx (ix2 n p)) (haw : ∀ n p, wOf (F := Ideal) aw n p = Cert.Spec.soft att n p) :
    Gk (F := Ideal) ie aw emb = Cert.Spec.G idx emb att := by
  funext j
  obtain ⟨n, d, rfl⟩ : ∃ (n : Fin 16384) (d : Fin 128), j = ix2 n d := ⟨j 0, j 1, eq_ix2 j⟩
  show acc32 (F := Ideal) (wOf aw n) (fun p => emb (ix2 (rowOf (iOf ie n p)) d)) (emb (ix2 (ownRow n) d))
      = (∑ p : Fin 32, Cert.Spec.soft att n p * emb (ix2 (Cert.Spec.row idx n p) d)) + emb (ix2 (Cert.Spec.own n) d)
  rw [acc32_ideal]
  congr 1
  refine Finset.sum_congr rfl fun p _ => ?_
  rw [haw, hie]
  rfl

end Cert.Proof.Pure

end
-- ==== Proof.KISoftValue.lean ====
/-
  The block-wise softmax, read over the extended reals, is the specification's softmax: entry `(n, p)` of the whole
  result is `exp (x n p - max_q x n q) / sum_q exp (x n q - max_q x n q)`.

  Row `n` lies in block `n / 2048` at row `n % 2048`, and `2048 * (n / 2048) + n % 2048 = n`; inside a block the row
  maximum is the fold of `max` from `-∞` over the row, the row sum a sum over the row, and the two per-row values are
  repeated along the row by a cast to a column followed by a broadcast.
-/
import proofs.«203743_g50225347559739_cont_8to1c4_743_14_alg».proof.Proof.KISoft
import proofs.«203743_g50225347559739_cont_8to1c4_743_14_alg».proof.Proof.Spec
import Idealize.ShloMosaic.PureOps.Ideal.Laws
import Idealize.ShloMosaic.Lib.Pipeline.Value

noncomputable section

open scoped BigOperators

namespace Cert.Proof.KI

open Idealize.ShloMosaic Idealize.ShloMosaic.ValueIdx

/-- A per-row value cast to a column and broadcast along the row reads, at `(r, p)`, the value of row `r`. -/
theorem keepdims_apply {α : Type} (v : SmRow.Idx → α) (r : Fin 2048) (p : Fin 32) :
    broadcastTo SmBlk (shapeCast SmCol v smCasts) smBroadcasts (ix2 r p) = v (ix1 r) := by
  refine (broadcastTo_apply _ smBroadcasts (ix2 r p) (ix2 r (0 : Fin 1)) (fun a => ?_)).trans ?_
  · match a with
    | ⟨0, _⟩ => rfl
    | ⟨1, _⟩ => rfl
  · refine shapeCast_apply v smCasts (ix2 r (0 : Fin 1)) (ix1 r) ?_
    rw [Shape.rowMajor_val_two, Shape.rowMajor_val_one]
    show r.val = r.val * 1 + 0
    omega

/-- Row `r` of a block with column `k` put back is `(r, k)`. -/
theorem lift_blockRow (r : Fin 2048) (k : Fin 32) : smReduces.lift (ix1 r) k = ix2 r k := by
  funext c; apply Fin.ext
  fin_cases c <;> rfl

/-- The bit pattern of `-∞` is the bottom element. -/
theorem ofBits_neg_inf : Ideal.ofBits .f32 0xFF800000#32 = (⊥ : EReal) := by simp [Ideal.ofBits, Ideal.ieee]

/-- The block's row maximum at row `r`: the fold of `max` from `-∞` over the row. -/
theorem blockMax_apply (v : FVec Ideal SmBlk .f32) (hφ : FKind.Formats .f32)
    (hacc : (0xFF800000#32 : BitVec 32) = FKind.maximumf.neutral .f32 hφ) (r : Fin 2048) :
    multiReduction (F := Ideal) .maximumf [1] SmRow v 0xFF800000#32 smReduces hφ hacc (ix1 r)
      = (Finset.univ : Finset (Fin 32)).fold max ⊥ fun q => v (ix2 r q) := by
  refine (Ideal.multiReduction_maximumf_single v 0xFF800000#32 smReduces hφ hacc (ix1 r)).trans ?_
  have hf : (v ∘ smReduces.lift (ix1 r)) = fun q : Fin 32 => v (ix2 r q) := funext fun q => congrArg v (lift_blockRow r q)
  show Finset.fold max (Ideal.ofBits .f32 0xFF800000#32) (v ∘ smReduces.lift (ix1 r)) (Finset.univ : Finset (Fin 32)) = _
  rw [hf, ofBits_neg_inf]
  rfl

/-- The block's row sum at row `r`: the sum over the row. -/
theorem blockSum_apply (v : FVec Ideal SmBlk .f32) (hφ : FKind.Formats .f32)
    (hacc : (0x00000000#32 : BitVec 32) = FKind.add.neutral .f32 hφ) (r : Fin 2048) :
    multiReduction (F := Ideal) .add [1] SmRow v 0x00000000#32 smReduces hφ hacc (ix1 r) = ∑ q : Fin 32, v (ix2 r q) := by
  refine (Ideal.multiReduction_add_single v 0x00000000#32 smReduces hφ hacc (ix1 r)).trans ?_
  exact Finset.sum_congr rfl fun q _ => congrArg v (lift_blockRow r q)

/-- The softmax of one block at `(r, p)`. -/
theorem smPay_apply (v : FVec Ideal SmBlk .f32) (r : Fin 2048) (p : Fin 32) :
    smPay (F := Ideal) v (ix2 r p)
      = Ideal.div (Ideal.exp (v (ix2 r p) - (Finset.univ : Finset (Fin 32)).fold max ⊥ fun q => v (ix2 r q)))
          (∑ k : Fin 32, Ideal.exp (v (ix2 r k) - (Finset.univ : Finset (Fin 32)).fold max ⊥ fun q => v (ix2 r q))) := by
  unfold smPay
  have hexp : ∀ k : Fin 32,
      exp (F := Ideal) (subf v (broadcastTo SmBlk (shapeCast SmCol
          (multiReduction (F := Ideal) .maximumf [1] SmRow v 0xFF800000#32 smReduces (.inl rfl) rfl) smCasts) smBroadcasts)) (ix2 r k)
        = Ideal.exp (v (ix2 r k) - (Finset.univ : Finset (Fin 32)).fold max ⊥ fun q => v (ix2 r q)) := by
    intro k
    show Ideal.exp (v (ix2 r k) - broadcastTo SmBlk (shapeCast SmCol
          (multiReduction (F := Ideal) .maximumf [1] SmRow v 0xFF800000#32 smReduces (.inl rfl) rfl) smCasts) smBroadcasts (ix2 r k)) = _
    refine congrArg (fun t => Ideal.exp (v (ix2 r k) - t)) ?_
    exact (keepdims_apply _ r k).trans (blockMax_apply v _ _ r)
  show Ideal.div (exp (F := Ideal) _ (ix2 r p)) (broadcastTo SmBlk (shapeCast SmCol
      (multiReduction (F := Ideal) .add [1] SmRow _ 0x00000000#32 smReduces (.inl rfl) rfl) smCasts) smBroadcasts (ix2 r p)) = _
  refine congrArg₂ Ideal.div (hexp p) ?_
  refine (keepdims_apply _ r p).trans ?_
  refine (blockSum_apply _ _ _ r).trans ?_
  exact Finset.sum_congr rfl fun k _ => hexp k

/-- Row `n % 2048` of block `n / 2048` is row `n`. -/
theorem smBlock_row (x : FVec Ideal SmAll .f32) (n : Fin 16384) (q : Fin 32) :
    smBlock x ⟨n.val / 2048, by have := n.isLt; omega⟩ (ix2 (⟨n.val % 2048, Nat.mod_lt _ (by decide)⟩ : Fin 2048) q) = x (ix2 n q) := by
  unfold smBlock
  refine congrArg x (congrArg (fun r : Fin 16384 => ix2 r q) (Fin.ext ?_))
  show 2048 * (n.val / 2048) + n.val % 2048 = n.val
  omega

/-- THE VALUE: the block-wise softmax over the extended reals is the specification's softmax. -/
theorem smF_apply (x : FVec Ideal SmAll .f32) (n : Fin 16384) (p : Fin 32) :
    smF (F := Ideal) x (ValueIdx.ix2 n p) = Cert.Spec.soft x n p := by
  show smPay (F := Ideal) (smBlock x ⟨n.val / 2048, _⟩) (ix2 (⟨n.val % 2048, _⟩ : Fin 2048) p) = _
  rw [smPay_apply]
  simp only [smBlock_row]
  rfl

end Cert.Proof.KI

end
-- ==== Proof.KIValue.lean ====
/-
  The subcores' result is the specification.  At the SparseCore call the index array lies reshaped into 64 slabs
  of 64 chunks of 128 and the softmax weights into 64 slabs of 8192; reshaping keeps row-major positions, so the
  index and the weight item `n` reads at `p` are the entries `(n, p)` of the index array and of the softmax of the
  logits, and the left-to-right accumulation from the item's own row is the weighted sum plus that row.
-/
import proofs.«203743_g50225347559739_cont_8to1c4_743_14_alg».proof.Proof.KIPay
import proofs.«203743_g50225347559739_cont_8to1c4_743_14_alg».proof.Proof.KIBridge
import proofs.«203743_g50225347559739_cont_8to1c4_743_14_alg».proof.Proof.KISoftValue

noncomputable section

namespace Cert.Proof.KI

open Cert.KernelIdeal Cert.KernelIdeal.Gen
open Idealize.ShloMosaic Idealize.ShloMosaic.ValueIdx
open Idealize.ShloMosaic.SparseCore (S V T)

theorem kernel_value (m : (ℓ : Loc nD τ sig) → Buf (Elt Ideal) ℓ) (c : Dev nD) :
    (Pure.Gk (F := Ideal) (ieC m c) (awC m c) (embC m c) : Buf (Elt Ideal) (resLoc c))
      = Cert.Spec.G (m ((T c : Thread nD τ).loc main_arg0)) (m ((T c : Thread nD τ).loc main_arg1)) (m ((T c : Thread nD τ).loc main_arg2)) := by
  refine Pure.Gk_eq_G _ _ _ _ _ (fun n p => ?_) (fun n p => ?_)
  · exact Pure.iOf_shapeCast _ _ n p
  · exact (Pure.wOf_shapeCast _ _ n p).trans (smF_apply _ n p)

end Cert.Proof.KI

end
-- ==== Proof.RefOps.lean ====
/-
  The reference program's entry function as a list of its host operations, the outlined lookup function's
  operations written in place at its call over the call's own buffers (the lookup's "where" is one select), and
  the run of that list: every weakly fair execution terminates with every buffer at the fold of the operations'
  results over the launch contents.
-/
import proofs.«203743_g50225347559739_cont_8to1c4_743_14_alg».proof.Proof.Gen.ReferenceIdeal
import Idealize.ShloMosaic.Lib.StableHlo.Run

noncomputable section

namespace Cert.ReferenceIdeal.RefValue

open Cert.ReferenceIdeal Cert.ReferenceIdeal.Facts₀ Idealize.ShloMosaic Idealize.ShloMosaic.TcCoe Idealize.SL.Sem Idealize.ShloMosaic.StableHlo

variable {F : FTy → Type} [FloatOps F] [hReferenceIdeal : Cert.ReferenceIdeal.Facts]

/-- The entry function's 40 operations in order: the lookup's 23 (wrap a negative index, gather, mask the rows
    out of range), then the softmax of the logits' rows, the weighted sum, the table's first rows and the sum. -/
abbrev ops : List (HloOp τ sig (Elt F)) :=
  [
    TRef.nullary main_call0.c (constantI S_ 32 0#32),
    TRef.unary main_call0.c main_call0.v0 (broadcastInDim S16384x32 ![] bcast_S_S16384x32),
    TRef.binary (.of main_arg0) main_call0.v0 main_call0.v1 (cmpi .slt),
    TRef.nullary main_call0.c_0 (constantI S_ 32 100001#32),
    TRef.unary main_call0.c_0 main_call0.v2 (broadcastInDim S16384x32 ![] bcast_S_S16384x32),
    TRef.binary (.of main_arg0) main_call0.v2 main_call0.v3 addi,
    TRef.ternary main_call0.v1 main_call0.v3 (.of main_arg0) main_call0.call0.v0 select,
    TRef.unary main_call0.call0.v0 main_call0.v5 (broadcastInDim S16384x32x1 ![0, 1] bcast_S16384x32_S16384x32x1_0_1),
    TRef.nullary main_call0.c_1 (constantI S1 32 100000#32),
    TRef.nullary main_call0.c_2 (constantI S_ 32 0#32),
    TRef.unary main_call0.c_2 main_call0.v6 (broadcastInDim S16384x32x1 ![] bcast_S_S16384x32x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S16384x32x1 ![0, 1, 2] bcast_S1x1x1_S16384x32x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x32x1_S16384x32_d2 h_S_),
    TRef.binary (.of main_arg1) main_call0.v5 main_call0.v13 (fun x i => Host.gather gather_S100001x128_S16384x32x1_S16384x32x128_2_0_n_n_0_2_1128 x i),
    TRef.unary main_call0.v12 main_call0.v14 (broadcastInDim S16384x32x128 ![0, 1] bcast_S16384x32_S16384x32x128_0_1),
    TRef.nullary main_call0.cst (constant S_ .f32 0x7FC00000#32),
    TRef.unary main_call0.cst main_call0.v15 (broadcastInDim S16384x32x128 ![] bcast_S_S16384x32x128),
    TRef.ternary main_call0.v14 main_call0.v13 main_call0.v15 main_call0.v16 select,
    nullary main_cst (constant S_ .f32 0xFF800000#32),
    binary main_arg2 main_cst main_v1 ((fun x v => Host.reduce FloatOps.maximumf x v reducesTo_S16384x32_S16384_d1 h_S_) : (⟨S16384x32, .f32⟩ : BufTy).Contents (Elt F) → (⟨S_, .f32⟩ : BufTy).Contents (Elt F) → (⟨S16384, .f32⟩ : BufTy).Contents (Elt F)),
    nullary main_cst_0 (constant S_ .f32 0xFF800000#32),
    unary main_cst_0 main_v2 (broadcastInDim S16384 ![] bcast_S_S16384 : (⟨S_, .f32⟩ : BufTy).Contents (Elt F) → (⟨S16384, .f32⟩ : BufTy).Contents (Elt F)),
    binary main_v2 main_v1 main_v3 (maximumf : (⟨S16384, .f32⟩ : BufTy).Contents (Elt F) → (⟨S16384, .f32⟩ : BufTy).Contents (Elt F) → (⟨S16384, .f32⟩ : BufTy).Contents (Elt F)),
    unary main_v3 main_v4 (broadcastInDim S16384x1 ![0] bcast_S16384_S16384x1_0 : (⟨S16384, .f32⟩ : BufTy).Contents (Elt F) → (⟨S16384x1, .f32⟩ : BufTy).Contents (Elt F)),
    unary main_v4 main_v5 (broadcastInDim S16384x32 ![0, 1] bcast_S16384x1_S16384x32_0_1 : (⟨S16384x1, .f32⟩ : BufTy).Contents (Elt F) → (⟨S16384x32, .f32⟩ : BufTy).Contents (Elt F)),
    binary main_arg2 main_v5 main_v6 (subf : (⟨S16384x32, .f32⟩ : BufTy).Contents (Elt F) → (⟨S16384x32, .f32⟩ : BufTy).Contents (Elt F) → (⟨S16384x32, .f32⟩ : BufTy).Contents (Elt F)),
    unary main_v6 main_v7 (Host.exp : (⟨S16384x32, .f32⟩ : BufTy).Contents (Elt F) → (⟨S16384x32, .f32⟩ : BufTy).Contents (Elt F)),
    nullary main_cst_1 (constant S_ .f32 0x00000000#32),
    binary main_v7 main_cst_1 main_v8 ((fun x v => Host.reduceAdd x v reducesTo_S16384x32_S16384_d1 h_S_) : (⟨S16384x32, .f32⟩ : BufTy).Contents (Elt F) → (⟨S_, .f32⟩ : BufTy).Contents (Elt F) → (⟨S16384, .f32⟩ : BufTy).Contents (Elt F)),
    unary main_v8 main_v9 (broadcastInDim S16384x1 ![0] bcast_S16384_S16384x1_0 : (⟨S16384, .f32⟩ : BufTy).Contents (Elt F) → (⟨S16384x1, .f32⟩ : BufTy).Contents (Elt F)),
    unary main_v9 main_v10 (broadcastInDim S16384x32 ![0, 1] bcast_S16384x1_S16384x32_0_1 : (⟨S16384x1, .f32⟩ : BufTy).Contents (Elt F) → (⟨S16384x32, .f32⟩ : BufTy).Contents (Elt F)),
    binary main_v7 main_v10 main_v11 (Host.divf : (⟨S16384x32, .f32⟩ : BufTy).Contents (Elt F) → (⟨S16384x32, .f32⟩ : BufTy).Contents (Elt F) → (⟨S16384x32, .f32⟩ : BufTy).Contents (Elt F)),
    binary main_v11 main_v0 main_v12 ((fun l r => Host.dotGeneral dot_S16384x32_S16384x32x128_S16384x128_1_1_n_2_0_0 none l r) : (⟨S16384x32, .f32⟩ : BufTy).Contents (Elt F) → (⟨S16384x32x128, .f32⟩ : BufTy).Contents (Elt F) → (⟨S16384x128, .f32⟩ : BufTy).Contents (Elt F)),
    unary main_arg1 main_v13 ((extractStridedSlice S16384x128 ![0, 0] · slices_S100001x128_S16384x128_0_0) : (⟨S100001x128, .f32⟩ : BufTy).Contents (Elt F) → (⟨S16384x128, .f32⟩ : BufTy).Contents (Elt F)),
    binary main_v12 main_v13 main_v14 (addf : (⟨S16384x128, .f32⟩ : BufTy).Contents (Elt F) → (⟨S16384x128, .f32⟩ : BufTy).Contents (Elt F) → (⟨S16384x128, .f32⟩ : BufTy).Contents (Elt F)) ]

set_option maxRecDepth 1024 in
/-- The entry function is that straight line: the two outlined functions unfolded at their calls. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., unary_bufs_sub .., binary_bufs_sub ..⟩

/-- From any memory with zero counters every weakly fair execution of the entry function terminates, and every
    final state has each buffer at the fold of the operations over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.RefDefs.lean ====
/-
  What the entry function's operations compose to, as a function of the three argument arrays: the lookup
  (a negative index has the table's length added; the gather; rows whose index is out of the table are masked),
  the softmax of the logits' rows, the weighted sum over the 32 looked-up rows, and the item's own row added.
-/
import proofs.«203743_g50225347559739_cont_8to1c4_743_14_alg».proof.Proof.Gen.ReferenceIdeal

noncomputable section

namespace Cert.ReferenceIdeal.RefValue

open Cert.ReferenceIdeal Cert.ReferenceIdeal.Facts₀ Idealize.ShloMosaic

variable {F : FTy → Type} [FloatOps F] [hReferenceIdeal : Cert.ReferenceIdeal.Facts]

/-- The index looked up, as the gather's start indices: a negative index has the table's length 100001 added. -/
def wrapped (idx : IVec S16384x32 32) : IVec S16384x32x1 32 :=
  broadcastInDim S16384x32x1 ![0, 1] bcast_S16384x32_S16384x32x1_0_1
    (select (cmpi .slt idx (broadcastInDim S16384x32 ![] bcast_S_S16384x32 (constantI S_ 32 0#32)))
      (addi idx (broadcastInDim S16384x32 ![] bcast_S_S16384x32 (constantI S_ 32 100001#32))) idx)

/-- Whether a start index names a table row: `0 ≤ · ≤ 100000`, signed. -/
def inRange (w : IVec S16384x32x1 32) : IVec S16384x32 1 :=
  Host.reduce IntOp.andi
    (andi (cmpi .sge w (broadcastInDim S16384x32x1 ![] bcast_S_S16384x32x1 (constantI S_ 32 0#32)))
      (cmpi .sle w (broadcastInDim S16384x32x1 ![0, 1, 2] bcast_S1x1x1_S16384x32x1_0_1_2
        (broadcastInDim S1x1x1 ![2] bcast_S1_S1x1x1_2 (constantI S1 32 100000#32)))))
    (constantI S_ 1 1#1) reducesTo_S16384x32x1_S16384x32_d2 h_S_

/-- The looked-up rows: the gather at the wrapped indices, a row whose index is out of range replaced by NaN. -/
def taken (emb : FVec F S100001x128 .f32) (idx : IVec S16384x32 32) : FVec F S16384x32x128 .f32 :=
  select (broadcastInDim S16384x32x128 ![0, 1] bcast_S16384x32_S16384x32x128_0_1 (inRange (wrapped idx)))
    (Host.gather gather_S100001x128_S16384x32x1_S16384x32x128_2_0_n_n_0_2_1128 emb (wrapped idx))
    (broadcastInDim S16384x32x128 ![] bcast_S_S16384x32x128 (constant S_ .f32 0x7FC00000#32))

/-- Each row's maximum (the reduce from -∞, then the maximum with a broadcast -∞). -/
def rowMaxT (att : FVec F S16384x32 .f32) : FVec F S16384 .f32 :=
  maximumf (broadcastInDim S16384 ![] bcast_S_S16384 (constant S_ .f32 0xFF800000#32))
    (Host.reduce FloatOps.maximumf att (constant S_ .f32 0xFF800000#32) reducesTo_S16384x32_S16384_d1 h_S_)

/-- A per-row value repeated along the row. -/
def alongRow (v : FVec F S16384 .f32) : FVec F S16384x32 .f32 :=
  broadcastInDim S16384x32 ![0, 1] bcast_S16384x1_S16384x32_0_1 (broadcastInDim S16384x1 ![0] bcast_S16384_S16384x1_0 v)

/-- The exponentials of the logits with their row's maximum subtracted. -/
def expT (att : FVec F S16384x32 .f32) : FVec F S16384x32 .f32 :=
  Host.exp (subf att (alongRow (rowMaxT att)))

/-- The softmax weights. -/
def softT (att : FVec F S16384x32 .f32) : FVec F S16384x32 .f32 :=
  Host.divf (expT att)
    (alongRow (Host.reduceAdd (expT att) (constant S_ .f32 0x00000000#32) reducesTo_S16384x32_S16384_d1 h_S_))

/-- The result: the weighted sum of the looked-up rows plus the table's first 16384 rows. -/
def outT (idx : IVec S16384x32 32) (emb : FVec F S100001x128 .f32) (att : FVec F S16384x32 .f32) : FVec F S16384x128 .f32 :=
  addf (Host.dotGeneral dot_S16384x32_S16384x32x128_S16384x128_1_1_n_2_0_0 none (softT att) (taken emb idx))
    (extractStridedSlice S16384x128 ![0, 0] emb slices_S100001x128_S16384x128_0_0)

end Cert.ReferenceIdeal.RefValue

end
-- ==== Proof.RefTerm.lean ====
/-
  The fold of the entry function's operation list at the result buffer is the composed term of the three
  arguments, and the argument buffers are never written: the run with the result named.
-/
import proofs.«203743_g50225347559739_cont_8to1c4_743_14_alg».proof.Proof.RefOps
import proofs.«203743_g50225347559739_cont_8to1c4_743_14_alg».proof.Proof.RefDefs

noncomputable section

namespace Cert.ReferenceIdeal.RefValue

open Cert.ReferenceIdeal Cert.ReferenceIdeal.Facts₀ Idealize.ShloMosaic Idealize.ShloMosaic.TcCoe Idealize.SL.Sem Idealize.ShloMosaic.StableHlo

variable {F : FTy → Type} [FloatOps F] [hReferenceIdeal : Cert.ReferenceIdeal.Facts]

attribute [local irreducible] Host.reduce Host.gather Host.reduceAdd in
set_option maxRecDepth 8192 in
/-- The fold of the operations at the result buffer is the composed term of the three arguments. -/
theorem out_eq (V : Valuation τ sig (Elt F)) :
    after ops V (main_v14 : DevRef τ sig)
      = outT (V (main_arg0 : DevRef τ sig)) (V (main_arg1 : DevRef τ sig)) (V (main_arg2 : DevRef τ sig)) := by
  after_results_simp
  rfl

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp

/-- From any memory with zero counters every weakly fair execution of the entry function terminates with the result at
    the composed term of the arguments' launch contents and the arguments unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v14)
        = outT (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v14).trans (out_eq _),
      (h c main_arg0).trans (arg0_eq _), (h c main_arg1).trans (arg1_eq _), (h c main_arg2).trans (arg2_eq _)⟩)
    (run_after m ρ)

end Cert.ReferenceIdeal.RefValue

end
-- ==== Proof.RefRead.lean ====
/-
  The composed term of the reference's operations, read at an index over the extended reals, is the
  specification `Spec.G` wherever every index lies in the table (`toNat ≤ 100000`): then the wrap-around
  of negative indices does nothing, the mask of out-of-range rows is true everywhere, and the gather's clamp is the
  specification's.  The softmax chain reads as the specification spells it: the row maximum is the fold of `max`
  from `-∞`, the host's sum starts from zero.
-/
import proofs.«203743_g50225347559739_cont_8to1c4_743_14_alg».proof.Proof.RefDefs
import proofs.«203743_g50225347559739_cont_8to1c4_743_14_alg».proof.Proof.Spec
import Idealize.ShloMosaic.Lib.IdealHost
import Idealize.ShloMosaic.Lib.Pipeline.Value
import Idealize.ShloMosaic.Lib.ReduceAll

noncomputable section

open scoped BigOperators

namespace Cert.ReferenceIdeal.RefValue

open Cert.ReferenceIdeal Cert.ReferenceIdeal.Facts₀ Idealize.ShloMosaic Idealize.ShloMosaic.ValueIdx

variable [hReferenceIdeal : Cert.ReferenceIdeal.Facts]

/-! ## Words -/

/-- A word at most 100000 unsigned is that number signed. -/
theorem toInt_of_le (w : BitVec 32) (h : w.toNat ≤ 100000) : w.toInt = (w.toNat : Int) := by
  unfold BitVec.toInt
  split <;> omega

/-- Such a word is not negative: the signed comparison with zero is false. -/
theorem slt_zero_of_le (w : BitVec 32) (h : w.toNat ≤ 100000) : IntOp.cmpi .slt w 0#32 = 0#1 := by
  apply eq_zero_of_ne_one
  intro e
  have h1 := IntOp.cmpi_slt.1 e
  rw [toInt_of_le w h, show (0#32 : BitVec 32).toInt = 0 from by decide] at h1
  omega

theorem sge_zero_of_le (w : BitVec 32) (h : w.toNat ≤ 100000) : IntOp.cmpi .sge w 0#32 = 1#1 := by
  apply IntOp.cmpi_sge.2
  rw [toInt_of_le w h, show (0#32 : BitVec 32).toInt = 0 from by decide]
  omega

theorem sle_max_of_le (w : BitVec 32) (h : w.toNat ≤ 100000) : IntOp.cmpi .sle w 100000#32 = 1#1 := by
  apply IntOp.cmpi_sle.2
  rw [toInt_of_le w h, show (100000#32 : BitVec 32).toInt = 100000 from by decide]
  omega

/-- A left fold by `and` from 1 over 1s is 1. -/
theorem foldl_andi_one {ι : Type} (f : ι → BitVec 1) :
    ∀ (l : List ι) (init : BitVec 1), init = 1#1 → (∀ n ∈ l, f n = 1#1) → l.foldl (fun r n => IntOp.andi r (f n)) init = 1#1
  | [], init, h, _ => h
  | a :: l, init, h, hl => by
    refine foldl_andi_one f l _ ?_ (fun n hn => hl n (List.mem_cons_of_mem _ hn))
    exact IntOp.andi_eq_one.2 ⟨h, hl a (List.mem_cons_self ..)⟩

/-! ## The lookup -/

/-- The start index at `(n, p, ·)` is the index `idx[n, p]` itself when that is in the table. -/
theorem wrapped_apply (idx : IVec S16384x32 32) (n : Fin 16384) (p : Fin 32) (z : Fin 1) (h : (idx (ix2 n p)).toNat ≤ 100000) :
    wrapped idx (ix3 n p z) = idx (ix2 n p) := by
  unfold wrapped
  rw [broadcastInDim_apply _ _ _ (ix3 n p z) (ix2 n p) (fun a => by fin_cases a <;> rfl)]
  show Scalar.select (IntOp.cmpi .slt (idx (ix2 n p)) 0#32) _ (idx (ix2 n p)) = _
  rw [slt_zero_of_le _ h, select_zero]

/-- With every index in the table, every start index passes the range test. -/
theorem inRange_one (idx : IVec S16384x32 32) (hidx : ∀ i, (idx i).toNat ≤ 100000) (j : S16384x32.Idx) :
    inRange (wrapped idx) j = 1#1 := by
  unfold inRange
  rw [Host.reduce_eq_foldl]
  refine foldl_andi_one _ _ _ rfl (fun i _ => ?_)
  obtain ⟨n, p, z, rfl⟩ : ∃ (n : Fin 16384) (p : Fin 32) (z : Fin 1), i = ix3 n p z := ⟨i 0, i 1, i 2, eq_ix3 i⟩
  show IntOp.andi (IntOp.cmpi .sge (wrapped idx (ix3 n p z)) 0#32) (IntOp.cmpi .sle (wrapped idx (ix3 n p z)) 100000#32) = 1#1
  rw [wrapped_apply idx n p z (hidx _)]
  exact IntOp.andi_eq_one.2 ⟨sge_zero_of_le _ (hidx _), sle_max_of_le _ (hidx _)⟩

local notation "GD" => gather_S100001x128_S16384x32x1_S16384x32x128_2_0_n_n_0_2_1128

/-- The gather at `(n, p, d)`: column `d` of the table row the start index names, read signed and clamped to the
    last row. -/
theorem gather_apply {α : Type} (emb : S100001x128.Idx → α) (w : IVec S16384x32x1 32) (n : Fin 16384) (p : Fin 32) (d : Fin 128) :
    Host.gather gather_S100001x128_S16384x32x1_S16384x32x128_2_0_n_n_0_2_1128 emb w (ix3 n p d)
      = emb (ix2 (⟨min (w (ix3 n p (0 : Fin 1))).toInt.toNat 100000, by omega⟩ : Fin 100001) d) := by
  unfold Host.gather
  congr 1
  funext a
  refine Fin.ext ?_
  fin_cases a
  · show GatherDims.start _ (ix3 n p d) w 0 + GatherDims.batchCoord _ (ix3 n p d) 0 + GatherDims.offCoord _ (ix3 n p d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (GatherDims.startIndexMap GD) from List.mem_singleton.mpr rfl)]
    have hsi : GatherDims.siIdx GD (ix3 n p d) ⟨List.idxOf (0 : Fin 2) (GatherDims.startIndexMap GD),
        List.idxOf_lt_length_iff.2 (List.mem_singleton.mpr rfl)⟩ = ix3 n p (0 : Fin 1) := by
      funext b; refine Fin.ext ?_
      match b with
      | ⟨0, _⟩ => rfl
      | ⟨1, _⟩ => rfl
      | ⟨2, _⟩ => rfl
    rw [hsi]
    rfl
  · show GatherDims.start _ (ix3 n p d) w 1 + GatherDims.batchCoord _ (ix3 n p d) 1 + GatherDims.offCoord _ (ix3 n p d) 1 = _
    rw [GatherDims.batchCoord_eq_zero _ _ _ List.not_mem_nil]
    unfold GatherDims.start
    rw [dif_neg (show (1 : Fin 2) ∉ (GatherDims.startIndexMap GD) from by decide)]
    simp only [Nat.add_zero, Nat.zero_add]
    rfl

/-- The looked-up rows at `(n, p, d)`: column `d` of the table row the specification names. -/
theorem taken_apply (emb : FVec Ideal S100001x128 .f32) (idx : IVec S16384x32 32) (hidx : ∀ i, (idx i).toNat ≤ 100000)
    (n : Fin 16384) (p : Fin 32) (d : Fin 128) :
    taken emb idx (ix3 n p d) = emb (ix2 (Cert.Spec.row idx n p) d) := by
  unfold taken
  have hm : broadcastInDim S16384x32x128 ![0, 1] bcast_S16384x32_S16384x32x128_0_1 (inRange (wrapped idx)) (ix3 n p d) = 1#1 :=
    inRange_one idx hidx _
  rw [select_apply, hm, select_one, gather_apply]
  refine congrArg emb ?_
  refine congrArg (fun r : Fin 100001 => ix2 r d) (Fin.ext ?_)
  show min (wrapped idx (ix3 n p (0 : Fin 1))).toInt.toNat 100000 = min (idx (ix2 n p)).toNat 100000
  rw [wrapped_apply idx n p 0 (hidx _), toInt_of_le _ (hidx _)]
  rfl

/-! ## The softmax -/

/-- A per-row value repeated along the row, read at `(n, p)`. -/
theorem alongRow_apply {F : FTy → Type} [FloatOps F] (v : FVec F S16384 .f32) (n : Fin 16384) (p : Fin 32) :
    alongRow v (ix2 n p) = v (ix1 n) := by
  unfold alongRow
  rw [broadcastInDim_apply _ _ _ (ix2 n p) (ix2 n (0 : Fin 1)) (fun a => by fin_cases a <;> rfl),
    broadcastInDim_apply _ _ _ (ix2 n (0 : Fin 1)) (ix1 n) (fun a => by fin_cases a; rfl)]

/-- Row `n` with column `k` put back is `(n, k)`. -/
theorem lift_row (h : S16384x32.Reduces [1] S16384) (n : Fin 16384) (k : Fin 32) : h.lift (ix1 n) k = ix2 n k := by
  funext c; apply Fin.ext
  fin_cases c <;> rfl

theorem ofBits_neg_inf : Ideal.ofBits .f32 0xFF800000#32 = (⊥ : EReal) := by simp [Ideal.ofBits, Ideal.ieee]

/-- The row maximum is the specification's fold of `max` from `-∞`. -/
theorem rowMaxT_apply (att : FVec Ideal S16384x32 .f32) (n : Fin 16384) : rowMaxT att (ix1 n) = Cert.Spec.rowMax att n := by
  have h : S16384x32.Reduces [1] S16384 := by decide
  unfold rowMaxT Cert.Spec.rowMax
  rw [maximumf_apply, broadcastInDim_scalar_apply, constant_apply, ofBits_neg_inf,
    Host.reduce_eq_fold_single FloatOps.maximumf att _ reducesTo_S16384x32_S16384_d1 h h_S_, constant_apply, ofBits_neg_inf]
  have hf : (att ∘ h.lift (ix1 n)) = fun q : Fin 32 => att (ix2 n q) := funext fun q => congrArg att (lift_row h n q)
  rw [hf]
  exact max_eq_right bot_le

/-- The exponentials are the specification's. -/
theorem expT_apply (att : FVec Ideal S16384x32 .f32) (n : Fin 16384) (p : Fin 32) : expT att (ix2 n p) = Cert.Spec.ex att n p := by
  show Ideal.exp (att (ix2 n p) - alongRow (rowMaxT att) (ix2 n p)) = _
  rw [alongRow_apply, rowMaxT_apply]
  rfl

/-- The softmax weights are the specification's. -/
theorem softT_apply (att : FVec Ideal S16384x32 .f32) (n : Fin 16384) (p : Fin 32) : softT att (ix2 n p) = Cert.Spec.soft att n p := by
  have h : S16384x32.Reduces [1] S16384 := by decide
  unfold softT Cert.Spec.soft
  rw [hostDivf_apply, alongRow_apply, expT_apply, hostReduceAdd_apply, Ideal.hostReduceAdd_single reducesTo_S16384x32_S16384_d1 h,
    constant_apply, Ideal.ofBits_zero_f32, zero_add]
  refine congrArg (Ideal.div (Cert.Spec.ex att n p)) ?_
  refine Finset.sum_congr rfl fun k _ => ?_
  rw [lift_row h n k]
  exact expT_apply att n k

/-! ## The weighted sum and the item's own row -/

/-- The batched contraction at `(n, d)`: the sum over the 32 entries of the row. -/
theorem dot_apply (l : FVec Ideal S16384x32 .f32) (r : FVec Ideal S16384x32x128 .f32) (n : Fin 16384) (d : Fin 128) :
    Host.dotGeneral dot_S16384x32_S16384x32x128_S16384x128_1_1_n_2_0_0 none l r (ix2 n d) = ∑ p : Fin 32, l (ix2 n p) * r (ix3 n p d) := by
  simp only [Host.dotGeneral]
  rw [Ideal.dotGeneral_apply]
  rw [← Equiv.sum_comp (contrEquiv1 dot_S16384x32_S16384x32x128_S16384x128_1_1_n_2_0_0 32 rfl rfl).symm]
  refine Finset.sum_congr rfl fun p _ => ?_
  have e1 : dot_S16384x32_S16384x32x128_S16384x128_1_1_n_2_0_0.lhsIdx (ix2 n d)
      ((contrEquiv1 dot_S16384x32_S16384x32x128_S16384x128_1_1_n_2_0_0 32 rfl rfl).symm p) = ix2 n p := by
    funext a; apply Fin.ext
    fin_cases a <;> rfl
  have e2 : dot_S16384x32_S16384x32x128_S16384x128_1_1_n_2_0_0.rhsIdx (ix2 n d)
      ((contrEquiv1 dot_S16384x32_S16384x32x128_S16384x128_1_1_n_2_0_0 32 rfl rfl).symm p) = ix3 n p d := by
    funext a; apply Fin.ext
    fin_cases a <;> rfl
  rw [e1, e2]

/-- The table's first rows at `(n, d)`. -/
theorem own_apply {α : Type} (emb : S100001x128.Idx → α) (n : Fin 16384) (d : Fin 128) :
    extractStridedSlice S16384x128 ![0, 0] emb slices_S100001x128_S16384x128_0_0 (ix2 n d) = emb (ix2 (Cert.Spec.own n) d) :=
  extractStridedSlice_apply _ emb _ (ix2 n d) (ix2 (Cert.Spec.own n) d) (fun a => by
    fin_cases a
    · show n.val = 0 + n.val; omega
    · show d.val = 0 + d.val; omega)

/-- THE VALUE: with every index in the table, the composed term over the extended reals is the specification. -/
theorem outT_eq (idx : IVec S16384x32 32) (emb : FVec Ideal S100001x128 .f32) (att : FVec Ideal S16384x32 .f32)
    (hidx : ∀ i, (idx i).toNat ≤ 100000) : outT idx emb att = Cert.Spec.G idx emb att := by
  funext j
  obtain ⟨n, d, rfl⟩ : ∃ (n : Fin 16384) (d : Fin 128), j = ix2 n d := ⟨j 0, j 1, eq_ix2 j⟩
  unfold outT
  rw [addf_apply, dot_apply, own_apply]
  show _ = Cert.Spec.mix idx emb att n d + emb (ix2 (Cert.Spec.own n) d)
  unfold Cert.Spec.mix
  refine congrArg (· + emb (ix2 (Cert.Spec.own n) d)) ?_
  refine Finset.sum_congr rfl fun p _ => ?_
  rw [softT_apply, taken_apply emb idx hidx]

end Cert.ReferenceIdeal.RefValue

end
-- ==== Proof.RefRun.lean ====
/-
  The reference program's run at the extended reals: from any memory whose index array lies in the table, every
  weakly fair execution of the entry function terminates with the result equal to the specification `Spec.G` of
  the three argument arrays, and the arguments unchanged.  Its frame claim follows: the input-domain predicate
  bounds every index by 100000.
-/
import proofs.«203743_g50225347559739_cont_8to1c4_743_14_alg».proof.Defs
import proofs.«203743_g50225347559739_cont_8to1c4_743_14_alg».proof.Proof.Gen.ReferenceIdeal
import proofs.«203743_g50225347559739_cont_8to1c4_743_14_alg».proof.Proof.Spec
import proofs.«203743_g50225347559739_cont_8to1c4_743_14_alg».proof.Proof.RefTerm
import proofs.«203743_g50225347559739_cont_8to1c4_743_14_alg».proof.Proof.RefRead
import proofs.«203743_g50225347559739_cont_8to1c4_743_14_alg».proof.Proof.PreFacts

noncomputable section

namespace Cert.ReferenceIdeal.RefValue

open Cert.ReferenceIdeal Idealize.ShloMosaic Idealize.ShloMosaic.TcCoe Idealize.SL.Sem

/-- With every index in the table, the reference computes the specification and leaves its arguments unchanged. -/
theorem run [hReferenceIdeal : Cert.ReferenceIdeal.Facts]
    (m : (ℓ : Loc Cert.ReferenceIdeal.nD Cert.ReferenceIdeal.τ Cert.ReferenceIdeal.sig) → Buf (Elt Ideal) ℓ)
    (g : Dev Cert.ReferenceIdeal.nD → PrngReg)
    (hidx : ∀ (c : Dev nD) (i : S16384x32.Idx), ((m ((c.tc : Thread nD τ).loc main_arg0) : IVec S16384x32 32) i).toNat ≤ 100000) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread nD τ).loc main_v14) = Cert.Spec.G (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) :=
  (θ_run _ _ _).mono (fun _ h c => by
      obtain ⟨h0, h1, h2, h3⟩ := h c
      exact ⟨h0.trans (outT_eq _ _ _ (hidx c)), h1, h2, h3⟩)
    (run_term m g)

/-- The reference's frame: it runs, and its argument arrays end unchanged. -/
theorem frame_ri [hReferenceIdeal : Cert.ReferenceIdeal.Facts] [hPre_input_domain : Cert.Pre_input_domain.Facts] :
    Cert.frame_ReferenceIdeal := by
  intro m g hpre
  have hidx : ∀ (c : Dev nD) (i : S16384x32.Idx), ((m ((c.tc : Thread nD τ).loc main_arg0) : IVec S16384x32 32) i).toNat ≤ 100000 :=
    fun c => Cert.PreFacts.idx_le (F := Ideal) _ _ _ (hpre c)
  exact (θ_run _ _ _).mono (fun _ h c => (h c).2) (run m g hidx)

end Cert.ReferenceIdeal.RefValue

end
-- ==== Proof.lean ====
/-
  The claim.  For item `n` and column `d` both programs compute

      out n d = (sum over p < 32 of w n p * emb (idx n p) d) + emb n d,      w n = softmax of row n of the logits,

  the sum taken over the extended reals (`Cert.Spec.G`).  The reference does it with host operations: a row
  gather (its wrap-around, clamp and mask are the identity on indices inside the table, which is what the
  precondition says of every index), the softmax with the row's maximum subtracted, a batched dot product,
  the add of the table's first rows.  The kernel computes the softmax on the TensorCore in eight row blocks,
  reshapes indices and weights into 64 slabs, and has each of the 32 vector subcores of the two SparseCores
  work through two slabs: per slab it copies the indices, the weights and the items' own table rows in, gathers
  the named rows chunk by chunk (128 rows at a time, two buffers in turn, one gather outstanding per
  semaphore), accumulates item by item `acc := acc + w p * row p` from the item's own row in the order
  `p = 0, …, 31`, and copies the 256 finished rows out.  Addition on the extended reals is commutative and
  associative, so the left-to-right accumulation is the sum plus the own row; no finiteness is used.

  The three frames are the runs with the values dropped; the idealization rewrote nothing, so `preserves` is
  trivial; `algebraic` pairs the kernel's run at the ideal instance with the reference's.
-/
import proofs.«203743_g50225347559739_cont_8to1c4_743_14_alg».proof.Defs
import proofs.«203743_g50225347559739_cont_8to1c4_743_14_alg».proof.Proof.Gen.Kernel
import proofs.«203743_g50225347559739_cont_8to1c4_743_14_alg».proof.Proof.Gen.KernelIdeal
import proofs.«203743_g50225347559739_cont_8to1c4_743_14_alg».proof.Proof.Gen.ReferenceIdeal
import proofs.«203743_g50225347559739_cont_8to1c4_743_14_alg».proof.Proof.Gen.Pre_input_domain
import proofs.«203743_g50225347559739_cont_8to1c4_743_14_alg».proof.Proof.PreFacts
import proofs.«203743_g50225347559739_cont_8to1c4_743_14_alg».proof.Proof.KBLaunch
import proofs.«203743_g50225347559739_cont_8to1c4_743_14_alg».proof.Proof.KILaunch
import proofs.«203743_g50225347559739_cont_8to1c4_743_14_alg».proof.Proof.KIValue
import proofs.«203743_g50225347559739_cont_8to1c4_743_14_alg».proof.Proof.RefRun
import Idealize.ShloMosaic.Adequacy
import Idealize.ShloMosaic.Init

noncomputable section

namespace Cert.Proof

open Idealize.ShloMosaic Idealize.SL.Sem

/-- The precondition bounds every index word of the kernel's launch memory (word-level instance). -/
theorem preOK_kb (m : (ℓ : Loc Cert.Kernel.nD Cert.Kernel.τ Cert.Kernel.sig) → Buf (Elt Bits) ℓ)
    (h : Cert.Pre_Kernel (hPre_input_domain := Cert.Pre_input_domain.Gen.facts) m) : Cert.Proof.KB.PreOK m :=
  fun d => @Cert.PreFacts.idx_le _ _ Cert.Pre_input_domain.Gen.facts _ _ _ (h d)

/-- The same at the ideal instance. -/
theorem preOK_ki (m : (ℓ : Loc Cert.KernelIdeal.nD Cert.KernelIdeal.τ Cert.KernelIdeal.sig) → Buf (Elt Ideal) ℓ)
    (h : Cert.Pre_KernelIdeal (hPre_input_domain := Cert.Pre_input_domain.Gen.facts) m) : Cert.Proof.KI.PreOK m :=
  fun d => @Cert.PreFacts.idx_le _ _ Cert.Pre_input_domain.Gen.facts _ _ _ (h d)

theorem frame_k : Cert.frame_Kernel (hKernel := Cert.Kernel.Gen.facts) (hPre_input_domain := Cert.Pre_input_domain.Gen.facts) :=
  fun m ρ hpre => (θ_run Cert.Kernel.defs _ _).mono (fun _ h c => ⟨(h c).2.1, (h c).2.2.1, (h c).2.2.2⟩)
    (Cert.Proof.KB.run_main (F := Bits) m ρ (preOK_kb m hpre))

theorem frame_ki : Cert.frame_KernelIdeal (hKernelIdeal := Cert.KernelIdeal.Gen.facts) (hPre_input_domain := Cert.Pre_input_domain.Gen.facts) :=
  fun m ρ hpre => (θ_run Cert.KernelIdeal.defs _ _).mono (fun _ h c => ⟨(h c).2.1, (h c).2.2.1, (h c).2.2.2⟩)
    (Cert.Proof.KI.run_main (F := Ideal) m ρ (preOK_ki m hpre))

/-- Both idealized programs end with the result array at `Cert.Spec.G` of the arguments. -/
theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) := by
  intro m g m' g' hpre hagree
  have hidx := preOK_ki m hpre
  refine ⟨fun c => Cert.Spec.G (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · exact (θ_run Cert.KernelIdeal.defs _ _).mono (fun _ h c => ⟨(h c).1.trans (Cert.Proof.KI.kernel_value m c), (h c).2⟩)
      (Cert.Proof.KI.run_main (F := Ideal) m g hidx)
  · refine (θ_run Cert.ReferenceIdeal.defs _ _).mono (fun _ h c => ⟨?_, (h c).2⟩)
      (Cert.ReferenceIdeal.RefValue.run (hReferenceIdeal := Cert.ReferenceIdeal.Gen.facts) m' g' (fun c i => ?_))
    · rw [(h c).1, (hagree c).1, (hagree c).2.1, (hagree c).2.2]
    · rw [(hagree c).1]; exact hidx c i

theorem claim : Cert.Claim := ⟨Cert.Kernel.Gen.facts, Cert.KernelIdeal.Gen.facts, Cert.ReferenceIdeal.Gen.facts, Cert.Pre_input_domain.Gen.facts,
  frame_k, frame_ki, Cert.ReferenceIdeal.RefValue.frame_ri, trivial, algebraic⟩

end Cert.Proof

end
